-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1536x64 : Shape := ⟨2, ![1536, 64]⟩
abbrev S16x64 : Shape := ⟨2, ![16, 64]⟩
abbrev S16 : Shape := ⟨1, ![16]⟩
abbrev S16x16 : Shape := ⟨2, ![16, 16]⟩
abbrev S8x16 : Shape := ⟨2, ![8, 16]⟩
abbrev S8 : Shape := ⟨1, ![8]⟩
abbrev S8x8 : Shape := ⟨2, ![8, 8]⟩
abbrev S1x8 : Shape := ⟨2, ![1, 8]⟩
abbrev S1 : Shape := ⟨1, ![1]⟩
abbrev S_ : Shape := ⟨0, ![]⟩

class Facts : Prop where
  bcast_S_S1536x64 : S_.BroadcastsInDim S1536x64 (![] : Fin 0 → Fin S1536x64.rank)
  reducesTo_S1536x64_S_d0_1 : S1536x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x8 .f32) (main_cst_32 : FVec F S_ .f32) : IVec S_ 1 :=
  let main_v85 : FVec F S1x8 .f32 := broadcastInDim S1x8 ![] bcast_S_S1x8 main_cst_32
  let main_v86 : IVec S1x8 1 := cmpf .olt main_v84 main_v85
  let main_c_33 : IVec S_ 1 := constantI S_ 1 1#1
  let main_v87 : IVec S_ 1 := (fun x v => Host.reduce IntOp.andi x v reducesTo_S1x8_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S8 .f32) (main_arg15 : FVec F S8 .f32) (main_arg16 : FVec F S8 .f32) (main_arg17 : FVec F S1x8 .f32) (main_arg18 : FVec F S1 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S8 .f32 := Host.absf main_arg15
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S1x8 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S8 .f32) (main_arg12 : FVec F S8 .f32) (main_arg13 : FVec F S8x8 .f32) (main_arg14 : FVec F S8 .f32) (main_arg15 : FVec F S8 .f32) (main_arg16 : FVec F S8 .f32) (main_arg17 : FVec F S1x8 .f32) (main_arg18 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x8 .f32 := Host.absf main_arg13
  let main_cst_24 : FVec F S_ .f32 := constant S_ .f32 0x7F800000#32
  let main_v65 : FVec F S8x8 .f32 := broadcastInDim S8x8 ![] bcast_S_S8x8 main_cst_24
  let main_v66 : IVec S8x8 1 := cmpf .olt main_v64 main_v65
  let main_c_25 : IVec S_ 1 := constantI S_ 1 1#1
  let main_v67 : IVec S_ 1 := (fun x v => Host.reduce IntOp.andi x v reducesTo_S8x8_S_d0_1 h_S_) main_v66 main_c_25
  fn_part4 (F := F) main_arg14 main_arg15 main_arg16 main_arg17 main_arg18 main_v63 main_v67

def fn_part2 {F : FTy → Type} [FloatOps F] (main_arg7 : FVec F S16 .f32) (main_arg8 : FVec F S16 .f32) (main_arg9 : FVec F S8x16 .f32) (main_arg10 : FVec F S8 .f32) (main_arg11 : FVec F S8 .f32) (main_arg12 : FVec F S8 .f32) (main_arg13 : FVec F S8x8 .f32) (main_arg14 : FVec F S8 .f32) (main_arg15 : FVec F S8 .f32) (main_arg16 : FVec F S8 .f32) (main_arg17 : FVec F S1x8 .f32) (main_arg18 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S8x16 .f32 := Host.absf main_arg9
  let main_cst_16 : FVec F S_ .f32 := constant S_ .f32 0x7F800000#32
  let main_v45 : FVec F S8x16 .f32 := broadcastInDim S8x16 ![] bcast_S_S8x16 main_cst_16
  let main_v46 : IVec S8x16 1 := cmpf .olt main_v44 main_v45
  let main_c_17 : IVec S_ 1 := constantI S_ 1 1#1
  let main_v47 : IVec S_ 1 := (fun x v => Host.reduce IntOp.andi x v reducesTo_S8x16_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_v48 main_v49 main_v50

def fn_part1 {F : FTy → Type} [FloatOps F] (main_arg4 : FVec F S16 .f32) (main_arg5 : FVec F S16x16 .f32) (main_arg6 : FVec F S16 .f32) (main_arg7 : FVec F S16 .f32) (main_arg8 : FVec F S16 .f32) (main_arg9 : FVec F S8x16 .f32) (main_arg10 : FVec F S8 .f32) (main_arg11 : FVec F S8 .f32) (main_arg12 : FVec F S8 .f32) (main_arg13 : FVec F S8x8 .f32) (main_arg14 : FVec F S8 .f32) (main_arg15 : FVec F S8 .f32) (main_arg16 : FVec F S8 .f32) (main_arg17 : FVec F S1x8 .f32) (main_arg18 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1536x64 .f32) (main_arg1 : FVec F S16x64 .f32) (main_arg2 : FVec F S16 .f32) (main_arg3 : FVec F S16 .f32) (main_arg4 : FVec F S16 .f32) (main_arg5 : FVec F S16x16 .f32) (main_arg6 : FVec F S16 .f32) (main_arg7 : FVec F S16 .f32) (main_arg8 : FVec F S16 .f32) (main_arg9 : FVec F S8x16 .f32) (main_arg10 : FVec F S8 .f32) (main_arg11 : FVec F S8 .f32) (main_arg12 : FVec F S8 .f32) (main_arg13 : FVec F S8x8 .f32) (main_arg14 : FVec F S8 .f32) (main_arg15 : FVec F S8 .f32) (main_arg16 : FVec F S8 .f32) (main_arg17 : FVec F S1x8 .f32) (main_arg18 : FVec F S1 .f32) : IVec S_ 1 :=
  let main_v0 : FVec F S1536x64 .f32 := Host.absf main_arg0
  let main_cst : FVec F S_ .f32 := constant S_ .f32 0x7F800000#32
  let main_v1 : FVec F S1536x64 .f32 := broadcastInDim S1536x64 ![] bcast_S_S1536x64 main_cst
  let main_v2 : IVec S1536x64 1 := cmpf .olt main_v0 main_v1
  let main_c : IVec S_ 1 := constantI S_ 1 1#1
  let main_v3 : IVec S_ 1 := (fun x v => Host.reduce IntOp.andi x v reducesTo_S1536x64_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1536x64 : Shape := ⟨2, ![1536, 64]⟩
abbrev S16x64 : Shape := ⟨2, ![16, 64]⟩
abbrev S16 : Shape := ⟨1, ![16]⟩
abbrev S16x16 : Shape := ⟨2, ![16, 16]⟩
abbrev S8x16 : Shape := ⟨2, ![8, 16]⟩
abbrev S8 : Shape := ⟨1, ![8]⟩
abbrev S8x8 : Shape := ⟨2, ![8, 8]⟩
abbrev S1x8 : Shape := ⟨2, ![1, 8]⟩
abbrev S1 : Shape := ⟨1, ![1]⟩
abbrev S64x1536 : Shape := ⟨2, ![64, 1536]⟩
abbrev S12x1x16 : Shape := ⟨3, ![12, 1, 16]⟩
abbrev S64x128 : Shape := ⟨2, ![64, 128]⟩
abbrev S1x1x16 : Shape := ⟨3, ![1, 1, 16]⟩
abbrev S64x128x1 : Shape := ⟨3, ![64, 128, 1]⟩
abbrev S64x1x128 : Shape := ⟨3, ![64, 1, 128]⟩
abbrev S64x128x128 : Shape := ⟨3, ![64, 128, 128]⟩
abbrev S64x16384 : Shape := ⟨2, ![64, 16384]⟩
abbrev S16x16384 : Shape := ⟨2, ![16, 16384]⟩
abbrev S16x1 : Shape := ⟨2, ![16, 1]⟩
abbrev S_ : Shape := ⟨0, ![]⟩
abbrev S1x16 : Shape := ⟨2, ![1, 16]⟩
abbrev S12x1x8 : Shape := ⟨3, ![12, 1, 8]⟩
abbrev S1x1x8 : Shape := ⟨3, ![1, 1, 8]⟩
abbrev S8x16384 : Shape := ⟨2, ![8, 16384]⟩
abbrev S8x1 : Shape := ⟨2, ![8, 1]⟩
abbrev S1536x1536 : Shape := ⟨2, ![1536, 1536]⟩
abbrev S128x128 : Shape := ⟨2, ![128, 128]⟩
abbrev S1x16384 : Shape := ⟨2, ![1, 16384]⟩
abbrev S1x1 : Shape := ⟨2, ![1, 1]⟩

abbrev nBuf : Space → Nat
  | .hbm => 113
  | .vmem => 88
  | .smem => 0
  | _ => 0

abbrev bufTy : (tb : Table) → Fin (tcTables nBuf tb) → BufTy
  | .hbm, ⟨0, _⟩ => ⟨S1536x64, .f32⟩
  | .hbm, ⟨1, _⟩ => ⟨S16x64, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8x8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S1x8, .f32⟩
  | .hbm, ⟨18, _⟩ => ⟨S1, .f32⟩
  | .hbm, ⟨19, _⟩ => ⟨S64x1536, .f32⟩
  | .hbm, ⟨20, _⟩ => ⟨S12x1x16, .f32⟩
  | .hbm, ⟨21, _⟩ => ⟨S12x1x16, .f32⟩
  | .hbm, ⟨22, _⟩ => ⟨S_, .f32⟩
  | .hbm, ⟨23, _⟩ => ⟨S1x16, .f32⟩
  | .hbm, ⟨24, _⟩ => ⟨S16, .f32⟩
  | .hbm, ⟨25, _⟩ => ⟨S_, .f32⟩
  | .hbm, ⟨26, _⟩ => ⟨S1x16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S12x1x16, .f32⟩
  | .hbm, ⟨44, _⟩ => ⟨S12x1x16, .f32⟩
  | .hbm, ⟨45, _⟩ => ⟨S_, .f32⟩
  | .hbm, ⟨46, _⟩ => ⟨S1x16, .f32⟩
  | .hbm, ⟨47, _⟩ => ⟨S16, .f32⟩
  | .hbm, ⟨48, _⟩ => ⟨S_, .f32⟩
  | .hbm, ⟨49, _⟩ => ⟨S1x16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S12x1x8, .f32⟩
  | .hbm, ⟨67, _⟩ => ⟨S12x1x8, .f32⟩
  | .hbm, ⟨68, _⟩ => ⟨S_, .f32⟩
  | .hbm, ⟨69, _⟩ => ⟨S1x8, .f32⟩
  | .hbm, ⟨70, _⟩ => ⟨S8, .f32⟩
  | .hbm, ⟨71, _⟩ => ⟨S_, .f32⟩
  | .hbm, ⟨72, _⟩ => ⟨S1x8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S8, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S12x1x8, .f32⟩
  | .hbm, ⟨90, _⟩ => ⟨S12x1x8, .f32⟩
  | .hbm, ⟨91, _⟩ => ⟨S_, .f32⟩
  | .hbm, ⟨92, _⟩ => ⟨S1x8, .f32⟩
  | .hbm, ⟨93, _⟩ => ⟨S8, .f32⟩
  | .hbm, ⟨94, _⟩ => ⟨S_, .f32⟩
  | .hbm, ⟨95, _⟩ => ⟨S1x8, .f32⟩
  | .hbm, ⟨96, _⟩ => ⟨S8, .f32⟩
  | .hbm, ⟨97, _⟩ => ⟨S_, .f32⟩
  | .hbm, ⟨98, _⟩ => ⟨S8, .f32⟩
  | .hbm, ⟨99, _⟩ => ⟨S8, .f32⟩
  | .hbm, ⟨100, _⟩ => ⟨S_, .f32⟩
  | .hbm, ⟨101, _⟩ => ⟨S8, .f32⟩
  | .hbm, ⟨102, _⟩ => ⟨S8, .f32⟩
  | .hbm, ⟨103, _⟩ => ⟨S8, .f32⟩
  | .hbm, ⟨104, _⟩ => ⟨S8, .f32⟩
  | .hbm, ⟨105, _⟩ => ⟨S_, .f32⟩
  | .hbm, ⟨106, _⟩ => ⟨S8, .f32⟩
  | .hbm, ⟨107, _⟩ => ⟨S8, .f32⟩
  | .hbm, ⟨108, _⟩ => ⟨S8, .f32⟩
  | .hbm, ⟨109, _⟩ => ⟨S8, .f32⟩
  | .hbm, ⟨110, _⟩ => ⟨S8, .f32⟩
  | .hbm, ⟨111, _⟩ => ⟨S8, .f32⟩
  | .hbm, ⟨112, _⟩ => ⟨S1536x1536, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S16x64, .f32⟩
  | .local _ .vmem, ⟨5, _⟩ => ⟨S16, .f32⟩
  | .local _ .vmem, ⟨6, _⟩ => ⟨S1x1x16, .f32⟩
  | .local _ .vmem, ⟨7, _⟩ => ⟨S1x1x16, .f32⟩
  | .local _ .vmem, ⟨8, _⟩ => ⟨S1x1x16, .f32⟩
  | .local _ .vmem, ⟨9, _⟩ => ⟨S1x1x16, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S16x64, .f32⟩
  | .local _ .vmem, ⟨15, _⟩ => ⟨S16, .f32⟩
  | .local _ .vmem, ⟨16, _⟩ => ⟨S16x16, .f32⟩
  | .local _ .vmem, ⟨17, _⟩ => ⟨S16, .f32⟩
  | .local _ .vmem, ⟨18, _⟩ => ⟨S16, .f32⟩
  | .local _ .vmem, ⟨19, _⟩ => ⟨S16, .f32⟩
  | .local _ .vmem, ⟨20, _⟩ => ⟨S1x1x16, .f32⟩
  | .local _ .vmem, ⟨21, _⟩ => ⟨S1x1x16, .f32⟩
  | .local _ .vmem, ⟨22, _⟩ => ⟨S1x1x16, .f32⟩
  | .local _ .vmem, ⟨23, _⟩ => ⟨S1x1x16, .f32⟩
  | .local _ .vmem, ⟨24, _⟩ => ⟨S64x128, .f32⟩
  | .local _ .vmem, ⟨25, _⟩ => ⟨S64x128, .f32⟩
  | .local _ .vmem, ⟨26, _⟩ => ⟨S64x128, .f32⟩
  | .local _ .vmem, ⟨27, _⟩ => ⟨S64x128, .f32⟩
  | .local _ .vmem, ⟨28, _⟩ => ⟨S16x64, .f32⟩
  | .local _ .vmem, ⟨29, _⟩ => ⟨S16, .f32⟩
  | .local _ .vmem, ⟨30, _⟩ => ⟨S16x16, .f32⟩
  | .local _ .vmem, ⟨31, _⟩ => ⟨S16, .f32⟩
  | .local _ .vmem, ⟨32, _⟩ => ⟨S8x16, .f32⟩
  | .local _ .vmem, ⟨33, _⟩ => ⟨S8, .f32⟩
  | .local _ .vmem, ⟨34, _⟩ => ⟨S16, .f32⟩
  | .local _ .vmem, ⟨35, _⟩ => ⟨S16, .f32⟩
  | .local _ .vmem, ⟨36, _⟩ => ⟨S16, .f32⟩
  | .local _ .vmem, ⟨37, _⟩ => ⟨S16, .f32⟩
  | .local _ .vmem, ⟨38, _⟩ => ⟨S1x1x8, .f32⟩
  | .local _ .vmem, ⟨39, _⟩ => ⟨S1x1x8, .f32⟩
  | .local _ .vmem, ⟨40, _⟩ => ⟨S1x1x8, .f32⟩
  | .local _ .vmem, ⟨41, _⟩ => ⟨S1x1x8, .f32⟩
  | .local _ .vmem, ⟨42, _⟩ => ⟨S64x128, .f32⟩
  | .local _ .vmem, ⟨43, _⟩ => ⟨S64x128, .f32⟩
  | .local _ .vmem, ⟨44, _⟩ => ⟨S64x128, .f32⟩
  | .local _ .vmem, ⟨45, _⟩ => ⟨S64x128, .f32⟩
  | .local _ .vmem, ⟨46, _⟩ => ⟨S16x64, .f32⟩
  | .local _ .vmem, ⟨47, _⟩ => ⟨S16, .f32⟩
  | .local _ .vmem, ⟨48, _⟩ => ⟨S16x16, .f32⟩
  | .local _ .vmem, ⟨49, _⟩ => ⟨S16, .f32⟩
  | .local _ .vmem, ⟨50, _⟩ => ⟨S8x16, .f32⟩
  | .local _ .vmem, ⟨51, _⟩ => ⟨S8, .f32⟩
  | .local _ .vmem, ⟨52, _⟩ => ⟨S8x8, .f32⟩
  | .local _ .vmem, ⟨53, _⟩ => ⟨S8, .f32⟩
  | .local _ .vmem, ⟨54, _⟩ => ⟨S16, .f32⟩
  | .local _ .vmem, ⟨55, _⟩ => ⟨S16, .f32⟩
  | .local _ .vmem, ⟨56, _⟩ => ⟨S16, .f32⟩
  | .local _ .vmem, ⟨57, _⟩ => ⟨S16, .f32⟩
  | .local _ .vmem, ⟨58, _⟩ => ⟨S8, .f32⟩
  | .local _ .vmem, ⟨59, _⟩ => ⟨S8, .f32⟩
  | .local _ .vmem, ⟨60, _⟩ => ⟨S1x1x8, .f32⟩
  | .local _ .vmem, ⟨61, _⟩ => ⟨S1x1x8, .f32⟩
  | .local _ .vmem, ⟨62, _⟩ => ⟨S1x1x8, .f32⟩
  | .local _ .vmem, ⟨63, _⟩ => ⟨S1x1x8, .f32⟩
  | .local _ .vmem, ⟨64, _⟩ => ⟨S64x128, .f32⟩
  | .local _ .vmem, ⟨65, _⟩ => ⟨S64x128, .f32⟩
  | .local _ .vmem, ⟨66, _⟩ => ⟨S64x128, .f32⟩
  | .local _ .vmem, ⟨67, _⟩ => ⟨S64x128, .f32⟩
  | .local _ .vmem, ⟨68, _⟩ => ⟨S16x64, .f32⟩
  | .local _ .vmem, ⟨69, _⟩ => ⟨S16, .f32⟩
  | .local _ .vmem, ⟨70, _⟩ => ⟨S16x16, .f32⟩
  | .local _ .vmem, ⟨71, _⟩ => ⟨S16, .f32⟩
  | .local _ .vmem, ⟨72, _⟩ => ⟨S8x16, .f32⟩
  | .local _ .vmem, ⟨73, _⟩ => ⟨S8, .f32⟩
  | .local _ .vmem, ⟨74, _⟩ => ⟨S8x8, .f32⟩
  | .local _ .vmem, ⟨75, _⟩ => ⟨S8, .f32⟩
  | .local _ .vmem, ⟨76, _⟩ => ⟨S1x8, .f32⟩
  | .local _ .vmem, ⟨77, _⟩ => ⟨S1, .f32⟩
  | .local _ .vmem, ⟨78, _⟩ => ⟨S16, .f32⟩
  | .local _ .vmem, ⟨79, _⟩ => ⟨S16, .f32⟩
  | .local _ .vmem, ⟨80, _⟩ => ⟨S16, .f32⟩
  | .local _ .vmem, ⟨81, _⟩ => ⟨S16, .f32⟩
  | .local _ .vmem, ⟨82, _⟩ => ⟨S8, .f32⟩
  | .local _ .vmem, ⟨83, _⟩ => ⟨S8, .f32⟩
  | .local _ .vmem, ⟨84, _⟩ => ⟨S8, .f32⟩
  | .local _ .vmem, ⟨85, _⟩ => ⟨S8, .f32⟩
  | .local _ .vmem, ⟨86, _⟩ => ⟨S128x128, .f32⟩
  | .local _ .vmem, ⟨87, _⟩ => ⟨S128x128, .f32⟩
  | _, _ => ⟨S1536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1_0 : Ref sig .tc := ⟨.hbm, 20, rfl⟩
abbrev main_v1_1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_v24 : Ref sig .tc := ⟨.hbm, 53, rfl⟩
abbrev main_cst_7 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35_0 : Ref sig .tc := ⟨.hbm, 66, rfl⟩
abbrev main_v35_1 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_cst_10 : Ref sig .tc := ⟨.hbm, 71, rfl⟩
abbrev main_v38 : Ref sig .tc := ⟨.hbm, 72, rfl⟩
abbrev main_v39 : Ref sig .tc := ⟨.hbm, 73, rfl⟩
abbrev main_cst_11 : Ref sig .tc := ⟨.hbm, 74, rfl⟩
abbrev main_v40 : Ref sig .tc := ⟨.hbm, 75, rfl⟩
abbrev main_v41 : Ref sig .tc := ⟨.hbm, 76, rfl⟩
abbrev main_cst_12 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_13 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52_0 : Ref sig .tc := ⟨.hbm, 89, rfl⟩
abbrev main_v52_1 : Ref sig .tc := ⟨.hbm, 90, rfl⟩
abbrev main_cst_14 : Ref sig .tc := ⟨.hbm, 91, rfl⟩
abbrev main_v53 : Ref sig .tc := ⟨.hbm, 92, rfl⟩
abbrev main_v54 : Ref sig .tc := ⟨.hbm, 93, rfl⟩
abbrev main_cst_15 : Ref sig .tc := ⟨.hbm, 94, rfl⟩
abbrev main_v55 : Ref sig .tc := ⟨.hbm, 95, rfl⟩
abbrev main_v56 : Ref sig .tc := ⟨.hbm, 96, rfl⟩
abbrev main_cst_16 : Ref sig .tc := ⟨.hbm, 97, rfl⟩
abbrev main_v57 : Ref sig .tc := ⟨.hbm, 98, rfl⟩
abbrev main_v58 : Ref sig .tc := ⟨.hbm, 99, rfl⟩
abbrev main_cst_17 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_18 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg12_1 : Ref sig .tc := ⟨.vmem, 39, rfl⟩
abbrev cc2_stg13_0 : Ref sig .tc := ⟨.vmem, 40, rfl⟩
abbrev cc2_stg13_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg11_0 : Ref sig .tc := ⟨.vmem, 55, rfl⟩
abbrev cc3_stg12_0 : Ref sig .tc := ⟨.vmem, 56, rfl⟩
abbrev cc3_stg13_0 : Ref sig .tc := ⟨.vmem, 57, rfl⟩
abbrev cc3_stg14_0 : Ref sig .tc := ⟨.vmem, 58, rfl⟩
abbrev cc3_stg15_0 : Ref sig .tc := ⟨.vmem, 59, rfl⟩
abbrev cc3_stg16_0 : Ref sig .tc := ⟨.vmem, 60, rfl⟩
abbrev cc3_stg16_1 : Ref sig .tc := ⟨.vmem, 61, rfl⟩
abbrev cc3_stg17_0 : Ref sig .tc := ⟨.vmem, 62, rfl⟩
abbrev cc3_stg17_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg3_0 : Ref sig .tc := ⟨.vmem, 69, rfl⟩
abbrev cc4_stg4_0 : Ref sig .tc := ⟨.vmem, 70, rfl⟩
abbrev cc4_stg5_0 : Ref sig .tc := ⟨.vmem, 71, rfl⟩
abbrev cc4_stg6_0 : Ref sig .tc := ⟨.vmem, 72, rfl⟩
abbrev cc4_stg7_0 : Ref sig .tc := ⟨.vmem, 73, rfl⟩
abbrev cc4_stg8_0 : Ref sig .tc := ⟨.vmem, 74, rfl⟩
abbrev cc4_stg9_0 : Ref sig .tc := ⟨.vmem, 75, rfl⟩
abbrev cc4_stg10_0 : Ref sig .tc := ⟨.vmem, 76, rfl⟩
abbrev cc4_stg11_0 : Ref sig .tc := ⟨.vmem, 77, rfl⟩
abbrev cc4_stg12_0 : Ref sig .tc := ⟨.vmem, 78, rfl⟩
abbrev cc4_stg13_0 : Ref sig .tc := ⟨.vmem, 79, rfl⟩
abbrev cc4_stg14_0 : Ref sig .tc := ⟨.vmem, 80, rfl⟩
abbrev cc4_stg15_0 : Ref sig .tc := ⟨.vmem, 81, rfl⟩
abbrev cc4_stg16_0 : Ref sig .tc := ⟨.vmem, 82, rfl⟩
abbrev cc4_stg17_0 : Ref sig .tc := ⟨.vmem, 83, rfl⟩
abbrev cc4_stg18_0 : Ref sig .tc := ⟨.vmem, 84, rfl⟩
abbrev cc4_stg19_0 : Ref sig .tc := ⟨.vmem, 85, rfl⟩
abbrev cc4_stg20_0 : Ref sig .tc := ⟨.vmem, 86, rfl⟩
abbrev cc4_stg20_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38
abbrev cc2_sem12_1 : DmaSem sig := 39
abbrev cc2_sem13_0 : DmaSem sig := 40
abbrev cc2_sem13_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem11_0 : DmaSem sig := 55
abbrev cc3_sem12_0 : DmaSem sig := 56
abbrev cc3_sem13_0 : DmaSem sig := 57
abbrev cc3_sem14_0 : DmaSem sig := 58
abbrev cc3_sem15_0 : DmaSem sig := 59
abbrev cc3_sem16_0 : DmaSem sig := 60
abbrev cc3_sem16_1 : DmaSem sig := 61
abbrev cc3_sem17_0 : DmaSem sig := 62
abbrev cc3_sem17_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem3_0 : DmaSem sig := 69
abbrev cc4_sem4_0 : DmaSem sig := 70
abbrev cc4_sem5_0 : DmaSem sig := 71
abbrev cc4_sem6_0 : DmaSem sig := 72
abbrev cc4_sem7_0 : DmaSem sig := 73
abbrev cc4_sem8_0 : DmaSem sig := 74
abbrev cc4_sem9_0 : DmaSem sig := 75
abbrev cc4_sem10_0 : DmaSem sig := 76
abbrev cc4_sem11_0 : DmaSem sig := 77
abbrev cc4_sem12_0 : DmaSem sig := 78
abbrev cc4_sem13_0 : DmaSem sig := 79
abbrev cc4_sem14_0 : DmaSem sig := 80
abbrev cc4_sem15_0 : DmaSem sig := 81
abbrev cc4_sem16_0 : DmaSem sig := 82
abbrev cc4_sem17_0 : DmaSem sig := 83
abbrev cc4_sem18_0 : DmaSem sig := 84
abbrev cc4_sem19_0 : DmaSem sig := 85
abbrev cc4_sem20_0 : DmaSem sig := 86
abbrev cc4_sem20_1 : DmaSem sig := 87

abbrev nD : Nat := 1
abbrev τ : Topo := Topo.v7x

variable {F : FTy → Type} [FloatOps F]

abbrev grid0 : Pipeline.Grid := ⟨2, ![12, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![12, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x1x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![12, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S8x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S16 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x1x8 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]

abbrev stage2_13 : Fin 2 → Memref sig .tc .vmem S1x1x8 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, false]

abbrev grid3 : Pipeline.Grid := ⟨2, ![12, 12], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_13 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_14 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_15 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_16 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_17 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S64x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S64x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S16x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S8x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S8x8 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S8 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S16 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S16 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S16 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S16 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 1 → Memref sig .tc .vmem S8 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false, false]

abbrev stage3_15 : Fin 1 → Memref sig .tc .vmem S8 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false, false]

abbrev stage3_16 : Fin 2 → Memref sig .tc .vmem S1x1x8 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true, false]

abbrev stage3_17 : Fin 2 → Memref sig .tc .vmem S1x1x8 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true, false]

abbrev grid4 : Pipeline.Grid := ⟨2, ![12, 12], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_12 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_13 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_14 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_15 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_16 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_17 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_18 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_19 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_20 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S64x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S16x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S8x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S8 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S8x8 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 1 → Memref sig .tc .vmem S8 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false, false]

abbrev stage4_10 : Fin 1 → Memref sig .tc .vmem S1x8 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev stage4_11 : Fin 1 → Memref sig .tc .vmem S1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false, false]

abbrev stage4_12 : Fin 1 → Memref sig .tc .vmem S16 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false, false]

abbrev stage4_13 : Fin 1 → Memref sig .tc .vmem S16 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false, false]

abbrev stage4_14 : Fin 1 → Memref sig .tc .vmem S16 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false, false]

abbrev stage4_15 : Fin 1 → Memref sig .tc .vmem S16 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false, false]

abbrev stage4_16 : Fin 1 → Memref sig .tc .vmem S8 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false, false]

abbrev stage4_17 : Fin 1 → Memref sig .tc .vmem S8 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false, false]

abbrev stage4_18 : Fin 1 → Memref sig .tc .vmem S8 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false, false]

abbrev stage4_19 : Fin 1 → Memref sig .tc .vmem S8 .f32 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))
abbrev reads4_19 : Fin grid4.rank → Bool := ![false, false]

abbrev stage4_20 : Fin 2 → Memref sig .tc .vmem S128x128 .f32 := fun | 0 => Memref.whole cc4_stg20_0 | 1 => Memref.whole cc4_stg20_1 | ⟨_ + 2, h⟩ => absurd h (Nat.not_lt.2 (Nat.le_add_left _ _))
abbrev sem4_20 : Fin 2 → DmaSem sig := fun | 0 => cc4_sem20_0 | 1 => cc4_sem20_1 | ⟨_ + 2, h⟩ => absurd h (Nat.not_lt.2 (Nat.le_add_left _ _))
abbrev reads4_20 : Fin grid4.rank → Bool := ![true, true]

class Facts₀ : Prop where
  transposes_S1536x64_S64x1536_1_0 : S1536x64.Transposes [1, 0] S64x1536
  inb_S1x1x16_S1x1x16_0_0_0 : ∀ a, (![0, 0, 0] : Fin 3 → Nat) a + S1x1x16.size a ≤ S1x1x16.size a
  h_S1x1x16 : 0 < S1x1x16.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  shapeCasts_S64x128x128_S64x16384 : S64x128x128.ShapeCasts S64x16384
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S16_S16_0 : ∀ a, (![0] : Fin 1 → Nat) a + S16.size a ≤ S16.size a
  h_S16 : 0 < S16.numel
  shapeCasts_S16_S16x1 : S16.ShapeCasts S16x1
  broadcasts_S16x1_S16x16384 : S16x1.Broadcasts S16x16384
  reduces_S16x16384_S16 : S16x16384.Reduces [1] S16
  shapeCasts_S1x1x16_S1x1x16 : S1x1x16.ShapeCasts S1x1x16
  shapeCasts_S16_S1x1x16 : S16.ShapeCasts S1x1x16
  reducesTo_S12x1x16_S1x16_d0 : S12x1x16.ReducesTo [0] S1x16
  h_S_ : 0 < S_.numel
  shapeCasts_S1x16_S16 : S1x16.ShapeCasts S16
  bcast_S_S16 : S_.BroadcastsInDim S16 (![] : Fin 0 → Fin S16.rank)
  shapeCasts_S16_S16 : S16.ShapeCasts S16
  inb_S16x16_S16x16_0_0 : ∀ a, (![0, 0] : Fin 2 → Nat) a + S16x16.size a ≤ S16x16.size a
  h_S16x16 : 0 < S16x16.numel
  inb_S1x1x8_S1x1x8_0_0_0 : ∀ a, (![0, 0, 0] : Fin 3 → Nat) a + S1x1x8.size a ≤ S1x1x8.size a
  h_S1x1x8 : 0 < S1x1x8.numel
  inb_S8x16_S8x16_0_0 : ∀ a, (![0, 0] : Fin 2 → Nat) a + S8x16.size a ≤ S8x16.size a
  h_S8x16 : 0 < S8x16.numel
  inb_S8_S8_0 : ∀ a, (![0] : Fin 1 → Nat) a + S8.size a ≤ S8.size a
  h_S8 : 0 < S8.numel
  shapeCasts_S8_S8x1 : S8.ShapeCasts S8x1
  broadcasts_S8x1_S8x16384 : S8x1.Broadcasts S8x16384
  reduces_S8x16384_S8 : S8x16384.Reduces [1] S8
  shapeCasts_S1x1x8_S1x1x8 : S1x1x8.ShapeCasts S1x1x8
  shapeCasts_S8_S1x1x8 : S8.ShapeCasts S1x1x8
  reducesTo_S12x1x8_S1x8_d0 : S12x1x8.ReducesTo [0] S1x8
  shapeCasts_S1x8_S8 : S1x8.ShapeCasts S8
  bcast_S_S8 : S_.BroadcastsInDim S8 (![] : Fin 0 → Fin S8.rank)
  shapeCasts_S8_S8 : S8.ShapeCasts S8
  inb_S8x8_S8x8_0_0 : ∀ a, (![0, 0] : Fin 2 → Nat) a + S8x8.size a ≤ S8x8.size a
  h_S8x8 : 0 < S8x8.numel
  inb_S1x8_S1x8_0_0 : ∀ a, (![0, 0] : Fin 2 → Nat) a + S1x8.size a ≤ S1x8.size a
  h_S1x8 : 0 < S1x8.numel
  inb_S1_S1_0 : ∀ a, (![0] : Fin 1 → Nat) a + S1.size a ≤ S1.size a
  h_S1 : 0 < S1.numel
  shapeCasts_S1_S1x1 : S1.ShapeCasts S1x1
  broadcasts_S1x1_S1x16384 : S1x1.Broadcasts S1x16384
  shapeCasts_S1x16384_S128x128 : S1x16384.ShapeCasts S128x128
  inb_S128x128_S128x128_0_0 : ∀ a, (![0, 0] : Fin 2 → Nat) a + S128x128.size a ≤ S128x128.size a
  h_S128x128 : 0 < S128x128.numel
  dot_S16x64_S64x16384_S16x16384_1_0_0_1_n_n_wf : DotDims.WF S16x64 S64x16384 S16x16384 [1] [0] [0] [1] [] []
  dot_S16x16_S16x16384_S16x16384_1_0_0_1_n_n_wf : DotDims.WF S16x16 S16x16384 S16x16384 [1] [0] [0] [1] [] []
  dot_S8x16_S16x16384_S8x16384_1_0_0_1_n_n_wf : DotDims.WF S8x16 S16x16384 S8x16384 [1] [0] [0] [1] [] []
  dot_S8x8_S8x16384_S8x16384_1_0_0_1_n_n_wf : DotDims.WF S8x8 S8x16384 S8x16384 [1] [0] [0] [1] [] []
  dot_S1x8_S8x16384_S1x16384_1_0_0_1_n_n_wf : DotDims.WF S1x8 S8x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x1536.size a
  hwx0_0 : ∀ i : grid0.Coords, EltTy.bits .f32 = 32 ∨ (Rect.block (s := S64x1536) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x1536.size a
  hwx0_1 : ∀ i : grid0.Coords, EltTy.bits .f32 = 32 ∨ (Rect.block (s := S64x1536) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16.size a ≤ S12x1x16.size a
  hwx0_4 : ∀ i : grid0.Coords, EltTy.bits .f32 = 32 ∨ (Rect.block (s := S12x1x16) S1x1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x16.size a ≤ S12x1x16.size a
  hwx0_5 : ∀ i : grid0.Coords, EltTy.bits .f32 = 32 ∨ (Rect.block (s := S12x1x16) S1x1x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x1536.size a
  hwx1_0 : ∀ i : grid1.Coords, EltTy.bits .f32 = 32 ∨ (Rect.block (s := S64x1536) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x1536.size a
  hwx1_1 : ∀ i : grid1.Coords, EltTy.bits .f32 = 32 ∨ (Rect.block (s := S64x1536) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16.size a ≤ S16.size a
  hwx1_6 : ∀ i : grid1.Coords, EltTy.bits .f32 = 32 ∨ (Rect.block (s := S16) S16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x16.size a ≤ S12x1x16.size a
  hwx1_8 : ∀ i : grid1.Coords, EltTy.bits .f32 = 32 ∨ (Rect.block (s := S12x1x16) S1x1x16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x16.size a ≤ S12x1x16.size a
  hwx1_9 : ∀ i : grid1.Coords, EltTy.bits .f32 = 32 ∨ (Rect.block (s := S12x1x16) S1x1x16.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x1536.size a
  hwx2_0 : ∀ i : grid2.Coords, EltTy.bits .f32 = 32 ∨ (Rect.block (s := S64x1536) S64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x1536.size a
  hwx2_1 : ∀ i : grid2.Coords, EltTy.bits .f32 = 32 ∨ (Rect.block (s := S64x1536) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16.size a ≤ S16.size a
  hwx2_5 : ∀ i : grid2.Coords, EltTy.bits .f32 = 32 ∨ (Rect.block (s := S16) S16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x16.size a ≤ S8x16.size a
  hwx2_6 : ∀ i : grid2.Coords, EltTy.bits .f32 = 32 ∨ (Rect.block (s := S8x16) S8x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S8.size a ≤ S8.size a
  hwx2_7 : ∀ i : grid2.Coords, EltTy.bits .f32 = 32 ∨ (Rect.block (s := S8) S8.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16.size a ≤ S16.size a
  hwx2_8 : ∀ i : grid2.Coords, EltTy.bits .f32 = 32 ∨ (Rect.block (s := S16) S16.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S16.size a ≤ S16.size a
  hwx2_9 : ∀ i : grid2.Coords, EltTy.bits .f32 = 32 ∨ (Rect.block (s := S16) S16.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S16.size a ≤ S16.size a
  hwx2_10 : ∀ i : grid2.Coords, EltTy.bits .f32 = 32 ∨ (Rect.block (s := S16) S16.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S16.size a ≤ S16.size a
  hwx2_11 : ∀ i : grid2.Coords, EltTy.bits .f32 = 32 ∨ (Rect.block (s := S16) S16.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1x1x8.size a ≤ S12x1x8.size a
  hwx2_12 : ∀ i : grid2.Coords, EltTy.bits .f32 = 32 ∨ (Rect.block (s := S12x1x8) S1x1x8.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1x1x8.size a ≤ S12x1x8.size a
  hwx2_13 : ∀ i : grid2.Coords, EltTy.bits .f32 = 32 ∨ (Rect.block (s := S12x1x8) S1x1x8.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x1536.size a
  hwx3_0 : ∀ i : grid3.Coords, EltTy.bits .f32 = 32 ∨ (Rect.block (s := S64x1536) S64x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x1536.size a
  hwx3_1 : ∀ i : grid3.Coords, EltTy.bits .f32 = 32 ∨ (Rect.block (s := S64x1536) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x64.size a ≤ S16x64.size a
  hwx3_2 : ∀ i : grid3.Coords, EltTy.bits .f32 = 32 ∨ (Rect.block (s := S16x64) S16x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16.size a ≤ S16.size a
  hwx3_3 : ∀ i : grid3.Coords, EltTy.bits .f32 = 32 ∨ (Rect.block (s := S16) S16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16.size a ≤ S16.size a
  hwx3_5 : ∀ i : grid3.Coords, EltTy.bits .f32 = 32 ∨ (Rect.block (s := S16) S16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S8x16.size a ≤ S8x16.size a
  hwx3_6 : ∀ i : grid3.Coords, EltTy.bits .f32 = 32 ∨ (Rect.block (s := S8x16) S8x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S8.size a ≤ S8.size a
  hwx3_7 : ∀ i : grid3.Coords, EltTy.bits .f32 = 32 ∨ (Rect.block (s := S8) S8.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S8x8.size a ≤ S8x8.size a
  hwx3_8 : ∀ i : grid3.Coords, EltTy.bits .f32 = 32 ∨ (Rect.block (s := S8x8) S8x8.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S8.size a ≤ S8.size a
  hwx3_9 : ∀ i : grid3.Coords, EltTy.bits .f32 = 32 ∨ (Rect.block (s := S8) S8.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S16.size a ≤ S16.size a
  hwx3_10 : ∀ i : grid3.Coords, EltTy.bits .f32 = 32 ∨ (Rect.block (s := S16) S16.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S16.size a ≤ S16.size a
  hwx3_11 : ∀ i : grid3.Coords, EltTy.bits .f32 = 32 ∨ (Rect.block (s := S16) S16.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S16.size a ≤ S16.size a
  hwx3_12 : ∀ i : grid3.Coords, EltTy.bits .f32 = 32 ∨ (Rect.block (s := S16) S16.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S16.size a ≤ S16.size a
  hwx3_13 : ∀ i : grid3.Coords, EltTy.bits .f32 = 32 ∨ (Rect.block (s := S16) S16.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S8.size a ≤ S8.size a
  hwx3_14 : ∀ i : grid3.Coords, EltTy.bits .f32 = 32 ∨ (Rect.block (s := S8) S8.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S8.size a ≤ S8.size a
  hwx3_15 : ∀ i : grid3.Coords, EltTy.bits .f32 = 32 ∨ (Rect.block (s := S8) S8.size (cc3_transform_15 i) (hinb3_15 i)).WholeWords (EltTy.packing .f32)
  hstage3_16 : ∀ j, (stage3_16 j).IsWhole
  nbuf3_16 : grid3.bufCount reads3_16 false = 2
  hreads3_16 : ∀ i i' : grid3.Coords, (∀ a, reads3_16 a = true → i a = i' a) → cc3_transform_16 i = cc3_transform_16 i'
  hinb3_16 : ∀ (i : grid3.Coords) a, (cc3_transform_16 i a + 1) * S1x1x8.size a ≤ S12x1x8.size a
  hwx3_16 : ∀ i : grid3.Coords, EltTy.bits .f32 = 32 ∨ (Rect.block (s := S12x1x8) S1x1x8.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S1x1x8.size a ≤ S12x1x8.size a
  hwx3_17 : ∀ i : grid3.Coords, EltTy.bits .f32 = 32 ∨ (Rect.block (s := S12x1x8) S1x1x8.size (cc3_transform_17 i) (hinb3_17 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x1536.size a
  hwx4_0 : ∀ i : grid4.Coords, EltTy.bits .f32 = 32 ∨ (Rect.block (s := S64x1536) S64x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x1536.size a
  hwx4_1 : ∀ i : grid4.Coords, EltTy.bits .f32 = 32 ∨ (Rect.block (s := S64x1536) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x64.size a ≤ S16x64.size a
  hwx4_2 : ∀ i : grid4.Coords, EltTy.bits .f32 = 32 ∨ (Rect.block (s := S16x64) S16x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16.size a ≤ S16.size a
  hwx4_3 : ∀ i : grid4.Coords, EltTy.bits .f32 = 32 ∨ (Rect.block (s := S16) S16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16x16.size a ≤ S16x16.size a
  hwx4_4 : ∀ i : grid4.Coords, EltTy.bits .f32 = 32 ∨ (Rect.block (s := S16x16) S16x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16.size a ≤ S16.size a
  hwx4_5 : ∀ i : grid4.Coords, EltTy.bits .f32 = 32 ∨ (Rect.block (s := S16) S16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S8x16.size a ≤ S8x16.size a
  hwx4_6 : ∀ i : grid4.Coords, EltTy.bits .f32 = 32 ∨ (Rect.block (s := S8x16) S8x16.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S8.size a ≤ S8.size a
  hwx4_7 : ∀ i : grid4.Coords, EltTy.bits .f32 = 32 ∨ (Rect.block (s := S8) S8.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S8x8.size a ≤ S8x8.size a
  hwx4_8 : ∀ i : grid4.Coords, EltTy.bits .f32 = 32 ∨ (Rect.block (s := S8x8) S8x8.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S8.size a ≤ S8.size a
  hwx4_9 : ∀ i : grid4.Coords, EltTy.bits .f32 = 32 ∨ (Rect.block (s := S8) S8.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x8.size a ≤ S1x8.size a
  hwx4_10 : ∀ i : grid4.Coords, EltTy.bits .f32 = 32 ∨ (Rect.block (s := S1x8) S1x8.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1.size a ≤ S1.size a
  hwx4_11 : ∀ i : grid4.Coords, EltTy.bits .f32 = 32 ∨ (Rect.block (s := S1) S1.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S16.size a ≤ S16.size a
  hwx4_12 : ∀ i : grid4.Coords, EltTy.bits .f32 = 32 ∨ (Rect.block (s := S16) S16.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S16.size a ≤ S16.size a
  hwx4_13 : ∀ i : grid4.Coords, EltTy.bits .f32 = 32 ∨ (Rect.block (s := S16) S16.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S16.size a ≤ S16.size a
  hwx4_14 : ∀ i : grid4.Coords, EltTy.bits .f32 = 32 ∨ (Rect.block (s := S16) S16.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S16.size a ≤ S16.size a
  hwx4_15 : ∀ i : grid4.Coords, EltTy.bits .f32 = 32 ∨ (Rect.block (s := S16) S16.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S8.size a ≤ S8.size a
  hwx4_16 : ∀ i : grid4.Coords, EltTy.bits .f32 = 32 ∨ (Rect.block (s := S8) S8.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S8.size a ≤ S8.size a
  hwx4_17 : ∀ i : grid4.Coords, EltTy.bits .f32 = 32 ∨ (Rect.block (s := S8) S8.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S8.size a ≤ S8.size a
  hwx4_18 : ∀ i : grid4.Coords, EltTy.bits .f32 = 32 ∨ (Rect.block (s := S8) S8.size (cc4_transform_18 i) (hinb4_18 i)).WholeWords (EltTy.packing .f32)
  hstage4_19 : ∀ j, (stage4_19 j).IsWhole
  nbuf4_19 : grid4.bufCount reads4_19 true = 1
  hreads4_19 : ∀ i i' : grid4.Coords, (∀ a, reads4_19 a = true → i a = i' a) → cc4_transform_19 i = cc4_transform_19 i'
  hinb4_19 : ∀ (i : grid4.Coords) a, (cc4_transform_19 i a + 1) * S8.size a ≤ S8.size a
  hwx4_19 : ∀ i : grid4.Coords, EltTy.bits .f32 = 32 ∨ (Rect.block (s := S8) S8.size (cc4_transform_19 i) (hinb4_19 i)).WholeWords (EltTy.packing .f32)
  hstage4_20 : ∀ j, (stage4_20 j).IsWhole
  nbuf4_20 : grid4.bufCount reads4_20 false = 2
  hreads4_20 : ∀ i i' : grid4.Coords, (∀ a, reads4_20 a = true → i a = i' a) → cc4_transform_20 i = cc4_transform_20 i'
  hinb4_20 : ∀ (i : grid4.Coords) a, (cc4_transform_20 i a + 1) * S128x128.size a ≤ S1536x1536.size a
  hwx4_20 : ∀ i : grid4.Coords, EltTy.bits .f32 = 32 ∨ (Rect.block (s := S1536x1536) S128x128.size (cc4_transform_20 i) (hinb4_20 i)).WholeWords (EltTy.packing .f32)

variable [Facts₀]

def dot_S16x64_S64x16384_S16x16384_1_0_0_1_n_n : DotDims S16x64 S64x16384 S16x16384 where
  lhsContracting := [1]
  rhsContracting := [0]
  lhsNonContracting := [0]
  rhsNonContracting := [1]
  lhsBatch := []
  rhsBatch := []
  wf := dot_S16x64_S64x16384_S16x16384_1_0_0_1_n_n_wf
def dot_S16x16_S16x16384_S16x16384_1_0_0_1_n_n : DotDims S16x16 S16x16384 S16x16384 where
  lhsContracting := [1]
  rhsContracting := [0]
  lhsNonContracting := [0]
  rhsNonContracting := [1]
  lhsBatch := []
  rhsBatch := []
  wf := dot_S16x16_S16x16384_S16x16384_1_0_0_1_n_n_wf
def dot_S8x16_S16x16384_S8x16384_1_0_0_1_n_n : DotDims S8x16 S16x16384 S8x16384 where
  lhsContracting := [1]
  rhsContracting := [0]
  lhsNonContracting := [0]
  rhsNonContracting := [1]
  lhsBatch := []
  rhsBatch := []
  wf := dot_S8x16_S16x16384_S8x16384_1_0_0_1_n_n_wf
def dot_S8x8_S8x16384_S8x16384_1_0_0_1_n_n : DotDims S8x8 S8x16384 S8x16384 where
  lhsContracting := [1]
  rhsContracting := [0]
  lhsNonContracting := [0]
  rhsNonContracting := [1]
  lhsBatch := []
  rhsBatch := []
  wf := dot_S8x8_S8x16384_S8x16384_1_0_0_1_n_n_wf
def dot_S1x8_S8x16384_S1x16384_1_0_0_1_n_n : DotDims S1x8 S8x16384 S1x16384 where
  lhsContracting := [1]
  rhsContracting := [0]
  lhsNonContracting := [0]
  rhsNonContracting := [1]
  lhsBatch := []
  rhsBatch := []
  wf := dot_S1x8_S8x16384_S1x16384_1_0_0_1_n_n_wf

abbrev win0_0 : Pipeline.Window sig grid0 :=
  Pipeline.Window.ofSpec (Memref.whole main_v0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18_0) S1x1x16.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v18_1) S1x1x16.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v0) S64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S64x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S8x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S8.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15) S16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17) S16.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v32) S16.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v34) S16.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v35_0) S1x1x8.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v35_1) S1x1x8.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v0) S64x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S64x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S16x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S8x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S8.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg13) S8x8.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg14) S8.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v15) S16.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v17) S16.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v32) S16.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v34) S16.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v49) S8.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v51) S8.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v52_0) S1x1x8.size cc3_transform_16 reads3_16 true false 2 stage3_16 sem3_16
    hrank3 hreads3_16 hinb3_16 nbuf3_16 (Memref.isWhole_whole _) hwx3_16 hstage3_16

abbrev win3_17 : Pipeline.Window sig grid3 :=
  Pipeline.Window.ofSpec (Memref.whole main_v52_1) S1x1x8.size cc3_transform_17 reads3_17 true false 2 stage3_17 sem3_17
    hrank3 hreads3_17 hinb3_17 nbuf3_17 (Memref.isWhole_whole _) hwx3_17 hstage3_17

abbrev win3 : Fin 18 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | ⟨_ + 18, h⟩ => absurd h (Nat.not_lt.2 (Nat.le_add_left _ _))
abbrev spec3 : Fin 18 → Pipeline.WinSpec sig grid3.rank := fun w => (win3 w).toWinSpec

abbrev win4_0 : Pipeline.Window sig grid4 :=
  Pipeline.Window.ofSpec (Memref.whole main_v0) S64x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S64x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S16x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg2) S16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg5) S16x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg6) S16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg9) S8x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg10) S8.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg13) S8x8.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg14) S8.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg17) S1x8.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg18) S1.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v15) S16.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v17) S16.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v32) S16.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v34) S16.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v49) S8.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v51) S8.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v66) S8.size cc4_transform_18 reads4_18 false true 1 stage4_18 sem4_18
    hrank4 hreads4_18 hinb4_18 nbuf4_18 (Memref.isWhole_whole _) hwx4_18 hstage4_18

abbrev win4_19 : Pipeline.Window sig grid4 :=
  Pipeline.Window.ofSpec (Memref.whole main_v68) S8.size cc4_transform_19 reads4_19 false true 1 stage4_19 sem4_19
    hrank4 hreads4_19 hinb4_19 nbuf4_19 (Memref.isWhole_whole _) hwx4_19 hstage4_19

abbrev win4_20 : Pipeline.Window sig grid4 :=
  Pipeline.Window.ofSpec (Memref.whole main_v69) S128x128.size cc4_transform_20 reads4_20 true false 2 stage4_20 sem4_20
    hrank4 hreads4_20 hinb4_20 nbuf4_20 (Memref.isWhole_whole _) hwx4_20 hstage4_20

abbrev win4 : Fin 21 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | 20 => win4_20 | ⟨_ + 21, h⟩ => absurd h (Nat.not_lt.2 (Nat.le_add_left _ _))
abbrev spec4 : Fin 21 → Pipeline.WinSpec sig grid4.rank := fun w => (win4 w).toWinSpec

class Facts : Prop extends Facts₀ where

variable [Facts]
-- ==== ReferenceIdeal.lean ====
abbrev S1536x64 : Shape := ⟨2, ![1536, 64]⟩
abbrev S16x64 : Shape := ⟨2, ![16, 64]⟩
abbrev S16 : Shape := ⟨1, ![16]⟩
abbrev S16x16 : Shape := ⟨2, ![16, 16]⟩
abbrev S8x16 : Shape := ⟨2, ![8, 16]⟩
abbrev S8 : Shape := ⟨1, ![8]⟩
abbrev S8x8 : Shape := ⟨2, ![8, 8]⟩
abbrev S1x8 : Shape := ⟨2, ![1, 8]⟩
abbrev S1 : Shape := ⟨1, ![1]⟩
abbrev S1536x1x64 : Shape := ⟨3, ![1536, 1, 64]⟩
abbrev S1x1536x64 : Shape := ⟨3, ![1, 1536, 64]⟩
abbrev S1536x1536x64 : Shape := ⟨3, ![1536, 1536, 64]⟩
abbrev S1536x1536x16 : Shape := ⟨3, ![1536, 1536, 16]⟩
abbrev S1x1x16 : Shape := ⟨3, ![1, 1, 16]⟩
abbrev S_ : Shape := ⟨0, ![]⟩
abbrev S1536x1536x8 : Shape := ⟨3, ![1536, 1536, 8]⟩
abbrev S1x1x8 : Shape := ⟨3, ![1, 1, 8]⟩
abbrev S1536x1536x1 : Shape := ⟨3, ![1536, 1536, 1]⟩
abbrev S1x1x1 : Shape := ⟨3, ![1, 1, 1]⟩
abbrev S1536x1536 : Shape := ⟨2, ![1536, 1536]⟩

abbrev nBuf : Space → Nat
  | .hbm => 254
  | .vmem => 0
  | .smem => 0
  | _ => 0

abbrev hbmTy0_0 (i : Nat) : BufTy := match i % 128 with
  | 0 => ⟨S1536x64, .f32⟩
  | 1 => ⟨S16x64, .f32⟩
  | 2 => ⟨S16, .f32⟩
  | 3 => ⟨S16, .f32⟩
  | 4 => ⟨S16, .f32⟩
  | 5 => ⟨S16x16, .f32⟩
  | 6 => ⟨S16, .f32⟩
  | 7 => ⟨S16, .f32⟩
  | 8 => ⟨S16, .f32⟩
  | 9 => ⟨S8x16, .f32⟩
  | 10 => ⟨S8, .f32⟩
  | 11 => ⟨S8, .f32⟩
  | 12 => ⟨S8, .f32⟩
  | 13 => ⟨S8x8, .f32⟩
  | 14 => ⟨S8, .f32⟩
  | 15 => ⟨S8, .f32⟩
  | 16 => ⟨S8, .f32⟩
  | 17 => ⟨S1x8, .f32⟩
  | 18 => ⟨S1, .f32⟩
  | 19 => ⟨S1536x1x64, .f32⟩
  | 20 => ⟨S1x1536x64, .f32⟩
  | 21 => ⟨S1536x1536x64, .f32⟩
  | 22 => ⟨S1536x1536x64, .f32⟩
  | 23 => ⟨S1536x1536x64, .f32⟩
  | 24 => ⟨S1536x1536x64, .f32⟩
  | 25 => ⟨S1536x1536x16, .f32⟩
  | 26 => ⟨S1x1x16, .f32⟩
  | 27 => ⟨S1536x1536x16, .f32⟩
  | 28 => ⟨S1536x1536x16, .f32⟩
  | 29 => ⟨S_, .f32⟩
  | 30 => ⟨S16, .f32⟩
  | 31 => ⟨S_, .f32⟩
  | 32 => ⟨S16, .f32⟩
  | 33 => ⟨S16, .f32⟩
  | 34 => ⟨S_, .i32⟩
  | 35 => ⟨S_, .f32⟩
  | 36 => ⟨S16, .f32⟩
  | 37 => ⟨S1x1x16, .f32⟩
  | 38 => ⟨S_, .f32⟩
  | 39 => ⟨S1x1x16, .f32⟩
  | 40 => ⟨S1x1x16, .f32⟩
  | 41 => ⟨S1536x1536x16, .f32⟩
  | 42 => ⟨S1536x1536x16, .f32⟩
  | 43 => ⟨S1536x1536x16, .f32⟩
  | 44 => ⟨S_, .f32⟩
  | 45 => ⟨S_, .f32⟩
  | 46 => ⟨S_, .f32⟩
  | 47 => ⟨S_, .f32⟩
  | 48 => ⟨S16, .f32⟩
  | 49 => ⟨S16, .f32⟩
  | 50 => ⟨S16, .f32⟩
  | 51 => ⟨S_, .f32⟩
  | 52 => ⟨S_, .i1⟩
  | 53 => ⟨S_, .f32⟩
  | 54 => ⟨S_, .f32⟩
  | 55 => ⟨S16, .f32⟩
  | 56 => ⟨S16, .f32⟩
  | 57 => ⟨S1x1x16, .f32⟩
  | 58 => ⟨S1536x1536x16, .f32⟩
  | 59 => ⟨S1536x1536x16, .f32⟩
  | 60 => ⟨S_, .f32⟩
  | 61 => ⟨S16, .f32⟩
  | 62 => ⟨S16, .f32⟩
  | 63 => ⟨S16, .f32⟩
  | 64 => ⟨S1x1x16, .f32⟩
  | 65 => ⟨S1536x1536x16, .f32⟩
  | 66 => ⟨S1536x1536x16, .f32⟩
  | 67 => ⟨S1x1x16, .f32⟩
  | 68 => ⟨S1536x1536x16, .f32⟩
  | 69 => ⟨S1536x1536x16, .f32⟩
  | 70 => ⟨S1x1x16, .f32⟩
  | 71 => ⟨S1536x1536x16, .f32⟩
  | 72 => ⟨S1536x1536x16, .f32⟩
  | 73 => ⟨S_, .f32⟩
  | 74 => ⟨S_, .f32⟩
  | 75 => ⟨S1536x1536x16, .f32⟩
  | 76 => ⟨S1536x1536x16, .i1⟩
  | 77 => ⟨S_, .f32⟩
  | 78 => ⟨S1536x1536x16, .f32⟩
  | 79 => ⟨S1536x1536x16, .f32⟩
  | 80 => ⟨S1536x1536x16, .f32⟩
  | 81 => ⟨S1536x1536x16, .f32⟩
  | 82 => ⟨S1x1x16, .f32⟩
  | 83 => ⟨S1536x1536x16, .f32⟩
  | 84 => ⟨S1536x1536x16, .f32⟩
  | 85 => ⟨S_, .f32⟩
  | 86 => ⟨S16, .f32⟩
  | 87 => ⟨S_, .f32⟩
  | 88 => ⟨S16, .f32⟩
  | 89 => ⟨S16, .f32⟩
  | 90 => ⟨S_, .i32⟩
  | 91 => ⟨S_, .f32⟩
  | 92 => ⟨S16, .f32⟩
  | 93 => ⟨S1x1x16, .f32⟩
  | 94 => ⟨S_, .f32⟩
  | 95 => ⟨S1x1x16, .f32⟩
  | 96 => ⟨S1x1x16, .f32⟩
  | 97 => ⟨S1536x1536x16, .f32⟩
  | 98 => ⟨S1536x1536x16, .f32⟩
  | 99 => ⟨S1536x1536x16, .f32⟩
  | 100 => ⟨S_, .f32⟩
  | 101 => ⟨S_, .f32⟩
  | 102 => ⟨S_, .f32⟩
  | 103 => ⟨S_, .f32⟩
  | 104 => ⟨S16, .f32⟩
  | 105 => ⟨S16, .f32⟩
  | 106 => ⟨S16, .f32⟩
  | 107 => ⟨S_, .f32⟩
  | 108 => ⟨S_, .i1⟩
  | 109 => ⟨S_, .f32⟩
  | 110 => ⟨S_, .f32⟩
  | 111 => ⟨S16, .f32⟩
  | 112 => ⟨S16, .f32⟩
  | 113 => ⟨S1x1x16, .f32⟩
  | 114 => ⟨S1536x1536x16, .f32⟩
  | 115 => ⟨S1536x1536x16, .f32⟩
  | 116 => ⟨S_, .f32⟩
  | 117 => ⟨S16, .f32⟩
  | 118 => ⟨S16, .f32⟩
  | 119 => ⟨S16, .f32⟩
  | 120 => ⟨S1x1x16, .f32⟩
  | 121 => ⟨S1536x1536x16, .f32⟩
  | 122 => ⟨S1536x1536x16, .f32⟩
  | 123 => ⟨S1x1x16, .f32⟩
  | 124 => ⟨S1536x1536x16, .f32⟩
  | 125 => ⟨S1536x1536x16, .f32⟩
  | 126 => ⟨S1x1x16, .f32⟩
  | 127 => ⟨S1536x1536x16, .f32⟩
  | _ => ⟨S1536x64, .f32⟩

abbrev hbmTy0_1 (i : Nat) : BufTy := match i % 128 with
  | 0 => ⟨S1536x1536x16, .f32⟩
  | 1 => ⟨S_, .f32⟩
  | 2 => ⟨S_, .f32⟩
  | 3 => ⟨S1536x1536x16, .f32⟩
  | 4 => ⟨S1536x1536x16, .i1⟩
  | 5 => ⟨S_, .f32⟩
  | 6 => ⟨S1536x1536x16, .f32⟩
  | 7 => ⟨S1536x1536x16, .f32⟩
  | 8 => ⟨S1536x1536x16, .f32⟩
  | 9 => ⟨S1536x1536x8, .f32⟩
  | 10 => ⟨S1x1x8, .f32⟩
  | 11 => ⟨S1536x1536x8, .f32⟩
  | 12 => ⟨S1536x1536x8, .f32⟩
  | 13 => ⟨S_, .f32⟩
  | 14 => ⟨S8, .f32⟩
  | 15 => ⟨S_, .f32⟩
  | 16 => ⟨S8, .f32⟩
  | 17 => ⟨S8, .f32⟩
  | 18 => ⟨S_, .i32⟩
  | 19 => ⟨S_, .f32⟩
  | 20 => ⟨S8, .f32⟩
  | 21 => ⟨S1x1x8, .f32⟩
  | 22 => ⟨S_, .f32⟩
  | 23 => ⟨S1x1x8, .f32⟩
  | 24 => ⟨S1x1x8, .f32⟩
  | 25 => ⟨S1536x1536x8, .f32⟩
  | 26 => ⟨S1536x1536x8, .f32⟩
  | 27 => ⟨S1536x1536x8, .f32⟩
  | 28 => ⟨S_, .f32⟩
  | 29 => ⟨S_, .f32⟩
  | 30 => ⟨S_, .f32⟩
  | 31 => ⟨S_, .f32⟩
  | 32 => ⟨S8, .f32⟩
  | 33 => ⟨S8, .f32⟩
  | 34 => ⟨S8, .f32⟩
  | 35 => ⟨S_, .f32⟩
  | 36 => ⟨S_, .i1⟩
  | 37 => ⟨S_, .f32⟩
  | 38 => ⟨S_, .f32⟩
  | 39 => ⟨S8, .f32⟩
  | 40 => ⟨S8, .f32⟩
  | 41 => ⟨S1x1x8, .f32⟩
  | 42 => ⟨S1536x1536x8, .f32⟩
  | 43 => ⟨S1536x1536x8, .f32⟩
  | 44 => ⟨S_, .f32⟩
  | 45 => ⟨S8, .f32⟩
  | 46 => ⟨S8, .f32⟩
  | 47 => ⟨S8, .f32⟩
  | 48 => ⟨S1x1x8, .f32⟩
  | 49 => ⟨S1536x1536x8, .f32⟩
  | 50 => ⟨S1536x1536x8, .f32⟩
  | 51 => ⟨S1x1x8, .f32⟩
  | 52 => ⟨S1536x1536x8, .f32⟩
  | 53 => ⟨S1536x1536x8, .f32⟩
  | 54 => ⟨S1x1x8, .f32⟩
  | 55 => ⟨S1536x1536x8, .f32⟩
  | 56 => ⟨S1536x1536x8, .f32⟩
  | 57 => ⟨S_, .f32⟩
  | 58 => ⟨S_, .f32⟩
  | 59 => ⟨S1536x1536x8, .f32⟩
  | 60 => ⟨S1536x1536x8, .i1⟩
  | 61 => ⟨S_, .f32⟩
  | 62 => ⟨S1536x1536x8, .f32⟩
  | 63 => ⟨S1536x1536x8, .f32⟩
  | 64 => ⟨S1536x1536x8, .f32⟩
  | 65 => ⟨S1536x1536x8, .f32⟩
  | 66 => ⟨S1x1x8, .f32⟩
  | 67 => ⟨S1536x1536x8, .f32⟩
  | 68 => ⟨S1536x1536x8, .f32⟩
  | 69 => ⟨S_, .f32⟩
  | 70 => ⟨S8, .f32⟩
  | 71 => ⟨S_, .f32⟩
  | 72 => ⟨S8, .f32⟩
  | 73 => ⟨S8, .f32⟩
  | 74 => ⟨S_, .i32⟩
  | 75 => ⟨S_, .f32⟩
  | 76 => ⟨S8, .f32⟩
  | 77 => ⟨S1x1x8, .f32⟩
  | 78 => ⟨S_, .f32⟩
  | 79 => ⟨S1x1x8, .f32⟩
  | 80 => ⟨S1x1x8, .f32⟩
  | 81 => ⟨S1536x1536x8, .f32⟩
  | 82 => ⟨S1536x1536x8, .f32⟩
  | 83 => ⟨S1536x1536x8, .f32⟩
  | 84 => ⟨S_, .f32⟩
  | 85 => ⟨S_, .f32⟩
  | 86 => ⟨S_, .f32⟩
  | 87 => ⟨S_, .f32⟩
  | 88 => ⟨S8, .f32⟩
  | 89 => ⟨S8, .f32⟩
  | 90 => ⟨S8, .f32⟩
  | 91 => ⟨S_, .f32⟩
  | 92 => ⟨S_, .i1⟩
  | 93 => ⟨S_, .f32⟩
  | 94 => ⟨S_, .f32⟩
  | 95 => ⟨S8, .f32⟩
  | 96 => ⟨S8, .f32⟩
  | 97 => ⟨S1x1x8, .f32⟩
  | 98 => ⟨S1536x1536x8, .f32⟩
  | 99 => ⟨S1536x1536x8, .f32⟩
  | 100 => ⟨S_, .f32⟩
  | 101 => ⟨S8, .f32⟩
  | 102 => ⟨S8, .f32⟩
  | 103 => ⟨S8, .f32⟩
  | 104 => ⟨S1x1x8, .f32⟩
  | 105 => ⟨S1536x1536x8, .f32⟩
  | 106 => ⟨S1536x1536x8, .f32⟩
  | 107 => ⟨S1x1x8, .f32⟩
  | 108 => ⟨S1536x1536x8, .f32⟩
  | 109 => ⟨S1536x1536x8, .f32⟩
  | 110 => ⟨S1x1x8, .f32⟩
  | 111 => ⟨S1536x1536x8, .f32⟩
  | 112 => ⟨S1536x1536x8, .f32⟩
  | 113 => ⟨S_, .f32⟩
  | 114 => ⟨S_, .f32⟩
  | 115 => ⟨S1536x1536x8, .f32⟩
  | 116 => ⟨S1536x1536x8, .i1⟩
  | 117 => ⟨S_, .f32⟩
  | 118 => ⟨S1536x1536x8, .f32⟩
  | 119 => ⟨S1536x1536x8, .f32⟩
  | 120 => ⟨S1536x1536x8, .f32⟩
  | 121 => ⟨S1536x1536x1, .f32⟩
  | 122 => ⟨S1x1x1, .f32⟩
  | 123 => ⟨S1536x1536x1, .f32⟩
  | 124 => ⟨S1536x1536x1, .f32⟩
  | 125 => ⟨S1536x1536, .f32⟩
  | _ => ⟨S1536x64, .f32⟩

abbrev hbmTy (i : Nat) : BufTy := match i / 128 with
  | 0 => hbmTy0_0 i
  | 1 => hbmTy0_1 i
  | _ => ⟨S1536x64, .f32⟩

abbrev bufTy : (tb : Table) → Fin (tcTables nBuf tb) → BufTy
  | .hbm, ⟨i, _⟩ => hbmTy i
  | _, _ => ⟨S1536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_2 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_3 : Ref sig .tc := ⟨.hbm, 85, rfl⟩
abbrev main_v34 : Ref sig .tc := ⟨.hbm, 86, rfl⟩
abbrev main_cst_4 : Ref sig .tc := ⟨.hbm, 87, rfl⟩
abbrev main_v35 : Ref sig .tc := ⟨.hbm, 88, rfl⟩
abbrev main_v36 : Ref sig .tc := ⟨.hbm, 89, rfl⟩
abbrev main_c_5 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_cst_6 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_7 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_cst_8 : Ref sig .tc := ⟨.hbm, 141, rfl⟩
abbrev main_v58 : Ref sig .tc := ⟨.hbm, 142, rfl⟩
abbrev main_cst_9 : Ref sig .tc := ⟨.hbm, 143, rfl⟩
abbrev main_v59 : Ref sig .tc := ⟨.hbm, 144, rfl⟩
abbrev main_v60 : Ref sig .tc := ⟨.hbm, 145, rfl⟩
abbrev main_c_10 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_cst_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_cst_1 : Ref sig .tc := ⟨.hbm, 157, rfl⟩
abbrev main_call4_v8 : Ref sig .tc := ⟨.hbm, 158, rfl⟩
abbrev main_call4_cst_2 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_cst_3 : Ref sig .tc := ⟨.hbm, 163, rfl⟩
abbrev main_call4_v12 : Ref sig .tc := ⟨.hbm, 164, rfl⟩
abbrev main_call4_cst_4 : Ref sig .tc := ⟨.hbm, 165, rfl⟩
abbrev main_call4_call0_v0 : Ref sig .tc := ⟨.hbm, 166, rfl⟩
abbrev main_call4_call0_v1 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_cst_11 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_cst_12 : Ref sig .tc := ⟨.hbm, 185, rfl⟩
abbrev main_call5_cst : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_v77 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_cst_13 : Ref sig .tc := ⟨.hbm, 197, rfl⟩
abbrev main_v82 : Ref sig .tc := ⟨.hbm, 198, rfl⟩
abbrev main_cst_14 : Ref sig .tc := ⟨.hbm, 199, rfl⟩
abbrev main_v83 : Ref sig .tc := ⟨.hbm, 200, rfl⟩
abbrev main_v84 : Ref sig .tc := ⟨.hbm, 201, rfl⟩
abbrev main_c_15 : Ref sig .tc := ⟨.hbm, 202, rfl⟩
abbrev main_call6_cst : Ref sig .tc := ⟨.hbm, 203, rfl⟩
abbrev main_call6_v0 : Ref sig .tc := ⟨.hbm, 204, rfl⟩
abbrev main_call6_v1 : Ref sig .tc := ⟨.hbm, 205, rfl⟩
abbrev main_call6_cst_0 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_call6_v5 : Ref sig .tc := ⟨.hbm, 210, rfl⟩
abbrev main_call6_v6 : Ref sig .tc := ⟨.hbm, 211, rfl⟩
abbrev main_call6_v7 : Ref sig .tc := ⟨.hbm, 212, rfl⟩
abbrev main_call6_cst_1 : Ref sig .tc := ⟨.hbm, 213, rfl⟩
abbrev main_call6_v8 : Ref sig .tc := ⟨.hbm, 214, rfl⟩
abbrev main_call6_cst_2 : Ref sig .tc := ⟨.hbm, 215, rfl⟩
abbrev main_call6_v9 : Ref sig .tc := ⟨.hbm, 216, rfl⟩
abbrev main_call6_v10 : Ref sig .tc := ⟨.hbm, 217, rfl⟩
abbrev main_call6_v11 : Ref sig .tc := ⟨.hbm, 218, rfl⟩
abbrev main_call6_cst_3 : Ref sig .tc := ⟨.hbm, 219, rfl⟩
abbrev main_call6_v12 : Ref sig .tc := ⟨.hbm, 220, rfl⟩
abbrev main_call6_cst_4 : Ref sig .tc := ⟨.hbm, 221, rfl⟩
abbrev main_call6_call0_v0 : Ref sig .tc := ⟨.hbm, 222, rfl⟩
abbrev main_call6_call0_v1 : Ref sig .tc := ⟨.hbm, 223, rfl⟩
abbrev main_v85 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_cst_16 : Ref sig .tc := ⟨.hbm, 228, rfl⟩
abbrev main_v89 : Ref sig .tc := ⟨.hbm, 229, rfl⟩
abbrev main_v90 : Ref sig .tc := ⟨.hbm, 230, rfl⟩
abbrev main_v91 : Ref sig .tc := ⟨.hbm, 231, rfl⟩
abbrev main_v92 : Ref sig .tc := ⟨.hbm, 232, rfl⟩
abbrev main_v93 : Ref sig .tc := ⟨.hbm, 233, rfl⟩
abbrev main_v94 : Ref sig .tc := ⟨.hbm, 234, rfl⟩
abbrev main_v95 : Ref sig .tc := ⟨.hbm, 235, rfl⟩
abbrev main_v96 : Ref sig .tc := ⟨.hbm, 236, rfl⟩
abbrev main_v97 : Ref sig .tc := ⟨.hbm, 237, rfl⟩
abbrev main_v98 : Ref sig .tc := ⟨.hbm, 238, rfl⟩
abbrev main_v99 : Ref sig .tc := ⟨.hbm, 239, rfl⟩
abbrev main_v100 : Ref sig .tc := ⟨.hbm, 240, rfl⟩
abbrev main_cst_17 : Ref sig .tc := ⟨.hbm, 241, rfl⟩
abbrev main_call7_cst : Ref sig .tc := ⟨.hbm, 242, rfl⟩
abbrev main_call7_v0 : Ref sig .tc := ⟨.hbm, 243, rfl⟩
abbrev main_call7_v1 : Ref sig .tc := ⟨.hbm, 244, rfl⟩
abbrev main_call7_v2 : Ref sig .tc := ⟨.hbm, 245, rfl⟩
abbrev main_call7_v3 : Ref sig .tc := ⟨.hbm, 246, rfl⟩
abbrev main_call7_v4 : Ref sig .tc := ⟨.hbm, 247, rfl⟩
abbrev main_v101 : Ref sig .tc := ⟨.hbm, 248, rfl⟩
abbrev main_v102 : Ref sig .tc := ⟨.hbm, 249, rfl⟩
abbrev main_v103 : Ref sig .tc := ⟨.hbm, 250, rfl⟩
abbrev main_v104 : Ref sig .tc := ⟨.hbm, 251, rfl⟩
abbrev main_v105 : Ref sig .tc := ⟨.hbm, 252, rfl⟩
abbrev main_v106 : Ref sig .tc := ⟨.hbm, 253, rfl⟩

abbrev nD : Nat := 1
abbrev τ : Topo := Topo.v7x

variable {F : FTy → Type} [FloatOps F]

class Facts₀ : Prop where
  bcast_S1536x64_S1536x1x64_0_2 : S1536x64.BroadcastsInDim S1536x1x64 (![0, 2] : Fin 2 → Fin S1536x1x64.rank)
  bcast_S1536x64_S1x1536x64_1_2 : S1536x64.BroadcastsInDim S1x1536x64 (![1, 2] : Fin 2 → Fin S1x1536x64.rank)
  bcast_S1536x1x64_S1536x1536x64_0_1_2 : S1536x1x64.BroadcastsInDim S1536x1536x64 (![0, 1, 2] : Fin 3 → Fin S1536x1536x64.rank)
  bcast_S1x1536x64_S1536x1536x64_0_1_2 : S1x1536x64.BroadcastsInDim S1536x1536x64 (![0, 1, 2] : Fin 3 → Fin S1536x1536x64.rank)
  bcast_S16_S1x1x16_2 : S16.BroadcastsInDim S1x1x16 (![2] : Fin 1 → Fin S1x1x16.rank)
  bcast_S1x1x16_S1536x1536x16_0_1_2 : S1x1x16.BroadcastsInDim S1536x1536x16 (![0, 1, 2] : Fin 3 → Fin S1536x1536x16.rank)
  reducesTo_S1536x1536x16_S16_d0_1 : S1536x1536x16.ReducesTo [0, 1] S16
  h_S_ : 0 < S_.numel
  bcast_S_S16 : S_.BroadcastsInDim S16 (![] : Fin 0 → Fin S16.rank)
  bcast_S_S1x1x16 : S_.BroadcastsInDim S1x1x16 (![] : Fin 0 → Fin S1x1x16.rank)
  bcast_S_S1536x1536x16 : S_.BroadcastsInDim S1536x1536x16 (![] : Fin 0 → Fin S1536x1536x16.rank)
  bcast_S8_S1x1x8_2 : S8.BroadcastsInDim S1x1x8 (![2] : Fin 1 → Fin S1x1x8.rank)
  bcast_S1x1x8_S1536x1536x8_0_1_2 : S1x1x8.BroadcastsInDim S1536x1536x8 (![0, 1, 2] : Fin 3 → Fin S1536x1536x8.rank)
  reducesTo_S1536x1536x8_S8_d0_1 : S1536x1536x8.ReducesTo [0, 1] S8
  bcast_S_S8 : S_.BroadcastsInDim S8 (![] : Fin 0 → Fin S8.rank)
  bcast_S_S1x1x8 : S_.BroadcastsInDim S1x1x8 (![] : Fin 0 → Fin S1x1x8.rank)
  bcast_S_S1536x1536x8 : S_.BroadcastsInDim S1536x1536x8 (![] : Fin 0 → Fin S1536x1536x8.rank)
  bcast_S1_S1x1x1_2 : S1.BroadcastsInDim S1x1x1 (![2] : Fin 1 → Fin S1x1x1.rank)
  bcast_S1x1x1_S1536x1536x1_0_1_2 : S1x1x1.BroadcastsInDim S1536x1536x1 (![0, 1, 2] : Fin 3 → Fin S1536x1536x1.rank)
  shapeCasts_S1536x1536x1_S1536x1536 : S1536x1536x1.ShapeCasts S1536x1536
  dot_S1536x1536x64_S16x64_S1536x1536x16_2_1_01_0_n_n_wf : DotDims.WF S1536x1536x64 S16x64 S1536x1536x16 [2] [1] [0, 1] [0] [] []
  dot_S1536x1536x16_S16x16_S1536x1536x16_2_1_01_0_n_n_wf : DotDims.WF S1536x1536x16 S16x16 S1536x1536x16 [2] [1] [0, 1] [0] [] []
  dot_S1536x1536x16_S8x16_S1536x1536x8_2_1_01_0_n_n_wf : DotDims.WF S1536x1536x16 S8x16 S1536x1536x8 [2] [1] [0, 1] [0] [] []
  dot_S1536x1536x8_S8x8_S1536x1536x8_2_1_01_0_n_n_wf : DotDims.WF S1536x1536x8 S8x8 S1536x1536x8 [2] [1] [0, 1] [0] [] []
  dot_S1536x1536x8_S1x8_S1536x1536x1_2_1_01_0_n_n_wf : DotDims.WF S1536x1536x8 S1x8 S1536x1536x1 [2] [1] [0, 1] [0] [] []

variable [Facts₀]

def dot_S1536x1536x64_S16x64_S1536x1536x16_2_1_01_0_n_n : DotDims S1536x1536x64 S16x64 S1536x1536x16 where
  lhsContracting := [2]
  rhsContracting := [1]
  lhsNonContracting := [0, 1]
  rhsNonContracting := [0]
  lhsBatch := []
  rhsBatch := []
  wf := dot_S1536x1536x64_S16x64_S1536x1536x16_2_1_01_0_n_n_wf
def dot_S1536x1536x16_S16x16_S1536x1536x16_2_1_01_0_n_n : DotDims S1536x1536x16 S16x16 S1536x1536x16 where
  lhsContracting := [2]
  rhsContracting := [1]
  lhsNonContracting := [0, 1]
  rhsNonContracting := [0]
  lhsBatch := []
  rhsBatch := []
  wf := dot_S1536x1536x16_S16x16_S1536x1536x16_2_1_01_0_n_n_wf
def dot_S1536x1536x16_S8x16_S1536x1536x8_2_1_01_0_n_n : DotDims S1536x1536x16 S8x16 S1536x1536x8 where
  lhsContracting := [2]
  rhsContracting := [1]
  lhsNonContracting := [0, 1]
  rhsNonContracting := [0]
  lhsBatch := []
  rhsBatch := []
  wf := dot_S1536x1536x16_S8x16_S1536x1536x8_2_1_01_0_n_n_wf
def dot_S1536x1536x8_S8x8_S1536x1536x8_2_1_01_0_n_n : DotDims S1536x1536x8 S8x8 S1536x1536x8 where
  lhsContracting := [2]
  rhsContracting := [1]
  lhsNonContracting := [0, 1]
  rhsNonContracting := [0]
  lhsBatch := []
  rhsBatch := []
  wf := dot_S1536x1536x8_S8x8_S1536x1536x8_2_1_01_0_n_n_wf
def dot_S1536x1536x8_S1x8_S1536x1536x1_2_1_01_0_n_n : DotDims S1536x1536x8 S1x8 S1536x1536x1 where
  lhsContracting := [2]
  rhsContracting := [1]
  lhsNonContracting := [0, 1]
  rhsNonContracting := [0]
  lhsBatch := []
  rhsBatch := []
  wf := dot_S1536x1536x8_S1x8_S1536x1536x1_2_1_01_0_n_n_wf

class Facts : Prop extends Facts₀ where

variable [Facts]
-- ==== Proof.Kernel.Base.lean ====
import Idealize.ShloMosaic.Lib.Pipeline.FrameBody
import Idealize.ShloMosaic.Lib.Pipeline.Value

/-!
  Reading a buffer back through a store of its whole shape.

  A staging buffer of shape `S` that a kernel body overwrites with one value `x` of shape `S` — a store
  through the rectangle at offset zero of the full size — reads back as `x`, whatever it held and whatever
  was stored before; a load through that rectangle of contents that read as `X` is `X`. These are the only
  memory facts the bodies of this certificate's five kernels need: every load and store in them is of a
  whole block.
-/

noncomputable section

namespace Cert.Kernel.Hand

open Idealize.ShloMosaic

/-- The zero offset of a rank-1 shape, however it is spelt. -/
theorem hz1 : (![0] : Fin 1 → ℕ) = fun _ => 0 := by funext a; fin_cases a; rfl
/-- The zero offset of a rank-2 shape. -/
theorem hz2 : (![0, 0] : Fin 2 → ℕ) = fun _ => 0 := by funext a; fin_cases a <;> rfl
/-- The zero offset of a rank-3 shape. -/
theorem hz3 : (![0, 0, 0] : Fin 3 → ℕ) = fun _ => 0 := by funext a; fin_cases a <;> rfl

/-- The LAST store through the whole-shape rectangle at zero offsets reads back as its payload, whatever
    was stored before it and whatever the buffer held. -/
theorem read_writes_cons_unit_zero {sig : RefSig} {κ : Kind} {sp : Space} {S : Shape} {e : EltTy} {Val : EltTy → Type} [∀ e, Nonempty (Val e)]
    (v : View sig κ sp S e) (f : v.ty.Contents Val) {off : Fin S.rank → ℕ} (h : off = fun _ => 0)
    (inb : ∀ a, off a + S.size a ≤ S.size a) (x : S.Idx → Val e) (L : List (View.Piece Val S e)) :
    v.read Val (v.writes Val f (⟨Rect.unit off S.size inb, x⟩ :: L)) = x := by
  subst h; funext y
  have h := View.read_writes_cons_emb v f (Rect.whole S) x L y
  rwa [Rect.emb_whole_apply] at h

/-- A load through the whole-shape rectangle at zero offsets of contents that read as `X` is `X`. -/
theorem readAt_unit_zero {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (X : S.Idx → Val e) (hf : v.read Val f = X) :
    v.readAt Val (Rect.unit off S.size inb).toLoadRect f = X := by
  rw [View.readAt_eq_ld, hf, View.ld_unit_zero (S := S) h]

end Cert.Kernel.Hand

end
-- ==== Proof.Kernel.Run0.lean ====
/-
  The body of the first statistics kernel, run on whole staging buffers.

  At a grid point (i, j) the body holds a row block `x0` and a column block `x1` of the transposed
  features, the first layer's weights `w` and bias `b`, and two accumulators of one value per channel.
  It forms the layer's pre-activation on the 128 × 128 pairs of the tile and adds its sum over the pairs
  (the generated payload `k0_pay4`) to the first accumulator and the sum of its squares (`k0_pay5`) to the
  second. When j = 0 it first sets both accumulators to zero (`k0_pay1`, `k0_pay2`). Both cases are run
  here once, for any float instance; the inputs' buffers come back as they were.
-/
import proofs.«135850_j19774029431551_2_alg».proof.Proof.Gen.Kernel.Launch
import proofs.«135850_j19774029431551_2_alg».proof.Proof.Gen.Kernel.Skeleton
import proofs.«135850_j19774029431551_2_alg».proof.Proof.Gen.Kernel.Points
import Idealize.ShloMosaic.Lib.Pipeline.FrameBody
import Idealize.ShloMosaic.Lib.Ring
import Idealize.ShloMosaic.Lib.Tactic
import proofs.«135850_j19774029431551_2_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset0 (i : grid0.Coords) : Prop :=
  Scalar.cmpi .ne (Scalar.extui (Scalar.cmpi .eq (BitVec.ofNat 32 (i 1).val) 0#32)) 0#32 = 1#1

set_option maxHeartbeats 2000000 in
/-- Away from j = 0 the body adds the tile's channel sums to the accumulators it finds: from accumulators
    `s` and `q` it leaves `k0_pay4 x0 x1 w b s` and `k0_pay5 x0 x1 w b q`. -/
theorem run0_acc (c : Dev nD) (i : grid0.Coords)
    (arg2 : Memref sig .tc .vmem S64x128 .f32) (harg2 : arg2.IsWhole) (arg3 : Memref sig .tc .vmem S64x128 .f32) (harg3 : arg3.IsWhole)
    (arg4 : Memref sig .tc .vmem S16x64 .f32) (harg4 : arg4.IsWhole) (arg5 : Memref sig .tc .vmem S16 .f32) (harg5 : arg5.IsWhole)
    (arg6 : Memref sig .tc .vmem S1x1x16 .f32) (harg6 : arg6.IsWhole) (arg7 : Memref sig .tc .vmem S1x1x16 .f32) (harg7 : arg7.IsWhole)
    (hc : ¬ reset0 i)
    (x0 x1 : Vec F S64x128 .f32) (w : Vec F S16x64 .f32) (b : Vec F S16 .f32) (s q : Vec F S1x1x16 .f32) :
      ∀ (E : Set ℕ) (K : PUnit → sProp 𝕄),
        iprop(owns (c : Thread nD τ) arg2 fullShare x0 ∗ owns (c : Thread nD τ) arg3 fullShare x1
            ∗ owns (c : Thread nD τ) arg4 fullShare w ∗ owns (c : Thread nD τ) arg5 fullShare b
            ∗ owns (c : Thread nD τ) arg6 fullShare s ∗ owns (c : Thread nD τ) arg7 fullShare q
            ∗ (iprop(owns (c : Thread nD τ) arg2 fullShare x0 ∗ owns (c : Thread nD τ) arg3 fullShare x1
                ∗ owns (c : Thread nD τ) arg4 fullShare w ∗ owns (c : Thread nD τ) arg5 fullShare b
                ∗ owns (c : Thread nD τ) arg6 fullShare (k0_pay4 x0 x1 w b s)
                ∗ owns (c : Thread nD τ) arg7 fullShare (k0_pay5 x0 x1 w b q)) -∗ K ⟨⟩))
          ⊢ wp frame (wpE (defs₀ (F := F)) Variants.none c none) E (cc0_kernel i arg2 harg2 arg3 harg3 arg4 harg4 arg5 harg5 arg6 harg6 arg7 harg7) K := by
    intro E K
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w) hz2 inb_S16x64_S16x64_0_0 w hf2
    have e3 := readAt_unit_zero arg5.view (harg5.unread b) hz1 inb_S16_S16_0 b hf3
    have e4 := readAt_unit_zero arg6.view (harg6.unread s) hz3 inb_S1x1x16_S1x1x16_0_0_0 s hf4
    have e5 := readAt_unit_zero arg7.view (harg7.unread q) hz3 inb_S1x1x16_S1x1x16_0_0_0 q hf5
    rw [e0, e1, e2, e3, e4, e5]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      exact read_writes_cons_unit_zero _ _ hz3 _ _ _
    · iexists _; isplitr; swap; · iexact H5
      ipureintro
      exact read_writes_cons_unit_zero _ _ hz3 _ _ _

set_option maxHeartbeats 2000000 in
/-- At j = 0 the body starts the accumulators afresh: whatever they held, it leaves
    `k0_pay4 x0 x1 w b k0_pay1` and `k0_pay5 x0 x1 w b k0_pay2`, the tile's sums added to zeros. -/
theorem run0_reset (c : Dev nD) (i : grid0.Coords)
    (arg2 : Memref sig .tc .vmem S64x128 .f32) (harg2 : arg2.IsWhole) (arg3 : Memref sig .tc .vmem S64x128 .f32) (harg3 : arg3.IsWhole)
    (arg4 : Memref sig .tc .vmem S16x64 .f32) (harg4 : arg4.IsWhole) (arg5 : Memref sig .tc .vmem S16 .f32) (harg5 : arg5.IsWhole)
    (arg6 : Memref sig .tc .vmem S1x1x16 .f32) (harg6 : arg6.IsWhole) (arg7 : Memref sig .tc .vmem S1x1x16 .f32) (harg7 : arg7.IsWhole)
    (hc : reset0 i)
    (x0 x1 : Vec F S64x128 .f32) (w : Vec F S16x64 .f32) (b : Vec F S16 .f32) :
      ∀ (E : Set ℕ) (K : PUnit → sProp 𝕄),
        iprop(owns (c : Thread nD τ) arg2 fullShare x0 ∗ owns (c : Thread nD τ) arg3 fullShare x1
            ∗ owns (c : Thread nD τ) arg4 fullShare w ∗ owns (c : Thread nD τ) arg5 fullShare b
            ∗ (∃ s, owns (c : Thread nD τ) arg6 fullShare s) ∗ (∃ q, owns (c : Thread nD τ) arg7 fullShare q)
            ∗ (iprop(owns (c : Thread nD τ) arg2 fullShare x0 ∗ owns (c : Thread nD τ) arg3 fullShare x1
                ∗ owns (c : Thread nD τ) arg4 fullShare w ∗ owns (c : Thread nD τ) arg5 fullShare b
                ∗ owns (c : Thread nD τ) arg6 fullShare (k0_pay4 x0 x1 w b (k0_pay1 (F := F)))
                ∗ owns (c : Thread nD τ) arg7 fullShare (k0_pay5 x0 x1 w b (k0_pay2 (F := F)))) -∗ K ⟨⟩))
          ⊢ wp frame (wpE (defs₀ (F := F)) Variants.none c none) E (cc0_kernel i arg2 harg2 arg3 harg3 arg4 harg4 arg5 harg5 arg6 harg6 arg7 harg7) K := by
    intro E K
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%s, %f4, %hf4, H4⟩, ⟨%q, %f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w) hz2 inb_S16x64_S16x64_0_0 w hf2
    have e3 := readAt_unit_zero arg5.view (harg5.unread b) hz1 inb_S16_S16_0 b hf3
    rw [e0, e1, e2, e3]
    sl_unfold_run_names
    rw [View.readCov_unit_zero arg6.view hz3, View.readCov_unit_zero arg7.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      exact read_writes_cons_unit_zero _ _ hz3 _ _ _
    · iexists _; isplitr; swap; · iexact H5
      ipureintro
      exact read_writes_cons_unit_zero _ _ hz3 _ _ _

end Cert.Kernel.Hand

end
-- ==== Proof.Kernel.Dat0.lean ====
/-
  The first statistics region: its proof data and the body obligation.

  The region's grid is 12 × 12 tiles (i, j), visited row by row. Windows 0 and 1 stage the row block i and the column
  block j of ONE array, the transposed features; windows 2 and 3 stage the first layer's weights and bias, fetched once;
  windows 4 and 5 are the two per-channel accumulators, one block per row i, zeroed by the body at j = 0, added to at
  every tile of the row, written back after j = 11. What a staging buffer holds after each point is therefore: its block
  for an input, and for an accumulator the running total along the row, defined here by recursion on the position.
-/
import proofs.«135850_j19774029431551_2_alg».proof.Proof.Kernel.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- a core's buffer contents when the region is entered: the parameter everything here is stated at
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: the body only
    reads it, and between two fetches its block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: the body only
    reads it, and between two fetches its block index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: the body only
    reads it, and between two fetches its block index does not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: the body only
    reads it, and between two fetches its block index does not move. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The reset test holds exactly at the points whose second coordinate is zero: decided over the grid. -/
theorem hreset0 : ∀ t : Fin cfg0.N, reset0 (grid0.coords t) ↔ t.val % 12 = 0 :=
  (by decide +kernel : ∀ t : Fin grid0.N, reset0 (grid0.coords t) ↔ t.val % 12 = 0)

/-- What output window 4's staging buffer holds after the body at position `n`: the tile's contribution added to zeros
    where a row of tiles begins, and to what position `n - 1` left elsewhere — the running total along the row. -/
def acc0_4 (c : Dev nD) : (n : ℕ) → n < cfg0.N → Vec F S1x1x16 .f32
  | 0, hn => k0_pay4 (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 12 = 0 then k0_pay4 (iblk0 V c 0 ⟨n + 1, hn⟩) (iblk0 V c 1 ⟨n + 1, hn⟩) (iblk0 V c 2 ⟨n + 1, hn⟩) (iblk0 V c 3 ⟨n + 1, hn⟩) (k0_pay1 (F := F))
    else k0_pay4 (iblk0 V c 0 ⟨n + 1, hn⟩) (iblk0 V c 1 ⟨n + 1, hn⟩) (iblk0 V c 2 ⟨n + 1, hn⟩) (iblk0 V c 3 ⟨n + 1, hn⟩) (acc0_4 c n (Nat.lt_of_succ_lt hn))

/-- At the first tile of a row the running total is the tile's contribution added to zeros. -/
theorem acc0_4_reset (c : Dev nD) (t : Fin cfg0.N) (h0 : t.val % 12 = 0) :
    acc0_4 V c t.val t.isLt = k0_pay4 (iblk0 V c 0 t) (iblk0 V c 1 t) (iblk0 V c 2 t) (iblk0 V c 3 t) (k0_pay1 (F := F)) := by
  obtain ⟨n, hn⟩ := t
  cases n with
  | zero => exact rfl
  | succ n => exact (if_pos h0).trans rfl

/-- At a later tile of a row it is the tile's contribution added to the total the tile before left. -/
theorem acc0_4_acc (c : Dev nD) (t : Fin cfg0.N) (h0 : ¬ t.val % 12 = 0) :
    acc0_4 V c t.val t.isLt = k0_pay4 (iblk0 V c 0 t) (iblk0 V c 1 t) (iblk0 V c 2 t) (iblk0 V c 3 t) (acc0_4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 5's staging buffer holds after the body at position `n`: the tile's contribution added to zeros
    where a row of tiles begins, and to what position `n - 1` left elsewhere — the running total along the row. -/
def acc0_5 (c : Dev nD) : (n : ℕ) → n < cfg0.N → Vec F S1x1x16 .f32
  | 0, hn => k0_pay5 (iblk0 V c 0 ⟨0, hn⟩) (iblk0 V c 1 ⟨0, hn⟩) (iblk0 V c 2 ⟨0, hn⟩) (iblk0 V c 3 ⟨0, hn⟩) (k0_pay2 (F := F))
  | n + 1, hn =>
    if (n + 1) % 12 = 0 then k0_pay5 (iblk0 V c 0 ⟨n + 1, hn⟩) (iblk0 V c 1 ⟨n + 1, hn⟩) (iblk0 V c 2 ⟨n + 1, hn⟩) (iblk0 V c 3 ⟨n + 1, hn⟩) (k0_pay2 (F := F))
    else k0_pay5 (iblk0 V c 0 ⟨n + 1, hn⟩) (iblk0 V c 1 ⟨n + 1, hn⟩) (iblk0 V c 2 ⟨n + 1, hn⟩) (iblk0 V c 3 ⟨n + 1, hn⟩) (acc0_5 c n (Nat.lt_of_succ_lt hn))

/-- At the first tile of a row the running total is the tile's contribution added to zeros. -/
theorem acc0_5_reset (c : Dev nD) (t : Fin cfg0.N) (h0 : t.val % 12 = 0) :
    acc0_5 V c t.val t.isLt = k0_pay5 (iblk0 V c 0 t) (iblk0 V c 1 t) (iblk0 V c 2 t) (iblk0 V c 3 t) (k0_pay2 (F := F)) := by
  obtain ⟨n, hn⟩ := t
  cases n with
  | zero => exact rfl
  | succ n => exact (if_pos h0).trans rfl

/-- At a later tile of a row it is the tile's contribution added to the total the tile before left. -/
theorem acc0_5_acc (c : Dev nD) (t : Fin cfg0.N) (h0 : ¬ t.val % 12 = 0) :
    acc0_5 V c t.val t.isLt = k0_pay5 (iblk0 V c 0 t) (iblk0 V c 1 t) (iblk0 V c 2 t) (iblk0 V c 3 t) (acc0_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0_4 V c t.val t.isLt
    | ⟨5, _⟩ => acc0_5 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Away from the first tile of a row, output window 4's staging buffer holds what the tile before left: the point is not
    the first, the buffer was not written back in between (it is written back after the LAST tile of a row), and the
    window is live and uncut. -/
theorem before0_4_acc (c : Dev nD) (t : Fin cfg0.N) (h0 : ¬ t.val % 12 = 0) (d) :
    (dat0 V c).before 4 t d = acc0_4 V c (t.val - 1) (Nat.lt_of_le_of_lt (Nat.sub_le _ _) t.isLt) := by
  have hN : t.val < 144 := lt_of_lt_of_eq t.isLt (show cfg0.N = 144 from N_0)
  rw [Dat.before_out_kept _ 4 rfl t (by omega) (Bool.eq_false_iff.mpr fun h => by have := (flush0_4 _).mp h; dsimp only at this; omega)
    (fun _ => rfl) (fun _ _ => rfl)]
  dsimp only [dat0]

/-- Away from the first tile of a row, output window 5's staging buffer holds what the tile before left: the point is not
    the first, the buffer was not written back in between (it is written back after the LAST tile of a row), and the
    window is live and uncut. -/
theorem before0_5_acc (c : Dev nD) (t : Fin cfg0.N) (h0 : ¬ t.val % 12 = 0) (d) :
    (dat0 V c).before 5 t d = acc0_5 V c (t.val - 1) (Nat.lt_of_le_of_lt (Nat.sub_le _ _) t.isLt) := by
  have hN : t.val < 144 := lt_of_lt_of_eq t.isLt (show cfg0.N = 144 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point `t`: the invariant, the core's dues, and each window's current staging buffer
    at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each window's buffer at the proof data's contents after the point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 12 = 0
  · rw [acc0_4_reset V c t h0, acc0_5_reset V c t h0]
    iintro ⟨HΦ, Ho, ⟨%d0, H0⟩, ⟨%d1, H1⟩, ⟨%d2, H2⟩, ⟨%d3, H3⟩, ⟨%d4, H4⟩, ⟨%d5, H5⟩⟩
    iapply ((run0_reset c (grid0.coords t) _ _ _ _ _ _ _ _ _ _ _ _ ((hreset0 t).mpr h0) (iblk0 V c 0 t) (iblk0 V c 1 t) (iblk0 V c 2 t) (iblk0 V c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before0_4_acc V c t h0, before0_5_acc V c t h0]
    rw [acc0_4_acc V c t h0, acc0_5_acc V c t h0]
    iintro ⟨HΦ, Ho, ⟨%d0, H0⟩, ⟨%d1, H1⟩, ⟨%d2, H2⟩, ⟨%d3, H3⟩, ⟨%d4, H4⟩, ⟨%d5, H5⟩⟩
    iapply ((run0_acc c (grid0.coords t) _ _ _ _ _ _ _ _ _ _ _ _ (fun h => h0 ((hreset0 t).mp h)) (iblk0 V c 0 t) (iblk0 V c 1 t) (iblk0 V c 2 t) (iblk0 V c 3 t) _ _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation for the region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Entry0.lean ====
/-
  Entering and leaving the first statistics region.

  Between two items of the program a core holds every unscoped buffer whole. The region's six windows stage five
  distinct arrays: the row and column windows both read the transposed features. On entry the five buffers are dealt to
  the six windows — the shared array's full share as its two halves, one to each of the two windows on it, every other
  array whole to its one window. On exit the halves are put together again (an input window's array is never changed,
  so both halves still hold the entry contents), the two accumulator arrays come back at what the write-backs left, and
  every buffer no window stages is as it was.
-/
import proofs.«135850_j19774029431551_2_alg».proof.Proof.Kernel.Dat0
import Idealize.ShloMosaic.Lib.Pipeline.Regions
import Idealize.ShloMosaic.Lib.Pipeline.Frame
import Idealize.ShloMosaic.Lib.Pipeline.Cells

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the six windows' arrays. -/
theorem image_arr0 : (Finset.univ.image (Pipeline.arrRef spec0) : Finset (Ref sig .tc)) = {main_v0, main_arg1, main_arg2, main_v1_0, main_v1_1} := by decide

/-- Window 0's array, held at the proof data's share, is the buffer `main_v0` held at the left half of the full share. -/
theorem arr0_0 (c : Dev nD) (X : Buf (Elt F) ((cfg0.win 0).arr.view.loc (c.tc : Thread nD τ))) :
    ((cfg0.win 0).arr.view.loc (c.tc : Thread nD τ) ↦[(cfg0.win 0).arr.view.set]{(dat0 V c).share 0} X : sProp 𝕄)
      = ((c.tc : Thread nD τ).loc main_v0 ↦{fullShare.left} X) := by
  rw [(arr_whole0 0).set_eq_univ]; rfl

/-- Window 1's array, held at the proof data's share, is the buffer `main_v0` held at the right half of the full share. -/
theorem arr0_1 (c : Dev nD) (X : Buf (Elt F) ((cfg0.win 1).arr.view.loc (c.tc : Thread nD τ))) :
    ((cfg0.win 1).arr.view.loc (c.tc : Thread nD τ) ↦[(cfg0.win 1).arr.view.set]{(dat0 V c).share 1} X : sProp 𝕄)
      = ((c.tc : Thread nD τ).loc main_v0 ↦{fullShare.right} X) := by
  rw [(arr_whole0 1).set_eq_univ]; rfl

/-- Window 2's array, held at the proof data's share, is the buffer `main_arg1` held at the full share. -/
theorem arr0_2 (c : Dev nD) (X : Buf (Elt F) ((cfg0.win 2).arr.view.loc (c.tc : Thread nD τ))) :
    ((cfg0.win 2).arr.view.loc (c.tc : Thread nD τ) ↦[(cfg0.win 2).arr.view.set]{(dat0 V c).share 2} X : sProp 𝕄)
      = ((c.tc : Thread nD τ).loc main_arg1 ↦{fullShare} X) := by
  rw [(arr_whole0 2).set_eq_univ]; rfl

/-- Window 3's array, held at the proof data's share, is the buffer `main_arg2` held at the full share. -/
theorem arr0_3 (c : Dev nD) (X : Buf (Elt F) ((cfg0.win 3).arr.view.loc (c.tc : Thread nD τ))) :
    ((cfg0.win 3).arr.view.loc (c.tc : Thread nD τ) ↦[(cfg0.win 3).arr.view.set]{(dat0 V c).share 3} X : sProp 𝕄)
      = ((c.tc : Thread nD τ).loc main_arg2 ↦{fullShare} X) := by
  rw [(arr_whole0 3).set_eq_univ]; rfl

/-- Window 4's array, held at the proof data's share, is the buffer `main_v1_0` held at the full share. -/
theorem arr0_4 (c : Dev nD) (X : Buf (Elt F) ((cfg0.win 4).arr.view.loc (c.tc : Thread nD τ))) :
    ((cfg0.win 4).arr.view.loc (c.tc : Thread nD τ) ↦[(cfg0.win 4).arr.view.set]{(dat0 V c).share 4} X : sProp 𝕄)
      = ((c.tc : Thread nD τ).loc main_v1_0 ↦{fullShare} X) := by
  rw [(arr_whole0 4).set_eq_univ]; rfl

/-- Window 5's array, held at the proof data's share, is the buffer `main_v1_1` held at the full share. -/
theorem arr0_5 (c : Dev nD) (X : Buf (Elt F) ((cfg0.win 5).arr.view.loc (c.tc : Thread nD τ))) :
    ((cfg0.win 5).arr.view.loc (c.tc : Thread nD τ) ↦[(cfg0.win 5).arr.view.set]{(dat0 V c).share 5} X : sProp 𝕄)
      = ((c.tc : Thread nD τ).loc main_v1_1 ↦{fullShare} X) := by
  rw [(arr_whole0 5).set_eq_univ]; rfl

/-- Equal factors make equal products. -/
theorem sep_congr {M : Type} [URA M] {P P' Q Q' : sProp M} (h₁ : P = P') (h₂ : Q = Q') : (iprop(P ∗ Q) : sProp M) = iprop(P' ∗ Q') := by
  rw [h₁, h₂]

/-- ENTRY: the five buffers behind the arrays, whole at the entry contents, are the six windows' arrays at the proof
    data's shares and entry contents. -/
theorem hsplit0 (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [image_arr0, bigSep_W0, bigSep_insert (by decide), bigSep_insert (by decide), bigSep_insert (by decide), bigSep_insert (by decide), bigSep_singleton]
  dsimp only
  refine BIBase.Entails.trans ?_ (Entails.of_eq (sep_congr (arr0_0 V c _) (sep_congr (arr0_1 V c _) (sep_congr (arr0_2 V c _)
    (sep_congr (arr0_3 V c _) (sep_congr (arr0_4 V c _) (arr0_5 V c _)))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0) ∗ ((c.tc : Thread nD τ).loc main_arg1 ↦{fullShare} V c main_arg1)
      ∗ ((c.tc : Thread nD τ).loc main_arg2 ↦{fullShare} V c main_arg2) ∗ ((c.tc : Thread nD τ).loc main_v1_0 ↦{fullShare} V c main_v1_0)
      ∗ ((c.tc : Thread nD τ).loc main_v1_1 ↦{fullShare} V c main_v1_1)) : sProp 𝕄) ⊢ _
  iintro ⟨Hv0, Ha1, Ha2, Ho0, Ho1⟩
  ihave Hs := hs $$ Hv0
  icases Hs with ⟨HL, HR⟩
  isplitl [HL]; · iexact HL
  isplitl [HR]; · iexact HR
  isplitl [Ha1]; · iexact Ha1
  isplitl [Ha2]; · iexact Ha2
  isplitl [Ho0]; · iexact Ho0
  iexact Ho1

/-- An input window's array is never changed: at the end it holds the region's entry contents. -/
theorem arrAt0_in0 (c : Dev nD) : (dat0 V c).arrAt 0 cfg0.N = V c main_v0 := (Dat.arrAt_in _ 0 rfl _).trans (A_eq0 V c 0)
theorem arrAt0_in1 (c : Dev nD) : (dat0 V c).arrAt 1 cfg0.N = V c main_v0 := (Dat.arrAt_in _ 1 rfl _).trans (A_eq0 V c 1)
theorem arrAt0_in2 (c : Dev nD) : (dat0 V c).arrAt 2 cfg0.N = V c main_arg1 := (Dat.arrAt_in _ 2 rfl _).trans (A_eq0 V c 2)
theorem arrAt0_in3 (c : Dev nD) : (dat0 V c).arrAt 3 cfg0.N = V c main_arg2 := (Dat.arrAt_in _ 3 rfl _).trans (A_eq0 V c 3)

/-- EXIT: the six windows' arrays at their final contents are the five buffers behind them, whole, at any contents `V'`
    that agree with the entry contents on the three input arrays and with the write-backs' result on the two accumulator
    arrays: the two halves of the shared array, both still at its entry contents, make its full share again. -/
theorem hjoin0 (V' : (c : Dev nD) → (b : Ref sig .tc) → Buf (Elt F) ((c : Thread nD τ).loc b)) (c : Dev nD)
    (h0 : V' c main_v0 = V c main_v0) (h1 : V' c main_arg1 = V c main_arg1) (h2 : V' c main_arg2 = V c main_arg2)
    (h4 : V' c main_v1_0 = (dat0 V c).arrAt 4 cfg0.N) (h5 : V' c main_v1_1 = (dat0 V c).arrAt 5 cfg0.N) :
    (dat0 V c).arrays ((dat0 V c).arrAt · cfg0.N) ⊢ (Pipeline.arrBufs (Ix := Unit) (Name := ℕ) (U := UR sig nD τ) (Lvl := ℕ) spec0 c (V' c) : sProp 𝕄) := by
  unfold Pipeline.arrBufs Dat.arrays
  rw [image_arr0, bigSep_W0, bigSep_insert (by decide), bigSep_insert (by decide), bigSep_insert (by decide), bigSep_insert (by decide), bigSep_singleton]
  dsimp only
  refine BIBase.Entails.trans (Entails.of_eq (sep_congr ((arr0_0 V c _).trans (congrArg (fun X => (((c.tc : Thread nD τ).loc main_v0 ↦{fullShare.left} X) : sProp 𝕄)) (arrAt0_in0 V c)))
    (sep_congr ((arr0_1 V c _).trans (congrArg (fun X => (((c.tc : Thread nD τ).loc main_v0 ↦{fullShare.right} X) : sProp 𝕄)) (arrAt0_in1 V c)))
    (sep_congr ((arr0_2 V c _).trans (congrArg (fun X => (((c.tc : Thread nD τ).loc main_arg1 ↦{fullShare} X) : sProp 𝕄)) (arrAt0_in2 V c)))
    (sep_congr ((arr0_3 V c _).trans (congrArg (fun X => (((c.tc : Thread nD τ).loc main_arg2 ↦{fullShare} X) : sProp 𝕄)) (arrAt0_in3 V c)))
    (sep_congr (arr0_4 V c _) (arr0_5 V c _))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0) ∗ ((c.tc : Thread nD τ).loc main_arg1 ↦{fullShare} V' c main_arg1)
      ∗ ((c.tc : Thread nD τ).loc main_arg2 ↦{fullShare} V' c main_arg2) ∗ ((c.tc : Thread nD τ).loc main_v1_0 ↦{fullShare} V' c main_v1_0)
      ∗ ((c.tc : Thread nD τ).loc main_v1_1 ↦{fullShare} V' c main_v1_1)) : sProp 𝕄)
  rw [h0, h1, h2, h4, h5]
  iintro ⟨HL, HR, Ha1, Ha2, Ho0, Ho1⟩
  isplitl [HL HR]
  · iapply hj; isplitl [HL]; · iexact HL
    iexact HR
  isplitl [Ha1]; · iexact Ha1
  isplitl [Ha2]; · iexact Ha2
  isplitl [Ho0]; · iexact Ho0
  iexact Ho1

/-- ENTRY, whole: a core's unscoped buffers at the entry contents are the region's arrays at the proof data's shares and
    every other unscoped buffer, untouched. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (hsplit0 V c) .rfl

/-- EXIT, whole: the arrays at their final contents and the untouched rest are the core's unscoped buffers at contents `V'`
    that differ from the entry contents only on the two accumulator arrays, which hold what the write-backs left. -/
theorem exit0 (V' : (c : Dev nD) → (b : Ref sig .tc) → Buf (Elt F) ((c : Thread nD τ).loc b)) (c : Dev nD)
    (hrest : ∀ b, b ∉ Finset.univ.image (Pipeline.arrRef spec0) → V' c b = V c b)
    (h0 : V' c main_v0 = V c main_v0) (h1 : V' c main_arg1 = V c main_arg1) (h2 : V' c main_arg2 = V c main_arg2)
    (h4 : V' c main_v1_0 = (dat0 V c).arrAt 4 cfg0.N) (h5 : V' c main_v1_1 = (dat0 V c).arrAt 5 cfg0.N) :
    iprop((dat0 V c).arrays ((dat0 V c).arrAt · cfg0.N) ∗ Pipeline.unscopedRest spec0 c (V c))
      ⊢ (unscopedBufs (Ix := Unit) (Name := ℕ) (U := UR sig nD τ) (Lvl := ℕ) c (V' c) : sProp 𝕄) := by
  rw [Pipeline.unscopedBufs_split₀ cfgs 0 winFacts₀0.arr_unscoped c (V' c)]
  refine sep_mono (hjoin0 V V' c h0 h1 h2 h4 h5) (Entails.of_eq ?_)
  unfold Pipeline.unscopedRest
  exact bigSep_congr fun b hb => by rw [hrest b (Finset.mem_sdiff.mp hb).2]

end

end Cert.Kernel.Hand

end
-- ==== Proof.Kernel.Run1.lean ====
/-
  The body of the second statistics kernel: the first layer's activation (scaled, shifted, leaky) feeds the second layer, whose pre-activation's sum and sum of squares over the tile are added to the two running totals, run on whole staging buffers, once for any float instance; the inputs' buffers come back as they were.
-/
import proofs.«135850_j19774029431551_2_alg».proof.Proof.Gen.Kernel.Launch
import proofs.«135850_j19774029431551_2_alg».proof.Proof.Gen.Kernel.Skeleton
import proofs.«135850_j19774029431551_2_alg».proof.Proof.Gen.Kernel.Points
import Idealize.ShloMosaic.Lib.Pipeline.FrameBody
import Idealize.ShloMosaic.Lib.Ring
import Idealize.ShloMosaic.Lib.Tactic
import proofs.«135850_j19774029431551_2_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset1 (i : grid1.Coords) : Prop :=
  Scalar.cmpi .ne (Scalar.extui (Scalar.cmpi .eq (BitVec.ofNat 32 (i 1).val) 0#32)) 0#32 = 1#1

set_option maxHeartbeats 4000000 in
/-- Away from the first tile of a row the body adds the tile's contribution to the running totals it finds. -/
theorem run1_acc (c : Dev nD) (i : grid1.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x1x16 .f32) (harg10 : arg10.IsWhole) (arg11 : Memref sig .tc .vmem S1x1x16 .f32) (harg11 : arg11.IsWhole)
    (hc : ¬ reset1 i)
    (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) (s : Vec F S1x1x16 .f32) (q : Vec F S1x1x16 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
            ∗ owns (c : Thread nD τ) arg10 fullShare s ∗ owns (c : Thread nD τ) arg11 fullShare q
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
                ∗ owns (c : Thread nD τ) arg10 fullShare (k1_pay2 (k1_pay6 x0 x1 w1 b1 sc1 bi1) (k1_pay7 w2) (constant S16x16384 .f32 0x00000000#32) b2 s)
                ∗ owns (c : Thread nD τ) arg11 fullShare (k1_pay3 (k1_pay6 x0 x1 w1 b1 sc1 bi1) (k1_pay7 w2) (constant S16x16384 .f32 0x00000000#32) b2 q)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    intro E K
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread sc1) hz1 inb_S16_S16_0 sc1 hf6
    have e7 := readAt_unit_zero arg9.view (harg9.unread bi1) hz1 inb_S16_S16_0 bi1 hf7
    have e8 := readAt_unit_zero arg10.view (harg10.unread s) hz3 inb_S1x1x16_S1x1x16_0_0_0 s hf8
    have e9 := readAt_unit_zero arg11.view (harg11.unread q) hz3 inb_S1x1x16_S1x1x16_0_0_0 q hf9
    rw [e0, e1, e2, e3, e4, e5, e6, e7, e8, e9]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      exact read_writes_cons_unit_zero _ _ hz3 _ _ _
    · iexists _; isplitr; swap; · iexact H9
      ipureintro
      exact read_writes_cons_unit_zero _ _ hz3 _ _ _

set_option maxHeartbeats 4000000 in
/-- At the first tile of a row the body starts the running totals afresh, whatever the buffers held: it leaves the tile's contribution added to zeros. -/
theorem run1_reset (c : Dev nD) (i : grid1.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x1x16 .f32) (harg10 : arg10.IsWhole) (arg11 : Memref sig .tc .vmem S1x1x16 .f32) (harg11 : arg11.IsWhole)
    (hc : reset1 i)
    (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
            ∗ (∃ s, owns (c : Thread nD τ) arg10 fullShare s) ∗ (∃ q, owns (c : Thread nD τ) arg11 fullShare q)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
                ∗ owns (c : Thread nD τ) arg10 fullShare (k1_pay2 (k1_pay6 x0 x1 w1 b1 sc1 bi1) (k1_pay7 w2) (constant S16x16384 .f32 0x00000000#32) b2 (k1_pay4 (F := F)))
                ∗ owns (c : Thread nD τ) arg11 fullShare (k1_pay3 (k1_pay6 x0 x1 w1 b1 sc1 bi1) (k1_pay7 w2) (constant S16x16384 .f32 0x00000000#32) b2 (k1_pay5 (F := F)))) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    intro E K
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%s, %f8, %hf8, H8⟩, ⟨%q, %f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread sc1) hz1 inb_S16_S16_0 sc1 hf6
    have e7 := readAt_unit_zero arg9.view (harg9.unread bi1) hz1 inb_S16_S16_0 bi1 hf7
    rw [e0, e1, e2, e3, e4, e5, e6, e7]
    rw [View.readCov_unit_zero arg10.view hz3, View.readCov_unit_zero arg11.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      exact read_writes_cons_unit_zero _ _ hz3 _ _ _
    · iexists _; isplitr; swap; · iexact H9
      ipureintro
      exact read_writes_cons_unit_zero _ _ hz3 _ _ _

end Cert.Kernel.Hand

end
-- ==== Proof.Kernel.Dat1.lean ====
/-
  The second statistics region: its proof data and the body obligation. The grid is 12 × 12 tiles visited row by row; windows
  0 and 1 stage the row and column blocks of the transposed features, the last two windows are the per-channel accumulators
  (one block per row of tiles: zeroed at the row's first tile, added to at each tile, written back after its last), every
  other window a weight, bias, scale or shift fetched once. After each point an input's buffer holds its block and an
  accumulator's the running total along the row, defined by recursion on the position.
-/
import proofs.«135850_j19774029431551_2_alg».proof.Proof.Kernel.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in output window 8's buffer, from the input blocks and what the buffer held. -/
def val1_8 (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) (s : Vec F S1x1x16 .f32) : Vec F S1x1x16 .f32 :=
  k1_pay2 (k1_pay6 x0 x1 w1 b1 sc1 bi1) (k1_pay7 w2) (constant S16x16384 .f32 0x00000000#32) b2 s

/-- What the body stores in output window 9's buffer, from the input blocks and what the buffer held. -/
def val1_9 (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) (q : Vec F S1x1x16 .f32) : Vec F S1x1x16 .f32 :=
  k1_pay3 (k1_pay6 x0 x1 w1 b1 sc1 bi1) (k1_pay7 w2) (constant S16x16384 .f32 0x00000000#32) b2 q

section Region1

-- a core's buffer contents when the region is entered: the parameter everything here is stated at
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: the body only
    reads it, and between two fetches its block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: the body only
    reads it, and between two fetches its block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: the body only
    reads it, and between two fetches its block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: the body only
    reads it, and between two fetches its block index does not move. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: the body only
    reads it, and between two fetches its block index does not move. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: the body only
    reads it, and between two fetches its block index does not move. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: the body only
    reads it, and between two fetches its block index does not move. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: the body only
    reads it, and between two fetches its block index does not move. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The reset test holds exactly at the points whose second coordinate is zero: decided over the grid. -/
theorem hreset1 : ∀ t : Fin cfg1.N, reset1 (grid1.coords t) ↔ t.val % 12 = 0 :=
  (by decide +kernel : ∀ t : Fin grid1.N, reset1 (grid1.coords t) ↔ t.val % 12 = 0)

/-- What output window 8's staging buffer holds after the body at position `n`: the tile's contribution added to zeros
    where a row of tiles begins, and to what position `n - 1` left elsewhere — the running total along the row. -/
def acc1_8 (c : Dev nD) : (n : ℕ) → n < cfg1.N → Vec F S1x1x16 .f32
  | 0, hn => val1_8 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (k1_pay4 (F := F))
  | n + 1, hn =>
    if (n + 1) % 12 = 0 then val1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (k1_pay4 (F := F))
    else val1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc1_8 c n (Nat.lt_of_succ_lt hn))

/-- At the first tile of a row the running total is the tile's contribution added to zeros. -/
theorem acc1_8_reset (c : Dev nD) (t : Fin cfg1.N) (h0 : t.val % 12 = 0) :
    acc1_8 V c t.val t.isLt = val1_8 (iblk1 V c 0 t) (iblk1 V c 1 t) (iblk1 V c 2 t) (iblk1 V c 3 t) (iblk1 V c 4 t) (iblk1 V c 5 t) (iblk1 V c 6 t) (iblk1 V c 7 t) (k1_pay4 (F := F)) := by
  obtain ⟨n, hn⟩ := t
  cases n with
  | zero => exact rfl
  | succ n => exact (if_pos h0).trans rfl

/-- At a later tile of a row it is the tile's contribution added to the total the tile before left. -/
theorem acc1_8_acc (c : Dev nD) (t : Fin cfg1.N) (h0 : ¬ t.val % 12 = 0) :
    acc1_8 V c t.val t.isLt = val1_8 (iblk1 V c 0 t) (iblk1 V c 1 t) (iblk1 V c 2 t) (iblk1 V c 3 t) (iblk1 V c 4 t) (iblk1 V c 5 t) (iblk1 V c 6 t) (iblk1 V c 7 t) (acc1_8 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 9's staging buffer holds after the body at position `n`: the tile's contribution added to zeros
    where a row of tiles begins, and to what position `n - 1` left elsewhere — the running total along the row. -/
def acc1_9 (c : Dev nD) : (n : ℕ) → n < cfg1.N → Vec F S1x1x16 .f32
  | 0, hn => val1_9 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (k1_pay5 (F := F))
  | n + 1, hn =>
    if (n + 1) % 12 = 0 then val1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (k1_pay5 (F := F))
    else val1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc1_9 c n (Nat.lt_of_succ_lt hn))

/-- At the first tile of a row the running total is the tile's contribution added to zeros. -/
theorem acc1_9_reset (c : Dev nD) (t : Fin cfg1.N) (h0 : t.val % 12 = 0) :
    acc1_9 V c t.val t.isLt = val1_9 (iblk1 V c 0 t) (iblk1 V c 1 t) (iblk1 V c 2 t) (iblk1 V c 3 t) (iblk1 V c 4 t) (iblk1 V c 5 t) (iblk1 V c 6 t) (iblk1 V c 7 t) (k1_pay5 (F := F)) := by
  obtain ⟨n, hn⟩ := t
  cases n with
  | zero => exact rfl
  | succ n => exact (if_pos h0).trans rfl

/-- At a later tile of a row it is the tile's contribution added to the total the tile before left. -/
theorem acc1_9_acc (c : Dev nD) (t : Fin cfg1.N) (h0 : ¬ t.val % 12 = 0) :
    acc1_9 V c t.val t.isLt = val1_9 (iblk1 V c 0 t) (iblk1 V c 1 t) (iblk1 V c 2 t) (iblk1 V c 3 t) (iblk1 V c 4 t) (iblk1 V c 5 t) (iblk1 V c 6 t) (iblk1 V c 7 t) (acc1_9 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => acc1_8 V c t.val t.isLt
    | ⟨9, _⟩ => acc1_9 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = acc1_8 V c t.val t.isLt := by dsimp only [dat1]
theorem after1_9 (c : Dev nD) (t : Fin cfg1.N) : (dat1 V c).after 9 t = acc1_9 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- Away from the first tile of a row, output window 8's staging buffer holds what the tile before left: the point is not
    the first, the buffer was not written back in between (it is written back after the LAST tile of a row), and the
    window is live and uncut. -/
theorem before1_8_acc (c : Dev nD) (t : Fin cfg1.N) (h0 : ¬ t.val % 12 = 0) (d) :
    (dat1 V c).before 8 t d = acc1_8 V c (t.val - 1) (Nat.lt_of_le_of_lt (Nat.sub_le _ _) t.isLt) := by
  have hN : t.val < 144 := lt_of_lt_of_eq t.isLt (show cfg1.N = 144 from N_1)
  rw [Dat.before_out_kept _ 8 rfl t (by omega) (Bool.eq_false_iff.mpr fun h => by have := (flush1_8 _).mp h; dsimp only at this; omega)
    (fun _ => rfl) (fun _ _ => rfl)]
  dsimp only [dat1]

/-- Away from the first tile of a row, output window 9's staging buffer holds what the tile before left: the point is not
    the first, the buffer was not written back in between (it is written back after the LAST tile of a row), and the
    window is live and uncut. -/
theorem before1_9_acc (c : Dev nD) (t : Fin cfg1.N) (h0 : ¬ t.val % 12 = 0) (d) :
    (dat1 V c).before 9 t d = acc1_9 V c (t.val - 1) (Nat.lt_of_le_of_lt (Nat.sub_le _ _) t.isLt) := by
  have hN : t.val < 144 := lt_of_lt_of_eq t.isLt (show cfg1.N = 144 from N_1)
  rw [Dat.before_out_kept _ 9 rfl t (by omega) (Bool.eq_false_iff.mpr fun h => by have := (flush1_9 _).mp h; dsimp only at this; omega)
    (fun _ => rfl) (fun _ _ => rfl)]
  dsimp only [dat1]

/-- What the body is called with at point `t`: the invariant, the core's dues, and each window's current staging buffer
    at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: each window's buffer at the proof data's contents after the point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  by_cases h0 : t.val % 12 = 0
  · rw [acc1_8_reset V c t h0, acc1_9_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1_reset c (grid1.coords t) _ _ _ _ _ _ _ _ _ _ _ _ _ _ _ _ _ _ _ _ ((hreset1 t).mpr h0) (iblk1 V c 0 t) (iblk1 V c 1 t) (iblk1 V c 2 t) (iblk1 V c 3 t) (iblk1 V c 4 t) (iblk1 V c 5 t) (iblk1 V c 6 t) (iblk1 V c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before1_8_acc V c t h0, before1_9_acc V c t h0]
    rw [acc1_8_acc V c t h0, acc1_9_acc V c t h0]
    unfold val1_8 val1_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1_acc c (grid1.coords t) _ _ _ _ _ _ _ _ _ _ _ _ _ _ _ _ _ _ _ _ (fun h => h0 ((hreset1 t).mp h)) (iblk1 V c 0 t) (iblk1 V c 1 t) (iblk1 V c 2 t) (iblk1 V c 3 t) (iblk1 V c 4 t) (iblk1 V c 5 t) (iblk1 V c 6 t) (iblk1 V c 7 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation for the region, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Entry1.lean ====
/-
  Entering and leaving region 1: the distinct arrays behind its windows dealt to the windows on entry — the transposed
  features, which the row and column windows both stage, as the two halves of its full share — and put together again on
  exit, the output arrays at what the write-backs left, every buffer no window stages as it was.
-/
import proofs.«135850_j19774029431551_2_alg».proof.Proof.Kernel.Dat1
import proofs.«135850_j19774029431551_2_alg».proof.Proof.Kernel.Entry0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr1 : (Finset.univ.image (Pipeline.arrRef spec1) : Finset (Ref sig .tc)) = {main_v0, main_arg1, main_arg2, main_arg5, main_arg6, main_v15, main_v17, main_v18_0, main_v18_1} := by decide

theorem arr1_0 (c : Dev nD) (X : Buf (Elt F) ((cfg1.win 0).arr.view.loc (c.tc : Thread nD τ))) :
    ((cfg1.win 0).arr.view.loc (c.tc : Thread nD τ) ↦[(cfg1.win 0).arr.view.set]{(dat1 V c).share 0} X : sProp 𝕄)
      = ((c.tc : Thread nD τ).loc main_v0 ↦{fullShare.left} X) := by
  rw [(arr_whole1 0).set_eq_univ]; rfl
theorem arr1_1 (c : Dev nD) (X : Buf (Elt F) ((cfg1.win 1).arr.view.loc (c.tc : Thread nD τ))) :
    ((cfg1.win 1).arr.view.loc (c.tc : Thread nD τ) ↦[(cfg1.win 1).arr.view.set]{(dat1 V c).share 1} X : sProp 𝕄)
      = ((c.tc : Thread nD τ).loc main_v0 ↦{fullShare.right} X) := by
  rw [(arr_whole1 1).set_eq_univ]; rfl
theorem arr1_2 (c : Dev nD) (X : Buf (Elt F) ((cfg1.win 2).arr.view.loc (c.tc : Thread nD τ))) :
    ((cfg1.win 2).arr.view.loc (c.tc : Thread nD τ) ↦[(cfg1.win 2).arr.view.set]{(dat1 V c).share 2} X : sProp 𝕄)
      = ((c.tc : Thread nD τ).loc main_arg1 ↦{fullShare} X) := by
  rw [(arr_whole1 2).set_eq_univ]; rfl
theorem arr1_3 (c : Dev nD) (X : Buf (Elt F) ((cfg1.win 3).arr.view.loc (c.tc : Thread nD τ))) :
    ((cfg1.win 3).arr.view.loc (c.tc : Thread nD τ) ↦[(cfg1.win 3).arr.view.set]{(dat1 V c).share 3} X : sProp 𝕄)
      = ((c.tc : Thread nD τ).loc main_arg2 ↦{fullShare} X) := by
  rw [(arr_whole1 3).set_eq_univ]; rfl
theorem arr1_4 (c : Dev nD) (X : Buf (Elt F) ((cfg1.win 4).arr.view.loc (c.tc : Thread nD τ))) :
    ((cfg1.win 4).arr.view.loc (c.tc : Thread nD τ) ↦[(cfg1.win 4).arr.view.set]{(dat1 V c).share 4} X : sProp 𝕄)
      = ((c.tc : Thread nD τ).loc main_arg5 ↦{fullShare} X) := by
  rw [(arr_whole1 4).set_eq_univ]; rfl
theorem arr1_5 (c : Dev nD) (X : Buf (Elt F) ((cfg1.win 5).arr.view.loc (c.tc : Thread nD τ))) :
    ((cfg1.win 5).arr.view.loc (c.tc : Thread nD τ) ↦[(cfg1.win 5).arr.view.set]{(dat1 V c).share 5} X : sProp 𝕄)
      = ((c.tc : Thread nD τ).loc main_arg6 ↦{fullShare} X) := by
  rw [(arr_whole1 5).set_eq_univ]; rfl
theorem arr1_6 (c : Dev nD) (X : Buf (Elt F) ((cfg1.win 6).arr.view.loc (c.tc : Thread nD τ))) :
    ((cfg1.win 6).arr.view.loc (c.tc : Thread nD τ) ↦[(cfg1.win 6).arr.view.set]{(dat1 V c).share 6} X : sProp 𝕄)
      = ((c.tc : Thread nD τ).loc main_v15 ↦{fullShare} X) := by
  rw [(arr_whole1 6).set_eq_univ]; rfl
theorem arr1_7 (c : Dev nD) (X : Buf (Elt F) ((cfg1.win 7).arr.view.loc (c.tc : Thread nD τ))) :
    ((cfg1.win 7).arr.view.loc (c.tc : Thread nD τ) ↦[(cfg1.win 7).arr.view.set]{(dat1 V c).share 7} X : sProp 𝕄)
      = ((c.tc : Thread nD τ).loc main_v17 ↦{fullShare} X) := by
  rw [(arr_whole1 7).set_eq_univ]; rfl
theorem arr1_8 (c : Dev nD) (X : Buf (Elt F) ((cfg1.win 8).arr.view.loc (c.tc : Thread nD τ))) :
    ((cfg1.win 8).arr.view.loc (c.tc : Thread nD τ) ↦[(cfg1.win 8).arr.view.set]{(dat1 V c).share 8} X : sProp 𝕄)
      = ((c.tc : Thread nD τ).loc main_v18_0 ↦{fullShare} X) := by
  rw [(arr_whole1 8).set_eq_univ]; rfl
theorem arr1_9 (c : Dev nD) (X : Buf (Elt F) ((cfg1.win 9).arr.view.loc (c.tc : Thread nD τ))) :
    ((cfg1.win 9).arr.view.loc (c.tc : Thread nD τ) ↦[(cfg1.win 9).arr.view.set]{(dat1 V c).share 9} X : sProp 𝕄)
      = ((c.tc : Thread nD τ).loc main_v18_1 ↦{fullShare} X) := by
  rw [(arr_whole1 9).set_eq_univ]; rfl

set_option maxHeartbeats 8000000 in
/-- ENTRY: the distinct buffers behind the arrays, whole at the entry contents, are the windows' arrays at the proof data's
    shares and entry contents: the shared array's full share is dealt as its two halves. -/
theorem hsplit1 (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [image_arr1, bigSep_W1, bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr1_0 V c _)
      (sep_congr (arr1_1 V c _)
      (sep_congr (arr1_2 V c _)
      (sep_congr (arr1_3 V c _)
      (sep_congr (arr1_4 V c _)
      (sep_congr (arr1_5 V c _)
      (sep_congr (arr1_6 V c _)
      (sep_congr (arr1_7 V c _)
      (sep_congr (arr1_8 V c _)
      (arr1_9 V c _)))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_v15 ↦{fullShare} V c main_v15)
      ∗ ((c.tc : Thread nD τ).loc main_v17 ↦{fullShare} V c main_v17)
      ∗ ((c.tc : Thread nD τ).loc main_v18_0 ↦{fullShare} V c main_v18_0)
      ∗ ((c.tc : Thread nD τ).loc main_v18_1 ↦{fullShare} V c main_v18_1)) : sProp 𝕄) ⊢ _
  iintro ⟨G0, G1, G2, G3, G4, G5, G6, G7, G8⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

theorem arrAt1_in0 (c : Dev nD) : (dat1 V c).arrAt 0 cfg1.N = V c main_v0 := (Dat.arrAt_in _ 0 rfl _).trans (A_eq1 V c 0)
theorem arrAt1_in1 (c : Dev nD) : (dat1 V c).arrAt 1 cfg1.N = V c main_v0 := (Dat.arrAt_in _ 1 rfl _).trans (A_eq1 V c 1)
theorem arrAt1_in2 (c : Dev nD) : (dat1 V c).arrAt 2 cfg1.N = V c main_arg1 := (Dat.arrAt_in _ 2 rfl _).trans (A_eq1 V c 2)
theorem arrAt1_in3 (c : Dev nD) : (dat1 V c).arrAt 3 cfg1.N = V c main_arg2 := (Dat.arrAt_in _ 3 rfl _).trans (A_eq1 V c 3)
theorem arrAt1_in4 (c : Dev nD) : (dat1 V c).arrAt 4 cfg1.N = V c main_arg5 := (Dat.arrAt_in _ 4 rfl _).trans (A_eq1 V c 4)
theorem arrAt1_in5 (c : Dev nD) : (dat1 V c).arrAt 5 cfg1.N = V c main_arg6 := (Dat.arrAt_in _ 5 rfl _).trans (A_eq1 V c 5)
theorem arrAt1_in6 (c : Dev nD) : (dat1 V c).arrAt 6 cfg1.N = V c main_v15 := (Dat.arrAt_in _ 6 rfl _).trans (A_eq1 V c 6)
theorem arrAt1_in7 (c : Dev nD) : (dat1 V c).arrAt 7 cfg1.N = V c main_v17 := (Dat.arrAt_in _ 7 rfl _).trans (A_eq1 V c 7)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin1 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_v15 = V c main_v15) (hi6 : V' c main_v17 = V c main_v17) (ho0 : V' c main_v18_0 = (dat1 V c).arrAt 8 cfg1.N) (ho1 : V' c main_v18_1 = (dat1 V c).arrAt 9 cfg1.N) :
    (dat1 V c).arrays ((dat1 V c).arrAt · cfg1.N) ⊢ (Pipeline.arrBufs (Ix := Unit) (Name := ℕ) (U := UR sig nD τ) (Lvl := ℕ) spec1 c (V' c) : sProp 𝕄) := by
  unfold Pipeline.arrBufs Dat.arrays
  rw [image_arr1, bigSep_W1, bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr1_0 V c _).trans (congrArg (fun X => (((c.tc : Thread nD τ).loc main_v0 ↦{fullShare.left} X) : sProp 𝕄)) (arrAt1_in0 V c)))
      (sep_congr ((arr1_1 V c _).trans (congrArg (fun X => (((c.tc : Thread nD τ).loc main_v0 ↦{fullShare.right} X) : sProp 𝕄)) (arrAt1_in1 V c)))
      (sep_congr ((arr1_2 V c _).trans (congrArg (fun X => (((c.tc : Thread nD τ).loc main_arg1 ↦{fullShare} X) : sProp 𝕄)) (arrAt1_in2 V c)))
      (sep_congr ((arr1_3 V c _).trans (congrArg (fun X => (((c.tc : Thread nD τ).loc main_arg2 ↦{fullShare} X) : sProp 𝕄)) (arrAt1_in3 V c)))
      (sep_congr ((arr1_4 V c _).trans (congrArg (fun X => (((c.tc : Thread nD τ).loc main_arg5 ↦{fullShare} X) : sProp 𝕄)) (arrAt1_in4 V c)))
      (sep_congr ((arr1_5 V c _).trans (congrArg (fun X => (((c.tc : Thread nD τ).loc main_arg6 ↦{fullShare} X) : sProp 𝕄)) (arrAt1_in5 V c)))
      (sep_congr ((arr1_6 V c _).trans (congrArg (fun X => (((c.tc : Thread nD τ).loc main_v15 ↦{fullShare} X) : sProp 𝕄)) (arrAt1_in6 V c)))
      (sep_congr ((arr1_7 V c _).trans (congrArg (fun X => (((c.tc : Thread nD τ).loc main_v17 ↦{fullShare} X) : sProp 𝕄)) (arrAt1_in7 V c)))
      (sep_congr (arr1_8 V c _)
      (arr1_9 V c _))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_v15 ↦{fullShare} V' c main_v15)
      ∗ ((c.tc : Thread nD τ).loc main_v17 ↦{fullShare} V' c main_v17)
      ∗ ((c.tc : Thread nD τ).loc main_v18_0 ↦{fullShare} V' c main_v18_0)
      ∗ ((c.tc : Thread nD τ).loc main_v18_1 ↦{fullShare} V' c main_v18_1)) : sProp 𝕄)
  rw [hi0, hi1, hi2, hi3, hi4, hi5, hi6, ho0, ho1]
  iintro ⟨A0, A1, A2, A3, A4, A5, A6, A7, A8, A9⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

/-- ENTRY, whole: a core's unscoped buffers at the entry contents are the region's arrays at the proof data's shares and every
    other unscoped buffer, untouched. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (hsplit1 V c) .rfl

/-- EXIT, whole: the arrays at their final contents and the untouched rest are the core's unscoped buffers at contents that
    differ from the entry contents only on the output arrays, which hold what the write-backs left. -/
theorem exit1 (V' : (c : Dev nD) → (b : Ref sig .tc) → Buf (Elt F) ((c : Thread nD τ).loc b)) (c : Dev nD)
    (hrest : ∀ b, b ∉ Finset.univ.image (Pipeline.arrRef spec1) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_v15 = V c main_v15) (hi6 : V' c main_v17 = V c main_v17) (ho0 : V' c main_v18_0 = (dat1 V c).arrAt 8 cfg1.N) (ho1 : V' c main_v18_1 = (dat1 V c).arrAt 9 cfg1.N) :
    iprop((dat1 V c).arrays ((dat1 V c).arrAt · cfg1.N) ∗ Pipeline.unscopedRest spec1 c (V c))
      ⊢ (unscopedBufs (Ix := Unit) (Name := ℕ) (U := UR sig nD τ) (Lvl := ℕ) c (V' c) : sProp 𝕄) := by
  rw [Pipeline.unscopedBufs_split₀ cfgs 1 winFacts₀1.arr_unscoped c (V' c)]
  refine sep_mono (hjoin1 V V' c hi0 hi1 hi2 hi3 hi4 hi5 hi6 ho0 ho1) (Entails.of_eq ?_)
  unfold Pipeline.unscopedRest
  exact bigSep_congr fun b hb => by rw [hrest b (Finset.mem_sdiff.mp hb).2]

end

end Cert.Kernel.Hand

end
-- ==== Proof.Kernel.Run2.lean ====
/-
  The body of the third statistics kernel: two activated layers feed the third layer, whose pre-activation's sums over the tile are added to the running totals, run on whole staging buffers, once for any float instance; the inputs' buffers come back as they were.
-/
import proofs.«135850_j19774029431551_2_alg».proof.Proof.Gen.Kernel.Launch
import proofs.«135850_j19774029431551_2_alg».proof.Proof.Gen.Kernel.Skeleton
import proofs.«135850_j19774029431551_2_alg».proof.Proof.Gen.Kernel.Points
import Idealize.ShloMosaic.Lib.Pipeline.FrameBody
import Idealize.ShloMosaic.Lib.Ring
import Idealize.ShloMosaic.Lib.Tactic
import proofs.«135850_j19774029431551_2_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset2 (i : grid2.Coords) : Prop :=
  Scalar.cmpi .ne (Scalar.extui (Scalar.cmpi .eq (BitVec.ofNat 32 (i 1).val) 0#32)) 0#32 = 1#1

set_option maxHeartbeats 4000000 in
/-- Away from the first tile of a row the body adds the tile's contribution to the running totals it finds. -/
theorem run2_acc (c : Dev nD) (i : grid2.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S16 .f32) (harg10 : arg10.IsWhole) (arg11 : Memref sig .tc .vmem S16 .f32) (harg11 : arg11.IsWhole) (arg12 : Memref sig .tc .vmem S16 .f32) (harg12 : arg12.IsWhole) (arg13 : Memref sig .tc .vmem S16 .f32) (harg13 : arg13.IsWhole) (arg14 : Memref sig .tc .vmem S1x1x8 .f32) (harg14 : arg14.IsWhole) (arg15 : Memref sig .tc .vmem S1x1x8 .f32) (harg15 : arg15.IsWhole)
    (hc : ¬ reset2 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) (s : Vec F S1x1x8 .f32) (q : Vec F S1x1x8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
            ∗ owns (c : Thread nD τ) arg14 fullShare s ∗ owns (c : Thread nD τ) arg15 fullShare q
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
                ∗ owns (c : Thread nD τ) arg14 fullShare (k2_pay7 (k2_pay4 x0 x1 w1 b1 sc1 bi1) (k2_pay5 w2) (constant S16x16384 .f32 0x00000000#32) b2 sc2 bi2 w3 b3 s)
                ∗ owns (c : Thread nD τ) arg15 fullShare (k2_pay1 (k2_pay8 q) (k2_pay9 (k2_pay4 x0 x1 w1 b1 sc1 bi1) (k2_pay5 w2) (constant S16x16384 .f32 0x00000000#32) b2 sc2 bi2 w3 b3))) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc2_kernel_eq_skeleton]; unfold cc2_kernel_skel
    simp only [k2_part1_eq_skeleton]; unfold k2_part1_skel
    simp only [k2_part2_eq_skeleton]; unfold k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread sc1) hz1 inb_S16_S16_0 sc1 hf8
    have e9 := readAt_unit_zero arg11.view (harg11.unread bi1) hz1 inb_S16_S16_0 bi1 hf9
    have e10 := readAt_unit_zero arg12.view (harg12.unread sc2) hz1 inb_S16_S16_0 sc2 hf10
    have e11 := readAt_unit_zero arg13.view (harg13.unread bi2) hz1 inb_S16_S16_0 bi2 hf11
    have e12 := readAt_unit_zero arg14.view (harg14.unread s) hz3 inb_S1x1x8_S1x1x8_0_0_0 s hf12
    have e13 := readAt_unit_zero arg15.view (harg15.unread q) hz3 inb_S1x1x8_S1x1x8_0_0_0 q hf13
    rw [e0, e1, e2, e3, e4, e5, e6, e7, e8, e9, e10, e11, e12, e13]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; swap; · iexact H12
      ipureintro
      exact read_writes_cons_unit_zero _ _ hz3 _ _ _
    · iexists _; isplitr; swap; · iexact H13
      ipureintro
      exact read_writes_cons_unit_zero _ _ hz3 _ _ _

set_option maxHeartbeats 4000000 in
/-- At the first tile of a row the body starts the running totals afresh, whatever the buffers held: it leaves the tile's contribution added to zeros. -/
theorem run2_reset (c : Dev nD) (i : grid2.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S16 .f32) (harg10 : arg10.IsWhole) (arg11 : Memref sig .tc .vmem S16 .f32) (harg11 : arg11.IsWhole) (arg12 : Memref sig .tc .vmem S16 .f32) (harg12 : arg12.IsWhole) (arg13 : Memref sig .tc .vmem S16 .f32) (harg13 : arg13.IsWhole) (arg14 : Memref sig .tc .vmem S1x1x8 .f32) (harg14 : arg14.IsWhole) (arg15 : Memref sig .tc .vmem S1x1x8 .f32) (harg15 : arg15.IsWhole)
    (hc : reset2 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
            ∗ (∃ s, owns (c : Thread nD τ) arg14 fullShare s) ∗ (∃ q, owns (c : Thread nD τ) arg15 fullShare q)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
                ∗ owns (c : Thread nD τ) arg14 fullShare (k2_pay7 (k2_pay4 x0 x1 w1 b1 sc1 bi1) (k2_pay5 w2) (constant S16x16384 .f32 0x00000000#32) b2 sc2 bi2 w3 b3 (k2_pay2 (F := F)))
                ∗ owns (c : Thread nD τ) arg15 fullShare (k2_pay1 (k2_pay8 (k2_pay3 (F := F))) (k2_pay9 (k2_pay4 x0 x1 w1 b1 sc1 bi1) (k2_pay5 w2) (constant S16x16384 .f32 0x00000000#32) b2 sc2 bi2 w3 b3))) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc2_kernel_eq_skeleton]; unfold cc2_kernel_skel
    simp only [k2_part1_eq_skeleton]; unfold k2_part1_skel
    simp only [k2_part2_eq_skeleton]; unfold k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%s, %f12, %hf12, H12⟩, ⟨%q, %f13, %hf13, H13⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread sc1) hz1 inb_S16_S16_0 sc1 hf8
    have e9 := readAt_unit_zero arg11.view (harg11.unread bi1) hz1 inb_S16_S16_0 bi1 hf9
    have e10 := readAt_unit_zero arg12.view (harg12.unread sc2) hz1 inb_S16_S16_0 sc2 hf10
    have e11 := readAt_unit_zero arg13.view (harg13.unread bi2) hz1 inb_S16_S16_0 bi2 hf11
    rw [e0, e1, e2, e3, e4, e5, e6, e7, e8, e9, e10, e11]
    rw [View.readCov_unit_zero arg14.view hz3, View.readCov_unit_zero arg15.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; swap; · iexact H12
      ipureintro
      exact read_writes_cons_unit_zero _ _ hz3 _ _ _
    · iexists _; isplitr; swap; · iexact H13
      ipureintro
      exact read_writes_cons_unit_zero _ _ hz3 _ _ _

end Cert.Kernel.Hand

end
-- ==== Proof.Kernel.Dat2.lean ====
/-
  The third statistics region: its proof data and the body obligation. The grid is 12 × 12 tiles visited row by row; windows
  0 and 1 stage the row and column blocks of the transposed features, the last two windows are the per-channel accumulators
  (one block per row of tiles: zeroed at the row's first tile, added to at each tile, written back after its last), every
  other window a weight, bias, scale or shift fetched once. After each point an input's buffer holds its block and an
  accumulator's the running total along the row, defined by recursion on the position.
-/
import proofs.«135850_j19774029431551_2_alg».proof.Proof.Kernel.Run2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in output window 12's buffer, from the input blocks and what the buffer held. -/
def val2_12 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) (s : Vec F S1x1x8 .f32) : Vec F S1x1x8 .f32 :=
  k2_pay7 (k2_pay4 x0 x1 w1 b1 sc1 bi1) (k2_pay5 w2) (constant S16x16384 .f32 0x00000000#32) b2 sc2 bi2 w3 b3 s

/-- What the body stores in output window 13's buffer, from the input blocks and what the buffer held. -/
def val2_13 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) (q : Vec F S1x1x8 .f32) : Vec F S1x1x8 .f32 :=
  k2_pay1 (k2_pay8 q) (k2_pay9 (k2_pay4 x0 x1 w1 b1 sc1 bi1) (k2_pay5 w2) (constant S16x16384 .f32 0x00000000#32) b2 sc2 bi2 w3 b3)

section Region2

-- a core's buffer contents when the region is entered: the parameter everything here is stated at
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: the body only
    reads it, and between two fetches its block index does not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: the body only
    reads it, and between two fetches its block index does not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: the body only
    reads it, and between two fetches its block index does not move. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: the body only
    reads it, and between two fetches its block index does not move. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: the body only
    reads it, and between two fetches its block index does not move. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: the body only
    reads it, and between two fetches its block index does not move. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: the body only
    reads it, and between two fetches its block index does not move. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: the body only
    reads it, and between two fetches its block index does not move. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: the body only
    reads it, and between two fetches its block index does not move. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not: the body only
    reads it, and between two fetches its block index does not move. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, fetched there or not: the body only
    reads it, and between two fetches its block index does not move. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, fetched there or not: the body only
    reads it, and between two fetches its block index does not move. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- The reset test holds exactly at the points whose second coordinate is zero: decided over the grid. -/
theorem hreset2 : ∀ t : Fin cfg2.N, reset2 (grid2.coords t) ↔ t.val % 12 = 0 :=
  (by decide +kernel : ∀ t : Fin grid2.N, reset2 (grid2.coords t) ↔ t.val % 12 = 0)

/-- What output window 12's staging buffer holds after the body at position `n`: the tile's contribution added to zeros
    where a row of tiles begins, and to what position `n - 1` left elsewhere — the running total along the row. -/
def acc2_12 (c : Dev nD) : (n : ℕ) → n < cfg2.N → Vec F S1x1x8 .f32
  | 0, hn => val2_12 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (k2_pay2 (F := F))
  | n + 1, hn =>
    if (n + 1) % 12 = 0 then val2_12 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (k2_pay2 (F := F))
    else val2_12 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (acc2_12 c n (Nat.lt_of_succ_lt hn))

/-- At the first tile of a row the running total is the tile's contribution added to zeros. -/
theorem acc2_12_reset (c : Dev nD) (t : Fin cfg2.N) (h0 : t.val % 12 = 0) :
    acc2_12 V c t.val t.isLt = val2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (k2_pay2 (F := F)) := by
  obtain ⟨n, hn⟩ := t
  cases n with
  | zero => exact rfl
  | succ n => exact (if_pos h0).trans rfl

/-- At a later tile of a row it is the tile's contribution added to the total the tile before left. -/
theorem acc2_12_acc (c : Dev nD) (t : Fin cfg2.N) (h0 : ¬ t.val % 12 = 0) :
    acc2_12 V c t.val t.isLt = val2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (acc2_12 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 13's staging buffer holds after the body at position `n`: the tile's contribution added to zeros
    where a row of tiles begins, and to what position `n - 1` left elsewhere — the running total along the row. -/
def acc2_13 (c : Dev nD) : (n : ℕ) → n < cfg2.N → Vec F S1x1x8 .f32
  | 0, hn => val2_13 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (k2_pay3 (F := F))
  | n + 1, hn =>
    if (n + 1) % 12 = 0 then val2_13 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (k2_pay3 (F := F))
    else val2_13 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (acc2_13 c n (Nat.lt_of_succ_lt hn))

/-- At the first tile of a row the running total is the tile's contribution added to zeros. -/
theorem acc2_13_reset (c : Dev nD) (t : Fin cfg2.N) (h0 : t.val % 12 = 0) :
    acc2_13 V c t.val t.isLt = val2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (k2_pay3 (F := F)) := by
  obtain ⟨n, hn⟩ := t
  cases n with
  | zero => exact rfl
  | succ n => exact (if_pos h0).trans rfl

/-- At a later tile of a row it is the tile's contribution added to the total the tile before left. -/
theorem acc2_13_acc (c : Dev nD) (t : Fin cfg2.N) (h0 : ¬ t.val % 12 = 0) :
    acc2_13 V c t.val t.isLt = val2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (acc2_13 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => acc2_12 V c t.val t.isLt
    | ⟨13, _⟩ => acc2_13 V c t.val t.isLt
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = acc2_12 V c t.val t.isLt := by dsimp only [dat2]
theorem after2_13 (c : Dev nD) (t : Fin cfg2.N) : (dat2 V c).after 13 t = acc2_13 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-- Away from the first tile of a row, output window 12's staging buffer holds what the tile before left: the point is not
    the first, the buffer was not written back in between (it is written back after the LAST tile of a row), and the
    window is live and uncut. -/
theorem before2_12_acc (c : Dev nD) (t : Fin cfg2.N) (h0 : ¬ t.val % 12 = 0) (d) :
    (dat2 V c).before 12 t d = acc2_12 V c (t.val - 1) (Nat.lt_of_le_of_lt (Nat.sub_le _ _) t.isLt) := by
  have hN : t.val < 144 := lt_of_lt_of_eq t.isLt (show cfg2.N = 144 from N_2)
  rw [Dat.before_out_kept _ 12 rfl t (by omega) (Bool.eq_false_iff.mpr fun h => by have := (flush2_12 _).mp h; dsimp only at this; omega)
    (fun _ => rfl) (fun _ _ => rfl)]
  dsimp only [dat2]

/-- Away from the first tile of a row, output window 13's staging buffer holds what the tile before left: the point is not
    the first, the buffer was not written back in between (it is written back after the LAST tile of a row), and the
    window is live and uncut. -/
theorem before2_13_acc (c : Dev nD) (t : Fin cfg2.N) (h0 : ¬ t.val % 12 = 0) (d) :
    (dat2 V c).before 13 t d = acc2_13 V c (t.val - 1) (Nat.lt_of_le_of_lt (Nat.sub_le _ _) t.isLt) := by
  have hN : t.val < 144 := lt_of_lt_of_eq t.isLt (show cfg2.N = 144 from N_2)
  rw [Dat.before_out_kept _ 13 rfl t (by omega) (Bool.eq_false_iff.mpr fun h => by have := (flush2_13 _).mp h; dsimp only at this; omega)
    (fun _ => rfl) (fun _ _ => rfl)]
  dsimp only [dat2]

/-- What the body is called with at point `t`: the invariant, the core's dues, and each window's current staging buffer
    at what the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns: each window's buffer at the proof data's contents after the point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  by_cases h0 : t.val % 12 = 0
  · rw [acc2_12_reset V c t h0, acc2_13_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run2_reset c (grid2.coords t) _ _ _ _ _ _ _ _ _ _ _ _ _ _ _ _ _ _ _ _ _ _ _ _ _ _ _ _ ((hreset2 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before2_12_acc V c t h0, before2_13_acc V c t h0]
    rw [acc2_12_acc V c t h0, acc2_13_acc V c t h0]
    unfold val2_12 val2_13
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run2_acc c (grid2.coords t) _ _ _ _ _ _ _ _ _ _ _ _ _ _ _ _ _ _ _ _ _ _ _ _ _ _ _ _ (fun h => h0 ((hreset2 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation for the region, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.Kernel.Entry2.lean ====
/-
  Entering and leaving region 2: the distinct arrays behind its windows dealt to the windows on entry — the transposed
  features, which the row and column windows both stage, as the two halves of its full share — and put together again on
  exit, the output arrays at what the write-backs left, every buffer no window stages as it was.
-/
import proofs.«135850_j19774029431551_2_alg».proof.Proof.Kernel.Dat2
import proofs.«135850_j19774029431551_2_alg».proof.Proof.Kernel.Entry0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr2 : (Finset.univ.image (Pipeline.arrRef spec2) : Finset (Ref sig .tc)) = {main_v0, main_arg1, main_arg2, main_arg5, main_arg6, main_arg9, main_arg10, main_v15, main_v17, main_v32, main_v34, main_v35_0, main_v35_1} := by decide

theorem arr2_0 (c : Dev nD) (X : Buf (Elt F) ((cfg2.win 0).arr.view.loc (c.tc : Thread nD τ))) :
    ((cfg2.win 0).arr.view.loc (c.tc : Thread nD τ) ↦[(cfg2.win 0).arr.view.set]{(dat2 V c).share 0} X : sProp 𝕄)
      = ((c.tc : Thread nD τ).loc main_v0 ↦{fullShare.left} X) := by
  rw [(arr_whole2 0).set_eq_univ]; rfl
theorem arr2_1 (c : Dev nD) (X : Buf (Elt F) ((cfg2.win 1).arr.view.loc (c.tc : Thread nD τ))) :
    ((cfg2.win 1).arr.view.loc (c.tc : Thread nD τ) ↦[(cfg2.win 1).arr.view.set]{(dat2 V c).share 1} X : sProp 𝕄)
      = ((c.tc : Thread nD τ).loc main_v0 ↦{fullShare.right} X) := by
  rw [(arr_whole2 1).set_eq_univ]; rfl
theorem arr2_2 (c : Dev nD) (X : Buf (Elt F) ((cfg2.win 2).arr.view.loc (c.tc : Thread nD τ))) :
    ((cfg2.win 2).arr.view.loc (c.tc : Thread nD τ) ↦[(cfg2.win 2).arr.view.set]{(dat2 V c).share 2} X : sProp 𝕄)
      = ((c.tc : Thread nD τ).loc main_arg1 ↦{fullShare} X) := by
  rw [(arr_whole2 2).set_eq_univ]; rfl
theorem arr2_3 (c : Dev nD) (X : Buf (Elt F) ((cfg2.win 3).arr.view.loc (c.tc : Thread nD τ))) :
    ((cfg2.win 3).arr.view.loc (c.tc : Thread nD τ) ↦[(cfg2.win 3).arr.view.set]{(dat2 V c).share 3} X : sProp 𝕄)
      = ((c.tc : Thread nD τ).loc main_arg2 ↦{fullShare} X) := by
  rw [(arr_whole2 3).set_eq_univ]; rfl
theorem arr2_4 (c : Dev nD) (X : Buf (Elt F) ((cfg2.win 4).arr.view.loc (c.tc : Thread nD τ))) :
    ((cfg2.win 4).arr.view.loc (c.tc : Thread nD τ) ↦[(cfg2.win 4).arr.view.set]{(dat2 V c).share 4} X : sProp 𝕄)
      = ((c.tc : Thread nD τ).loc main_arg5 ↦{fullShare} X) := by
  rw [(arr_whole2 4).set_eq_univ]; rfl
theorem arr2_5 (c : Dev nD) (X : Buf (Elt F) ((cfg2.win 5).arr.view.loc (c.tc : Thread nD τ))) :
    ((cfg2.win 5).arr.view.loc (c.tc : Thread nD τ) ↦[(cfg2.win 5).arr.view.set]{(dat2 V c).share 5} X : sProp 𝕄)
      = ((c.tc : Thread nD τ).loc main_arg6 ↦{fullShare} X) := by
  rw [(arr_whole2 5).set_eq_univ]; rfl
theorem arr2_6 (c : Dev nD) (X : Buf (Elt F) ((cfg2.win 6).arr.view.loc (c.tc : Thread nD τ))) :
    ((cfg2.win 6).arr.view.loc (c.tc : Thread nD τ) ↦[(cfg2.win 6).arr.view.set]{(dat2 V c).share 6} X : sProp 𝕄)
      = ((c.tc : Thread nD τ).loc main_arg9 ↦{fullShare} X) := by
  rw [(arr_whole2 6).set_eq_univ]; rfl
theorem arr2_7 (c : Dev nD) (X : Buf (Elt F) ((cfg2.win 7).arr.view.loc (c.tc : Thread nD τ))) :
    ((cfg2.win 7).arr.view.loc (c.tc : Thread nD τ) ↦[(cfg2.win 7).arr.view.set]{(dat2 V c).share 7} X : sProp 𝕄)
      = ((c.tc : Thread nD τ).loc main_arg10 ↦{fullShare} X) := by
  rw [(arr_whole2 7).set_eq_univ]; rfl
theorem arr2_8 (c : Dev nD) (X : Buf (Elt F) ((cfg2.win 8).arr.view.loc (c.tc : Thread nD τ))) :
    ((cfg2.win 8).arr.view.loc (c.tc : Thread nD τ) ↦[(cfg2.win 8).arr.view.set]{(dat2 V c).share 8} X : sProp 𝕄)
      = ((c.tc : Thread nD τ).loc main_v15 ↦{fullShare} X) := by
  rw [(arr_whole2 8).set_eq_univ]; rfl
theorem arr2_9 (c : Dev nD) (X : Buf (Elt F) ((cfg2.win 9).arr.view.loc (c.tc : Thread nD τ))) :
    ((cfg2.win 9).arr.view.loc (c.tc : Thread nD τ) ↦[(cfg2.win 9).arr.view.set]{(dat2 V c).share 9} X : sProp 𝕄)
      = ((c.tc : Thread nD τ).loc main_v17 ↦{fullShare} X) := by
  rw [(arr_whole2 9).set_eq_univ]; rfl
theorem arr2_10 (c : Dev nD) (X : Buf (Elt F) ((cfg2.win 10).arr.view.loc (c.tc : Thread nD τ))) :
    ((cfg2.win 10).arr.view.loc (c.tc : Thread nD τ) ↦[(cfg2.win 10).arr.view.set]{(dat2 V c).share 10} X : sProp 𝕄)
      = ((c.tc : Thread nD τ).loc main_v32 ↦{fullShare} X) := by
  rw [(arr_whole2 10).set_eq_univ]; rfl
theorem arr2_11 (c : Dev nD) (X : Buf (Elt F) ((cfg2.win 11).arr.view.loc (c.tc : Thread nD τ))) :
    ((cfg2.win 11).arr.view.loc (c.tc : Thread nD τ) ↦[(cfg2.win 11).arr.view.set]{(dat2 V c).share 11} X : sProp 𝕄)
      = ((c.tc : Thread nD τ).loc main_v34 ↦{fullShare} X) := by
  rw [(arr_whole2 11).set_eq_univ]; rfl
theorem arr2_12 (c : Dev nD) (X : Buf (Elt F) ((cfg2.win 12).arr.view.loc (c.tc : Thread nD τ))) :
    ((cfg2.win 12).arr.view.loc (c.tc : Thread nD τ) ↦[(cfg2.win 12).arr.view.set]{(dat2 V c).share 12} X : sProp 𝕄)
      = ((c.tc : Thread nD τ).loc main_v35_0 ↦{fullShare} X) := by
  rw [(arr_whole2 12).set_eq_univ]; rfl
theorem arr2_13 (c : Dev nD) (X : Buf (Elt F) ((cfg2.win 13).arr.view.loc (c.tc : Thread nD τ))) :
    ((cfg2.win 13).arr.view.loc (c.tc : Thread nD τ) ↦[(cfg2.win 13).arr.view.set]{(dat2 V c).share 13} X : sProp 𝕄)
      = ((c.tc : Thread nD τ).loc main_v35_1 ↦{fullShare} X) := by
  rw [(arr_whole2 13).set_eq_univ]; rfl

set_option maxHeartbeats 8000000 in
/-- ENTRY: the distinct buffers behind the arrays, whole at the entry contents, are the windows' arrays at the proof data's
    shares and entry contents: the shared array's full share is dealt as its two halves. -/
theorem hsplit2 (c : Dev nD) :
    (Pipeline.arrBufs (Ix := Unit) (Name := ℕ) (U := UR sig nD τ) (Lvl := ℕ) spec2 c (V c) : sProp 𝕄) ⊢ (dat2 V c).arrays ((dat2 V c).arrAt · 0) := by
  unfold Pipeline.arrBufs Dat.arrays
  rw [image_arr2, bigSep_W2, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr2_0 V c _)
      (sep_congr (arr2_1 V c _)
      (sep_congr (arr2_2 V c _)
      (sep_congr (arr2_3 V c _)
      (sep_congr (arr2_4 V c _)
      (sep_congr (arr2_5 V c _)
      (sep_congr (arr2_6 V c _)
      (sep_congr (arr2_7 V c _)
      (sep_congr (arr2_8 V c _)
      (sep_congr (arr2_9 V c _)
      (sep_congr (arr2_10 V c _)
      (sep_congr (arr2_11 V c _)
      (sep_congr (arr2_12 V c _)
      (arr2_13 V c _)))))))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_arg9 ↦{fullShare} V c main_arg9)
      ∗ ((c.tc : Thread nD τ).loc main_arg10 ↦{fullShare} V c main_arg10)
      ∗ ((c.tc : Thread nD τ).loc main_v15 ↦{fullShare} V c main_v15)
      ∗ ((c.tc : Thread nD τ).loc main_v17 ↦{fullShare} V c main_v17)
      ∗ ((c.tc : Thread nD τ).loc main_v32 ↦{fullShare} V c main_v32)
      ∗ ((c.tc : Thread nD τ).loc main_v34 ↦{fullShare} V c main_v34)
      ∗ ((c.tc : Thread nD τ).loc main_v35_0 ↦{fullShare} V c main_v35_0)
      ∗ ((c.tc : Thread nD τ).loc main_v35_1 ↦{fullShare} V c main_v35_1)) : sProp 𝕄) ⊢ _
  iintro ⟨G0, G1, G2, G3, G4, G5, G6, G7, G8, G9, G10, G11, G12⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  iexact G12

theorem arrAt2_in0 (c : Dev nD) : (dat2 V c).arrAt 0 cfg2.N = V c main_v0 := (Dat.arrAt_in _ 0 rfl _).trans (A_eq2 V c 0)
theorem arrAt2_in1 (c : Dev nD) : (dat2 V c).arrAt 1 cfg2.N = V c main_v0 := (Dat.arrAt_in _ 1 rfl _).trans (A_eq2 V c 1)
theorem arrAt2_in2 (c : Dev nD) : (dat2 V c).arrAt 2 cfg2.N = V c main_arg1 := (Dat.arrAt_in _ 2 rfl _).trans (A_eq2 V c 2)
theorem arrAt2_in3 (c : Dev nD) : (dat2 V c).arrAt 3 cfg2.N = V c main_arg2 := (Dat.arrAt_in _ 3 rfl _).trans (A_eq2 V c 3)
theorem arrAt2_in4 (c : Dev nD) : (dat2 V c).arrAt 4 cfg2.N = V c main_arg5 := (Dat.arrAt_in _ 4 rfl _).trans (A_eq2 V c 4)
theorem arrAt2_in5 (c : Dev nD) : (dat2 V c).arrAt 5 cfg2.N = V c main_arg6 := (Dat.arrAt_in _ 5 rfl _).trans (A_eq2 V c 5)
theorem arrAt2_in6 (c : Dev nD) : (dat2 V c).arrAt 6 cfg2.N = V c main_arg9 := (Dat.arrAt_in _ 6 rfl _).trans (A_eq2 V c 6)
theorem arrAt2_in7 (c : Dev nD) : (dat2 V c).arrAt 7 cfg2.N = V c main_arg10 := (Dat.arrAt_in _ 7 rfl _).trans (A_eq2 V c 7)
theorem arrAt2_in8 (c : Dev nD) : (dat2 V c).arrAt 8 cfg2.N = V c main_v15 := (Dat.arrAt_in _ 8 rfl _).trans (A_eq2 V c 8)
theorem arrAt2_in9 (c : Dev nD) : (dat2 V c).arrAt 9 cfg2.N = V c main_v17 := (Dat.arrAt_in _ 9 rfl _).trans (A_eq2 V c 9)
theorem arrAt2_in10 (c : Dev nD) : (dat2 V c).arrAt 10 cfg2.N = V c main_v32 := (Dat.arrAt_in _ 10 rfl _).trans (A_eq2 V c 10)
theorem arrAt2_in11 (c : Dev nD) : (dat2 V c).arrAt 11 cfg2.N = V c main_v34 := (Dat.arrAt_in _ 11 rfl _).trans (A_eq2 V c 11)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin2 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_v15 = V c main_v15) (hi8 : V' c main_v17 = V c main_v17) (hi9 : V' c main_v32 = V c main_v32) (hi10 : V' c main_v34 = V c main_v34) (ho0 : V' c main_v35_0 = (dat2 V c).arrAt 12 cfg2.N) (ho1 : V' c main_v35_1 = (dat2 V c).arrAt 13 cfg2.N) :
    (dat2 V c).arrays ((dat2 V c).arrAt · cfg2.N) ⊢ (Pipeline.arrBufs (Ix := Unit) (Name := ℕ) (U := UR sig nD τ) (Lvl := ℕ) spec2 c (V' c) : sProp 𝕄) := by
  unfold Pipeline.arrBufs Dat.arrays
  rw [image_arr2, bigSep_W2, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr2_0 V c _).trans (congrArg (fun X => (((c.tc : Thread nD τ).loc main_v0 ↦{fullShare.left} X) : sProp 𝕄)) (arrAt2_in0 V c)))
      (sep_congr ((arr2_1 V c _).trans (congrArg (fun X => (((c.tc : Thread nD τ).loc main_v0 ↦{fullShare.right} X) : sProp 𝕄)) (arrAt2_in1 V c)))
      (sep_congr ((arr2_2 V c _).trans (congrArg (fun X => (((c.tc : Thread nD τ).loc main_arg1 ↦{fullShare} X) : sProp 𝕄)) (arrAt2_in2 V c)))
      (sep_congr ((arr2_3 V c _).trans (congrArg (fun X => (((c.tc : Thread nD τ).loc main_arg2 ↦{fullShare} X) : sProp 𝕄)) (arrAt2_in3 V c)))
      (sep_congr ((arr2_4 V c _).trans (congrArg (fun X => (((c.tc : Thread nD τ).loc main_arg5 ↦{fullShare} X) : sProp 𝕄)) (arrAt2_in4 V c)))
      (sep_congr ((arr2_5 V c _).trans (congrArg (fun X => (((c.tc : Thread nD τ).loc main_arg6 ↦{fullShare} X) : sProp 𝕄)) (arrAt2_in5 V c)))
      (sep_congr ((arr2_6 V c _).trans (congrArg (fun X => (((c.tc : Thread nD τ).loc main_arg9 ↦{fullShare} X) : sProp 𝕄)) (arrAt2_in6 V c)))
      (sep_congr ((arr2_7 V c _).trans (congrArg (fun X => (((c.tc : Thread nD τ).loc main_arg10 ↦{fullShare} X) : sProp 𝕄)) (arrAt2_in7 V c)))
      (sep_congr ((arr2_8 V c _).trans (congrArg (fun X => (((c.tc : Thread nD τ).loc main_v15 ↦{fullShare} X) : sProp 𝕄)) (arrAt2_in8 V c)))
      (sep_congr ((arr2_9 V c _).trans (congrArg (fun X => (((c.tc : Thread nD τ).loc main_v17 ↦{fullShare} X) : sProp 𝕄)) (arrAt2_in9 V c)))
      (sep_congr ((arr2_10 V c _).trans (congrArg (fun X => (((c.tc : Thread nD τ).loc main_v32 ↦{fullShare} X) : sProp 𝕄)) (arrAt2_in10 V c)))
      (sep_congr ((arr2_11 V c _).trans (congrArg (fun X => (((c.tc : Thread nD τ).loc main_v34 ↦{fullShare} X) : sProp 𝕄)) (arrAt2_in11 V c)))
      (sep_congr (arr2_12 V c _)
      (arr2_13 V c _))))))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_arg9 ↦{fullShare} V' c main_arg9)
      ∗ ((c.tc : Thread nD τ).loc main_arg10 ↦{fullShare} V' c main_arg10)
      ∗ ((c.tc : Thread nD τ).loc main_v15 ↦{fullShare} V' c main_v15)
      ∗ ((c.tc : Thread nD τ).loc main_v17 ↦{fullShare} V' c main_v17)
      ∗ ((c.tc : Thread nD τ).loc main_v32 ↦{fullShare} V' c main_v32)
      ∗ ((c.tc : Thread nD τ).loc main_v34 ↦{fullShare} V' c main_v34)
      ∗ ((c.tc : Thread nD τ).loc main_v35_0 ↦{fullShare} V' c main_v35_0)
      ∗ ((c.tc : Thread nD τ).loc main_v35_1 ↦{fullShare} V' c main_v35_1)) : sProp 𝕄)
  rw [hi0, hi1, hi2, hi3, hi4, hi5, hi6, hi7, hi8, hi9, hi10, ho0, ho1]
  iintro ⟨A0, A1, A2, A3, A4, A5, A6, A7, A8, A9, A10, A11, A12, A13⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  iexact A13

/-- ENTRY, whole: a core's unscoped buffers at the entry contents are the region's arrays at the proof data's shares and every
    other unscoped buffer, untouched. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest spec2 c (V c)) := by
  rw [Pipeline.unscopedBufs_split₀ cfgs 2 winFacts₀2.arr_unscoped c (V c)]
  exact sep_mono (hsplit2 V c) .rfl

/-- EXIT, whole: the arrays at their final contents and the untouched rest are the core's unscoped buffers at contents that
    differ from the entry contents only on the output arrays, which hold what the write-backs left. -/
theorem exit2 (V' : (c : Dev nD) → (b : Ref sig .tc) → Buf (Elt F) ((c : Thread nD τ).loc b)) (c : Dev nD)
    (hrest : ∀ b, b ∉ Finset.univ.image (Pipeline.arrRef spec2) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_v15 = V c main_v15) (hi8 : V' c main_v17 = V c main_v17) (hi9 : V' c main_v32 = V c main_v32) (hi10 : V' c main_v34 = V c main_v34) (ho0 : V' c main_v35_0 = (dat2 V c).arrAt 12 cfg2.N) (ho1 : V' c main_v35_1 = (dat2 V c).arrAt 13 cfg2.N) :
    iprop((dat2 V c).arrays ((dat2 V c).arrAt · cfg2.N) ∗ Pipeline.unscopedRest spec2 c (V c))
      ⊢ (unscopedBufs (Ix := Unit) (Name := ℕ) (U := UR sig nD τ) (Lvl := ℕ) c (V' c) : sProp 𝕄) := by
  rw [Pipeline.unscopedBufs_split₀ cfgs 2 winFacts₀2.arr_unscoped c (V' c)]
  refine sep_mono (hjoin2 V V' c hi0 hi1 hi2 hi3 hi4 hi5 hi6 hi7 hi8 hi9 hi10 ho0 ho1) (Entails.of_eq ?_)
  unfold Pipeline.unscopedRest
  exact bigSep_congr fun b hb => by rw [hrest b (Finset.mem_sdiff.mp hb).2]

end

end Cert.Kernel.Hand

end
-- ==== Proof.Kernel.Run3.lean ====
/-
  The body of the fourth statistics kernel: three activated layers feed the fourth layer, whose pre-activation's sums over the tile are added to the running totals, run on whole staging buffers, once for any float instance; the inputs' buffers come back as they were.
-/
import proofs.«135850_j19774029431551_2_alg».proof.Proof.Gen.Kernel.Launch
import proofs.«135850_j19774029431551_2_alg».proof.Proof.Gen.Kernel.Skeleton
import proofs.«135850_j19774029431551_2_alg».proof.Proof.Gen.Kernel.Points
import Idealize.ShloMosaic.Lib.Pipeline.FrameBody
import Idealize.ShloMosaic.Lib.Ring
import Idealize.ShloMosaic.Lib.Tactic
import proofs.«135850_j19774029431551_2_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset3 (i : grid3.Coords) : Prop :=
  Scalar.cmpi .ne (Scalar.extui (Scalar.cmpi .eq (BitVec.ofNat 32 (i 1).val) 0#32)) 0#32 = 1#1

set_option maxHeartbeats 4000000 in
/-- Away from the first tile of a row the body adds the tile's contribution to the running totals it finds. -/
theorem run3_acc (c : Dev nD) (i : grid3.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S8x8 .f32) (harg10 : arg10.IsWhole) (arg11 : Memref sig .tc .vmem S8 .f32) (harg11 : arg11.IsWhole) (arg12 : Memref sig .tc .vmem S16 .f32) (harg12 : arg12.IsWhole) (arg13 : Memref sig .tc .vmem S16 .f32) (harg13 : arg13.IsWhole) (arg14 : Memref sig .tc .vmem S16 .f32) (harg14 : arg14.IsWhole) (arg15 : Memref sig .tc .vmem S16 .f32) (harg15 : arg15.IsWhole) (arg16 : Memref sig .tc .vmem S8 .f32) (harg16 : arg16.IsWhole) (arg17 : Memref sig .tc .vmem S8 .f32) (harg17 : arg17.IsWhole) (arg18 : Memref sig .tc .vmem S1x1x8 .f32) (harg18 : arg18.IsWhole) (arg19 : Memref sig .tc .vmem S1x1x8 .f32) (harg19 : arg19.IsWhole)
    (hc : ¬ reset3 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) (s : Vec F S1x1x8 .f32) (q : Vec F S1x1x8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
            ∗ owns (c : Thread nD τ) arg18 fullShare s ∗ owns (c : Thread nD τ) arg19 fullShare q
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
                ∗ owns (c : Thread nD τ) arg18 fullShare (k3_pay2 (k3_pay8 (k3_pay6 x0 x1 w1 b1 sc1 bi1) (k3_pay7 w2) (constant S16x16384 .f32 0x00000000#32) b2 sc2 bi2 w3 b3 sc3 bi3) w4 b4 s)
                ∗ owns (c : Thread nD τ) arg19 fullShare (k3_pay3 (k3_pay8 (k3_pay6 x0 x1 w1 b1 sc1 bi1) (k3_pay7 w2) (constant S16x16384 .f32 0x00000000#32) b2 sc2 bi2 w3 b3 sc3 bi3) w4 b4 q)) -∗ K ⟨⟩))
          ⊢ wp frame (wpE (defs₀ (F := F)) Variants.none c none) E (cc3_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc3_kernel_eq_skeleton]; unfold cc3_kernel_skel
    simp only [k3_part1_eq_skeleton]; unfold k3_part1_skel
    simp only [k3_part2_eq_skeleton]; unfold k3_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread w4) hz2 inb_S8x8_S8x8_0_0 w4 hf8
    have e9 := readAt_unit_zero arg11.view (harg11.unread b4) hz1 inb_S8_S8_0 b4 hf9
    have e10 := readAt_unit_zero arg12.view (harg12.unread sc1) hz1 inb_S16_S16_0 sc1 hf10
    have e11 := readAt_unit_zero arg13.view (harg13.unread bi1) hz1 inb_S16_S16_0 bi1 hf11
    have e12 := readAt_unit_zero arg14.view (harg14.unread sc2) hz1 inb_S16_S16_0 sc2 hf12
    have e13 := readAt_unit_zero arg15.view (harg15.unread bi2) hz1 inb_S16_S16_0 bi2 hf13
    have e14 := readAt_unit_zero arg16.view (harg16.unread sc3) hz1 inb_S8_S8_0 sc3 hf14
    have e15 := readAt_unit_zero arg17.view (harg17.unread bi3) hz1 inb_S8_S8_0 bi3 hf15
    have e16 := readAt_unit_zero arg18.view (harg18.unread s) hz3 inb_S1x1x8_S1x1x8_0_0_0 s hf16
    have e17 := readAt_unit_zero arg19.view (harg19.unread q) hz3 inb_S1x1x8_S1x1x8_0_0_0 q hf17
    rw [e0, e1, e2, e3, e4, e5, e6, e7, e8, e9, e10, e11, e12, e13, e14, e15, e16, e17]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; swap; · iexact H16
      ipureintro
      exact read_writes_cons_unit_zero _ _ hz3 _ _ _
    · iexists _; isplitr; swap; · iexact H17
      ipureintro
      exact read_writes_cons_unit_zero _ _ hz3 _ _ _

set_option maxHeartbeats 4000000 in
/-- At the first tile of a row the body starts the running totals afresh, whatever the buffers held: it leaves the tile's contribution added to zeros. -/
theorem run3_reset (c : Dev nD) (i : grid3.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S8x8 .f32) (harg10 : arg10.IsWhole) (arg11 : Memref sig .tc .vmem S8 .f32) (harg11 : arg11.IsWhole) (arg12 : Memref sig .tc .vmem S16 .f32) (harg12 : arg12.IsWhole) (arg13 : Memref sig .tc .vmem S16 .f32) (harg13 : arg13.IsWhole) (arg14 : Memref sig .tc .vmem S16 .f32) (harg14 : arg14.IsWhole) (arg15 : Memref sig .tc .vmem S16 .f32) (harg15 : arg15.IsWhole) (arg16 : Memref sig .tc .vmem S8 .f32) (harg16 : arg16.IsWhole) (arg17 : Memref sig .tc .vmem S8 .f32) (harg17 : arg17.IsWhole) (arg18 : Memref sig .tc .vmem S1x1x8 .f32) (harg18 : arg18.IsWhole) (arg19 : Memref sig .tc .vmem S1x1x8 .f32) (harg19 : arg19.IsWhole)
    (hc : reset3 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
            ∗ (∃ s, owns (c : Thread nD τ) arg18 fullShare s) ∗ (∃ q, owns (c : Thread nD τ) arg19 fullShare q)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
                ∗ owns (c : Thread nD τ) arg18 fullShare (k3_pay2 (k3_pay8 (k3_pay6 x0 x1 w1 b1 sc1 bi1) (k3_pay7 w2) (constant S16x16384 .f32 0x00000000#32) b2 sc2 bi2 w3 b3 sc3 bi3) w4 b4 (k3_pay4 (F := F)))
                ∗ owns (c : Thread nD τ) arg19 fullShare (k3_pay3 (k3_pay8 (k3_pay6 x0 x1 w1 b1 sc1 bi1) (k3_pay7 w2) (constant S16x16384 .f32 0x00000000#32) b2 sc2 bi2 w3 b3 sc3 bi3) w4 b4 (k3_pay5 (F := F)))) -∗ K ⟨⟩))
          ⊢ wp frame (wpE (defs₀ (F := F)) Variants.none c none) E (cc3_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc3_kernel_eq_skeleton]; unfold cc3_kernel_skel
    simp only [k3_part1_eq_skeleton]; unfold k3_part1_skel
    simp only [k3_part2_eq_skeleton]; unfold k3_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%s, %f16, %hf16, H16⟩, ⟨%q, %f17, %hf17, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread w4) hz2 inb_S8x8_S8x8_0_0 w4 hf8
    have e9 := readAt_unit_zero arg11.view (harg11.unread b4) hz1 inb_S8_S8_0 b4 hf9
    have e10 := readAt_unit_zero arg12.view (harg12.unread sc1) hz1 inb_S16_S16_0 sc1 hf10
    have e11 := readAt_unit_zero arg13.view (harg13.unread bi1) hz1 inb_S16_S16_0 bi1 hf11
    have e12 := readAt_unit_zero arg14.view (harg14.unread sc2) hz1 inb_S16_S16_0 sc2 hf12
    have e13 := readAt_unit_zero arg15.view (harg15.unread bi2) hz1 inb_S16_S16_0 bi2 hf13
    have e14 := readAt_unit_zero arg16.view (harg16.unread sc3) hz1 inb_S8_S8_0 sc3 hf14
    have e15 := readAt_unit_zero arg17.view (harg17.unread bi3) hz1 inb_S8_S8_0 bi3 hf15
    rw [e0, e1, e2, e3, e4, e5, e6, e7, e8, e9, e10, e11, e12, e13, e14, e15]
    rw [View.readCov_unit_zero arg18.view hz3, View.readCov_unit_zero arg19.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; swap; · iexact H16
      ipureintro
      exact read_writes_cons_unit_zero _ _ hz3 _ _ _
    · iexists _; isplitr; swap; · iexact H17
      ipureintro
      exact read_writes_cons_unit_zero _ _ hz3 _ _ _

end Cert.Kernel.Hand

end
-- ==== Proof.Kernel.Dat3.lean ====
/-
  The fourth statistics region: its proof data and the body obligation. The grid is 12 × 12 tiles visited row by row; windows
  0 and 1 stage the row and column blocks of the transposed features, the last two windows are the per-channel accumulators
  (one block per row of tiles: zeroed at the row's first tile, added to at each tile, written back after its last), every
  other window a weight, bias, scale or shift fetched once. After each point an input's buffer holds its block and an
  accumulator's the running total along the row, defined by recursion on the position.
-/
import proofs.«135850_j19774029431551_2_alg».proof.Proof.Kernel.Run3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in output window 16's buffer, from the input blocks and what the buffer held. -/
def val3_16 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) (s : Vec F S1x1x8 .f32) : Vec F S1x1x8 .f32 :=
  k3_pay2 (k3_pay8 (k3_pay6 x0 x1 w1 b1 sc1 bi1) (k3_pay7 w2) (constant S16x16384 .f32 0x00000000#32) b2 sc2 bi2 w3 b3 sc3 bi3) w4 b4 s

/-- What the body stores in output window 17's buffer, from the input blocks and what the buffer held. -/
def val3_17 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) (q : Vec F S1x1x8 .f32) : Vec F S1x1x8 .f32 :=
  k3_pay3 (k3_pay8 (k3_pay6 x0 x1 w1 b1 sc1 bi1) (k3_pay7 w2) (constant S16x16384 .f32 0x00000000#32) b2 sc2 bi2 w3 b3 sc3 bi3) w4 b4 q

section Region3

-- a core's buffer contents when the region is entered: the parameter everything here is stated at
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: the body only
    reads it, and between two fetches its block index does not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: the body only
    reads it, and between two fetches its block index does not move. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: the body only
    reads it, and between two fetches its block index does not move. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: the body only
    reads it, and between two fetches its block index does not move. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: the body only
    reads it, and between two fetches its block index does not move. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: the body only
    reads it, and between two fetches its block index does not move. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not: the body only
    reads it, and between two fetches its block index does not move. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not: the body only
    reads it, and between two fetches its block index does not move. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not: the body only
    reads it, and between two fetches its block index does not move. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not: the body only
    reads it, and between two fetches its block index does not move. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not: the body only
    reads it, and between two fetches its block index does not move. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds its block at every point, fetched there or not: the body only
    reads it, and between two fetches its block index does not move. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds its block at every point, fetched there or not: the body only
    reads it, and between two fetches its block index does not move. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds its block at every point, fetched there or not: the body only
    reads it, and between two fetches its block index does not move. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds its block at every point, fetched there or not: the body only
    reads it, and between two fetches its block index does not move. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds its block at every point, fetched there or not: the body only
    reads it, and between two fetches its block index does not move. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- The reset test holds exactly at the points whose second coordinate is zero: decided over the grid. -/
theorem hreset3 : ∀ t : Fin cfg3.N, reset3 (grid3.coords t) ↔ t.val % 12 = 0 :=
  (by decide +kernel : ∀ t : Fin grid3.N, reset3 (grid3.coords t) ↔ t.val % 12 = 0)

/-- What output window 16's staging buffer holds after the body at position `n`: the tile's contribution added to zeros
    where a row of tiles begins, and to what position `n - 1` left elsewhere — the running total along the row. -/
def acc3_16 (c : Dev nD) : (n : ℕ) → n < cfg3.N → Vec F S1x1x8 .f32
  | 0, hn => val3_16 (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩) (iblk3 V c 12 ⟨0, hn⟩) (iblk3 V c 13 ⟨0, hn⟩) (iblk3 V c 14 ⟨0, hn⟩) (iblk3 V c 15 ⟨0, hn⟩) (k3_pay4 (F := F))
  | n + 1, hn =>
    if (n + 1) % 12 = 0 then val3_16 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (k3_pay4 (F := F))
    else val3_16 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (acc3_16 c n (Nat.lt_of_succ_lt hn))

/-- At the first tile of a row the running total is the tile's contribution added to zeros. -/
theorem acc3_16_reset (c : Dev nD) (t : Fin cfg3.N) (h0 : t.val % 12 = 0) :
    acc3_16 V c t.val t.isLt = val3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (k3_pay4 (F := F)) := by
  obtain ⟨n, hn⟩ := t
  cases n with
  | zero => exact rfl
  | succ n => exact (if_pos h0).trans rfl

/-- At a later tile of a row it is the tile's contribution added to the total the tile before left. -/
theorem acc3_16_acc (c : Dev nD) (t : Fin cfg3.N) (h0 : ¬ t.val % 12 = 0) :
    acc3_16 V c t.val t.isLt = val3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (acc3_16 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 17's staging buffer holds after the body at position `n`: the tile's contribution added to zeros
    where a row of tiles begins, and to what position `n - 1` left elsewhere — the running total along the row. -/
def acc3_17 (c : Dev nD) : (n : ℕ) → n < cfg3.N → Vec F S1x1x8 .f32
  | 0, hn => val3_17 (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩) (iblk3 V c 12 ⟨0, hn⟩) (iblk3 V c 13 ⟨0, hn⟩) (iblk3 V c 14 ⟨0, hn⟩) (iblk3 V c 15 ⟨0, hn⟩) (k3_pay5 (F := F))
  | n + 1, hn =>
    if (n + 1) % 12 = 0 then val3_17 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (k3_pay5 (F := F))
    else val3_17 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (acc3_17 c n (Nat.lt_of_succ_lt hn))

/-- At the first tile of a row the running total is the tile's contribution added to zeros. -/
theorem acc3_17_reset (c : Dev nD) (t : Fin cfg3.N) (h0 : t.val % 12 = 0) :
    acc3_17 V c t.val t.isLt = val3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (k3_pay5 (F := F)) := by
  obtain ⟨n, hn⟩ := t
  cases n with
  | zero => exact rfl
  | succ n => exact (if_pos h0).trans rfl

/-- At a later tile of a row it is the tile's contribution added to the total the tile before left. -/
theorem acc3_17_acc (c : Dev nD) (t : Fin cfg3.N) (h0 : ¬ t.val % 12 = 0) :
    acc3_17 V c t.val t.isLt = val3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (acc3_17 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => acc3_16 V c t.val t.isLt
    | ⟨17, _⟩ => acc3_17 V c t.val t.isLt
    | ⟨_ + 18, h⟩ => absurd h (Nat.not_lt.2 (Nat.le_add_left _ _))
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨_ + 18, h⟩ => absurd h (Nat.not_lt.2 (Nat.le_add_left _ _))
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = acc3_16 V c t.val t.isLt := by dsimp only [dat3]
theorem after3_17 (c : Dev nD) (t : Fin cfg3.N) : (dat3 V c).after 17 t = acc3_17 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d

/-- Away from the first tile of a row, output window 16's staging buffer holds what the tile before left: the point is not
    the first, the buffer was not written back in between (it is written back after the LAST tile of a row), and the
    window is live and uncut. -/
theorem before3_16_acc (c : Dev nD) (t : Fin cfg3.N) (h0 : ¬ t.val % 12 = 0) (d) :
    (dat3 V c).before 16 t d = acc3_16 V c (t.val - 1) (Nat.lt_of_le_of_lt (Nat.sub_le _ _) t.isLt) := by
  have hN : t.val < 144 := lt_of_lt_of_eq t.isLt (show cfg3.N = 144 from N_3)
  rw [Dat.before_out_kept _ 16 rfl t (by omega) (Bool.eq_false_iff.mpr fun h => by have := (flush3_16 _).mp h; dsimp only at this; omega)
    (fun _ => rfl) (fun _ _ => rfl)]
  dsimp only [dat3]

/-- Away from the first tile of a row, output window 17's staging buffer holds what the tile before left: the point is not
    the first, the buffer was not written back in between (it is written back after the LAST tile of a row), and the
    window is live and uncut. -/
theorem before3_17_acc (c : Dev nD) (t : Fin cfg3.N) (h0 : ¬ t.val % 12 = 0) (d) :
    (dat3 V c).before 17 t d = acc3_17 V c (t.val - 1) (Nat.lt_of_le_of_lt (Nat.sub_le _ _) t.isLt) := by
  have hN : t.val < 144 := lt_of_lt_of_eq t.isLt (show cfg3.N = 144 from N_3)
  rw [Dat.before_out_kept _ 17 rfl t (by omega) (Bool.eq_false_iff.mpr fun h => by have := (flush3_17 _).mp h; dsimp only at this; omega)
    (fun _ => rfl) (fun _ _ => rfl)]
  dsimp only [dat3]

/-- What the body is called with at point `t`: the invariant, the core's dues, and each window's current staging buffer
    at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d)))

/-- and what it returns: each window's buffer at the proof data's contents after the point. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17]
  by_cases h0 : t.val % 12 = 0
  · rw [acc3_16_reset V c t h0, acc3_17_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((run3_reset c (grid3.coords t) _ _ _ _ _ _ _ _ _ _ _ _ _ _ _ _ _ _ _ _ _ _ _ _ _ _ _ _ _ _ _ _ _ _ _ _ ((hreset3 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · simp only [before3_16_acc V c t h0, before3_17_acc V c t h0]
    rw [acc3_16_acc V c t h0, acc3_17_acc V c t h0]
    unfold val3_16 val3_17
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((run3_acc c (grid3.coords t) _ _ _ _ _ _ _ _ _ _ _ _ _ _ _ _ _ _ _ _ _ _ _ _ _ _ _ _ _ _ _ _ _ _ _ _ (fun h => h0 ((hreset3 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The library's body obligation for the region, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.Kernel.Entry3.lean ====
/-
  Entering and leaving region 3: the distinct arrays behind its windows dealt to the windows on entry — the transposed
  features, which the row and column windows both stage, as the two halves of its full share — and put together again on
  exit, the output arrays at what the write-backs left, every buffer no window stages as it was.
-/
import proofs.«135850_j19774029431551_2_alg».proof.Proof.Kernel.Dat3
import proofs.«135850_j19774029431551_2_alg».proof.Proof.Kernel.Entry0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr3 : (Finset.univ.image (Pipeline.arrRef spec3) : Finset (Ref sig .tc)) = {main_v0, main_arg1, main_arg2, main_arg5, main_arg6, main_arg9, main_arg10, main_arg13, main_arg14, main_v15, main_v17, main_v32, main_v34, main_v49, main_v51, main_v52_0, main_v52_1} := by decide

theorem arr3_0 (c : Dev nD) (X : Buf (Elt F) ((cfg3.win 0).arr.view.loc (c.tc : Thread nD τ))) :
    ((cfg3.win 0).arr.view.loc (c.tc : Thread nD τ) ↦[(cfg3.win 0).arr.view.set]{(dat3 V c).share 0} X : sProp 𝕄)
      = ((c.tc : Thread nD τ).loc main_v0 ↦{fullShare.left} X) := by
  rw [(arr_whole3 0).set_eq_univ]; rfl
theorem arr3_1 (c : Dev nD) (X : Buf (Elt F) ((cfg3.win 1).arr.view.loc (c.tc : Thread nD τ))) :
    ((cfg3.win 1).arr.view.loc (c.tc : Thread nD τ) ↦[(cfg3.win 1).arr.view.set]{(dat3 V c).share 1} X : sProp 𝕄)
      = ((c.tc : Thread nD τ).loc main_v0 ↦{fullShare.right} X) := by
  rw [(arr_whole3 1).set_eq_univ]; rfl
theorem arr3_2 (c : Dev nD) (X : Buf (Elt F) ((cfg3.win 2).arr.view.loc (c.tc : Thread nD τ))) :
    ((cfg3.win 2).arr.view.loc (c.tc : Thread nD τ) ↦[(cfg3.win 2).arr.view.set]{(dat3 V c).share 2} X : sProp 𝕄)
      = ((c.tc : Thread nD τ).loc main_arg1 ↦{fullShare} X) := by
  rw [(arr_whole3 2).set_eq_univ]; rfl
theorem arr3_3 (c : Dev nD) (X : Buf (Elt F) ((cfg3.win 3).arr.view.loc (c.tc : Thread nD τ))) :
    ((cfg3.win 3).arr.view.loc (c.tc : Thread nD τ) ↦[(cfg3.win 3).arr.view.set]{(dat3 V c).share 3} X : sProp 𝕄)
      = ((c.tc : Thread nD τ).loc main_arg2 ↦{fullShare} X) := by
  rw [(arr_whole3 3).set_eq_univ]; rfl
theorem arr3_4 (c : Dev nD) (X : Buf (Elt F) ((cfg3.win 4).arr.view.loc (c.tc : Thread nD τ))) :
    ((cfg3.win 4).arr.view.loc (c.tc : Thread nD τ) ↦[(cfg3.win 4).arr.view.set]{(dat3 V c).share 4} X : sProp 𝕄)
      = ((c.tc : Thread nD τ).loc main_arg5 ↦{fullShare} X) := by
  rw [(arr_whole3 4).set_eq_univ]; rfl
theorem arr3_5 (c : Dev nD) (X : Buf (Elt F) ((cfg3.win 5).arr.view.loc (c.tc : Thread nD τ))) :
    ((cfg3.win 5).arr.view.loc (c.tc : Thread nD τ) ↦[(cfg3.win 5).arr.view.set]{(dat3 V c).share 5} X : sProp 𝕄)
      = ((c.tc : Thread nD τ).loc main_arg6 ↦{fullShare} X) := by
  rw [(arr_whole3 5).set_eq_univ]; rfl
theorem arr3_6 (c : Dev nD) (X : Buf (Elt F) ((cfg3.win 6).arr.view.loc (c.tc : Thread nD τ))) :
    ((cfg3.win 6).arr.view.loc (c.tc : Thread nD τ) ↦[(cfg3.win 6).arr.view.set]{(dat3 V c).share 6} X : sProp 𝕄)
      = ((c.tc : Thread nD τ).loc main_arg9 ↦{fullShare} X) := by
  rw [(arr_whole3 6).set_eq_univ]; rfl
theorem arr3_7 (c : Dev nD) (X : Buf (Elt F) ((cfg3.win 7).arr.view.loc (c.tc : Thread nD τ))) :
    ((cfg3.win 7).arr.view.loc (c.tc : Thread nD τ) ↦[(cfg3.win 7).arr.view.set]{(dat3 V c).share 7} X : sProp 𝕄)
      = ((c.tc : Thread nD τ).loc main_arg10 ↦{fullShare} X) := by
  rw [(arr_whole3 7).set_eq_univ]; rfl
theorem arr3_8 (c : Dev nD) (X : Buf (Elt F) ((cfg3.win 8).arr.view.loc (c.tc : Thread nD τ))) :
    ((cfg3.win 8).arr.view.loc (c.tc : Thread nD τ) ↦[(cfg3.win 8).arr.view.set]{(dat3 V c).share 8} X : sProp 𝕄)
      = ((c.tc : Thread nD τ).loc main_arg13 ↦{fullShare} X) := by
  rw [(arr_whole3 8).set_eq_univ]; rfl
theorem arr3_9 (c : Dev nD) (X : Buf (Elt F) ((cfg3.win 9).arr.view.loc (c.tc : Thread nD τ))) :
    ((cfg3.win 9).arr.view.loc (c.tc : Thread nD τ) ↦[(cfg3.win 9).arr.view.set]{(dat3 V c).share 9} X : sProp 𝕄)
      = ((c.tc : Thread nD τ).loc main_arg14 ↦{fullShare} X) := by
  rw [(arr_whole3 9).set_eq_univ]; rfl
theorem arr3_10 (c : Dev nD) (X : Buf (Elt F) ((cfg3.win 10).arr.view.loc (c.tc : Thread nD τ))) :
    ((cfg3.win 10).arr.view.loc (c.tc : Thread nD τ) ↦[(cfg3.win 10).arr.view.set]{(dat3 V c).share 10} X : sProp 𝕄)
      = ((c.tc : Thread nD τ).loc main_v15 ↦{fullShare} X) := by
  rw [(arr_whole3 10).set_eq_univ]; rfl
theorem arr3_11 (c : Dev nD) (X : Buf (Elt F) ((cfg3.win 11).arr.view.loc (c.tc : Thread nD τ))) :
    ((cfg3.win 11).arr.view.loc (c.tc : Thread nD τ) ↦[(cfg3.win 11).arr.view.set]{(dat3 V c).share 11} X : sProp 𝕄)
      = ((c.tc : Thread nD τ).loc main_v17 ↦{fullShare} X) := by
  rw [(arr_whole3 11).set_eq_univ]; rfl
theorem arr3_12 (c : Dev nD) (X : Buf (Elt F) ((cfg3.win 12).arr.view.loc (c.tc : Thread nD τ))) :
    ((cfg3.win 12).arr.view.loc (c.tc : Thread nD τ) ↦[(cfg3.win 12).arr.view.set]{(dat3 V c).share 12} X : sProp 𝕄)
      = ((c.tc : Thread nD τ).loc main_v32 ↦{fullShare} X) := by
  rw [(arr_whole3 12).set_eq_univ]; rfl
theorem arr3_13 (c : Dev nD) (X : Buf (Elt F) ((cfg3.win 13).arr.view.loc (c.tc : Thread nD τ))) :
    ((cfg3.win 13).arr.view.loc (c.tc : Thread nD τ) ↦[(cfg3.win 13).arr.view.set]{(dat3 V c).share 13} X : sProp 𝕄)
      = ((c.tc : Thread nD τ).loc main_v34 ↦{fullShare} X) := by
  rw [(arr_whole3 13).set_eq_univ]; rfl
theorem arr3_14 (c : Dev nD) (X : Buf (Elt F) ((cfg3.win 14).arr.view.loc (c.tc : Thread nD τ))) :
    ((cfg3.win 14).arr.view.loc (c.tc : Thread nD τ) ↦[(cfg3.win 14).arr.view.set]{(dat3 V c).share 14} X : sProp 𝕄)
      = ((c.tc : Thread nD τ).loc main_v49 ↦{fullShare} X) := by
  rw [(arr_whole3 14).set_eq_univ]; rfl
theorem arr3_15 (c : Dev nD) (X : Buf (Elt F) ((cfg3.win 15).arr.view.loc (c.tc : Thread nD τ))) :
    ((cfg3.win 15).arr.view.loc (c.tc : Thread nD τ) ↦[(cfg3.win 15).arr.view.set]{(dat3 V c).share 15} X : sProp 𝕄)
      = ((c.tc : Thread nD τ).loc main_v51 ↦{fullShare} X) := by
  rw [(arr_whole3 15).set_eq_univ]; rfl
theorem arr3_16 (c : Dev nD) (X : Buf (Elt F) ((cfg3.win 16).arr.view.loc (c.tc : Thread nD τ))) :
    ((cfg3.win 16).arr.view.loc (c.tc : Thread nD τ) ↦[(cfg3.win 16).arr.view.set]{(dat3 V c).share 16} X : sProp 𝕄)
      = ((c.tc : Thread nD τ).loc main_v52_0 ↦{fullShare} X) := by
  rw [(arr_whole3 16).set_eq_univ]; rfl
theorem arr3_17 (c : Dev nD) (X : Buf (Elt F) ((cfg3.win 17).arr.view.loc (c.tc : Thread nD τ))) :
    ((cfg3.win 17).arr.view.loc (c.tc : Thread nD τ) ↦[(cfg3.win 17).arr.view.set]{(dat3 V c).share 17} X : sProp 𝕄)
      = ((c.tc : Thread nD τ).loc main_v52_1 ↦{fullShare} X) := by
  rw [(arr_whole3 17).set_eq_univ]; rfl

set_option maxHeartbeats 8000000 in
/-- ENTRY: the distinct buffers behind the arrays, whole at the entry contents, are the windows' arrays at the proof data's
    shares and entry contents: the shared array's full share is dealt as its two halves. -/
theorem hsplit3 (c : Dev nD) :
    (Pipeline.arrBufs (Ix := Unit) (Name := ℕ) (U := UR sig nD τ) (Lvl := ℕ) spec3 c (V c) : sProp 𝕄) ⊢ (dat3 V c).arrays ((dat3 V c).arrAt · 0) := by
  unfold Pipeline.arrBufs Dat.arrays
  rw [image_arr3, bigSep_W3, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr3_0 V c _)
      (sep_congr (arr3_1 V c _)
      (sep_congr (arr3_2 V c _)
      (sep_congr (arr3_3 V c _)
      (sep_congr (arr3_4 V c _)
      (sep_congr (arr3_5 V c _)
      (sep_congr (arr3_6 V c _)
      (sep_congr (arr3_7 V c _)
      (sep_congr (arr3_8 V c _)
      (sep_congr (arr3_9 V c _)
      (sep_congr (arr3_10 V c _)
      (sep_congr (arr3_11 V c _)
      (sep_congr (arr3_12 V c _)
      (sep_congr (arr3_13 V c _)
      (sep_congr (arr3_14 V c _)
      (sep_congr (arr3_15 V c _)
      (sep_congr (arr3_16 V c _)
      (arr3_17 V c _)))))))))))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_arg9 ↦{fullShare} V c main_arg9)
      ∗ ((c.tc : Thread nD τ).loc main_arg10 ↦{fullShare} V c main_arg10)
      ∗ ((c.tc : Thread nD τ).loc main_arg13 ↦{fullShare} V c main_arg13)
      ∗ ((c.tc : Thread nD τ).loc main_arg14 ↦{fullShare} V c main_arg14)
      ∗ ((c.tc : Thread nD τ).loc main_v15 ↦{fullShare} V c main_v15)
      ∗ ((c.tc : Thread nD τ).loc main_v17 ↦{fullShare} V c main_v17)
      ∗ ((c.tc : Thread nD τ).loc main_v32 ↦{fullShare} V c main_v32)
      ∗ ((c.tc : Thread nD τ).loc main_v34 ↦{fullShare} V c main_v34)
      ∗ ((c.tc : Thread nD τ).loc main_v49 ↦{fullShare} V c main_v49)
      ∗ ((c.tc : Thread nD τ).loc main_v51 ↦{fullShare} V c main_v51)
      ∗ ((c.tc : Thread nD τ).loc main_v52_0 ↦{fullShare} V c main_v52_0)
      ∗ ((c.tc : Thread nD τ).loc main_v52_1 ↦{fullShare} V c main_v52_1)) : sProp 𝕄) ⊢ _
  iintro ⟨G0, G1, G2, G3, G4, G5, G6, G7, G8, G9, G10, G11, G12, G13, G14, G15, G16⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  iexact G16

theorem arrAt3_in0 (c : Dev nD) : (dat3 V c).arrAt 0 cfg3.N = V c main_v0 := (Dat.arrAt_in _ 0 rfl _).trans (A_eq3 V c 0)
theorem arrAt3_in1 (c : Dev nD) : (dat3 V c).arrAt 1 cfg3.N = V c main_v0 := (Dat.arrAt_in _ 1 rfl _).trans (A_eq3 V c 1)
theorem arrAt3_in2 (c : Dev nD) : (dat3 V c).arrAt 2 cfg3.N = V c main_arg1 := (Dat.arrAt_in _ 2 rfl _).trans (A_eq3 V c 2)
theorem arrAt3_in3 (c : Dev nD) : (dat3 V c).arrAt 3 cfg3.N = V c main_arg2 := (Dat.arrAt_in _ 3 rfl _).trans (A_eq3 V c 3)
theorem arrAt3_in4 (c : Dev nD) : (dat3 V c).arrAt 4 cfg3.N = V c main_arg5 := (Dat.arrAt_in _ 4 rfl _).trans (A_eq3 V c 4)
theorem arrAt3_in5 (c : Dev nD) : (dat3 V c).arrAt 5 cfg3.N = V c main_arg6 := (Dat.arrAt_in _ 5 rfl _).trans (A_eq3 V c 5)
theorem arrAt3_in6 (c : Dev nD) : (dat3 V c).arrAt 6 cfg3.N = V c main_arg9 := (Dat.arrAt_in _ 6 rfl _).trans (A_eq3 V c 6)
theorem arrAt3_in7 (c : Dev nD) : (dat3 V c).arrAt 7 cfg3.N = V c main_arg10 := (Dat.arrAt_in _ 7 rfl _).trans (A_eq3 V c 7)
theorem arrAt3_in8 (c : Dev nD) : (dat3 V c).arrAt 8 cfg3.N = V c main_arg13 := (Dat.arrAt_in _ 8 rfl _).trans (A_eq3 V c 8)
theorem arrAt3_in9 (c : Dev nD) : (dat3 V c).arrAt 9 cfg3.N = V c main_arg14 := (Dat.arrAt_in _ 9 rfl _).trans (A_eq3 V c 9)
theorem arrAt3_in10 (c : Dev nD) : (dat3 V c).arrAt 10 cfg3.N = V c main_v15 := (Dat.arrAt_in _ 10 rfl _).trans (A_eq3 V c 10)
theorem arrAt3_in11 (c : Dev nD) : (dat3 V c).arrAt 11 cfg3.N = V c main_v17 := (Dat.arrAt_in _ 11 rfl _).trans (A_eq3 V c 11)
theorem arrAt3_in12 (c : Dev nD) : (dat3 V c).arrAt 12 cfg3.N = V c main_v32 := (Dat.arrAt_in _ 12 rfl _).trans (A_eq3 V c 12)
theorem arrAt3_in13 (c : Dev nD) : (dat3 V c).arrAt 13 cfg3.N = V c main_v34 := (Dat.arrAt_in _ 13 rfl _).trans (A_eq3 V c 13)
theorem arrAt3_in14 (c : Dev nD) : (dat3 V c).arrAt 14 cfg3.N = V c main_v49 := (Dat.arrAt_in _ 14 rfl _).trans (A_eq3 V c 14)
theorem arrAt3_in15 (c : Dev nD) : (dat3 V c).arrAt 15 cfg3.N = V c main_v51 := (Dat.arrAt_in _ 15 rfl _).trans (A_eq3 V c 15)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin3 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_v15 = V c main_v15) (hi10 : V' c main_v17 = V c main_v17) (hi11 : V' c main_v32 = V c main_v32) (hi12 : V' c main_v34 = V c main_v34) (hi13 : V' c main_v49 = V c main_v49) (hi14 : V' c main_v51 = V c main_v51) (ho0 : V' c main_v52_0 = (dat3 V c).arrAt 16 cfg3.N) (ho1 : V' c main_v52_1 = (dat3 V c).arrAt 17 cfg3.N) :
    (dat3 V c).arrays ((dat3 V c).arrAt · cfg3.N) ⊢ (Pipeline.arrBufs (Ix := Unit) (Name := ℕ) (U := UR sig nD τ) (Lvl := ℕ) spec3 c (V' c) : sProp 𝕄) := by
  unfold Pipeline.arrBufs Dat.arrays
  rw [image_arr3, bigSep_W3, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr3_0 V c _).trans (congrArg (fun X => (((c.tc : Thread nD τ).loc main_v0 ↦{fullShare.left} X) : sProp 𝕄)) (arrAt3_in0 V c)))
      (sep_congr ((arr3_1 V c _).trans (congrArg (fun X => (((c.tc : Thread nD τ).loc main_v0 ↦{fullShare.right} X) : sProp 𝕄)) (arrAt3_in1 V c)))
      (sep_congr ((arr3_2 V c _).trans (congrArg (fun X => (((c.tc : Thread nD τ).loc main_arg1 ↦{fullShare} X) : sProp 𝕄)) (arrAt3_in2 V c)))
      (sep_congr ((arr3_3 V c _).trans (congrArg (fun X => (((c.tc : Thread nD τ).loc main_arg2 ↦{fullShare} X) : sProp 𝕄)) (arrAt3_in3 V c)))
      (sep_congr ((arr3_4 V c _).trans (congrArg (fun X => (((c.tc : Thread nD τ).loc main_arg5 ↦{fullShare} X) : sProp 𝕄)) (arrAt3_in4 V c)))
      (sep_congr ((arr3_5 V c _).trans (congrArg (fun X => (((c.tc : Thread nD τ).loc main_arg6 ↦{fullShare} X) : sProp 𝕄)) (arrAt3_in5 V c)))
      (sep_congr ((arr3_6 V c _).trans (congrArg (fun X => (((c.tc : Thread nD τ).loc main_arg9 ↦{fullShare} X) : sProp 𝕄)) (arrAt3_in6 V c)))
      (sep_congr ((arr3_7 V c _).trans (congrArg (fun X => (((c.tc : Thread nD τ).loc main_arg10 ↦{fullShare} X) : sProp 𝕄)) (arrAt3_in7 V c)))
      (sep_congr ((arr3_8 V c _).trans (congrArg (fun X => (((c.tc : Thread nD τ).loc main_arg13 ↦{fullShare} X) : sProp 𝕄)) (arrAt3_in8 V c)))
      (sep_congr ((arr3_9 V c _).trans (congrArg (fun X => (((c.tc : Thread nD τ).loc main_arg14 ↦{fullShare} X) : sProp 𝕄)) (arrAt3_in9 V c)))
      (sep_congr ((arr3_10 V c _).trans (congrArg (fun X => (((c.tc : Thread nD τ).loc main_v15 ↦{fullShare} X) : sProp 𝕄)) (arrAt3_in10 V c)))
      (sep_congr ((arr3_11 V c _).trans (congrArg (fun X => (((c.tc : Thread nD τ).loc main_v17 ↦{fullShare} X) : sProp 𝕄)) (arrAt3_in11 V c)))
      (sep_congr ((arr3_12 V c _).trans (congrArg (fun X => (((c.tc : Thread nD τ).loc main_v32 ↦{fullShare} X) : sProp 𝕄)) (arrAt3_in12 V c)))
      (sep_congr ((arr3_13 V c _).trans (congrArg (fun X => (((c.tc : Thread nD τ).loc main_v34 ↦{fullShare} X) : sProp 𝕄)) (arrAt3_in13 V c)))
      (sep_congr ((arr3_14 V c _).trans (congrArg (fun X => (((c.tc : Thread nD τ).loc main_v49 ↦{fullShare} X) : sProp 𝕄)) (arrAt3_in14 V c)))
      (sep_congr ((arr3_15 V c _).trans (congrArg (fun X => (((c.tc : Thread nD τ).loc main_v51 ↦{fullShare} X) : sProp 𝕄)) (arrAt3_in15 V c)))
      (sep_congr (arr3_16 V c _)
      (arr3_17 V c _))))))))))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_arg9 ↦{fullShare} V' c main_arg9)
      ∗ ((c.tc : Thread nD τ).loc main_arg10 ↦{fullShare} V' c main_arg10)
      ∗ ((c.tc : Thread nD τ).loc main_arg13 ↦{fullShare} V' c main_arg13)
      ∗ ((c.tc : Thread nD τ).loc main_arg14 ↦{fullShare} V' c main_arg14)
      ∗ ((c.tc : Thread nD τ).loc main_v15 ↦{fullShare} V' c main_v15)
      ∗ ((c.tc : Thread nD τ).loc main_v17 ↦{fullShare} V' c main_v17)
      ∗ ((c.tc : Thread nD τ).loc main_v32 ↦{fullShare} V' c main_v32)
      ∗ ((c.tc : Thread nD τ).loc main_v34 ↦{fullShare} V' c main_v34)
      ∗ ((c.tc : Thread nD τ).loc main_v49 ↦{fullShare} V' c main_v49)
      ∗ ((c.tc : Thread nD τ).loc main_v51 ↦{fullShare} V' c main_v51)
      ∗ ((c.tc : Thread nD τ).loc main_v52_0 ↦{fullShare} V' c main_v52_0)
      ∗ ((c.tc : Thread nD τ).loc main_v52_1 ↦{fullShare} V' c main_v52_1)) : sProp 𝕄)
  rw [hi0, hi1, hi2, hi3, hi4, hi5, hi6, hi7, hi8, hi9, hi10, hi11, hi12, hi13, hi14, ho0, ho1]
  iintro ⟨A0, A1, A2, A3, A4, A5, A6, A7, A8, A9, A10, A11, A12, A13, A14, A15, A16, A17⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  iexact A17

/-- ENTRY, whole: a core's unscoped buffers at the entry contents are the region's arrays at the proof data's shares and every
    other unscoped buffer, untouched. -/
theorem entry3 (c : Dev nD) :
    (unscopedBufs (Ix := Unit) (Name := ℕ) (U := UR sig nD τ) (Lvl := ℕ) c (V c) : sProp 𝕄)
      ⊢ iprop((dat3 V c).arrays ((dat3 V c).arrAt · 0) ∗ Pipeline.unscopedRest spec3 c (V c)) := by
  rw [Pipeline.unscopedBufs_split₀ cfgs 3 winFacts₀3.arr_unscoped c (V c)]
  exact sep_mono (hsplit3 V c) .rfl

/-- EXIT, whole: the arrays at their final contents and the untouched rest are the core's unscoped buffers at contents that
    differ from the entry contents only on the output arrays, which hold what the write-backs left. -/
theorem exit3 (V' : (c : Dev nD) → (b : Ref sig .tc) → Buf (Elt F) ((c : Thread nD τ).loc b)) (c : Dev nD)
    (hrest : ∀ b, b ∉ Finset.univ.image (Pipeline.arrRef spec3) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_v15 = V c main_v15) (hi10 : V' c main_v17 = V c main_v17) (hi11 : V' c main_v32 = V c main_v32) (hi12 : V' c main_v34 = V c main_v34) (hi13 : V' c main_v49 = V c main_v49) (hi14 : V' c main_v51 = V c main_v51) (ho0 : V' c main_v52_0 = (dat3 V c).arrAt 16 cfg3.N) (ho1 : V' c main_v52_1 = (dat3 V c).arrAt 17 cfg3.N) :
    iprop((dat3 V c).arrays ((dat3 V c).arrAt · cfg3.N) ∗ Pipeline.unscopedRest spec3 c (V c))
      ⊢ (unscopedBufs (Ix := Unit) (Name := ℕ) (U := UR sig nD τ) (Lvl := ℕ) c (V' c) : sProp 𝕄) := by
  rw [Pipeline.unscopedBufs_split₀ cfgs 3 winFacts₀3.arr_unscoped c (V' c)]
  refine sep_mono (hjoin3 V V' c hi0 hi1 hi2 hi3 hi4 hi5 hi6 hi7 hi8 hi9 hi10 hi11 hi12 hi13 hi14 ho0 ho1) (Entails.of_eq ?_)
  unfold Pipeline.unscopedRest
  exact bigSep_congr fun b hb => by rw [hrest b (Finset.mem_sdiff.mp hb).2]

end

end Cert.Kernel.Hand

end
-- ==== Proof.Kernel.Run4.lean ====
/-
  The body of the final kernel: four activated layers feed the last layer, whose one output channel on the 128 × 128 pairs of the tile is stored as the output block, run on whole staging buffers, once for any float instance; the inputs' buffers come back as they were.
-/
import proofs.«135850_j19774029431551_2_alg».proof.Proof.Gen.Kernel.Launch
import proofs.«135850_j19774029431551_2_alg».proof.Proof.Gen.Kernel.Skeleton
import proofs.«135850_j19774029431551_2_alg».proof.Proof.Gen.Kernel.Points
import Idealize.ShloMosaic.Lib.Pipeline.FrameBody
import Idealize.ShloMosaic.Lib.Ring
import Idealize.ShloMosaic.Lib.Tactic
import proofs.«135850_j19774029431551_2_alg».proof.Proof.Kernel.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body overwrites the output block, whatever it held, with the last layer's values on the tile. -/
theorem run4 (c : Dev nD) (i : grid4.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S8x8 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S16 .f32) (harg14 : arg14.IsWhole) (arg15 : Memref sig .tc .vmem S16 .f32) (harg15 : arg15.IsWhole) (arg16 : Memref sig .tc .vmem S16 .f32) (harg16 : arg16.IsWhole) (arg17 : Memref sig .tc .vmem S16 .f32) (harg17 : arg17.IsWhole) (arg18 : Memref sig .tc .vmem S8 .f32) (harg18 : arg18.IsWhole) (arg19 : Memref sig .tc .vmem S8 .f32) (harg19 : arg19.IsWhole) (arg20 : Memref sig .tc .vmem S8 .f32) (harg20 : arg20.IsWhole) (arg21 : Memref sig .tc .vmem S8 .f32) (harg21 : arg21.IsWhole) (arg22 : Memref sig .tc .vmem S128x128 .f32) (harg22 : arg22.IsWhole)

    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (w5 : Vec F S1x8 .f32) (b5 : Vec F S1 .f32) (sc1 : Vec F S16 .f32) (bi1 : Vec F S16 .f32) (sc2 : Vec F S16 .f32) (bi2 : Vec F S16 .f32) (sc3 : Vec F S8 .f32) (bi3 : Vec F S8 .f32) (sc4 : Vec F S8 .f32) (bi4 : Vec F S8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare w5 ∗ owns (c : Thread nD τ) arg13 fullShare b5 ∗ owns (c : Thread nD τ) arg14 fullShare sc1 ∗ owns (c : Thread nD τ) arg15 fullShare bi1 ∗ owns (c : Thread nD τ) arg16 fullShare sc2 ∗ owns (c : Thread nD τ) arg17 fullShare bi2 ∗ owns (c : Thread nD τ) arg18 fullShare sc3 ∗ owns (c : Thread nD τ) arg19 fullShare bi3 ∗ owns (c : Thread nD τ) arg20 fullShare sc4 ∗ owns (c : Thread nD τ) arg21 fullShare bi4
            ∗ (∃ o, owns (c : Thread nD τ) arg22 fullShare o)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare w5 ∗ owns (c : Thread nD τ) arg13 fullShare b5 ∗ owns (c : Thread nD τ) arg14 fullShare sc1 ∗ owns (c : Thread nD τ) arg15 fullShare bi1 ∗ owns (c : Thread nD τ) arg16 fullShare sc2 ∗ owns (c : Thread nD τ) arg17 fullShare bi2 ∗ owns (c : Thread nD τ) arg18 fullShare sc3 ∗ owns (c : Thread nD τ) arg19 fullShare bi3 ∗ owns (c : Thread nD τ) arg20 fullShare sc4 ∗ owns (c : Thread nD τ) arg21 fullShare bi4
                ∗ owns (c : Thread nD τ) arg22 fullShare (k4_pay1 (k4_pay3 (k4_pay2 x0 x1 w1 b1 sc1 bi1 w2 b2) sc2 bi2 w3 b3 sc3 bi3 w4) (k4_pay4 b4) sc4 bi4 w5 b5)) -∗ K ⟨⟩))
          ⊢ wp frame (wpE (defs₀ (F := F)) Variants.none c none) E (cc4_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc4_kernel_eq_skeleton]; unfold cc4_kernel_skel
    simp only [k4_part1_eq_skeleton]; unfold k4_part1_skel
    simp only [k4_part2_eq_skeleton]; unfold k4_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%o, %f20, %hf20, H20⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    obtain rfl := harg20.eq_unread hf18
    obtain rfl := harg21.eq_unread hf19
    obtain rfl := harg22.eq_unread hf20
    sl_exec
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread w4) hz2 inb_S8x8_S8x8_0_0 w4 hf8
    have e9 := readAt_unit_zero arg11.view (harg11.unread b4) hz1 inb_S8_S8_0 b4 hf9
    have e10 := readAt_unit_zero arg12.view (harg12.unread w5) hz2 inb_S1x8_S1x8_0_0 w5 hf10
    have e11 := readAt_unit_zero arg13.view (harg13.unread b5) hz1 inb_S1_S1_0 b5 hf11
    have e12 := readAt_unit_zero arg14.view (harg14.unread sc1) hz1 inb_S16_S16_0 sc1 hf12
    have e13 := readAt_unit_zero arg15.view (harg15.unread bi1) hz1 inb_S16_S16_0 bi1 hf13
    have e14 := readAt_unit_zero arg16.view (harg16.unread sc2) hz1 inb_S16_S16_0 sc2 hf14
    have e15 := readAt_unit_zero arg17.view (harg17.unread bi2) hz1 inb_S16_S16_0 bi2 hf15
    have e16 := readAt_unit_zero arg18.view (harg18.unread sc3) hz1 inb_S8_S8_0 sc3 hf16
    have e17 := readAt_unit_zero arg19.view (harg19.unread bi3) hz1 inb_S8_S8_0 bi3 hf17
    have e18 := readAt_unit_zero arg20.view (harg20.unread sc4) hz1 inb_S8_S8_0 sc4 hf18
    have e19 := readAt_unit_zero arg21.view (harg21.unread bi4) hz1 inb_S8_S8_0 bi4 hf19
    rw [e0, e1, e2, e3, e4, e5, e6, e7, e8, e9, e10, e11, e12, e13, e14, e15, e16, e17, e18, e19]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; · ipureintro; exact hf16
      iexact H16
    isplitl [H17]
    · iexists _; isplitr; · ipureintro; exact hf17
      iexact H17
    isplitl [H18]
    · iexists _; isplitr; · ipureintro; exact hf18
      iexact H18
    isplitl [H19]
    · iexists _; isplitr; · ipureintro; exact hf19
      iexact H19
    iexists _; isplitr; swap; · iexact H20
    ipureintro
    exact read_writes_cons_unit_zero _ _ hz2 _ _ _

end Cert.Kernel.Hand

end
-- ==== Proof.Kernel.Dat4.lean ====
/-
  The final region: its proof data and the body obligation. The grid is 12 × 12 tiles; windows 0 and 1 stage the row and
  column blocks of the transposed features, windows 2 to 19 the five layers' weights and biases and the four layers' scales
  and shifts, fetched once; window 20 is the output, one 128 × 128 block per tile, written whole by the body at every point
  and written back after it.
-/
import proofs.«135850_j19774029431551_2_alg».proof.Proof.Kernel.Run4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in the output window's buffer, from the input blocks. -/
def val4_20 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (w5 : Vec F S1x8 .f32) (b5 : Vec F S1 .f32) (sc1 : Vec F S16 .f32) (bi1 : Vec F S16 .f32) (sc2 : Vec F S16 .f32) (bi2 : Vec F S16 .f32) (sc3 : Vec F S8 .f32) (bi3 : Vec F S8 .f32) (sc4 : Vec F S8 .f32) (bi4 : Vec F S8 .f32) : Vec F S128x128 .f32 :=
  k4_pay1 (k4_pay3 (k4_pay2 x0 x1 w1 b1 sc1 bi1 w2 b2) sc2 bi2 w3 b3 sc3 bi3 w4) (k4_pay4 b4) sc4 bi4 w5 b5

section Region4

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)

theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)

theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)

theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)

theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)

theorem before4_16_of {c : Dev nD} (dat : Dat τ (Elt F) Unit ℕ (UR sig nD τ) ℕ cfg4 c) (hA : dat.A 16 = V c (Pipeline.arrRef spec4 16))
    (hafter : ∀ t, dat.after 16 t = iblk4 V c 16 t) (t : Fin cfg4.N) (d) : dat.before 16 t d = iblk4 V c 16 t :=
  (dat.before_in_eq_fetched 16 rfl (fun _ => rfl) (fun _ _ _ => rfl) (fun t => by rw [hafter]; unfold Dat.blockOf iblk4; rw [hA]; try rfl) t d).trans
    (by unfold Dat.fetched Dat.blockOf iblk4; rw [hA]; try rfl)

theorem before4_17_of {c : Dev nD} (dat : Dat τ (Elt F) Unit ℕ (UR sig nD τ) ℕ cfg4 c) (hA : dat.A 17 = V c (Pipeline.arrRef spec4 17))
    (hafter : ∀ t, dat.after 17 t = iblk4 V c 17 t) (t : Fin cfg4.N) (d) : dat.before 17 t d = iblk4 V c 17 t :=
  (dat.before_in_eq_fetched 17 rfl (fun _ => rfl) (fun _ _ _ => rfl) (fun t => by rw [hafter]; unfold Dat.blockOf iblk4; rw [hA]; try rfl) t d).trans
    (by unfold Dat.fetched Dat.blockOf iblk4; rw [hA]; try rfl)

theorem before4_18_of {c : Dev nD} (dat : Dat τ (Elt F) Unit ℕ (UR sig nD τ) ℕ cfg4 c) (hA : dat.A 18 = V c (Pipeline.arrRef spec4 18))
    (hafter : ∀ t, dat.after 18 t = iblk4 V c 18 t) (t : Fin cfg4.N) (d) : dat.before 18 t d = iblk4 V c 18 t :=
  (dat.before_in_eq_fetched 18 rfl (fun _ => rfl) (fun _ _ _ => rfl) (fun t => by rw [hafter]; unfold Dat.blockOf iblk4; rw [hA]; try rfl) t d).trans
    (by unfold Dat.fetched Dat.blockOf iblk4; rw [hA]; try rfl)

theorem before4_19_of {c : Dev nD} (dat : Dat τ (Elt F) Unit ℕ (UR sig nD τ) ℕ cfg4 c) (hA : dat.A 19 = V c (Pipeline.arrRef spec4 19))
    (hafter : ∀ t, dat.after 19 t = iblk4 V c 19 t) (t : Fin cfg4.N) (d) : dat.before 19 t d = iblk4 V c 19 t :=
  (dat.before_in_eq_fetched 19 rfl (fun _ => rfl) (fun _ _ _ => rfl) (fun t => by rw [hafter]; unfold Dat.blockOf iblk4; rw [hA]; try rfl) t d).trans
    (by unfold Dat.fetched Dat.blockOf iblk4; rw [hA]; try rfl)

/-- The region's proof data on core `c`: the arrays as the region finds them; after the body at point `t` each input's buffer
    at its block and the output's at the last layer's values on the tile; the row and column windows hold the one array
    they both stage at the two halves of its full share; nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => val4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t)
    | ⟨_ + 21, h⟩ => absurd h (Nat.not_lt.2 (Nat.le_add_left _ _))
  Φ _ := Pipeline.ΦA spec4 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨_ + 21, h⟩ => absurd h (Nat.not_lt.2 (Nat.le_add_left _ _))
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = iblk4 V c 16 t := by dsimp only [dat4]
theorem after4_17 (c : Dev nD) (t : Fin cfg4.N) : (dat4 V c).after 17 t = iblk4 V c 17 t := by dsimp only [dat4]
theorem after4_18 (c : Dev nD) (t : Fin cfg4.N) : (dat4 V c).after 18 t = iblk4 V c 18 t := by dsimp only [dat4]
theorem after4_19 (c : Dev nD) (t : Fin cfg4.N) : (dat4 V c).after 19 t = iblk4 V c 19 t := by dsimp only [dat4]
theorem after4_20 (c : Dev nD) (t : Fin cfg4.N) : (dat4 V c).after 20 t = val4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d
theorem before4_16 (c : Dev nD) (t : Fin cfg4.N) (d) : (dat4 V c).before 16 t d = iblk4 V c 16 t :=
  before4_16_of V (dat4 V c) (A_eq4 V c 16) (after4_16 V c) t d
theorem before4_17 (c : Dev nD) (t : Fin cfg4.N) (d) : (dat4 V c).before 17 t d = iblk4 V c 17 t :=
  before4_17_of V (dat4 V c) (A_eq4 V c 17) (after4_17 V c) t d
theorem before4_18 (c : Dev nD) (t : Fin cfg4.N) (d) : (dat4 V c).before 18 t d = iblk4 V c 18 t :=
  before4_18_of V (dat4 V c) (A_eq4 V c 18) (after4_18 V c) t d
theorem before4_19 (c : Dev nD) (t : Fin cfg4.N) (d) : (dat4 V c).before 19 t d = iblk4 V c 19 t :=
  before4_19_of V (dat4 V c) (A_eq4 V c 19) (after4_19 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d))
    ∗ (∃ d, owns (c : Thread nD τ) (st4_20 t) fullShare ((dat4 V c).before 20 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t)
    ∗ owns (c : Thread nD τ) (st4_20 t) fullShare ((dat4 V c).after 20 t))

set_option maxHeartbeats 1600000 in
/-- The body at any point: the inputs' buffers hold their blocks, the output's anything; the run of the body applies; the
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17, before4_18, before4_19]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19, after4_20]
  unfold val4_20
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((run4 c (grid4.coords t) _ _ _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.Kernel.Entry4.lean ====
/-
  Entering and leaving region 4: the distinct arrays behind its windows dealt to the windows on entry — the transposed
  features, which the row and column windows both stage, as the two halves of its full share — and put together again on
  exit, the output arrays at what the write-backs left, every buffer no window stages as it was.
-/
import proofs.«135850_j19774029431551_2_alg».proof.Proof.Kernel.Dat4
import proofs.«135850_j19774029431551_2_alg».proof.Proof.Kernel.Entry0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr4 : (Finset.univ.image (Pipeline.arrRef spec4) : Finset (Ref sig .tc)) = {main_v0, main_arg1, main_arg2, main_arg5, main_arg6, main_arg9, main_arg10, main_arg13, main_arg14, main_arg17, main_arg18, main_v15, main_v17, main_v32, main_v34, main_v49, main_v51, main_v66, main_v68, main_v69} := by decide

theorem arr4_0 (c : Dev nD) (X : Buf (Elt F) ((cfg4.win 0).arr.view.loc (c.tc : Thread nD τ))) :
    ((cfg4.win 0).arr.view.loc (c.tc : Thread nD τ) ↦[(cfg4.win 0).arr.view.set]{(dat4 V c).share 0} X : sProp 𝕄)
      = ((c.tc : Thread nD τ).loc main_v0 ↦{fullShare.left} X) := by
  rw [(arr_whole4 0).set_eq_univ]; rfl
theorem arr4_1 (c : Dev nD) (X : Buf (Elt F) ((cfg4.win 1).arr.view.loc (c.tc : Thread nD τ))) :
    ((cfg4.win 1).arr.view.loc (c.tc : Thread nD τ) ↦[(cfg4.win 1).arr.view.set]{(dat4 V c).share 1} X : sProp 𝕄)
      = ((c.tc : Thread nD τ).loc main_v0 ↦{fullShare.right} X) := by
  rw [(arr_whole4 1).set_eq_univ]; rfl
theorem arr4_2 (c : Dev nD) (X : Buf (Elt F) ((cfg4.win 2).arr.view.loc (c.tc : Thread nD τ))) :
    ((cfg4.win 2).arr.view.loc (c.tc : Thread nD τ) ↦[(cfg4.win 2).arr.view.set]{(dat4 V c).share 2} X : sProp 𝕄)
      = ((c.tc : Thread nD τ).loc main_arg1 ↦{fullShare} X) := by
  rw [(arr_whole4 2).set_eq_univ]; rfl
theorem arr4_3 (c : Dev nD) (X : Buf (Elt F) ((cfg4.win 3).arr.view.loc (c.tc : Thread nD τ))) :
    ((cfg4.win 3).arr.view.loc (c.tc : Thread nD τ) ↦[(cfg4.win 3).arr.view.set]{(dat4 V c).share 3} X : sProp 𝕄)
      = ((c.tc : Thread nD τ).loc main_arg2 ↦{fullShare} X) := by
  rw [(arr_whole4 3).set_eq_univ]; rfl
theorem arr4_4 (c : Dev nD) (X : Buf (Elt F) ((cfg4.win 4).arr.view.loc (c.tc : Thread nD τ))) :
    ((cfg4.win 4).arr.view.loc (c.tc : Thread nD τ) ↦[(cfg4.win 4).arr.view.set]{(dat4 V c).share 4} X : sProp 𝕄)
      = ((c.tc : Thread nD τ).loc main_arg5 ↦{fullShare} X) := by
  rw [(arr_whole4 4).set_eq_univ]; rfl
theorem arr4_5 (c : Dev nD) (X : Buf (Elt F) ((cfg4.win 5).arr.view.loc (c.tc : Thread nD τ))) :
    ((cfg4.win 5).arr.view.loc (c.tc : Thread nD τ) ↦[(cfg4.win 5).arr.view.set]{(dat4 V c).share 5} X : sProp 𝕄)
      = ((c.tc : Thread nD τ).loc main_arg6 ↦{fullShare} X) := by
  rw [(arr_whole4 5).set_eq_univ]; rfl
theorem arr4_6 (c : Dev nD) (X : Buf (Elt F) ((cfg4.win 6).arr.view.loc (c.tc : Thread nD τ))) :
    ((cfg4.win 6).arr.view.loc (c.tc : Thread nD τ) ↦[(cfg4.win 6).arr.view.set]{(dat4 V c).share 6} X : sProp 𝕄)
      = ((c.tc : Thread nD τ).loc main_arg9 ↦{fullShare} X) := by
  rw [(arr_whole4 6).set_eq_univ]; rfl
theorem arr4_7 (c : Dev nD) (X : Buf (Elt F) ((cfg4.win 7).arr.view.loc (c.tc : Thread nD τ))) :
    ((cfg4.win 7).arr.view.loc (c.tc : Thread nD τ) ↦[(cfg4.win 7).arr.view.set]{(dat4 V c).share 7} X : sProp 𝕄)
      = ((c.tc : Thread nD τ).loc main_arg10 ↦{fullShare} X) := by
  rw [(arr_whole4 7).set_eq_univ]; rfl
theorem arr4_8 (c : Dev nD) (X : Buf (Elt F) ((cfg4.win 8).arr.view.loc (c.tc : Thread nD τ))) :
    ((cfg4.win 8).arr.view.loc (c.tc : Thread nD τ) ↦[(cfg4.win 8).arr.view.set]{(dat4 V c).share 8} X : sProp 𝕄)
      = ((c.tc : Thread nD τ).loc main_arg13 ↦{fullShare} X) := by
  rw [(arr_whole4 8).set_eq_univ]; rfl
theorem arr4_9 (c : Dev nD) (X : Buf (Elt F) ((cfg4.win 9).arr.view.loc (c.tc : Thread nD τ))) :
    ((cfg4.win 9).arr.view.loc (c.tc : Thread nD τ) ↦[(cfg4.win 9).arr.view.set]{(dat4 V c).share 9} X : sProp 𝕄)
      = ((c.tc : Thread nD τ).loc main_arg14 ↦{fullShare} X) := by
  rw [(arr_whole4 9).set_eq_univ]; rfl
theorem arr4_10 (c : Dev nD) (X : Buf (Elt F) ((cfg4.win 10).arr.view.loc (c.tc : Thread nD τ))) :
    ((cfg4.win 10).arr.view.loc (c.tc : Thread nD τ) ↦[(cfg4.win 10).arr.view.set]{(dat4 V c).share 10} X : sProp 𝕄)
      = ((c.tc : Thread nD τ).loc main_arg17 ↦{fullShare} X) := by
  rw [(arr_whole4 10).set_eq_univ]; rfl
theorem arr4_11 (c : Dev nD) (X : Buf (Elt F) ((cfg4.win 11).arr.view.loc (c.tc : Thread nD τ))) :
    ((cfg4.win 11).arr.view.loc (c.tc : Thread nD τ) ↦[(cfg4.win 11).arr.view.set]{(dat4 V c).share 11} X : sProp 𝕄)
      = ((c.tc : Thread nD τ).loc main_arg18 ↦{fullShare} X) := by
  rw [(arr_whole4 11).set_eq_univ]; rfl
theorem arr4_12 (c : Dev nD) (X : Buf (Elt F) ((cfg4.win 12).arr.view.loc (c.tc : Thread nD τ))) :
    ((cfg4.win 12).arr.view.loc (c.tc : Thread nD τ) ↦[(cfg4.win 12).arr.view.set]{(dat4 V c).share 12} X : sProp 𝕄)
      = ((c.tc : Thread nD τ).loc main_v15 ↦{fullShare} X) := by
  rw [(arr_whole4 12).set_eq_univ]; rfl
theorem arr4_13 (c : Dev nD) (X : Buf (Elt F) ((cfg4.win 13).arr.view.loc (c.tc : Thread nD τ))) :
    ((cfg4.win 13).arr.view.loc (c.tc : Thread nD τ) ↦[(cfg4.win 13).arr.view.set]{(dat4 V c).share 13} X : sProp 𝕄)
      = ((c.tc : Thread nD τ).loc main_v17 ↦{fullShare} X) := by
  rw [(arr_whole4 13).set_eq_univ]; rfl
theorem arr4_14 (c : Dev nD) (X : Buf (Elt F) ((cfg4.win 14).arr.view.loc (c.tc : Thread nD τ))) :
    ((cfg4.win 14).arr.view.loc (c.tc : Thread nD τ) ↦[(cfg4.win 14).arr.view.set]{(dat4 V c).share 14} X : sProp 𝕄)
      = ((c.tc : Thread nD τ).loc main_v32 ↦{fullShare} X) := by
  rw [(arr_whole4 14).set_eq_univ]; rfl
theorem arr4_15 (c : Dev nD) (X : Buf (Elt F) ((cfg4.win 15).arr.view.loc (c.tc : Thread nD τ))) :
    ((cfg4.win 15).arr.view.loc (c.tc : Thread nD τ) ↦[(cfg4.win 15).arr.view.set]{(dat4 V c).share 15} X : sProp 𝕄)
      = ((c.tc : Thread nD τ).loc main_v34 ↦{fullShare} X) := by
  rw [(arr_whole4 15).set_eq_univ]; rfl
theorem arr4_16 (c : Dev nD) (X : Buf (Elt F) ((cfg4.win 16).arr.view.loc (c.tc : Thread nD τ))) :
    ((cfg4.win 16).arr.view.loc (c.tc : Thread nD τ) ↦[(cfg4.win 16).arr.view.set]{(dat4 V c).share 16} X : sProp 𝕄)
      = ((c.tc : Thread nD τ).loc main_v49 ↦{fullShare} X) := by
  rw [(arr_whole4 16).set_eq_univ]; rfl
theorem arr4_17 (c : Dev nD) (X : Buf (Elt F) ((cfg4.win 17).arr.view.loc (c.tc : Thread nD τ))) :
    ((cfg4.win 17).arr.view.loc (c.tc : Thread nD τ) ↦[(cfg4.win 17).arr.view.set]{(dat4 V c).share 17} X : sProp 𝕄)
      = ((c.tc : Thread nD τ).loc main_v51 ↦{fullShare} X) := by
  rw [(arr_whole4 17).set_eq_univ]; rfl
theorem arr4_18 (c : Dev nD) (X : Buf (Elt F) ((cfg4.win 18).arr.view.loc (c.tc : Thread nD τ))) :
    ((cfg4.win 18).arr.view.loc (c.tc : Thread nD τ) ↦[(cfg4.win 18).arr.view.set]{(dat4 V c).share 18} X : sProp 𝕄)
      = ((c.tc : Thread nD τ).loc main_v66 ↦{fullShare} X) := by
  rw [(arr_whole4 18).set_eq_univ]; rfl
theorem arr4_19 (c : Dev nD) (X : Buf (Elt F) ((cfg4.win 19).arr.view.loc (c.tc : Thread nD τ))) :
    ((cfg4.win 19).arr.view.loc (c.tc : Thread nD τ) ↦[(cfg4.win 19).arr.view.set]{(dat4 V c).share 19} X : sProp 𝕄)
      = ((c.tc : Thread nD τ).loc main_v68 ↦{fullShare} X) := by
  rw [(arr_whole4 19).set_eq_univ]; rfl
theorem arr4_20 (c : Dev nD) (X : Buf (Elt F) ((cfg4.win 20).arr.view.loc (c.tc : Thread nD τ))) :
    ((cfg4.win 20).arr.view.loc (c.tc : Thread nD τ) ↦[(cfg4.win 20).arr.view.set]{(dat4 V c).share 20} X : sProp 𝕄)
      = ((c.tc : Thread nD τ).loc main_v69 ↦{fullShare} X) := by
  rw [(arr_whole4 20).set_eq_univ]; rfl

set_option maxHeartbeats 8000000 in
/-- ENTRY: the distinct buffers behind the arrays, whole at the entry contents, are the windows' arrays at the proof data's
    shares and entry contents: the shared array's full share is dealt as its two halves. -/
theorem hsplit4 (c : Dev nD) :
    (Pipeline.arrBufs (Ix := Unit) (Name := ℕ) (U := UR sig nD τ) (Lvl := ℕ) spec4 c (V c) : sProp 𝕄) ⊢ (dat4 V c).arrays ((dat4 V c).arrAt · 0) := by
  unfold Pipeline.arrBufs Dat.arrays
  rw [image_arr4, bigSep_W4, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr4_0 V c _)
      (sep_congr (arr4_1 V c _)
      (sep_congr (arr4_2 V c _)
      (sep_congr (arr4_3 V c _)
      (sep_congr (arr4_4 V c _)
      (sep_congr (arr4_5 V c _)
      (sep_congr (arr4_6 V c _)
      (sep_congr (arr4_7 V c _)
      (sep_congr (arr4_8 V c _)
      (sep_congr (arr4_9 V c _)
      (sep_congr (arr4_10 V c _)
      (sep_congr (arr4_11 V c _)
      (sep_congr (arr4_12 V c _)
      (sep_congr (arr4_13 V c _)
      (sep_congr (arr4_14 V c _)
      (sep_congr (arr4_15 V c _)
      (sep_congr (arr4_16 V c _)
      (sep_congr (arr4_17 V c _)
      (sep_congr (arr4_18 V c _)
      (sep_congr (arr4_19 V c _)
      (arr4_20 V c _))))))))))))))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_arg9 ↦{fullShare} V c main_arg9)
      ∗ ((c.tc : Thread nD τ).loc main_arg10 ↦{fullShare} V c main_arg10)
      ∗ ((c.tc : Thread nD τ).loc main_arg13 ↦{fullShare} V c main_arg13)
      ∗ ((c.tc : Thread nD τ).loc main_arg14 ↦{fullShare} V c main_arg14)
      ∗ ((c.tc : Thread nD τ).loc main_arg17 ↦{fullShare} V c main_arg17)
      ∗ ((c.tc : Thread nD τ).loc main_arg18 ↦{fullShare} V c main_arg18)
      ∗ ((c.tc : Thread nD τ).loc main_v15 ↦{fullShare} V c main_v15)
      ∗ ((c.tc : Thread nD τ).loc main_v17 ↦{fullShare} V c main_v17)
      ∗ ((c.tc : Thread nD τ).loc main_v32 ↦{fullShare} V c main_v32)
      ∗ ((c.tc : Thread nD τ).loc main_v34 ↦{fullShare} V c main_v34)
      ∗ ((c.tc : Thread nD τ).loc main_v49 ↦{fullShare} V c main_v49)
      ∗ ((c.tc : Thread nD τ).loc main_v51 ↦{fullShare} V c main_v51)
      ∗ ((c.tc : Thread nD τ).loc main_v66 ↦{fullShare} V c main_v66)
      ∗ ((c.tc : Thread nD τ).loc main_v68 ↦{fullShare} V c main_v68)
      ∗ ((c.tc : Thread nD τ).loc main_v69 ↦{fullShare} V c main_v69)) : sProp 𝕄) ⊢ _
  iintro ⟨G0, G1, G2, G3, G4, G5, G6, G7, G8, G9, G10, G11, G12, G13, G14, G15, G16, G17, G18, G19⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  iexact G19

theorem arrAt4_in0 (c : Dev nD) : (dat4 V c).arrAt 0 cfg4.N = V c main_v0 := (Dat.arrAt_in _ 0 rfl _).trans (A_eq4 V c 0)
theorem arrAt4_in1 (c : Dev nD) : (dat4 V c).arrAt 1 cfg4.N = V c main_v0 := (Dat.arrAt_in _ 1 rfl _).trans (A_eq4 V c 1)
theorem arrAt4_in2 (c : Dev nD) : (dat4 V c).arrAt 2 cfg4.N = V c main_arg1 := (Dat.arrAt_in _ 2 rfl _).trans (A_eq4 V c 2)
theorem arrAt4_in3 (c : Dev nD) : (dat4 V c).arrAt 3 cfg4.N = V c main_arg2 := (Dat.arrAt_in _ 3 rfl _).trans (A_eq4 V c 3)
theorem arrAt4_in4 (c : Dev nD) : (dat4 V c).arrAt 4 cfg4.N = V c main_arg5 := (Dat.arrAt_in _ 4 rfl _).trans (A_eq4 V c 4)
theorem arrAt4_in5 (c : Dev nD) : (dat4 V c).arrAt 5 cfg4.N = V c main_arg6 := (Dat.arrAt_in _ 5 rfl _).trans (A_eq4 V c 5)
theorem arrAt4_in6 (c : Dev nD) : (dat4 V c).arrAt 6 cfg4.N = V c main_arg9 := (Dat.arrAt_in _ 6 rfl _).trans (A_eq4 V c 6)
theorem arrAt4_in7 (c : Dev nD) : (dat4 V c).arrAt 7 cfg4.N = V c main_arg10 := (Dat.arrAt_in _ 7 rfl _).trans (A_eq4 V c 7)
theorem arrAt4_in8 (c : Dev nD) : (dat4 V c).arrAt 8 cfg4.N = V c main_arg13 := (Dat.arrAt_in _ 8 rfl _).trans (A_eq4 V c 8)
theorem arrAt4_in9 (c : Dev nD) : (dat4 V c).arrAt 9 cfg4.N = V c main_arg14 := (Dat.arrAt_in _ 9 rfl _).trans (A_eq4 V c 9)
theorem arrAt4_in10 (c : Dev nD) : (dat4 V c).arrAt 10 cfg4.N = V c main_arg17 := (Dat.arrAt_in _ 10 rfl _).trans (A_eq4 V c 10)
theorem arrAt4_in11 (c : Dev nD) : (dat4 V c).arrAt 11 cfg4.N = V c main_arg18 := (Dat.arrAt_in _ 11 rfl _).trans (A_eq4 V c 11)
theorem arrAt4_in12 (c : Dev nD) : (dat4 V c).arrAt 12 cfg4.N = V c main_v15 := (Dat.arrAt_in _ 12 rfl _).trans (A_eq4 V c 12)
theorem arrAt4_in13 (c : Dev nD) : (dat4 V c).arrAt 13 cfg4.N = V c main_v17 := (Dat.arrAt_in _ 13 rfl _).trans (A_eq4 V c 13)
theorem arrAt4_in14 (c : Dev nD) : (dat4 V c).arrAt 14 cfg4.N = V c main_v32 := (Dat.arrAt_in _ 14 rfl _).trans (A_eq4 V c 14)
theorem arrAt4_in15 (c : Dev nD) : (dat4 V c).arrAt 15 cfg4.N = V c main_v34 := (Dat.arrAt_in _ 15 rfl _).trans (A_eq4 V c 15)
theorem arrAt4_in16 (c : Dev nD) : (dat4 V c).arrAt 16 cfg4.N = V c main_v49 := (Dat.arrAt_in _ 16 rfl _).trans (A_eq4 V c 16)
theorem arrAt4_in17 (c : Dev nD) : (dat4 V c).arrAt 17 cfg4.N = V c main_v51 := (Dat.arrAt_in _ 17 rfl _).trans (A_eq4 V c 17)
theorem arrAt4_in18 (c : Dev nD) : (dat4 V c).arrAt 18 cfg4.N = V c main_v66 := (Dat.arrAt_in _ 18 rfl _).trans (A_eq4 V c 18)
theorem arrAt4_in19 (c : Dev nD) : (dat4 V c).arrAt 19 cfg4.N = V c main_v68 := (Dat.arrAt_in _ 19 rfl _).trans (A_eq4 V c 19)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin4 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_arg17 = V c main_arg17) (hi10 : V' c main_arg18 = V c main_arg18) (hi11 : V' c main_v15 = V c main_v15) (hi12 : V' c main_v17 = V c main_v17) (hi13 : V' c main_v32 = V c main_v32) (hi14 : V' c main_v34 = V c main_v34) (hi15 : V' c main_v49 = V c main_v49) (hi16 : V' c main_v51 = V c main_v51) (hi17 : V' c main_v66 = V c main_v66) (hi18 : V' c main_v68 = V c main_v68) (ho0 : V' c main_v69 = (dat4 V c).arrAt 20 cfg4.N) :
    (dat4 V c).arrays ((dat4 V c).arrAt · cfg4.N) ⊢ (Pipeline.arrBufs (Ix := Unit) (Name := ℕ) (U := UR sig nD τ) (Lvl := ℕ) spec4 c (V' c) : sProp 𝕄) := by
  unfold Pipeline.arrBufs Dat.arrays
  rw [image_arr4, bigSep_W4, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr4_0 V c _).trans (congrArg (fun X => (((c.tc : Thread nD τ).loc main_v0 ↦{fullShare.left} X) : sProp 𝕄)) (arrAt4_in0 V c)))
      (sep_congr ((arr4_1 V c _).trans (congrArg (fun X => (((c.tc : Thread nD τ).loc main_v0 ↦{fullShare.right} X) : sProp 𝕄)) (arrAt4_in1 V c)))
      (sep_congr ((arr4_2 V c _).trans (congrArg (fun X => (((c.tc : Thread nD τ).loc main_arg1 ↦{fullShare} X) : sProp 𝕄)) (arrAt4_in2 V c)))
      (sep_congr ((arr4_3 V c _).trans (congrArg (fun X => (((c.tc : Thread nD τ).loc main_arg2 ↦{fullShare} X) : sProp 𝕄)) (arrAt4_in3 V c)))
      (sep_congr ((arr4_4 V c _).trans (congrArg (fun X => (((c.tc : Thread nD τ).loc main_arg5 ↦{fullShare} X) : sProp 𝕄)) (arrAt4_in4 V c)))
      (sep_congr ((arr4_5 V c _).trans (congrArg (fun X => (((c.tc : Thread nD τ).loc main_arg6 ↦{fullShare} X) : sProp 𝕄)) (arrAt4_in5 V c)))
      (sep_congr ((arr4_6 V c _).trans (congrArg (fun X => (((c.tc : Thread nD τ).loc main_arg9 ↦{fullShare} X) : sProp 𝕄)) (arrAt4_in6 V c)))
      (sep_congr ((arr4_7 V c _).trans (congrArg (fun X => (((c.tc : Thread nD τ).loc main_arg10 ↦{fullShare} X) : sProp 𝕄)) (arrAt4_in7 V c)))
      (sep_congr ((arr4_8 V c _).trans (congrArg (fun X => (((c.tc : Thread nD τ).loc main_arg13 ↦{fullShare} X) : sProp 𝕄)) (arrAt4_in8 V c)))
      (sep_congr ((arr4_9 V c _).trans (congrArg (fun X => (((c.tc : Thread nD τ).loc main_arg14 ↦{fullShare} X) : sProp 𝕄)) (arrAt4_in9 V c)))
      (sep_congr ((arr4_10 V c _).trans (congrArg (fun X => (((c.tc : Thread nD τ).loc main_arg17 ↦{fullShare} X) : sProp 𝕄)) (arrAt4_in10 V c)))
      (sep_congr ((arr4_11 V c _).trans (congrArg (fun X => (((c.tc : Thread nD τ).loc main_arg18 ↦{fullShare} X) : sProp 𝕄)) (arrAt4_in11 V c)))
      (sep_congr ((arr4_12 V c _).trans (congrArg (fun X => (((c.tc : Thread nD τ).loc main_v15 ↦{fullShare} X) : sProp 𝕄)) (arrAt4_in12 V c)))
      (sep_congr ((arr4_13 V c _).trans (congrArg (fun X => (((c.tc : Thread nD τ).loc main_v17 ↦{fullShare} X) : sProp 𝕄)) (arrAt4_in13 V c)))
      (sep_congr ((arr4_14 V c _).trans (congrArg (fun X => (((c.tc : Thread nD τ).loc main_v32 ↦{fullShare} X) : sProp 𝕄)) (arrAt4_in14 V c)))
      (sep_congr ((arr4_15 V c _).trans (congrArg (fun X => (((c.tc : Thread nD τ).loc main_v34 ↦{fullShare} X) : sProp 𝕄)) (arrAt4_in15 V c)))
      (sep_congr ((arr4_16 V c _).trans (congrArg (fun X => (((c.tc : Thread nD τ).loc main_v49 ↦{fullShare} X) : sProp 𝕄)) (arrAt4_in16 V c)))
      (sep_congr ((arr4_17 V c _).trans (congrArg (fun X => (((c.tc : Thread nD τ).loc main_v51 ↦{fullShare} X) : sProp 𝕄)) (arrAt4_in17 V c)))
      (sep_congr ((arr4_18 V c _).trans (congrArg (fun X => (((c.tc : Thread nD τ).loc main_v66 ↦{fullShare} X) : sProp 𝕄)) (arrAt4_in18 V c)))
      (sep_congr ((arr4_19 V c _).trans (congrArg (fun X => (((c.tc : Thread nD τ).loc main_v68 ↦{fullShare} X) : sProp 𝕄)) (arrAt4_in19 V c)))
      (arr4_20 V c _)))))))))))))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_arg9 ↦{fullShare} V' c main_arg9)
      ∗ ((c.tc : Thread nD τ).loc main_arg10 ↦{fullShare} V' c main_arg10)
      ∗ ((c.tc : Thread nD τ).loc main_arg13 ↦{fullShare} V' c main_arg13)
      ∗ ((c.tc : Thread nD τ).loc main_arg14 ↦{fullShare} V' c main_arg14)
      ∗ ((c.tc : Thread nD τ).loc main_arg17 ↦{fullShare} V' c main_arg17)
      ∗ ((c.tc : Thread nD τ).loc main_arg18 ↦{fullShare} V' c main_arg18)
      ∗ ((c.tc : Thread nD τ).loc main_v15 ↦{fullShare} V' c main_v15)
      ∗ ((c.tc : Thread nD τ).loc main_v17 ↦{fullShare} V' c main_v17)
      ∗ ((c.tc : Thread nD τ).loc main_v32 ↦{fullShare} V' c main_v32)
      ∗ ((c.tc : Thread nD τ).loc main_v34 ↦{fullShare} V' c main_v34)
      ∗ ((c.tc : Thread nD τ).loc main_v49 ↦{fullShare} V' c main_v49)
      ∗ ((c.tc : Thread nD τ).loc main_v51 ↦{fullShare} V' c main_v51)
      ∗ ((c.tc : Thread nD τ).loc main_v66 ↦{fullShare} V' c main_v66)
      ∗ ((c.tc : Thread nD τ).loc main_v68 ↦{fullShare} V' c main_v68)
      ∗ ((c.tc : Thread nD τ).loc main_v69 ↦{fullShare} V' c main_v69)) : sProp 𝕄)
  rw [hi0, hi1, hi2, hi3, hi4, hi5, hi6, hi7, hi8, hi9, hi10, hi11, hi12, hi13, hi14, hi15, hi16, hi17, hi18, ho0]
  iintro ⟨A0, A1, A2, A3, A4, A5, A6, A7, A8, A9, A10, A11, A12, A13, A14, A15, A16, A17, A18, A19, A20⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  iexact A20

/-- ENTRY, whole: a core's unscoped buffers at the entry contents are the region's arrays at the proof data's shares and every
    other unscoped buffer, untouched. -/
theorem entry4 (c : Dev nD) :
    (unscopedBufs (Ix := Unit) (Name := ℕ) (U := UR sig nD τ) (Lvl := ℕ) c (V c) : sProp 𝕄)
      ⊢ iprop((dat4 V c).arrays ((dat4 V c).arrAt · 0) ∗ Pipeline.unscopedRest spec4 c (V c)) := by
  rw [Pipeline.unscopedBufs_split₀ cfgs 4 winFacts₀4.arr_unscoped c (V c)]
  exact sep_mono (hsplit4 V c) .rfl

/-- EXIT, whole: the arrays at their final contents and the untouched rest are the core's unscoped buffers at contents that
    differ from the entry contents only on the output arrays, which hold what the write-backs left. -/
theorem exit4 (V' : (c : Dev nD) → (b : Ref sig .tc) → Buf (Elt F) ((c : Thread nD τ).loc b)) (c : Dev nD)
    (hrest : ∀ b, b ∉ Finset.univ.image (Pipeline.arrRef spec4) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_arg17 = V c main_arg17) (hi10 : V' c main_arg18 = V c main_arg18) (hi11 : V' c main_v15 = V c main_v15) (hi12 : V' c main_v17 = V c main_v17) (hi13 : V' c main_v32 = V c main_v32) (hi14 : V' c main_v34 = V c main_v34) (hi15 : V' c main_v49 = V c main_v49) (hi16 : V' c main_v51 = V c main_v51) (hi17 : V' c main_v66 = V c main_v66) (hi18 : V' c main_v68 = V c main_v68) (ho0 : V' c main_v69 = (dat4 V c).arrAt 20 cfg4.N) :
    iprop((dat4 V c).arrays ((dat4 V c).arrAt · cfg4.N) ∗ Pipeline.unscopedRest spec4 c (V c))
      ⊢ (unscopedBufs (Ix := Unit) (Name := ℕ) (U := UR sig nD τ) (Lvl := ℕ) c (V' c) : sProp 𝕄) := by
  rw [Pipeline.unscopedBufs_split₀ cfgs 4 winFacts₀4.arr_unscoped c (V' c)]
  refine sep_mono (hjoin4 V V' c hi0 hi1 hi2 hi3 hi4 hi5 hi6 hi7 hi8 hi9 hi10 hi11 hi12 hi13 hi14 hi15 hi16 hi17 hi18 ho0) (Entails.of_eq ?_)
  unfold Pipeline.unscopedRest
  exact bigSep_congr fun b hb => by rw [hrest b (Finset.mem_sdiff.mp hb).2]

end

end Cert.Kernel.Hand

end
-- ==== Proof.Kernel.Chain.lean ====
/-
  The chain of a core's buffer contents between the program's ten items — five host stretches and five regions. The contents
  after a host stretch are the stretch's operations applied to the contents before it; after a region, the region's output
  arrays hold what its write-backs left and every other buffer is as the region found it. Each region's proof data is taken
  at the contents the region is entered with.
-/
import proofs.«135850_j19774029431551_2_alg».proof.Proof.Kernel.Entry0
import proofs.«135850_j19774029431551_2_alg».proof.Proof.Kernel.Entry1
import proofs.«135850_j19774029431551_2_alg».proof.Proof.Kernel.Entry2
import proofs.«135850_j19774029431551_2_alg».proof.Proof.Kernel.Entry3
import proofs.«135850_j19774029431551_2_alg».proof.Proof.Kernel.Entry4
import proofs.«135850_j19774029431551_2_alg».proof.Proof.Gen.Kernel.Regions
import Idealize.ShloMosaic.Lib.Pipeline.Kit
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Updating a dependent function at one or two points, at abstract values -/

section Upd
variable {α : Type} [DecidableEq α] {β : α → Type} (V : (a : α) → β a)

/-- Two updates read at the first point. -/
theorem upd2_at_fst {a b : α} (hab : a ≠ b) (x : β a) (y : β b) : Function.update (Function.update V a x) b y a = x := by
  rw [Function.update_of_ne hab, Function.update_self]
/-- Two updates read at the second point. -/
theorem upd2_at_snd (a b : α) (x : β a) (y : β b) : Function.update (Function.update V a x) b y b = y := by
  rw [Function.update_self]
/-- Two updates read elsewhere. -/
theorem upd2_of {a b d : α} (ha : d ≠ a) (hb : d ≠ b) (x : β a) (y : β b) : Function.update (Function.update V a x) b y d = V d := by
  rw [Function.update_of_ne hb, Function.update_of_ne ha]
/-- Updating at two points with the values a doubly updated function already has there gives that function. -/
theorem upd2_fix {a b : α} (hab : a ≠ b) (x : β a) (y : β b) :
    Function.update (Function.update V a (Function.update (Function.update V a x) b y a)) b (Function.update (Function.update V a x) b y b)
      = Function.update (Function.update V a x) b y := by
  rw [upd2_at_fst V hab, upd2_at_snd]
/-- The same at one point. -/
theorem upd1_fix (a : α) (x : β a) : Function.update V a (Function.update V a x a) = Function.update V a x := by
  rw [Function.update_self]
/-- One update read at its point. -/
theorem upd1_at (a : α) (x : β a) : Function.update V a x a = x := by
  rw [Function.update_self]
theorem upd1_of {a d : α} (ha : d ≠ a) (x : β a) : Function.update V a x d = V d := Function.update_of_ne ha x V

end Upd

variable (m : (ℓ : Loc nD τ sig) → Buf (Elt F) ℓ)

/-- A core's valuation read at TensorCore references. -/
abbrev atRef (W : Dev nD → Valuation τ sig (Elt F)) : (c : Dev nD) → (b : Ref sig .tc) → Buf (Elt F) ((c : Thread nD τ).loc b) := fun c b => W c b

/-! ## The chain of contents -/

/-- Core `c`'s unscoped buffers after the first host stretch (the transpose of the features). -/
def W1 (c : Dev nD) : Valuation τ sig (Elt F) := StableHlo.after hostOps0 (Gen.V0 m c)
/-- … after region 0: its output arrays at what the write-backs leave, every other buffer as the region found it. -/
def W2 (c : Dev nD) : Valuation τ sig (Elt F) :=
  Function.update (Function.update (W1 m c) main_v1_0 ((dat0 (atRef (W1 m)) c).arrAt 4 cfg0.N)) main_v1_1 ((dat0 (atRef (W1 m)) c).arrAt 5 cfg0.N)
/-- … after the host stretch that turns region 0's per-row totals into the next layer's scale and shift. -/
def W3 (c : Dev nD) : Valuation τ sig (Elt F) := StableHlo.after hostOps1 (W2 m c)
/-- … after region 1: its output arrays at what the write-backs leave, every other buffer as the region found it. -/
def W4 (c : Dev nD) : Valuation τ sig (Elt F) :=
  Function.update (Function.update (W3 m c) main_v18_0 ((dat1 (atRef (W3 m)) c).arrAt 8 cfg1.N)) main_v18_1 ((dat1 (atRef (W3 m)) c).arrAt 9 cfg1.N)
/-- … after the host stretch that turns region 1's per-row totals into the next layer's scale and shift. -/
def W5 (c : Dev nD) : Valuation τ sig (Elt F) := StableHlo.after hostOps2 (W4 m c)
/-- … after region 2: its output arrays at what the write-backs leave, every other buffer as the region found it. -/
def W6 (c : Dev nD) : Valuation τ sig (Elt F) :=
  Function.update (Function.update (W5 m c) main_v35_0 ((dat2 (atRef (W5 m)) c).arrAt 12 cfg2.N)) main_v35_1 ((dat2 (atRef (W5 m)) c).arrAt 13 cfg2.N)
/-- … after the host stretch that turns region 2's per-row totals into the next layer's scale and shift. -/
def W7 (c : Dev nD) : Valuation τ sig (Elt F) := StableHlo.after hostOps3 (W6 m c)
/-- … after region 3: its output arrays at what the write-backs leave, every other buffer as the region found it. -/
def W8 (c : Dev nD) : Valuation τ sig (Elt F) :=
  Function.update (Function.update (W7 m c) main_v52_0 ((dat3 (atRef (W7 m)) c).arrAt 16 cfg3.N)) main_v52_1 ((dat3 (atRef (W7 m)) c).arrAt 17 cfg3.N)
/-- … after the host stretch that turns region 3's per-row totals into the next layer's scale and shift. -/
def W9 (c : Dev nD) : Valuation τ sig (Elt F) := StableHlo.after hostOps4 (W8 m c)
/-- … after region 4: its output array at what the write-backs leave, every other buffer as the region found it. -/
def W10 (c : Dev nD) : Valuation τ sig (Elt F) :=
  Function.update (W9 m c) main_v69 ((dat4 (atRef (W9 m)) c).arrAt 20 cfg4.N)

/-- What the regions leave, read off the chain: the unknowns of the generated conditional frame. -/
def outs : Gen.Outs (F := F) := fun J r c => match J with
  | 2 => W2 m c r | 4 => W4 m c r | 6 => W6 m c r | 8 => W8 m c r | 10 => W10 m c r | _ => W1 m c r

theorem outs_2 (r : Ref sig .tc) (c : Dev nD) : outs m 2 r c = W2 m c r := rfl
theorem outs_4 (r : Ref sig .tc) (c : Dev nD) : outs m 4 r c = W4 m c r := rfl
theorem outs_6 (r : Ref sig .tc) (c : Dev nD) : outs m 6 r c = W6 m c r := rfl
theorem outs_8 (r : Ref sig .tc) (c : Dev nD) : outs m 8 r c = W8 m c r := rfl
theorem outs_10 (r : Ref sig .tc) (c : Dev nD) : outs m 10 r c = W10 m c r := rfl

/-- A buffer that is no output of region 0 is as the region found it. -/
theorem W2_of (c : Dev nD) (b : Ref sig .tc) (h : b ∉ ([main_v1_0, main_v1_1] : List (Ref sig .tc))) : W2 m c b = W1 m c b :=
  upd2_of (W1 m c) (StableHlo.devRef_ne_of_ne (List.ne_of_not_mem_cons h)) (StableHlo.devRef_ne_of_ne (List.ne_of_not_mem_cons (List.not_mem_of_not_mem_cons h))) ((dat0 (atRef (W1 m)) c).arrAt 4 cfg0.N) ((dat0 (atRef (W1 m)) c).arrAt 5 cfg0.N)
theorem W2_rest (c : Dev nD) (b : Ref sig .tc) (hb : b ∉ Finset.univ.image (Pipeline.arrRef spec0)) : W2 m c b = W1 m c b :=
  W2_of m c b (fun hm => hb (by
    rw [image_arr0]
    rcases List.mem_cons.1 hm with rfl | hm
    · decide
    · rcases List.mem_cons.1 hm with rfl | hm
      · decide
      · cases hm))
theorem W2_at_main_v1_0 (c : Dev nD) : W2 m c main_v1_0 = ((dat0 (atRef (W1 m)) c).arrAt 4 cfg0.N) :=
  upd2_at_fst (W1 m c) (StableHlo.devRef_ne_of_ne (by decide : (main_v1_0 : Ref sig .tc) ≠ main_v1_1)) ((dat0 (atRef (W1 m)) c).arrAt 4 cfg0.N) ((dat0 (atRef (W1 m)) c).arrAt 5 cfg0.N)
theorem W2_at_main_v1_1 (c : Dev nD) : W2 m c main_v1_1 = ((dat0 (atRef (W1 m)) c).arrAt 5 cfg0.N) :=
  upd2_at_snd (W1 m c) _ _ ((dat0 (atRef (W1 m)) c).arrAt 4 cfg0.N) ((dat0 (atRef (W1 m)) c).arrAt 5 cfg0.N)

/-- A buffer that is no output of region 1 is as the region found it. -/
theorem W4_of (c : Dev nD) (b : Ref sig .tc) (h : b ∉ ([main_v18_0, main_v18_1] : List (Ref sig .tc))) : W4 m c b = W3 m c b :=
  upd2_of (W3 m c) (StableHlo.devRef_ne_of_ne (List.ne_of_not_mem_cons h)) (StableHlo.devRef_ne_of_ne (List.ne_of_not_mem_cons (List.not_mem_of_not_mem_cons h))) ((dat1 (atRef (W3 m)) c).arrAt 8 cfg1.N) ((dat1 (atRef (W3 m)) c).arrAt 9 cfg1.N)
theorem W4_rest (c : Dev nD) (b : Ref sig .tc) (hb : b ∉ Finset.univ.image (Pipeline.arrRef spec1)) : W4 m c b = W3 m c b :=
  W4_of m c b (fun hm => hb (by
    rw [image_arr1]
    rcases List.mem_cons.1 hm with rfl | hm
    · decide
    · rcases List.mem_cons.1 hm with rfl | hm
      · decide
      · cases hm))
theorem W4_at_main_v18_0 (c : Dev nD) : W4 m c main_v18_0 = ((dat1 (atRef (W3 m)) c).arrAt 8 cfg1.N) :=
  upd2_at_fst (W3 m c) (StableHlo.devRef_ne_of_ne (by decide : (main_v18_0 : Ref sig .tc) ≠ main_v18_1)) ((dat1 (atRef (W3 m)) c).arrAt 8 cfg1.N) ((dat1 (atRef (W3 m)) c).arrAt 9 cfg1.N)
theorem W4_at_main_v18_1 (c : Dev nD) : W4 m c main_v18_1 = ((dat1 (atRef (W3 m)) c).arrAt 9 cfg1.N) :=
  upd2_at_snd (W3 m c) _ _ ((dat1 (atRef (W3 m)) c).arrAt 8 cfg1.N) ((dat1 (atRef (W3 m)) c).arrAt 9 cfg1.N)

/-- A buffer that is no output of region 2 is as the region found it. -/
theorem W6_of (c : Dev nD) (b : Ref sig .tc) (h : b ∉ ([main_v35_0, main_v35_1] : List (Ref sig .tc))) : W6 m c b = W5 m c b :=
  upd2_of (W5 m c) (StableHlo.devRef_ne_of_ne (List.ne_of_not_mem_cons h)) (StableHlo.devRef_ne_of_ne (List.ne_of_not_mem_cons (List.not_mem_of_not_mem_cons h))) ((dat2 (atRef (W5 m)) c).arrAt 12 cfg2.N) ((dat2 (atRef (W5 m)) c).arrAt 13 cfg2.N)
theorem W6_rest (c : Dev nD) (b : Ref sig .tc) (hb : b ∉ Finset.univ.image (Pipeline.arrRef spec2)) : W6 m c b = W5 m c b :=
  W6_of m c b (fun hm => hb (by
    rw [image_arr2]
    rcases List.mem_cons.1 hm with rfl | hm
    · decide
    · rcases List.mem_cons.1 hm with rfl | hm
      · decide
      · cases hm))
theorem W6_at_main_v35_0 (c : Dev nD) : W6 m c main_v35_0 = ((dat2 (atRef (W5 m)) c).arrAt 12 cfg2.N) :=
  upd2_at_fst (W5 m c) (StableHlo.devRef_ne_of_ne (by decide : (main_v35_0 : Ref sig .tc) ≠ main_v35_1)) ((dat2 (atRef (W5 m)) c).arrAt 12 cfg2.N) ((dat2 (atRef (W5 m)) c).arrAt 13 cfg2.N)
theorem W6_at_main_v35_1 (c : Dev nD) : W6 m c main_v35_1 = ((dat2 (atRef (W5 m)) c).arrAt 13 cfg2.N) :=
  upd2_at_snd (W5 m c) _ _ ((dat2 (atRef (W5 m)) c).arrAt 12 cfg2.N) ((dat2 (atRef (W5 m)) c).arrAt 13 cfg2.N)

/-- A buffer that is no output of region 3 is as the region found it. -/
theorem W8_of (c : Dev nD) (b : Ref sig .tc) (h : b ∉ ([main_v52_0, main_v52_1] : List (Ref sig .tc))) : W8 m c b = W7 m c b :=
  upd2_of (W7 m c) (StableHlo.devRef_ne_of_ne (List.ne_of_not_mem_cons h)) (StableHlo.devRef_ne_of_ne (List.ne_of_not_mem_cons (List.not_mem_of_not_mem_cons h))) ((dat3 (atRef (W7 m)) c).arrAt 16 cfg3.N) ((dat3 (atRef (W7 m)) c).arrAt 17 cfg3.N)
theorem W8_rest (c : Dev nD) (b : Ref sig .tc) (hb : b ∉ Finset.univ.image (Pipeline.arrRef spec3)) : W8 m c b = W7 m c b :=
  W8_of m c b (fun hm => hb (by
    rw [image_arr3]
    rcases List.mem_cons.1 hm with rfl | hm
    · decide
    · rcases List.mem_cons.1 hm with rfl | hm
      · decide
      · cases hm))
theorem W8_at_main_v52_0 (c : Dev nD) : W8 m c main_v52_0 = ((dat3 (atRef (W7 m)) c).arrAt 16 cfg3.N) :=
  upd2_at_fst (W7 m c) (StableHlo.devRef_ne_of_ne (by decide : (main_v52_0 : Ref sig .tc) ≠ main_v52_1)) ((dat3 (atRef (W7 m)) c).arrAt 16 cfg3.N) ((dat3 (atRef (W7 m)) c).arrAt 17 cfg3.N)
theorem W8_at_main_v52_1 (c : Dev nD) : W8 m c main_v52_1 = ((dat3 (atRef (W7 m)) c).arrAt 17 cfg3.N) :=
  upd2_at_snd (W7 m c) _ _ ((dat3 (atRef (W7 m)) c).arrAt 16 cfg3.N) ((dat3 (atRef (W7 m)) c).arrAt 17 cfg3.N)

/-- A buffer that is no output of region 4 is as the region found it. -/
theorem W10_of (c : Dev nD) (b : Ref sig .tc) (h : b ∉ ([main_v69] : List (Ref sig .tc))) : W10 m c b = W9 m c b :=
  upd1_of (W9 m c) (StableHlo.devRef_ne_of_ne (List.ne_of_not_mem_cons h)) ((dat4 (atRef (W9 m)) c).arrAt 20 cfg4.N)
theorem W10_rest (c : Dev nD) (b : Ref sig .tc) (hb : b ∉ Finset.univ.image (Pipeline.arrRef spec4)) : W10 m c b = W9 m c b :=
  W10_of m c b (fun hm => hb (by
    rw [image_arr4]
    rcases List.mem_cons.1 hm with rfl | hm
    · decide
    · cases hm))
theorem W10_at_main_v69 (c : Dev nD) : W10 m c main_v69 = ((dat4 (atRef (W9 m)) c).arrAt 20 cfg4.N) :=
  upd1_at (W9 m c) _ ((dat4 (atRef (W9 m)) c).arrAt 20 cfg4.N)

theorem V1_eq (c : Dev nD) : Gen.V1 m c = W1 m c := rfl
theorem V2_eq (c : Dev nD) : Gen.V2 m (outs m) c = W2 m c := by
  show Function.update (Function.update (Gen.V1 m c) main_v1_0 (outs m 2 main_v1_0 c)) main_v1_1 (outs m 2 main_v1_1 c) = W2 m c
  rw [outs_2, outs_2, W2_at_main_v1_0, W2_at_main_v1_1]
  rfl
theorem V3_eq (c : Dev nD) : Gen.V3 m (outs m) c = W3 m c := by
  show StableHlo.after hostOps1 (Gen.V2 m (outs m) c) = W3 m c
  rw [V2_eq]; rfl
theorem V4_eq (c : Dev nD) : Gen.V4 m (outs m) c = W4 m c := by
  show Function.update (Function.update (Gen.V3 m (outs m) c) main_v18_0 (outs m 4 main_v18_0 c)) main_v18_1 (outs m 4 main_v18_1 c) = W4 m c
  rw [outs_4, outs_4, W4_at_main_v18_0, W4_at_main_v18_1, V3_eq]
  rfl
theorem V5_eq (c : Dev nD) : Gen.V5 m (outs m) c = W5 m c := by
  show StableHlo.after hostOps2 (Gen.V4 m (outs m) c) = W5 m c
  rw [V4_eq]; rfl
theorem V6_eq (c : Dev nD) : Gen.V6 m (outs m) c = W6 m c := by
  show Function.update (Function.update (Gen.V5 m (outs m) c) main_v35_0 (outs m 6 main_v35_0 c)) main_v35_1 (outs m 6 main_v35_1 c) = W6 m c
  rw [outs_6, outs_6, W6_at_main_v35_0, W6_at_main_v35_1, V5_eq]
  rfl
theorem V7_eq (c : Dev nD) : Gen.V7 m (outs m) c = W7 m c := by
  show StableHlo.after hostOps3 (Gen.V6 m (outs m) c) = W7 m c
  rw [V6_eq]; rfl
theorem V8_eq (c : Dev nD) : Gen.V8 m (outs m) c = W8 m c := by
  show Function.update (Function.update (Gen.V7 m (outs m) c) main_v52_0 (outs m 8 main_v52_0 c)) main_v52_1 (outs m 8 main_v52_1 c) = W8 m c
  rw [outs_8, outs_8, W8_at_main_v52_0, W8_at_main_v52_1, V7_eq]
  rfl
theorem V9_eq (c : Dev nD) : Gen.V9 m (outs m) c = W9 m c := by
  show StableHlo.after hostOps4 (Gen.V8 m (outs m) c) = W9 m c
  rw [V8_eq]; rfl
theorem V10_eq (c : Dev nD) : Gen.V10 m (outs m) c = W10 m c := by
  show Function.update (Gen.V9 m (outs m) c) main_v69 (outs m 10 main_v69 c) = W10 m c
  rw [outs_10, W10_at_main_v69, V9_eq]
  rfl

/-! ## The proof data, the thread state's rest, the region records -/

/-- Every pipeline's proof data, each at its region's entry contents: a literal match on the pipeline. -/
def pdats : (p : Fin 5) → (c : Dev nD) → Dat τ (Elt F) Unit ℕ (UR sig nD τ) ℕ (Pipeline.pin (pcfgs (F := F)) Gen.adm p) c
  | ⟨0, _⟩ => fun c => dat0 (atRef (W1 m)) c
  | ⟨1, _⟩ => fun c => dat1 (atRef (W3 m)) c
  | ⟨2, _⟩ => fun c => dat2 (atRef (W5 m)) c
  | ⟨3, _⟩ => fun c => dat3 (atRef (W7 m)) c
  | ⟨4, _⟩ => fun c => dat4 (atRef (W9 m)) c

/-- No core owes another anything: no level is assigned. -/
abbrev L0 : GSem nD τ sig → Finset Unit := fun _ => ∅
abbrev lv0 : GSem nD τ sig → Unit → ℕ := fun _ _ => 0
/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)

end Cert.Kernel.Hand

end
-- ==== Proof.Kernel.Reg0.lean ====
/-
  Region 0 of the program as an item over the thread state: entered with every unscoped buffer whole at the chain's contents
  before it, left with them at the contents after it.
-/
import proofs.«135850_j19774029431551_2_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 0 over the thread state: entered with every unscoped buffer whole at `W1`, left with them at `W2`. Its arrays are
    dealt out of the unscoped buffers on entry and put back on exit; the generator register goes into the invariant and comes
    out; nothing is owed; the kernel has no semaphore of its own. -/
def reg0 : Pipeline.RegionSeg (pcfgs (F := F)) Gen.adm (pdats m) () defs₀ Variants.none L0 lv0 0 where
  win := winFacts₀0
  block_pos := block_pos0
  stage_whole := stage_whole0
  K := PEmpty
  osem k := k.elim
  ho := Pipeline.OwnSemFacts.none _
  hbody c := (body_obligation0 (atRef (W1 m)) c).loose
  hwaits := Pipeline.hwaits_of_owed_zero _ _ _ _ L0 lv0 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (atRef (W1 m) c)
  hentry c := by
    rw [Pipeline.ownSems0_none]
    have hsplit := entry0 (atRef (W1 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (atRef (W1 m)) (atRef (W2 m)) c (fun b hb => W2_rest m c b hb)
        (W2_of m c main_v0 (by decide))
        (W2_of m c main_arg1 (by decide))
        (W2_of m c main_arg2 (by decide))
        (W2_at_main_v1_0 m c)
        (W2_at_main_v1_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.Kernel.Reg1.lean ====
/-
  Region 1 of the program as an item over the thread state: entered with every unscoped buffer whole at the chain's contents
  before it, left with them at the contents after it.
-/
import proofs.«135850_j19774029431551_2_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 1 over the thread state: entered with every unscoped buffer whole at `W3`, left with them at `W4`. Its arrays are
    dealt out of the unscoped buffers on entry and put back on exit; the generator register goes into the invariant and comes
    out; nothing is owed; the kernel has no semaphore of its own. -/
def reg1 : Pipeline.RegionSeg (pcfgs (F := F)) Gen.adm (pdats m) () defs₀ Variants.none L0 lv0 1 where
  win := winFacts₀1
  block_pos := block_pos1
  stage_whole := stage_whole1
  K := PEmpty
  osem k := k.elim
  ho := Pipeline.OwnSemFacts.none _
  hbody c := (body_obligation1 (atRef (W3 m)) c).loose
  hwaits := Pipeline.hwaits_of_owed_zero _ _ _ _ L0 lv0 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (atRef (W3 m) c)
  hentry c := by
    rw [Pipeline.ownSems0_none]
    have hsplit := entry1 (atRef (W3 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (atRef (W3 m)) (atRef (W4 m)) c (fun b hb => W4_rest m c b hb)
        (W4_of m c main_v0 (by decide))
        (W4_of m c main_arg1 (by decide))
        (W4_of m c main_arg2 (by decide))
        (W4_of m c main_arg5 (by decide))
        (W4_of m c main_arg6 (by decide))
        (W4_of m c main_v15 (by decide))
        (W4_of m c main_v17 (by decide))
        (W4_at_main_v18_0 m c)
        (W4_at_main_v18_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.Kernel.Reg2.lean ====
/-
  Region 2 of the program as an item over the thread state: entered with every unscoped buffer whole at the chain's contents
  before it, left with them at the contents after it.
-/
import proofs.«135850_j19774029431551_2_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 2 over the thread state: entered with every unscoped buffer whole at `W5`, left with them at `W6`. Its arrays are
    dealt out of the unscoped buffers on entry and put back on exit; the generator register goes into the invariant and comes
    out; nothing is owed; the kernel has no semaphore of its own. -/
def reg2 : Pipeline.RegionSeg (pcfgs (F := F)) Gen.adm (pdats m) () defs₀ Variants.none L0 lv0 2 where
  win := winFacts₀2
  block_pos := block_pos2
  stage_whole := stage_whole2
  K := PEmpty
  osem k := k.elim
  ho := Pipeline.OwnSemFacts.none _
  hbody c := (body_obligation2 (atRef (W5 m)) c).loose
  hwaits := Pipeline.hwaits_of_owed_zero _ _ _ _ L0 lv0 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (atRef (W5 m) c)
  hentry c := by
    rw [Pipeline.ownSems0_none]
    have hsplit := entry2 (atRef (W5 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (atRef (W5 m)) (atRef (W6 m)) c (fun b hb => W6_rest m c b hb)
        (W6_of m c main_v0 (by decide))
        (W6_of m c main_arg1 (by decide))
        (W6_of m c main_arg2 (by decide))
        (W6_of m c main_arg5 (by decide))
        (W6_of m c main_arg6 (by decide))
        (W6_of m c main_arg9 (by decide))
        (W6_of m c main_arg10 (by decide))
        (W6_of m c main_v15 (by decide))
        (W6_of m c main_v17 (by decide))
        (W6_of m c main_v32 (by decide))
        (W6_of m c main_v34 (by decide))
        (W6_at_main_v35_0 m c)
        (W6_at_main_v35_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.Kernel.Reg3.lean ====
/-
  Region 3 of the program as an item over the thread state: entered with every unscoped buffer whole at the chain's contents
  before it, left with them at the contents after it.
-/
import proofs.«135850_j19774029431551_2_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 3 over the thread state: entered with every unscoped buffer whole at `W7`, left with them at `W8`. Its arrays are
    dealt out of the unscoped buffers on entry and put back on exit; the generator register goes into the invariant and comes
    out; nothing is owed; the kernel has no semaphore of its own. -/
def reg3 : Pipeline.RegionSeg (pcfgs (F := F)) Gen.adm (pdats m) () defs₀ Variants.none L0 lv0 3 where
  win := winFacts₀3
  block_pos := block_pos3
  stage_whole := stage_whole3
  K := PEmpty
  osem k := k.elim
  ho := Pipeline.OwnSemFacts.none _
  hbody c := (body_obligation3 (atRef (W7 m)) c).loose
  hwaits := Pipeline.hwaits_of_owed_zero _ _ _ _ L0 lv0 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (atRef (W7 m) c)
  hentry c := by
    rw [Pipeline.ownSems0_none]
    have hsplit := entry3 (atRef (W7 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (atRef (W7 m)) (atRef (W8 m)) c (fun b hb => W8_rest m c b hb)
        (W8_of m c main_v0 (by decide))
        (W8_of m c main_arg1 (by decide))
        (W8_of m c main_arg2 (by decide))
        (W8_of m c main_arg5 (by decide))
        (W8_of m c main_arg6 (by decide))
        (W8_of m c main_arg9 (by decide))
        (W8_of m c main_arg10 (by decide))
        (W8_of m c main_arg13 (by decide))
        (W8_of m c main_arg14 (by decide))
        (W8_of m c main_v15 (by decide))
        (W8_of m c main_v17 (by decide))
        (W8_of m c main_v32 (by decide))
        (W8_of m c main_v34 (by decide))
        (W8_of m c main_v49 (by decide))
        (W8_of m c main_v51 (by decide))
        (W8_at_main_v52_0 m c)
        (W8_at_main_v52_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.Kernel.Reg4.lean ====
/-
  Region 4 of the program as an item over the thread state: entered with every unscoped buffer whole at the chain's contents
  before it, left with them at the contents after it.
-/
import proofs.«135850_j19774029431551_2_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 4 over the thread state: entered with every unscoped buffer whole at `W9`, left with them at `W10`. Its arrays are
    dealt out of the unscoped buffers on entry and put back on exit; the generator register goes into the invariant and comes
    out; nothing is owed; the kernel has no semaphore of its own. -/
def reg4 : Pipeline.RegionSeg (pcfgs (F := F)) Gen.adm (pdats m) () defs₀ Variants.none L0 lv0 4 where
  win := winFacts₀4
  block_pos := block_pos4
  stage_whole := stage_whole4
  K := PEmpty
  osem k := k.elim
  ho := Pipeline.OwnSemFacts.none _
  hbody c := (body_obligation4 (atRef (W9 m)) c).loose
  hwaits := Pipeline.hwaits_of_owed_zero _ _ _ _ L0 lv0 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (atRef (W9 m) c)
  hentry c := by
    rw [Pipeline.ownSems0_none]
    have hsplit := entry4 (atRef (W9 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 (atRef (W9 m)) (atRef (W10 m)) c (fun b hb => W10_rest m c b hb)
        (W10_of m c main_v0 (by decide))
        (W10_of m c main_arg1 (by decide))
        (W10_of m c main_arg2 (by decide))
        (W10_of m c main_arg5 (by decide))
        (W10_of m c main_arg6 (by decide))
        (W10_of m c main_arg9 (by decide))
        (W10_of m c main_arg10 (by decide))
        (W10_of m c main_arg13 (by decide))
        (W10_of m c main_arg14 (by decide))
        (W10_of m c main_arg17 (by decide))
        (W10_of m c main_arg18 (by decide))
        (W10_of m c main_v15 (by decide))
        (W10_of m c main_v17 (by decide))
        (W10_of m c main_v32 (by decide))
        (W10_of m c main_v34 (by decide))
        (W10_of m c main_v49 (by decide))
        (W10_of m c main_v51 (by decide))
        (W10_of m c main_v66 (by decide))
        (W10_of m c main_v68 (by decide))
        (W10_at_main_v69 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.Kernel.Segments.lean ====
/-
  The five region records together.
-/
import proofs.«135850_j19774029431551_2_alg».proof.Proof.Kernel.Reg0
import proofs.«135850_j19774029431551_2_alg».proof.Proof.Kernel.Reg1
import proofs.«135850_j19774029431551_2_alg».proof.Proof.Kernel.Reg2
import proofs.«135850_j19774029431551_2_alg».proof.Proof.Kernel.Reg3
import proofs.«135850_j19774029431551_2_alg».proof.Proof.Kernel.Reg4
-- ==== Proof.Kernel.Frame.lean ====
/-
  The frame claim of the program: from any memory with zero counters every weakly fair execution terminates, nothing
  faults, and every argument array ends as launched. The generated conditional frame is given the five region records; the
  launch hands every core its generator register and its dues (nothing), which ride beside the buffers through every item.
-/
import proofs.«135850_j19774029431551_2_alg».proof.Proof.Kernel.Segments

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch gives a core besides its buffers makes the rest of its thread state. -/
theorem launch_rest (c : Dev nD) :
    iprop(unscopedSems0 c ∗ owes (c : Thread nD τ) ((0 : Dev nD → CellTallies nD τ sig Unit) c) ∅ ∗ Pipeline.launchCred (0 : Dev nD → CellTallies nD τ sig Unit) c
        ∗ prngReg c (ρ c) ∗ (iprop(emp) : sProp 𝕄)) ⊢ (Rst (F := F) c : sProp 𝕄) := by
  iintro ⟨-, HO, -, Hp, -⟩
  isplitl [Hp]; · iexists _; iexact Hp
  iexists ∅; iexact HO

-- the conditional frame's implicit arguments are found by unifying its conclusion with this one
set_option backward.isDefEq.respectTransparency.types false in
set_option maxHeartbeats 1600000 in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      have hmono : (bigSep Finset.univ (fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄))) : sProp 𝕄)
          ⊢ bigSep Finset.univ (fun c : Dev nD => Rst (F := F) c) := bigSep_mono fun c _ => launch_rest (F := F) ρ c
      iintro ⟨H, -⟩
      imodintro
      iapply hmono
      iexact H)
    (fun c => by iintro ⟨-, H⟩; iexact H)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)

end Cert.Kernel.Hand

end
-- ==== Proof.KernelIdeal.Base.lean ====
import Idealize.ShloMosaic.Lib.Pipeline.FrameBody
import Idealize.ShloMosaic.Lib.Pipeline.Value

/-!
  Reading a buffer back through a store of its whole shape.

  A staging buffer of shape `S` that a kernel body overwrites with one value `x` of shape `S` — a store
  through the rectangle at offset zero of the full size — reads back as `x`, whatever it held and whatever
  was stored before; a load through that rectangle of contents that read as `X` is `X`. These are the only
  memory facts the bodies of this certificate's five kernels need: every load and store in them is of a
  whole block.
-/

noncomputable section

namespace Cert.KernelIdeal.Hand

open Idealize.ShloMosaic

/-- The zero offset of a rank-1 shape, however it is spelt. -/
theorem hz1 : (![0] : Fin 1 → ℕ) = fun _ => 0 := by funext a; fin_cases a; rfl
/-- The zero offset of a rank-2 shape. -/
theorem hz2 : (![0, 0] : Fin 2 → ℕ) = fun _ => 0 := by funext a; fin_cases a <;> rfl
/-- The zero offset of a rank-3 shape. -/
theorem hz3 : (![0, 0, 0] : Fin 3 → ℕ) = fun _ => 0 := by funext a; fin_cases a <;> rfl

/-- The LAST store through the whole-shape rectangle at zero offsets reads back as its payload, whatever
    was stored before it and whatever the buffer held. -/
theorem read_writes_cons_unit_zero {sig : RefSig} {κ : Kind} {sp : Space} {S : Shape} {e : EltTy} {Val : EltTy → Type} [∀ e, Nonempty (Val e)]
    (v : View sig κ sp S e) (f : v.ty.Contents Val) {off : Fin S.rank → ℕ} (h : off = fun _ => 0)
    (inb : ∀ a, off a + S.size a ≤ S.size a) (x : S.Idx → Val e) (L : List (View.Piece Val S e)) :
    v.read Val (v.writes Val f (⟨Rect.unit off S.size inb, x⟩ :: L)) = x := by
  subst h; funext y
  have h := View.read_writes_cons_emb v f (Rect.whole S) x L y
  rwa [Rect.emb_whole_apply] at h

/-- A load through the whole-shape rectangle at zero offsets of contents that read as `X` is `X`. -/
theorem readAt_unit_zero {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (X : S.Idx → Val e) (hf : v.read Val f = X) :
    v.readAt Val (Rect.unit off S.size inb).toLoadRect f = X := by
  rw [View.readAt_eq_ld, hf, View.ld_unit_zero (S := S) h]

end Cert.KernelIdeal.Hand

end
-- ==== Proof.KernelIdeal.Run0.lean ====
/-
  The body of the first statistics kernel, run on whole staging buffers.

  At a grid point (i, j) the body holds a row block `x0` and a column block `x1` of the transposed
  features, the first layer's weights `w` and bias `b`, and two accumulators of one value per channel.
  It forms the layer's pre-activation on the 128 × 128 pairs of the tile and adds its sum over the pairs
  (the generated payload `k0_pay4`) to the first accumulator and the sum of its squares (`k0_pay5`) to the
  second. When j = 0 it first sets both accumulators to zero (`k0_pay1`, `k0_pay2`). Both cases are run
  here once, for any float instance; the inputs' buffers come back as they were.
-/
import proofs.«135850_j19774029431551_2_alg».proof.Proof.Gen.KernelIdeal.Launch
import proofs.«135850_j19774029431551_2_alg».proof.Proof.Gen.KernelIdeal.Skeleton
import proofs.«135850_j19774029431551_2_alg».proof.Proof.Gen.KernelIdeal.Points
import Idealize.ShloMosaic.Lib.Pipeline.FrameBody
import Idealize.ShloMosaic.Lib.Ring
import Idealize.ShloMosaic.Lib.Tactic
import proofs.«135850_j19774029431551_2_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset0 (i : grid0.Coords) : Prop :=
  Scalar.cmpi .ne (Scalar.extui (Scalar.cmpi .eq (BitVec.ofNat 32 (i 1).val) 0#32)) 0#32 = 1#1

set_option maxHeartbeats 2000000 in
/-- Away from j = 0 the body adds the tile's channel sums to the accumulators it finds: from accumulators
    `s` and `q` it leaves `k0_pay4 x0 x1 w b s` and `k0_pay5 x0 x1 w b q`. -/
theorem run0_acc (c : Dev nD) (i : grid0.Coords)
    (arg2 : Memref sig .tc .vmem S64x128 .f32) (harg2 : arg2.IsWhole) (arg3 : Memref sig .tc .vmem S64x128 .f32) (harg3 : arg3.IsWhole)
    (arg4 : Memref sig .tc .vmem S16x64 .f32) (harg4 : arg4.IsWhole) (arg5 : Memref sig .tc .vmem S16 .f32) (harg5 : arg5.IsWhole)
    (arg6 : Memref sig .tc .vmem S1x1x16 .f32) (harg6 : arg6.IsWhole) (arg7 : Memref sig .tc .vmem S1x1x16 .f32) (harg7 : arg7.IsWhole)
    (hc : ¬ reset0 i)
    (x0 x1 : Vec F S64x128 .f32) (w : Vec F S16x64 .f32) (b : Vec F S16 .f32) (s q : Vec F S1x1x16 .f32) :
      ∀ (E : Set ℕ) (K : PUnit → sProp 𝕄),
        iprop(owns (c : Thread nD τ) arg2 fullShare x0 ∗ owns (c : Thread nD τ) arg3 fullShare x1
            ∗ owns (c : Thread nD τ) arg4 fullShare w ∗ owns (c : Thread nD τ) arg5 fullShare b
            ∗ owns (c : Thread nD τ) arg6 fullShare s ∗ owns (c : Thread nD τ) arg7 fullShare q
            ∗ (iprop(owns (c : Thread nD τ) arg2 fullShare x0 ∗ owns (c : Thread nD τ) arg3 fullShare x1
                ∗ owns (c : Thread nD τ) arg4 fullShare w ∗ owns (c : Thread nD τ) arg5 fullShare b
                ∗ owns (c : Thread nD τ) arg6 fullShare (k0_pay4 x0 x1 w b s)
                ∗ owns (c : Thread nD τ) arg7 fullShare (k0_pay5 x0 x1 w b q)) -∗ K ⟨⟩))
          ⊢ wp frame (wpE (defs₀ (F := F)) Variants.none c none) E (cc0_kernel i arg2 harg2 arg3 harg3 arg4 harg4 arg5 harg5 arg6 harg6 arg7 harg7) K := by
    intro E K
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w) hz2 inb_S16x64_S16x64_0_0 w hf2
    have e3 := readAt_unit_zero arg5.view (harg5.unread b) hz1 inb_S16_S16_0 b hf3
    have e4 := readAt_unit_zero arg6.view (harg6.unread s) hz3 inb_S1x1x16_S1x1x16_0_0_0 s hf4
    have e5 := readAt_unit_zero arg7.view (harg7.unread q) hz3 inb_S1x1x16_S1x1x16_0_0_0 q hf5
    rw [e0, e1, e2, e3, e4, e5]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      exact read_writes_cons_unit_zero _ _ hz3 _ _ _
    · iexists _; isplitr; swap; · iexact H5
      ipureintro
      exact read_writes_cons_unit_zero _ _ hz3 _ _ _

set_option maxHeartbeats 2000000 in
/-- At j = 0 the body starts the accumulators afresh: whatever they held, it leaves
    `k0_pay4 x0 x1 w b k0_pay1` and `k0_pay5 x0 x1 w b k0_pay2`, the tile's sums added to zeros. -/
theorem run0_reset (c : Dev nD) (i : grid0.Coords)
    (arg2 : Memref sig .tc .vmem S64x128 .f32) (harg2 : arg2.IsWhole) (arg3 : Memref sig .tc .vmem S64x128 .f32) (harg3 : arg3.IsWhole)
    (arg4 : Memref sig .tc .vmem S16x64 .f32) (harg4 : arg4.IsWhole) (arg5 : Memref sig .tc .vmem S16 .f32) (harg5 : arg5.IsWhole)
    (arg6 : Memref sig .tc .vmem S1x1x16 .f32) (harg6 : arg6.IsWhole) (arg7 : Memref sig .tc .vmem S1x1x16 .f32) (harg7 : arg7.IsWhole)
    (hc : reset0 i)
    (x0 x1 : Vec F S64x128 .f32) (w : Vec F S16x64 .f32) (b : Vec F S16 .f32) :
      ∀ (E : Set ℕ) (K : PUnit → sProp 𝕄),
        iprop(owns (c : Thread nD τ) arg2 fullShare x0 ∗ owns (c : Thread nD τ) arg3 fullShare x1
            ∗ owns (c : Thread nD τ) arg4 fullShare w ∗ owns (c : Thread nD τ) arg5 fullShare b
            ∗ (∃ s, owns (c : Thread nD τ) arg6 fullShare s) ∗ (∃ q, owns (c : Thread nD τ) arg7 fullShare q)
            ∗ (iprop(owns (c : Thread nD τ) arg2 fullShare x0 ∗ owns (c : Thread nD τ) arg3 fullShare x1
                ∗ owns (c : Thread nD τ) arg4 fullShare w ∗ owns (c : Thread nD τ) arg5 fullShare b
                ∗ owns (c : Thread nD τ) arg6 fullShare (k0_pay4 x0 x1 w b (k0_pay1 (F := F)))
                ∗ owns (c : Thread nD τ) arg7 fullShare (k0_pay5 x0 x1 w b (k0_pay2 (F := F)))) -∗ K ⟨⟩))
          ⊢ wp frame (wpE (defs₀ (F := F)) Variants.none c none) E (cc0_kernel i arg2 harg2 arg3 harg3 arg4 harg4 arg5 harg5 arg6 harg6 arg7 harg7) K := by
    intro E K
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%s, %f4, %hf4, H4⟩, ⟨%q, %f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w) hz2 inb_S16x64_S16x64_0_0 w hf2
    have e3 := readAt_unit_zero arg5.view (harg5.unread b) hz1 inb_S16_S16_0 b hf3
    rw [e0, e1, e2, e3]
    sl_unfold_run_names
    rw [View.readCov_unit_zero arg6.view hz3, View.readCov_unit_zero arg7.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      exact read_writes_cons_unit_zero _ _ hz3 _ _ _
    · iexists _; isplitr; swap; · iexact H5
      ipureintro
      exact read_writes_cons_unit_zero _ _ hz3 _ _ _

end Cert.KernelIdeal.Hand

end
-- ==== Proof.KernelIdeal.Dat0.lean ====
/-
  The first statistics region: its proof data and the body obligation.

  The region's grid is 12 × 12 tiles (i, j), visited row by row. Windows 0 and 1 stage the row block i and the column
  block j of ONE array, the transposed features; windows 2 and 3 stage the first layer's weights and bias, fetched once;
  windows 4 and 5 are the two per-channel accumulators, one block per row i, zeroed by the body at j = 0, added to at
  every tile of the row, written back after j = 11. What a staging buffer holds after each point is therefore: its block
  for an input, and for an accumulator the running total along the row, defined here by recursion on the position.
-/
import proofs.«135850_j19774029431551_2_alg».proof.Proof.KernelIdeal.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- a core's buffer contents when the region is entered: the parameter everything here is stated at
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: the body only
    reads it, and between two fetches its block index does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: the body only
    reads it, and between two fetches its block index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: the body only
    reads it, and between two fetches its block index does not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: the body only
    reads it, and between two fetches its block index does not move. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The reset test holds exactly at the points whose second coordinate is zero: decided over the grid. -/
theorem hreset0 : ∀ t : Fin cfg0.N, reset0 (grid0.coords t) ↔ t.val % 12 = 0 :=
  (by decide +kernel : ∀ t : Fin grid0.N, reset0 (grid0.coords t) ↔ t.val % 12 = 0)

/-- What output window 4's staging buffer holds after the body at position `n`: the tile's contribution added to zeros
    where a row of tiles begins, and to what position `n - 1` left elsewhere — the running total along the row. -/
def acc0_4 (c : Dev nD) : (n : ℕ) → n < cfg0.N → Vec F S1x1x16 .f32
  | 0, hn => k0_pay4 (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 12 = 0 then k0_pay4 (iblk0 V c 0 ⟨n + 1, hn⟩) (iblk0 V c 1 ⟨n + 1, hn⟩) (iblk0 V c 2 ⟨n + 1, hn⟩) (iblk0 V c 3 ⟨n + 1, hn⟩) (k0_pay1 (F := F))
    else k0_pay4 (iblk0 V c 0 ⟨n + 1, hn⟩) (iblk0 V c 1 ⟨n + 1, hn⟩) (iblk0 V c 2 ⟨n + 1, hn⟩) (iblk0 V c 3 ⟨n + 1, hn⟩) (acc0_4 c n (Nat.lt_of_succ_lt hn))

/-- At the first tile of a row the running total is the tile's contribution added to zeros. -/
theorem acc0_4_reset (c : Dev nD) (t : Fin cfg0.N) (h0 : t.val % 12 = 0) :
    acc0_4 V c t.val t.isLt = k0_pay4 (iblk0 V c 0 t) (iblk0 V c 1 t) (iblk0 V c 2 t) (iblk0 V c 3 t) (k0_pay1 (F := F)) := by
  obtain ⟨n, hn⟩ := t
  cases n with
  | zero => exact rfl
  | succ n => exact (if_pos h0).trans rfl

/-- At a later tile of a row it is the tile's contribution added to the total the tile before left. -/
theorem acc0_4_acc (c : Dev nD) (t : Fin cfg0.N) (h0 : ¬ t.val % 12 = 0) :
    acc0_4 V c t.val t.isLt = k0_pay4 (iblk0 V c 0 t) (iblk0 V c 1 t) (iblk0 V c 2 t) (iblk0 V c 3 t) (acc0_4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 5's staging buffer holds after the body at position `n`: the tile's contribution added to zeros
    where a row of tiles begins, and to what position `n - 1` left elsewhere — the running total along the row. -/
def acc0_5 (c : Dev nD) : (n : ℕ) → n < cfg0.N → Vec F S1x1x16 .f32
  | 0, hn => k0_pay5 (iblk0 V c 0 ⟨0, hn⟩) (iblk0 V c 1 ⟨0, hn⟩) (iblk0 V c 2 ⟨0, hn⟩) (iblk0 V c 3 ⟨0, hn⟩) (k0_pay2 (F := F))
  | n + 1, hn =>
    if (n + 1) % 12 = 0 then k0_pay5 (iblk0 V c 0 ⟨n + 1, hn⟩) (iblk0 V c 1 ⟨n + 1, hn⟩) (iblk0 V c 2 ⟨n + 1, hn⟩) (iblk0 V c 3 ⟨n + 1, hn⟩) (k0_pay2 (F := F))
    else k0_pay5 (iblk0 V c 0 ⟨n + 1, hn⟩) (iblk0 V c 1 ⟨n + 1, hn⟩) (iblk0 V c 2 ⟨n + 1, hn⟩) (iblk0 V c 3 ⟨n + 1, hn⟩) (acc0_5 c n (Nat.lt_of_succ_lt hn))

/-- At the first tile of a row the running total is the tile's contribution added to zeros. -/
theorem acc0_5_reset (c : Dev nD) (t : Fin cfg0.N) (h0 : t.val % 12 = 0) :
    acc0_5 V c t.val t.isLt = k0_pay5 (iblk0 V c 0 t) (iblk0 V c 1 t) (iblk0 V c 2 t) (iblk0 V c 3 t) (k0_pay2 (F := F)) := by
  obtain ⟨n, hn⟩ := t
  cases n with
  | zero => exact rfl
  | succ n => exact (if_pos h0).trans rfl

/-- At a later tile of a row it is the tile's contribution added to the total the tile before left. -/
theorem acc0_5_acc (c : Dev nD) (t : Fin cfg0.N) (h0 : ¬ t.val % 12 = 0) :
    acc0_5 V c t.val t.isLt = k0_pay5 (iblk0 V c 0 t) (iblk0 V c 1 t) (iblk0 V c 2 t) (iblk0 V c 3 t) (acc0_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0_4 V c t.val t.isLt
    | ⟨5, _⟩ => acc0_5 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Away from the first tile of a row, output window 4's staging buffer holds what the tile before left: the point is not
    the first, the buffer was not written back in between (it is written back after the LAST tile of a row), and the
    window is live and uncut. -/
theorem before0_4_acc (c : Dev nD) (t : Fin cfg0.N) (h0 : ¬ t.val % 12 = 0) (d) :
    (dat0 V c).before 4 t d = acc0_4 V c (t.val - 1) (Nat.lt_of_le_of_lt (Nat.sub_le _ _) t.isLt) := by
  have hN : t.val < 144 := lt_of_lt_of_eq t.isLt (show cfg0.N = 144 from N_0)
  rw [Dat.before_out_kept _ 4 rfl t (by omega) (Bool.eq_false_iff.mpr fun h => by have := (flush0_4 _).mp h; dsimp only at this; omega)
    (fun _ => rfl) (fun _ _ => rfl)]
  dsimp only [dat0]

/-- Away from the first tile of a row, output window 5's staging buffer holds what the tile before left: the point is not
    the first, the buffer was not written back in between (it is written back after the LAST tile of a row), and the
    window is live and uncut. -/
theorem before0_5_acc (c : Dev nD) (t : Fin cfg0.N) (h0 : ¬ t.val % 12 = 0) (d) :
    (dat0 V c).before 5 t d = acc0_5 V c (t.val - 1) (Nat.lt_of_le_of_lt (Nat.sub_le _ _) t.isLt) := by
  have hN : t.val < 144 := lt_of_lt_of_eq t.isLt (show cfg0.N = 144 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point `t`: the invariant, the core's dues, and each window's current staging buffer
    at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each window's buffer at the proof data's contents after the point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 12 = 0
  · rw [acc0_4_reset V c t h0, acc0_5_reset V c t h0]
    iintro ⟨HΦ, Ho, ⟨%d0, H0⟩, ⟨%d1, H1⟩, ⟨%d2, H2⟩, ⟨%d3, H3⟩, ⟨%d4, H4⟩, ⟨%d5, H5⟩⟩
    iapply ((run0_reset c (grid0.coords t) _ _ _ _ _ _ _ _ _ _ _ _ ((hreset0 t).mpr h0) (iblk0 V c 0 t) (iblk0 V c 1 t) (iblk0 V c 2 t) (iblk0 V c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before0_4_acc V c t h0, before0_5_acc V c t h0]
    rw [acc0_4_acc V c t h0, acc0_5_acc V c t h0]
    iintro ⟨HΦ, Ho, ⟨%d0, H0⟩, ⟨%d1, H1⟩, ⟨%d2, H2⟩, ⟨%d3, H3⟩, ⟨%d4, H4⟩, ⟨%d5, H5⟩⟩
    iapply ((run0_acc c (grid0.coords t) _ _ _ _ _ _ _ _ _ _ _ _ (fun h => h0 ((hreset0 t).mp h)) (iblk0 V c 0 t) (iblk0 V c 1 t) (iblk0 V c 2 t) (iblk0 V c 3 t) _ _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation for the region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Entry0.lean ====
/-
  Entering and leaving the first statistics region.

  Between two items of the program a core holds every unscoped buffer whole. The region's six windows stage five
  distinct arrays: the row and column windows both read the transposed features. On entry the five buffers are dealt to
  the six windows — the shared array's full share as its two halves, one to each of the two windows on it, every other
  array whole to its one window. On exit the halves are put together again (an input window's array is never changed,
  so both halves still hold the entry contents), the two accumulator arrays come back at what the write-backs left, and
  every buffer no window stages is as it was.
-/
import proofs.«135850_j19774029431551_2_alg».proof.Proof.KernelIdeal.Dat0
import Idealize.ShloMosaic.Lib.Pipeline.Regions
import Idealize.ShloMosaic.Lib.Pipeline.Frame
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the six windows' arrays. -/
theorem image_arr0 : (Finset.univ.image (Pipeline.arrRef spec0) : Finset (Ref sig .tc)) = {main_v0, main_arg1, main_arg2, main_v1_0, main_v1_1} := by decide

/-- Window 0's array, held at the proof data's share, is the buffer `main_v0` held at the left half of the full share. -/
theorem arr0_0 (c : Dev nD) (X : Buf (Elt F) ((cfg0.win 0).arr.view.loc (c.tc : Thread nD τ))) :
    ((cfg0.win 0).arr.view.loc (c.tc : Thread nD τ) ↦[(cfg0.win 0).arr.view.set]{(dat0 V c).share 0} X : sProp 𝕄)
      = ((c.tc : Thread nD τ).loc main_v0 ↦{fullShare.left} X) := by
  rw [(arr_whole0 0).set_eq_univ]; rfl

/-- Window 1's array, held at the proof data's share, is the buffer `main_v0` held at the right half of the full share. -/
theorem arr0_1 (c : Dev nD) (X : Buf (Elt F) ((cfg0.win 1).arr.view.loc (c.tc : Thread nD τ))) :
    ((cfg0.win 1).arr.view.loc (c.tc : Thread nD τ) ↦[(cfg0.win 1).arr.view.set]{(dat0 V c).share 1} X : sProp 𝕄)
      = ((c.tc : Thread nD τ).loc main_v0 ↦{fullShare.right} X) := by
  rw [(arr_whole0 1).set_eq_univ]; rfl

/-- Window 2's array, held at the proof data's share, is the buffer `main_arg1` held at the full share. -/
theorem arr0_2 (c : Dev nD) (X : Buf (Elt F) ((cfg0.win 2).arr.view.loc (c.tc : Thread nD τ))) :
    ((cfg0.win 2).arr.view.loc (c.tc : Thread nD τ) ↦[(cfg0.win 2).arr.view.set]{(dat0 V c).share 2} X : sProp 𝕄)
      = ((c.tc : Thread nD τ).loc main_arg1 ↦{fullShare} X) := by
  rw [(arr_whole0 2).set_eq_univ]; rfl

/-- Window 3's array, held at the proof data's share, is the buffer `main_arg2` held at the full share. -/
theorem arr0_3 (c : Dev nD) (X : Buf (Elt F) ((cfg0.win 3).arr.view.loc (c.tc : Thread nD τ))) :
    ((cfg0.win 3).arr.view.loc (c.tc : Thread nD τ) ↦[(cfg0.win 3).arr.view.set]{(dat0 V c).share 3} X : sProp 𝕄)
      = ((c.tc : Thread nD τ).loc main_arg2 ↦{fullShare} X) := by
  rw [(arr_whole0 3).set_eq_univ]; rfl

/-- Window 4's array, held at the proof data's share, is the buffer `main_v1_0` held at the full share. -/
theorem arr0_4 (c : Dev nD) (X : Buf (Elt F) ((cfg0.win 4).arr.view.loc (c.tc : Thread nD τ))) :
    ((cfg0.win 4).arr.view.loc (c.tc : Thread nD τ) ↦[(cfg0.win 4).arr.view.set]{(dat0 V c).share 4} X : sProp 𝕄)
      = ((c.tc : Thread nD τ).loc main_v1_0 ↦{fullShare} X) := by
  rw [(arr_whole0 4).set_eq_univ]; rfl

/-- Window 5's array, held at the proof data's share, is the buffer `main_v1_1` held at the full share. -/
theorem arr0_5 (c : Dev nD) (X : Buf (Elt F) ((cfg0.win 5).arr.view.loc (c.tc : Thread nD τ))) :
    ((cfg0.win 5).arr.view.loc (c.tc : Thread nD τ) ↦[(cfg0.win 5).arr.view.set]{(dat0 V c).share 5} X : sProp 𝕄)
      = ((c.tc : Thread nD τ).loc main_v1_1 ↦{fullShare} X) := by
  rw [(arr_whole0 5).set_eq_univ]; rfl

/-- Equal factors make equal products. -/
theorem sep_congr {M : Type} [URA M] {P P' Q Q' : sProp M} (h₁ : P = P') (h₂ : Q = Q') : (iprop(P ∗ Q) : sProp M) = iprop(P' ∗ Q') := by
  rw [h₁, h₂]

/-- ENTRY: the five buffers behind the arrays, whole at the entry contents, are the six windows' arrays at the proof
    data's shares and entry contents. -/
theorem hsplit0 (c : Dev nD) :
    (Pipeline.arrBufs (Ix := Unit) (Name := ℕ) (U := UR sig nD τ) (Lvl := ℕ) spec0 c (V c) : sProp 𝕄) ⊢ (dat0 V c).arrays ((dat0 V c).arrAt · 0) := by
  unfold Pipeline.arrBufs Dat.arrays
  rw [image_arr0, bigSep_W0, bigSep_insert (by decide), bigSep_insert (by decide), bigSep_insert (by decide), bigSep_insert (by decide), bigSep_singleton]
  dsimp only
  refine BIBase.Entails.trans ?_ (Entails.of_eq (sep_congr (arr0_0 V c _) (sep_congr (arr0_1 V c _) (sep_congr (arr0_2 V c _)
    (sep_congr (arr0_3 V c _) (sep_congr (arr0_4 V c _) (arr0_5 V c _)))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0) ∗ ((c.tc : Thread nD τ).loc main_arg1 ↦{fullShare} V c main_arg1)
      ∗ ((c.tc : Thread nD τ).loc main_arg2 ↦{fullShare} V c main_arg2) ∗ ((c.tc : Thread nD τ).loc main_v1_0 ↦{fullShare} V c main_v1_0)
      ∗ ((c.tc : Thread nD τ).loc main_v1_1 ↦{fullShare} V c main_v1_1)) : sProp 𝕄) ⊢ _
  iintro ⟨Hv0, Ha1, Ha2, Ho0, Ho1⟩
  ihave Hs := hs $$ Hv0
  icases Hs with ⟨HL, HR⟩
  isplitl [HL]; · iexact HL
  isplitl [HR]; · iexact HR
  isplitl [Ha1]; · iexact Ha1
  isplitl [Ha2]; · iexact Ha2
  isplitl [Ho0]; · iexact Ho0
  iexact Ho1

/-- An input window's array is never changed: at the end it holds the region's entry contents. -/
theorem arrAt0_in0 (c : Dev nD) : (dat0 V c).arrAt 0 cfg0.N = V c main_v0 := (Dat.arrAt_in _ 0 rfl _).trans (A_eq0 V c 0)
theorem arrAt0_in1 (c : Dev nD) : (dat0 V c).arrAt 1 cfg0.N = V c main_v0 := (Dat.arrAt_in _ 1 rfl _).trans (A_eq0 V c 1)
theorem arrAt0_in2 (c : Dev nD) : (dat0 V c).arrAt 2 cfg0.N = V c main_arg1 := (Dat.arrAt_in _ 2 rfl _).trans (A_eq0 V c 2)
theorem arrAt0_in3 (c : Dev nD) : (dat0 V c).arrAt 3 cfg0.N = V c main_arg2 := (Dat.arrAt_in _ 3 rfl _).trans (A_eq0 V c 3)

/-- EXIT: the six windows' arrays at their final contents are the five buffers behind them, whole, at any contents `V'`
    that agree with the entry contents on the three input arrays and with the write-backs' result on the two accumulator
    arrays: the two halves of the shared array, both still at its entry contents, make its full share again. -/
theorem hjoin0 (V' : (c : Dev nD) → (b : Ref sig .tc) → Buf (Elt F) ((c : Thread nD τ).loc b)) (c : Dev nD)
    (h0 : V' c main_v0 = V c main_v0) (h1 : V' c main_arg1 = V c main_arg1) (h2 : V' c main_arg2 = V c main_arg2)
    (h4 : V' c main_v1_0 = (dat0 V c).arrAt 4 cfg0.N) (h5 : V' c main_v1_1 = (dat0 V c).arrAt 5 cfg0.N) :
    (dat0 V c).arrays ((dat0 V c).arrAt · cfg0.N) ⊢ (Pipeline.arrBufs (Ix := Unit) (Name := ℕ) (U := UR sig nD τ) (Lvl := ℕ) spec0 c (V' c) : sProp 𝕄) := by
  unfold Pipeline.arrBufs Dat.arrays
  rw [image_arr0, bigSep_W0, bigSep_insert (by decide), bigSep_insert (by decide), bigSep_insert (by decide), bigSep_insert (by decide), bigSep_singleton]
  dsimp only
  refine BIBase.Entails.trans (Entails.of_eq (sep_congr ((arr0_0 V c _).trans (congrArg (fun X => (((c.tc : Thread nD τ).loc main_v0 ↦{fullShare.left} X) : sProp 𝕄)) (arrAt0_in0 V c)))
    (sep_congr ((arr0_1 V c _).trans (congrArg (fun X => (((c.tc : Thread nD τ).loc main_v0 ↦{fullShare.right} X) : sProp 𝕄)) (arrAt0_in1 V c)))
    (sep_congr ((arr0_2 V c _).trans (congrArg (fun X => (((c.tc : Thread nD τ).loc main_arg1 ↦{fullShare} X) : sProp 𝕄)) (arrAt0_in2 V c)))
    (sep_congr ((arr0_3 V c _).trans (congrArg (fun X => (((c.tc : Thread nD τ).loc main_arg2 ↦{fullShare} X) : sProp 𝕄)) (arrAt0_in3 V c)))
    (sep_congr (arr0_4 V c _) (arr0_5 V c _))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0) ∗ ((c.tc : Thread nD τ).loc main_arg1 ↦{fullShare} V' c main_arg1)
      ∗ ((c.tc : Thread nD τ).loc main_arg2 ↦{fullShare} V' c main_arg2) ∗ ((c.tc : Thread nD τ).loc main_v1_0 ↦{fullShare} V' c main_v1_0)
      ∗ ((c.tc : Thread nD τ).loc main_v1_1 ↦{fullShare} V' c main_v1_1)) : sProp 𝕄)
  rw [h0, h1, h2, h4, h5]
  iintro ⟨HL, HR, Ha1, Ha2, Ho0, Ho1⟩
  isplitl [HL HR]
  · iapply hj; isplitl [HL]; · iexact HL
    iexact HR
  isplitl [Ha1]; · iexact Ha1
  isplitl [Ha2]; · iexact Ha2
  isplitl [Ho0]; · iexact Ho0
  iexact Ho1

/-- ENTRY, whole: a core's unscoped buffers at the entry contents are the region's arrays at the proof data's shares and
    every other unscoped buffer, untouched. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (hsplit0 V c) .rfl

/-- EXIT, whole: the arrays at their final contents and the untouched rest are the core's unscoped buffers at contents `V'`
    that differ from the entry contents only on the two accumulator arrays, which hold what the write-backs left. -/
theorem exit0 (V' : (c : Dev nD) → (b : Ref sig .tc) → Buf (Elt F) ((c : Thread nD τ).loc b)) (c : Dev nD)
    (hrest : ∀ b, b ∉ Finset.univ.image (Pipeline.arrRef spec0) → V' c b = V c b)
    (h0 : V' c main_v0 = V c main_v0) (h1 : V' c main_arg1 = V c main_arg1) (h2 : V' c main_arg2 = V c main_arg2)
    (h4 : V' c main_v1_0 = (dat0 V c).arrAt 4 cfg0.N) (h5 : V' c main_v1_1 = (dat0 V c).arrAt 5 cfg0.N) :
    iprop((dat0 V c).arrays ((dat0 V c).arrAt · cfg0.N) ∗ Pipeline.unscopedRest spec0 c (V c))
      ⊢ (unscopedBufs (Ix := Unit) (Name := ℕ) (U := UR sig nD τ) (Lvl := ℕ) c (V' c) : sProp 𝕄) := by
  rw [Pipeline.unscopedBufs_split₀ cfgs 0 winFacts₀0.arr_unscoped c (V' c)]
  refine sep_mono (hjoin0 V V' c h0 h1 h2 h4 h5) (Entails.of_eq ?_)
  unfold Pipeline.unscopedRest
  exact bigSep_congr fun b hb => by rw [hrest b (Finset.mem_sdiff.mp hb).2]

end

end Cert.KernelIdeal.Hand

end
-- ==== Proof.KernelIdeal.Run1.lean ====
/-
  The body of the second statistics kernel: the first layer's activation (scaled, shifted, leaky) feeds the second layer, whose pre-activation's sum and sum of squares over the tile are added to the two running totals, run on whole staging buffers, once for any float instance; the inputs' buffers come back as they were.
-/
import proofs.«135850_j19774029431551_2_alg».proof.Proof.Gen.KernelIdeal.Launch
import proofs.«135850_j19774029431551_2_alg».proof.Proof.Gen.KernelIdeal.Skeleton
import proofs.«135850_j19774029431551_2_alg».proof.Proof.Gen.KernelIdeal.Points
import Idealize.ShloMosaic.Lib.Pipeline.FrameBody
import Idealize.ShloMosaic.Lib.Ring
import Idealize.ShloMosaic.Lib.Tactic
import proofs.«135850_j19774029431551_2_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset1 (i : grid1.Coords) : Prop :=
  Scalar.cmpi .ne (Scalar.extui (Scalar.cmpi .eq (BitVec.ofNat 32 (i 1).val) 0#32)) 0#32 = 1#1

set_option maxHeartbeats 4000000 in
/-- Away from the first tile of a row the body adds the tile's contribution to the running totals it finds. -/
theorem run1_acc (c : Dev nD) (i : grid1.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x1x16 .f32) (harg10 : arg10.IsWhole) (arg11 : Memref sig .tc .vmem S1x1x16 .f32) (harg11 : arg11.IsWhole)
    (hc : ¬ reset1 i)
    (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) (s : Vec F S1x1x16 .f32) (q : Vec F S1x1x16 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
            ∗ owns (c : Thread nD τ) arg10 fullShare s ∗ owns (c : Thread nD τ) arg11 fullShare q
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
                ∗ owns (c : Thread nD τ) arg10 fullShare (k1_pay2 (k1_pay6 x0 x1 w1 b1 sc1 bi1) (k1_pay7 w2) (constant S16x16384 .f32 0x00000000#32) b2 s)
                ∗ owns (c : Thread nD τ) arg11 fullShare (k1_pay3 (k1_pay6 x0 x1 w1 b1 sc1 bi1) (k1_pay7 w2) (constant S16x16384 .f32 0x00000000#32) b2 q)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    intro E K
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread sc1) hz1 inb_S16_S16_0 sc1 hf6
    have e7 := readAt_unit_zero arg9.view (harg9.unread bi1) hz1 inb_S16_S16_0 bi1 hf7
    have e8 := readAt_unit_zero arg10.view (harg10.unread s) hz3 inb_S1x1x16_S1x1x16_0_0_0 s hf8
    have e9 := readAt_unit_zero arg11.view (harg11.unread q) hz3 inb_S1x1x16_S1x1x16_0_0_0 q hf9
    rw [e0, e1, e2, e3, e4, e5, e6, e7, e8, e9]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      exact read_writes_cons_unit_zero _ _ hz3 _ _ _
    · iexists _; isplitr; swap; · iexact H9
      ipureintro
      exact read_writes_cons_unit_zero _ _ hz3 _ _ _

set_option maxHeartbeats 4000000 in
/-- At the first tile of a row the body starts the running totals afresh, whatever the buffers held: it leaves the tile's contribution added to zeros. -/
theorem run1_reset (c : Dev nD) (i : grid1.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x1x16 .f32) (harg10 : arg10.IsWhole) (arg11 : Memref sig .tc .vmem S1x1x16 .f32) (harg11 : arg11.IsWhole)
    (hc : reset1 i)
    (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
            ∗ (∃ s, owns (c : Thread nD τ) arg10 fullShare s) ∗ (∃ q, owns (c : Thread nD τ) arg11 fullShare q)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare sc1 ∗ owns (c : Thread nD τ) arg9 fullShare bi1
                ∗ owns (c : Thread nD τ) arg10 fullShare (k1_pay2 (k1_pay6 x0 x1 w1 b1 sc1 bi1) (k1_pay7 w2) (constant S16x16384 .f32 0x00000000#32) b2 (k1_pay4 (F := F)))
                ∗ owns (c : Thread nD τ) arg11 fullShare (k1_pay3 (k1_pay6 x0 x1 w1 b1 sc1 bi1) (k1_pay7 w2) (constant S16x16384 .f32 0x00000000#32) b2 (k1_pay5 (F := F)))) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K := by
    intro E K
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%s, %f8, %hf8, H8⟩, ⟨%q, %f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread sc1) hz1 inb_S16_S16_0 sc1 hf6
    have e7 := readAt_unit_zero arg9.view (harg9.unread bi1) hz1 inb_S16_S16_0 bi1 hf7
    rw [e0, e1, e2, e3, e4, e5, e6, e7]
    rw [View.readCov_unit_zero arg10.view hz3, View.readCov_unit_zero arg11.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      exact read_writes_cons_unit_zero _ _ hz3 _ _ _
    · iexists _; isplitr; swap; · iexact H9
      ipureintro
      exact read_writes_cons_unit_zero _ _ hz3 _ _ _

end Cert.KernelIdeal.Hand

end
-- ==== Proof.KernelIdeal.Dat1.lean ====
/-
  The second statistics region: its proof data and the body obligation. The grid is 12 × 12 tiles visited row by row; windows
  0 and 1 stage the row and column blocks of the transposed features, the last two windows are the per-channel accumulators
  (one block per row of tiles: zeroed at the row's first tile, added to at each tile, written back after its last), every
  other window a weight, bias, scale or shift fetched once. After each point an input's buffer holds its block and an
  accumulator's the running total along the row, defined by recursion on the position.
-/
import proofs.«135850_j19774029431551_2_alg».proof.Proof.KernelIdeal.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in output window 8's buffer, from the input blocks and what the buffer held. -/
def val1_8 (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) (s : Vec F S1x1x16 .f32) : Vec F S1x1x16 .f32 :=
  k1_pay2 (k1_pay6 x0 x1 w1 b1 sc1 bi1) (k1_pay7 w2) (constant S16x16384 .f32 0x00000000#32) b2 s

/-- What the body stores in output window 9's buffer, from the input blocks and what the buffer held. -/
def val1_9 (x0 : Vec F S64x128 .f32) (x1 : Vec F S64x128 .f32) (w1 : Vec F S16x64 .f32) (b1 : Vec F S16 .f32) (w2 : Vec F S16x16 .f32) (b2 : Vec F S16 .f32) (sc1 : Vec F S16 .f32) (bi1 : Vec F S16 .f32) (q : Vec F S1x1x16 .f32) : Vec F S1x1x16 .f32 :=
  k1_pay3 (k1_pay6 x0 x1 w1 b1 sc1 bi1) (k1_pay7 w2) (constant S16x16384 .f32 0x00000000#32) b2 q

section Region1

-- a core's buffer contents when the region is entered: the parameter everything here is stated at
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: the body only
    reads it, and between two fetches its block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: the body only
    reads it, and between two fetches its block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: the body only
    reads it, and between two fetches its block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: the body only
    reads it, and between two fetches its block index does not move. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: the body only
    reads it, and between two fetches its block index does not move. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: the body only
    reads it, and between two fetches its block index does not move. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: the body only
    reads it, and between two fetches its block index does not move. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: the body only
    reads it, and between two fetches its block index does not move. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The reset test holds exactly at the points whose second coordinate is zero: decided over the grid. -/
theorem hreset1 : ∀ t : Fin cfg1.N, reset1 (grid1.coords t) ↔ t.val % 12 = 0 :=
  (by decide +kernel : ∀ t : Fin grid1.N, reset1 (grid1.coords t) ↔ t.val % 12 = 0)

/-- What output window 8's staging buffer holds after the body at position `n`: the tile's contribution added to zeros
    where a row of tiles begins, and to what position `n - 1` left elsewhere — the running total along the row. -/
def acc1_8 (c : Dev nD) : (n : ℕ) → n < cfg1.N → Vec F S1x1x16 .f32
  | 0, hn => val1_8 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (k1_pay4 (F := F))
  | n + 1, hn =>
    if (n + 1) % 12 = 0 then val1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (k1_pay4 (F := F))
    else val1_8 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc1_8 c n (Nat.lt_of_succ_lt hn))

/-- At the first tile of a row the running total is the tile's contribution added to zeros. -/
theorem acc1_8_reset (c : Dev nD) (t : Fin cfg1.N) (h0 : t.val % 12 = 0) :
    acc1_8 V c t.val t.isLt = val1_8 (iblk1 V c 0 t) (iblk1 V c 1 t) (iblk1 V c 2 t) (iblk1 V c 3 t) (iblk1 V c 4 t) (iblk1 V c 5 t) (iblk1 V c 6 t) (iblk1 V c 7 t) (k1_pay4 (F := F)) := by
  obtain ⟨n, hn⟩ := t
  cases n with
  | zero => exact rfl
  | succ n => exact (if_pos h0).trans rfl

/-- At a later tile of a row it is the tile's contribution added to the total the tile before left. -/
theorem acc1_8_acc (c : Dev nD) (t : Fin cfg1.N) (h0 : ¬ t.val % 12 = 0) :
    acc1_8 V c t.val t.isLt = val1_8 (iblk1 V c 0 t) (iblk1 V c 1 t) (iblk1 V c 2 t) (iblk1 V c 3 t) (iblk1 V c 4 t) (iblk1 V c 5 t) (iblk1 V c 6 t) (iblk1 V c 7 t) (acc1_8 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 9's staging buffer holds after the body at position `n`: the tile's contribution added to zeros
    where a row of tiles begins, and to what position `n - 1` left elsewhere — the running total along the row. -/
def acc1_9 (c : Dev nD) : (n : ℕ) → n < cfg1.N → Vec F S1x1x16 .f32
  | 0, hn => val1_9 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (k1_pay5 (F := F))
  | n + 1, hn =>
    if (n + 1) % 12 = 0 then val1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (k1_pay5 (F := F))
    else val1_9 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc1_9 c n (Nat.lt_of_succ_lt hn))

/-- At the first tile of a row the running total is the tile's contribution added to zeros. -/
theorem acc1_9_reset (c : Dev nD) (t : Fin cfg1.N) (h0 : t.val % 12 = 0) :
    acc1_9 V c t.val t.isLt = val1_9 (iblk1 V c 0 t) (iblk1 V c 1 t) (iblk1 V c 2 t) (iblk1 V c 3 t) (iblk1 V c 4 t) (iblk1 V c 5 t) (iblk1 V c 6 t) (iblk1 V c 7 t) (k1_pay5 (F := F)) := by
  obtain ⟨n, hn⟩ := t
  cases n with
  | zero => exact rfl
  | succ n => exact (if_pos h0).trans rfl

/-- At a later tile of a row it is the tile's contribution added to the total the tile before left. -/
theorem acc1_9_acc (c : Dev nD) (t : Fin cfg1.N) (h0 : ¬ t.val % 12 = 0) :
    acc1_9 V c t.val t.isLt = val1_9 (iblk1 V c 0 t) (iblk1 V c 1 t) (iblk1 V c 2 t) (iblk1 V c 3 t) (iblk1 V c 4 t) (iblk1 V c 5 t) (iblk1 V c 6 t) (iblk1 V c 7 t) (acc1_9 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => acc1_8 V c t.val t.isLt
    | ⟨9, _⟩ => acc1_9 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = acc1_8 V c t.val t.isLt := by dsimp only [dat1]
theorem after1_9 (c : Dev nD) (t : Fin cfg1.N) : (dat1 V c).after 9 t = acc1_9 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- Away from the first tile of a row, output window 8's staging buffer holds what the tile before left: the point is not
    the first, the buffer was not written back in between (it is written back after the LAST tile of a row), and the
    window is live and uncut. -/
theorem before1_8_acc (c : Dev nD) (t : Fin cfg1.N) (h0 : ¬ t.val % 12 = 0) (d) :
    (dat1 V c).before 8 t d = acc1_8 V c (t.val - 1) (Nat.lt_of_le_of_lt (Nat.sub_le _ _) t.isLt) := by
  have hN : t.val < 144 := lt_of_lt_of_eq t.isLt (show cfg1.N = 144 from N_1)
  rw [Dat.before_out_kept _ 8 rfl t (by omega) (Bool.eq_false_iff.mpr fun h => by have := (flush1_8 _).mp h; dsimp only at this; omega)
    (fun _ => rfl) (fun _ _ => rfl)]
  dsimp only [dat1]

/-- Away from the first tile of a row, output window 9's staging buffer holds what the tile before left: the point is not
    the first, the buffer was not written back in between (it is written back after the LAST tile of a row), and the
    window is live and uncut. -/
theorem before1_9_acc (c : Dev nD) (t : Fin cfg1.N) (h0 : ¬ t.val % 12 = 0) (d) :
    (dat1 V c).before 9 t d = acc1_9 V c (t.val - 1) (Nat.lt_of_le_of_lt (Nat.sub_le _ _) t.isLt) := by
  have hN : t.val < 144 := lt_of_lt_of_eq t.isLt (show cfg1.N = 144 from N_1)
  rw [Dat.before_out_kept _ 9 rfl t (by omega) (Bool.eq_false_iff.mpr fun h => by have := (flush1_9 _).mp h; dsimp only at this; omega)
    (fun _ => rfl) (fun _ _ => rfl)]
  dsimp only [dat1]

/-- What the body is called with at point `t`: the invariant, the core's dues, and each window's current staging buffer
    at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: each window's buffer at the proof data's contents after the point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  by_cases h0 : t.val % 12 = 0
  · rw [acc1_8_reset V c t h0, acc1_9_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1_reset c (grid1.coords t) _ _ _ _ _ _ _ _ _ _ _ _ _ _ _ _ _ _ _ _ ((hreset1 t).mpr h0) (iblk1 V c 0 t) (iblk1 V c 1 t) (iblk1 V c 2 t) (iblk1 V c 3 t) (iblk1 V c 4 t) (iblk1 V c 5 t) (iblk1 V c 6 t) (iblk1 V c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before1_8_acc V c t h0, before1_9_acc V c t h0]
    rw [acc1_8_acc V c t h0, acc1_9_acc V c t h0]
    unfold val1_8 val1_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run1_acc c (grid1.coords t) _ _ _ _ _ _ _ _ _ _ _ _ _ _ _ _ _ _ _ _ (fun h => h0 ((hreset1 t).mp h)) (iblk1 V c 0 t) (iblk1 V c 1 t) (iblk1 V c 2 t) (iblk1 V c 3 t) (iblk1 V c 4 t) (iblk1 V c 5 t) (iblk1 V c 6 t) (iblk1 V c 7 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation for the region, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Entry1.lean ====
/-
  Entering and leaving region 1: the distinct arrays behind its windows dealt to the windows on entry — the transposed
  features, which the row and column windows both stage, as the two halves of its full share — and put together again on
  exit, the output arrays at what the write-backs left, every buffer no window stages as it was.
-/
import proofs.«135850_j19774029431551_2_alg».proof.Proof.KernelIdeal.Dat1
import proofs.«135850_j19774029431551_2_alg».proof.Proof.KernelIdeal.Entry0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr1 : (Finset.univ.image (Pipeline.arrRef spec1) : Finset (Ref sig .tc)) = {main_v0, main_arg1, main_arg2, main_arg5, main_arg6, main_v15, main_v17, main_v18_0, main_v18_1} := by decide

theorem arr1_0 (c : Dev nD) (X : Buf (Elt F) ((cfg1.win 0).arr.view.loc (c.tc : Thread nD τ))) :
    ((cfg1.win 0).arr.view.loc (c.tc : Thread nD τ) ↦[(cfg1.win 0).arr.view.set]{(dat1 V c).share 0} X : sProp 𝕄)
      = ((c.tc : Thread nD τ).loc main_v0 ↦{fullShare.left} X) := by
  rw [(arr_whole1 0).set_eq_univ]; rfl
theorem arr1_1 (c : Dev nD) (X : Buf (Elt F) ((cfg1.win 1).arr.view.loc (c.tc : Thread nD τ))) :
    ((cfg1.win 1).arr.view.loc (c.tc : Thread nD τ) ↦[(cfg1.win 1).arr.view.set]{(dat1 V c).share 1} X : sProp 𝕄)
      = ((c.tc : Thread nD τ).loc main_v0 ↦{fullShare.right} X) := by
  rw [(arr_whole1 1).set_eq_univ]; rfl
theorem arr1_2 (c : Dev nD) (X : Buf (Elt F) ((cfg1.win 2).arr.view.loc (c.tc : Thread nD τ))) :
    ((cfg1.win 2).arr.view.loc (c.tc : Thread nD τ) ↦[(cfg1.win 2).arr.view.set]{(dat1 V c).share 2} X : sProp 𝕄)
      = ((c.tc : Thread nD τ).loc main_arg1 ↦{fullShare} X) := by
  rw [(arr_whole1 2).set_eq_univ]; rfl
theorem arr1_3 (c : Dev nD) (X : Buf (Elt F) ((cfg1.win 3).arr.view.loc (c.tc : Thread nD τ))) :
    ((cfg1.win 3).arr.view.loc (c.tc : Thread nD τ) ↦[(cfg1.win 3).arr.view.set]{(dat1 V c).share 3} X : sProp 𝕄)
      = ((c.tc : Thread nD τ).loc main_arg2 ↦{fullShare} X) := by
  rw [(arr_whole1 3).set_eq_univ]; rfl
theorem arr1_4 (c : Dev nD) (X : Buf (Elt F) ((cfg1.win 4).arr.view.loc (c.tc : Thread nD τ))) :
    ((cfg1.win 4).arr.view.loc (c.tc : Thread nD τ) ↦[(cfg1.win 4).arr.view.set]{(dat1 V c).share 4} X : sProp 𝕄)
      = ((c.tc : Thread nD τ).loc main_arg5 ↦{fullShare} X) := by
  rw [(arr_whole1 4).set_eq_univ]; rfl
theorem arr1_5 (c : Dev nD) (X : Buf (Elt F) ((cfg1.win 5).arr.view.loc (c.tc : Thread nD τ))) :
    ((cfg1.win 5).arr.view.loc (c.tc : Thread nD τ) ↦[(cfg1.win 5).arr.view.set]{(dat1 V c).share 5} X : sProp 𝕄)
      = ((c.tc : Thread nD τ).loc main_arg6 ↦{fullShare} X) := by
  rw [(arr_whole1 5).set_eq_univ]; rfl
theorem arr1_6 (c : Dev nD) (X : Buf (Elt F) ((cfg1.win 6).arr.view.loc (c.tc : Thread nD τ))) :
    ((cfg1.win 6).arr.view.loc (c.tc : Thread nD τ) ↦[(cfg1.win 6).arr.view.set]{(dat1 V c).share 6} X : sProp 𝕄)
      = ((c.tc : Thread nD τ).loc main_v15 ↦{fullShare} X) := by
  rw [(arr_whole1 6).set_eq_univ]; rfl
theorem arr1_7 (c : Dev nD) (X : Buf (Elt F) ((cfg1.win 7).arr.view.loc (c.tc : Thread nD τ))) :
    ((cfg1.win 7).arr.view.loc (c.tc : Thread nD τ) ↦[(cfg1.win 7).arr.view.set]{(dat1 V c).share 7} X : sProp 𝕄)
      = ((c.tc : Thread nD τ).loc main_v17 ↦{fullShare} X) := by
  rw [(arr_whole1 7).set_eq_univ]; rfl
theorem arr1_8 (c : Dev nD) (X : Buf (Elt F) ((cfg1.win 8).arr.view.loc (c.tc : Thread nD τ))) :
    ((cfg1.win 8).arr.view.loc (c.tc : Thread nD τ) ↦[(cfg1.win 8).arr.view.set]{(dat1 V c).share 8} X : sProp 𝕄)
      = ((c.tc : Thread nD τ).loc main_v18_0 ↦{fullShare} X) := by
  rw [(arr_whole1 8).set_eq_univ]; rfl
theorem arr1_9 (c : Dev nD) (X : Buf (Elt F) ((cfg1.win 9).arr.view.loc (c.tc : Thread nD τ))) :
    ((cfg1.win 9).arr.view.loc (c.tc : Thread nD τ) ↦[(cfg1.win 9).arr.view.set]{(dat1 V c).share 9} X : sProp 𝕄)
      = ((c.tc : Thread nD τ).loc main_v18_1 ↦{fullShare} X) := by
  rw [(arr_whole1 9).set_eq_univ]; rfl

set_option maxHeartbeats 8000000 in
/-- ENTRY: the distinct buffers behind the arrays, whole at the entry contents, are the windows' arrays at the proof data's
    shares and entry contents: the shared array's full share is dealt as its two halves. -/
theorem hsplit1 (c : Dev nD) :
    (Pipeline.arrBufs (Ix := Unit) (Name := ℕ) (U := UR sig nD τ) (Lvl := ℕ) spec1 c (V c) : sProp 𝕄) ⊢ (dat1 V c).arrays ((dat1 V c).arrAt · 0) := by
  unfold Pipeline.arrBufs Dat.arrays
  rw [image_arr1, bigSep_W1, bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr1_0 V c _)
      (sep_congr (arr1_1 V c _)
      (sep_congr (arr1_2 V c _)
      (sep_congr (arr1_3 V c _)
      (sep_congr (arr1_4 V c _)
      (sep_congr (arr1_5 V c _)
      (sep_congr (arr1_6 V c _)
      (sep_congr (arr1_7 V c _)
      (sep_congr (arr1_8 V c _)
      (arr1_9 V c _)))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_v15 ↦{fullShare} V c main_v15)
      ∗ ((c.tc : Thread nD τ).loc main_v17 ↦{fullShare} V c main_v17)
      ∗ ((c.tc : Thread nD τ).loc main_v18_0 ↦{fullShare} V c main_v18_0)
      ∗ ((c.tc : Thread nD τ).loc main_v18_1 ↦{fullShare} V c main_v18_1)) : sProp 𝕄) ⊢ _
  iintro ⟨G0, G1, G2, G3, G4, G5, G6, G7, G8⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

theorem arrAt1_in0 (c : Dev nD) : (dat1 V c).arrAt 0 cfg1.N = V c main_v0 := (Dat.arrAt_in _ 0 rfl _).trans (A_eq1 V c 0)
theorem arrAt1_in1 (c : Dev nD) : (dat1 V c).arrAt 1 cfg1.N = V c main_v0 := (Dat.arrAt_in _ 1 rfl _).trans (A_eq1 V c 1)
theorem arrAt1_in2 (c : Dev nD) : (dat1 V c).arrAt 2 cfg1.N = V c main_arg1 := (Dat.arrAt_in _ 2 rfl _).trans (A_eq1 V c 2)
theorem arrAt1_in3 (c : Dev nD) : (dat1 V c).arrAt 3 cfg1.N = V c main_arg2 := (Dat.arrAt_in _ 3 rfl _).trans (A_eq1 V c 3)
theorem arrAt1_in4 (c : Dev nD) : (dat1 V c).arrAt 4 cfg1.N = V c main_arg5 := (Dat.arrAt_in _ 4 rfl _).trans (A_eq1 V c 4)
theorem arrAt1_in5 (c : Dev nD) : (dat1 V c).arrAt 5 cfg1.N = V c main_arg6 := (Dat.arrAt_in _ 5 rfl _).trans (A_eq1 V c 5)
theorem arrAt1_in6 (c : Dev nD) : (dat1 V c).arrAt 6 cfg1.N = V c main_v15 := (Dat.arrAt_in _ 6 rfl _).trans (A_eq1 V c 6)
theorem arrAt1_in7 (c : Dev nD) : (dat1 V c).arrAt 7 cfg1.N = V c main_v17 := (Dat.arrAt_in _ 7 rfl _).trans (A_eq1 V c 7)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin1 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_v15 = V c main_v15) (hi6 : V' c main_v17 = V c main_v17) (ho0 : V' c main_v18_0 = (dat1 V c).arrAt 8 cfg1.N) (ho1 : V' c main_v18_1 = (dat1 V c).arrAt 9 cfg1.N) :
    (dat1 V c).arrays ((dat1 V c).arrAt · cfg1.N) ⊢ (Pipeline.arrBufs (Ix := Unit) (Name := ℕ) (U := UR sig nD τ) (Lvl := ℕ) spec1 c (V' c) : sProp 𝕄) := by
  unfold Pipeline.arrBufs Dat.arrays
  rw [image_arr1, bigSep_W1, bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr1_0 V c _).trans (congrArg (fun X => (((c.tc : Thread nD τ).loc main_v0 ↦{fullShare.left} X) : sProp 𝕄)) (arrAt1_in0 V c)))
      (sep_congr ((arr1_1 V c _).trans (congrArg (fun X => (((c.tc : Thread nD τ).loc main_v0 ↦{fullShare.right} X) : sProp 𝕄)) (arrAt1_in1 V c)))
      (sep_congr ((arr1_2 V c _).trans (congrArg (fun X => (((c.tc : Thread nD τ).loc main_arg1 ↦{fullShare} X) : sProp 𝕄)) (arrAt1_in2 V c)))
      (sep_congr ((arr1_3 V c _).trans (congrArg (fun X => (((c.tc : Thread nD τ).loc main_arg2 ↦{fullShare} X) : sProp 𝕄)) (arrAt1_in3 V c)))
      (sep_congr ((arr1_4 V c _).trans (congrArg (fun X => (((c.tc : Thread nD τ).loc main_arg5 ↦{fullShare} X) : sProp 𝕄)) (arrAt1_in4 V c)))
      (sep_congr ((arr1_5 V c _).trans (congrArg (fun X => (((c.tc : Thread nD τ).loc main_arg6 ↦{fullShare} X) : sProp 𝕄)) (arrAt1_in5 V c)))
      (sep_congr ((arr1_6 V c _).trans (congrArg (fun X => (((c.tc : Thread nD τ).loc main_v15 ↦{fullShare} X) : sProp 𝕄)) (arrAt1_in6 V c)))
      (sep_congr ((arr1_7 V c _).trans (congrArg (fun X => (((c.tc : Thread nD τ).loc main_v17 ↦{fullShare} X) : sProp 𝕄)) (arrAt1_in7 V c)))
      (sep_congr (arr1_8 V c _)
      (arr1_9 V c _))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_v15 ↦{fullShare} V' c main_v15)
      ∗ ((c.tc : Thread nD τ).loc main_v17 ↦{fullShare} V' c main_v17)
      ∗ ((c.tc : Thread nD τ).loc main_v18_0 ↦{fullShare} V' c main_v18_0)
      ∗ ((c.tc : Thread nD τ).loc main_v18_1 ↦{fullShare} V' c main_v18_1)) : sProp 𝕄)
  rw [hi0, hi1, hi2, hi3, hi4, hi5, hi6, ho0, ho1]
  iintro ⟨A0, A1, A2, A3, A4, A5, A6, A7, A8, A9⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

/-- ENTRY, whole: a core's unscoped buffers at the entry contents are the region's arrays at the proof data's shares and every
    other unscoped buffer, untouched. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (hsplit1 V c) .rfl

/-- EXIT, whole: the arrays at their final contents and the untouched rest are the core's unscoped buffers at contents that
    differ from the entry contents only on the output arrays, which hold what the write-backs left. -/
theorem exit1 (V' : (c : Dev nD) → (b : Ref sig .tc) → Buf (Elt F) ((c : Thread nD τ).loc b)) (c : Dev nD)
    (hrest : ∀ b, b ∉ Finset.univ.image (Pipeline.arrRef spec1) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_v15 = V c main_v15) (hi6 : V' c main_v17 = V c main_v17) (ho0 : V' c main_v18_0 = (dat1 V c).arrAt 8 cfg1.N) (ho1 : V' c main_v18_1 = (dat1 V c).arrAt 9 cfg1.N) :
    iprop((dat1 V c).arrays ((dat1 V c).arrAt · cfg1.N) ∗ Pipeline.unscopedRest spec1 c (V c))
      ⊢ (unscopedBufs (Ix := Unit) (Name := ℕ) (U := UR sig nD τ) (Lvl := ℕ) c (V' c) : sProp 𝕄) := by
  rw [Pipeline.unscopedBufs_split₀ cfgs 1 winFacts₀1.arr_unscoped c (V' c)]
  refine sep_mono (hjoin1 V V' c hi0 hi1 hi2 hi3 hi4 hi5 hi6 ho0 ho1) (Entails.of_eq ?_)
  unfold Pipeline.unscopedRest
  exact bigSep_congr fun b hb => by rw [hrest b (Finset.mem_sdiff.mp hb).2]

end

end Cert.KernelIdeal.Hand

end
-- ==== Proof.KernelIdeal.Run2.lean ====
/-
  The body of the third statistics kernel: two activated layers feed the third layer, whose pre-activation's sums over the tile are added to the running totals, run on whole staging buffers, once for any float instance; the inputs' buffers come back as they were.
-/
import proofs.«135850_j19774029431551_2_alg».proof.Proof.Gen.KernelIdeal.Launch
import proofs.«135850_j19774029431551_2_alg».proof.Proof.Gen.KernelIdeal.Skeleton
import proofs.«135850_j19774029431551_2_alg».proof.Proof.Gen.KernelIdeal.Points
import Idealize.ShloMosaic.Lib.Pipeline.FrameBody
import Idealize.ShloMosaic.Lib.Ring
import Idealize.ShloMosaic.Lib.Tactic
import proofs.«135850_j19774029431551_2_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset2 (i : grid2.Coords) : Prop :=
  Scalar.cmpi .ne (Scalar.extui (Scalar.cmpi .eq (BitVec.ofNat 32 (i 1).val) 0#32)) 0#32 = 1#1

set_option maxHeartbeats 4000000 in
/-- Away from the first tile of a row the body adds the tile's contribution to the running totals it finds. -/
theorem run2_acc (c : Dev nD) (i : grid2.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S16 .f32) (harg10 : arg10.IsWhole) (arg11 : Memref sig .tc .vmem S16 .f32) (harg11 : arg11.IsWhole) (arg12 : Memref sig .tc .vmem S16 .f32) (harg12 : arg12.IsWhole) (arg13 : Memref sig .tc .vmem S16 .f32) (harg13 : arg13.IsWhole) (arg14 : Memref sig .tc .vmem S1x1x8 .f32) (harg14 : arg14.IsWhole) (arg15 : Memref sig .tc .vmem S1x1x8 .f32) (harg15 : arg15.IsWhole)
    (hc : ¬ reset2 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) (s : Vec F S1x1x8 .f32) (q : Vec F S1x1x8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
            ∗ owns (c : Thread nD τ) arg14 fullShare s ∗ owns (c : Thread nD τ) arg15 fullShare q
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
                ∗ owns (c : Thread nD τ) arg14 fullShare (k2_pay7 (k2_pay4 x0 x1 w1 b1 sc1 bi1) (k2_pay5 w2) (constant S16x16384 .f32 0x00000000#32) b2 sc2 bi2 w3 b3 s)
                ∗ owns (c : Thread nD τ) arg15 fullShare (k2_pay1 (k2_pay8 q) (k2_pay9 (k2_pay4 x0 x1 w1 b1 sc1 bi1) (k2_pay5 w2) (constant S16x16384 .f32 0x00000000#32) b2 sc2 bi2 w3 b3))) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc2_kernel_eq_skeleton]; unfold cc2_kernel_skel
    simp only [k2_part1_eq_skeleton]; unfold k2_part1_skel
    simp only [k2_part2_eq_skeleton]; unfold k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread sc1) hz1 inb_S16_S16_0 sc1 hf8
    have e9 := readAt_unit_zero arg11.view (harg11.unread bi1) hz1 inb_S16_S16_0 bi1 hf9
    have e10 := readAt_unit_zero arg12.view (harg12.unread sc2) hz1 inb_S16_S16_0 sc2 hf10
    have e11 := readAt_unit_zero arg13.view (harg13.unread bi2) hz1 inb_S16_S16_0 bi2 hf11
    have e12 := readAt_unit_zero arg14.view (harg14.unread s) hz3 inb_S1x1x8_S1x1x8_0_0_0 s hf12
    have e13 := readAt_unit_zero arg15.view (harg15.unread q) hz3 inb_S1x1x8_S1x1x8_0_0_0 q hf13
    rw [e0, e1, e2, e3, e4, e5, e6, e7, e8, e9, e10, e11, e12, e13]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; swap; · iexact H12
      ipureintro
      exact read_writes_cons_unit_zero _ _ hz3 _ _ _
    · iexists _; isplitr; swap; · iexact H13
      ipureintro
      exact read_writes_cons_unit_zero _ _ hz3 _ _ _

set_option maxHeartbeats 4000000 in
/-- At the first tile of a row the body starts the running totals afresh, whatever the buffers held: it leaves the tile's contribution added to zeros. -/
theorem run2_reset (c : Dev nD) (i : grid2.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S16 .f32) (harg10 : arg10.IsWhole) (arg11 : Memref sig .tc .vmem S16 .f32) (harg11 : arg11.IsWhole) (arg12 : Memref sig .tc .vmem S16 .f32) (harg12 : arg12.IsWhole) (arg13 : Memref sig .tc .vmem S16 .f32) (harg13 : arg13.IsWhole) (arg14 : Memref sig .tc .vmem S1x1x8 .f32) (harg14 : arg14.IsWhole) (arg15 : Memref sig .tc .vmem S1x1x8 .f32) (harg15 : arg15.IsWhole)
    (hc : reset2 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
            ∗ (∃ s, owns (c : Thread nD τ) arg14 fullShare s) ∗ (∃ q, owns (c : Thread nD τ) arg15 fullShare q)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare sc1 ∗ owns (c : Thread nD τ) arg11 fullShare bi1 ∗ owns (c : Thread nD τ) arg12 fullShare sc2 ∗ owns (c : Thread nD τ) arg13 fullShare bi2
                ∗ owns (c : Thread nD τ) arg14 fullShare (k2_pay7 (k2_pay4 x0 x1 w1 b1 sc1 bi1) (k2_pay5 w2) (constant S16x16384 .f32 0x00000000#32) b2 sc2 bi2 w3 b3 (k2_pay2 (F := F)))
                ∗ owns (c : Thread nD τ) arg15 fullShare (k2_pay1 (k2_pay8 (k2_pay3 (F := F))) (k2_pay9 (k2_pay4 x0 x1 w1 b1 sc1 bi1) (k2_pay5 w2) (constant S16x16384 .f32 0x00000000#32) b2 sc2 bi2 w3 b3))) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc2_kernel_eq_skeleton]; unfold cc2_kernel_skel
    simp only [k2_part1_eq_skeleton]; unfold k2_part1_skel
    simp only [k2_part2_eq_skeleton]; unfold k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%s, %f12, %hf12, H12⟩, ⟨%q, %f13, %hf13, H13⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread sc1) hz1 inb_S16_S16_0 sc1 hf8
    have e9 := readAt_unit_zero arg11.view (harg11.unread bi1) hz1 inb_S16_S16_0 bi1 hf9
    have e10 := readAt_unit_zero arg12.view (harg12.unread sc2) hz1 inb_S16_S16_0 sc2 hf10
    have e11 := readAt_unit_zero arg13.view (harg13.unread bi2) hz1 inb_S16_S16_0 bi2 hf11
    rw [e0, e1, e2, e3, e4, e5, e6, e7, e8, e9, e10, e11]
    rw [View.readCov_unit_zero arg14.view hz3, View.readCov_unit_zero arg15.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; swap; · iexact H12
      ipureintro
      exact read_writes_cons_unit_zero _ _ hz3 _ _ _
    · iexists _; isplitr; swap; · iexact H13
      ipureintro
      exact read_writes_cons_unit_zero _ _ hz3 _ _ _

end Cert.KernelIdeal.Hand

end
-- ==== Proof.KernelIdeal.Dat2.lean ====
/-
  The third statistics region: its proof data and the body obligation. The grid is 12 × 12 tiles visited row by row; windows
  0 and 1 stage the row and column blocks of the transposed features, the last two windows are the per-channel accumulators
  (one block per row of tiles: zeroed at the row's first tile, added to at each tile, written back after its last), every
  other window a weight, bias, scale or shift fetched once. After each point an input's buffer holds its block and an
  accumulator's the running total along the row, defined by recursion on the position.
-/
import proofs.«135850_j19774029431551_2_alg».proof.Proof.KernelIdeal.Run2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in output window 12's buffer, from the input blocks and what the buffer held. -/
def val2_12 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) (s : Vec F S1x1x8 .f32) : Vec F S1x1x8 .f32 :=
  k2_pay7 (k2_pay4 x0 x1 w1 b1 sc1 bi1) (k2_pay5 w2) (constant S16x16384 .f32 0x00000000#32) b2 sc2 bi2 w3 b3 s

/-- What the body stores in output window 13's buffer, from the input blocks and what the buffer held. -/
def val2_13 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (sc1 : Vec F S16 .f32) (bi1 : Vec F S16 .f32) (sc2 : Vec F S16 .f32) (bi2 : Vec F S16 .f32) (q : Vec F S1x1x8 .f32) : Vec F S1x1x8 .f32 :=
  k2_pay1 (k2_pay8 q) (k2_pay9 (k2_pay4 x0 x1 w1 b1 sc1 bi1) (k2_pay5 w2) (constant S16x16384 .f32 0x00000000#32) b2 sc2 bi2 w3 b3)

section Region2

-- a core's buffer contents when the region is entered: the parameter everything here is stated at
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: the body only
    reads it, and between two fetches its block index does not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: the body only
    reads it, and between two fetches its block index does not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: the body only
    reads it, and between two fetches its block index does not move. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: the body only
    reads it, and between two fetches its block index does not move. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: the body only
    reads it, and between two fetches its block index does not move. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: the body only
    reads it, and between two fetches its block index does not move. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: the body only
    reads it, and between two fetches its block index does not move. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: the body only
    reads it, and between two fetches its block index does not move. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not: the body only
    reads it, and between two fetches its block index does not move. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not: the body only
    reads it, and between two fetches its block index does not move. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, fetched there or not: the body only
    reads it, and between two fetches its block index does not move. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, fetched there or not: the body only
    reads it, and between two fetches its block index does not move. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- The reset test holds exactly at the points whose second coordinate is zero: decided over the grid. -/
theorem hreset2 : ∀ t : Fin cfg2.N, reset2 (grid2.coords t) ↔ t.val % 12 = 0 :=
  (by decide +kernel : ∀ t : Fin grid2.N, reset2 (grid2.coords t) ↔ t.val % 12 = 0)

/-- What output window 12's staging buffer holds after the body at position `n`: the tile's contribution added to zeros
    where a row of tiles begins, and to what position `n - 1` left elsewhere — the running total along the row. -/
def acc2_12 (c : Dev nD) : (n : ℕ) → n < cfg2.N → Vec F S1x1x8 .f32
  | 0, hn => val2_12 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (k2_pay2 (F := F))
  | n + 1, hn =>
    if (n + 1) % 12 = 0 then val2_12 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (k2_pay2 (F := F))
    else val2_12 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (acc2_12 c n (Nat.lt_of_succ_lt hn))

/-- At the first tile of a row the running total is the tile's contribution added to zeros. -/
theorem acc2_12_reset (c : Dev nD) (t : Fin cfg2.N) (h0 : t.val % 12 = 0) :
    acc2_12 V c t.val t.isLt = val2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (k2_pay2 (F := F)) := by
  obtain ⟨n, hn⟩ := t
  cases n with
  | zero => exact rfl
  | succ n => exact (if_pos h0).trans rfl

/-- At a later tile of a row it is the tile's contribution added to the total the tile before left. -/
theorem acc2_12_acc (c : Dev nD) (t : Fin cfg2.N) (h0 : ¬ t.val % 12 = 0) :
    acc2_12 V c t.val t.isLt = val2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (acc2_12 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 13's staging buffer holds after the body at position `n`: the tile's contribution added to zeros
    where a row of tiles begins, and to what position `n - 1` left elsewhere — the running total along the row. -/
def acc2_13 (c : Dev nD) : (n : ℕ) → n < cfg2.N → Vec F S1x1x8 .f32
  | 0, hn => val2_13 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (k2_pay3 (F := F))
  | n + 1, hn =>
    if (n + 1) % 12 = 0 then val2_13 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (k2_pay3 (F := F))
    else val2_13 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (acc2_13 c n (Nat.lt_of_succ_lt hn))

/-- At the first tile of a row the running total is the tile's contribution added to zeros. -/
theorem acc2_13_reset (c : Dev nD) (t : Fin cfg2.N) (h0 : t.val % 12 = 0) :
    acc2_13 V c t.val t.isLt = val2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (k2_pay3 (F := F)) := by
  obtain ⟨n, hn⟩ := t
  cases n with
  | zero => exact rfl
  | succ n => exact (if_pos h0).trans rfl

/-- At a later tile of a row it is the tile's contribution added to the total the tile before left. -/
theorem acc2_13_acc (c : Dev nD) (t : Fin cfg2.N) (h0 : ¬ t.val % 12 = 0) :
    acc2_13 V c t.val t.isLt = val2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (acc2_13 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => acc2_12 V c t.val t.isLt
    | ⟨13, _⟩ => acc2_13 V c t.val t.isLt
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = acc2_12 V c t.val t.isLt := by dsimp only [dat2]
theorem after2_13 (c : Dev nD) (t : Fin cfg2.N) : (dat2 V c).after 13 t = acc2_13 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-- Away from the first tile of a row, output window 12's staging buffer holds what the tile before left: the point is not
    the first, the buffer was not written back in between (it is written back after the LAST tile of a row), and the
    window is live and uncut. -/
theorem before2_12_acc (c : Dev nD) (t : Fin cfg2.N) (h0 : ¬ t.val % 12 = 0) (d) :
    (dat2 V c).before 12 t d = acc2_12 V c (t.val - 1) (Nat.lt_of_le_of_lt (Nat.sub_le _ _) t.isLt) := by
  have hN : t.val < 144 := lt_of_lt_of_eq t.isLt (show cfg2.N = 144 from N_2)
  rw [Dat.before_out_kept _ 12 rfl t (by omega) (Bool.eq_false_iff.mpr fun h => by have := (flush2_12 _).mp h; dsimp only at this; omega)
    (fun _ => rfl) (fun _ _ => rfl)]
  dsimp only [dat2]

/-- Away from the first tile of a row, output window 13's staging buffer holds what the tile before left: the point is not
    the first, the buffer was not written back in between (it is written back after the LAST tile of a row), and the
    window is live and uncut. -/
theorem before2_13_acc (c : Dev nD) (t : Fin cfg2.N) (h0 : ¬ t.val % 12 = 0) (d) :
    (dat2 V c).before 13 t d = acc2_13 V c (t.val - 1) (Nat.lt_of_le_of_lt (Nat.sub_le _ _) t.isLt) := by
  have hN : t.val < 144 := lt_of_lt_of_eq t.isLt (show cfg2.N = 144 from N_2)
  rw [Dat.before_out_kept _ 13 rfl t (by omega) (Bool.eq_false_iff.mpr fun h => by have := (flush2_13 _).mp h; dsimp only at this; omega)
    (fun _ => rfl) (fun _ _ => rfl)]
  dsimp only [dat2]

/-- What the body is called with at point `t`: the invariant, the core's dues, and each window's current staging buffer
    at what the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns: each window's buffer at the proof data's contents after the point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  by_cases h0 : t.val % 12 = 0
  · rw [acc2_12_reset V c t h0, acc2_13_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run2_reset c (grid2.coords t) _ _ _ _ _ _ _ _ _ _ _ _ _ _ _ _ _ _ _ _ _ _ _ _ _ _ _ _ ((hreset2 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before2_12_acc V c t h0, before2_13_acc V c t h0]
    rw [acc2_12_acc V c t h0, acc2_13_acc V c t h0]
    unfold val2_12 val2_13
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run2_acc c (grid2.coords t) _ _ _ _ _ _ _ _ _ _ _ _ _ _ _ _ _ _ _ _ _ _ _ _ _ _ _ _ (fun h => h0 ((hreset2 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation for the region, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KernelIdeal.Entry2.lean ====
/-
  Entering and leaving region 2: the distinct arrays behind its windows dealt to the windows on entry — the transposed
  features, which the row and column windows both stage, as the two halves of its full share — and put together again on
  exit, the output arrays at what the write-backs left, every buffer no window stages as it was.
-/
import proofs.«135850_j19774029431551_2_alg».proof.Proof.KernelIdeal.Dat2
import proofs.«135850_j19774029431551_2_alg».proof.Proof.KernelIdeal.Entry0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr2 : (Finset.univ.image (Pipeline.arrRef spec2) : Finset (Ref sig .tc)) = {main_v0, main_arg1, main_arg2, main_arg5, main_arg6, main_arg9, main_arg10, main_v15, main_v17, main_v32, main_v34, main_v35_0, main_v35_1} := by decide

theorem arr2_0 (c : Dev nD) (X : Buf (Elt F) ((cfg2.win 0).arr.view.loc (c.tc : Thread nD τ))) :
    ((cfg2.win 0).arr.view.loc (c.tc : Thread nD τ) ↦[(cfg2.win 0).arr.view.set]{(dat2 V c).share 0} X : sProp 𝕄)
      = ((c.tc : Thread nD τ).loc main_v0 ↦{fullShare.left} X) := by
  rw [(arr_whole2 0).set_eq_univ]; rfl
theorem arr2_1 (c : Dev nD) (X : Buf (Elt F) ((cfg2.win 1).arr.view.loc (c.tc : Thread nD τ))) :
    ((cfg2.win 1).arr.view.loc (c.tc : Thread nD τ) ↦[(cfg2.win 1).arr.view.set]{(dat2 V c).share 1} X : sProp 𝕄)
      = ((c.tc : Thread nD τ).loc main_v0 ↦{fullShare.right} X) := by
  rw [(arr_whole2 1).set_eq_univ]; rfl
theorem arr2_2 (c : Dev nD) (X : Buf (Elt F) ((cfg2.win 2).arr.view.loc (c.tc : Thread nD τ))) :
    ((cfg2.win 2).arr.view.loc (c.tc : Thread nD τ) ↦[(cfg2.win 2).arr.view.set]{(dat2 V c).share 2} X : sProp 𝕄)
      = ((c.tc : Thread nD τ).loc main_arg1 ↦{fullShare} X) := by
  rw [(arr_whole2 2).set_eq_univ]; rfl
theorem arr2_3 (c : Dev nD) (X : Buf (Elt F) ((cfg2.win 3).arr.view.loc (c.tc : Thread nD τ))) :
    ((cfg2.win 3).arr.view.loc (c.tc : Thread nD τ) ↦[(cfg2.win 3).arr.view.set]{(dat2 V c).share 3} X : sProp 𝕄)
      = ((c.tc : Thread nD τ).loc main_arg2 ↦{fullShare} X) := by
  rw [(arr_whole2 3).set_eq_univ]; rfl
theorem arr2_4 (c : Dev nD) (X : Buf (Elt F) ((cfg2.win 4).arr.view.loc (c.tc : Thread nD τ))) :
    ((cfg2.win 4).arr.view.loc (c.tc : Thread nD τ) ↦[(cfg2.win 4).arr.view.set]{(dat2 V c).share 4} X : sProp 𝕄)
      = ((c.tc : Thread nD τ).loc main_arg5 ↦{fullShare} X) := by
  rw [(arr_whole2 4).set_eq_univ]; rfl
theorem arr2_5 (c : Dev nD) (X : Buf (Elt F) ((cfg2.win 5).arr.view.loc (c.tc : Thread nD τ))) :
    ((cfg2.win 5).arr.view.loc (c.tc : Thread nD τ) ↦[(cfg2.win 5).arr.view.set]{(dat2 V c).share 5} X : sProp 𝕄)
      = ((c.tc : Thread nD τ).loc main_arg6 ↦{fullShare} X) := by
  rw [(arr_whole2 5).set_eq_univ]; rfl
theorem arr2_6 (c : Dev nD) (X : Buf (Elt F) ((cfg2.win 6).arr.view.loc (c.tc : Thread nD τ))) :
    ((cfg2.win 6).arr.view.loc (c.tc : Thread nD τ) ↦[(cfg2.win 6).arr.view.set]{(dat2 V c).share 6} X : sProp 𝕄)
      = ((c.tc : Thread nD τ).loc main_arg9 ↦{fullShare} X) := by
  rw [(arr_whole2 6).set_eq_univ]; rfl
theorem arr2_7 (c : Dev nD) (X : Buf (Elt F) ((cfg2.win 7).arr.view.loc (c.tc : Thread nD τ))) :
    ((cfg2.win 7).arr.view.loc (c.tc : Thread nD τ) ↦[(cfg2.win 7).arr.view.set]{(dat2 V c).share 7} X : sProp 𝕄)
      = ((c.tc : Thread nD τ).loc main_arg10 ↦{fullShare} X) := by
  rw [(arr_whole2 7).set_eq_univ]; rfl
theorem arr2_8 (c : Dev nD) (X : Buf (Elt F) ((cfg2.win 8).arr.view.loc (c.tc : Thread nD τ))) :
    ((cfg2.win 8).arr.view.loc (c.tc : Thread nD τ) ↦[(cfg2.win 8).arr.view.set]{(dat2 V c).share 8} X : sProp 𝕄)
      = ((c.tc : Thread nD τ).loc main_v15 ↦{fullShare} X) := by
  rw [(arr_whole2 8).set_eq_univ]; rfl
theorem arr2_9 (c : Dev nD) (X : Buf (Elt F) ((cfg2.win 9).arr.view.loc (c.tc : Thread nD τ))) :
    ((cfg2.win 9).arr.view.loc (c.tc : Thread nD τ) ↦[(cfg2.win 9).arr.view.set]{(dat2 V c).share 9} X : sProp 𝕄)
      = ((c.tc : Thread nD τ).loc main_v17 ↦{fullShare} X) := by
  rw [(arr_whole2 9).set_eq_univ]; rfl
theorem arr2_10 (c : Dev nD) (X : Buf (Elt F) ((cfg2.win 10).arr.view.loc (c.tc : Thread nD τ))) :
    ((cfg2.win 10).arr.view.loc (c.tc : Thread nD τ) ↦[(cfg2.win 10).arr.view.set]{(dat2 V c).share 10} X : sProp 𝕄)
      = ((c.tc : Thread nD τ).loc main_v32 ↦{fullShare} X) := by
  rw [(arr_whole2 10).set_eq_univ]; rfl
theorem arr2_11 (c : Dev nD) (X : Buf (Elt F) ((cfg2.win 11).arr.view.loc (c.tc : Thread nD τ))) :
    ((cfg2.win 11).arr.view.loc (c.tc : Thread nD τ) ↦[(cfg2.win 11).arr.view.set]{(dat2 V c).share 11} X : sProp 𝕄)
      = ((c.tc : Thread nD τ).loc main_v34 ↦{fullShare} X) := by
  rw [(arr_whole2 11).set_eq_univ]; rfl
theorem arr2_12 (c : Dev nD) (X : Buf (Elt F) ((cfg2.win 12).arr.view.loc (c.tc : Thread nD τ))) :
    ((cfg2.win 12).arr.view.loc (c.tc : Thread nD τ) ↦[(cfg2.win 12).arr.view.set]{(dat2 V c).share 12} X : sProp 𝕄)
      = ((c.tc : Thread nD τ).loc main_v35_0 ↦{fullShare} X) := by
  rw [(arr_whole2 12).set_eq_univ]; rfl
theorem arr2_13 (c : Dev nD) (X : Buf (Elt F) ((cfg2.win 13).arr.view.loc (c.tc : Thread nD τ))) :
    ((cfg2.win 13).arr.view.loc (c.tc : Thread nD τ) ↦[(cfg2.win 13).arr.view.set]{(dat2 V c).share 13} X : sProp 𝕄)
      = ((c.tc : Thread nD τ).loc main_v35_1 ↦{fullShare} X) := by
  rw [(arr_whole2 13).set_eq_univ]; rfl

set_option maxHeartbeats 8000000 in
/-- ENTRY: the distinct buffers behind the arrays, whole at the entry contents, are the windows' arrays at the proof data's
    shares and entry contents: the shared array's full share is dealt as its two halves. -/
theorem hsplit2 (c : Dev nD) :
    (Pipeline.arrBufs (Ix := Unit) (Name := ℕ) (U := UR sig nD τ) (Lvl := ℕ) spec2 c (V c) : sProp 𝕄) ⊢ (dat2 V c).arrays ((dat2 V c).arrAt · 0) := by
  unfold Pipeline.arrBufs Dat.arrays
  rw [image_arr2, bigSep_W2, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr2_0 V c _)
      (sep_congr (arr2_1 V c _)
      (sep_congr (arr2_2 V c _)
      (sep_congr (arr2_3 V c _)
      (sep_congr (arr2_4 V c _)
      (sep_congr (arr2_5 V c _)
      (sep_congr (arr2_6 V c _)
      (sep_congr (arr2_7 V c _)
      (sep_congr (arr2_8 V c _)
      (sep_congr (arr2_9 V c _)
      (sep_congr (arr2_10 V c _)
      (sep_congr (arr2_11 V c _)
      (sep_congr (arr2_12 V c _)
      (arr2_13 V c _)))))))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_arg9 ↦{fullShare} V c main_arg9)
      ∗ ((c.tc : Thread nD τ).loc main_arg10 ↦{fullShare} V c main_arg10)
      ∗ ((c.tc : Thread nD τ).loc main_v15 ↦{fullShare} V c main_v15)
      ∗ ((c.tc : Thread nD τ).loc main_v17 ↦{fullShare} V c main_v17)
      ∗ ((c.tc : Thread nD τ).loc main_v32 ↦{fullShare} V c main_v32)
      ∗ ((c.tc : Thread nD τ).loc main_v34 ↦{fullShare} V c main_v34)
      ∗ ((c.tc : Thread nD τ).loc main_v35_0 ↦{fullShare} V c main_v35_0)
      ∗ ((c.tc : Thread nD τ).loc main_v35_1 ↦{fullShare} V c main_v35_1)) : sProp 𝕄) ⊢ _
  iintro ⟨G0, G1, G2, G3, G4, G5, G6, G7, G8, G9, G10, G11, G12⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  iexact G12

theorem arrAt2_in0 (c : Dev nD) : (dat2 V c).arrAt 0 cfg2.N = V c main_v0 := (Dat.arrAt_in _ 0 rfl _).trans (A_eq2 V c 0)
theorem arrAt2_in1 (c : Dev nD) : (dat2 V c).arrAt 1 cfg2.N = V c main_v0 := (Dat.arrAt_in _ 1 rfl _).trans (A_eq2 V c 1)
theorem arrAt2_in2 (c : Dev nD) : (dat2 V c).arrAt 2 cfg2.N = V c main_arg1 := (Dat.arrAt_in _ 2 rfl _).trans (A_eq2 V c 2)
theorem arrAt2_in3 (c : Dev nD) : (dat2 V c).arrAt 3 cfg2.N = V c main_arg2 := (Dat.arrAt_in _ 3 rfl _).trans (A_eq2 V c 3)
theorem arrAt2_in4 (c : Dev nD) : (dat2 V c).arrAt 4 cfg2.N = V c main_arg5 := (Dat.arrAt_in _ 4 rfl _).trans (A_eq2 V c 4)
theorem arrAt2_in5 (c : Dev nD) : (dat2 V c).arrAt 5 cfg2.N = V c main_arg6 := (Dat.arrAt_in _ 5 rfl _).trans (A_eq2 V c 5)
theorem arrAt2_in6 (c : Dev nD) : (dat2 V c).arrAt 6 cfg2.N = V c main_arg9 := (Dat.arrAt_in _ 6 rfl _).trans (A_eq2 V c 6)
theorem arrAt2_in7 (c : Dev nD) : (dat2 V c).arrAt 7 cfg2.N = V c main_arg10 := (Dat.arrAt_in _ 7 rfl _).trans (A_eq2 V c 7)
theorem arrAt2_in8 (c : Dev nD) : (dat2 V c).arrAt 8 cfg2.N = V c main_v15 := (Dat.arrAt_in _ 8 rfl _).trans (A_eq2 V c 8)
theorem arrAt2_in9 (c : Dev nD) : (dat2 V c).arrAt 9 cfg2.N = V c main_v17 := (Dat.arrAt_in _ 9 rfl _).trans (A_eq2 V c 9)
theorem arrAt2_in10 (c : Dev nD) : (dat2 V c).arrAt 10 cfg2.N = V c main_v32 := (Dat.arrAt_in _ 10 rfl _).trans (A_eq2 V c 10)
theorem arrAt2_in11 (c : Dev nD) : (dat2 V c).arrAt 11 cfg2.N = V c main_v34 := (Dat.arrAt_in _ 11 rfl _).trans (A_eq2 V c 11)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin2 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_v15 = V c main_v15) (hi8 : V' c main_v17 = V c main_v17) (hi9 : V' c main_v32 = V c main_v32) (hi10 : V' c main_v34 = V c main_v34) (ho0 : V' c main_v35_0 = (dat2 V c).arrAt 12 cfg2.N) (ho1 : V' c main_v35_1 = (dat2 V c).arrAt 13 cfg2.N) :
    (dat2 V c).arrays ((dat2 V c).arrAt · cfg2.N) ⊢ (Pipeline.arrBufs (Ix := Unit) (Name := ℕ) (U := UR sig nD τ) (Lvl := ℕ) spec2 c (V' c) : sProp 𝕄) := by
  unfold Pipeline.arrBufs Dat.arrays
  rw [image_arr2, bigSep_W2, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr2_0 V c _).trans (congrArg (fun X => (((c.tc : Thread nD τ).loc main_v0 ↦{fullShare.left} X) : sProp 𝕄)) (arrAt2_in0 V c)))
      (sep_congr ((arr2_1 V c _).trans (congrArg (fun X => (((c.tc : Thread nD τ).loc main_v0 ↦{fullShare.right} X) : sProp 𝕄)) (arrAt2_in1 V c)))
      (sep_congr ((arr2_2 V c _).trans (congrArg (fun X => (((c.tc : Thread nD τ).loc main_arg1 ↦{fullShare} X) : sProp 𝕄)) (arrAt2_in2 V c)))
      (sep_congr ((arr2_3 V c _).trans (congrArg (fun X => (((c.tc : Thread nD τ).loc main_arg2 ↦{fullShare} X) : sProp 𝕄)) (arrAt2_in3 V c)))
      (sep_congr ((arr2_4 V c _).trans (congrArg (fun X => (((c.tc : Thread nD τ).loc main_arg5 ↦{fullShare} X) : sProp 𝕄)) (arrAt2_in4 V c)))
      (sep_congr ((arr2_5 V c _).trans (congrArg (fun X => (((c.tc : Thread nD τ).loc main_arg6 ↦{fullShare} X) : sProp 𝕄)) (arrAt2_in5 V c)))
      (sep_congr ((arr2_6 V c _).trans (congrArg (fun X => (((c.tc : Thread nD τ).loc main_arg9 ↦{fullShare} X) : sProp 𝕄)) (arrAt2_in6 V c)))
      (sep_congr ((arr2_7 V c _).trans (congrArg (fun X => (((c.tc : Thread nD τ).loc main_arg10 ↦{fullShare} X) : sProp 𝕄)) (arrAt2_in7 V c)))
      (sep_congr ((arr2_8 V c _).trans (congrArg (fun X => (((c.tc : Thread nD τ).loc main_v15 ↦{fullShare} X) : sProp 𝕄)) (arrAt2_in8 V c)))
      (sep_congr ((arr2_9 V c _).trans (congrArg (fun X => (((c.tc : Thread nD τ).loc main_v17 ↦{fullShare} X) : sProp 𝕄)) (arrAt2_in9 V c)))
      (sep_congr ((arr2_10 V c _).trans (congrArg (fun X => (((c.tc : Thread nD τ).loc main_v32 ↦{fullShare} X) : sProp 𝕄)) (arrAt2_in10 V c)))
      (sep_congr ((arr2_11 V c _).trans (congrArg (fun X => (((c.tc : Thread nD τ).loc main_v34 ↦{fullShare} X) : sProp 𝕄)) (arrAt2_in11 V c)))
      (sep_congr (arr2_12 V c _)
      (arr2_13 V c _))))))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_arg9 ↦{fullShare} V' c main_arg9)
      ∗ ((c.tc : Thread nD τ).loc main_arg10 ↦{fullShare} V' c main_arg10)
      ∗ ((c.tc : Thread nD τ).loc main_v15 ↦{fullShare} V' c main_v15)
      ∗ ((c.tc : Thread nD τ).loc main_v17 ↦{fullShare} V' c main_v17)
      ∗ ((c.tc : Thread nD τ).loc main_v32 ↦{fullShare} V' c main_v32)
      ∗ ((c.tc : Thread nD τ).loc main_v34 ↦{fullShare} V' c main_v34)
      ∗ ((c.tc : Thread nD τ).loc main_v35_0 ↦{fullShare} V' c main_v35_0)
      ∗ ((c.tc : Thread nD τ).loc main_v35_1 ↦{fullShare} V' c main_v35_1)) : sProp 𝕄)
  rw [hi0, hi1, hi2, hi3, hi4, hi5, hi6, hi7, hi8, hi9, hi10, ho0, ho1]
  iintro ⟨A0, A1, A2, A3, A4, A5, A6, A7, A8, A9, A10, A11, A12, A13⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  iexact A13

/-- ENTRY, whole: a core's unscoped buffers at the entry contents are the region's arrays at the proof data's shares and every
    other unscoped buffer, untouched. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest spec2 c (V c)) := by
  rw [Pipeline.unscopedBufs_split₀ cfgs 2 winFacts₀2.arr_unscoped c (V c)]
  exact sep_mono (hsplit2 V c) .rfl

/-- EXIT, whole: the arrays at their final contents and the untouched rest are the core's unscoped buffers at contents that
    differ from the entry contents only on the output arrays, which hold what the write-backs left. -/
theorem exit2 (V' : (c : Dev nD) → (b : Ref sig .tc) → Buf (Elt F) ((c : Thread nD τ).loc b)) (c : Dev nD)
    (hrest : ∀ b, b ∉ Finset.univ.image (Pipeline.arrRef spec2) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_v15 = V c main_v15) (hi8 : V' c main_v17 = V c main_v17) (hi9 : V' c main_v32 = V c main_v32) (hi10 : V' c main_v34 = V c main_v34) (ho0 : V' c main_v35_0 = (dat2 V c).arrAt 12 cfg2.N) (ho1 : V' c main_v35_1 = (dat2 V c).arrAt 13 cfg2.N) :
    iprop((dat2 V c).arrays ((dat2 V c).arrAt · cfg2.N) ∗ Pipeline.unscopedRest spec2 c (V c))
      ⊢ (unscopedBufs (Ix := Unit) (Name := ℕ) (U := UR sig nD τ) (Lvl := ℕ) c (V' c) : sProp 𝕄) := by
  rw [Pipeline.unscopedBufs_split₀ cfgs 2 winFacts₀2.arr_unscoped c (V' c)]
  refine sep_mono (hjoin2 V V' c hi0 hi1 hi2 hi3 hi4 hi5 hi6 hi7 hi8 hi9 hi10 ho0 ho1) (Entails.of_eq ?_)
  unfold Pipeline.unscopedRest
  exact bigSep_congr fun b hb => by rw [hrest b (Finset.mem_sdiff.mp hb).2]

end

end Cert.KernelIdeal.Hand

end
-- ==== Proof.KernelIdeal.Run3.lean ====
/-
  The body of the fourth statistics kernel: three activated layers feed the fourth layer, whose pre-activation's sums over the tile are added to the running totals, run on whole staging buffers, once for any float instance; the inputs' buffers come back as they were.
-/
import proofs.«135850_j19774029431551_2_alg».proof.Proof.Gen.KernelIdeal.Launch
import proofs.«135850_j19774029431551_2_alg».proof.Proof.Gen.KernelIdeal.Skeleton
import proofs.«135850_j19774029431551_2_alg».proof.Proof.Gen.KernelIdeal.Points
import Idealize.ShloMosaic.Lib.Pipeline.FrameBody
import Idealize.ShloMosaic.Lib.Ring
import Idealize.ShloMosaic.Lib.Tactic
import proofs.«135850_j19774029431551_2_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test at the grid coordinates `i`: the second coordinate is zero. -/
abbrev reset3 (i : grid3.Coords) : Prop :=
  Scalar.cmpi .ne (Scalar.extui (Scalar.cmpi .eq (BitVec.ofNat 32 (i 1).val) 0#32)) 0#32 = 1#1

set_option maxHeartbeats 4000000 in
/-- Away from the first tile of a row the body adds the tile's contribution to the running totals it finds. -/
theorem run3_acc (c : Dev nD) (i : grid3.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S8x8 .f32) (harg10 : arg10.IsWhole) (arg11 : Memref sig .tc .vmem S8 .f32) (harg11 : arg11.IsWhole) (arg12 : Memref sig .tc .vmem S16 .f32) (harg12 : arg12.IsWhole) (arg13 : Memref sig .tc .vmem S16 .f32) (harg13 : arg13.IsWhole) (arg14 : Memref sig .tc .vmem S16 .f32) (harg14 : arg14.IsWhole) (arg15 : Memref sig .tc .vmem S16 .f32) (harg15 : arg15.IsWhole) (arg16 : Memref sig .tc .vmem S8 .f32) (harg16 : arg16.IsWhole) (arg17 : Memref sig .tc .vmem S8 .f32) (harg17 : arg17.IsWhole) (arg18 : Memref sig .tc .vmem S1x1x8 .f32) (harg18 : arg18.IsWhole) (arg19 : Memref sig .tc .vmem S1x1x8 .f32) (harg19 : arg19.IsWhole)
    (hc : ¬ reset3 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) (s : Vec F S1x1x8 .f32) (q : Vec F S1x1x8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
            ∗ owns (c : Thread nD τ) arg18 fullShare s ∗ owns (c : Thread nD τ) arg19 fullShare q
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
                ∗ owns (c : Thread nD τ) arg18 fullShare (k3_pay2 (k3_pay8 (k3_pay6 x0 x1 w1 b1 sc1 bi1) (k3_pay7 w2) (constant S16x16384 .f32 0x00000000#32) b2 sc2 bi2 w3 b3 sc3 bi3) w4 b4 s)
                ∗ owns (c : Thread nD τ) arg19 fullShare (k3_pay3 (k3_pay8 (k3_pay6 x0 x1 w1 b1 sc1 bi1) (k3_pay7 w2) (constant S16x16384 .f32 0x00000000#32) b2 sc2 bi2 w3 b3 sc3 bi3) w4 b4 q)) -∗ K ⟨⟩))
          ⊢ wp frame (wpE (defs₀ (F := F)) Variants.none c none) E (cc3_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc3_kernel_eq_skeleton]; unfold cc3_kernel_skel
    simp only [k3_part1_eq_skeleton]; unfold k3_part1_skel
    simp only [k3_part2_eq_skeleton]; unfold k3_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread w4) hz2 inb_S8x8_S8x8_0_0 w4 hf8
    have e9 := readAt_unit_zero arg11.view (harg11.unread b4) hz1 inb_S8_S8_0 b4 hf9
    have e10 := readAt_unit_zero arg12.view (harg12.unread sc1) hz1 inb_S16_S16_0 sc1 hf10
    have e11 := readAt_unit_zero arg13.view (harg13.unread bi1) hz1 inb_S16_S16_0 bi1 hf11
    have e12 := readAt_unit_zero arg14.view (harg14.unread sc2) hz1 inb_S16_S16_0 sc2 hf12
    have e13 := readAt_unit_zero arg15.view (harg15.unread bi2) hz1 inb_S16_S16_0 bi2 hf13
    have e14 := readAt_unit_zero arg16.view (harg16.unread sc3) hz1 inb_S8_S8_0 sc3 hf14
    have e15 := readAt_unit_zero arg17.view (harg17.unread bi3) hz1 inb_S8_S8_0 bi3 hf15
    have e16 := readAt_unit_zero arg18.view (harg18.unread s) hz3 inb_S1x1x8_S1x1x8_0_0_0 s hf16
    have e17 := readAt_unit_zero arg19.view (harg19.unread q) hz3 inb_S1x1x8_S1x1x8_0_0_0 q hf17
    rw [e0, e1, e2, e3, e4, e5, e6, e7, e8, e9, e10, e11, e12, e13, e14, e15, e16, e17]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; swap; · iexact H16
      ipureintro
      exact read_writes_cons_unit_zero _ _ hz3 _ _ _
    · iexists _; isplitr; swap; · iexact H17
      ipureintro
      exact read_writes_cons_unit_zero _ _ hz3 _ _ _

set_option maxHeartbeats 4000000 in
/-- At the first tile of a row the body starts the running totals afresh, whatever the buffers held: it leaves the tile's contribution added to zeros. -/
theorem run3_reset (c : Dev nD) (i : grid3.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S8x8 .f32) (harg10 : arg10.IsWhole) (arg11 : Memref sig .tc .vmem S8 .f32) (harg11 : arg11.IsWhole) (arg12 : Memref sig .tc .vmem S16 .f32) (harg12 : arg12.IsWhole) (arg13 : Memref sig .tc .vmem S16 .f32) (harg13 : arg13.IsWhole) (arg14 : Memref sig .tc .vmem S16 .f32) (harg14 : arg14.IsWhole) (arg15 : Memref sig .tc .vmem S16 .f32) (harg15 : arg15.IsWhole) (arg16 : Memref sig .tc .vmem S8 .f32) (harg16 : arg16.IsWhole) (arg17 : Memref sig .tc .vmem S8 .f32) (harg17 : arg17.IsWhole) (arg18 : Memref sig .tc .vmem S1x1x8 .f32) (harg18 : arg18.IsWhole) (arg19 : Memref sig .tc .vmem S1x1x8 .f32) (harg19 : arg19.IsWhole)
    (hc : reset3 i)
    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
            ∗ (∃ s, owns (c : Thread nD τ) arg18 fullShare s) ∗ (∃ q, owns (c : Thread nD τ) arg19 fullShare q)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare sc1 ∗ owns (c : Thread nD τ) arg13 fullShare bi1 ∗ owns (c : Thread nD τ) arg14 fullShare sc2 ∗ owns (c : Thread nD τ) arg15 fullShare bi2 ∗ owns (c : Thread nD τ) arg16 fullShare sc3 ∗ owns (c : Thread nD τ) arg17 fullShare bi3
                ∗ owns (c : Thread nD τ) arg18 fullShare (k3_pay2 (k3_pay8 (k3_pay6 x0 x1 w1 b1 sc1 bi1) (k3_pay7 w2) (constant S16x16384 .f32 0x00000000#32) b2 sc2 bi2 w3 b3 sc3 bi3) w4 b4 (k3_pay4 (F := F)))
                ∗ owns (c : Thread nD τ) arg19 fullShare (k3_pay3 (k3_pay8 (k3_pay6 x0 x1 w1 b1 sc1 bi1) (k3_pay7 w2) (constant S16x16384 .f32 0x00000000#32) b2 sc2 bi2 w3 b3 sc3 bi3) w4 b4 (k3_pay5 (F := F)))) -∗ K ⟨⟩))
          ⊢ wp frame (wpE (defs₀ (F := F)) Variants.none c none) E (cc3_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc3_kernel_eq_skeleton]; unfold cc3_kernel_skel
    simp only [k3_part1_eq_skeleton]; unfold k3_part1_skel
    simp only [k3_part2_eq_skeleton]; unfold k3_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%s, %f16, %hf16, H16⟩, ⟨%q, %f17, %hf17, H17⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    sl_exec (disch := first | exact hc)
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread w4) hz2 inb_S8x8_S8x8_0_0 w4 hf8
    have e9 := readAt_unit_zero arg11.view (harg11.unread b4) hz1 inb_S8_S8_0 b4 hf9
    have e10 := readAt_unit_zero arg12.view (harg12.unread sc1) hz1 inb_S16_S16_0 sc1 hf10
    have e11 := readAt_unit_zero arg13.view (harg13.unread bi1) hz1 inb_S16_S16_0 bi1 hf11
    have e12 := readAt_unit_zero arg14.view (harg14.unread sc2) hz1 inb_S16_S16_0 sc2 hf12
    have e13 := readAt_unit_zero arg15.view (harg15.unread bi2) hz1 inb_S16_S16_0 bi2 hf13
    have e14 := readAt_unit_zero arg16.view (harg16.unread sc3) hz1 inb_S8_S8_0 sc3 hf14
    have e15 := readAt_unit_zero arg17.view (harg17.unread bi3) hz1 inb_S8_S8_0 bi3 hf15
    rw [e0, e1, e2, e3, e4, e5, e6, e7, e8, e9, e10, e11, e12, e13, e14, e15]
    rw [View.readCov_unit_zero arg18.view hz3, View.readCov_unit_zero arg19.view hz3]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; swap; · iexact H16
      ipureintro
      exact read_writes_cons_unit_zero _ _ hz3 _ _ _
    · iexists _; isplitr; swap; · iexact H17
      ipureintro
      exact read_writes_cons_unit_zero _ _ hz3 _ _ _

end Cert.KernelIdeal.Hand

end
-- ==== Proof.KernelIdeal.Dat3.lean ====
/-
  The fourth statistics region: its proof data and the body obligation. The grid is 12 × 12 tiles visited row by row; windows
  0 and 1 stage the row and column blocks of the transposed features, the last two windows are the per-channel accumulators
  (one block per row of tiles: zeroed at the row's first tile, added to at each tile, written back after its last), every
  other window a weight, bias, scale or shift fetched once. After each point an input's buffer holds its block and an
  accumulator's the running total along the row, defined by recursion on the position.
-/
import proofs.«135850_j19774029431551_2_alg».proof.Proof.KernelIdeal.Run3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in output window 16's buffer, from the input blocks and what the buffer held. -/
def val3_16 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) (s : Vec F S1x1x8 .f32) : Vec F S1x1x8 .f32 :=
  k3_pay2 (k3_pay8 (k3_pay6 x0 x1 w1 b1 sc1 bi1) (k3_pay7 w2) (constant S16x16384 .f32 0x00000000#32) b2 sc2 bi2 w3 b3 sc3 bi3) w4 b4 s

/-- What the body stores in output window 17's buffer, from the input blocks and what the buffer held. -/
def val3_17 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (sc1 : Vec F S16 .f32) (bi1 : Vec F S16 .f32) (sc2 : Vec F S16 .f32) (bi2 : Vec F S16 .f32) (sc3 : Vec F S8 .f32) (bi3 : Vec F S8 .f32) (q : Vec F S1x1x8 .f32) : Vec F S1x1x8 .f32 :=
  k3_pay3 (k3_pay8 (k3_pay6 x0 x1 w1 b1 sc1 bi1) (k3_pay7 w2) (constant S16x16384 .f32 0x00000000#32) b2 sc2 bi2 w3 b3 sc3 bi3) w4 b4 q

section Region3

-- a core's buffer contents when the region is entered: the parameter everything here is stated at
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: the body only
    reads it, and between two fetches its block index does not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: the body only
    reads it, and between two fetches its block index does not move. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: the body only
    reads it, and between two fetches its block index does not move. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: the body only
    reads it, and between two fetches its block index does not move. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: the body only
    reads it, and between two fetches its block index does not move. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: the body only
    reads it, and between two fetches its block index does not move. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not: the body only
    reads it, and between two fetches its block index does not move. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not: the body only
    reads it, and between two fetches its block index does not move. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not: the body only
    reads it, and between two fetches its block index does not move. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not: the body only
    reads it, and between two fetches its block index does not move. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not: the body only
    reads it, and between two fetches its block index does not move. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds its block at every point, fetched there or not: the body only
    reads it, and between two fetches its block index does not move. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds its block at every point, fetched there or not: the body only
    reads it, and between two fetches its block index does not move. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds its block at every point, fetched there or not: the body only
    reads it, and between two fetches its block index does not move. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds its block at every point, fetched there or not: the body only
    reads it, and between two fetches its block index does not move. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds its block at every point, fetched there or not: the body only
    reads it, and between two fetches its block index does not move. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- The reset test holds exactly at the points whose second coordinate is zero: decided over the grid. -/
theorem hreset3 : ∀ t : Fin cfg3.N, reset3 (grid3.coords t) ↔ t.val % 12 = 0 :=
  (by decide +kernel : ∀ t : Fin grid3.N, reset3 (grid3.coords t) ↔ t.val % 12 = 0)

/-- What output window 16's staging buffer holds after the body at position `n`: the tile's contribution added to zeros
    where a row of tiles begins, and to what position `n - 1` left elsewhere — the running total along the row. -/
def acc3_16 (c : Dev nD) : (n : ℕ) → n < cfg3.N → Vec F S1x1x8 .f32
  | 0, hn => val3_16 (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩) (iblk3 V c 12 ⟨0, hn⟩) (iblk3 V c 13 ⟨0, hn⟩) (iblk3 V c 14 ⟨0, hn⟩) (iblk3 V c 15 ⟨0, hn⟩) (k3_pay4 (F := F))
  | n + 1, hn =>
    if (n + 1) % 12 = 0 then val3_16 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (k3_pay4 (F := F))
    else val3_16 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (acc3_16 c n (Nat.lt_of_succ_lt hn))

/-- At the first tile of a row the running total is the tile's contribution added to zeros. -/
theorem acc3_16_reset (c : Dev nD) (t : Fin cfg3.N) (h0 : t.val % 12 = 0) :
    acc3_16 V c t.val t.isLt = val3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (k3_pay4 (F := F)) := by
  obtain ⟨n, hn⟩ := t
  cases n with
  | zero => exact rfl
  | succ n => exact (if_pos h0).trans rfl

/-- At a later tile of a row it is the tile's contribution added to the total the tile before left. -/
theorem acc3_16_acc (c : Dev nD) (t : Fin cfg3.N) (h0 : ¬ t.val % 12 = 0) :
    acc3_16 V c t.val t.isLt = val3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (acc3_16 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- What output window 17's staging buffer holds after the body at position `n`: the tile's contribution added to zeros
    where a row of tiles begins, and to what position `n - 1` left elsewhere — the running total along the row. -/
def acc3_17 (c : Dev nD) : (n : ℕ) → n < cfg3.N → Vec F S1x1x8 .f32
  | 0, hn => val3_17 (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩) (iblk3 V c 12 ⟨0, hn⟩) (iblk3 V c 13 ⟨0, hn⟩) (iblk3 V c 14 ⟨0, hn⟩) (iblk3 V c 15 ⟨0, hn⟩) (k3_pay5 (F := F))
  | n + 1, hn =>
    if (n + 1) % 12 = 0 then val3_17 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (k3_pay5 (F := F))
    else val3_17 (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (acc3_17 c n (Nat.lt_of_succ_lt hn))

/-- At the first tile of a row the running total is the tile's contribution added to zeros. -/
theorem acc3_17_reset (c : Dev nD) (t : Fin cfg3.N) (h0 : t.val % 12 = 0) :
    acc3_17 V c t.val t.isLt = val3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (k3_pay5 (F := F)) := by
  obtain ⟨n, hn⟩ := t
  cases n with
  | zero => exact rfl
  | succ n => exact (if_pos h0).trans rfl

/-- At a later tile of a row it is the tile's contribution added to the total the tile before left. -/
theorem acc3_17_acc (c : Dev nD) (t : Fin cfg3.N) (h0 : ¬ t.val % 12 = 0) :
    acc3_17 V c t.val t.isLt = val3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (acc3_17 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The region's proof data on core `c`: the arrays as the region finds them; after the body at point `t` each input's
    buffer at its block and each output's at its running total; the row and column windows, which stage ONE array (the
    transposed features), hold it at the two halves of its full share, every other array at the full share; the invariant
    is the untouched rest; nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => acc3_16 V c t.val t.isLt
    | ⟨17, _⟩ => acc3_17 V c t.val t.isLt
    | ⟨_ + 18, h⟩ => absurd h (Nat.not_lt.2 (Nat.le_add_left _ _))
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨_ + 18, h⟩ => absurd h (Nat.not_lt.2 (Nat.le_add_left _ _))
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = acc3_16 V c t.val t.isLt := by dsimp only [dat3]
theorem after3_17 (c : Dev nD) (t : Fin cfg3.N) : (dat3 V c).after 17 t = acc3_17 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d

/-- Away from the first tile of a row, output window 16's staging buffer holds what the tile before left: the point is not
    the first, the buffer was not written back in between (it is written back after the LAST tile of a row), and the
    window is live and uncut. -/
theorem before3_16_acc (c : Dev nD) (t : Fin cfg3.N) (h0 : ¬ t.val % 12 = 0) (d) :
    (dat3 V c).before 16 t d = acc3_16 V c (t.val - 1) (Nat.lt_of_le_of_lt (Nat.sub_le _ _) t.isLt) := by
  have hN : t.val < 144 := lt_of_lt_of_eq t.isLt (show cfg3.N = 144 from N_3)
  rw [Dat.before_out_kept _ 16 rfl t (by omega) (Bool.eq_false_iff.mpr fun h => by have := (flush3_16 _).mp h; dsimp only at this; omega)
    (fun _ => rfl) (fun _ _ => rfl)]
  dsimp only [dat3]

/-- Away from the first tile of a row, output window 17's staging buffer holds what the tile before left: the point is not
    the first, the buffer was not written back in between (it is written back after the LAST tile of a row), and the
    window is live and uncut. -/
theorem before3_17_acc (c : Dev nD) (t : Fin cfg3.N) (h0 : ¬ t.val % 12 = 0) (d) :
    (dat3 V c).before 17 t d = acc3_17 V c (t.val - 1) (Nat.lt_of_le_of_lt (Nat.sub_le _ _) t.isLt) := by
  have hN : t.val < 144 := lt_of_lt_of_eq t.isLt (show cfg3.N = 144 from N_3)
  rw [Dat.before_out_kept _ 17 rfl t (by omega) (Bool.eq_false_iff.mpr fun h => by have := (flush3_17 _).mp h; dsimp only at this; omega)
    (fun _ => rfl) (fun _ _ => rfl)]
  dsimp only [dat3]

/-- What the body is called with at point `t`: the invariant, the core's dues, and each window's current staging buffer
    at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d)))

/-- and what it returns: each window's buffer at the proof data's contents after the point. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t))

set_option maxHeartbeats 1600000 in
/-- The body at any point. The inputs' buffers hold their blocks; at the first tile of a row the accumulators are started
    afresh whatever they held, elsewhere they hold the running totals the tile before left and the tile's contribution is
    added: in both cases the run of the body applies. The invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17]
  by_cases h0 : t.val % 12 = 0
  · rw [acc3_16_reset V c t h0, acc3_17_reset V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((run3_reset c (grid3.coords t) _ _ _ _ _ _ _ _ _ _ _ _ _ _ _ _ _ _ _ _ _ _ _ _ _ _ _ _ _ _ _ _ _ _ _ _ ((hreset3 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · simp only [before3_16_acc V c t h0, before3_17_acc V c t h0]
    rw [acc3_16_acc V c t h0, acc3_17_acc V c t h0]
    unfold val3_16 val3_17
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((run3_acc c (grid3.coords t) _ _ _ _ _ _ _ _ _ _ _ _ _ _ _ _ _ _ _ _ _ _ _ _ _ _ _ _ _ _ _ _ _ _ _ _ (fun h => h0 ((hreset3 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The library's body obligation for the region, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KernelIdeal.Entry3.lean ====
/-
  Entering and leaving region 3: the distinct arrays behind its windows dealt to the windows on entry — the transposed
  features, which the row and column windows both stage, as the two halves of its full share — and put together again on
  exit, the output arrays at what the write-backs left, every buffer no window stages as it was.
-/
import proofs.«135850_j19774029431551_2_alg».proof.Proof.KernelIdeal.Dat3
import proofs.«135850_j19774029431551_2_alg».proof.Proof.KernelIdeal.Entry0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr3 : (Finset.univ.image (Pipeline.arrRef spec3) : Finset (Ref sig .tc)) = {main_v0, main_arg1, main_arg2, main_arg5, main_arg6, main_arg9, main_arg10, main_arg13, main_arg14, main_v15, main_v17, main_v32, main_v34, main_v49, main_v51, main_v52_0, main_v52_1} := by decide

theorem arr3_0 (c : Dev nD) (X : Buf (Elt F) ((cfg3.win 0).arr.view.loc (c.tc : Thread nD τ))) :
    ((cfg3.win 0).arr.view.loc (c.tc : Thread nD τ) ↦[(cfg3.win 0).arr.view.set]{(dat3 V c).share 0} X : sProp 𝕄)
      = ((c.tc : Thread nD τ).loc main_v0 ↦{fullShare.left} X) := by
  rw [(arr_whole3 0).set_eq_univ]; rfl
theorem arr3_1 (c : Dev nD) (X : Buf (Elt F) ((cfg3.win 1).arr.view.loc (c.tc : Thread nD τ))) :
    ((cfg3.win 1).arr.view.loc (c.tc : Thread nD τ) ↦[(cfg3.win 1).arr.view.set]{(dat3 V c).share 1} X : sProp 𝕄)
      = ((c.tc : Thread nD τ).loc main_v0 ↦{fullShare.right} X) := by
  rw [(arr_whole3 1).set_eq_univ]; rfl
theorem arr3_2 (c : Dev nD) (X : Buf (Elt F) ((cfg3.win 2).arr.view.loc (c.tc : Thread nD τ))) :
    ((cfg3.win 2).arr.view.loc (c.tc : Thread nD τ) ↦[(cfg3.win 2).arr.view.set]{(dat3 V c).share 2} X : sProp 𝕄)
      = ((c.tc : Thread nD τ).loc main_arg1 ↦{fullShare} X) := by
  rw [(arr_whole3 2).set_eq_univ]; rfl
theorem arr3_3 (c : Dev nD) (X : Buf (Elt F) ((cfg3.win 3).arr.view.loc (c.tc : Thread nD τ))) :
    ((cfg3.win 3).arr.view.loc (c.tc : Thread nD τ) ↦[(cfg3.win 3).arr.view.set]{(dat3 V c).share 3} X : sProp 𝕄)
      = ((c.tc : Thread nD τ).loc main_arg2 ↦{fullShare} X) := by
  rw [(arr_whole3 3).set_eq_univ]; rfl
theorem arr3_4 (c : Dev nD) (X : Buf (Elt F) ((cfg3.win 4).arr.view.loc (c.tc : Thread nD τ))) :
    ((cfg3.win 4).arr.view.loc (c.tc : Thread nD τ) ↦[(cfg3.win 4).arr.view.set]{(dat3 V c).share 4} X : sProp 𝕄)
      = ((c.tc : Thread nD τ).loc main_arg5 ↦{fullShare} X) := by
  rw [(arr_whole3 4).set_eq_univ]; rfl
theorem arr3_5 (c : Dev nD) (X : Buf (Elt F) ((cfg3.win 5).arr.view.loc (c.tc : Thread nD τ))) :
    ((cfg3.win 5).arr.view.loc (c.tc : Thread nD τ) ↦[(cfg3.win 5).arr.view.set]{(dat3 V c).share 5} X : sProp 𝕄)
      = ((c.tc : Thread nD τ).loc main_arg6 ↦{fullShare} X) := by
  rw [(arr_whole3 5).set_eq_univ]; rfl
theorem arr3_6 (c : Dev nD) (X : Buf (Elt F) ((cfg3.win 6).arr.view.loc (c.tc : Thread nD τ))) :
    ((cfg3.win 6).arr.view.loc (c.tc : Thread nD τ) ↦[(cfg3.win 6).arr.view.set]{(dat3 V c).share 6} X : sProp 𝕄)
      = ((c.tc : Thread nD τ).loc main_arg9 ↦{fullShare} X) := by
  rw [(arr_whole3 6).set_eq_univ]; rfl
theorem arr3_7 (c : Dev nD) (X : Buf (Elt F) ((cfg3.win 7).arr.view.loc (c.tc : Thread nD τ))) :
    ((cfg3.win 7).arr.view.loc (c.tc : Thread nD τ) ↦[(cfg3.win 7).arr.view.set]{(dat3 V c).share 7} X : sProp 𝕄)
      = ((c.tc : Thread nD τ).loc main_arg10 ↦{fullShare} X) := by
  rw [(arr_whole3 7).set_eq_univ]; rfl
theorem arr3_8 (c : Dev nD) (X : Buf (Elt F) ((cfg3.win 8).arr.view.loc (c.tc : Thread nD τ))) :
    ((cfg3.win 8).arr.view.loc (c.tc : Thread nD τ) ↦[(cfg3.win 8).arr.view.set]{(dat3 V c).share 8} X : sProp 𝕄)
      = ((c.tc : Thread nD τ).loc main_arg13 ↦{fullShare} X) := by
  rw [(arr_whole3 8).set_eq_univ]; rfl
theorem arr3_9 (c : Dev nD) (X : Buf (Elt F) ((cfg3.win 9).arr.view.loc (c.tc : Thread nD τ))) :
    ((cfg3.win 9).arr.view.loc (c.tc : Thread nD τ) ↦[(cfg3.win 9).arr.view.set]{(dat3 V c).share 9} X : sProp 𝕄)
      = ((c.tc : Thread nD τ).loc main_arg14 ↦{fullShare} X) := by
  rw [(arr_whole3 9).set_eq_univ]; rfl
theorem arr3_10 (c : Dev nD) (X : Buf (Elt F) ((cfg3.win 10).arr.view.loc (c.tc : Thread nD τ))) :
    ((cfg3.win 10).arr.view.loc (c.tc : Thread nD τ) ↦[(cfg3.win 10).arr.view.set]{(dat3 V c).share 10} X : sProp 𝕄)
      = ((c.tc : Thread nD τ).loc main_v15 ↦{fullShare} X) := by
  rw [(arr_whole3 10).set_eq_univ]; rfl
theorem arr3_11 (c : Dev nD) (X : Buf (Elt F) ((cfg3.win 11).arr.view.loc (c.tc : Thread nD τ))) :
    ((cfg3.win 11).arr.view.loc (c.tc : Thread nD τ) ↦[(cfg3.win 11).arr.view.set]{(dat3 V c).share 11} X : sProp 𝕄)
      = ((c.tc : Thread nD τ).loc main_v17 ↦{fullShare} X) := by
  rw [(arr_whole3 11).set_eq_univ]; rfl
theorem arr3_12 (c : Dev nD) (X : Buf (Elt F) ((cfg3.win 12).arr.view.loc (c.tc : Thread nD τ))) :
    ((cfg3.win 12).arr.view.loc (c.tc : Thread nD τ) ↦[(cfg3.win 12).arr.view.set]{(dat3 V c).share 12} X : sProp 𝕄)
      = ((c.tc : Thread nD τ).loc main_v32 ↦{fullShare} X) := by
  rw [(arr_whole3 12).set_eq_univ]; rfl
theorem arr3_13 (c : Dev nD) (X : Buf (Elt F) ((cfg3.win 13).arr.view.loc (c.tc : Thread nD τ))) :
    ((cfg3.win 13).arr.view.loc (c.tc : Thread nD τ) ↦[(cfg3.win 13).arr.view.set]{(dat3 V c).share 13} X : sProp 𝕄)
      = ((c.tc : Thread nD τ).loc main_v34 ↦{fullShare} X) := by
  rw [(arr_whole3 13).set_eq_univ]; rfl
theorem arr3_14 (c : Dev nD) (X : Buf (Elt F) ((cfg3.win 14).arr.view.loc (c.tc : Thread nD τ))) :
    ((cfg3.win 14).arr.view.loc (c.tc : Thread nD τ) ↦[(cfg3.win 14).arr.view.set]{(dat3 V c).share 14} X : sProp 𝕄)
      = ((c.tc : Thread nD τ).loc main_v49 ↦{fullShare} X) := by
  rw [(arr_whole3 14).set_eq_univ]; rfl
theorem arr3_15 (c : Dev nD) (X : Buf (Elt F) ((cfg3.win 15).arr.view.loc (c.tc : Thread nD τ))) :
    ((cfg3.win 15).arr.view.loc (c.tc : Thread nD τ) ↦[(cfg3.win 15).arr.view.set]{(dat3 V c).share 15} X : sProp 𝕄)
      = ((c.tc : Thread nD τ).loc main_v51 ↦{fullShare} X) := by
  rw [(arr_whole3 15).set_eq_univ]; rfl
theorem arr3_16 (c : Dev nD) (X : Buf (Elt F) ((cfg3.win 16).arr.view.loc (c.tc : Thread nD τ))) :
    ((cfg3.win 16).arr.view.loc (c.tc : Thread nD τ) ↦[(cfg3.win 16).arr.view.set]{(dat3 V c).share 16} X : sProp 𝕄)
      = ((c.tc : Thread nD τ).loc main_v52_0 ↦{fullShare} X) := by
  rw [(arr_whole3 16).set_eq_univ]; rfl
theorem arr3_17 (c : Dev nD) (X : Buf (Elt F) ((cfg3.win 17).arr.view.loc (c.tc : Thread nD τ))) :
    ((cfg3.win 17).arr.view.loc (c.tc : Thread nD τ) ↦[(cfg3.win 17).arr.view.set]{(dat3 V c).share 17} X : sProp 𝕄)
      = ((c.tc : Thread nD τ).loc main_v52_1 ↦{fullShare} X) := by
  rw [(arr_whole3 17).set_eq_univ]; rfl

set_option maxHeartbeats 8000000 in
/-- ENTRY: the distinct buffers behind the arrays, whole at the entry contents, are the windows' arrays at the proof data's
    shares and entry contents: the shared array's full share is dealt as its two halves. -/
theorem hsplit3 (c : Dev nD) :
    (Pipeline.arrBufs (Ix := Unit) (Name := ℕ) (U := UR sig nD τ) (Lvl := ℕ) spec3 c (V c) : sProp 𝕄) ⊢ (dat3 V c).arrays ((dat3 V c).arrAt · 0) := by
  unfold Pipeline.arrBufs Dat.arrays
  rw [image_arr3, bigSep_W3, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr3_0 V c _)
      (sep_congr (arr3_1 V c _)
      (sep_congr (arr3_2 V c _)
      (sep_congr (arr3_3 V c _)
      (sep_congr (arr3_4 V c _)
      (sep_congr (arr3_5 V c _)
      (sep_congr (arr3_6 V c _)
      (sep_congr (arr3_7 V c _)
      (sep_congr (arr3_8 V c _)
      (sep_congr (arr3_9 V c _)
      (sep_congr (arr3_10 V c _)
      (sep_congr (arr3_11 V c _)
      (sep_congr (arr3_12 V c _)
      (sep_congr (arr3_13 V c _)
      (sep_congr (arr3_14 V c _)
      (sep_congr (arr3_15 V c _)
      (sep_congr (arr3_16 V c _)
      (arr3_17 V c _)))))))))))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_arg9 ↦{fullShare} V c main_arg9)
      ∗ ((c.tc : Thread nD τ).loc main_arg10 ↦{fullShare} V c main_arg10)
      ∗ ((c.tc : Thread nD τ).loc main_arg13 ↦{fullShare} V c main_arg13)
      ∗ ((c.tc : Thread nD τ).loc main_arg14 ↦{fullShare} V c main_arg14)
      ∗ ((c.tc : Thread nD τ).loc main_v15 ↦{fullShare} V c main_v15)
      ∗ ((c.tc : Thread nD τ).loc main_v17 ↦{fullShare} V c main_v17)
      ∗ ((c.tc : Thread nD τ).loc main_v32 ↦{fullShare} V c main_v32)
      ∗ ((c.tc : Thread nD τ).loc main_v34 ↦{fullShare} V c main_v34)
      ∗ ((c.tc : Thread nD τ).loc main_v49 ↦{fullShare} V c main_v49)
      ∗ ((c.tc : Thread nD τ).loc main_v51 ↦{fullShare} V c main_v51)
      ∗ ((c.tc : Thread nD τ).loc main_v52_0 ↦{fullShare} V c main_v52_0)
      ∗ ((c.tc : Thread nD τ).loc main_v52_1 ↦{fullShare} V c main_v52_1)) : sProp 𝕄) ⊢ _
  iintro ⟨G0, G1, G2, G3, G4, G5, G6, G7, G8, G9, G10, G11, G12, G13, G14, G15, G16⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  iexact G16

theorem arrAt3_in0 (c : Dev nD) : (dat3 V c).arrAt 0 cfg3.N = V c main_v0 := (Dat.arrAt_in _ 0 rfl _).trans (A_eq3 V c 0)
theorem arrAt3_in1 (c : Dev nD) : (dat3 V c).arrAt 1 cfg3.N = V c main_v0 := (Dat.arrAt_in _ 1 rfl _).trans (A_eq3 V c 1)
theorem arrAt3_in2 (c : Dev nD) : (dat3 V c).arrAt 2 cfg3.N = V c main_arg1 := (Dat.arrAt_in _ 2 rfl _).trans (A_eq3 V c 2)
theorem arrAt3_in3 (c : Dev nD) : (dat3 V c).arrAt 3 cfg3.N = V c main_arg2 := (Dat.arrAt_in _ 3 rfl _).trans (A_eq3 V c 3)
theorem arrAt3_in4 (c : Dev nD) : (dat3 V c).arrAt 4 cfg3.N = V c main_arg5 := (Dat.arrAt_in _ 4 rfl _).trans (A_eq3 V c 4)
theorem arrAt3_in5 (c : Dev nD) : (dat3 V c).arrAt 5 cfg3.N = V c main_arg6 := (Dat.arrAt_in _ 5 rfl _).trans (A_eq3 V c 5)
theorem arrAt3_in6 (c : Dev nD) : (dat3 V c).arrAt 6 cfg3.N = V c main_arg9 := (Dat.arrAt_in _ 6 rfl _).trans (A_eq3 V c 6)
theorem arrAt3_in7 (c : Dev nD) : (dat3 V c).arrAt 7 cfg3.N = V c main_arg10 := (Dat.arrAt_in _ 7 rfl _).trans (A_eq3 V c 7)
theorem arrAt3_in8 (c : Dev nD) : (dat3 V c).arrAt 8 cfg3.N = V c main_arg13 := (Dat.arrAt_in _ 8 rfl _).trans (A_eq3 V c 8)
theorem arrAt3_in9 (c : Dev nD) : (dat3 V c).arrAt 9 cfg3.N = V c main_arg14 := (Dat.arrAt_in _ 9 rfl _).trans (A_eq3 V c 9)
theorem arrAt3_in10 (c : Dev nD) : (dat3 V c).arrAt 10 cfg3.N = V c main_v15 := (Dat.arrAt_in _ 10 rfl _).trans (A_eq3 V c 10)
theorem arrAt3_in11 (c : Dev nD) : (dat3 V c).arrAt 11 cfg3.N = V c main_v17 := (Dat.arrAt_in _ 11 rfl _).trans (A_eq3 V c 11)
theorem arrAt3_in12 (c : Dev nD) : (dat3 V c).arrAt 12 cfg3.N = V c main_v32 := (Dat.arrAt_in _ 12 rfl _).trans (A_eq3 V c 12)
theorem arrAt3_in13 (c : Dev nD) : (dat3 V c).arrAt 13 cfg3.N = V c main_v34 := (Dat.arrAt_in _ 13 rfl _).trans (A_eq3 V c 13)
theorem arrAt3_in14 (c : Dev nD) : (dat3 V c).arrAt 14 cfg3.N = V c main_v49 := (Dat.arrAt_in _ 14 rfl _).trans (A_eq3 V c 14)
theorem arrAt3_in15 (c : Dev nD) : (dat3 V c).arrAt 15 cfg3.N = V c main_v51 := (Dat.arrAt_in _ 15 rfl _).trans (A_eq3 V c 15)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin3 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_v15 = V c main_v15) (hi10 : V' c main_v17 = V c main_v17) (hi11 : V' c main_v32 = V c main_v32) (hi12 : V' c main_v34 = V c main_v34) (hi13 : V' c main_v49 = V c main_v49) (hi14 : V' c main_v51 = V c main_v51) (ho0 : V' c main_v52_0 = (dat3 V c).arrAt 16 cfg3.N) (ho1 : V' c main_v52_1 = (dat3 V c).arrAt 17 cfg3.N) :
    (dat3 V c).arrays ((dat3 V c).arrAt · cfg3.N) ⊢ (Pipeline.arrBufs (Ix := Unit) (Name := ℕ) (U := UR sig nD τ) (Lvl := ℕ) spec3 c (V' c) : sProp 𝕄) := by
  unfold Pipeline.arrBufs Dat.arrays
  rw [image_arr3, bigSep_W3, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr3_0 V c _).trans (congrArg (fun X => (((c.tc : Thread nD τ).loc main_v0 ↦{fullShare.left} X) : sProp 𝕄)) (arrAt3_in0 V c)))
      (sep_congr ((arr3_1 V c _).trans (congrArg (fun X => (((c.tc : Thread nD τ).loc main_v0 ↦{fullShare.right} X) : sProp 𝕄)) (arrAt3_in1 V c)))
      (sep_congr ((arr3_2 V c _).trans (congrArg (fun X => (((c.tc : Thread nD τ).loc main_arg1 ↦{fullShare} X) : sProp 𝕄)) (arrAt3_in2 V c)))
      (sep_congr ((arr3_3 V c _).trans (congrArg (fun X => (((c.tc : Thread nD τ).loc main_arg2 ↦{fullShare} X) : sProp 𝕄)) (arrAt3_in3 V c)))
      (sep_congr ((arr3_4 V c _).trans (congrArg (fun X => (((c.tc : Thread nD τ).loc main_arg5 ↦{fullShare} X) : sProp 𝕄)) (arrAt3_in4 V c)))
      (sep_congr ((arr3_5 V c _).trans (congrArg (fun X => (((c.tc : Thread nD τ).loc main_arg6 ↦{fullShare} X) : sProp 𝕄)) (arrAt3_in5 V c)))
      (sep_congr ((arr3_6 V c _).trans (congrArg (fun X => (((c.tc : Thread nD τ).loc main_arg9 ↦{fullShare} X) : sProp 𝕄)) (arrAt3_in6 V c)))
      (sep_congr ((arr3_7 V c _).trans (congrArg (fun X => (((c.tc : Thread nD τ).loc main_arg10 ↦{fullShare} X) : sProp 𝕄)) (arrAt3_in7 V c)))
      (sep_congr ((arr3_8 V c _).trans (congrArg (fun X => (((c.tc : Thread nD τ).loc main_arg13 ↦{fullShare} X) : sProp 𝕄)) (arrAt3_in8 V c)))
      (sep_congr ((arr3_9 V c _).trans (congrArg (fun X => (((c.tc : Thread nD τ).loc main_arg14 ↦{fullShare} X) : sProp 𝕄)) (arrAt3_in9 V c)))
      (sep_congr ((arr3_10 V c _).trans (congrArg (fun X => (((c.tc : Thread nD τ).loc main_v15 ↦{fullShare} X) : sProp 𝕄)) (arrAt3_in10 V c)))
      (sep_congr ((arr3_11 V c _).trans (congrArg (fun X => (((c.tc : Thread nD τ).loc main_v17 ↦{fullShare} X) : sProp 𝕄)) (arrAt3_in11 V c)))
      (sep_congr ((arr3_12 V c _).trans (congrArg (fun X => (((c.tc : Thread nD τ).loc main_v32 ↦{fullShare} X) : sProp 𝕄)) (arrAt3_in12 V c)))
      (sep_congr ((arr3_13 V c _).trans (congrArg (fun X => (((c.tc : Thread nD τ).loc main_v34 ↦{fullShare} X) : sProp 𝕄)) (arrAt3_in13 V c)))
      (sep_congr ((arr3_14 V c _).trans (congrArg (fun X => (((c.tc : Thread nD τ).loc main_v49 ↦{fullShare} X) : sProp 𝕄)) (arrAt3_in14 V c)))
      (sep_congr ((arr3_15 V c _).trans (congrArg (fun X => (((c.tc : Thread nD τ).loc main_v51 ↦{fullShare} X) : sProp 𝕄)) (arrAt3_in15 V c)))
      (sep_congr (arr3_16 V c _)
      (arr3_17 V c _))))))))))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_arg9 ↦{fullShare} V' c main_arg9)
      ∗ ((c.tc : Thread nD τ).loc main_arg10 ↦{fullShare} V' c main_arg10)
      ∗ ((c.tc : Thread nD τ).loc main_arg13 ↦{fullShare} V' c main_arg13)
      ∗ ((c.tc : Thread nD τ).loc main_arg14 ↦{fullShare} V' c main_arg14)
      ∗ ((c.tc : Thread nD τ).loc main_v15 ↦{fullShare} V' c main_v15)
      ∗ ((c.tc : Thread nD τ).loc main_v17 ↦{fullShare} V' c main_v17)
      ∗ ((c.tc : Thread nD τ).loc main_v32 ↦{fullShare} V' c main_v32)
      ∗ ((c.tc : Thread nD τ).loc main_v34 ↦{fullShare} V' c main_v34)
      ∗ ((c.tc : Thread nD τ).loc main_v49 ↦{fullShare} V' c main_v49)
      ∗ ((c.tc : Thread nD τ).loc main_v51 ↦{fullShare} V' c main_v51)
      ∗ ((c.tc : Thread nD τ).loc main_v52_0 ↦{fullShare} V' c main_v52_0)
      ∗ ((c.tc : Thread nD τ).loc main_v52_1 ↦{fullShare} V' c main_v52_1)) : sProp 𝕄)
  rw [hi0, hi1, hi2, hi3, hi4, hi5, hi6, hi7, hi8, hi9, hi10, hi11, hi12, hi13, hi14, ho0, ho1]
  iintro ⟨A0, A1, A2, A3, A4, A5, A6, A7, A8, A9, A10, A11, A12, A13, A14, A15, A16, A17⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  iexact A17

/-- ENTRY, whole: a core's unscoped buffers at the entry contents are the region's arrays at the proof data's shares and every
    other unscoped buffer, untouched. -/
theorem entry3 (c : Dev nD) :
    (unscopedBufs (Ix := Unit) (Name := ℕ) (U := UR sig nD τ) (Lvl := ℕ) c (V c) : sProp 𝕄)
      ⊢ iprop((dat3 V c).arrays ((dat3 V c).arrAt · 0) ∗ Pipeline.unscopedRest spec3 c (V c)) := by
  rw [Pipeline.unscopedBufs_split₀ cfgs 3 winFacts₀3.arr_unscoped c (V c)]
  exact sep_mono (hsplit3 V c) .rfl

/-- EXIT, whole: the arrays at their final contents and the untouched rest are the core's unscoped buffers at contents that
    differ from the entry contents only on the output arrays, which hold what the write-backs left. -/
theorem exit3 (V' : (c : Dev nD) → (b : Ref sig .tc) → Buf (Elt F) ((c : Thread nD τ).loc b)) (c : Dev nD)
    (hrest : ∀ b, b ∉ Finset.univ.image (Pipeline.arrRef spec3) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_v15 = V c main_v15) (hi10 : V' c main_v17 = V c main_v17) (hi11 : V' c main_v32 = V c main_v32) (hi12 : V' c main_v34 = V c main_v34) (hi13 : V' c main_v49 = V c main_v49) (hi14 : V' c main_v51 = V c main_v51) (ho0 : V' c main_v52_0 = (dat3 V c).arrAt 16 cfg3.N) (ho1 : V' c main_v52_1 = (dat3 V c).arrAt 17 cfg3.N) :
    iprop((dat3 V c).arrays ((dat3 V c).arrAt · cfg3.N) ∗ Pipeline.unscopedRest spec3 c (V c))
      ⊢ (unscopedBufs (Ix := Unit) (Name := ℕ) (U := UR sig nD τ) (Lvl := ℕ) c (V' c) : sProp 𝕄) := by
  rw [Pipeline.unscopedBufs_split₀ cfgs 3 winFacts₀3.arr_unscoped c (V' c)]
  refine sep_mono (hjoin3 V V' c hi0 hi1 hi2 hi3 hi4 hi5 hi6 hi7 hi8 hi9 hi10 hi11 hi12 hi13 hi14 ho0 ho1) (Entails.of_eq ?_)
  unfold Pipeline.unscopedRest
  exact bigSep_congr fun b hb => by rw [hrest b (Finset.mem_sdiff.mp hb).2]

end

end Cert.KernelIdeal.Hand

end
-- ==== Proof.KernelIdeal.Run4.lean ====
/-
  The body of the final kernel: four activated layers feed the last layer, whose one output channel on the 128 × 128 pairs of the tile is stored as the output block, run on whole staging buffers, once for any float instance; the inputs' buffers come back as they were.
-/
import proofs.«135850_j19774029431551_2_alg».proof.Proof.Gen.KernelIdeal.Launch
import proofs.«135850_j19774029431551_2_alg».proof.Proof.Gen.KernelIdeal.Skeleton
import proofs.«135850_j19774029431551_2_alg».proof.Proof.Gen.KernelIdeal.Points
import Idealize.ShloMosaic.Lib.Pipeline.FrameBody
import Idealize.ShloMosaic.Lib.Ring
import Idealize.ShloMosaic.Lib.Tactic
import proofs.«135850_j19774029431551_2_alg».proof.Proof.KernelIdeal.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body overwrites the output block, whatever it held, with the last layer's values on the tile. -/
theorem run4 (c : Dev nD) (i : grid4.Coords)
    (arg2 : Memref sig .tc .vmem S64x128 .f32) (harg2 : arg2.IsWhole) (arg3 : Memref sig .tc .vmem S64x128 .f32) (harg3 : arg3.IsWhole) (arg4 : Memref sig .tc .vmem S16x64 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S8x16 .f32) (harg8 : arg8.IsWhole) (arg9 : Memref sig .tc .vmem S8 .f32) (harg9 : arg9.IsWhole) (arg10 : Memref sig .tc .vmem S8x8 .f32) (harg10 : arg10.IsWhole) (arg11 : Memref sig .tc .vmem S8 .f32) (harg11 : arg11.IsWhole) (arg12 : Memref sig .tc .vmem S1x8 .f32) (harg12 : arg12.IsWhole) (arg13 : Memref sig .tc .vmem S1 .f32) (harg13 : arg13.IsWhole) (arg14 : Memref sig .tc .vmem S16 .f32) (harg14 : arg14.IsWhole) (arg15 : Memref sig .tc .vmem S16 .f32) (harg15 : arg15.IsWhole) (arg16 : Memref sig .tc .vmem S16 .f32) (harg16 : arg16.IsWhole) (arg17 : Memref sig .tc .vmem S16 .f32) (harg17 : arg17.IsWhole) (arg18 : Memref sig .tc .vmem S8 .f32) (harg18 : arg18.IsWhole) (arg19 : Memref sig .tc .vmem S8 .f32) (harg19 : arg19.IsWhole) (arg20 : Memref sig .tc .vmem S8 .f32) (harg20 : arg20.IsWhole) (arg21 : Memref sig .tc .vmem S8 .f32) (harg21 : arg21.IsWhole) (arg22 : Memref sig .tc .vmem S128x128 .f32) (harg22 : arg22.IsWhole)

    (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (w5 : Vec F S1x8 .f32) (b5 : Vec F S1 .f32) (sc1 : Vec F S16 .f32) (bi1 : Vec F S16 .f32) (sc2 : Vec F S16 .f32) (bi2 : Vec F S16 .f32) (sc3 : Vec F S8 .f32) (bi3 : Vec F S8 .f32) (sc4 : Vec F S8 .f32) (bi4 : Vec F S8 .f32) :
      ∀ (E : Set ℕ) (K : PUnit → sProp 𝕄),
        iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare w5 ∗ owns (c : Thread nD τ) arg13 fullShare b5 ∗ owns (c : Thread nD τ) arg14 fullShare sc1 ∗ owns (c : Thread nD τ) arg15 fullShare bi1 ∗ owns (c : Thread nD τ) arg16 fullShare sc2 ∗ owns (c : Thread nD τ) arg17 fullShare bi2 ∗ owns (c : Thread nD τ) arg18 fullShare sc3 ∗ owns (c : Thread nD τ) arg19 fullShare bi3 ∗ owns (c : Thread nD τ) arg20 fullShare sc4 ∗ owns (c : Thread nD τ) arg21 fullShare bi4
            ∗ (∃ o, owns (c : Thread nD τ) arg22 fullShare o)
            ∗ (iprop(owns (c : Thread nD τ) arg2 fullShare x0 ∗ owns (c : Thread nD τ) arg3 fullShare x1 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4 ∗ owns (c : Thread nD τ) arg12 fullShare w5 ∗ owns (c : Thread nD τ) arg13 fullShare b5 ∗ owns (c : Thread nD τ) arg14 fullShare sc1 ∗ owns (c : Thread nD τ) arg15 fullShare bi1 ∗ owns (c : Thread nD τ) arg16 fullShare sc2 ∗ owns (c : Thread nD τ) arg17 fullShare bi2 ∗ owns (c : Thread nD τ) arg18 fullShare sc3 ∗ owns (c : Thread nD τ) arg19 fullShare bi3 ∗ owns (c : Thread nD τ) arg20 fullShare sc4 ∗ owns (c : Thread nD τ) arg21 fullShare bi4
                ∗ owns (c : Thread nD τ) arg22 fullShare (k4_pay1 (k4_pay3 (k4_pay2 x0 x1 w1 b1 sc1 bi1 w2 b2) sc2 bi2 w3 b3 sc3 bi3 w4) (k4_pay4 b4) sc4 bi4 w5 b5)) -∗ K ⟨⟩))
          ⊢ wp frame (wpE (defs₀ (F := F)) Variants.none c none) E (cc4_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc4_kernel_eq_skeleton]; unfold cc4_kernel_skel
    simp only [k4_part1_eq_skeleton]; unfold k4_part1_skel
    simp only [k4_part2_eq_skeleton]; unfold k4_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%o, %f20, %hf20, H20⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg16.eq_unread hf14
    obtain rfl := harg17.eq_unread hf15
    obtain rfl := harg18.eq_unread hf16
    obtain rfl := harg19.eq_unread hf17
    obtain rfl := harg20.eq_unread hf18
    obtain rfl := harg21.eq_unread hf19
    obtain rfl := harg22.eq_unread hf20
    sl_exec
    sl_step
    iapply Hk
    try sl_unfold_run_names
    have e0 := readAt_unit_zero arg2.view (harg2.unread x0) hz2 inb_S64x128_S64x128_0_0 x0 hf0
    have e1 := readAt_unit_zero arg3.view (harg3.unread x1) hz2 inb_S64x128_S64x128_0_0 x1 hf1
    have e2 := readAt_unit_zero arg4.view (harg4.unread w1) hz2 inb_S16x64_S16x64_0_0 w1 hf2
    have e3 := readAt_unit_zero arg5.view (harg5.unread b1) hz1 inb_S16_S16_0 b1 hf3
    have e4 := readAt_unit_zero arg6.view (harg6.unread w2) hz2 inb_S16x16_S16x16_0_0 w2 hf4
    have e5 := readAt_unit_zero arg7.view (harg7.unread b2) hz1 inb_S16_S16_0 b2 hf5
    have e6 := readAt_unit_zero arg8.view (harg8.unread w3) hz2 inb_S8x16_S8x16_0_0 w3 hf6
    have e7 := readAt_unit_zero arg9.view (harg9.unread b3) hz1 inb_S8_S8_0 b3 hf7
    have e8 := readAt_unit_zero arg10.view (harg10.unread w4) hz2 inb_S8x8_S8x8_0_0 w4 hf8
    have e9 := readAt_unit_zero arg11.view (harg11.unread b4) hz1 inb_S8_S8_0 b4 hf9
    have e10 := readAt_unit_zero arg12.view (harg12.unread w5) hz2 inb_S1x8_S1x8_0_0 w5 hf10
    have e11 := readAt_unit_zero arg13.view (harg13.unread b5) hz1 inb_S1_S1_0 b5 hf11
    have e12 := readAt_unit_zero arg14.view (harg14.unread sc1) hz1 inb_S16_S16_0 sc1 hf12
    have e13 := readAt_unit_zero arg15.view (harg15.unread bi1) hz1 inb_S16_S16_0 bi1 hf13
    have e14 := readAt_unit_zero arg16.view (harg16.unread sc2) hz1 inb_S16_S16_0 sc2 hf14
    have e15 := readAt_unit_zero arg17.view (harg17.unread bi2) hz1 inb_S16_S16_0 bi2 hf15
    have e16 := readAt_unit_zero arg18.view (harg18.unread sc3) hz1 inb_S8_S8_0 sc3 hf16
    have e17 := readAt_unit_zero arg19.view (harg19.unread bi3) hz1 inb_S8_S8_0 bi3 hf17
    have e18 := readAt_unit_zero arg20.view (harg20.unread sc4) hz1 inb_S8_S8_0 sc4 hf18
    have e19 := readAt_unit_zero arg21.view (harg21.unread bi4) hz1 inb_S8_S8_0 bi4 hf19
    rw [e0, e1, e2, e3, e4, e5, e6, e7, e8, e9, e10, e11, e12, e13, e14, e15, e16, e17, e18, e19]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; · ipureintro; exact hf16
      iexact H16
    isplitl [H17]
    · iexists _; isplitr; · ipureintro; exact hf17
      iexact H17
    isplitl [H18]
    · iexists _; isplitr; · ipureintro; exact hf18
      iexact H18
    isplitl [H19]
    · iexists _; isplitr; · ipureintro; exact hf19
      iexact H19
    iexists _; isplitr; swap; · iexact H20
    ipureintro
    exact read_writes_cons_unit_zero _ _ hz2 _ _ _

end Cert.KernelIdeal.Hand

end
-- ==== Proof.KernelIdeal.Dat4.lean ====
/-
  The final region: its proof data and the body obligation. The grid is 12 × 12 tiles; windows 0 and 1 stage the row and
  column blocks of the transposed features, windows 2 to 19 the five layers' weights and biases and the four layers' scales
  and shifts, fetched once; window 20 is the output, one 128 × 128 block per tile, written whole by the body at every point
  and written back after it.
-/
import proofs.«135850_j19774029431551_2_alg».proof.Proof.KernelIdeal.Run4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores in the output window's buffer, from the input blocks. -/
def val4_20 (x0 : Vec F S64x128 .f32) (x1 : Vec F S64x128 .f32) (w1 : Vec F S16x64 .f32) (b1 : Vec F S16 .f32) (w2 : Vec F S16x16 .f32) (b2 : Vec F S16 .f32) (w3 : Vec F S8x16 .f32) (b3 : Vec F S8 .f32) (w4 : Vec F S8x8 .f32) (b4 : Vec F S8 .f32) (w5 : Vec F S1x8 .f32) (b5 : Vec F S1 .f32) (sc1 : Vec F S16 .f32) (bi1 : Vec F S16 .f32) (sc2 : Vec F S16 .f32) (bi2 : Vec F S16 .f32) (sc3 : Vec F S8 .f32) (bi3 : Vec F S8 .f32) (sc4 : Vec F S8 .f32) (bi4 : Vec F S8 .f32) : Vec F S128x128 .f32 :=
  k4_pay1 (k4_pay3 (k4_pay2 x0 x1 w1 b1 sc1 bi1 w2 b2) sc2 bi2 w3 b3 sc3 bi3 w4) (k4_pay4 b4) sc4 bi4 w5 b5

section Region4

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)

theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)

theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)

theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)

theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)

theorem before4_16_of {c : Dev nD} (dat : Dat τ (Elt F) Unit ℕ (UR sig nD τ) ℕ cfg4 c) (hA : dat.A 16 = V c (Pipeline.arrRef spec4 16))
    (hafter : ∀ t, dat.after 16 t = iblk4 V c 16 t) (t : Fin cfg4.N) (d) : dat.before 16 t d = iblk4 V c 16 t :=
  (dat.before_in_eq_fetched 16 rfl (fun _ => rfl) (fun _ _ _ => rfl) (fun t => by rw [hafter]; unfold Dat.blockOf iblk4; rw [hA]; try rfl) t d).trans
    (by unfold Dat.fetched Dat.blockOf iblk4; rw [hA]; try rfl)

theorem before4_17_of {c : Dev nD} (dat : Dat τ (Elt F) Unit ℕ (UR sig nD τ) ℕ cfg4 c) (hA : dat.A 17 = V c (Pipeline.arrRef spec4 17))
    (hafter : ∀ t, dat.after 17 t = iblk4 V c 17 t) (t : Fin cfg4.N) (d) : dat.before 17 t d = iblk4 V c 17 t :=
  (dat.before_in_eq_fetched 17 rfl (fun _ => rfl) (fun _ _ _ => rfl) (fun t => by rw [hafter]; unfold Dat.blockOf iblk4; rw [hA]; try rfl) t d).trans
    (by unfold Dat.fetched Dat.blockOf iblk4; rw [hA]; try rfl)

theorem before4_18_of {c : Dev nD} (dat : Dat τ (Elt F) Unit ℕ (UR sig nD τ) ℕ cfg4 c) (hA : dat.A 18 = V c (Pipeline.arrRef spec4 18))
    (hafter : ∀ t, dat.after 18 t = iblk4 V c 18 t) (t : Fin cfg4.N) (d) : dat.before 18 t d = iblk4 V c 18 t :=
  (dat.before_in_eq_fetched 18 rfl (fun _ => rfl) (fun _ _ _ => rfl) (fun t => by rw [hafter]; unfold Dat.blockOf iblk4; rw [hA]; try rfl) t d).trans
    (by unfold Dat.fetched Dat.blockOf iblk4; rw [hA]; try rfl)

theorem before4_19_of {c : Dev nD} (dat : Dat τ (Elt F) Unit ℕ (UR sig nD τ) ℕ cfg4 c) (hA : dat.A 19 = V c (Pipeline.arrRef spec4 19))
    (hafter : ∀ t, dat.after 19 t = iblk4 V c 19 t) (t : Fin cfg4.N) (d) : dat.before 19 t d = iblk4 V c 19 t :=
  (dat.before_in_eq_fetched 19 rfl (fun _ => rfl) (fun _ _ _ => rfl) (fun t => by rw [hafter]; unfold Dat.blockOf iblk4; rw [hA]; try rfl) t d).trans
    (by unfold Dat.fetched Dat.blockOf iblk4; rw [hA]; try rfl)

/-- The region's proof data on core `c`: the arrays as the region finds them; after the body at point `t` each input's buffer
    at its block and the output's at the last layer's values on the tile; the row and column windows hold the one array
    they both stage at the two halves of its full share; nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => val4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t)
    | ⟨_ + 21, h⟩ => absurd h (Nat.not_lt.2 (Nat.le_add_left _ _))
  Φ _ := Pipeline.ΦA spec4 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨_ + 21, h⟩ => absurd h (Nat.not_lt.2 (Nat.le_add_left _ _))
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = iblk4 V c 16 t := by dsimp only [dat4]
theorem after4_17 (c : Dev nD) (t : Fin cfg4.N) : (dat4 V c).after 17 t = iblk4 V c 17 t := by dsimp only [dat4]
theorem after4_18 (c : Dev nD) (t : Fin cfg4.N) : (dat4 V c).after 18 t = iblk4 V c 18 t := by dsimp only [dat4]
theorem after4_19 (c : Dev nD) (t : Fin cfg4.N) : (dat4 V c).after 19 t = iblk4 V c 19 t := by dsimp only [dat4]
theorem after4_20 (c : Dev nD) (t : Fin cfg4.N) : (dat4 V c).after 20 t = val4_20 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d
theorem before4_16 (c : Dev nD) (t : Fin cfg4.N) (d) : (dat4 V c).before 16 t d = iblk4 V c 16 t :=
  before4_16_of V (dat4 V c) (A_eq4 V c 16) (after4_16 V c) t d
theorem before4_17 (c : Dev nD) (t : Fin cfg4.N) (d) : (dat4 V c).before 17 t d = iblk4 V c 17 t :=
  before4_17_of V (dat4 V c) (A_eq4 V c 17) (after4_17 V c) t d
theorem before4_18 (c : Dev nD) (t : Fin cfg4.N) (d) : (dat4 V c).before 18 t d = iblk4 V c 18 t :=
  before4_18_of V (dat4 V c) (A_eq4 V c 18) (after4_18 V c) t d
theorem before4_19 (c : Dev nD) (t : Fin cfg4.N) (d) : (dat4 V c).before 19 t d = iblk4 V c 19 t :=
  before4_19_of V (dat4 V c) (A_eq4 V c 19) (after4_19 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d))
    ∗ (∃ d, owns (c : Thread nD τ) (st4_20 t) fullShare ((dat4 V c).before 20 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t)
    ∗ owns (c : Thread nD τ) (st4_20 t) fullShare ((dat4 V c).after 20 t))

set_option maxHeartbeats 1600000 in
/-- The body at any point: the inputs' buffers hold their blocks, the output's anything; the run of the body applies; the
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15, before4_16, before4_17, before4_18, before4_19]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19, after4_20]
  unfold val4_20
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((run4 c (grid4.coords t) _ _ _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KernelIdeal.Entry4.lean ====
/-
  Entering and leaving region 4: the distinct arrays behind its windows dealt to the windows on entry — the transposed
  features, which the row and column windows both stage, as the two halves of its full share — and put together again on
  exit, the output arrays at what the write-backs left, every buffer no window stages as it was.
-/
import proofs.«135850_j19774029431551_2_alg».proof.Proof.KernelIdeal.Dat4
import proofs.«135850_j19774029431551_2_alg».proof.Proof.KernelIdeal.Entry0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The distinct buffers behind the windows' arrays: the row and column windows stage one array. -/
theorem image_arr4 : (Finset.univ.image (Pipeline.arrRef spec4) : Finset (Ref sig .tc)) = {main_v0, main_arg1, main_arg2, main_arg5, main_arg6, main_arg9, main_arg10, main_arg13, main_arg14, main_arg17, main_arg18, main_v15, main_v17, main_v32, main_v34, main_v49, main_v51, main_v66, main_v68, main_v69} := by decide

theorem arr4_0 (c : Dev nD) (X : Buf (Elt F) ((cfg4.win 0).arr.view.loc (c.tc : Thread nD τ))) :
    ((cfg4.win 0).arr.view.loc (c.tc : Thread nD τ) ↦[(cfg4.win 0).arr.view.set]{(dat4 V c).share 0} X : sProp 𝕄)
      = ((c.tc : Thread nD τ).loc main_v0 ↦{fullShare.left} X) := by
  rw [(arr_whole4 0).set_eq_univ]; rfl
theorem arr4_1 (c : Dev nD) (X : Buf (Elt F) ((cfg4.win 1).arr.view.loc (c.tc : Thread nD τ))) :
    ((cfg4.win 1).arr.view.loc (c.tc : Thread nD τ) ↦[(cfg4.win 1).arr.view.set]{(dat4 V c).share 1} X : sProp 𝕄)
      = ((c.tc : Thread nD τ).loc main_v0 ↦{fullShare.right} X) := by
  rw [(arr_whole4 1).set_eq_univ]; rfl
theorem arr4_2 (c : Dev nD) (X : Buf (Elt F) ((cfg4.win 2).arr.view.loc (c.tc : Thread nD τ))) :
    ((cfg4.win 2).arr.view.loc (c.tc : Thread nD τ) ↦[(cfg4.win 2).arr.view.set]{(dat4 V c).share 2} X : sProp 𝕄)
      = ((c.tc : Thread nD τ).loc main_arg1 ↦{fullShare} X) := by
  rw [(arr_whole4 2).set_eq_univ]; rfl
theorem arr4_3 (c : Dev nD) (X : Buf (Elt F) ((cfg4.win 3).arr.view.loc (c.tc : Thread nD τ))) :
    ((cfg4.win 3).arr.view.loc (c.tc : Thread nD τ) ↦[(cfg4.win 3).arr.view.set]{(dat4 V c).share 3} X : sProp 𝕄)
      = ((c.tc : Thread nD τ).loc main_arg2 ↦{fullShare} X) := by
  rw [(arr_whole4 3).set_eq_univ]; rfl
theorem arr4_4 (c : Dev nD) (X : Buf (Elt F) ((cfg4.win 4).arr.view.loc (c.tc : Thread nD τ))) :
    ((cfg4.win 4).arr.view.loc (c.tc : Thread nD τ) ↦[(cfg4.win 4).arr.view.set]{(dat4 V c).share 4} X : sProp 𝕄)
      = ((c.tc : Thread nD τ).loc main_arg5 ↦{fullShare} X) := by
  rw [(arr_whole4 4).set_eq_univ]; rfl
theorem arr4_5 (c : Dev nD) (X : Buf (Elt F) ((cfg4.win 5).arr.view.loc (c.tc : Thread nD τ))) :
    ((cfg4.win 5).arr.view.loc (c.tc : Thread nD τ) ↦[(cfg4.win 5).arr.view.set]{(dat4 V c).share 5} X : sProp 𝕄)
      = ((c.tc : Thread nD τ).loc main_arg6 ↦{fullShare} X) := by
  rw [(arr_whole4 5).set_eq_univ]; rfl
theorem arr4_6 (c : Dev nD) (X : Buf (Elt F) ((cfg4.win 6).arr.view.loc (c.tc : Thread nD τ))) :
    ((cfg4.win 6).arr.view.loc (c.tc : Thread nD τ) ↦[(cfg4.win 6).arr.view.set]{(dat4 V c).share 6} X : sProp 𝕄)
      = ((c.tc : Thread nD τ).loc main_arg9 ↦{fullShare} X) := by
  rw [(arr_whole4 6).set_eq_univ]; rfl
theorem arr4_7 (c : Dev nD) (X : Buf (Elt F) ((cfg4.win 7).arr.view.loc (c.tc : Thread nD τ))) :
    ((cfg4.win 7).arr.view.loc (c.tc : Thread nD τ) ↦[(cfg4.win 7).arr.view.set]{(dat4 V c).share 7} X : sProp 𝕄)
      = ((c.tc : Thread nD τ).loc main_arg10 ↦{fullShare} X) := by
  rw [(arr_whole4 7).set_eq_univ]; rfl
theorem arr4_8 (c : Dev nD) (X : Buf (Elt F) ((cfg4.win 8).arr.view.loc (c.tc : Thread nD τ))) :
    ((cfg4.win 8).arr.view.loc (c.tc : Thread nD τ) ↦[(cfg4.win 8).arr.view.set]{(dat4 V c).share 8} X : sProp 𝕄)
      = ((c.tc : Thread nD τ).loc main_arg13 ↦{fullShare} X) := by
  rw [(arr_whole4 8).set_eq_univ]; rfl
theorem arr4_9 (c : Dev nD) (X : Buf (Elt F) ((cfg4.win 9).arr.view.loc (c.tc : Thread nD τ))) :
    ((cfg4.win 9).arr.view.loc (c.tc : Thread nD τ) ↦[(cfg4.win 9).arr.view.set]{(dat4 V c).share 9} X : sProp 𝕄)
      = ((c.tc : Thread nD τ).loc main_arg14 ↦{fullShare} X) := by
  rw [(arr_whole4 9).set_eq_univ]; rfl
theorem arr4_10 (c : Dev nD) (X : Buf (Elt F) ((cfg4.win 10).arr.view.loc (c.tc : Thread nD τ))) :
    ((cfg4.win 10).arr.view.loc (c.tc : Thread nD τ) ↦[(cfg4.win 10).arr.view.set]{(dat4 V c).share 10} X : sProp 𝕄)
      = ((c.tc : Thread nD τ).loc main_arg17 ↦{fullShare} X) := by
  rw [(arr_whole4 10).set_eq_univ]; rfl
theorem arr4_11 (c : Dev nD) (X : Buf (Elt F) ((cfg4.win 11).arr.view.loc (c.tc : Thread nD τ))) :
    ((cfg4.win 11).arr.view.loc (c.tc : Thread nD τ) ↦[(cfg4.win 11).arr.view.set]{(dat4 V c).share 11} X : sProp 𝕄)
      = ((c.tc : Thread nD τ).loc main_arg18 ↦{fullShare} X) := by
  rw [(arr_whole4 11).set_eq_univ]; rfl
theorem arr4_12 (c : Dev nD) (X : Buf (Elt F) ((cfg4.win 12).arr.view.loc (c.tc : Thread nD τ))) :
    ((cfg4.win 12).arr.view.loc (c.tc : Thread nD τ) ↦[(cfg4.win 12).arr.view.set]{(dat4 V c).share 12} X : sProp 𝕄)
      = ((c.tc : Thread nD τ).loc main_v15 ↦{fullShare} X) := by
  rw [(arr_whole4 12).set_eq_univ]; rfl
theorem arr4_13 (c : Dev nD) (X : Buf (Elt F) ((cfg4.win 13).arr.view.loc (c.tc : Thread nD τ))) :
    ((cfg4.win 13).arr.view.loc (c.tc : Thread nD τ) ↦[(cfg4.win 13).arr.view.set]{(dat4 V c).share 13} X : sProp 𝕄)
      = ((c.tc : Thread nD τ).loc main_v17 ↦{fullShare} X) := by
  rw [(arr_whole4 13).set_eq_univ]; rfl
theorem arr4_14 (c : Dev nD) (X : Buf (Elt F) ((cfg4.win 14).arr.view.loc (c.tc : Thread nD τ))) :
    ((cfg4.win 14).arr.view.loc (c.tc : Thread nD τ) ↦[(cfg4.win 14).arr.view.set]{(dat4 V c).share 14} X : sProp 𝕄)
      = ((c.tc : Thread nD τ).loc main_v32 ↦{fullShare} X) := by
  rw [(arr_whole4 14).set_eq_univ]; rfl
theorem arr4_15 (c : Dev nD) (X : Buf (Elt F) ((cfg4.win 15).arr.view.loc (c.tc : Thread nD τ))) :
    ((cfg4.win 15).arr.view.loc (c.tc : Thread nD τ) ↦[(cfg4.win 15).arr.view.set]{(dat4 V c).share 15} X : sProp 𝕄)
      = ((c.tc : Thread nD τ).loc main_v34 ↦{fullShare} X) := by
  rw [(arr_whole4 15).set_eq_univ]; rfl
theorem arr4_16 (c : Dev nD) (X : Buf (Elt F) ((cfg4.win 16).arr.view.loc (c.tc : Thread nD τ))) :
    ((cfg4.win 16).arr.view.loc (c.tc : Thread nD τ) ↦[(cfg4.win 16).arr.view.set]{(dat4 V c).share 16} X : sProp 𝕄)
      = ((c.tc : Thread nD τ).loc main_v49 ↦{fullShare} X) := by
  rw [(arr_whole4 16).set_eq_univ]; rfl
theorem arr4_17 (c : Dev nD) (X : Buf (Elt F) ((cfg4.win 17).arr.view.loc (c.tc : Thread nD τ))) :
    ((cfg4.win 17).arr.view.loc (c.tc : Thread nD τ) ↦[(cfg4.win 17).arr.view.set]{(dat4 V c).share 17} X : sProp 𝕄)
      = ((c.tc : Thread nD τ).loc main_v51 ↦{fullShare} X) := by
  rw [(arr_whole4 17).set_eq_univ]; rfl
theorem arr4_18 (c : Dev nD) (X : Buf (Elt F) ((cfg4.win 18).arr.view.loc (c.tc : Thread nD τ))) :
    ((cfg4.win 18).arr.view.loc (c.tc : Thread nD τ) ↦[(cfg4.win 18).arr.view.set]{(dat4 V c).share 18} X : sProp 𝕄)
      = ((c.tc : Thread nD τ).loc main_v66 ↦{fullShare} X) := by
  rw [(arr_whole4 18).set_eq_univ]; rfl
theorem arr4_19 (c : Dev nD) (X : Buf (Elt F) ((cfg4.win 19).arr.view.loc (c.tc : Thread nD τ))) :
    ((cfg4.win 19).arr.view.loc (c.tc : Thread nD τ) ↦[(cfg4.win 19).arr.view.set]{(dat4 V c).share 19} X : sProp 𝕄)
      = ((c.tc : Thread nD τ).loc main_v68 ↦{fullShare} X) := by
  rw [(arr_whole4 19).set_eq_univ]; rfl
theorem arr4_20 (c : Dev nD) (X : Buf (Elt F) ((cfg4.win 20).arr.view.loc (c.tc : Thread nD τ))) :
    ((cfg4.win 20).arr.view.loc (c.tc : Thread nD τ) ↦[(cfg4.win 20).arr.view.set]{(dat4 V c).share 20} X : sProp 𝕄)
      = ((c.tc : Thread nD τ).loc main_v69 ↦{fullShare} X) := by
  rw [(arr_whole4 20).set_eq_univ]; rfl

set_option maxHeartbeats 8000000 in
/-- ENTRY: the distinct buffers behind the arrays, whole at the entry contents, are the windows' arrays at the proof data's
    shares and entry contents: the shared array's full share is dealt as its two halves. -/
theorem hsplit4 (c : Dev nD) :
    (Pipeline.arrBufs (Ix := Unit) (Name := ℕ) (U := UR sig nD τ) (Lvl := ℕ) spec4 c (V c) : sProp 𝕄) ⊢ (dat4 V c).arrays ((dat4 V c).arrAt · 0) := by
  unfold Pipeline.arrBufs Dat.arrays
  rw [image_arr4, bigSep_W4, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans ?_ (Entails.of_eq (sep_congr (arr4_0 V c _)
      (sep_congr (arr4_1 V c _)
      (sep_congr (arr4_2 V c _)
      (sep_congr (arr4_3 V c _)
      (sep_congr (arr4_4 V c _)
      (sep_congr (arr4_5 V c _)
      (sep_congr (arr4_6 V c _)
      (sep_congr (arr4_7 V c _)
      (sep_congr (arr4_8 V c _)
      (sep_congr (arr4_9 V c _)
      (sep_congr (arr4_10 V c _)
      (sep_congr (arr4_11 V c _)
      (sep_congr (arr4_12 V c _)
      (sep_congr (arr4_13 V c _)
      (sep_congr (arr4_14 V c _)
      (sep_congr (arr4_15 V c _)
      (sep_congr (arr4_16 V c _)
      (sep_congr (arr4_17 V c _)
      (sep_congr (arr4_18 V c _)
      (sep_congr (arr4_19 V c _)
      (arr4_20 V c _))))))))))))))))))))).symm)
  have hs : (((c.tc : Thread nD τ).loc main_v0 ↦{fullShare} V c main_v0) : sProp 𝕄)
      ⊢ iprop(((c.tc : Thread nD τ).loc main_v0 ↦{fullShare.left} V c main_v0) ∗ ((c.tc : Thread nD τ).loc main_v0 ↦{fullShare.right} V c main_v0)) :=
    (pointsTo_share (PosShare.mem_left_op_right fullShare)).1
  show (iprop(((c.tc : Thread nD τ).loc main_v0 ↦{fullShare} V c main_v0)
      ∗ ((c.tc : Thread nD τ).loc main_arg1 ↦{fullShare} V c main_arg1)
      ∗ ((c.tc : Thread nD τ).loc main_arg2 ↦{fullShare} V c main_arg2)
      ∗ ((c.tc : Thread nD τ).loc main_arg5 ↦{fullShare} V c main_arg5)
      ∗ ((c.tc : Thread nD τ).loc main_arg6 ↦{fullShare} V c main_arg6)
      ∗ ((c.tc : Thread nD τ).loc main_arg9 ↦{fullShare} V c main_arg9)
      ∗ ((c.tc : Thread nD τ).loc main_arg10 ↦{fullShare} V c main_arg10)
      ∗ ((c.tc : Thread nD τ).loc main_arg13 ↦{fullShare} V c main_arg13)
      ∗ ((c.tc : Thread nD τ).loc main_arg14 ↦{fullShare} V c main_arg14)
      ∗ ((c.tc : Thread nD τ).loc main_arg17 ↦{fullShare} V c main_arg17)
      ∗ ((c.tc : Thread nD τ).loc main_arg18 ↦{fullShare} V c main_arg18)
      ∗ ((c.tc : Thread nD τ).loc main_v15 ↦{fullShare} V c main_v15)
      ∗ ((c.tc : Thread nD τ).loc main_v17 ↦{fullShare} V c main_v17)
      ∗ ((c.tc : Thread nD τ).loc main_v32 ↦{fullShare} V c main_v32)
      ∗ ((c.tc : Thread nD τ).loc main_v34 ↦{fullShare} V c main_v34)
      ∗ ((c.tc : Thread nD τ).loc main_v49 ↦{fullShare} V c main_v49)
      ∗ ((c.tc : Thread nD τ).loc main_v51 ↦{fullShare} V c main_v51)
      ∗ ((c.tc : Thread nD τ).loc main_v66 ↦{fullShare} V c main_v66)
      ∗ ((c.tc : Thread nD τ).loc main_v68 ↦{fullShare} V c main_v68)
      ∗ ((c.tc : Thread nD τ).loc main_v69 ↦{fullShare} V c main_v69)) : sProp 𝕄) ⊢ _
  iintro ⟨G0, G1, G2, G3, G4, G5, G6, G7, G8, G9, G10, G11, G12, G13, G14, G15, G16, G17, G18, G19⟩
  ihave Hs := hs $$ G0
  icases Hs with ⟨HL, HR⟩
  isplitl [HL]; · iexact HL
  isplitl [HR]; · iexact HR
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  iexact G19

theorem arrAt4_in0 (c : Dev nD) : (dat4 V c).arrAt 0 cfg4.N = V c main_v0 := (Dat.arrAt_in _ 0 rfl _).trans (A_eq4 V c 0)
theorem arrAt4_in1 (c : Dev nD) : (dat4 V c).arrAt 1 cfg4.N = V c main_v0 := (Dat.arrAt_in _ 1 rfl _).trans (A_eq4 V c 1)
theorem arrAt4_in2 (c : Dev nD) : (dat4 V c).arrAt 2 cfg4.N = V c main_arg1 := (Dat.arrAt_in _ 2 rfl _).trans (A_eq4 V c 2)
theorem arrAt4_in3 (c : Dev nD) : (dat4 V c).arrAt 3 cfg4.N = V c main_arg2 := (Dat.arrAt_in _ 3 rfl _).trans (A_eq4 V c 3)
theorem arrAt4_in4 (c : Dev nD) : (dat4 V c).arrAt 4 cfg4.N = V c main_arg5 := (Dat.arrAt_in _ 4 rfl _).trans (A_eq4 V c 4)
theorem arrAt4_in5 (c : Dev nD) : (dat4 V c).arrAt 5 cfg4.N = V c main_arg6 := (Dat.arrAt_in _ 5 rfl _).trans (A_eq4 V c 5)
theorem arrAt4_in6 (c : Dev nD) : (dat4 V c).arrAt 6 cfg4.N = V c main_arg9 := (Dat.arrAt_in _ 6 rfl _).trans (A_eq4 V c 6)
theorem arrAt4_in7 (c : Dev nD) : (dat4 V c).arrAt 7 cfg4.N = V c main_arg10 := (Dat.arrAt_in _ 7 rfl _).trans (A_eq4 V c 7)
theorem arrAt4_in8 (c : Dev nD) : (dat4 V c).arrAt 8 cfg4.N = V c main_arg13 := (Dat.arrAt_in _ 8 rfl _).trans (A_eq4 V c 8)
theorem arrAt4_in9 (c : Dev nD) : (dat4 V c).arrAt 9 cfg4.N = V c main_arg14 := (Dat.arrAt_in _ 9 rfl _).trans (A_eq4 V c 9)
theorem arrAt4_in10 (c : Dev nD) : (dat4 V c).arrAt 10 cfg4.N = V c main_arg17 := (Dat.arrAt_in _ 10 rfl _).trans (A_eq4 V c 10)
theorem arrAt4_in11 (c : Dev nD) : (dat4 V c).arrAt 11 cfg4.N = V c main_arg18 := (Dat.arrAt_in _ 11 rfl _).trans (A_eq4 V c 11)
theorem arrAt4_in12 (c : Dev nD) : (dat4 V c).arrAt 12 cfg4.N = V c main_v15 := (Dat.arrAt_in _ 12 rfl _).trans (A_eq4 V c 12)
theorem arrAt4_in13 (c : Dev nD) : (dat4 V c).arrAt 13 cfg4.N = V c main_v17 := (Dat.arrAt_in _ 13 rfl _).trans (A_eq4 V c 13)
theorem arrAt4_in14 (c : Dev nD) : (dat4 V c).arrAt 14 cfg4.N = V c main_v32 := (Dat.arrAt_in _ 14 rfl _).trans (A_eq4 V c 14)
theorem arrAt4_in15 (c : Dev nD) : (dat4 V c).arrAt 15 cfg4.N = V c main_v34 := (Dat.arrAt_in _ 15 rfl _).trans (A_eq4 V c 15)
theorem arrAt4_in16 (c : Dev nD) : (dat4 V c).arrAt 16 cfg4.N = V c main_v49 := (Dat.arrAt_in _ 16 rfl _).trans (A_eq4 V c 16)
theorem arrAt4_in17 (c : Dev nD) : (dat4 V c).arrAt 17 cfg4.N = V c main_v51 := (Dat.arrAt_in _ 17 rfl _).trans (A_eq4 V c 17)
theorem arrAt4_in18 (c : Dev nD) : (dat4 V c).arrAt 18 cfg4.N = V c main_v66 := (Dat.arrAt_in _ 18 rfl _).trans (A_eq4 V c 18)
theorem arrAt4_in19 (c : Dev nD) : (dat4 V c).arrAt 19 cfg4.N = V c main_v68 := (Dat.arrAt_in _ 19 rfl _).trans (A_eq4 V c 19)

set_option maxHeartbeats 8000000 in
/-- EXIT: the windows' arrays at their final contents are the distinct buffers behind them, whole, at any contents that agree
    with the entry contents on the input arrays and with the write-backs' result on the output arrays: an input window's array is
    never changed, so the two halves of the shared array make its full share again. -/
theorem hjoin4 (V' : (c : Dev nD) → (b : Ref sig .tc) → Buf (Elt F) ((c : Thread nD τ).loc b)) (c : Dev nD)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_arg17 = V c main_arg17) (hi10 : V' c main_arg18 = V c main_arg18) (hi11 : V' c main_v15 = V c main_v15) (hi12 : V' c main_v17 = V c main_v17) (hi13 : V' c main_v32 = V c main_v32) (hi14 : V' c main_v34 = V c main_v34) (hi15 : V' c main_v49 = V c main_v49) (hi16 : V' c main_v51 = V c main_v51) (hi17 : V' c main_v66 = V c main_v66) (hi18 : V' c main_v68 = V c main_v68) (ho0 : V' c main_v69 = (dat4 V c).arrAt 20 cfg4.N) :
    (dat4 V c).arrays ((dat4 V c).arrAt · cfg4.N) ⊢ (Pipeline.arrBufs (Ix := Unit) (Name := ℕ) (U := UR sig nD τ) (Lvl := ℕ) spec4 c (V' c) : sProp 𝕄) := by
  unfold Pipeline.arrBufs Dat.arrays
  rw [image_arr4, bigSep_W4, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  dsimp only
  refine BIBase.Entails.trans (Entails.of_eq (sep_congr ((arr4_0 V c _).trans (congrArg (fun X => (((c.tc : Thread nD τ).loc main_v0 ↦{fullShare.left} X) : sProp 𝕄)) (arrAt4_in0 V c)))
      (sep_congr ((arr4_1 V c _).trans (congrArg (fun X => (((c.tc : Thread nD τ).loc main_v0 ↦{fullShare.right} X) : sProp 𝕄)) (arrAt4_in1 V c)))
      (sep_congr ((arr4_2 V c _).trans (congrArg (fun X => (((c.tc : Thread nD τ).loc main_arg1 ↦{fullShare} X) : sProp 𝕄)) (arrAt4_in2 V c)))
      (sep_congr ((arr4_3 V c _).trans (congrArg (fun X => (((c.tc : Thread nD τ).loc main_arg2 ↦{fullShare} X) : sProp 𝕄)) (arrAt4_in3 V c)))
      (sep_congr ((arr4_4 V c _).trans (congrArg (fun X => (((c.tc : Thread nD τ).loc main_arg5 ↦{fullShare} X) : sProp 𝕄)) (arrAt4_in4 V c)))
      (sep_congr ((arr4_5 V c _).trans (congrArg (fun X => (((c.tc : Thread nD τ).loc main_arg6 ↦{fullShare} X) : sProp 𝕄)) (arrAt4_in5 V c)))
      (sep_congr ((arr4_6 V c _).trans (congrArg (fun X => (((c.tc : Thread nD τ).loc main_arg9 ↦{fullShare} X) : sProp 𝕄)) (arrAt4_in6 V c)))
      (sep_congr ((arr4_7 V c _).trans (congrArg (fun X => (((c.tc : Thread nD τ).loc main_arg10 ↦{fullShare} X) : sProp 𝕄)) (arrAt4_in7 V c)))
      (sep_congr ((arr4_8 V c _).trans (congrArg (fun X => (((c.tc : Thread nD τ).loc main_arg13 ↦{fullShare} X) : sProp 𝕄)) (arrAt4_in8 V c)))
      (sep_congr ((arr4_9 V c _).trans (congrArg (fun X => (((c.tc : Thread nD τ).loc main_arg14 ↦{fullShare} X) : sProp 𝕄)) (arrAt4_in9 V c)))
      (sep_congr ((arr4_10 V c _).trans (congrArg (fun X => (((c.tc : Thread nD τ).loc main_arg17 ↦{fullShare} X) : sProp 𝕄)) (arrAt4_in10 V c)))
      (sep_congr ((arr4_11 V c _).trans (congrArg (fun X => (((c.tc : Thread nD τ).loc main_arg18 ↦{fullShare} X) : sProp 𝕄)) (arrAt4_in11 V c)))
      (sep_congr ((arr4_12 V c _).trans (congrArg (fun X => (((c.tc : Thread nD τ).loc main_v15 ↦{fullShare} X) : sProp 𝕄)) (arrAt4_in12 V c)))
      (sep_congr ((arr4_13 V c _).trans (congrArg (fun X => (((c.tc : Thread nD τ).loc main_v17 ↦{fullShare} X) : sProp 𝕄)) (arrAt4_in13 V c)))
      (sep_congr ((arr4_14 V c _).trans (congrArg (fun X => (((c.tc : Thread nD τ).loc main_v32 ↦{fullShare} X) : sProp 𝕄)) (arrAt4_in14 V c)))
      (sep_congr ((arr4_15 V c _).trans (congrArg (fun X => (((c.tc : Thread nD τ).loc main_v34 ↦{fullShare} X) : sProp 𝕄)) (arrAt4_in15 V c)))
      (sep_congr ((arr4_16 V c _).trans (congrArg (fun X => (((c.tc : Thread nD τ).loc main_v49 ↦{fullShare} X) : sProp 𝕄)) (arrAt4_in16 V c)))
      (sep_congr ((arr4_17 V c _).trans (congrArg (fun X => (((c.tc : Thread nD τ).loc main_v51 ↦{fullShare} X) : sProp 𝕄)) (arrAt4_in17 V c)))
      (sep_congr ((arr4_18 V c _).trans (congrArg (fun X => (((c.tc : Thread nD τ).loc main_v66 ↦{fullShare} X) : sProp 𝕄)) (arrAt4_in18 V c)))
      (sep_congr ((arr4_19 V c _).trans (congrArg (fun X => (((c.tc : Thread nD τ).loc main_v68 ↦{fullShare} X) : sProp 𝕄)) (arrAt4_in19 V c)))
      (arr4_20 V c _)))))))))))))))))))))) ?_
  have hj : iprop(((c.tc : Thread nD τ).loc main_v0 ↦{fullShare.left} V c main_v0) ∗ ((c.tc : Thread nD τ).loc main_v0 ↦{fullShare.right} V c main_v0))
      ⊢ (((c.tc : Thread nD τ).loc main_v0 ↦{fullShare} V c main_v0) : sProp 𝕄) :=
    (pointsTo_share (PosShare.mem_left_op_right fullShare)).2
  show _ ⊢ (iprop(((c.tc : Thread nD τ).loc main_v0 ↦{fullShare} V' c main_v0)
      ∗ ((c.tc : Thread nD τ).loc main_arg1 ↦{fullShare} V' c main_arg1)
      ∗ ((c.tc : Thread nD τ).loc main_arg2 ↦{fullShare} V' c main_arg2)
      ∗ ((c.tc : Thread nD τ).loc main_arg5 ↦{fullShare} V' c main_arg5)
      ∗ ((c.tc : Thread nD τ).loc main_arg6 ↦{fullShare} V' c main_arg6)
      ∗ ((c.tc : Thread nD τ).loc main_arg9 ↦{fullShare} V' c main_arg9)
      ∗ ((c.tc : Thread nD τ).loc main_arg10 ↦{fullShare} V' c main_arg10)
      ∗ ((c.tc : Thread nD τ).loc main_arg13 ↦{fullShare} V' c main_arg13)
      ∗ ((c.tc : Thread nD τ).loc main_arg14 ↦{fullShare} V' c main_arg14)
      ∗ ((c.tc : Thread nD τ).loc main_arg17 ↦{fullShare} V' c main_arg17)
      ∗ ((c.tc : Thread nD τ).loc main_arg18 ↦{fullShare} V' c main_arg18)
      ∗ ((c.tc : Thread nD τ).loc main_v15 ↦{fullShare} V' c main_v15)
      ∗ ((c.tc : Thread nD τ).loc main_v17 ↦{fullShare} V' c main_v17)
      ∗ ((c.tc : Thread nD τ).loc main_v32 ↦{fullShare} V' c main_v32)
      ∗ ((c.tc : Thread nD τ).loc main_v34 ↦{fullShare} V' c main_v34)
      ∗ ((c.tc : Thread nD τ).loc main_v49 ↦{fullShare} V' c main_v49)
      ∗ ((c.tc : Thread nD τ).loc main_v51 ↦{fullShare} V' c main_v51)
      ∗ ((c.tc : Thread nD τ).loc main_v66 ↦{fullShare} V' c main_v66)
      ∗ ((c.tc : Thread nD τ).loc main_v68 ↦{fullShare} V' c main_v68)
      ∗ ((c.tc : Thread nD τ).loc main_v69 ↦{fullShare} V' c main_v69)) : sProp 𝕄)
  rw [hi0, hi1, hi2, hi3, hi4, hi5, hi6, hi7, hi8, hi9, hi10, hi11, hi12, hi13, hi14, hi15, hi16, hi17, hi18, ho0]
  iintro ⟨A0, A1, A2, A3, A4, A5, A6, A7, A8, A9, A10, A11, A12, A13, A14, A15, A16, A17, A18, A19, A20⟩
  isplitl [A0 A1]
  · iapply hj; isplitl [A0]; · iexact A0
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  iexact A20

/-- ENTRY, whole: a core's unscoped buffers at the entry contents are the region's arrays at the proof data's shares and every
    other unscoped buffer, untouched. -/
theorem entry4 (c : Dev nD) :
    (unscopedBufs (Ix := Unit) (Name := ℕ) (U := UR sig nD τ) (Lvl := ℕ) c (V c) : sProp 𝕄)
      ⊢ iprop((dat4 V c).arrays ((dat4 V c).arrAt · 0) ∗ Pipeline.unscopedRest spec4 c (V c)) := by
  rw [Pipeline.unscopedBufs_split₀ cfgs 4 winFacts₀4.arr_unscoped c (V c)]
  exact sep_mono (hsplit4 V c) .rfl

/-- EXIT, whole: the arrays at their final contents and the untouched rest are the core's unscoped buffers at contents that
    differ from the entry contents only on the output arrays, which hold what the write-backs left. -/
theorem exit4 (V' : (c : Dev nD) → (b : Ref sig .tc) → Buf (Elt F) ((c : Thread nD τ).loc b)) (c : Dev nD)
    (hrest : ∀ b, b ∉ Finset.univ.image (Pipeline.arrRef spec4) → V' c b = V c b)
    (hi0 : V' c main_v0 = V c main_v0) (hi1 : V' c main_arg1 = V c main_arg1) (hi2 : V' c main_arg2 = V c main_arg2) (hi3 : V' c main_arg5 = V c main_arg5) (hi4 : V' c main_arg6 = V c main_arg6) (hi5 : V' c main_arg9 = V c main_arg9) (hi6 : V' c main_arg10 = V c main_arg10) (hi7 : V' c main_arg13 = V c main_arg13) (hi8 : V' c main_arg14 = V c main_arg14) (hi9 : V' c main_arg17 = V c main_arg17) (hi10 : V' c main_arg18 = V c main_arg18) (hi11 : V' c main_v15 = V c main_v15) (hi12 : V' c main_v17 = V c main_v17) (hi13 : V' c main_v32 = V c main_v32) (hi14 : V' c main_v34 = V c main_v34) (hi15 : V' c main_v49 = V c main_v49) (hi16 : V' c main_v51 = V c main_v51) (hi17 : V' c main_v66 = V c main_v66) (hi18 : V' c main_v68 = V c main_v68) (ho0 : V' c main_v69 = (dat4 V c).arrAt 20 cfg4.N) :
    iprop((dat4 V c).arrays ((dat4 V c).arrAt · cfg4.N) ∗ Pipeline.unscopedRest spec4 c (V c))
      ⊢ (unscopedBufs (Ix := Unit) (Name := ℕ) (U := UR sig nD τ) (Lvl := ℕ) c (V' c) : sProp 𝕄) := by
  rw [Pipeline.unscopedBufs_split₀ cfgs 4 winFacts₀4.arr_unscoped c (V' c)]
  refine sep_mono (hjoin4 V V' c hi0 hi1 hi2 hi3 hi4 hi5 hi6 hi7 hi8 hi9 hi10 hi11 hi12 hi13 hi14 hi15 hi16 hi17 hi18 ho0) (Entails.of_eq ?_)
  unfold Pipeline.unscopedRest
  exact bigSep_congr fun b hb => by rw [hrest b (Finset.mem_sdiff.mp hb).2]

end

end Cert.KernelIdeal.Hand

end
-- ==== Proof.KernelIdeal.Chain.lean ====
/-
  The chain of a core's buffer contents between the program's ten items — five host stretches and five regions. The contents
  after a host stretch are the stretch's operations applied to the contents before it; after a region, the region's output
  arrays hold what its write-backs left and every other buffer is as the region found it. Each region's proof data is taken
  at the contents the region is entered with.
-/
import proofs.«135850_j19774029431551_2_alg».proof.Proof.KernelIdeal.Entry0
import proofs.«135850_j19774029431551_2_alg».proof.Proof.KernelIdeal.Entry1
import proofs.«135850_j19774029431551_2_alg».proof.Proof.KernelIdeal.Entry2
import proofs.«135850_j19774029431551_2_alg».proof.Proof.KernelIdeal.Entry3
import proofs.«135850_j19774029431551_2_alg».proof.Proof.KernelIdeal.Entry4
import proofs.«135850_j19774029431551_2_alg».proof.Proof.Gen.KernelIdeal.Regions
import Idealize.ShloMosaic.Lib.Pipeline.Kit
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Updating a dependent function at one or two points, at abstract values -/

section Upd
variable {α : Type} [DecidableEq α] {β : α → Type} (V : (a : α) → β a)

/-- Two updates read at the first point. -/
theorem upd2_at_fst {a b : α} (hab : a ≠ b) (x : β a) (y : β b) : Function.update (Function.update V a x) b y a = x := by
  rw [Function.update_of_ne hab, Function.update_self]
/-- Two updates read at the second point. -/
theorem upd2_at_snd (a b : α) (x : β a) (y : β b) : Function.update (Function.update V a x) b y b = y := by
  rw [Function.update_self]
/-- Two updates read elsewhere. -/
theorem upd2_of {a b d : α} (ha : d ≠ a) (hb : d ≠ b) (x : β a) (y : β b) : Function.update (Function.update V a x) b y d = V d := by
  rw [Function.update_of_ne hb, Function.update_of_ne ha]
/-- Updating at two points with the values a doubly updated function already has there gives that function. -/
theorem upd2_fix {a b : α} (hab : a ≠ b) (x : β a) (y : β b) :
    Function.update (Function.update V a (Function.update (Function.update V a x) b y a)) b (Function.update (Function.update V a x) b y b)
      = Function.update (Function.update V a x) b y := by
  rw [upd2_at_fst V hab, upd2_at_snd]
/-- The same at one point. -/
theorem upd1_fix (a : α) (x : β a) : Function.update V a (Function.update V a x a) = Function.update V a x := by
  rw [Function.update_self]
/-- One update read at its point. -/
theorem upd1_at (a : α) (x : β a) : Function.update V a x a = x := by
  rw [Function.update_self]
theorem upd1_of {a d : α} (ha : d ≠ a) (x : β a) : Function.update V a x d = V d := Function.update_of_ne ha x V

end Upd

variable (m : (ℓ : Loc nD τ sig) → Buf (Elt F) ℓ)

/-- A core's valuation read at TensorCore references. -/
abbrev atRef (W : Dev nD → Valuation τ sig (Elt F)) : (c : Dev nD) → (b : Ref sig .tc) → Buf (Elt F) ((c : Thread nD τ).loc b) := fun c b => W c b

/-! ## The chain of contents -/

/-- Core `c`'s unscoped buffers after the first host stretch (the transpose of the features). -/
def W1 (c : Dev nD) : Valuation τ sig (Elt F) := StableHlo.after hostOps0 (Gen.V0 m c)
/-- … after region 0: its output arrays at what the write-backs leave, every other buffer as the region found it. -/
def W2 (c : Dev nD) : Valuation τ sig (Elt F) :=
  Function.update (Function.update (W1 m c) main_v1_0 ((dat0 (atRef (W1 m)) c).arrAt 4 cfg0.N)) main_v1_1 ((dat0 (atRef (W1 m)) c).arrAt 5 cfg0.N)
/-- … after the host stretch that turns region 0's per-row totals into the next layer's scale and shift. -/
def W3 (c : Dev nD) : Valuation τ sig (Elt F) := StableHlo.after hostOps1 (W2 m c)
/-- … after region 1: its output arrays at what the write-backs leave, every other buffer as the region found it. -/
def W4 (c : Dev nD) : Valuation τ sig (Elt F) :=
  Function.update (Function.update (W3 m c) main_v18_0 ((dat1 (atRef (W3 m)) c).arrAt 8 cfg1.N)) main_v18_1 ((dat1 (atRef (W3 m)) c).arrAt 9 cfg1.N)
/-- … after the host stretch that turns region 1's per-row totals into the next layer's scale and shift. -/
def W5 (c : Dev nD) : Valuation τ sig (Elt F) := StableHlo.after hostOps2 (W4 m c)
/-- … after region 2: its output arrays at what the write-backs leave, every other buffer as the region found it. -/
def W6 (c : Dev nD) : Valuation τ sig (Elt F) :=
  Function.update (Function.update (W5 m c) main_v35_0 ((dat2 (atRef (W5 m)) c).arrAt 12 cfg2.N)) main_v35_1 ((dat2 (atRef (W5 m)) c).arrAt 13 cfg2.N)
/-- … after the host stretch that turns region 2's per-row totals into the next layer's scale and shift. -/
def W7 (c : Dev nD) : Valuation τ sig (Elt F) := StableHlo.after hostOps3 (W6 m c)
/-- … after region 3: its output arrays at what the write-backs leave, every other buffer as the region found it. -/
def W8 (c : Dev nD) : Valuation τ sig (Elt F) :=
  Function.update (Function.update (W7 m c) main_v52_0 ((dat3 (atRef (W7 m)) c).arrAt 16 cfg3.N)) main_v52_1 ((dat3 (atRef (W7 m)) c).arrAt 17 cfg3.N)
/-- … after the host stretch that turns region 3's per-row totals into the next layer's scale and shift. -/
def W9 (c : Dev nD) : Valuation τ sig (Elt F) := StableHlo.after hostOps4 (W8 m c)
/-- … after region 4: its output array at what the write-backs leave, every other buffer as the region found it. -/
def W10 (c : Dev nD) : Valuation τ sig (Elt F) :=
  Function.update (W9 m c) main_v69 ((dat4 (atRef (W9 m)) c).arrAt 20 cfg4.N)

/-- What the regions leave, read off the chain: the unknowns of the generated conditional frame. -/
def outs : Gen.Outs (F := F) := fun J r c => match J with
  | 2 => W2 m c r | 4 => W4 m c r | 6 => W6 m c r | 8 => W8 m c r | 10 => W10 m c r | _ => W1 m c r

theorem outs_2 (r : Ref sig .tc) (c : Dev nD) : outs m 2 r c = W2 m c r := rfl
theorem outs_4 (r : Ref sig .tc) (c : Dev nD) : outs m 4 r c = W4 m c r := rfl
theorem outs_6 (r : Ref sig .tc) (c : Dev nD) : outs m 6 r c = W6 m c r := rfl
theorem outs_8 (r : Ref sig .tc) (c : Dev nD) : outs m 8 r c = W8 m c r := rfl
theorem outs_10 (r : Ref sig .tc) (c : Dev nD) : outs m 10 r c = W10 m c r := rfl

/-- A buffer that is no output of region 0 is as the region found it. -/
theorem W2_of (c : Dev nD) (b : Ref sig .tc) (h : b ∉ ([main_v1_0, main_v1_1] : List (Ref sig .tc))) : W2 m c b = W1 m c b :=
  upd2_of (W1 m c) (StableHlo.devRef_ne_of_ne (List.ne_of_not_mem_cons h)) (StableHlo.devRef_ne_of_ne (List.ne_of_not_mem_cons (List.not_mem_of_not_mem_cons h))) ((dat0 (atRef (W1 m)) c).arrAt 4 cfg0.N) ((dat0 (atRef (W1 m)) c).arrAt 5 cfg0.N)
theorem W2_rest (c : Dev nD) (b : Ref sig .tc) (hb : b ∉ Finset.univ.image (Pipeline.arrRef spec0)) : W2 m c b = W1 m c b :=
  W2_of m c b (fun hm => hb (by
    rw [image_arr0]
    rcases List.mem_cons.1 hm with rfl | hm
    · decide
    · rcases List.mem_cons.1 hm with rfl | hm
      · decide
      · cases hm))
theorem W2_at_main_v1_0 (c : Dev nD) : W2 m c main_v1_0 = ((dat0 (atRef (W1 m)) c).arrAt 4 cfg0.N) :=
  upd2_at_fst (W1 m c) (StableHlo.devRef_ne_of_ne (by decide : (main_v1_0 : Ref sig .tc) ≠ main_v1_1)) ((dat0 (atRef (W1 m)) c).arrAt 4 cfg0.N) ((dat0 (atRef (W1 m)) c).arrAt 5 cfg0.N)
theorem W2_at_main_v1_1 (c : Dev nD) : W2 m c main_v1_1 = ((dat0 (atRef (W1 m)) c).arrAt 5 cfg0.N) :=
  upd2_at_snd (W1 m c) _ _ ((dat0 (atRef (W1 m)) c).arrAt 4 cfg0.N) ((dat0 (atRef (W1 m)) c).arrAt 5 cfg0.N)

/-- A buffer that is no output of region 1 is as the region found it. -/
theorem W4_of (c : Dev nD) (b : Ref sig .tc) (h : b ∉ ([main_v18_0, main_v18_1] : List (Ref sig .tc))) : W4 m c b = W3 m c b :=
  upd2_of (W3 m c) (StableHlo.devRef_ne_of_ne (List.ne_of_not_mem_cons h)) (StableHlo.devRef_ne_of_ne (List.ne_of_not_mem_cons (List.not_mem_of_not_mem_cons h))) ((dat1 (atRef (W3 m)) c).arrAt 8 cfg1.N) ((dat1 (atRef (W3 m)) c).arrAt 9 cfg1.N)
theorem W4_rest (c : Dev nD) (b : Ref sig .tc) (hb : b ∉ Finset.univ.image (Pipeline.arrRef spec1)) : W4 m c b = W3 m c b :=
  W4_of m c b (fun hm => hb (by
    rw [image_arr1]
    rcases List.mem_cons.1 hm with rfl | hm
    · decide
    · rcases List.mem_cons.1 hm with rfl | hm
      · decide
      · cases hm))
theorem W4_at_main_v18_0 (c : Dev nD) : W4 m c main_v18_0 = ((dat1 (atRef (W3 m)) c).arrAt 8 cfg1.N) :=
  upd2_at_fst (W3 m c) (StableHlo.devRef_ne_of_ne (by decide : (main_v18_0 : Ref sig .tc) ≠ main_v18_1)) ((dat1 (atRef (W3 m)) c).arrAt 8 cfg1.N) ((dat1 (atRef (W3 m)) c).arrAt 9 cfg1.N)
theorem W4_at_main_v18_1 (c : Dev nD) : W4 m c main_v18_1 = ((dat1 (atRef (W3 m)) c).arrAt 9 cfg1.N) :=
  upd2_at_snd (W3 m c) _ _ ((dat1 (atRef (W3 m)) c).arrAt 8 cfg1.N) ((dat1 (atRef (W3 m)) c).arrAt 9 cfg1.N)

/-- A buffer that is no output of region 2 is as the region found it. -/
theorem W6_of (c : Dev nD) (b : Ref sig .tc) (h : b ∉ ([main_v35_0, main_v35_1] : List (Ref sig .tc))) : W6 m c b = W5 m c b :=
  upd2_of (W5 m c) (StableHlo.devRef_ne_of_ne (List.ne_of_not_mem_cons h)) (StableHlo.devRef_ne_of_ne (List.ne_of_not_mem_cons (List.not_mem_of_not_mem_cons h))) ((dat2 (atRef (W5 m)) c).arrAt 12 cfg2.N) ((dat2 (atRef (W5 m)) c).arrAt 13 cfg2.N)
theorem W6_rest (c : Dev nD) (b : Ref sig .tc) (hb : b ∉ Finset.univ.image (Pipeline.arrRef spec2)) : W6 m c b = W5 m c b :=
  W6_of m c b (fun hm => hb (by
    rw [image_arr2]
    rcases List.mem_cons.1 hm with rfl | hm
    · decide
    · rcases List.mem_cons.1 hm with rfl | hm
      · decide
      · cases hm))
theorem W6_at_main_v35_0 (c : Dev nD) : W6 m c main_v35_0 = ((dat2 (atRef (W5 m)) c).arrAt 12 cfg2.N) :=
  upd2_at_fst (W5 m c) (StableHlo.devRef_ne_of_ne (by decide : (main_v35_0 : Ref sig .tc) ≠ main_v35_1)) ((dat2 (atRef (W5 m)) c).arrAt 12 cfg2.N) ((dat2 (atRef (W5 m)) c).arrAt 13 cfg2.N)
theorem W6_at_main_v35_1 (c : Dev nD) : W6 m c main_v35_1 = ((dat2 (atRef (W5 m)) c).arrAt 13 cfg2.N) :=
  upd2_at_snd (W5 m c) _ _ ((dat2 (atRef (W5 m)) c).arrAt 12 cfg2.N) ((dat2 (atRef (W5 m)) c).arrAt 13 cfg2.N)

/-- A buffer that is no output of region 3 is as the region found it. -/
theorem W8_of (c : Dev nD) (b : Ref sig .tc) (h : b ∉ ([main_v52_0, main_v52_1] : List (Ref sig .tc))) : W8 m c b = W7 m c b :=
  upd2_of (W7 m c) (StableHlo.devRef_ne_of_ne (List.ne_of_not_mem_cons h)) (StableHlo.devRef_ne_of_ne (List.ne_of_not_mem_cons (List.not_mem_of_not_mem_cons h))) ((dat3 (atRef (W7 m)) c).arrAt 16 cfg3.N) ((dat3 (atRef (W7 m)) c).arrAt 17 cfg3.N)
theorem W8_rest (c : Dev nD) (b : Ref sig .tc) (hb : b ∉ Finset.univ.image (Pipeline.arrRef spec3)) : W8 m c b = W7 m c b :=
  W8_of m c b (fun hm => hb (by
    rw [image_arr3]
    rcases List.mem_cons.1 hm with rfl | hm
    · decide
    · rcases List.mem_cons.1 hm with rfl | hm
      · decide
      · cases hm))
theorem W8_at_main_v52_0 (c : Dev nD) : W8 m c main_v52_0 = ((dat3 (atRef (W7 m)) c).arrAt 16 cfg3.N) :=
  upd2_at_fst (W7 m c) (StableHlo.devRef_ne_of_ne (by decide : (main_v52_0 : Ref sig .tc) ≠ main_v52_1)) ((dat3 (atRef (W7 m)) c).arrAt 16 cfg3.N) ((dat3 (atRef (W7 m)) c).arrAt 17 cfg3.N)
theorem W8_at_main_v52_1 (c : Dev nD) : W8 m c main_v52_1 = ((dat3 (atRef (W7 m)) c).arrAt 17 cfg3.N) :=
  upd2_at_snd (W7 m c) _ _ ((dat3 (atRef (W7 m)) c).arrAt 16 cfg3.N) ((dat3 (atRef (W7 m)) c).arrAt 17 cfg3.N)

/-- A buffer that is no output of region 4 is as the region found it. -/
theorem W10_of (c : Dev nD) (b : Ref sig .tc) (h : b ∉ ([main_v69] : List (Ref sig .tc))) : W10 m c b = W9 m c b :=
  upd1_of (W9 m c) (StableHlo.devRef_ne_of_ne (List.ne_of_not_mem_cons h)) ((dat4 (atRef (W9 m)) c).arrAt 20 cfg4.N)
theorem W10_rest (c : Dev nD) (b : Ref sig .tc) (hb : b ∉ Finset.univ.image (Pipeline.arrRef spec4)) : W10 m c b = W9 m c b :=
  W10_of m c b (fun hm => hb (by
    rw [image_arr4]
    rcases List.mem_cons.1 hm with rfl | hm
    · decide
    · cases hm))
theorem W10_at_main_v69 (c : Dev nD) : W10 m c main_v69 = ((dat4 (atRef (W9 m)) c).arrAt 20 cfg4.N) :=
  upd1_at (W9 m c) _ ((dat4 (atRef (W9 m)) c).arrAt 20 cfg4.N)

theorem V1_eq (c : Dev nD) : Gen.V1 m c = W1 m c := rfl
theorem V2_eq (c : Dev nD) : Gen.V2 m (outs m) c = W2 m c := by
  show Function.update (Function.update (Gen.V1 m c) main_v1_0 (outs m 2 main_v1_0 c)) main_v1_1 (outs m 2 main_v1_1 c) = W2 m c
  rw [outs_2, outs_2, W2_at_main_v1_0, W2_at_main_v1_1]
  rfl
theorem V3_eq (c : Dev nD) : Gen.V3 m (outs m) c = W3 m c := by
  show StableHlo.after hostOps1 (Gen.V2 m (outs m) c) = W3 m c
  rw [V2_eq]; rfl
theorem V4_eq (c : Dev nD) : Gen.V4 m (outs m) c = W4 m c := by
  show Function.update (Function.update (Gen.V3 m (outs m) c) main_v18_0 (outs m 4 main_v18_0 c)) main_v18_1 (outs m 4 main_v18_1 c) = W4 m c
  rw [outs_4, outs_4, W4_at_main_v18_0, W4_at_main_v18_1, V3_eq]
  rfl
theorem V5_eq (c : Dev nD) : Gen.V5 m (outs m) c = W5 m c := by
  show StableHlo.after hostOps2 (Gen.V4 m (outs m) c) = W5 m c
  rw [V4_eq]; rfl
theorem V6_eq (c : Dev nD) : Gen.V6 m (outs m) c = W6 m c := by
  show Function.update (Function.update (Gen.V5 m (outs m) c) main_v35_0 (outs m 6 main_v35_0 c)) main_v35_1 (outs m 6 main_v35_1 c) = W6 m c
  rw [outs_6, outs_6, W6_at_main_v35_0, W6_at_main_v35_1, V5_eq]
  rfl
theorem V7_eq (c : Dev nD) : Gen.V7 m (outs m) c = W7 m c := by
  show StableHlo.after hostOps3 (Gen.V6 m (outs m) c) = W7 m c
  rw [V6_eq]; rfl
theorem V8_eq (c : Dev nD) : Gen.V8 m (outs m) c = W8 m c := by
  show Function.update (Function.update (Gen.V7 m (outs m) c) main_v52_0 (outs m 8 main_v52_0 c)) main_v52_1 (outs m 8 main_v52_1 c) = W8 m c
  rw [outs_8, outs_8, W8_at_main_v52_0, W8_at_main_v52_1, V7_eq]
  rfl
theorem V9_eq (c : Dev nD) : Gen.V9 m (outs m) c = W9 m c := by
  show StableHlo.after hostOps4 (Gen.V8 m (outs m) c) = W9 m c
  rw [V8_eq]; rfl
theorem V10_eq (c : Dev nD) : Gen.V10 m (outs m) c = W10 m c := by
  show Function.update (Gen.V9 m (outs m) c) main_v69 (outs m 10 main_v69 c) = W10 m c
  rw [outs_10, W10_at_main_v69, V9_eq]
  rfl

/-! ## The proof data, the thread state's rest, the region records -/

/-- Every pipeline's proof data, each at its region's entry contents: a literal match on the pipeline. -/
def pdats : (p : Fin 5) → (c : Dev nD) → Dat τ (Elt F) Unit ℕ (UR sig nD τ) ℕ (Pipeline.pin (pcfgs (F := F)) Gen.adm p) c
  | ⟨0, _⟩ => fun c => dat0 (atRef (W1 m)) c
  | ⟨1, _⟩ => fun c => dat1 (atRef (W3 m)) c
  | ⟨2, _⟩ => fun c => dat2 (atRef (W5 m)) c
  | ⟨3, _⟩ => fun c => dat3 (atRef (W7 m)) c
  | ⟨4, _⟩ => fun c => dat4 (atRef (W9 m)) c

/-- No core owes another anything: no level is assigned. -/
abbrev L0 : GSem nD τ sig → Finset Unit := fun _ => ∅
abbrev lv0 : GSem nD τ sig → Unit → ℕ := fun _ _ => 0
/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)

end Cert.KernelIdeal.Hand

end
-- ==== Proof.KernelIdeal.Reg0.lean ====
/-
  Region 0 of the program as an item over the thread state: entered with every unscoped buffer whole at the chain's contents
  before it, left with them at the contents after it.
-/
import proofs.«135850_j19774029431551_2_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 0 over the thread state: entered with every unscoped buffer whole at `W1`, left with them at `W2`. Its arrays are
    dealt out of the unscoped buffers on entry and put back on exit; the generator register goes into the invariant and comes
    out; nothing is owed; the kernel has no semaphore of its own. -/
def reg0 : Pipeline.RegionSeg (pcfgs (F := F)) Gen.adm (pdats m) () defs₀ Variants.none L0 lv0 0 where
  win := winFacts₀0
  block_pos := block_pos0
  stage_whole := stage_whole0
  K := PEmpty
  osem k := k.elim
  ho := Pipeline.OwnSemFacts.none _
  hbody c := (body_obligation0 (atRef (W1 m)) c).loose
  hwaits := Pipeline.hwaits_of_owed_zero _ _ _ _ L0 lv0 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (atRef (W1 m) c)
  hentry c := by
    rw [Pipeline.ownSems0_none]
    have hsplit := entry0 (atRef (W1 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (atRef (W1 m)) (atRef (W2 m)) c (fun b hb => W2_rest m c b hb)
        (W2_of m c main_v0 (by decide))
        (W2_of m c main_arg1 (by decide))
        (W2_of m c main_arg2 (by decide))
        (W2_at_main_v1_0 m c)
        (W2_at_main_v1_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KernelIdeal.Reg1.lean ====
/-
  Region 1 of the program as an item over the thread state: entered with every unscoped buffer whole at the chain's contents
  before it, left with them at the contents after it.
-/
import proofs.«135850_j19774029431551_2_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 1 over the thread state: entered with every unscoped buffer whole at `W3`, left with them at `W4`. Its arrays are
    dealt out of the unscoped buffers on entry and put back on exit; the generator register goes into the invariant and comes
    out; nothing is owed; the kernel has no semaphore of its own. -/
def reg1 : Pipeline.RegionSeg (pcfgs (F := F)) Gen.adm (pdats m) () defs₀ Variants.none L0 lv0 1 where
  win := winFacts₀1
  block_pos := block_pos1
  stage_whole := stage_whole1
  K := PEmpty
  osem k := k.elim
  ho := Pipeline.OwnSemFacts.none _
  hbody c := (body_obligation1 (atRef (W3 m)) c).loose
  hwaits := Pipeline.hwaits_of_owed_zero _ _ _ _ L0 lv0 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (atRef (W3 m) c)
  hentry c := by
    rw [Pipeline.ownSems0_none]
    have hsplit := entry1 (atRef (W3 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (atRef (W3 m)) (atRef (W4 m)) c (fun b hb => W4_rest m c b hb)
        (W4_of m c main_v0 (by decide))
        (W4_of m c main_arg1 (by decide))
        (W4_of m c main_arg2 (by decide))
        (W4_of m c main_arg5 (by decide))
        (W4_of m c main_arg6 (by decide))
        (W4_of m c main_v15 (by decide))
        (W4_of m c main_v17 (by decide))
        (W4_at_main_v18_0 m c)
        (W4_at_main_v18_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KernelIdeal.Reg2.lean ====
/-
  Region 2 of the program as an item over the thread state: entered with every unscoped buffer whole at the chain's contents
  before it, left with them at the contents after it.
-/
import proofs.«135850_j19774029431551_2_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 2 over the thread state: entered with every unscoped buffer whole at `W5`, left with them at `W6`. Its arrays are
    dealt out of the unscoped buffers on entry and put back on exit; the generator register goes into the invariant and comes
    out; nothing is owed; the kernel has no semaphore of its own. -/
def reg2 : Pipeline.RegionSeg (pcfgs (F := F)) Gen.adm (pdats m) () defs₀ Variants.none L0 lv0 2 where
  win := winFacts₀2
  block_pos := block_pos2
  stage_whole := stage_whole2
  K := PEmpty
  osem k := k.elim
  ho := Pipeline.OwnSemFacts.none _
  hbody c := (body_obligation2 (atRef (W5 m)) c).loose
  hwaits := Pipeline.hwaits_of_owed_zero _ _ _ _ L0 lv0 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (atRef (W5 m) c)
  hentry c := by
    rw [Pipeline.ownSems0_none]
    have hsplit := entry2 (atRef (W5 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (atRef (W5 m)) (atRef (W6 m)) c (fun b hb => W6_rest m c b hb)
        (W6_of m c main_v0 (by decide))
        (W6_of m c main_arg1 (by decide))
        (W6_of m c main_arg2 (by decide))
        (W6_of m c main_arg5 (by decide))
        (W6_of m c main_arg6 (by decide))
        (W6_of m c main_arg9 (by decide))
        (W6_of m c main_arg10 (by decide))
        (W6_of m c main_v15 (by decide))
        (W6_of m c main_v17 (by decide))
        (W6_of m c main_v32 (by decide))
        (W6_of m c main_v34 (by decide))
        (W6_at_main_v35_0 m c)
        (W6_at_main_v35_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KernelIdeal.Reg3.lean ====
/-
  Region 3 of the program as an item over the thread state: entered with every unscoped buffer whole at the chain's contents
  before it, left with them at the contents after it.
-/
import proofs.«135850_j19774029431551_2_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 3 over the thread state: entered with every unscoped buffer whole at `W7`, left with them at `W8`. Its arrays are
    dealt out of the unscoped buffers on entry and put back on exit; the generator register goes into the invariant and comes
    out; nothing is owed; the kernel has no semaphore of its own. -/
def reg3 : Pipeline.RegionSeg (pcfgs (F := F)) Gen.adm (pdats m) () defs₀ Variants.none L0 lv0 3 where
  win := winFacts₀3
  block_pos := block_pos3
  stage_whole := stage_whole3
  K := PEmpty
  osem k := k.elim
  ho := Pipeline.OwnSemFacts.none _
  hbody c := (body_obligation3 (atRef (W7 m)) c).loose
  hwaits := Pipeline.hwaits_of_owed_zero _ _ _ _ L0 lv0 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (atRef (W7 m) c)
  hentry c := by
    rw [Pipeline.ownSems0_none]
    have hsplit := entry3 (atRef (W7 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (atRef (W7 m)) (atRef (W8 m)) c (fun b hb => W8_rest m c b hb)
        (W8_of m c main_v0 (by decide))
        (W8_of m c main_arg1 (by decide))
        (W8_of m c main_arg2 (by decide))
        (W8_of m c main_arg5 (by decide))
        (W8_of m c main_arg6 (by decide))
        (W8_of m c main_arg9 (by decide))
        (W8_of m c main_arg10 (by decide))
        (W8_of m c main_arg13 (by decide))
        (W8_of m c main_arg14 (by decide))
        (W8_of m c main_v15 (by decide))
        (W8_of m c main_v17 (by decide))
        (W8_of m c main_v32 (by decide))
        (W8_of m c main_v34 (by decide))
        (W8_of m c main_v49 (by decide))
        (W8_of m c main_v51 (by decide))
        (W8_at_main_v52_0 m c)
        (W8_at_main_v52_1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KernelIdeal.Reg4.lean ====
/-
  Region 4 of the program as an item over the thread state: entered with every unscoped buffer whole at the chain's contents
  before it, left with them at the contents after it.
-/
import proofs.«135850_j19774029431551_2_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold plain
-- definitions in a metavariable's type
set_option backward.isDefEq.respectTransparency.types false in
/-- REGION 4 over the thread state: entered with every unscoped buffer whole at `W9`, left with them at `W10`. Its arrays are
    dealt out of the unscoped buffers on entry and put back on exit; the generator register goes into the invariant and comes
    out; nothing is owed; the kernel has no semaphore of its own. -/
def reg4 : Pipeline.RegionSeg (pcfgs (F := F)) Gen.adm (pdats m) () defs₀ Variants.none L0 lv0 4 where
  win := winFacts₀4
  block_pos := block_pos4
  stage_whole := stage_whole4
  K := PEmpty
  osem k := k.elim
  ho := Pipeline.OwnSemFacts.none _
  hbody c := (body_obligation4 (atRef (W9 m)) c).loose
  hwaits := Pipeline.hwaits_of_owed_zero _ _ _ _ L0 lv0 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (atRef (W9 m) c)
  hentry c := by
    rw [Pipeline.ownSems0_none]
    have hsplit := entry4 (atRef (W9 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4 (atRef (W9 m)) (atRef (W10 m)) c (fun b hb => W10_rest m c b hb)
        (W10_of m c main_v0 (by decide))
        (W10_of m c main_arg1 (by decide))
        (W10_of m c main_arg2 (by decide))
        (W10_of m c main_arg5 (by decide))
        (W10_of m c main_arg6 (by decide))
        (W10_of m c main_arg9 (by decide))
        (W10_of m c main_arg10 (by decide))
        (W10_of m c main_arg13 (by decide))
        (W10_of m c main_arg14 (by decide))
        (W10_of m c main_arg17 (by decide))
        (W10_of m c main_arg18 (by decide))
        (W10_of m c main_v15 (by decide))
        (W10_of m c main_v17 (by decide))
        (W10_of m c main_v32 (by decide))
        (W10_of m c main_v34 (by decide))
        (W10_of m c main_v49 (by decide))
        (W10_of m c main_v51 (by decide))
        (W10_of m c main_v66 (by decide))
        (W10_of m c main_v68 (by decide))
        (W10_at_main_v69 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KernelIdeal.Segments.lean ====
/-
  The five region records together.
-/
import proofs.«135850_j19774029431551_2_alg».proof.Proof.KernelIdeal.Reg0
import proofs.«135850_j19774029431551_2_alg».proof.Proof.KernelIdeal.Reg1
import proofs.«135850_j19774029431551_2_alg».proof.Proof.KernelIdeal.Reg2
import proofs.«135850_j19774029431551_2_alg».proof.Proof.KernelIdeal.Reg3
import proofs.«135850_j19774029431551_2_alg».proof.Proof.KernelIdeal.Reg4
-- ==== Proof.KernelIdeal.Frame.lean ====
/-
  The frame claim of the program: from any memory with zero counters every weakly fair execution terminates, nothing
  faults, and every argument array ends as launched. The generated conditional frame is given the five region records; the
  launch hands every core its generator register and its dues (nothing), which ride beside the buffers through every item.
-/
import proofs.«135850_j19774029431551_2_alg».proof.Proof.KernelIdeal.Segments

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch gives a core besides its buffers makes the rest of its thread state. -/
theorem launch_rest (c : Dev nD) :
    iprop(unscopedSems0 c ∗ owes (c : Thread nD τ) ((0 : Dev nD → CellTallies nD τ sig Unit) c) ∅ ∗ Pipeline.launchCred (0 : Dev nD → CellTallies nD τ sig Unit) c
        ∗ prngReg c (ρ c) ∗ (iprop(emp) : sProp 𝕄)) ⊢ (Rst (F := F) c : sProp 𝕄) := by
  iintro ⟨-, HO, -, Hp, -⟩
  isplitl [Hp]; · iexists _; iexact Hp
  iexists ∅; iexact HO

-- the conditional frame's implicit arguments are found by unifying its conclusion with this one
set_option backward.isDefEq.respectTransparency.types false in
set_option maxHeartbeats 1600000 in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      have hmono : (bigSep Finset.univ (fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄))) : sProp 𝕄)
          ⊢ bigSep Finset.univ (fun c : Dev nD => Rst (F := F) c) := bigSep_mono fun c _ => launch_rest (F := F) ρ c
      iintro ⟨H, -⟩
      imodintro
      iapply hmono
      iexact H)
    (fun c => by iintro ⟨-, H⟩; iexact H)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)

end Cert.KernelIdeal.Hand

end
-- ==== Proof.KernelIdeal.RunNamed.lean ====
/-
  The program's run with every unscoped buffer named at the end: from any memory with zero counters every weakly fair execution
  terminates, nothing faults, and every final memory holds each unscoped buffer at the last valuation of the chain — the argument
  arrays as launched, the result at what the final region's write-backs left.
-/
import proofs.«135850_j19774029431551_2_alg».proof.Proof.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hpre0 (c : Dev nD) : iprop(StableHlo.held (c : Thread nD τ) (Pipeline.ucRefs τ sig) (Gen.V1 m c) ∗ Rst (F := F) c) ⊢ (reg0 m).pre c := by
  rw [V1_eq]; exact .rfl
theorem hpost0 (c : Dev nD) : (reg0 m).post c ⊢ iprop(StableHlo.held (c : Thread nD τ) (Pipeline.ucRefs τ sig) (Gen.V2 m (outs m) c) ∗ Rst (F := F) c) := by
  rw [V2_eq]; exact .rfl
theorem hpre1 (c : Dev nD) : iprop(StableHlo.held (c : Thread nD τ) (Pipeline.ucRefs τ sig) (Gen.V3 m (outs m) c) ∗ Rst (F := F) c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ Rst (F := F) c) := by
  rw [V4_eq]; exact .rfl
theorem hpre2 (c : Dev nD) : iprop(StableHlo.held (c : Thread nD τ) (Pipeline.ucRefs τ sig) (Gen.V5 m (outs m) c) ∗ Rst (F := F) c) ⊢ (reg2 m).pre c := by
  rw [V5_eq]; exact .rfl
theorem hpost2 (c : Dev nD) : (reg2 m).post c ⊢ iprop(StableHlo.held (c : Thread nD τ) (Pipeline.ucRefs τ sig) (Gen.V6 m (outs m) c) ∗ Rst (F := F) c) := by
  rw [V6_eq]; exact .rfl
theorem hpre3 (c : Dev nD) : iprop(StableHlo.held (c : Thread nD τ) (Pipeline.ucRefs τ sig) (Gen.V7 m (outs m) c) ∗ Rst (F := F) c) ⊢ (reg3 m).pre c := by
  rw [V7_eq]; exact .rfl
theorem hpost3 (c : Dev nD) : (reg3 m).post c ⊢ iprop(StableHlo.held (c : Thread nD τ) (Pipeline.ucRefs τ sig) (Gen.V8 m (outs m) c) ∗ Rst (F := F) c) := by
  rw [V8_eq]; exact .rfl
theorem hpre4 (c : Dev nD) : iprop(StableHlo.held (c : Thread nD τ) (Pipeline.ucRefs τ sig) (Gen.V9 m (outs m) c) ∗ Rst (F := F) c) ⊢ (reg4 m).pre c := by
  rw [V9_eq]; exact .rfl
/-- After the last region the thread state is every unscoped buffer at the last valuation, and the core owes nothing. -/
theorem hlast (c : Dev nD) : (reg4 m).post c
    ⊢ iprop(StableHlo.held (c : Thread nD τ) (Pipeline.ucRefs τ sig) (W10 m c) ∗ ∃ W, owes (c : Thread nD τ) (0 : CellTallies nD τ sig Unit) W) := by
  show iprop(StableHlo.held (c : Thread nD τ) (Pipeline.ucRefs τ sig) (W10 m c) ∗ Rst (F := F) c) ⊢ _
  iintro ⟨H, -, HO⟩
  isplitl [H]; · iexact H
  iexact HO

variable (ρ : Dev nD → PrngReg)

-- the launch theorem's implicit arguments are found by unifying its conclusion with this one
set_option backward.isDefEq.respectTransparency.types false in
set_option maxHeartbeats 3200000 in
/-- THE RUN, at any float instance: every unscoped buffer ends at the chain's last valuation. -/
theorem run_chain : θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) Gen.adm (pdats m) () cellOf_inj emb₁ defs₀ Variants.none L0 lv0 m ρ main
    (Gen.segs m (outs m) Variants.none L0 lv0 (fun _ c => Rst c) () (pdats m) (reg0 m) (reg1 m) (reg2 m) (reg3 m) (reg4 m))
    (fun c Q => by
      rewrite [main_chain c, Pipeline.Seg.run_eq_chain,
        show (Gen.segs m (outs m) Variants.none L0 lv0 (fun _ c => Rst c) () (pdats m) (reg0 m) (reg1 m) (reg2 m) (reg3 m) (reg4 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (W10 m c))
    (hch := fun c => ⟨.rfl, hpre0 m c, hpost0 m c, hpre1 m c, hpost1 m c, hpre2 m c, hpost2 m c, hpre3 m c, hpost3 m c, hpre4 m c, hlast m c⟩)
    (hinit := ?_) (QY := fun c s => ∀ b ∈ Pipeline.ucRefs τ sig, s.mem (((c : Thread nD τ)).1, b) = W10 m c b)
    (hfin := fun c s' => ?_) (hQ := fun _ h => h)
  · refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (W10 m c) s')
    isplitl [Hh] <;> iassumption

end Cert.KernelIdeal.Hand

end
-- ==== Proof.Ref.Stages.lean ====
/- The reference program's result as a composition of small named stages: the pairwise features, a 1x1 convolution
   with bias, the batch statistics (mean and variance over all positions, per channel), the normalise-scale-shift,
   the leaky select, and the last convolution with its reshape. Blocks 1 and 2 work on 16 channels and share the
   16-channel stages; blocks 3 and 4 work on 8 channels and share the 8-channel ones. Every stage is stated for any
   float values. -/
import proofs.«135850_j19774029431551_2_alg».proof.Proof.Gen.ReferenceIdeal

noncomputable section

namespace Cert.ReferenceIdeal.Hand

open Cert.ReferenceIdeal Cert.ReferenceIdeal.Gen Idealize.ShloMosaic

variable {F : FTy → Type} [FloatOps F]

/-- The contents of an f32 array of shape S. -/
abbrev Arr (F : FTy → Type) (S : Shape) : Type := (⟨S, .f32⟩ : BufTy).Contents (Elt F)

/-! ## The pairwise features -/

/-- Pairwise features: at position (n, m) and channel c, the absolute difference |x (n, c) - x (m, c)|. -/
def pairFeat (x : Arr F S1536x64) : Arr F S1536x1536x64 :=
  Host.absf (F := F) (subf (F := F)
    (broadcastInDim (s := S1536x1x64) S1536x1536x64 ![0, 1, 2] bcast_S1536x1x64_S1536x1536x64_0_1_2
      (broadcastInDim (s := S1536x64) S1536x1x64 ![0, 2] bcast_S1536x64_S1536x1x64_0_2 x))
    (broadcastInDim (s := S1x1536x64) S1536x1536x64 ![0, 1, 2] bcast_S1x1536x64_S1536x1536x64_0_1_2
      (broadcastInDim (s := S1536x64) S1x1536x64 ![1, 2] bcast_S1536x64_S1x1536x64_1_2 x)))

/-! ## Sixteen channels -/

/-- A per-channel vector spread over all positions: at (n, m, c) the value v c. -/
def chan16 (v : Arr F S16) : Arr F S1536x1536x16 :=
  broadcastInDim (s := S1x1x16) S1536x1536x16 ![0, 1, 2] bcast_S1x1x16_S1536x1536x16_0_1_2
    (broadcastInDim (s := S16) S1x1x16 ![2] bcast_S16_S1x1x16_2 v)

/-- 1x1 convolution from 64 to 16 channels with bias: at (n, m, o) the sum over c of h (n, m, c) * W (o, c), plus b o. -/
def conv1 (h : Arr F S1536x1536x64) (W : Arr F S16x64) (b : Arr F S16) : Arr F S1536x1536x16 :=
  addf (F := F) (Host.dotGeneral (F := F) dot_S1536x1536x64_S16x64_S1536x1536x16_2_1_01_0_n_n none h W) (chan16 b)

/-- 1x1 convolution from 16 to 16 channels with bias. -/
def conv2 (h : Arr F S1536x1536x16) (W : Arr F S16x16) (b : Arr F S16) : Arr F S1536x1536x16 :=
  addf (F := F) (Host.dotGeneral (F := F) dot_S1536x1536x16_S16x16_S1536x1536x16_2_1_01_0_n_n none h W) (chan16 b)

/-- The per-channel mean over all N x N positions: the sum over (n, m) divided by N * N = 2359296. -/
def mean16 (h : Arr F S1536x1536x16) : Arr F S16 :=
  Host.divf (F := F)
    (Host.reduceAdd (F := F) h (constant (F := F) S_ .f32 0x00000000#32) reducesTo_S1536x1536x16_S16_d0_1 h_S_)
    (broadcastInDim (s := S_) S16 ![] bcast_S_S16 (constant (F := F) S_ .f32 0x4A100000#32))

/-- The activations centred for the variance: h minus the per-channel sum divided by N * N, the division done on
    the sum spread to shape 1 x 1 x 16, the quotient then spread over all positions. -/
def dev16 (h : Arr F S1536x1536x16) : Arr F S1536x1536x16 :=
  subf (F := F) h
    (broadcastInDim (s := S1x1x16) S1536x1536x16 ![0, 1, 2] bcast_S1x1x16_S1536x1536x16_0_1_2
      (Host.divf (F := F)
        (broadcastInDim (s := S16) S1x1x16 ![2] bcast_S16_S1x1x16_2
          (Host.reduceAdd (F := F) h (constant (F := F) S_ .f32 0x00000000#32) reducesTo_S1536x1536x16_S16_d0_1 h_S_))
        (broadcastInDim (s := S_) S1x1x16 ![] bcast_S_S1x1x16 (constant (F := F) S_ .f32 0x4A100000#32))))

/-- The variance's divisor N * N - ddof with ddof = 0, a scalar. -/
def varDen : Arr F S_ :=
  subf (F := F) (constant (F := F) S_ .f32 0x4A100000#32) (sitofp (F := F) .f32 (constantI S_ 32 0#32))

/-- The per-channel biased variance over all positions: the sum of squared centred activations divided by the
    divisor where the divisor is positive, not-a-number elsewhere. -/
def var16 (h : Arr F S1536x1536x16) : Arr F S16 :=
  select
    (broadcastInDim (s := S_) S16 ![] bcast_S_S16
      (cmpf (F := F) .ogt (varDen (F := F)) (constant (F := F) S_ .f32 0x00000000#32)))
    (Host.divf (F := F)
      (Host.reduceAdd (F := F) (mulf (F := F) (dev16 h) (dev16 h)) (constant (F := F) S_ .f32 0x00000000#32)
        reducesTo_S1536x1536x16_S16_d0_1 h_S_)
      (broadcastInDim (s := S_) S16 ![] bcast_S_S16 (varDen (F := F))))
    (broadcastInDim (s := S_) S16 ![] bcast_S_S16 (constant (F := F) S_ .f32 0x7FC00000#32))

/-- Normalise, scale and shift with given statistics: ((h - mu) * rsqrt (va + eps)) * g + be, per channel. -/
def scaleShift16 (h : Arr F S1536x1536x16) (mu va g be : Arr F S16) : Arr F S1536x1536x16 :=
  addf (F := F)
    (mulf (F := F)
      (mulf (F := F) (subf (F := F) h (chan16 mu))
        (chan16 (Host.rsqrt (F := F)
          (addf (F := F) va (broadcastInDim (s := S_) S16 ![] bcast_S_S16 (constant (F := F) S_ .f32 0x3727C5AC#32))))))
      (chan16 g))
    (chan16 be)

/-- Training-mode batch normalisation: the scale-shift at the batch's own mean and variance. -/
def norm16 (h : Arr F S1536x1536x16) (g be : Arr F S16) : Arr F S1536x1536x16 :=
  scaleShift16 h (mean16 h) (var16 h) g be

/-- Leaky rectifier with slope 0.01: h where h >= 0, slope * h elsewhere. -/
def leaky16 (h : Arr F S1536x1536x16) : Arr F S1536x1536x16 :=
  select
    (cmpf (F := F) .oge h
      (broadcastInDim (s := S_) S1536x1536x16 ![] bcast_S_S1536x1536x16 (constant (F := F) S_ .f32 0x00000000#32)))
    h
    (mulf (F := F)
      (broadcastInDim (s := S_) S1536x1536x16 ![] bcast_S_S1536x1536x16 (constant (F := F) S_ .f32 0x3C23D70A#32)) h)

/-! ## Eight channels -/

/-- A per-channel vector spread over all positions: at (n, m, c) the value v c. -/
def chan8 (v : Arr F S8) : Arr F S1536x1536x8 :=
  broadcastInDim (s := S1x1x8) S1536x1536x8 ![0, 1, 2] bcast_S1x1x8_S1536x1536x8_0_1_2
    (broadcastInDim (s := S8) S1x1x8 ![2] bcast_S8_S1x1x8_2 v)

/-- 1x1 convolution from 16 to 8 channels with bias. -/
def conv3 (h : Arr F S1536x1536x16) (W : Arr F S8x16) (b : Arr F S8) : Arr F S1536x1536x8 :=
  addf (F := F) (Host.dotGeneral (F := F) dot_S1536x1536x16_S8x16_S1536x1536x8_2_1_01_0_n_n none h W) (chan8 b)

/-- 1x1 convolution from 8 to 8 channels with bias. -/
def conv4 (h : Arr F S1536x1536x8) (W : Arr F S8x8) (b : Arr F S8) : Arr F S1536x1536x8 :=
  addf (F := F) (Host.dotGeneral (F := F) dot_S1536x1536x8_S8x8_S1536x1536x8_2_1_01_0_n_n none h W) (chan8 b)

/-- The per-channel mean over all N x N positions. -/
def mean8 (h : Arr F S1536x1536x8) : Arr F S8 :=
  Host.divf (F := F)
    (Host.reduceAdd (F := F) h (constant (F := F) S_ .f32 0x00000000#32) reducesTo_S1536x1536x8_S8_d0_1 h_S_)
    (broadcastInDim (s := S_) S8 ![] bcast_S_S8 (constant (F := F) S_ .f32 0x4A100000#32))

/-- The activations centred for the variance (the division done at shape 1 x 1 x 8). -/
def dev8 (h : Arr F S1536x1536x8) : Arr F S1536x1536x8 :=
  subf (F := F) h
    (broadcastInDim (s := S1x1x8) S1536x1536x8 ![0, 1, 2] bcast_S1x1x8_S1536x1536x8_0_1_2
      (Host.divf (F := F)
        (broadcastInDim (s := S8) S1x1x8 ![2] bcast_S8_S1x1x8_2
          (Host.reduceAdd (F := F) h (constant (F := F) S_ .f32 0x00000000#32) reducesTo_S1536x1536x8_S8_d0_1 h_S_))
        (broadcastInDim (s := S_) S1x1x8 ![] bcast_S_S1x1x8 (constant (F := F) S_ .f32 0x4A100000#32))))

/-- The per-channel biased variance over all positions. -/
def var8 (h : Arr F S1536x1536x8) : Arr F S8 :=
  select
    (broadcastInDim (s := S_) S8 ![] bcast_S_S8
      (cmpf (F := F) .ogt (varDen (F := F)) (constant (F := F) S_ .f32 0x00000000#32)))
    (Host.divf (F := F)
      (Host.reduceAdd (F := F) (mulf (F := F) (dev8 h) (dev8 h)) (constant (F := F) S_ .f32 0x00000000#32)
        reducesTo_S1536x1536x8_S8_d0_1 h_S_)
      (broadcastInDim (s := S_) S8 ![] bcast_S_S8 (varDen (F := F))))
    (broadcastInDim (s := S_) S8 ![] bcast_S_S8 (constant (F := F) S_ .f32 0x7FC00000#32))

/-- Normalise, scale and shift with given statistics: ((h - mu) * rsqrt (va + eps)) * g + be, per channel. -/
def scaleShift8 (h : Arr F S1536x1536x8) (mu va g be : Arr F S8) : Arr F S1536x1536x8 :=
  addf (F := F)
    (mulf (F := F)
      (mulf (F := F) (subf (F := F) h (chan8 mu))
        (chan8 (Host.rsqrt (F := F)
          (addf (F := F) va (broadcastInDim (s := S_) S8 ![] bcast_S_S8 (constant (F := F) S_ .f32 0x3727C5AC#32))))))
      (chan8 g))
    (chan8 be)

/-- Training-mode batch normalisation: the scale-shift at the batch's own mean and variance. -/
def norm8 (h : Arr F S1536x1536x8) (g be : Arr F S8) : Arr F S1536x1536x8 :=
  scaleShift8 h (mean8 h) (var8 h) g be

/-- Leaky rectifier with slope 0.01. -/
def leaky8 (h : Arr F S1536x1536x8) : Arr F S1536x1536x8 :=
  select
    (cmpf (F := F) .oge h
      (broadcastInDim (s := S_) S1536x1536x8 ![] bcast_S_S1536x1536x8 (constant (F := F) S_ .f32 0x00000000#32)))
    h
    (mulf (F := F)
      (broadcastInDim (s := S_) S1536x1536x8 ![] bcast_S_S1536x1536x8 (constant (F := F) S_ .f32 0x3C23D70A#32)) h)

/-! ## The last convolution -/

/-- 1x1 convolution from 8 channels to one with bias. -/
def conv5 (h : Arr F S1536x1536x8) (W : Arr F S1x8) (b : Arr F S1) : Arr F S1536x1536x1 :=
  addf (F := F) (Host.dotGeneral (F := F) dot_S1536x1536x8_S1x8_S1536x1536x1_2_1_01_0_n_n none h W)
    (broadcastInDim (s := S1x1x1) S1536x1536x1 ![0, 1, 2] bcast_S1x1x1_S1536x1536x1_0_1_2
      (broadcastInDim (s := S1) S1x1x1 ![2] bcast_S1_S1x1x1_2 b))

/-- Dropping the single channel: the same elements at shape N x N. -/
def squeeze (v : Arr F S1536x1536x1) : Arr F S1536x1536 :=
  shapeCast (s := S1536x1536x1) S1536x1536 v shapeCasts_S1536x1536x1_S1536x1536

/-! ## The blocks and the result -/

/-- Block 1: convolution of the pairwise features, batch normalisation, leaky rectifier. -/
def block1 (x : Arr F S1536x64) (W : Arr F S16x64) (b g be : Arr F S16) : Arr F S1536x1536x16 :=
  leaky16 (norm16 (conv1 (pairFeat x) W b) g be)

/-- Block 2. -/
def block2 (h : Arr F S1536x1536x16) (W : Arr F S16x16) (b g be : Arr F S16) : Arr F S1536x1536x16 :=
  leaky16 (norm16 (conv2 h W b) g be)

/-- Block 3. -/
def block3 (h : Arr F S1536x1536x16) (W : Arr F S8x16) (b g be : Arr F S8) : Arr F S1536x1536x8 :=
  leaky8 (norm8 (conv3 h W b) g be)

/-- Block 4. -/
def block4 (h : Arr F S1536x1536x8) (W : Arr F S8x8) (b g be : Arr F S8) : Arr F S1536x1536x8 :=
  leaky8 (norm8 (conv4 h W b) g be)

/-- The program's result: the four blocks, the last convolution, the single channel dropped. -/
def out (x : Arr F S1536x64)
    (W1 : Arr F S16x64) (b1 g1 be1 : Arr F S16) (W2 : Arr F S16x16) (b2 g2 be2 : Arr F S16)
    (W3 : Arr F S8x16) (b3 g3 be3 : Arr F S8) (W4 : Arr F S8x8) (b4 g4 be4 : Arr F S8)
    (W5 : Arr F S1x8) (b5 : Arr F S1) : Arr F S1536x1536 :=
  squeeze (conv5
    (block4 (block3 (block2 (block1 x W1 b1 g1 be1) W2 b2 g2 be2) W3 b3 g3 be3) W4 b4 g4 be4) W5 b5)

end Cert.ReferenceIdeal.Hand

end
-- ==== Proof.Ref.OpsTable.lean ====
/- A table: the reference program's operations in program order, each call's operations listed at the call site over
   that call's buffers, cut into one list per stage of the computation (convolution with bias; batch statistics;
   normalise-scale-shift; leaky select; for each of the four blocks; then the last convolution and reshape). -/
import proofs.«135850_j19774029431551_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 to 10 of the program. -/
abbrev convA1 : List (HloOp τ sig (Elt F)) :=
  [ StableHlo.unary main_arg0 main_v0 (broadcastInDim S1536x1x64 ![0, 2] bcast_S1536x64_S1536x1x64_0_2 : (⟨S1536x64, .f32⟩ : BufTy).Contents (Elt F) → (⟨S1536x1x64, .f32⟩ : BufTy).Contents (Elt F)),
    StableHlo.unary main_arg0 main_v1 (broadcastInDim S1x1536x64 ![1, 2] bcast_S1536x64_S1x1536x64_1_2 : (⟨S1536x64, .f32⟩ : BufTy).Contents (Elt F) → (⟨S1x1536x64, .f32⟩ : BufTy).Contents (Elt F)),
    StableHlo.unary main_v0 main_v2 (broadcastInDim S1536x1536x64 ![0, 1, 2] bcast_S1536x1x64_S1536x1536x64_0_1_2 : (⟨S1536x1x64, .f32⟩ : BufTy).Contents (Elt F) → (⟨S1536x1536x64, .f32⟩ : BufTy).Contents (Elt F)),
    StableHlo.unary main_v1 main_v3 (broadcastInDim S1536x1536x64 ![0, 1, 2] bcast_S1x1536x64_S1536x1536x64_0_1_2 : (⟨S1x1536x64, .f32⟩ : BufTy).Contents (Elt F) → (⟨S1536x1536x64, .f32⟩ : BufTy).Contents (Elt F)),
    StableHlo.binary main_v2 main_v3 main_v4 (subf : (⟨S1536x1536x64, .f32⟩ : BufTy).Contents (Elt F) → (⟨S1536x1536x64, .f32⟩ : BufTy).Contents (Elt F) → (⟨S1536x1536x64, .f32⟩ : BufTy).Contents (Elt F)),
    StableHlo.unary main_v4 main_v5 (Host.absf : (⟨S1536x1536x64, .f32⟩ : BufTy).Contents (Elt F) → (⟨S1536x1536x64, .f32⟩ : BufTy).Contents (Elt F)),
    StableHlo.binary main_v5 main_arg1 main_v6 ((fun l r => Host.dotGeneral dot_S1536x1536x64_S16x64_S1536x1536x16_2_1_01_0_n_n none l r) : (⟨S1536x1536x64, .f32⟩ : BufTy).Contents (Elt F) → (⟨S16x64, .f32⟩ : BufTy).Contents (Elt F) → (⟨S1536x1536x16, .f32⟩ : BufTy).Contents (Elt F)),
    StableHlo.unary main_arg2 main_v7 (broadcastInDim S1x1x16 ![2] bcast_S16_S1x1x16_2 : (⟨S16, .f32⟩ : BufTy).Contents (Elt F) → (⟨S1x1x16, .f32⟩ : BufTy).Contents (Elt F)),
    StableHlo.unary main_v7 main_v8 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v6 main_v8 main_v9 (addf : (⟨S1536x1536x16, .f32⟩ : BufTy).Contents (Elt F) → (⟨S1536x1536x16, .f32⟩ : BufTy).Contents (Elt F) → (⟨S1536x1536x16, .f32⟩ : BufTy).Contents (Elt F)) ]

/-- Operations 11 to 38 of the program. -/
abbrev statA1 : List (HloOp τ sig (Elt F)) :=
  [ StableHlo.nullary main_cst (constant S_ .f32 0x00000000#32),
    StableHlo.binary main_v9 main_cst main_v10 ((fun x v => Host.reduceAdd x v reducesTo_S1536x1536x16_S16_d0_1 h_S_) : (⟨S1536x1536x16, .f32⟩ : BufTy).Contents (Elt F) → (⟨S_, .f32⟩ : BufTy).Contents (Elt F) → (⟨S16, .f32⟩ : BufTy).Contents (Elt F)),
    StableHlo.nullary main_cst_0 (constant S_ .f32 0x4A100000#32),
    StableHlo.unary main_cst_0 main_v11 (broadcastInDim S16 ![] bcast_S_S16 : (⟨S_, .f32⟩ : BufTy).Contents (Elt F) → (⟨S16, .f32⟩ : BufTy).Contents (Elt F)),
    StableHlo.binary main_v10 main_v11 main_v12 (Host.divf : (⟨S16, .f32⟩ : BufTy).Contents (Elt F) → (⟨S16, .f32⟩ : BufTy).Contents (Elt F) → (⟨S16, .f32⟩ : BufTy).Contents (Elt F)),
    StableHlo.nullary main_c (constantI S_ 32 0#32),
    StableHlo.TRef.nullary main_call0.cst (constant S_ .f32 0x00000000#32),
    StableHlo.TRef.binary (.of main_v9) main_call0.cst main_call0.v0 (fun x v => Host.reduceAdd x v reducesTo_S1536x1536x16_S16_d0_1 h_S_),
    StableHlo.TRef.unary main_call0.v0 main_call0.v1 (broadcastInDim S1x1x16 ![2] bcast_S16_S1x1x16_2),
    StableHlo.TRef.nullary main_call0.cst_0 (constant S_ .f32 0x4A100000#32),
    StableHlo.TRef.unary main_call0.cst_0 main_call0.v2 (broadcastInDim S1x1x16 ![] bcast_S_S1x1x16),
    StableHlo.TRef.binary main_call0.v1 main_call0.v2 main_call0.v3 Host.divf,
    StableHlo.TRef.unary main_call0.v3 main_call0.v4 (broadcastInDim S1536x1536x16 ![0, 1, 2] bcast_S1x1x16_S1536x1536x16_0_1_2),
    StableHlo.TRef.binary (.of main_v9) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x4A100000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1536x1536x16_S16_d0_1 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b) ]

/-- Operations 39 to 54 of the program. -/
abbrev normA1 : List (HloOp τ sig (Elt F)) :=
  [ StableHlo.unary main_v12 main_v14 (broadcastInDim S1x1x16 ![2] bcast_S16_S1x1x16_2 : (⟨S16, .f32⟩ : BufTy).Contents (Elt F) → (⟨S1x1x16, .f32⟩ : BufTy).Contents (Elt F)),
    StableHlo.unary main_v14 main_v15 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v9 main_v15 main_v16 (subf : (⟨S1536x1536x16, .f32⟩ : BufTy).Contents (Elt F) → (⟨S1536x1536x16, .f32⟩ : BufTy).Contents (Elt F) → (⟨S1536x1536x16, .f32⟩ : BufTy).Contents (Elt F)),
    StableHlo.nullary main_cst_1 (constant S_ .f32 0x3727C5AC#32),
    StableHlo.unary main_cst_1 main_v17 (broadcastInDim S16 ![] bcast_S_S16 : (⟨S_, .f32⟩ : BufTy).Contents (Elt F) → (⟨S16, .f32⟩ : BufTy).Contents (Elt F)),
    StableHlo.binary main_v13 main_v17 main_v18 (addf : (⟨S16, .f32⟩ : BufTy).Contents (Elt F) → (⟨S16, .f32⟩ : BufTy).Contents (Elt F) → (⟨S16, .f32⟩ : BufTy).Contents (Elt F)),
    StableHlo.unary main_v18 main_v19 (Host.rsqrt : (⟨S16, .f32⟩ : BufTy).Contents (Elt F) → (⟨S16, .f32⟩ : BufTy).Contents (Elt F)),
    StableHlo.unary main_v19 main_v20 (broadcastInDim S1x1x16 ![2] bcast_S16_S1x1x16_2 : (⟨S16, .f32⟩ : BufTy).Contents (Elt F) → (⟨S1x1x16, .f32⟩ : BufTy).Contents (Elt F)),
    StableHlo.unary main_v20 main_v21 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v16 main_v21 main_v22 (mulf : (⟨S1536x1536x16, .f32⟩ : BufTy).Contents (Elt F) → (⟨S1536x1536x16, .f32⟩ : BufTy).Contents (Elt F) → (⟨S1536x1536x16, .f32⟩ : BufTy).Contents (Elt F)),
    StableHlo.unary main_arg3 main_v23 (broadcastInDim S1x1x16 ![2] bcast_S16_S1x1x16_2 : (⟨S16, .f32⟩ : BufTy).Contents (Elt F) → (⟨S1x1x16, .f32⟩ : BufTy).Contents (Elt F)),
    StableHlo.unary main_v23 main_v24 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v22 main_v24 main_v25 (mulf : (⟨S1536x1536x16, .f32⟩ : BufTy).Contents (Elt F) → (⟨S1536x1536x16, .f32⟩ : BufTy).Contents (Elt F) → (⟨S1536x1536x16, .f32⟩ : BufTy).Contents (Elt F)),
    StableHlo.unary main_arg4 main_v26 (broadcastInDim S1x1x16 ![2] bcast_S16_S1x1x16_2 : (⟨S16, .f32⟩ : BufTy).Contents (Elt F) → (⟨S1x1x16, .f32⟩ : BufTy).Contents (Elt F)),
    StableHlo.unary main_v26 main_v27 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v25 main_v27 main_v28 (addf : (⟨S1536x1536x16, .f32⟩ : BufTy).Contents (Elt F) → (⟨S1536x1536x16, .f32⟩ : BufTy).Contents (Elt F) → (⟨S1536x1536x16, .f32⟩ : BufTy).Contents (Elt F)) ]

/-- Operations 55 to 62 of the program. -/
abbrev leakA1 : List (HloOp τ sig (Elt F)) :=
  [ StableHlo.nullary main_cst_2 (constant S_ .f32 0x3C23D70A#32),
    StableHlo.TRef.nullary main_call1.cst (constant S_ .f32 0x00000000#32),
    StableHlo.TRef.unary main_call1.cst main_call1.v0 (broadcastInDim S1536x1536x16 ![] bcast_S_S1536x1536x16),
    StableHlo.TRef.binary (.of main_v28) main_call1.v0 main_call1.v1 (cmpf .oge),
    StableHlo.TRef.unary (.of main_cst_2) main_call1.v2 id,
    StableHlo.TRef.unary main_call1.v2 main_call1.v3 (broadcastInDim S1536x1536x16 ![] bcast_S_S1536x1536x16),
    StableHlo.TRef.binary main_call1.v3 (.of main_v28) main_call1.v4 mulf,
    StableHlo.TRef.ternary main_call1.v1 (.of main_v28) main_call1.v4 main_call1.call0.v0 select ]

/-- Operations 63 to 66 of the program. -/
abbrev convA2 : List (HloOp τ sig (Elt F)) :=
  [ StableHlo.binary main_v29 main_arg5 main_v30 ((fun l r => Host.dotGeneral dot_S1536x1536x16_S16x16_S1536x1536x16_2_1_01_0_n_n none l r) : (⟨S1536x1536x16, .f32⟩ : BufTy).Contents (Elt F) → (⟨S16x16, .f32⟩ : BufTy).Contents (Elt F) → (⟨S1536x1536x16, .f32⟩ : BufTy).Contents (Elt F)),
    StableHlo.unary main_arg6 main_v31 (broadcastInDim S1x1x16 ![2] bcast_S16_S1x1x16_2 : (⟨S16, .f32⟩ : BufTy).Contents (Elt F) → (⟨S1x1x16, .f32⟩ : BufTy).Contents (Elt F)),
    StableHlo.unary main_v31 main_v32 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v30 main_v32 main_v33 (addf : (⟨S1536x1536x16, .f32⟩ : BufTy).Contents (Elt F) → (⟨S1536x1536x16, .f32⟩ : BufTy).Contents (Elt F) → (⟨S1536x1536x16, .f32⟩ : BufTy).Contents (Elt F)) ]

/-- Operations 67 to 94 of the program. -/
abbrev statA2 : List (HloOp τ sig (Elt F)) :=
  [ StableHlo.nullary main_cst_3 (constant S_ .f32 0x00000000#32),
    StableHlo.binary main_v33 main_cst_3 main_v34 ((fun x v => Host.reduceAdd x v reducesTo_S1536x1536x16_S16_d0_1 h_S_) : (⟨S1536x1536x16, .f32⟩ : BufTy).Contents (Elt F) → (⟨S_, .f32⟩ : BufTy).Contents (Elt F) → (⟨S16, .f32⟩ : BufTy).Contents (Elt F)),
    StableHlo.nullary main_cst_4 (constant S_ .f32 0x4A100000#32),
    StableHlo.unary main_cst_4 main_v35 (broadcastInDim S16 ![] bcast_S_S16 : (⟨S_, .f32⟩ : BufTy).Contents (Elt F) → (⟨S16, .f32⟩ : BufTy).Contents (Elt F)),
    StableHlo.binary main_v34 main_v35 main_v36 (Host.divf : (⟨S16, .f32⟩ : BufTy).Contents (Elt F) → (⟨S16, .f32⟩ : BufTy).Contents (Elt F) → (⟨S16, .f32⟩ : BufTy).Contents (Elt F)),
    StableHlo.nullary main_c_5 (constantI S_ 32 0#32),
    StableHlo.TRef.nullary main_call2.cst (constant S_ .f32 0x00000000#32),
    StableHlo.TRef.binary (.of main_v33) main_call2.cst main_call2.v0 (fun x v => Host.reduceAdd x v reducesTo_S1536x1536x16_S16_d0_1 h_S_),
    StableHlo.TRef.unary main_call2.v0 main_call2.v1 (broadcastInDim S1x1x16 ![2] bcast_S16_S1x1x16_2),
    StableHlo.TRef.nullary main_call2.cst_0 (constant S_ .f32 0x4A100000#32),
    StableHlo.TRef.unary main_call2.cst_0 main_call2.v2 (broadcastInDim S1x1x16 ![] bcast_S_S1x1x16),
    StableHlo.TRef.binary main_call2.v1 main_call2.v2 main_call2.v3 Host.divf,
    StableHlo.TRef.unary main_call2.v3 main_call2.v4 (broadcastInDim S1536x1536x16 ![0, 1, 2] bcast_S1x1x16_S1536x1536x16_0_1_2),
    StableHlo.TRef.binary (.of main_v33) main_call2.v4 main_call2.v5 subf,
    StableHlo.TRef.binary main_call2.v5 main_call2.v5 main_call2.v6 mulf,
    StableHlo.TRef.unary (.of main_c_5) main_call2.v7 (sitofp .f32),
    StableHlo.TRef.nullary main_call2.cst_1 (constant S_ .f32 0x4A100000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S1536x1536x16_S16_d0_1 h_S_),
    StableHlo.TRef.unary main_call2.v8 main_call2.v10 (broadcastInDim S16 ![] bcast_S_S16),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S16 ![] bcast_S_S16),
    StableHlo.TRef.ternary main_call2.v12 main_call2.v11 main_call2.call0.v1 main_call2.call0.v2 (fun p a b => select (broadcastInDim S16 ![] bcast_S_S16 p) a b) ]

/-- Operations 95 to 110 of the program. -/
abbrev normA2 : List (HloOp τ sig (Elt F)) :=
  [ StableHlo.unary main_v36 main_v38 (broadcastInDim S1x1x16 ![2] bcast_S16_S1x1x16_2 : (⟨S16, .f32⟩ : BufTy).Contents (Elt F) → (⟨S1x1x16, .f32⟩ : BufTy).Contents (Elt F)),
    StableHlo.unary main_v38 main_v39 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v33 main_v39 main_v40 (subf : (⟨S1536x1536x16, .f32⟩ : BufTy).Contents (Elt F) → (⟨S1536x1536x16, .f32⟩ : BufTy).Contents (Elt F) → (⟨S1536x1536x16, .f32⟩ : BufTy).Contents (Elt F)),
    StableHlo.nullary main_cst_6 (constant S_ .f32 0x3727C5AC#32),
    StableHlo.unary main_cst_6 main_v41 (broadcastInDim S16 ![] bcast_S_S16 : (⟨S_, .f32⟩ : BufTy).Contents (Elt F) → (⟨S16, .f32⟩ : BufTy).Contents (Elt F)),
    StableHlo.binary main_v37 main_v41 main_v42 (addf : (⟨S16, .f32⟩ : BufTy).Contents (Elt F) → (⟨S16, .f32⟩ : BufTy).Contents (Elt F) → (⟨S16, .f32⟩ : BufTy).Contents (Elt F)),
    StableHlo.unary main_v42 main_v43 (Host.rsqrt : (⟨S16, .f32⟩ : BufTy).Contents (Elt F) → (⟨S16, .f32⟩ : BufTy).Contents (Elt F)),
    StableHlo.unary main_v43 main_v44 (broadcastInDim S1x1x16 ![2] bcast_S16_S1x1x16_2 : (⟨S16, .f32⟩ : BufTy).Contents (Elt F) → (⟨S1x1x16, .f32⟩ : BufTy).Contents (Elt F)),
    StableHlo.unary main_v44 main_v45 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v40 main_v45 main_v46 (mulf : (⟨S1536x1536x16, .f32⟩ : BufTy).Contents (Elt F) → (⟨S1536x1536x16, .f32⟩ : BufTy).Contents (Elt F) → (⟨S1536x1536x16, .f32⟩ : BufTy).Contents (Elt F)),
    StableHlo.unary main_arg7 main_v47 (broadcastInDim S1x1x16 ![2] bcast_S16_S1x1x16_2 : (⟨S16, .f32⟩ : BufTy).Contents (Elt F) → (⟨S1x1x16, .f32⟩ : BufTy).Contents (Elt F)),
    StableHlo.unary main_v47 main_v48 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v46 main_v48 main_v49 (mulf : (⟨S1536x1536x16, .f32⟩ : BufTy).Contents (Elt F) → (⟨S1536x1536x16, .f32⟩ : BufTy).Contents (Elt F) → (⟨S1536x1536x16, .f32⟩ : BufTy).Contents (Elt F)),
    StableHlo.unary main_arg8 main_v50 (broadcastInDim S1x1x16 ![2] bcast_S16_S1x1x16_2 : (⟨S16, .f32⟩ : BufTy).Contents (Elt F) → (⟨S1x1x16, .f32⟩ : BufTy).Contents (Elt F)),
    StableHlo.unary main_v50 main_v51 (broadcastInDim S1536x1536x16 ![0, 1, 2] bcast_S1x1x16_S1536x1536x16_0_1_2 : (⟨S1x1x16, .f32⟩ : BufTy).Contents (Elt F) → (⟨S1536x1536x16, .f32⟩ : BufTy).Contents (Elt F)),
    StableHlo.binary main_v49 main_v51 main_v52 (addf : (⟨S1536x1536x16, .f32⟩ : BufTy).Contents (Elt F) → (⟨S1536x1536x16, .f32⟩ : BufTy).Contents (Elt F) → (⟨S1536x1536x16, .f32⟩ : BufTy).Contents (Elt F)) ]

/-- Operations 111 to 118 of the program. -/
abbrev leakA2 : List (HloOp τ sig (Elt F)) :=
  [ StableHlo.nullary main_cst_7 (constant S_ .f32 0x3C23D70A#32),
    StableHlo.TRef.nullary main_call3.cst (constant S_ .f32 0x00000000#32),
    StableHlo.TRef.unary main_call3.cst main_call3.v0 (broadcastInDim S1536x1536x16 ![] bcast_S_S1536x1536x16),
    StableHlo.TRef.binary (.of main_v52) main_call3.v0 main_call3.v1 (cmpf .oge),
    StableHlo.TRef.unary (.of main_cst_7) main_call3.v2 id,
    StableHlo.TRef.unary main_call3.v2 main_call3.v3 (broadcastInDim S1536x1536x16 ![] bcast_S_S1536x1536x16),
    StableHlo.TRef.binary main_call3.v3 (.of main_v52) main_call3.v4 mulf,
    StableHlo.TRef.ternary main_call3.v1 (.of main_v52) main_call3.v4 main_call3.call0.v0 select ]

/-- Operations 119 to 122 of the program. -/
abbrev convB3 : List (HloOp τ sig (Elt F)) :=
  [ StableHlo.binary main_v53 main_arg9 main_v54 ((fun l r => Host.dotGeneral dot_S1536x1536x16_S8x16_S1536x1536x8_2_1_01_0_n_n none l r) : (⟨S1536x1536x16, .f32⟩ : BufTy).Contents (Elt F) → (⟨S8x16, .f32⟩ : BufTy).Contents (Elt F) → (⟨S1536x1536x8, .f32⟩ : BufTy).Contents (Elt F)),
    StableHlo.unary main_arg10 main_v55 (broadcastInDim S1x1x8 ![2] bcast_S8_S1x1x8_2 : (⟨S8, .f32⟩ : BufTy).Contents (Elt F) → (⟨S1x1x8, .f32⟩ : BufTy).Contents (Elt F)),
    StableHlo.unary main_v55 main_v56 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v54 main_v56 main_v57 (addf : (⟨S1536x1536x8, .f32⟩ : BufTy).Contents (Elt F) → (⟨S1536x1536x8, .f32⟩ : BufTy).Contents (Elt F) → (⟨S1536x1536x8, .f32⟩ : BufTy).Contents (Elt F)) ]

/-- Operations 123 to 150 of the program. -/
abbrev statB3 : List (HloOp τ sig (Elt F)) :=
  [ StableHlo.nullary main_cst_8 (constant S_ .f32 0x00000000#32),
    StableHlo.binary main_v57 main_cst_8 main_v58 ((fun x v => Host.reduceAdd x v reducesTo_S1536x1536x8_S8_d0_1 h_S_) : (⟨S1536x1536x8, .f32⟩ : BufTy).Contents (Elt F) → (⟨S_, .f32⟩ : BufTy).Contents (Elt F) → (⟨S8, .f32⟩ : BufTy).Contents (Elt F)),
    StableHlo.nullary main_cst_9 (constant S_ .f32 0x4A100000#32),
    StableHlo.unary main_cst_9 main_v59 (broadcastInDim S8 ![] bcast_S_S8 : (⟨S_, .f32⟩ : BufTy).Contents (Elt F) → (⟨S8, .f32⟩ : BufTy).Contents (Elt F)),
    StableHlo.binary main_v58 main_v59 main_v60 (Host.divf : (⟨S8, .f32⟩ : BufTy).Contents (Elt F) → (⟨S8, .f32⟩ : BufTy).Contents (Elt F) → (⟨S8, .f32⟩ : BufTy).Contents (Elt F)),
    StableHlo.nullary main_c_10 (constantI S_ 32 0#32),
    StableHlo.TRef.nullary main_call4.cst (constant S_ .f32 0x00000000#32),
    StableHlo.TRef.binary (.of main_v57) main_call4.cst main_call4.v0 (fun x v => Host.reduceAdd x v reducesTo_S1536x1536x8_S8_d0_1 h_S_),
    StableHlo.TRef.unary main_call4.v0 main_call4.v1 (broadcastInDim S1x1x8 ![2] bcast_S8_S1x1x8_2),
    StableHlo.TRef.nullary main_call4.cst_0 (constant S_ .f32 0x4A100000#32),
    StableHlo.TRef.unary main_call4.cst_0 main_call4.v2 (broadcastInDim S1x1x8 ![] bcast_S_S1x1x8),
    StableHlo.TRef.binary main_call4.v1 main_call4.v2 main_call4.v3 Host.divf,
    StableHlo.TRef.unary main_call4.v3 main_call4.v4 (broadcastInDim S1536x1536x8 ![0, 1, 2] bcast_S1x1x8_S1536x1536x8_0_1_2),
    StableHlo.TRef.binary (.of main_v57) main_call4.v4 main_call4.v5 subf,
    StableHlo.TRef.binary main_call4.v5 main_call4.v5 main_call4.v6 mulf,
    StableHlo.TRef.unary (.of main_c_10) main_call4.v7 (sitofp .f32),
    StableHlo.TRef.nullary main_call4.cst_1 (constant S_ .f32 0x4A100000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S1536x1536x8_S8_d0_1 h_S_),
    StableHlo.TRef.unary main_call4.v8 main_call4.v10 (broadcastInDim S8 ![] bcast_S_S8),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S8 ![] bcast_S_S8),
    StableHlo.TRef.ternary main_call4.v12 main_call4.v11 main_call4.call0.v1 main_call4.call0.v2 (fun p a b => select (broadcastInDim S8 ![] bcast_S_S8 p) a b) ]

/-- Operations 151 to 166 of the program. -/
abbrev normB3 : List (HloOp τ sig (Elt F)) :=
  [ StableHlo.unary main_v60 main_v62 (broadcastInDim S1x1x8 ![2] bcast_S8_S1x1x8_2 : (⟨S8, .f32⟩ : BufTy).Contents (Elt F) → (⟨S1x1x8, .f32⟩ : BufTy).Contents (Elt F)),
    StableHlo.unary main_v62 main_v63 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v57 main_v63 main_v64 (subf : (⟨S1536x1536x8, .f32⟩ : BufTy).Contents (Elt F) → (⟨S1536x1536x8, .f32⟩ : BufTy).Contents (Elt F) → (⟨S1536x1536x8, .f32⟩ : BufTy).Contents (Elt F)),
    StableHlo.nullary main_cst_11 (constant S_ .f32 0x3727C5AC#32),
    StableHlo.unary main_cst_11 main_v65 (broadcastInDim S8 ![] bcast_S_S8 : (⟨S_, .f32⟩ : BufTy).Contents (Elt F) → (⟨S8, .f32⟩ : BufTy).Contents (Elt F)),
    StableHlo.binary main_v61 main_v65 main_v66 (addf : (⟨S8, .f32⟩ : BufTy).Contents (Elt F) → (⟨S8, .f32⟩ : BufTy).Contents (Elt F) → (⟨S8, .f32⟩ : BufTy).Contents (Elt F)),
    StableHlo.unary main_v66 main_v67 (Host.rsqrt : (⟨S8, .f32⟩ : BufTy).Contents (Elt F) → (⟨S8, .f32⟩ : BufTy).Contents (Elt F)),
    StableHlo.unary main_v67 main_v68 (broadcastInDim S1x1x8 ![2] bcast_S8_S1x1x8_2 : (⟨S8, .f32⟩ : BufTy).Contents (Elt F) → (⟨S1x1x8, .f32⟩ : BufTy).Contents (Elt F)),
    StableHlo.unary main_v68 main_v69 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v64 main_v69 main_v70 (mulf : (⟨S1536x1536x8, .f32⟩ : BufTy).Contents (Elt F) → (⟨S1536x1536x8, .f32⟩ : BufTy).Contents (Elt F) → (⟨S1536x1536x8, .f32⟩ : BufTy).Contents (Elt F)),
    StableHlo.unary main_arg11 main_v71 (broadcastInDim S1x1x8 ![2] bcast_S8_S1x1x8_2 : (⟨S8, .f32⟩ : BufTy).Contents (Elt F) → (⟨S1x1x8, .f32⟩ : BufTy).Contents (Elt F)),
    StableHlo.unary main_v71 main_v72 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v70 main_v72 main_v73 (mulf : (⟨S1536x1536x8, .f32⟩ : BufTy).Contents (Elt F) → (⟨S1536x1536x8, .f32⟩ : BufTy).Contents (Elt F) → (⟨S1536x1536x8, .f32⟩ : BufTy).Contents (Elt F)),
    StableHlo.unary main_arg12 main_v74 (broadcastInDim S1x1x8 ![2] bcast_S8_S1x1x8_2 : (⟨S8, .f32⟩ : BufTy).Contents (Elt F) → (⟨S1x1x8, .f32⟩ : BufTy).Contents (Elt F)),
    StableHlo.unary main_v74 main_v75 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v73 main_v75 main_v76 (addf : (⟨S1536x1536x8, .f32⟩ : BufTy).Contents (Elt F) → (⟨S1536x1536x8, .f32⟩ : BufTy).Contents (Elt F) → (⟨S1536x1536x8, .f32⟩ : BufTy).Contents (Elt F)) ]

/-- Operations 167 to 174 of the program. -/
abbrev leakB3 : List (HloOp τ sig (Elt F)) :=
  [ StableHlo.nullary main_cst_12 (constant S_ .f32 0x3C23D70A#32),
    StableHlo.TRef.nullary main_call5.cst (constant S_ .f32 0x00000000#32),
    StableHlo.TRef.unary main_call5.cst main_call5.v0 (broadcastInDim S1536x1536x8 ![] bcast_S_S1536x1536x8),
    StableHlo.TRef.binary (.of main_v76) main_call5.v0 main_call5.v1 (cmpf .oge),
    StableHlo.TRef.unary (.of main_cst_12) main_call5.v2 id,
    StableHlo.TRef.unary main_call5.v2 main_call5.v3 (broadcastInDim S1536x1536x8 ![] bcast_S_S1536x1536x8),
    StableHlo.TRef.binary main_call5.v3 (.of main_v76) main_call5.v4 mulf,
    StableHlo.TRef.ternary main_call5.v1 (.of main_v76) main_call5.v4 main_call5.call0.v0 select ]

/-- Operations 175 to 178 of the program. -/
abbrev convB4 : List (HloOp τ sig (Elt F)) :=
  [ StableHlo.binary main_v77 main_arg13 main_v78 ((fun l r => Host.dotGeneral dot_S1536x1536x8_S8x8_S1536x1536x8_2_1_01_0_n_n none l r) : (⟨S1536x1536x8, .f32⟩ : BufTy).Contents (Elt F) → (⟨S8x8, .f32⟩ : BufTy).Contents (Elt F) → (⟨S1536x1536x8, .f32⟩ : BufTy).Contents (Elt F)),
    StableHlo.unary main_arg14 main_v79 (broadcastInDim S1x1x8 ![2] bcast_S8_S1x1x8_2 : (⟨S8, .f32⟩ : BufTy).Contents (Elt F) → (⟨S1x1x8, .f32⟩ : BufTy).Contents (Elt F)),
    StableHlo.unary main_v79 main_v80 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v78 main_v80 main_v81 (addf : (⟨S1536x1536x8, .f32⟩ : BufTy).Contents (Elt F) → (⟨S1536x1536x8, .f32⟩ : BufTy).Contents (Elt F) → (⟨S1536x1536x8, .f32⟩ : BufTy).Contents (Elt F)) ]

/-- Operations 179 to 206 of the program. -/
abbrev statB4 : List (HloOp τ sig (Elt F)) :=
  [ StableHlo.nullary main_cst_13 (constant S_ .f32 0x00000000#32),
    StableHlo.binary main_v81 main_cst_13 main_v82 ((fun x v => Host.reduceAdd x v reducesTo_S1536x1536x8_S8_d0_1 h_S_) : (⟨S1536x1536x8, .f32⟩ : BufTy).Contents (Elt F) → (⟨S_, .f32⟩ : BufTy).Contents (Elt F) → (⟨S8, .f32⟩ : BufTy).Contents (Elt F)),
    StableHlo.nullary main_cst_14 (constant S_ .f32 0x4A100000#32),
    StableHlo.unary main_cst_14 main_v83 (broadcastInDim S8 ![] bcast_S_S8 : (⟨S_, .f32⟩ : BufTy).Contents (Elt F) → (⟨S8, .f32⟩ : BufTy).Contents (Elt F)),
    StableHlo.binary main_v82 main_v83 main_v84 (Host.divf : (⟨S8, .f32⟩ : BufTy).Contents (Elt F) → (⟨S8, .f32⟩ : BufTy).Contents (Elt F) → (⟨S8, .f32⟩ : BufTy).Contents (Elt F)),
    StableHlo.nullary main_c_15 (constantI S_ 32 0#32),
    StableHlo.TRef.nullary main_call6.cst (constant S_ .f32 0x00000000#32),
    StableHlo.TRef.binary (.of main_v81) main_call6.cst main_call6.v0 (fun x v => Host.reduceAdd x v reducesTo_S1536x1536x8_S8_d0_1 h_S_),
    StableHlo.TRef.unary main_call6.v0 main_call6.v1 (broadcastInDim S1x1x8 ![2] bcast_S8_S1x1x8_2),
    StableHlo.TRef.nullary main_call6.cst_0 (constant S_ .f32 0x4A100000#32),
    StableHlo.TRef.unary main_call6.cst_0 main_call6.v2 (broadcastInDim S1x1x8 ![] bcast_S_S1x1x8),
    StableHlo.TRef.binary main_call6.v1 main_call6.v2 main_call6.v3 Host.divf,
    StableHlo.TRef.unary main_call6.v3 main_call6.v4 (broadcastInDim S1536x1536x8 ![0, 1, 2] bcast_S1x1x8_S1536x1536x8_0_1_2),
    StableHlo.TRef.binary (.of main_v81) main_call6.v4 main_call6.v5 subf,
    StableHlo.TRef.binary main_call6.v5 main_call6.v5 main_call6.v6 mulf,
    StableHlo.TRef.unary (.of main_c_15) main_call6.v7 (sitofp .f32),
    StableHlo.TRef.nullary main_call6.cst_1 (constant S_ .f32 0x4A100000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S1536x1536x8_S8_d0_1 h_S_),
    StableHlo.TRef.unary main_call6.v8 main_call6.v10 (broadcastInDim S8 ![] bcast_S_S8),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S8 ![] bcast_S_S8),
    StableHlo.TRef.ternary main_call6.v12 main_call6.v11 main_call6.call0.v1 main_call6.call0.v2 (fun p a b => select (broadcastInDim S8 ![] bcast_S_S8 p) a b) ]

/-- Operations 207 to 222 of the program. -/
abbrev normB4 : List (HloOp τ sig (Elt F)) :=
  [ StableHlo.unary main_v84 main_v86 (broadcastInDim S1x1x8 ![2] bcast_S8_S1x1x8_2 : (⟨S8, .f32⟩ : BufTy).Contents (Elt F) → (⟨S1x1x8, .f32⟩ : BufTy).Contents (Elt F)),
    StableHlo.unary main_v86 main_v87 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v81 main_v87 main_v88 (subf : (⟨S1536x1536x8, .f32⟩ : BufTy).Contents (Elt F) → (⟨S1536x1536x8, .f32⟩ : BufTy).Contents (Elt F) → (⟨S1536x1536x8, .f32⟩ : BufTy).Contents (Elt F)),
    StableHlo.nullary main_cst_16 (constant S_ .f32 0x3727C5AC#32),
    StableHlo.unary main_cst_16 main_v89 (broadcastInDim S8 ![] bcast_S_S8 : (⟨S_, .f32⟩ : BufTy).Contents (Elt F) → (⟨S8, .f32⟩ : BufTy).Contents (Elt F)),
    StableHlo.binary main_v85 main_v89 main_v90 (addf : (⟨S8, .f32⟩ : BufTy).Contents (Elt F) → (⟨S8, .f32⟩ : BufTy).Contents (Elt F) → (⟨S8, .f32⟩ : BufTy).Contents (Elt F)),
    StableHlo.unary main_v90 main_v91 (Host.rsqrt : (⟨S8, .f32⟩ : BufTy).Contents (Elt F) → (⟨S8, .f32⟩ : BufTy).Contents (Elt F)),
    StableHlo.unary main_v91 main_v92 (broadcastInDim S1x1x8 ![2] bcast_S8_S1x1x8_2 : (⟨S8, .f32⟩ : BufTy).Contents (Elt F) → (⟨S1x1x8, .f32⟩ : BufTy).Contents (Elt F)),
    StableHlo.unary main_v92 main_v93 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v88 main_v93 main_v94 (mulf : (⟨S1536x1536x8, .f32⟩ : BufTy).Contents (Elt F) → (⟨S1536x1536x8, .f32⟩ : BufTy).Contents (Elt F) → (⟨S1536x1536x8, .f32⟩ : BufTy).Contents (Elt F)),
    StableHlo.unary main_arg15 main_v95 (broadcastInDim S1x1x8 ![2] bcast_S8_S1x1x8_2 : (⟨S8, .f32⟩ : BufTy).Contents (Elt F) → (⟨S1x1x8, .f32⟩ : BufTy).Contents (Elt F)),
    StableHlo.unary main_v95 main_v96 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v94 main_v96 main_v97 (mulf : (⟨S1536x1536x8, .f32⟩ : BufTy).Contents (Elt F) → (⟨S1536x1536x8, .f32⟩ : BufTy).Contents (Elt F) → (⟨S1536x1536x8, .f32⟩ : BufTy).Contents (Elt F)),
    StableHlo.unary main_arg16 main_v98 (broadcastInDim S1x1x8 ![2] bcast_S8_S1x1x8_2 : (⟨S8, .f32⟩ : BufTy).Contents (Elt F) → (⟨S1x1x8, .f32⟩ : BufTy).Contents (Elt F)),
    StableHlo.unary main_v98 main_v99 (broadcastInDim S1536x1536x8 ![0, 1, 2] bcast_S1x1x8_S1536x1536x8_0_1_2 : (⟨S1x1x8, .f32⟩ : BufTy).Contents (Elt F) → (⟨S1536x1536x8, .f32⟩ : BufTy).Contents (Elt F)),
    StableHlo.binary main_v97 main_v99 main_v100 (addf : (⟨S1536x1536x8, .f32⟩ : BufTy).Contents (Elt F) → (⟨S1536x1536x8, .f32⟩ : BufTy).Contents (Elt F) → (⟨S1536x1536x8, .f32⟩ : BufTy).Contents (Elt F)) ]

/-- Operations 223 to 230 of the program. -/
abbrev leakB4 : List (HloOp τ sig (Elt F)) :=
  [ StableHlo.nullary main_cst_17 (constant S_ .f32 0x3C23D70A#32),
    StableHlo.TRef.nullary main_call7.cst (constant S_ .f32 0x00000000#32),
    StableHlo.TRef.unary main_call7.cst main_call7.v0 (broadcastInDim S1536x1536x8 ![] bcast_S_S1536x1536x8),
    StableHlo.TRef.binary (.of main_v100) main_call7.v0 main_call7.v1 (cmpf .oge),
    StableHlo.TRef.unary (.of main_cst_17) main_call7.v2 id,
    StableHlo.TRef.unary main_call7.v2 main_call7.v3 (broadcastInDim S1536x1536x8 ![] bcast_S_S1536x1536x8),
    StableHlo.TRef.binary main_call7.v3 (.of main_v100) main_call7.v4 mulf,
    StableHlo.TRef.ternary main_call7.v1 (.of main_v100) main_call7.v4 main_call7.call0.v0 select ]

/-- Operations 231 to 235 of the program. -/
abbrev last5 : List (HloOp τ sig (Elt F)) :=
  [ StableHlo.binary main_v101 main_arg17 main_v102 ((fun l r => Host.dotGeneral dot_S1536x1536x8_S1x8_S1536x1536x1_2_1_01_0_n_n none l r) : (⟨S1536x1536x8, .f32⟩ : BufTy).Contents (Elt F) → (⟨S1x8, .f32⟩ : BufTy).Contents (Elt F) → (⟨S1536x1536x1, .f32⟩ : BufTy).Contents (Elt F)),
    StableHlo.unary main_arg18 main_v103 (broadcastInDim S1x1x1 ![2] bcast_S1_S1x1x1_2 : (⟨S1, .f32⟩ : BufTy).Contents (Elt F) → (⟨S1x1x1, .f32⟩ : BufTy).Contents (Elt F)),
    StableHlo.unary main_v103 main_v104 (broadcastInDim S1536x1536x1 ![0, 1, 2] bcast_S1x1x1_S1536x1536x1_0_1_2 : (⟨S1x1x1, .f32⟩ : BufTy).Contents (Elt F) → (⟨S1536x1536x1, .f32⟩ : BufTy).Contents (Elt F)),
    StableHlo.binary main_v102 main_v104 main_v105 (addf : (⟨S1536x1536x1, .f32⟩ : BufTy).Contents (Elt F) → (⟨S1536x1536x1, .f32⟩ : BufTy).Contents (Elt F) → (⟨S1536x1536x1, .f32⟩ : BufTy).Contents (Elt F)),
    StableHlo.reshape main_v105 main_v106 rfl shapeCasts_S1536x1536x1_S1536x1536 ]

end Cert.ReferenceIdeal.Hand

end
-- ==== Proof.Ref.Ops.lean ====
/- The reference program as one straight line: its operations in order are the seventeen stage lists concatenated,
   every operation stays inside the TensorCore's buffers and determines its result, and so every weakly fair
   execution ends with each buffer at the fold of the operations' results over the launch contents. -/
import proofs.«135850_j19774029431551_2_alg».proof.Proof.Ref.OpsTable

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations in order. -/
abbrev ops : List (HloOp τ sig (Elt F)) :=
  convA1 ++ (statA1 ++ (normA1 ++ (leakA1 ++ (convA2 ++ (statA2 ++ (normA2 ++ (leakA2 ++ (convB3 ++ (statB3 ++
    (normB3 ++ (leakB3 ++ (convB4 ++ (statB4 ++ (normB4 ++ (leakB4 ++ last5)))))))))))))))

/-- The fold over two lines run one after the other is the second line's fold after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- What the run theorem asks of a line: every operation's buffers are TensorCore buffers, and every operation
    determines its results. -/
def Good (l : List (HloOp τ sig (Elt F))) : Prop :=
  (l.Forall fun op => op.bufs ⊆ tcRefs τ sig) ∧ ∀ op ∈ l, op.fresh = ∅

theorem Good.append {l₁ l₂ : List (HloOp τ sig (Elt F))} (h₁ : Good l₁) (h₂ : Good l₂) : Good (l₁ ++ l₂) :=
  ⟨List.forall_iff_forall_mem.mpr fun op hop => (List.mem_append.mp hop).elim
      (List.forall_iff_forall_mem.mp h₁.1 op) (List.forall_iff_forall_mem.mp h₂.1 op),
    fun op hop => (List.mem_append.mp hop).elim (h₁.2 op) (h₂.2 op)⟩

/-- Closes Good at a literal list of the builders' operations: the buffers by the builders' own lemmas, the
    determinacy by computation at each member. -/
local macro "good_list" : tactic =>
  `(tactic| (refine ⟨?_, ?_⟩
             · simp only [List.Forall, nullary_bufs_sub, unary_bufs_sub, binary_bufs_sub, ternary_bufs_sub, reshape_bufs_sub,
                 and_self]
             · intro _ h
               (repeat (cases h with | head => rfl | tail _ h => ?_))
               exact nomatch h))

theorem convA1_good : Good (convA1 (F := F)) := by good_list
theorem statA1_good : Good (statA1 (F := F)) := by good_list
theorem normA1_good : Good (normA1 (F := F)) := by good_list
theorem leakA1_good : Good (leakA1 (F := F)) := by good_list
theorem convA2_good : Good (convA2 (F := F)) := by good_list
theorem statA2_good : Good (statA2 (F := F)) := by good_list
theorem normA2_good : Good (normA2 (F := F)) := by good_list
theorem leakA2_good : Good (leakA2 (F := F)) := by good_list
theorem convB3_good : Good (convB3 (F := F)) := by good_list
theorem statB3_good : Good (statB3 (F := F)) := by good_list
theorem normB3_good : Good (normB3 (F := F)) := by good_list
theorem leakB3_good : Good (leakB3 (F := F)) := by good_list
theorem convB4_good : Good (convB4 (F := F)) := by good_list
theorem statB4_good : Good (statB4 (F := F)) := by good_list
theorem normB4_good : Good (normB4 (F := F)) := by good_list
theorem leakB4_good : Good (leakB4 (F := F)) := by good_list
theorem last5_good : Good (last5 (F := F)) := by good_list

theorem ops_good : Good (ops (F := F)) :=
  convA1_good.append (statA1_good.append (normA1_good.append (leakA1_good.append (convA2_good.append
    (statA2_good.append (normA2_good.append (leakA2_good.append (convB3_good.append (statB3_good.append
    (normB3_good.append (leakB3_good.append (convB4_good.append (statB4_good.append (normB4_good.append
    (leakB4_good.append last5_good)))))))))))))))

-- two hundred and thirty-five binds re-associated: the rewrite under the chain recurses once per statement
set_option maxRecDepth 16384 in
set_option maxHeartbeats 4000000 in
/-- @main is that straight line: its three windows in order, each function's definition unfolded at its calls and
    each record at its fields; both sides are one chain of steps once sequencing is re-associated. -/
theorem main_eq (c : Dev nD) : main (F := F) c = seq ops := by
  simp only [main, main_part0, main_part1, main_part2, fn_var.body, fn_where.body, fn_leaky_relu.body, fn_where_0.body,
    fn_var_1.body, fn_where_2.body, fn_leaky_relu_3.body, fn_where_4.body, ops, convA1, statA1, normA1, leakA1, convA2,
    statA2, normA2, leakA2, convB3, statB3, normB3, leakB3, convB4, statB4, normB4, leakB4, last5, seq_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_good.1) m ρ (fun _ => ops_good.2)

end Cert.ReferenceIdeal.Hand

end
-- ==== Proof.Ref.Run.lean ====
/- The reference program's run read back: stage by stage, the fold of each stage's operations at the stage's result
   buffer is the stage's function of what the stage reads, and no stage writes an argument; composed, the program
   ends with its result buffer at "out" of the nineteen argument arrays and the arguments unchanged. -/
import proofs.«135850_j19774029431551_2_alg».proof.Proof.Ref.Stages
import proofs.«135850_j19774029431551_2_alg».proof.Proof.Ref.Ops

-- reading a buffer's type off the signature's table walks a 128-way case split per operation; nineteen buffers per stage
set_option maxHeartbeats 2000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The arguments are never written -/

/-- The nineteen argument arrays read the same in two valuations. -/
structure SameArgs (W V : Valuation τ sig (Elt F)) : Prop where
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)
  a11 : W (main_arg11 : DevRef τ sig) = V (main_arg11 : DevRef τ sig)
  a12 : W (main_arg12 : DevRef τ sig) = V (main_arg12 : DevRef τ sig)
  a13 : W (main_arg13 : DevRef τ sig) = V (main_arg13 : DevRef τ sig)
  a14 : W (main_arg14 : DevRef τ sig) = V (main_arg14 : DevRef τ sig)
  a15 : W (main_arg15 : DevRef τ sig) = V (main_arg15 : DevRef τ sig)
  a16 : W (main_arg16 : DevRef τ sig) = V (main_arg16 : DevRef τ sig)
  a17 : W (main_arg17 : DevRef τ sig) = V (main_arg17 : DevRef τ sig)
  a18 : W (main_arg18 : DevRef τ sig) = V (main_arg18 : DevRef τ sig)

theorem SameArgs.trans {X W V : Valuation τ sig (Elt F)} (h₁ : SameArgs X W) (h₂ : SameArgs W V) : SameArgs X V :=
  ⟨h₁.a0.trans h₂.a0, h₁.a1.trans h₂.a1, h₁.a2.trans h₂.a2, h₁.a3.trans h₂.a3, h₁.a4.trans h₂.a4, h₁.a5.trans h₂.a5,
    h₁.a6.trans h₂.a6, h₁.a7.trans h₂.a7, h₁.a8.trans h₂.a8, h₁.a9.trans h₂.a9, h₁.a10.trans h₂.a10,
    h₁.a11.trans h₂.a11, h₁.a12.trans h₂.a12, h₁.a13.trans h₂.a13, h₁.a14.trans h₂.a14, h₁.a15.trans h₂.a15,
    h₁.a16.trans h₂.a16, h₁.a17.trans h₂.a17, h₁.a18.trans h₂.a18⟩

/-- Each of the nineteen equations is the fold read at a buffer none of the stage's operations writes. -/
local macro "same_args" : tactic =>
  `(tactic| (refine ⟨?_, ?_, ?_, ?_, ?_, ?_, ?_, ?_, ?_, ?_, ?_, ?_, ?_, ?_, ?_, ?_, ?_, ?_, ?_⟩ <;> after_results_simp))

/-- The fold read at a stage's result buffer: every operation's result at its own buffer is its function of its
    operands' contents, at any other buffer what was there; what is left is the stage's definition unfolded. -/
local macro "stage_result" : tactic => `(tactic| (after_results_simp <;> rfl))

/-! ## Block 1 -/

theorem convA1_args (W : Valuation τ sig (Elt F)) : SameArgs (after convA1 W) W := by same_args
theorem convA1_out (W : Valuation τ sig (Elt F)) :
    after convA1 W (main_v9 : DevRef τ sig) = conv1 (pairFeat (W (main_arg0 : DevRef τ sig))) (W (main_arg1 : DevRef τ sig)) (W (main_arg2 : DevRef τ sig)) := by stage_result

theorem statA1_args (W : Valuation τ sig (Elt F)) : SameArgs (after statA1 W) W := by same_args
theorem statA1_keep (W : Valuation τ sig (Elt F)) : after statA1 W (main_v9 : DevRef τ sig) = W (main_v9 : DevRef τ sig) := by after_results_simp
theorem statA1_mean (W : Valuation τ sig (Elt F)) : after statA1 W (main_v12 : DevRef τ sig) = mean16 (W (main_v9 : DevRef τ sig)) := by stage_result
theorem statA1_var (W : Valuation τ sig (Elt F)) : after statA1 W (main_v13 : DevRef τ sig) = var16 (W (main_v9 : DevRef τ sig)) := by stage_result

theorem normA1_args (W : Valuation τ sig (Elt F)) : SameArgs (after normA1 W) W := by same_args
theorem normA1_out (W : Valuation τ sig (Elt F)) :
    after normA1 W (main_v28 : DevRef τ sig)
      = scaleShift16 (W (main_v9 : DevRef τ sig)) (W (main_v12 : DevRef τ sig)) (W (main_v13 : DevRef τ sig)) (W (main_arg3 : DevRef τ sig)) (W (main_arg4 : DevRef τ sig)) := by stage_result

theorem leakA1_args (W : Valuation τ sig (Elt F)) : SameArgs (after leakA1 W) W := by same_args
theorem leakA1_out (W : Valuation τ sig (Elt F)) : after leakA1 W (main_v29 : DevRef τ sig) = leaky16 (W (main_v28 : DevRef τ sig)) := by stage_result

theorem blockA1_args (W : Valuation τ sig (Elt F)) :
    SameArgs (after leakA1 (after normA1 (after statA1 (after convA1 W)))) W :=
  (leakA1_args _).trans ((normA1_args _).trans ((statA1_args _).trans (convA1_args W)))

theorem blockA1_out (W : Valuation τ sig (Elt F)) :
    after leakA1 (after normA1 (after statA1 (after convA1 W))) (main_v29 : DevRef τ sig)
      = block1 (W (main_arg0 : DevRef τ sig)) (W (main_arg1 : DevRef τ sig)) (W (main_arg2 : DevRef τ sig)) (W (main_arg3 : DevRef τ sig)) (W (main_arg4 : DevRef τ sig)) := by
  rw [leakA1_out, normA1_out, statA1_keep, statA1_mean, statA1_var, (statA1_args _).a3, (statA1_args _).a4,
    convA1_out, (convA1_args _).a3, (convA1_args _).a4]
  rfl

/-! ## Block 2 -/

theorem convA2_args (W : Valuation τ sig (Elt F)) : SameArgs (after convA2 W) W := by same_args
theorem convA2_out (W : Valuation τ sig (Elt F)) :
    after convA2 W (main_v33 : DevRef τ sig) = conv2 (W (main_v29 : DevRef τ sig)) (W (main_arg5 : DevRef τ sig)) (W (main_arg6 : DevRef τ sig)) := by stage_result

theorem statA2_args (W : Valuation τ sig (Elt F)) : SameArgs (after statA2 W) W := by same_args
theorem statA2_keep (W : Valuation τ sig (Elt F)) : after statA2 W (main_v33 : DevRef τ sig) = W (main_v33 : DevRef τ sig) := by after_results_simp
theorem statA2_mean (W : Valuation τ sig (Elt F)) : after statA2 W (main_v36 : DevRef τ sig) = mean16 (W (main_v33 : DevRef τ sig)) := by stage_result
theorem statA2_var (W : Valuation τ sig (Elt F)) : after statA2 W (main_v37 : DevRef τ sig) = var16 (W (main_v33 : DevRef τ sig)) := by stage_result

theorem normA2_args (W : Valuation τ sig (Elt F)) : SameArgs (after normA2 W) W := by same_args
theorem normA2_out (W : Valuation τ sig (Elt F)) :
    after normA2 W (main_v52 : DevRef τ sig)
      = scaleShift16 (W (main_v33 : DevRef τ sig)) (W (main_v36 : DevRef τ sig)) (W (main_v37 : DevRef τ sig)) (W (main_arg7 : DevRef τ sig)) (W (main_arg8 : DevRef τ sig)) := by stage_result

theorem leakA2_args (W : Valuation τ sig (Elt F)) : SameArgs (after leakA2 W) W := by same_args
theorem leakA2_out (W : Valuation τ sig (Elt F)) : after leakA2 W (main_v53 : DevRef τ sig) = leaky16 (W (main_v52 : DevRef τ sig)) := by stage_result

theorem blockA2_args (W : Valuation τ sig (Elt F)) :
    SameArgs (after leakA2 (after normA2 (after statA2 (after convA2 W)))) W :=
  (leakA2_args _).trans ((normA2_args _).trans ((statA2_args _).trans (convA2_args W)))

theorem blockA2_out (W : Valuation τ sig (Elt F)) :
    after leakA2 (after normA2 (after statA2 (after convA2 W))) (main_v53 : DevRef τ sig)
      = block2 (W (main_v29 : DevRef τ sig)) (W (main_arg5 : DevRef τ sig)) (W (main_arg6 : DevRef τ sig)) (W (main_arg7 : DevRef τ sig)) (W (main_arg8 : DevRef τ sig)) := by
  rw [leakA2_out, normA2_out, statA2_keep, statA2_mean, statA2_var, (statA2_args _).a7, (statA2_args _).a8,
    convA2_out, (convA2_args _).a7, (convA2_args _).a8]
  rfl

/-! ## Block 3 -/

theorem convB3_args (W : Valuation τ sig (Elt F)) : SameArgs (after convB3 W) W := by same_args
theorem convB3_out (W : Valuation τ sig (Elt F)) :
    after convB3 W (main_v57 : DevRef τ sig) = conv3 (W (main_v53 : DevRef τ sig)) (W (main_arg9 : DevRef τ sig)) (W (main_arg10 : DevRef τ sig)) := by stage_result

theorem statB3_args (W : Valuation τ sig (Elt F)) : SameArgs (after statB3 W) W := by same_args
theorem statB3_keep (W : Valuation τ sig (Elt F)) : after statB3 W (main_v57 : DevRef τ sig) = W (main_v57 : DevRef τ sig) := by after_results_simp
theorem statB3_mean (W : Valuation τ sig (Elt F)) : after statB3 W (main_v60 : DevRef τ sig) = mean8 (W (main_v57 : DevRef τ sig)) := by stage_result
theorem statB3_var (W : Valuation τ sig (Elt F)) : after statB3 W (main_v61 : DevRef τ sig) = var8 (W (main_v57 : DevRef τ sig)) := by stage_result

theorem normB3_args (W : Valuation τ sig (Elt F)) : SameArgs (after normB3 W) W := by same_args
theorem normB3_out (W : Valuation τ sig (Elt F)) :
    after normB3 W (main_v76 : DevRef τ sig)
      = scaleShift8 (W (main_v57 : DevRef τ sig)) (W (main_v60 : DevRef τ sig)) (W (main_v61 : DevRef τ sig)) (W (main_arg11 : DevRef τ sig)) (W (main_arg12 : DevRef τ sig)) := by stage_result

theorem leakB3_args (W : Valuation τ sig (Elt F)) : SameArgs (after leakB3 W) W := by same_args
theorem leakB3_out (W : Valuation τ sig (Elt F)) : after leakB3 W (main_v77 : DevRef τ sig) = leaky8 (W (main_v76 : DevRef τ sig)) := by stage_result

theorem blockB3_args (W : Valuation τ sig (Elt F)) :
    SameArgs (after leakB3 (after normB3 (after statB3 (after convB3 W)))) W :=
  (leakB3_args _).trans ((normB3_args _).trans ((statB3_args _).trans (convB3_args W)))

theorem blockB3_out (W : Valuation τ sig (Elt F)) :
    after leakB3 (after normB3 (after statB3 (after convB3 W))) (main_v77 : DevRef τ sig)
      = block3 (W (main_v53 : DevRef τ sig)) (W (main_arg9 : DevRef τ sig)) (W (main_arg10 : DevRef τ sig)) (W (main_arg11 : DevRef τ sig)) (W (main_arg12 : DevRef τ sig)) := by
  rw [leakB3_out, normB3_out, statB3_keep, statB3_mean, statB3_var, (statB3_args _).a11, (statB3_args _).a12,
    convB3_out, (convB3_args _).a11, (convB3_args _).a12]
  rfl

/-! ## Block 4 -/

theorem convB4_args (W : Valuation τ sig (Elt F)) : SameArgs (after convB4 W) W := by same_args
theorem convB4_out (W : Valuation τ sig (Elt F)) :
    after convB4 W (main_v81 : DevRef τ sig) = conv4 (W (main_v77 : DevRef τ sig)) (W (main_arg13 : DevRef τ sig)) (W (main_arg14 : DevRef τ sig)) := by stage_result

theorem statB4_args (W : Valuation τ sig (Elt F)) : SameArgs (after statB4 W) W := by same_args
theorem statB4_keep (W : Valuation τ sig (Elt F)) : after statB4 W (main_v81 : DevRef τ sig) = W (main_v81 : DevRef τ sig) := by after_results_simp
theorem statB4_mean (W : Valuation τ sig (Elt F)) : after statB4 W (main_v84 : DevRef τ sig) = mean8 (W (main_v81 : DevRef τ sig)) := by stage_result
theorem statB4_var (W : Valuation τ sig (Elt F)) : after statB4 W (main_v85 : DevRef τ sig) = var8 (W (main_v81 : DevRef τ sig)) := by stage_result

theorem normB4_args (W : Valuation τ sig (Elt F)) : SameArgs (after normB4 W) W := by same_args
theorem normB4_out (W : Valuation τ sig (Elt F)) :
    after normB4 W (main_v100 : DevRef τ sig)
      = scaleShift8 (W (main_v81 : DevRef τ sig)) (W (main_v84 : DevRef τ sig)) (W (main_v85 : DevRef τ sig)) (W (main_arg15 : DevRef τ sig)) (W (main_arg16 : DevRef τ sig)) := by stage_result

theorem leakB4_args (W : Valuation τ sig (Elt F)) : SameArgs (after leakB4 W) W := by same_args
theorem leakB4_out (W : Valuation τ sig (Elt F)) : after leakB4 W (main_v101 : DevRef τ sig) = leaky8 (W (main_v100 : DevRef τ sig)) := by stage_result

theorem blockB4_args (W : Valuation τ sig (Elt F)) :
    SameArgs (after leakB4 (after normB4 (after statB4 (after convB4 W)))) W :=
  (leakB4_args _).trans ((normB4_args _).trans ((statB4_args _).trans (convB4_args W)))

theorem blockB4_out (W : Valuation τ sig (Elt F)) :
    after leakB4 (after normB4 (after statB4 (after convB4 W))) (main_v101 : DevRef τ sig)
      = block4 (W (main_v77 : DevRef τ sig)) (W (main_arg13 : DevRef τ sig)) (W (main_arg14 : DevRef τ sig)) (W (main_arg15 : DevRef τ sig)) (W (main_arg16 : DevRef τ sig)) := by
  rw [leakB4_out, normB4_out, statB4_keep, statB4_mean, statB4_var, (statB4_args _).a15, (statB4_args _).a16,
    convB4_out, (convB4_args _).a15, (convB4_args _).a16]
  rfl

/-! ## The last convolution and the reshape -/

theorem last5_args (W : Valuation τ sig (Elt F)) : SameArgs (after last5 W) W := by same_args
theorem last5_out (W : Valuation τ sig (Elt F)) :
    after last5 W (main_v106 : DevRef τ sig) = squeeze (conv5 (W (main_v101 : DevRef τ sig)) (W (main_arg17 : DevRef τ sig)) (W (main_arg18 : DevRef τ sig))) := by stage_result

/-! ## The whole program -/

/-- The whole fold leaves every argument as it was. -/
theorem after_args (V : Valuation τ sig (Elt F)) : SameArgs (after ops V) V := by
  simp only [ops, after_append]
  exact (last5_args _).trans ((blockB4_args _).trans ((blockB3_args _).trans ((blockA2_args _).trans (blockA1_args V))))

/-- The whole fold at the result buffer is "out" of the arguments: block by block, each block's valuation named
    before the next block is read, so that no term is ever larger than one block. -/
theorem after_out (V : Valuation τ sig (Elt F)) :
    after ops V (main_v106 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig)) (V (main_arg16 : DevRef τ sig)) (V (main_arg17 : DevRef τ sig))
          (V (main_arg18 : DevRef τ sig)) := by
  simp only [ops, after_append]
  have k1 := blockA1_args V
  have o1 := blockA1_out V
  generalize after leakA1 (after normA1 (after statA1 (after convA1 V))) = V1 at k1 o1 ⊢
  have k2 := (blockA2_args V1).trans k1
  have o2 := blockA2_out V1
  rw [o1, k1.a5, k1.a6, k1.a7, k1.a8] at o2
  generalize after leakA2 (after normA2 (after statA2 (after convA2 V1))) = V2 at k2 o2 ⊢
  have k3 := (blockB3_args V2).trans k2
  have o3 := blockB3_out V2
  rw [o2, k2.a9, k2.a10, k2.a11, k2.a12] at o3
  generalize after leakB3 (after normB3 (after statB3 (after convB3 V2))) = V3 at k3 o3 ⊢
  have k4 := (blockB4_args V3).trans k3
  have o4 := blockB4_out V3
  rw [o3, k3.a13, k3.a14, k3.a15, k3.a16] at o4
  generalize after leakB4 (after normB4 (after statB4 (after convB4 V3))) = V4 at k4 o4 ⊢
  rw [last5_out, o4, k4.a17, k4.a18]
  rfl

/-! ## The run -/

/-- On every device, for any float values, from any memory with zero counters: every weakly fair execution of
    @main terminates with the result buffer at "out" of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v106)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
            (m ((c.tc : Thread nD τ).loc main_arg16)) (m ((c.tc : Thread nD τ).loc main_arg17))
            (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    have k := after_args (launchContents m c)
    ⟨(h c main_v106).trans (after_out (launchContents m c)),
      (h c main_arg0).trans k.a0, (h c main_arg1).trans k.a1, (h c main_arg2).trans k.a2, (h c main_arg3).trans k.a3,
      (h c main_arg4).trans k.a4, (h c main_arg5).trans k.a5, (h c main_arg6).trans k.a6, (h c main_arg7).trans k.a7,
      (h c main_arg8).trans k.a8, (h c main_arg9).trans k.a9, (h c main_arg10).trans k.a10,
      (h c main_arg11).trans k.a11, (h c main_arg12).trans k.a12, (h c main_arg13).trans k.a13,
      (h c main_arg14).trans k.a14, (h c main_arg15).trans k.a15, (h c main_arg16).trans k.a16,
      (h c main_arg17).trans k.a17, (h c main_arg18).trans k.a18⟩)
    (run_main m ρ)

end Cert.ReferenceIdeal.Hand

end
-- ==== Proof.LibFiniteReal.lean ====
/-
  Finite entries are real numbers — the part that does not depend on any one program.

  On the extended reals the absolute value `max x (-x)` is below `+∞` exactly when `x` is the image of a real number: at
  `⊤` it is `⊤`, and at `⊥` it is `-⊥ = ⊤` (which is also how an undefined value reads). The word `0x7F800000` denotes
  `+∞`. So where the comparison bit "`|X i| < +∞`" of a printed finiteness predicate is one, `X i` is real
  (`real_of_lt_inf`, over any shape), and where the `and` of those bits over every index of an array is one — the
  predicate's `jnp.all` — every entry of the array is real (`real_of_all`; `real_of_all_scalar` for rank zero).
-/
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.Finite

open Idealize.ShloMosaic Idealize.SL.Sem

/-- The shape of rank zero has exactly one index. -/
instance subsingleton_scalar_idx : Subsingleton (⟨0, ![]⟩ : Shape).Idx :=
  ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- A one-bit word made from a Boolean is one only when the Boolean is true. -/
theorem eq_true_of_ofBool {b : Bool} (h : BitVec.ofBool b = 1#1) : b = true := by
  cases b
  · exact absurd h (by decide)
  · rfl

/-- An extended real whose absolute value `max x (-x)` is below `⊤` is a real number:
    at `x = ⊤` the maximum is `⊤`, and at `x = ⊥` it is `-⊥ = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison bit "`|x| < +∞`" being one makes `x` a real number. -/
theorem real_of_cmp (x : EReal)
    (h : Ideal.cmp .olt (max x (-x)) (Ideal.ofBits .f32 0x7F800000#32) = 1#1) :
    ∃ r : ℝ, x = (r : EReal) := by
  rw [inf_word] at h
  have hb : BitVec.ofBool (decide (max x (-x) < ⊤)) = 1#1 := h
  exact real_of_abs_lt_top x (of_decide_eq_true (eq_true_of_ofBool hb))

/-- Elementwise, over any shape: where the bit "`|X i| < +∞`" (the bound a splat of the `+∞` word) is one,
    `X i` is a real number. -/
theorem real_of_lt_inf {s : Shape}
    (hb : Shape.BroadcastsInDim (⟨0, ![]⟩ : Shape) s (![] : Fin 0 → Fin s.rank))
    (X : FVec Ideal s .f32) (i : s.Idx)
    (h : cmpf .olt (Host.absf X)
          (broadcastInDim s ![] hb (constant (F := Ideal) (⟨0, ![]⟩ : Shape) .f32 0x7F800000#32)) i = 1#1) :
    ∃ r : ℝ, X i = (r : EReal) :=
  real_of_cmp (X i) h

/-- The same for an array of rank zero, whose bound is the `+∞` constant itself. -/
theorem real_of_lt_inf_scalar (X : FVec Ideal (⟨0, ![]⟩ : Shape) .f32) (i : (⟨0, ![]⟩ : Shape).Idx)
    (h : cmpf .olt (Host.absf X) (constant (F := Ideal) (⟨0, ![]⟩ : Shape) .f32 0x7F800000#32) i = 1#1) :
    ∃ r : ℝ, X i = (r : EReal) :=
  real_of_cmp (X i) h

/-- "All entries are finite", over any shape: if the `and` over every index of the bits "`|X i| < +∞`" is one,
    every entry of `X` is a real number. -/
theorem real_of_all {s : Shape} {axes : List (Fin s.rank)}
    (hb : Shape.BroadcastsInDim (⟨0, ![]⟩ : Shape) s (![] : Fin 0 → Fin s.rank))
    (hr : s.ReducesTo axes (⟨0, ![]⟩ : Shape)) (hu : 0 < (⟨0, ![]⟩ : Shape).numel)
    (X : FVec Ideal s .f32)
    (h : Host.reduce IntOp.andi
          (cmpf .olt (Host.absf X)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, X i = (r : EReal) :=
  real_of_lt_inf hb X i (Host.reduce_andi_all _ _ hr hu ValueIdx.ix0 h i)

/-- The same for an array of rank zero (the `and` runs over its one entry). -/
theorem real_of_all_scalar
    (hr : (⟨0, ![]⟩ : Shape).ReducesTo [] (⟨0, ![]⟩ : Shape)) (hu : 0 < (⟨0, ![]⟩ : Shape).numel)
    (X : FVec Ideal (⟨0, ![]⟩ : Shape) .f32)
    (h : Host.reduce IntOp.andi
          (cmpf .olt (Host.absf X) (constant (F := Ideal) (⟨0, ![]⟩ : Shape) .f32 0x7F800000#32))
          (constantI (⟨0, ![]⟩ : Shape) 1 1#1) hr hu ValueIdx.ix0 = 1#1)
    (i : (⟨0, ![]⟩ : Shape).Idx) : ∃ r : ℝ, X i = (r : EReal) :=
  real_of_lt_inf_scalar X i (Host.reduce_andi_all _ _ hr hu ValueIdx.ix0 h i)

/-- The `and` of two one-bit scalars is one only when both are. -/
theorem and_split {A B : IVec (⟨0, ![]⟩ : Shape) 1} (h : andi A B ValueIdx.ix0 = 1#1) :
    A ValueIdx.ix0 = 1#1 ∧ B ValueIdx.ix0 = 1#1 :=
  IntOp.andi_eq_one.1 h

end Cert.Finite
-- ==== Proof.Finite.lean ====
/-
  The precondition, decoded: every entry of every argument array is a real number.

  The printed precondition is the conjunction, over the nineteen argument arrays, of "all entries have absolute value below
  +∞". On the extended reals that makes every entry the image of a real number, which is what the algebra of the batch
  normalisation needs: the variance through the second moment equals the one through centred squares, and a scale folded
  into a shift distributes, only where every quantity is real.
-/
import proofs.«135850_j19774029431551_2_alg».proof.Pre_finite_inputs
import proofs.«135850_j19774029431551_2_alg».proof.Proof.LibFiniteReal

noncomputable section

namespace Cert.Hand

open Idealize.ShloMosaic Cert.Pre_finite_inputs Cert.Pre_finite_inputs.Facts

variable [Cert.Pre_finite_inputs.Facts]

/-- Every entry of the array is a real number. -/
def AllReal {s : Shape} (X : FVec Ideal s .f32) : Prop := ∀ i, ∃ r : ℝ, X i = (r : EReal)

set_option maxHeartbeats 1600000 in
/-- Where the precondition holds, every argument array has real entries. -/
theorem real_of_pre (a0 : FVec Ideal S1536x64 .f32) (a1 : FVec Ideal S16x64 .f32) (a2 : FVec Ideal S16 .f32) (a3 : FVec Ideal S16 .f32) (a4 : FVec Ideal S16 .f32) (a5 : FVec Ideal S16x16 .f32) (a6 : FVec Ideal S16 .f32) (a7 : FVec Ideal S16 .f32) (a8 : FVec Ideal S16 .f32) (a9 : FVec Ideal S8x16 .f32) (a10 : FVec Ideal S8 .f32) (a11 : FVec Ideal S8 .f32) (a12 : FVec Ideal S8 .f32) (a13 : FVec Ideal S8x8 .f32) (a14 : FVec Ideal S8 .f32) (a15 : FVec Ideal S8 .f32) (a16 : FVec Ideal S8 .f32) (a17 : FVec Ideal S1x8 .f32) (a18 : FVec Ideal S1 .f32)
    (h : fn (F := Ideal) a0 a1 a2 a3 a4 a5 a6 a7 a8 a9 a10 a11 a12 a13 a14 a15 a16 a17 a18 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 := by
  have h0 := congrFun h ValueIdx.ix0
  simp only [fn, fn_part1, fn_part2, fn_part3, fn_part4, fn_part5] at h0
  obtain ⟨h0, c18⟩ := Cert.Finite.and_split h0
  obtain ⟨h0, c17⟩ := Cert.Finite.and_split h0
  obtain ⟨h0, c16⟩ := Cert.Finite.and_split h0
  obtain ⟨h0, c15⟩ := Cert.Finite.and_split h0
  obtain ⟨h0, c14⟩ := Cert.Finite.and_split h0
  obtain ⟨h0, c13⟩ := Cert.Finite.and_split h0
  obtain ⟨h0, c12⟩ := Cert.Finite.and_split h0
  obtain ⟨h0, c11⟩ := Cert.Finite.and_split h0
  obtain ⟨h0, c10⟩ := Cert.Finite.and_split h0
  obtain ⟨h0, c9⟩ := Cert.Finite.and_split h0
  obtain ⟨h0, c8⟩ := Cert.Finite.and_split h0
  obtain ⟨h0, c7⟩ := Cert.Finite.and_split h0
  obtain ⟨h0, c6⟩ := Cert.Finite.and_split h0
  obtain ⟨h0, c5⟩ := Cert.Finite.and_split h0
  obtain ⟨h0, c4⟩ := Cert.Finite.and_split h0
  obtain ⟨h0, c3⟩ := Cert.Finite.and_split h0
  obtain ⟨h0, c2⟩ := Cert.Finite.and_split h0
  obtain ⟨c0, c1⟩ := Cert.Finite.and_split h0
  exact ⟨Cert.Finite.real_of_all bcast_S_S1536x64 reducesTo_S1536x64_S_d0_1 h_S_ a0 c0,
    Cert.Finite.real_of_all bcast_S_S16x64 reducesTo_S16x64_S_d0_1 h_S_ a1 c1,
    Cert.Finite.real_of_all bcast_S_S16 reducesTo_S16_S_d0 h_S_ a2 c2,
    Cert.Finite.real_of_all bcast_S_S16 reducesTo_S16_S_d0 h_S_ a3 c3,
    Cert.Finite.real_of_all bcast_S_S16 reducesTo_S16_S_d0 h_S_ a4 c4,
    Cert.Finite.real_of_all bcast_S_S16x16 reducesTo_S16x16_S_d0_1 h_S_ a5 c5,
    Cert.Finite.real_of_all bcast_S_S16 reducesTo_S16_S_d0 h_S_ a6 c6,
    Cert.Finite.real_of_all bcast_S_S16 reducesTo_S16_S_d0 h_S_ a7 c7,
    Cert.Finite.real_of_all bcast_S_S16 reducesTo_S16_S_d0 h_S_ a8 c8,
    Cert.Finite.real_of_all bcast_S_S8x16 reducesTo_S8x16_S_d0_1 h_S_ a9 c9,
    Cert.Finite.real_of_all bcast_S_S8 reducesTo_S8_S_d0 h_S_ a10 c10,
    Cert.Finite.real_of_all bcast_S_S8 reducesTo_S8_S_d0 h_S_ a11 c11,
    Cert.Finite.real_of_all bcast_S_S8 reducesTo_S8_S_d0 h_S_ a12 c12,
    Cert.Finite.real_of_all bcast_S_S8x8 reducesTo_S8x8_S_d0_1 h_S_ a13 c13,
    Cert.Finite.real_of_all bcast_S_S8 reducesTo_S8_S_d0 h_S_ a14 c14,
    Cert.Finite.real_of_all bcast_S_S8 reducesTo_S8_S_d0 h_S_ a15 c15,
    Cert.Finite.real_of_all bcast_S_S8 reducesTo_S8_S_d0 h_S_ a16 c16,
    Cert.Finite.real_of_all bcast_S_S1x8 reducesTo_S1x8_S_d0_1 h_S_ a17 c17,
    Cert.Finite.real_of_all bcast_S_S1 reducesTo_S1_S_d0 h_S_ a18 c18⟩

end Cert.Hand

end
-- ==== Proof.Spec.lean ====
/- The network over the real numbers, on literal index types: pairwise absolute differences of the rows of x,
   four blocks (a per-position linear map with bias, batch normalisation over all N x N positions per channel,
   a leaky rectifier) and a last linear map to one channel. The shared target both programs are shown equal to. -/
import Mathlib.Tactic
import Idealize.ShloMosaic.PureOps.Ideal

noncomputable section

namespace Cert.Spec

open Idealize.ShloMosaic
open scoped BigOperators

/-! ## The constants -/

/-- The number of positions, N * N with N = 1536. -/
def T : ℝ := 2359296

theorem T_pos : 0 < T := by unfold T; norm_num

/-- The f32 word 0x4A100000 is the real number 2359296. -/
theorem ofBits_T : Ideal.ofBits .f32 0x4A100000#32 = ((T : ℝ) : EReal) := by
  unfold T
  simp [Ideal.ofBits, Ideal.ieee, -EReal.coe_mul]; norm_num

/-- The f32 word 0x3727C5AC (the nearest f32 to 1e-5) is the real number 10995116 * 2^(-40). -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The f32 word 0x3C23D70A (the nearest f32 to 0.01) is the real number 10737418 * 2^(-30). -/
theorem ofBits_slope : Ideal.ofBits .f32 0x3C23D70A#32 = (((10737418 : ℝ) * (2 : ℝ) ^ (-30 : ℤ) : ℝ) : EReal) := by
  simp [Ideal.ofBits, Ideal.ieee, -EReal.coe_mul]

/-- The variance's regulariser: the real value of the word 0x3727C5AC. -/
def eps : ℝ := (Ideal.ofBits .f32 0x3727C5AC#32).toReal

/-- The rectifier's negative slope: the real value of the word 0x3C23D70A. -/
def slope : ℝ := (Ideal.ofBits .f32 0x3C23D70A#32).toReal

theorem eps_eq : eps = (10995116 : ℝ) * (2 : ℝ) ^ (-40 : ℤ) := by rw [eps, ofBits_eps, EReal.toReal_coe]
theorem slope_eq : slope = (10737418 : ℝ) * (2 : ℝ) ^ (-30 : ℤ) := by rw [slope, ofBits_slope, EReal.toReal_coe]

/-- The coercion of eps IS the word's value. -/
theorem eps_coe : ((eps : ℝ) : EReal) = Ideal.ofBits .f32 0x3727C5AC#32 := by rw [eps, ofBits_eps, EReal.toReal_coe]
/-- The coercion of slope IS the word's value. -/
theorem slope_coe : ((slope : ℝ) : EReal) = Ideal.ofBits .f32 0x3C23D70A#32 := by
  rw [slope, ofBits_slope, EReal.toReal_coe]

theorem eps_pos : 0 < eps := by rw [eps_eq]; positivity

/-! ## The layers -/

/-- Pairwise features: |x n c - x m c|. -/
def feat (x : Fin 1536 → Fin 64 → ℝ) (n m : Fin 1536) (c : Fin 64) : ℝ := |x n c - x m c|

/-- A linear map with bias at one position: the sum over k of h k * W o k, plus b o. -/
def lin {K O : ℕ} (W : Fin O → Fin K → ℝ) (b : Fin O → ℝ) (h : Fin K → ℝ) (o : Fin O) : ℝ :=
  (∑ k, h k * W o k) + b o

/-- The linear map at every position. -/
def conv {K O : ℕ} (W : Fin O → Fin K → ℝ) (b : Fin O → ℝ) (h : Fin 1536 → Fin 1536 → Fin K → ℝ) :
    Fin 1536 → Fin 1536 → Fin O → ℝ := fun n m o => lin W b (h n m) o

/-- The per-channel mean over all positions. -/
def mean {C : ℕ} (z : Fin 1536 → Fin 1536 → Fin C → ℝ) (o : Fin C) : ℝ := (∑ n, ∑ m, z n m o) / T

/-- The per-channel biased variance over all positions. -/
def var {C : ℕ} (z : Fin 1536 → Fin 1536 → Fin C → ℝ) (o : Fin C) : ℝ :=
  (∑ n, ∑ m, (z n m o - mean z o) ^ 2) / T

theorem var_nonneg {C : ℕ} (z : Fin 1536 → Fin 1536 → Fin C → ℝ) (o : Fin C) : 0 ≤ var z o := by
  unfold var
  exact div_nonneg (Finset.sum_nonneg fun n _ => Finset.sum_nonneg fun m _ => sq_nonneg _) T_pos.le

/-- Training-mode batch normalisation with scale g and shift be. -/
def bn {C : ℕ} (z : Fin 1536 → Fin 1536 → Fin C → ℝ) (g be : Fin C → ℝ) (n m : Fin 1536) (o : Fin C) : ℝ :=
  (z n m o - mean z o) * (1 / Real.sqrt (var z o + eps)) * g o + be o

/-- The leaky rectifier. -/
def leaky (y : ℝ) : ℝ := if 0 ≤ y then y else slope * y

/-- One block: linear map, batch normalisation, leaky rectifier. -/
def block {K O : ℕ} (W : Fin O → Fin K → ℝ) (b g be : Fin O → ℝ) (h : Fin 1536 → Fin 1536 → Fin K → ℝ) :
    Fin 1536 → Fin 1536 → Fin O → ℝ := fun n m o => leaky (bn (conv W b h) g be n m o)

/-- The network: four blocks on the pairwise features, then the last linear map's single channel. -/
def net (x : Fin 1536 → Fin 64 → ℝ)
    (W1 : Fin 16 → Fin 64 → ℝ) (b1 g1 be1 : Fin 16 → ℝ) (W2 : Fin 16 → Fin 16 → ℝ) (b2 g2 be2 : Fin 16 → ℝ)
    (W3 : Fin 8 → Fin 16 → ℝ) (b3 g3 be3 : Fin 8 → ℝ) (W4 : Fin 8 → Fin 8 → ℝ) (b4 g4 be4 : Fin 8 → ℝ)
    (W5 : Fin 1 → Fin 8 → ℝ) (b5 : Fin 1 → ℝ) : Fin 1536 → Fin 1536 → ℝ :=
  fun n m => lin W5 b5
    (block W4 b4 g4 be4 (block W3 b3 g3 be3 (block W2 b2 g2 be2 (block W1 b1 g1 be1 (feat x)))) n m) 0

end Cert.Spec

end
-- ==== Proof.LibBatchVariance.lean ====
import Idealize.ShloMosaic.PureOps.Ideal
import Mathlib.Tactic

/-!
# Batch statistics over the extended reals

A column of a batch is a finite family of entries. When every entry is a real number, the two usual ways of writing
its variance agree on the extended reals:

* the moment form, `(Σ hᵢ²)/n − (Σ hᵢ/n)·(Σ hᵢ/n)`, and
* the centred form, `(Σ (hᵢ − μ)·(hᵢ − μ))/n` with `μ = (Σ hᵢ)/n`,

where `n` is the number of entries. Over the reals this is the expansion of the square,
`Σ (hᵢ − μ)² = Σ hᵢ² − 2μ Σ hᵢ + n μ²`, followed by `Σ hᵢ = n μ`. On the extended reals the expansion uses
distributivity, which fails at the infinities, so the statement is made for families of reals and both sides are shown to
be the coercion of one real number. That number is a mean of squares, hence nonnegative; adding a positive `ε` makes it
positive, and the reciprocal square root of a positive real is again a real. So a normalisation
`γ·(h − μ)·rsqrt(var + ε) + β` of real entries by real `γ`, `β` has real entries.

Everything here is independent of any program: the index type is an arbitrary finite type.
-/

noncomputable section

namespace Idealize.ShloMosaic.BatchStats

open scoped BigOperators

variable {ι : Type*} [Fintype ι]

/-! ## Sums of reals inside the extended reals -/

/-- The coercion of a finite sum of reals is the sum of the coercions. -/
theorem coe_sum (s : Finset ι) (h : ι → ℝ) : ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real (x : ι → EReal) (hx : ∀ i, x i ≠ ⊤ ∧ x i ≠ ⊥) : ∃ h : ι → ℝ, x = fun i => (h i : EReal) :=
  ⟨fun i => (x i).toReal, funext fun i => (EReal.coe_toReal (hx i).1 (hx i).2).symm⟩

/-- The quotient of a real by a nonzero real, as the library's division on the extended reals computes it. -/
theorem div_coe_coe (a n : ℝ) (hn : n ≠ 0) : Ideal.div (a : EReal) (n : EReal) = ((a / n : ℝ) : EReal) := by
  rw [Ideal.div_coe hn, ← EReal.coe_mul, mul_one_div]

/-! ## The expansion of the square, over the reals -/

/-- `Σ (hᵢ − μ)(hᵢ − μ) = Σ hᵢ hᵢ − 2 μ Σ hᵢ + (number of entries) · μ μ`, for any real `μ`. -/
theorem sum_centred_sq (h : ι → ℝ) (μ : ℝ) :
    ∑ i, (h i - μ) * (h i - μ) = ∑ i, h i * h i - 2 * μ * ∑ i, h i + (Fintype.card ι : ℝ) * (μ * μ) := by
  have e : ∀ i, (h i - μ) * (h i - μ) = h i * h i - 2 * μ * h i + μ * μ := fun i => by ring
  simp only [e, Finset.sum_add_distrib, Finset.sum_sub_distrib, ← Finset.mul_sum, Finset.sum_const, Finset.card_univ,
    nsmul_eq_mul]
  ring

/-- The centred form of the variance is the moment form, when `n` is the number of entries and is not zero. -/
theorem centred_eq_moments (h : ι → ℝ) (n : ℝ) (hcard : (Fintype.card ι : ℝ) = n) (hn : n ≠ 0) :
    (∑ i, (h i - (∑ j, h j) / n) * (h i - (∑ j, h j) / n)) / n
      = (∑ i, h i * h i) / n - (∑ j, h j) / n * ((∑ j, h j) / n) := by
  rw [sum_centred_sq, hcard]
  field_simp
  ring

/-- The centred form is a mean of squares: it is not negative. -/
theorem centred_nonneg (h : ι → ℝ) (n : ℝ) (hcard : (Fintype.card ι : ℝ) = n) :
    0 ≤ (∑ i, (h i - (∑ j, h j) / n) * (h i - (∑ j, h j) / n)) / n := by
  have hn : 0 ≤ n := hcard ▸ Nat.cast_nonneg _
  exact div_nonneg (Finset.sum_nonneg fun i _ => mul_self_nonneg _) hn

/-! ## The same on the extended reals, for families of reals -/

/-- The mean of a family of reals, computed on the extended reals. -/
theorem mean_coe (h : ι → ℝ) (n : ℝ) (hn : n ≠ 0) :
    Ideal.div (∑ i, (h i : EReal)) (n : EReal) = (((∑ i, h i) / n : ℝ) : EReal) := by
  rw [← coe_sum, div_coe_coe _ _ hn]

/-- The moment form, computed on the extended reals from real entries, is the coercion of the real moment form. -/
theorem moments_coe (h : ι → ℝ) (n : ℝ) (hn : n ≠ 0) :
    Ideal.div (∑ i, (h i : EReal) * (h i : EReal)) (n : EReal)
        - Ideal.div (∑ i, (h i : EReal)) (n : EReal) * Ideal.div (∑ i, (h i : EReal)) (n : EReal)
      = (((∑ i, h i * h i) / n - (∑ j, h j) / n * ((∑ j, h j) / n) : ℝ) : EReal) := by
  rw [mean_coe h n hn]
  simp only [← EReal.coe_mul]
  rw [← coe_sum, div_coe_coe _ _ hn, ← EReal.coe_sub]

/-- The centred form, computed on the extended reals from real entries, is the coercion of the real centred form. -/
theorem centred_coe (h : ι → ℝ) (n : ℝ) (hn : n ≠ 0) :
    Ideal.div (∑ i, ((h i : EReal) - Ideal.div (∑ j, (h j : EReal)) (n : EReal))
        * ((h i : EReal) - Ideal.div (∑ j, (h j : EReal)) (n : EReal))) (n : EReal)
      = (((∑ i, (h i - (∑ j, h j) / n) * (h i - (∑ j, h j) / n)) / n : ℝ) : EReal) := by
  rw [mean_coe h n hn]
  simp only [← EReal.coe_sub, ← EReal.coe_mul]
  rw [← coe_sum, div_coe_coe _ _ hn]

/-- THE LAW THAT JOINS THE TWO PROGRAMS: on real entries, the variance written through the second moment and the variance
    written through the centred squares are one extended real. -/
theorem moments_eq_centred (h : ι → ℝ) (n : ℝ) (hcard : (Fintype.card ι : ℝ) = n) (hn : n ≠ 0) :
    Ideal.div (∑ i, (h i : EReal) * (h i : EReal)) (n : EReal)
        - Ideal.div (∑ i, (h i : EReal)) (n : EReal) * Ideal.div (∑ i, (h i : EReal)) (n : EReal)
      = Ideal.div (∑ i, ((h i : EReal) - Ideal.div (∑ j, (h j : EReal)) (n : EReal))
          * ((h i : EReal) - Ideal.div (∑ j, (h j : EReal)) (n : EReal))) (n : EReal) := by
  rw [moments_coe h n hn, centred_coe h n hn, centred_eq_moments h n hcard hn]

/-! ## The reciprocal square root of a variance plus a positive constant -/

/-- The reciprocal square root of a positive real is a real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-- A nonnegative real plus a positive real, under the reciprocal square root, is a real: the scale of a batch
    normalisation never leaves the reals. -/
theorem rsqrt_add_eps_coe {v e : ℝ} (hv : 0 ≤ v) (he : 0 < e) :
    Ideal.rsqrt ((v : EReal) + (e : EReal)) = (((Real.sqrt (v + e))⁻¹ : ℝ) : EReal) := by
  rw [← EReal.coe_add]
  exact rsqrt_coe_pos (add_pos_of_nonneg_of_pos hv he)

/-- The normalised entry `γ·(h − μ)·s + β` of reals is a real. -/
theorem normalise_coe (γ h μ s β : ℝ) :
    (γ : EReal) * ((h : EReal) - (μ : EReal)) * (s : EReal) + (β : EReal) = ((γ * (h - μ) * s + β : ℝ) : EReal) := by
  simp only [EReal.coe_sub, EReal.coe_mul, EReal.coe_add]

end Idealize.ShloMosaic.BatchStats

end
-- ==== Proof.Ref.Real.lean ====
/- The reference's result over the real numbers: when every argument array is the coercion of a real array, each stage
   of the result, read at an index, is the coercion of the corresponding layer of the real network; composed, the
   program's result is the coercion of the real network's output. Every step reads one stage at one index. -/
import proofs.«135850_j19774029431551_2_alg».proof.Proof.Ref.Stages
import proofs.«135850_j19774029431551_2_alg».proof.Proof.Spec
import proofs.«135850_j19774029431551_2_alg».proof.Proof.LibBatchVariance
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.ValueIdx
open Idealize.ShloMosaic.BatchStats (coe_sum div_coe_coe rsqrt_add_eps_coe)
open scoped BigOperators

/-! ## Reading the shape operations at an index -/

section Shapes

variable {α : Type}

/-- A coordinate equals itself read through a broadcast's rule: on an axis of extent one it is zero anyway. -/
theorem val_eq_ite {n : ℕ} (v : Fin n) : v.val = if n = 1 then 0 else v.val := by
  split
  · have := v.isLt; omega
  · rfl

/-- A per-channel vector spread over all positions reads the vector at the channel. -/
theorem chan_apply {A B C : ℕ} (v : (⟨1, ![C]⟩ : Shape).Idx → α)
    (h1 : (⟨1, ![C]⟩ : Shape).BroadcastsInDim ⟨3, ![1, 1, C]⟩ ![2])
    (h2 : (⟨3, ![1, 1, C]⟩ : Shape).BroadcastsInDim ⟨3, ![A, B, C]⟩ ![0, 1, 2])
    (n : Fin A) (m : Fin B) (c : Fin C) :
    broadcastInDim ⟨3, ![A, B, C]⟩ ![0, 1, 2] h2 (broadcastInDim ⟨3, ![1, 1, C]⟩ ![2] h1 v) (ix3 n m c) = v (ix1 c) := by
  rw [broadcastInDim_apply _ h2 _ (ix3 n m c) (ix3 (0 : Fin 1) (0 : Fin 1) c) (fun ax => by
    match ax with
    | ⟨0, _⟩ => show (0 : ℕ) = if (1 : ℕ) = 1 then 0 else n.val; rw [if_pos rfl]
    | ⟨1, _⟩ => show (0 : ℕ) = if (1 : ℕ) = 1 then 0 else m.val; rw [if_pos rfl]
    | ⟨2, _⟩ => exact val_eq_ite c)]
  exact broadcastInDim_apply _ h1 v _ _ fun ax => by
    match ax with
    | ⟨0, _⟩ => exact val_eq_ite c

/-- A 1 x 1 x C array spread over all positions reads the array at the channel. -/
theorem spread_apply {A B C : ℕ} (v : (⟨3, ![1, 1, C]⟩ : Shape).Idx → α)
    (h2 : (⟨3, ![1, 1, C]⟩ : Shape).BroadcastsInDim ⟨3, ![A, B, C]⟩ ![0, 1, 2]) (n : Fin A) (m : Fin B) (c : Fin C) :
    broadcastInDim ⟨3, ![A, B, C]⟩ ![0, 1, 2] h2 v (ix3 n m c) = v (ix3 (0 : Fin 1) (0 : Fin 1) c) :=
  broadcastInDim_apply _ h2 v _ _ fun ax => by
    match ax with
    | ⟨0, _⟩ => show (0 : ℕ) = if (1 : ℕ) = 1 then 0 else n.val; rw [if_pos rfl]
    | ⟨1, _⟩ => show (0 : ℕ) = if (1 : ℕ) = 1 then 0 else m.val; rw [if_pos rfl]
    | ⟨2, _⟩ => exact val_eq_ite c

/-- A vector laid along the last axis of a 1 x 1 x C array reads the vector at the channel. -/
theorem lay_apply {C : ℕ} (v : (⟨1, ![C]⟩ : Shape).Idx → α)
    (h1 : (⟨1, ![C]⟩ : Shape).BroadcastsInDim ⟨3, ![1, 1, C]⟩ ![2]) (u w : Fin 1) (c : Fin C) :
    broadcastInDim ⟨3, ![1, 1, C]⟩ ![2] h1 v (ix3 u w c) = v (ix1 c) :=
  broadcastInDim_apply _ h1 v _ _ fun ax => by
    match ax with
    | ⟨0, _⟩ => exact val_eq_ite c

/-- The rows of a matrix repeated along a new middle axis. -/
theorem rows_apply {A B K : ℕ} (x : (⟨2, ![A, K]⟩ : Shape).Idx → α)
    (h1 : (⟨2, ![A, K]⟩ : Shape).BroadcastsInDim ⟨3, ![A, 1, K]⟩ ![0, 2])
    (h2 : (⟨3, ![A, 1, K]⟩ : Shape).BroadcastsInDim ⟨3, ![A, B, K]⟩ ![0, 1, 2])
    (n : Fin A) (m : Fin B) (c : Fin K) :
    broadcastInDim ⟨3, ![A, B, K]⟩ ![0, 1, 2] h2 (broadcastInDim ⟨3, ![A, 1, K]⟩ ![0, 2] h1 x) (ix3 n m c) = x (ix2 n c) := by
  rw [broadcastInDim_apply _ h2 _ (ix3 n m c) (ix3 n (0 : Fin 1) c) (fun ax => by
    match ax with
    | ⟨0, _⟩ => exact val_eq_ite n
    | ⟨1, _⟩ => show (0 : ℕ) = if (1 : ℕ) = 1 then 0 else m.val; rw [if_pos rfl]
    | ⟨2, _⟩ => exact val_eq_ite c)]
  exact broadcastInDim_apply _ h1 x _ _ fun ax => by
    match ax with
    | ⟨0, _⟩ => exact val_eq_ite n
    | ⟨1, _⟩ => exact val_eq_ite c

/-- The rows of a matrix repeated along a new leading axis. -/
theorem cols_apply {A B K : ℕ} (x : (⟨2, ![B, K]⟩ : Shape).Idx → α)
    (h1 : (⟨2, ![B, K]⟩ : Shape).BroadcastsInDim ⟨3, ![1, B, K]⟩ ![1, 2])
    (h2 : (⟨3, ![1, B, K]⟩ : Shape).BroadcastsInDim ⟨3, ![A, B, K]⟩ ![0, 1, 2])
    (n : Fin A) (m : Fin B) (c : Fin K) :
    broadcastInDim ⟨3, ![A, B, K]⟩ ![0, 1, 2] h2 (broadcastInDim ⟨3, ![1, B, K]⟩ ![1, 2] h1 x) (ix3 n m c) = x (ix2 m c) := by
  rw [broadcastInDim_apply _ h2 _ (ix3 n m c) (ix3 (0 : Fin 1) m c) (fun ax => by
    match ax with
    | ⟨0, _⟩ => show (0 : ℕ) = if (1 : ℕ) = 1 then 0 else n.val; rw [if_pos rfl]
    | ⟨1, _⟩ => exact val_eq_ite m
    | ⟨2, _⟩ => exact val_eq_ite c)]
  exact broadcastInDim_apply _ h1 x _ _ fun ax => by
    match ax with
    | ⟨0, _⟩ => exact val_eq_ite m
    | ⟨1, _⟩ => exact val_eq_ite c

/-- A rank-3 index set is the product of its three coordinate ranges. -/
def idxEquiv3 {A B C : ℕ} : (⟨3, ![A, B, C]⟩ : Shape).Idx ≃ Fin A × Fin B × Fin C where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {A B C : ℕ} (f : (⟨3, ![A, B, C]⟩ : Shape).Idx → M) :
    ∑ i, f i = ∑ a : Fin A, ∑ b : Fin B, ∑ c : Fin C, f (ix3 a b c) := by
  rw [← Equiv.sum_comp (idxEquiv3 (A := A) (B := B) (C := C)).symm f, Fintype.sum_prod_type]
  refine Finset.sum_congr rfl fun a _ => ?_
  rw [Fintype.sum_prod_type]
  rfl

/-- Summing over the first two axes: the indices that drop to channel c are those whose last coordinate is c. -/
theorem sum_drop01 {M : Type*} [AddCommMonoid M] {A B C : ℕ}
    (h : (⟨3, ![A, B, C]⟩ : Shape).ReducesTo [0, 1] ⟨1, ![C]⟩) (x : (⟨3, ![A, B, C]⟩ : Shape).Idx → M) (c : Fin C) :
    ∑ i ∈ Finset.univ.filter (fun i => h.drop i = ix1 c), x i = ∑ n : Fin A, ∑ m : Fin B, x (ix3 n m c) := by
  have hd : ∀ i : (⟨3, ![A, B, C]⟩ : Shape).Idx, h.drop i = ix1 c ↔ (i 2 : Fin C) = c := fun i => by
    have hk : (⟨3, ![A, B, C]⟩ : Shape).kept [0, 1] = [2] := rfl
    have hv : ((h.drop i) 0 : ℕ) = (i 2 : Fin C).val :=
      Shape.ReducesTo.drop_apply_val_of_eq h i 0 2 (by simp [hk]) (by simp [hk])
    constructor
    · intro e
      apply Fin.ext
      rw [← hv, e]
      rfl
    · intro e
      rw [eq_ix1 (h.drop i)]
      exact congrArg ix1 (Fin.ext (hv.trans (congrArg Fin.val e)))
  rw [Finset.sum_filter, sum_idx3]
  refine Finset.sum_congr rfl fun n _ => Finset.sum_congr rfl fun m _ => ?_
  rw [Finset.sum_eq_single c]
  · rw [if_pos ((hd _).mpr rfl)]
  · intro b _ hb
    rw [if_neg (fun e => hb ((hd _).mp e))]
  · intro hc; exact absurd (Finset.mem_univ c) hc

/-- Dropping a trailing axis of extent one keeps the elements. -/
theorem squeeze_apply {A B : ℕ} (v : (⟨3, ![A, B, 1]⟩ : Shape).Idx → α)
    (h : (⟨3, ![A, B, 1]⟩ : Shape).ShapeCasts ⟨2, ![A, B]⟩) (n : Fin A) (m : Fin B) :
    shapeCast ⟨2, ![A, B]⟩ v h (ix2 n m) = v (ix3 n m (0 : Fin 1)) := by
  refine shapeCast_apply v h _ _ ?_
  rw [Shape.rowMajor_val_three, Shape.rowMajor_val_two]
  show (n.val * B + m.val) * 1 + 0 = n.val * B + m.val
  omega

end Shapes

/-! ## Reading the arithmetic at the exact values -/

section Exact

/-- The zero word's constant reads zero anywhere. -/
theorem const0_apply {S : Shape} (i : S.Idx) : constant (F := Ideal) S .f32 0x00000000#32 i = 0 := by
  rw [constant_apply, Ideal.ofBits_zero_f32]

/-- The position count's word, spread from a scalar to any shape, reads the real number T. -/
theorem bcastT_apply {S : Shape} (h : S_.BroadcastsInDim S ![]) (j : S.Idx) :
    broadcastInDim (s := S_) S ![] h (constant (F := Ideal) S_ .f32 0x4A100000#32) j = ((Spec.T : ℝ) : EReal) := by
  rw [broadcastInDim_scalar_apply, constant_apply, Spec.ofBits_T]

/-- The host's sum over the first two axes from the zero word, read at a channel: the double sum. -/
theorem reduce01_apply {A B C : ℕ} (X : FVec Ideal ⟨3, ![A, B, C]⟩ .f32)
    (h : (⟨3, ![A, B, C]⟩ : Shape).ReducesTo [0, 1] ⟨1, ![C]⟩) (hu : 0 < S_.numel) (c : Fin C) :
    Host.reduceAdd (F := Ideal) X (constant (F := Ideal) S_ .f32 0x00000000#32) h hu (ix1 c)
      = ∑ n : Fin A, ∑ m : Fin B, X (ix3 n m c) := by
  rw [hostReduceAdd_apply]
  unfold Ideal.hostReduceAdd
  show constant (F := Ideal) S_ .f32 0x00000000#32 _ + ∑ i ∈ Finset.univ.filter (fun i => h.drop i = ix1 c), X i = _
  rw [const0_apply, zero_add, sum_drop01]

/-- The same sum when the array is the coercion of a real array. -/
theorem reduce01_real {A B C : ℕ} (X : FVec Ideal ⟨3, ![A, B, C]⟩ .f32) (z : Fin A → Fin B → Fin C → ℝ)
    (hX : ∀ n m c, X (ix3 n m c) = ((z n m c : ℝ) : EReal))
    (h : (⟨3, ![A, B, C]⟩ : Shape).ReducesTo [0, 1] ⟨1, ![C]⟩) (hu : 0 < S_.numel) (c : Fin C) :
    Host.reduceAdd (F := Ideal) X (constant (F := Ideal) S_ .f32 0x00000000#32) h hu (ix1 c)
      = ((∑ n, ∑ m, z n m c : ℝ) : EReal) := by
  rw [reduce01_apply, coe_sum]
  refine Finset.sum_congr rfl fun n _ => ?_
  rw [coe_sum]
  exact Finset.sum_congr rfl fun m _ => hX n m c

/-- The host product of a rank-3 array with a matrix along the last axis of both, read at an index. -/
theorem dot3_apply {A B K O : ℕ} (D : DotDims ⟨3, ![A, B, K]⟩ ⟨2, ![O, K]⟩ ⟨3, ![A, B, O]⟩)
    (prec : Option ContractPrecision) (hr : D.contr.rank = 1) (hs : D.contr.size ⟨0, by omega⟩ = K)
    (hl0 : ∀ j q, (D.lhsIdx j q 0).val = (j 0).val) (hl1 : ∀ j q, (D.lhsIdx j q 1).val = (j 1).val)
    (hl2 : ∀ j q, (D.lhsIdx j q 2).val = (q ⟨0, by omega⟩).val)
    (hr0 : ∀ j q, (D.rhsIdx j q 0).val = (j 2).val) (hr1 : ∀ j q, (D.rhsIdx j q 1).val = (q ⟨0, by omega⟩).val)
    (lhs : FVec Ideal ⟨3, ![A, B, K]⟩ .f32) (rhs : FVec Ideal ⟨2, ![O, K]⟩ .f32) (n : Fin A) (m : Fin B) (o : Fin O) :
    Host.dotGeneral D prec lhs rhs (ix3 n m o) = ∑ k : Fin K, lhs (ix3 n m k) * rhs (ix2 o k) := by
  simp only [Host.dotGeneral]
  rw [Ideal.dotGeneral_apply, ← Equiv.sum_comp (contrEquiv1 D K hr hs).symm]
  refine Finset.sum_congr rfl fun t _ => ?_
  have hk := contrEquiv1_symm_val D K hr hs t
  have el : D.lhsIdx (ix3 n m o) ((contrEquiv1 D K hr hs).symm t) = ix3 n m t := funext fun ax => Fin.ext (by
    match ax with
    | ⟨0, _⟩ => exact hl0 _ _
    | ⟨1, _⟩ => exact hl1 _ _
    | ⟨2, _⟩ => exact (hl2 _ _).trans hk)
  have er : D.rhsIdx (ix3 n m o) ((contrEquiv1 D K hr hs).symm t) = ix2 o t := funext fun ax => Fin.ext (by
    match ax with
    | ⟨0, _⟩ => exact hr0 _ _
    | ⟨1, _⟩ => exact (hr1 _ _).trans hk)
  rw [el, er]

/-- A sum of products of coerced reals plus a coerced real is the coercion of the linear map. -/
theorem lin_coe {K O : ℕ} (hrow : Fin K → ℝ) (w : Fin O → Fin K → ℝ) (β : Fin O → ℝ) (o : Fin O)
    (L R : Fin K → EReal) (hL : ∀ k, L k = ((hrow k : ℝ) : EReal)) (hR : ∀ k, R k = ((w o k : ℝ) : EReal)) :
    (∑ k, L k * R k) + ((β o : ℝ) : EReal) = ((Spec.lin w β hrow o : ℝ) : EReal) := by
  unfold Spec.lin
  rw [EReal.coe_add, coe_sum]
  congr 1
  exact Finset.sum_congr rfl fun k _ => by rw [hL, hR, EReal.coe_mul]

end Exact

/-! ## The pairwise features and the first convolution -/

theorem pairFeat_real (X : FVec Ideal S1536x64 .f32) (x : Fin 1536 → Fin 64 → ℝ)
    (hX : ∀ n c, X (ix2 n c) = ((x n c : ℝ) : EReal)) (n m : Fin 1536) (c : Fin 64) :
    pairFeat (F := Ideal) X (ix3 n m c) = ((Spec.feat x n m c : ℝ) : EReal) := by
  have e : pairFeat (F := Ideal) X (ix3 n m c)
      = max (X (ix2 n c) - X (ix2 m c)) (-(X (ix2 n c) - X (ix2 m c))) := by
    rw [← rows_apply X bcast_S1536x64_S1536x1x64_0_2 bcast_S1536x1x64_S1536x1536x64_0_1_2 n m c,
      ← cols_apply X bcast_S1536x64_S1x1536x64_1_2 bcast_S1x1536x64_S1536x1536x64_0_1_2 n m c]
    rfl
  rw [e, hX, hX, ← EReal.coe_sub, ← EReal.coe_neg, ← EReal.coe_strictMono.monotone.map_max]
  unfold Spec.feat
  rw [abs_eq_max_neg]

theorem conv1_real (H : FVec Ideal S1536x1536x64 .f32) (W : FVec Ideal S16x64 .f32) (b : FVec Ideal S16 .f32)
    (h : Fin 1536 → Fin 1536 → Fin 64 → ℝ) (w : Fin 16 → Fin 64 → ℝ) (β : Fin 16 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (n m : Fin 1536) (o : Fin 16) :
    conv1 (F := Ideal) H W b (ix3 n m o) = ((Spec.conv w β h n m o : ℝ) : EReal) := by
  have e : conv1 (F := Ideal) H W b (ix3 n m o)
      = Host.dotGeneral (F := Ideal) dot_S1536x1536x64_S16x64_S1536x1536x16_2_1_01_0_n_n none H W (ix3 n m o)
        + chan16 (F := Ideal) b (ix3 n m o) := rfl
  rw [e, dot3_apply _ none rfl rfl (fun _ _ => rfl) (fun _ _ => rfl) (fun _ _ => rfl) (fun _ _ => rfl)
    (fun _ _ => rfl)]
  unfold chan16
  rw [chan_apply, hb]
  exact lin_coe (h n m) w β o _ _ (fun k => hH n m k) (fun k => hW o k)

/-! ## The batch statistics, the normalisation and the rectifier, for any number of channels -/

/-- The activations' shape at C channels. -/
abbrev SF (C : ℕ) : Shape := ⟨3, ![1536, 1536, C]⟩
/-- A per-channel vector's shape. -/
abbrev SV (C : ℕ) : Shape := ⟨1, ![C]⟩
/-- A per-channel vector laid along the last axis of a 1 x 1 x C array. -/
abbrev SR (C : ℕ) : Shape := ⟨3, ![1, 1, C]⟩

section Channels

variable {C : ℕ}

/-- The host's reciprocal square root at an index. -/
theorem hostRsqrt_apply {s : Shape} (x : FVec Ideal s .f32) (i : s.Idx) :
    Host.rsqrt (F := Ideal) x i = Ideal.rsqrt (x i) := rfl

/-- The per-channel mean: the double sum divided by the number of positions. -/
theorem meanG (Z : FVec Ideal (SF C) .f32) (z : Fin 1536 → Fin 1536 → Fin C → ℝ)
    (hZ : ∀ n m c, Z (ix3 n m c) = ((z n m c : ℝ) : EReal))
    (hred : (SF C).ReducesTo [0, 1] (SV C)) (hu : 0 < S_.numel) (hb : S_.BroadcastsInDim (SV C) ![]) (o : Fin C) :
    Host.divf (F := Ideal) (Host.reduceAdd (F := Ideal) Z (constant (F := Ideal) S_ .f32 0x00000000#32) hred hu)
        (broadcastInDim (s := S_) (SV C) ![] hb (constant (F := Ideal) S_ .f32 0x4A100000#32)) (ix1 o)
      = ((Spec.mean z o : ℝ) : EReal) := by
  rw [hostDivf_apply, reduce01_real Z z hZ, bcastT_apply, div_coe_coe _ _ Spec.T_pos.ne']
  rfl

/-- The centred activations: each minus its channel's mean (the mean formed at shape 1 x 1 x C). -/
theorem devG (Z : FVec Ideal (SF C) .f32) (z : Fin 1536 → Fin 1536 → Fin C → ℝ)
    (hZ : ∀ n m c, Z (ix3 n m c) = ((z n m c : ℝ) : EReal))
    (hred : (SF C).ReducesTo [0, 1] (SV C)) (hu : 0 < S_.numel) (h1 : (SV C).BroadcastsInDim (SR C) ![2])
    (hbR : S_.BroadcastsInDim (SR C) ![]) (h2 : (SR C).BroadcastsInDim (SF C) ![0, 1, 2]) (n m : Fin 1536) (o : Fin C) :
    subf (F := Ideal) Z
        (broadcastInDim (s := (SR C)) (SF C) ![0, 1, 2] h2
          (Host.divf (F := Ideal)
            (broadcastInDim (s := (SV C)) (SR C) ![2] h1
              (Host.reduceAdd (F := Ideal) Z (constant (F := Ideal) S_ .f32 0x00000000#32) hred hu))
            (broadcastInDim (s := S_) (SR C) ![] hbR (constant (F := Ideal) S_ .f32 0x4A100000#32)))) (ix3 n m o)
      = ((z n m o - Spec.mean z o : ℝ) : EReal) := by
  rw [subf_apply, spread_apply, hostDivf_apply, lay_apply, reduce01_real Z z hZ, bcastT_apply,
    div_coe_coe _ _ Spec.T_pos.ne', hZ, ← EReal.coe_sub]
  rfl

/-- The variance's divisor is the number of positions: the count minus zero. -/
theorem varDen_apply (j : S_.Idx) : varDen (F := Ideal) j = ((Spec.T : ℝ) : EReal) := by
  unfold varDen
  rw [subf_apply, constant_apply, Spec.ofBits_T, sitofp_apply]
  show ((Spec.T : ℝ) : EReal) - (((0#32 : BitVec 32).toInt : ℝ) : EReal) = _
  simp

/-- The per-channel variance: the divisor is positive, so the select takes the quotient, which is the real
    variance. -/
theorem varG (z : Fin 1536 → Fin 1536 → Fin C → ℝ)
    (D : FVec Ideal (SF C) .f32) (hD : ∀ n m c, D (ix3 n m c) = ((z n m c - Spec.mean z c : ℝ) : EReal))
    (hred : (SF C).ReducesTo [0, 1] (SV C)) (hu : 0 < S_.numel) (hb : S_.BroadcastsInDim (SV C) ![]) (o : Fin C) :
    select
        (broadcastInDim (s := S_) (SV C) ![] hb
          (cmpf (F := Ideal) .ogt (varDen (F := Ideal)) (constant (F := Ideal) S_ .f32 0x00000000#32)))
        (Host.divf (F := Ideal)
          (Host.reduceAdd (F := Ideal) (mulf (F := Ideal) D D) (constant (F := Ideal) S_ .f32 0x00000000#32) hred hu)
          (broadcastInDim (s := S_) (SV C) ![] hb (varDen (F := Ideal))))
        (broadcastInDim (s := S_) (SV C) ![] hb (constant (F := Ideal) S_ .f32 0x7FC00000#32)) (ix1 o)
      = ((Spec.var z o : ℝ) : EReal) := by
  have hc : FloatOps.cmpf (F := Ideal) (φ := .f32) .ogt ((Spec.T : ℝ) : EReal) (0 : EReal) = 1#1 := by
    rw [Ideal.cmpf_def]
    show BitVec.ofBool (decide ((0 : EReal) < ((Spec.T : ℝ) : EReal))) = 1#1
    rw [decide_eq_true (EReal.coe_pos.mpr Spec.T_pos)]
    rfl
  rw [select_apply, broadcastInDim_scalar_apply, cmpf_apply, varDen_apply, const0_apply, hc, select_one,
    hostDivf_apply, broadcastInDim_scalar_apply, varDen_apply,
    reduce01_real (mulf (F := Ideal) D D) (fun n m c => (z n m c - Spec.mean z c) ^ 2)
      (fun n m c => by rw [mulf_apply, hD, ← EReal.coe_mul, pow_two]),
    div_coe_coe _ _ Spec.T_pos.ne']
  rfl

/-- Normalise, scale, shift at real statistics with a nonnegative variance. -/
theorem scaleShiftG (Z : FVec Ideal (SF C) .f32) (MU VA G BE : FVec Ideal (SV C) .f32)
    (z : Fin 1536 → Fin 1536 → Fin C → ℝ) (mu va g be : Fin C → ℝ)
    (hZ : ∀ n m c, Z (ix3 n m c) = ((z n m c : ℝ) : EReal)) (hMU : ∀ o, MU (ix1 o) = ((mu o : ℝ) : EReal))
    (hVA : ∀ o, VA (ix1 o) = ((va o : ℝ) : EReal)) (hG : ∀ o, G (ix1 o) = ((g o : ℝ) : EReal))
    (hBE : ∀ o, BE (ix1 o) = ((be o : ℝ) : EReal)) (hva : ∀ o, 0 ≤ va o)
    (h1 : (SV C).BroadcastsInDim (SR C) ![2]) (h2 : (SR C).BroadcastsInDim (SF C) ![0, 1, 2]) (hb : S_.BroadcastsInDim (SV C) ![])
    (n m : Fin 1536) (o : Fin C) :
    addf (F := Ideal)
        (mulf (F := Ideal)
          (mulf (F := Ideal) (subf (F := Ideal) Z (broadcastInDim (s := (SR C)) (SF C) ![0, 1, 2] h2 (broadcastInDim (s := (SV C)) (SR C) ![2] h1 MU)))
            (broadcastInDim (s := (SR C)) (SF C) ![0, 1, 2] h2 (broadcastInDim (s := (SV C)) (SR C) ![2] h1 (Host.rsqrt (F := Ideal)
              (addf (F := Ideal) VA (broadcastInDim (s := S_) (SV C) ![] hb (constant (F := Ideal) S_ .f32 0x3727C5AC#32)))))))
          (broadcastInDim (s := (SR C)) (SF C) ![0, 1, 2] h2 (broadcastInDim (s := (SV C)) (SR C) ![2] h1 G)))
        (broadcastInDim (s := (SR C)) (SF C) ![0, 1, 2] h2 (broadcastInDim (s := (SV C)) (SR C) ![2] h1 BE)) (ix3 n m o)
      = (((z n m o - mu o) * (1 / Real.sqrt (va o + Spec.eps)) * g o + be o : ℝ) : EReal) := by
  rw [addf_apply, mulf_apply, mulf_apply, subf_apply, chan_apply, chan_apply, chan_apply, chan_apply,
    hostRsqrt_apply, addf_apply, broadcastInDim_scalar_apply, constant_apply, ← Spec.eps_coe,
    hZ, hMU, hVA, hG, hBE, rsqrt_add_eps_coe (hva o) Spec.eps_pos,
    ← EReal.coe_sub, ← EReal.coe_mul, ← EReal.coe_mul, ← EReal.coe_add, one_div]

/-- The leaky rectifier: the comparison with zero decides between the value and slope times the value. -/
theorem leakyG (Y : FVec Ideal (SF C) .f32) (y : Fin 1536 → Fin 1536 → Fin C → ℝ)
    (hY : ∀ n m c, Y (ix3 n m c) = ((y n m c : ℝ) : EReal)) (hbF : S_.BroadcastsInDim (SF C) ![])
    (n m : Fin 1536) (o : Fin C) :
    select
        (cmpf (F := Ideal) .oge Y (broadcastInDim (s := S_) (SF C) ![] hbF (constant (F := Ideal) S_ .f32 0x00000000#32)))
        Y
        (mulf (F := Ideal) (broadcastInDim (s := S_) (SF C) ![] hbF (constant (F := Ideal) S_ .f32 0x3C23D70A#32)) Y)
        (ix3 n m o)
      = ((Spec.leaky (y n m o) : ℝ) : EReal) := by
  rw [select_apply, cmpf_apply, mulf_apply, broadcastInDim_scalar_apply, broadcastInDim_scalar_apply, const0_apply,
    constant_apply, ← Spec.slope_coe, hY, Ideal.cmpf_def]
  unfold Spec.leaky
  by_cases h0 : 0 ≤ y n m o
  · have hd : Ideal.cmp .oge (((y n m o : ℝ)) : EReal) 0 = 1#1 := by
      show BitVec.ofBool (decide ((0 : EReal) ≤ ((y n m o : ℝ) : EReal))) = 1#1
      rw [decide_eq_true (EReal.coe_nonneg.mpr h0)]
      rfl
    rw [hd, select_one, if_pos h0]
  · have hd : Ideal.cmp .oge (((y n m o : ℝ)) : EReal) 0 = 0#1 := by
      show BitVec.ofBool (decide ((0 : EReal) ≤ ((y n m o : ℝ) : EReal))) = 0#1
      rw [decide_eq_false (fun h => h0 (EReal.coe_nonneg.mp h))]
      rfl
    rw [hd, select_zero, if_neg h0, ← EReal.coe_mul]

end Channels

/-! ## The stages of the program -/

section Stages16

variable (Z : FVec Ideal S1536x1536x16 .f32) (z : Fin 1536 → Fin 1536 → Fin 16 → ℝ)
  (hZ : ∀ n m c, Z (ix3 n m c) = ((z n m c : ℝ) : EReal))
include hZ

theorem mean16_real (o : Fin 16) : mean16 (F := Ideal) Z (ix1 o) = ((Spec.mean z o : ℝ) : EReal) := by
  unfold mean16
  exact meanG Z z hZ _ _ _ o

theorem dev16_real (n m : Fin 1536) (o : Fin 16) :
    dev16 (F := Ideal) Z (ix3 n m o) = ((z n m o - Spec.mean z o : ℝ) : EReal) := by
  unfold dev16
  exact devG Z z hZ _ _ _ _ _ n m o

theorem var16_real (o : Fin 16) : var16 (F := Ideal) Z (ix1 o) = ((Spec.var z o : ℝ) : EReal) := by
  unfold var16
  exact varG z (dev16 (F := Ideal) Z) (dev16_real Z z hZ) _ _ _ o

theorem norm16_real (G BE : FVec Ideal S16 .f32) (g be : Fin 16 → ℝ)
    (hG : ∀ o, G (ix1 o) = ((g o : ℝ) : EReal)) (hBE : ∀ o, BE (ix1 o) = ((be o : ℝ) : EReal))
    (n m : Fin 1536) (o : Fin 16) :
    norm16 (F := Ideal) Z G BE (ix3 n m o) = ((Spec.bn z g be n m o : ℝ) : EReal) := by
  unfold norm16 scaleShift16 chan16
  exact scaleShiftG Z (mean16 (F := Ideal) Z) (var16 (F := Ideal) Z) G BE z (Spec.mean z) (Spec.var z) g be hZ
    (mean16_real Z z hZ) (var16_real Z z hZ) hG hBE (Spec.var_nonneg z) _ _ _ n m o

theorem leaky16_real (n m : Fin 1536) (o : Fin 16) :
    leaky16 (F := Ideal) Z (ix3 n m o) = ((Spec.leaky (z n m o) : ℝ) : EReal) := by
  unfold leaky16
  exact leakyG Z z hZ _ n m o

end Stages16

section Stages8

variable (Z : FVec Ideal S1536x1536x8 .f32) (z : Fin 1536 → Fin 1536 → Fin 8 → ℝ)
  (hZ : ∀ n m c, Z (ix3 n m c) = ((z n m c : ℝ) : EReal))
include hZ

theorem mean8_real (o : Fin 8) : mean8 (F := Ideal) Z (ix1 o) = ((Spec.mean z o : ℝ) : EReal) := by
  unfold mean8
  exact meanG Z z hZ _ _ _ o

theorem dev8_real (n m : Fin 1536) (o : Fin 8) :
    dev8 (F := Ideal) Z (ix3 n m o) = ((z n m o - Spec.mean z o : ℝ) : EReal) := by
  unfold dev8
  exact devG Z z hZ _ _ _ _ _ n m o

theorem var8_real (o : Fin 8) : var8 (F := Ideal) Z (ix1 o) = ((Spec.var z o : ℝ) : EReal) := by
  unfold var8
  exact varG z (dev8 (F := Ideal) Z) (dev8_real Z z hZ) _ _ _ o

theorem norm8_real (G BE : FVec Ideal S8 .f32) (g be : Fin 8 → ℝ)
    (hG : ∀ o, G (ix1 o) = ((g o : ℝ) : EReal)) (hBE : ∀ o, BE (ix1 o) = ((be o : ℝ) : EReal))
    (n m : Fin 1536) (o : Fin 8) :
    norm8 (F := Ideal) Z G BE (ix3 n m o) = ((Spec.bn z g be n m o : ℝ) : EReal) := by
  unfold norm8 scaleShift8 chan8
  exact scaleShiftG Z (mean8 (F := Ideal) Z) (var8 (F := Ideal) Z) G BE z (Spec.mean z) (Spec.var z) g be hZ
    (mean8_real Z z hZ) (var8_real Z z hZ) hG hBE (Spec.var_nonneg z) _ _ _ n m o

theorem leaky8_real (n m : Fin 1536) (o : Fin 8) :
    leaky8 (F := Ideal) Z (ix3 n m o) = ((Spec.leaky (z n m o) : ℝ) : EReal) := by
  unfold leaky8
  exact leakyG Z z hZ _ n m o

end Stages8

/-! ## The other convolutions -/

theorem conv2_real (H : FVec Ideal S1536x1536x16 .f32) (W : FVec Ideal S16x16 .f32) (b : FVec Ideal S16 .f32)
    (h : Fin 1536 → Fin 1536 → Fin 16 → ℝ) (w : Fin 16 → Fin 16 → ℝ) (β : Fin 16 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (n m : Fin 1536) (o : Fin 16) :
    conv2 (F := Ideal) H W b (ix3 n m o) = ((Spec.conv w β h n m o : ℝ) : EReal) := by
  have e : conv2 (F := Ideal) H W b (ix3 n m o)
      = Host.dotGeneral (F := Ideal) dot_S1536x1536x16_S16x16_S1536x1536x16_2_1_01_0_n_n none H W (ix3 n m o)
        + chan16 (F := Ideal) b (ix3 n m o) := rfl
  rw [e, dot3_apply _ none rfl rfl (fun _ _ => rfl) (fun _ _ => rfl) (fun _ _ => rfl) (fun _ _ => rfl)
    (fun _ _ => rfl)]
  unfold chan16
  rw [chan_apply, hb]
  exact lin_coe (h n m) w β o _ _ (fun k => hH n m k) (fun k => hW o k)

theorem conv3_real (H : FVec Ideal S1536x1536x16 .f32) (W : FVec Ideal S8x16 .f32) (b : FVec Ideal S8 .f32)
    (h : Fin 1536 → Fin 1536 → Fin 16 → ℝ) (w : Fin 8 → Fin 16 → ℝ) (β : Fin 8 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (n m : Fin 1536) (o : Fin 8) :
    conv3 (F := Ideal) H W b (ix3 n m o) = ((Spec.conv w β h n m o : ℝ) : EReal) := by
  have e : conv3 (F := Ideal) H W b (ix3 n m o)
      = Host.dotGeneral (F := Ideal) dot_S1536x1536x16_S8x16_S1536x1536x8_2_1_01_0_n_n none H W (ix3 n m o)
        + chan8 (F := Ideal) b (ix3 n m o) := rfl
  rw [e, dot3_apply _ none rfl rfl (fun _ _ => rfl) (fun _ _ => rfl) (fun _ _ => rfl) (fun _ _ => rfl)
    (fun _ _ => rfl)]
  unfold chan8
  rw [chan_apply, hb]
  exact lin_coe (h n m) w β o _ _ (fun k => hH n m k) (fun k => hW o k)

theorem conv4_real (H : FVec Ideal S1536x1536x8 .f32) (W : FVec Ideal S8x8 .f32) (b : FVec Ideal S8 .f32)
    (h : Fin 1536 → Fin 1536 → Fin 8 → ℝ) (w : Fin 8 → Fin 8 → ℝ) (β : Fin 8 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (n m : Fin 1536) (o : Fin 8) :
    conv4 (F := Ideal) H W b (ix3 n m o) = ((Spec.conv w β h n m o : ℝ) : EReal) := by
  have e : conv4 (F := Ideal) H W b (ix3 n m o)
      = Host.dotGeneral (F := Ideal) dot_S1536x1536x8_S8x8_S1536x1536x8_2_1_01_0_n_n none H W (ix3 n m o)
        + chan8 (F := Ideal) b (ix3 n m o) := rfl
  rw [e, dot3_apply _ none rfl rfl (fun _ _ => rfl) (fun _ _ => rfl) (fun _ _ => rfl) (fun _ _ => rfl)
    (fun _ _ => rfl)]
  unfold chan8
  rw [chan_apply, hb]
  exact lin_coe (h n m) w β o _ _ (fun k => hH n m k) (fun k => hW o k)

theorem conv5_real (H : FVec Ideal S1536x1536x8 .f32) (W : FVec Ideal S1x8 .f32) (b : FVec Ideal S1 .f32)
    (h : Fin 1536 → Fin 1536 → Fin 8 → ℝ) (w : Fin 1 → Fin 8 → ℝ) (β : Fin 1 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (n m : Fin 1536) (o : Fin 1) :
    conv5 (F := Ideal) H W b (ix3 n m o) = ((Spec.conv w β h n m o : ℝ) : EReal) := by
  have e : conv5 (F := Ideal) H W b (ix3 n m o)
      = Host.dotGeneral (F := Ideal) dot_S1536x1536x8_S1x8_S1536x1536x1_2_1_01_0_n_n none H W (ix3 n m o)
        + broadcastInDim (s := S1x1x1) S1536x1536x1 ![0, 1, 2] bcast_S1x1x1_S1536x1536x1_0_1_2
            (broadcastInDim (s := S1) S1x1x1 ![2] bcast_S1_S1x1x1_2 b) (ix3 n m o) := rfl
  rw [e, dot3_apply _ none rfl rfl (fun _ _ => rfl) (fun _ _ => rfl) (fun _ _ => rfl) (fun _ _ => rfl)
    (fun _ _ => rfl), chan_apply, hb]
  exact lin_coe (h n m) w β o _ _ (fun k => hH n m k) (fun k => hW o k)

/-! ## The blocks and the result -/

theorem block1_real (X : FVec Ideal S1536x64 .f32) (W : FVec Ideal S16x64 .f32) (b g be : FVec Ideal S16 .f32)
    (x : Fin 1536 → Fin 64 → ℝ) (w : Fin 16 → Fin 64 → ℝ) (β γ δ : Fin 16 → ℝ)
    (hX : ∀ n c, X (ix2 n c) = ((x n c : ℝ) : EReal)) (hW : ∀ o c, W (ix2 o c) = ((w o c : ℝ) : EReal))
    (hb : ∀ o, b (ix1 o) = ((β o : ℝ) : EReal)) (hg : ∀ o, g (ix1 o) = ((γ o : ℝ) : EReal))
    (hbe : ∀ o, be (ix1 o) = ((δ o : ℝ) : EReal)) (n m : Fin 1536) (o : Fin 16) :
    block1 (F := Ideal) X W b g be (ix3 n m o) = ((Spec.block w β γ δ (Spec.feat x) n m o : ℝ) : EReal) := by
  unfold block1
  exact leaky16_real _ (Spec.bn (Spec.conv w β (Spec.feat x)) γ δ)
    (fun n m o => norm16_real _ (Spec.conv w β (Spec.feat x))
      (fun n m o => conv1_real _ W b (Spec.feat x) w β (fun n m c => pairFeat_real X x hX n m c) hW hb n m o)
      g be γ δ hg hbe n m o) n m o

theorem block2_real (H : FVec Ideal S1536x1536x16 .f32) (W : FVec Ideal S16x16 .f32) (b g be : FVec Ideal S16 .f32)
    (h : Fin 1536 → Fin 1536 → Fin 16 → ℝ) (w : Fin 16 → Fin 16 → ℝ) (β γ δ : Fin 16 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (hg : ∀ o, g (ix1 o) = ((γ o : ℝ) : EReal))
    (hbe : ∀ o, be (ix1 o) = ((δ o : ℝ) : EReal)) (n m : Fin 1536) (o : Fin 16) :
    block2 (F := Ideal) H W b g be (ix3 n m o) = ((Spec.block w β γ δ h n m o : ℝ) : EReal) := by
  unfold block2
  exact leaky16_real _ (Spec.bn (Spec.conv w β h) γ δ)
    (fun n m o => norm16_real _ (Spec.conv w β h)
      (fun n m o => conv2_real H W b h w β hH hW hb n m o) g be γ δ hg hbe n m o) n m o

theorem block3_real (H : FVec Ideal S1536x1536x16 .f32) (W : FVec Ideal S8x16 .f32) (b g be : FVec Ideal S8 .f32)
    (h : Fin 1536 → Fin 1536 → Fin 16 → ℝ) (w : Fin 8 → Fin 16 → ℝ) (β γ δ : Fin 8 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (hg : ∀ o, g (ix1 o) = ((γ o : ℝ) : EReal))
    (hbe : ∀ o, be (ix1 o) = ((δ o : ℝ) : EReal)) (n m : Fin 1536) (o : Fin 8) :
    block3 (F := Ideal) H W b g be (ix3 n m o) = ((Spec.block w β γ δ h n m o : ℝ) : EReal) := by
  unfold block3
  exact leaky8_real _ (Spec.bn (Spec.conv w β h) γ δ)
    (fun n m o => norm8_real _ (Spec.conv w β h)
      (fun n m o => conv3_real H W b h w β hH hW hb n m o) g be γ δ hg hbe n m o) n m o

theorem block4_real (H : FVec Ideal S1536x1536x8 .f32) (W : FVec Ideal S8x8 .f32) (b g be : FVec Ideal S8 .f32)
    (h : Fin 1536 → Fin 1536 → Fin 8 → ℝ) (w : Fin 8 → Fin 8 → ℝ) (β γ δ : Fin 8 → ℝ)
    (hH : ∀ n m c, H (ix3 n m c) = ((h n m c : ℝ) : EReal)) (hW : ∀ o c, W (ix2 o c) = ((w o c : ℝ) : EReal))
    (hb : ∀ o, b (ix1 o) = ((β o : ℝ) : EReal)) (hg : ∀ o, g (ix1 o) = ((γ o : ℝ) : EReal))
    (hbe : ∀ o, be (ix1 o) = ((δ o : ℝ) : EReal)) (n m : Fin 1536) (o : Fin 8) :
    block4 (F := Ideal) H W b g be (ix3 n m o) = ((Spec.block w β γ δ h n m o : ℝ) : EReal) := by
  unfold block4
  exact leaky8_real _ (Spec.bn (Spec.conv w β h) γ δ)
    (fun n m o => norm8_real _ (Spec.conv w β h)
      (fun n m o => conv4_real H W b h w β hH hW hb n m o) g be γ δ hg hbe n m o) n m o

/-- The program's result on real arguments, read at a position, is the real network there. -/
theorem out_real (X : FVec Ideal S1536x64 .f32)
    (W1 : FVec Ideal S16x64 .f32) (b1 g1 be1 : FVec Ideal S16 .f32)
    (W2 : FVec Ideal S16x16 .f32) (b2 g2 be2 : FVec Ideal S16 .f32)
    (W3 : FVec Ideal S8x16 .f32) (b3 g3 be3 : FVec Ideal S8 .f32)
    (W4 : FVec Ideal S8x8 .f32) (b4 g4 be4 : FVec Ideal S8 .f32)
    (W5 : FVec Ideal S1x8 .f32) (b5 : FVec Ideal S1 .f32)
    (x : Fin 1536 → Fin 64 → ℝ)
    (w1 : Fin 16 → Fin 64 → ℝ) (β1 γ1 δ1 : Fin 16 → ℝ) (w2 : Fin 16 → Fin 16 → ℝ) (β2 γ2 δ2 : Fin 16 → ℝ)
    (w3 : Fin 8 → Fin 16 → ℝ) (β3 γ3 δ3 : Fin 8 → ℝ) (w4 : Fin 8 → Fin 8 → ℝ) (β4 γ4 δ4 : Fin 8 → ℝ)
    (w5 : Fin 1 → Fin 8 → ℝ) (β5 : Fin 1 → ℝ)
    (hX : ∀ n c, X (ix2 n c) = ((x n c : ℝ) : EReal))
    (hW1 : ∀ o c, W1 (ix2 o c) = ((w1 o c : ℝ) : EReal)) (hb1 : ∀ o, b1 (ix1 o) = ((β1 o : ℝ) : EReal))
    (hg1 : ∀ o, g1 (ix1 o) = ((γ1 o : ℝ) : EReal)) (hbe1 : ∀ o, be1 (ix1 o) = ((δ1 o : ℝ) : EReal))
    (hW2 : ∀ o c, W2 (ix2 o c) = ((w2 o c : ℝ) : EReal)) (hb2 : ∀ o, b2 (ix1 o) = ((β2 o : ℝ) : EReal))
    (hg2 : ∀ o, g2 (ix1 o) = ((γ2 o : ℝ) : EReal)) (hbe2 : ∀ o, be2 (ix1 o) = ((δ2 o : ℝ) : EReal))
    (hW3 : ∀ o c, W3 (ix2 o c) = ((w3 o c : ℝ) : EReal)) (hb3 : ∀ o, b3 (ix1 o) = ((β3 o : ℝ) : EReal))
    (hg3 : ∀ o, g3 (ix1 o) = ((γ3 o : ℝ) : EReal)) (hbe3 : ∀ o, be3 (ix1 o) = ((δ3 o : ℝ) : EReal))
    (hW4 : ∀ o c, W4 (ix2 o c) = ((w4 o c : ℝ) : EReal)) (hb4 : ∀ o, b4 (ix1 o) = ((β4 o : ℝ) : EReal))
    (hg4 : ∀ o, g4 (ix1 o) = ((γ4 o : ℝ) : EReal)) (hbe4 : ∀ o, be4 (ix1 o) = ((δ4 o : ℝ) : EReal))
    (hW5 : ∀ o c, W5 (ix2 o c) = ((w5 o c : ℝ) : EReal)) (hb5 : ∀ o, b5 (ix1 o) = ((β5 o : ℝ) : EReal))
    (n m : Fin 1536) :
    out (F := Ideal) X W1 b1 g1 be1 W2 b2 g2 be2 W3 b3 g3 be3 W4 b4 g4 be4 W5 b5 (ix2 n m)
      = ((Spec.net x w1 β1 γ1 δ1 w2 β2 γ2 δ2 w3 β3 γ3 δ3 w4 β4 γ4 δ4 w5 β5 n m : ℝ) : EReal) := by
  unfold out squeeze
  rw [squeeze_apply]
  exact conv5_real _ W5 b5
    (Spec.block w4 β4 γ4 δ4 (Spec.block w3 β3 γ3 δ3 (Spec.block w2 β2 γ2 δ2 (Spec.block w1 β1 γ1 δ1 (Spec.feat x)))))
    w5 β5
    (fun n m c => block4_real _ W4 b4 g4 be4 _ w4 β4 γ4 δ4
      (fun n m c => block3_real _ W3 b3 g3 be3 _ w3 β3 γ3 δ3
        (fun n m c => block2_real _ W2 b2 g2 be2 _ w2 β2 γ2 δ2
          (fun n m c => block1_real X W1 b1 g1 be1 x w1 β1 γ1 δ1 hX hW1 hb1 hg1 hbe1 n m c)
          hW2 hb2 hg2 hbe2 n m c)
        hW3 hb3 hg3 hbe3 n m c)
      hW4 hb4 hg4 hbe4 n m c)
    hW5 hb5 n m 0

/-- The same with the argument arrays given as the coercions of real arrays, as one equation of arrays. -/
theorem out_coe (x : Fin 1536 → Fin 64 → ℝ)
    (w1 : Fin 16 → Fin 64 → ℝ) (β1 γ1 δ1 : Fin 16 → ℝ) (w2 : Fin 16 → Fin 16 → ℝ) (β2 γ2 δ2 : Fin 16 → ℝ)
    (w3 : Fin 8 → Fin 16 → ℝ) (β3 γ3 δ3 : Fin 8 → ℝ) (w4 : Fin 8 → Fin 8 → ℝ) (β4 γ4 δ4 : Fin 8 → ℝ)
    (w5 : Fin 1 → Fin 8 → ℝ) (β5 : Fin 1 → ℝ) :
    out (F := Ideal)
        (fun i : S1536x64.Idx => ((x (i 0) (i 1) : ℝ) : EReal))
        (fun i : S16x64.Idx => ((w1 (i 0) (i 1) : ℝ) : EReal)) (fun i : S16.Idx => ((β1 (i 0) : ℝ) : EReal))
        (fun i : S16.Idx => ((γ1 (i 0) : ℝ) : EReal)) (fun i : S16.Idx => ((δ1 (i 0) : ℝ) : EReal))
        (fun i : S16x16.Idx => ((w2 (i 0) (i 1) : ℝ) : EReal)) (fun i : S16.Idx => ((β2 (i 0) : ℝ) : EReal))
        (fun i : S16.Idx => ((γ2 (i 0) : ℝ) : EReal)) (fun i : S16.Idx => ((δ2 (i 0) : ℝ) : EReal))
        (fun i : S8x16.Idx => ((w3 (i 0) (i 1) : ℝ) : EReal)) (fun i : S8.Idx => ((β3 (i 0) : ℝ) : EReal))
        (fun i : S8.Idx => ((γ3 (i 0) : ℝ) : EReal)) (fun i : S8.Idx => ((δ3 (i 0) : ℝ) : EReal))
        (fun i : S8x8.Idx => ((w4 (i 0) (i 1) : ℝ) : EReal)) (fun i : S8.Idx => ((β4 (i 0) : ℝ) : EReal))
        (fun i : S8.Idx => ((γ4 (i 0) : ℝ) : EReal)) (fun i : S8.Idx => ((δ4 (i 0) : ℝ) : EReal))
        (fun i : S1x8.Idx => ((w5 (i 0) (i 1) : ℝ) : EReal)) (fun i : S1.Idx => ((β5 (i 0) : ℝ) : EReal))
      = fun i : S1536x1536.Idx =>
          ((Spec.net x w1 β1 γ1 δ1 w2 β2 γ2 δ2 w3 β3 γ3 δ3 w4 β4 γ4 δ4 w5 β5 (i 0) (i 1) : ℝ) : EReal) := by
  funext i
  rw [eq_ix2 i]
  exact out_real _ _ _ _ _ _ _ _ _ _ _ _ _ _ _ _ _ _ _ x w1 β1 γ1 δ1 w2 β2 γ2 δ2 w3 β3 γ3 δ3 w4 β4 γ4 δ4 w5 β5
    (fun _ _ => rfl) (fun _ _ => rfl) (fun _ => rfl) (fun _ => rfl) (fun _ => rfl)
    (fun _ _ => rfl) (fun _ => rfl) (fun _ => rfl) (fun _ => rfl)
    (fun _ _ => rfl) (fun _ => rfl) (fun _ => rfl) (fun _ => rfl)
    (fun _ _ => rfl) (fun _ => rfl) (fun _ => rfl) (fun _ => rfl)
    (fun _ _ => rfl) (fun _ => rfl) (i 0) (i 1)

end Cert.ReferenceIdeal.Hand

end
-- ==== Proof.Reals.lean ====
/- From finite inputs to real arrays: an array all of whose elements are real numbers is the coercion of a real
   array on literal indices; nineteen such arrays bundled with their real arrays and the index equations; and the
   reference program's result on such arguments is the coercion of the real network's output. -/
import proofs.«135850_j19774029431551_2_alg».proof.Proof.Finite
import proofs.«135850_j19774029431551_2_alg».proof.Proof.Spec
import proofs.«135850_j19774029431551_2_alg».proof.Proof.Ref.Real

noncomputable section

namespace Cert.Hand

open Idealize.ShloMosaic Idealize.ShloMosaic.ValueIdx Cert.ReferenceIdeal

/-! ## An all-real array is the coercion of a real array -/

theorem AllReal.ix1 {A : ℕ} (X : FVec Ideal ⟨1, ![A]⟩ .f32) (h : AllReal X) :
    ∃ x : Fin A → ℝ, ∀ a, X (ValueIdx.ix1 a) = ((x a : ℝ) : EReal) := by
  choose f hf using h
  exact ⟨fun a => f (ValueIdx.ix1 a), fun a => hf (ValueIdx.ix1 a)⟩

theorem AllReal.ix2 {A B : ℕ} (X : FVec Ideal ⟨2, ![A, B]⟩ .f32) (h : AllReal X) :
    ∃ x : Fin A → Fin B → ℝ, ∀ a b, X (ValueIdx.ix2 a b) = ((x a b : ℝ) : EReal) := by
  choose f hf using h
  exact ⟨fun a b => f (ValueIdx.ix2 a b), fun a b => hf (ValueIdx.ix2 a b)⟩

theorem AllReal.ix3 {A B C : ℕ} (X : FVec Ideal ⟨3, ![A, B, C]⟩ .f32) (h : AllReal X) :
    ∃ x : Fin A → Fin B → Fin C → ℝ, ∀ a b c, X (ValueIdx.ix3 a b c) = ((x a b c : ℝ) : EReal) := by
  choose f hf using h
  exact ⟨fun a b c => f (ValueIdx.ix3 a b c), fun a b c => hf (ValueIdx.ix3 a b c)⟩

/-! ## The nineteen arguments as real arrays -/

/-- The nineteen argument arrays together with real arrays they are the coercions of. -/
structure RealArgs (a0 : FVec Ideal S1536x64 .f32)
    (a1 : FVec Ideal S16x64 .f32) (a2 a3 a4 : FVec Ideal S16 .f32)
    (a5 : FVec Ideal S16x16 .f32) (a6 a7 a8 : FVec Ideal S16 .f32)
    (a9 : FVec Ideal S8x16 .f32) (a10 a11 a12 : FVec Ideal S8 .f32)
    (a13 : FVec Ideal S8x8 .f32) (a14 a15 a16 : FVec Ideal S8 .f32)
    (a17 : FVec Ideal S1x8 .f32) (a18 : FVec Ideal S1 .f32) where
  x : Fin 1536 → Fin 64 → ℝ
  w1 : Fin 16 → Fin 64 → ℝ
  β1 : Fin 16 → ℝ
  γ1 : Fin 16 → ℝ
  δ1 : Fin 16 → ℝ
  w2 : Fin 16 → Fin 16 → ℝ
  β2 : Fin 16 → ℝ
  γ2 : Fin 16 → ℝ
  δ2 : Fin 16 → ℝ
  w3 : Fin 8 → Fin 16 → ℝ
  β3 : Fin 8 → ℝ
  γ3 : Fin 8 → ℝ
  δ3 : Fin 8 → ℝ
  w4 : Fin 8 → Fin 8 → ℝ
  β4 : Fin 8 → ℝ
  γ4 : Fin 8 → ℝ
  δ4 : Fin 8 → ℝ
  w5 : Fin 1 → Fin 8 → ℝ
  β5 : Fin 1 → ℝ
  hx : ∀ n c, a0 (ix2 n c) = ((x n c : ℝ) : EReal)
  hw1 : ∀ o c, a1 (ix2 o c) = ((w1 o c : ℝ) : EReal)
  hβ1 : ∀ o, a2 (ix1 o) = ((β1 o : ℝ) : EReal)
  hγ1 : ∀ o, a3 (ix1 o) = ((γ1 o : ℝ) : EReal)
  hδ1 : ∀ o, a4 (ix1 o) = ((δ1 o : ℝ) : EReal)
  hw2 : ∀ o c, a5 (ix2 o c) = ((w2 o c : ℝ) : EReal)
  hβ2 : ∀ o, a6 (ix1 o) = ((β2 o : ℝ) : EReal)
  hγ2 : ∀ o, a7 (ix1 o) = ((γ2 o : ℝ) : EReal)
  hδ2 : ∀ o, a8 (ix1 o) = ((δ2 o : ℝ) : EReal)
  hw3 : ∀ o c, a9 (ix2 o c) = ((w3 o c : ℝ) : EReal)
  hβ3 : ∀ o, a10 (ix1 o) = ((β3 o : ℝ) : EReal)
  hγ3 : ∀ o, a11 (ix1 o) = ((γ3 o : ℝ) : EReal)
  hδ3 : ∀ o, a12 (ix1 o) = ((δ3 o : ℝ) : EReal)
  hw4 : ∀ o c, a13 (ix2 o c) = ((w4 o c : ℝ) : EReal)
  hβ4 : ∀ o, a14 (ix1 o) = ((β4 o : ℝ) : EReal)
  hγ4 : ∀ o, a15 (ix1 o) = ((γ4 o : ℝ) : EReal)
  hδ4 : ∀ o, a16 (ix1 o) = ((δ4 o : ℝ) : EReal)
  hw5 : ∀ o c, a17 (ix2 o c) = ((w5 o c : ℝ) : EReal)
  hβ5 : ∀ o, a18 (ix1 o) = ((β5 o : ℝ) : EReal)

section Bundle

variable {a0 : FVec Ideal S1536x64 .f32}
  {a1 : FVec Ideal S16x64 .f32} {a2 a3 a4 : FVec Ideal S16 .f32}
  {a5 : FVec Ideal S16x16 .f32} {a6 a7 a8 : FVec Ideal S16 .f32}
  {a9 : FVec Ideal S8x16 .f32} {a10 a11 a12 : FVec Ideal S8 .f32}
  {a13 : FVec Ideal S8x8 .f32} {a14 a15 a16 : FVec Ideal S8 .f32}
  {a17 : FVec Ideal S1x8 .f32} {a18 : FVec Ideal S1 .f32}

/-- The real network's output on the bundle's real arrays. -/
def RealArgs.net (r : RealArgs a0 a1 a2 a3 a4 a5 a6 a7 a8 a9 a10 a11 a12 a13 a14 a15 a16 a17 a18) :
    Fin 1536 → Fin 1536 → ℝ :=
  Spec.net r.x r.w1 r.β1 r.γ1 r.δ1 r.w2 r.β2 r.γ2 r.δ2 r.w3 r.β3 r.γ3 r.δ3 r.w4 r.β4 r.γ4 r.δ4 r.w5 r.β5

/-- Nineteen all-real arrays have a bundle. -/
theorem RealArgs.of_allReal (h0 : AllReal a0) (h1 : AllReal a1) (h2 : AllReal a2) (h3 : AllReal a3) (h4 : AllReal a4)
    (h5 : AllReal a5) (h6 : AllReal a6) (h7 : AllReal a7) (h8 : AllReal a8) (h9 : AllReal a9) (h10 : AllReal a10)
    (h11 : AllReal a11) (h12 : AllReal a12) (h13 : AllReal a13) (h14 : AllReal a14) (h15 : AllReal a15)
    (h16 : AllReal a16) (h17 : AllReal a17) (h18 : AllReal a18) :
    Nonempty (RealArgs a0 a1 a2 a3 a4 a5 a6 a7 a8 a9 a10 a11 a12 a13 a14 a15 a16 a17 a18) := by
  obtain ⟨x, hx⟩ := AllReal.ix2 a0 h0
  obtain ⟨w1, hw1⟩ := AllReal.ix2 a1 h1
  obtain ⟨β1, hβ1⟩ := AllReal.ix1 a2 h2
  obtain ⟨γ1, hγ1⟩ := AllReal.ix1 a3 h3
  obtain ⟨δ1, hδ1⟩ := AllReal.ix1 a4 h4
  obtain ⟨w2, hw2⟩ := AllReal.ix2 a5 h5
  obtain ⟨β2, hβ2⟩ := AllReal.ix1 a6 h6
  obtain ⟨γ2, hγ2⟩ := AllReal.ix1 a7 h7
  obtain ⟨δ2, hδ2⟩ := AllReal.ix1 a8 h8
  obtain ⟨w3, hw3⟩ := AllReal.ix2 a9 h9
  obtain ⟨β3, hβ3⟩ := AllReal.ix1 a10 h10
  obtain ⟨γ3, hγ3⟩ := AllReal.ix1 a11 h11
  obtain ⟨δ3, hδ3⟩ := AllReal.ix1 a12 h12
  obtain ⟨w4, hw4⟩ := AllReal.ix2 a13 h13
  obtain ⟨β4, hβ4⟩ := AllReal.ix1 a14 h14
  obtain ⟨γ4, hγ4⟩ := AllReal.ix1 a15 h15
  obtain ⟨δ4, hδ4⟩ := AllReal.ix1 a16 h16
  obtain ⟨w5, hw5⟩ := AllReal.ix2 a17 h17
  obtain ⟨β5, hβ5⟩ := AllReal.ix1 a18 h18
  exact ⟨⟨x, w1, β1, γ1, δ1, w2, β2, γ2, δ2, w3, β3, γ3, δ3, w4, β4, γ4, δ4, w5, β5,
    hx, hw1, hβ1, hγ1, hδ1, hw2, hβ2, hγ2, hδ2, hw3, hβ3, hγ3, hδ3, hw4, hβ4, hγ4, hδ4, hw5, hβ5⟩⟩

/-- The same from the right-nested conjunction. -/
theorem RealArgs.of_and
    (h : AllReal a0 ∧ AllReal a1 ∧ AllReal a2 ∧ AllReal a3 ∧ AllReal a4 ∧ AllReal a5 ∧ AllReal a6 ∧ AllReal a7
      ∧ AllReal a8 ∧ AllReal a9 ∧ AllReal a10 ∧ AllReal a11 ∧ AllReal a12 ∧ AllReal a13 ∧ AllReal a14 ∧ AllReal a15
      ∧ AllReal a16 ∧ AllReal a17 ∧ AllReal a18) :
    Nonempty (RealArgs a0 a1 a2 a3 a4 a5 a6 a7 a8 a9 a10 a11 a12 a13 a14 a15 a16 a17 a18) := by
  obtain ⟨h0, h1, h2, h3, h4, h5, h6, h7, h8, h9, h10, h11, h12, h13, h14, h15, h16, h17, h18⟩ := h
  exact RealArgs.of_allReal h0 h1 h2 h3 h4 h5 h6 h7 h8 h9 h10 h11 h12 h13 h14 h15 h16 h17 h18

/-- The reference program's result on bundled arguments is the coercion of the real network's output. -/
theorem RealArgs.out_eq (r : RealArgs a0 a1 a2 a3 a4 a5 a6 a7 a8 a9 a10 a11 a12 a13 a14 a15 a16 a17 a18) :
    Cert.ReferenceIdeal.Hand.out (F := Ideal) a0 a1 a2 a3 a4 a5 a6 a7 a8 a9 a10 a11 a12 a13 a14 a15 a16 a17 a18
      = fun i : S1536x1536.Idx => ((r.net (i 0) (i 1) : ℝ) : EReal) := by
  funext i
  rw [eq_ix2 i]
  exact Cert.ReferenceIdeal.Hand.out_real a0 a1 a2 a3 a4 a5 a6 a7 a8 a9 a10 a11 a12 a13 a14 a15 a16 a17 a18
    r.x r.w1 r.β1 r.γ1 r.δ1 r.w2 r.β2 r.γ2 r.δ2 r.w3 r.β3 r.γ3 r.δ3 r.w4 r.β4 r.γ4 r.δ4 r.w5 r.β5
    r.hx r.hw1 r.hβ1 r.hγ1 r.hδ1 r.hw2 r.hβ2 r.hγ2 r.hδ2 r.hw3 r.hβ3 r.hγ3 r.hδ3 r.hw4 r.hβ4 r.hγ4 r.hδ4 r.hw5 r.hβ5
    (i 0) (i 1)

/-- For all-real arguments there are real arrays with the nineteen index equations and the reference's result the
    coercion of the real network's output: one existential bundle. -/
theorem ref_out_real
    (h : AllReal a0 ∧ AllReal a1 ∧ AllReal a2 ∧ AllReal a3 ∧ AllReal a4 ∧ AllReal a5 ∧ AllReal a6 ∧ AllReal a7
      ∧ AllReal a8 ∧ AllReal a9 ∧ AllReal a10 ∧ AllReal a11 ∧ AllReal a12 ∧ AllReal a13 ∧ AllReal a14 ∧ AllReal a15
      ∧ AllReal a16 ∧ AllReal a17 ∧ AllReal a18) :
    ∃ r : RealArgs a0 a1 a2 a3 a4 a5 a6 a7 a8 a9 a10 a11 a12 a13 a14 a15 a16 a17 a18,
      Cert.ReferenceIdeal.Hand.out (F := Ideal) a0 a1 a2 a3 a4 a5 a6 a7 a8 a9 a10 a11 a12 a13 a14 a15 a16 a17 a18
        = fun i : S1536x1536.Idx => ((r.net (i 0) (i 1) : ℝ) : EReal) := by
  obtain ⟨r⟩ := RealArgs.of_and h
  exact ⟨r, r.out_eq⟩

end Bundle

end Cert.Hand

end
-- ==== Proof.KernelIdeal.ChainFacts.lean ====
/-
  What each item of the program leaves alone. A host stretch changes only the buffers its operations write, a region only its
  output arrays; so an argument array reads the same at every boundary of the chain, and a scale or shift computed after one
  region reads the same at the entry of every later region.
-/
import proofs.«135850_j19774029431551_2_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first host stretch writes only the transposed features. -/
theorem W1_of (c : Dev nD) (b : Ref sig .tc) (h : b ∉ Gen.hostOps0_W) : W1 m c b = m ((c : Thread nD τ).loc b) :=
  StableHlo.after_of_writes_sub hostOps0 _ Gen.hostOps0_writes h
/-- Host stretch 1 writes only its own intermediate buffers, the next layer's scale and shift among them. -/
theorem W3_of (c : Dev nD) (b : Ref sig .tc) (h : b ∉ Gen.hostOps1_W) : W3 m c b = W2 m c b :=
  StableHlo.after_of_writes_sub hostOps1 _ Gen.hostOps1_writes h
/-- Host stretch 2 writes only its own intermediate buffers, the next layer's scale and shift among them. -/
theorem W5_of (c : Dev nD) (b : Ref sig .tc) (h : b ∉ Gen.hostOps2_W) : W5 m c b = W4 m c b :=
  StableHlo.after_of_writes_sub hostOps2 _ Gen.hostOps2_writes h
/-- Host stretch 3 writes only its own intermediate buffers, the next layer's scale and shift among them. -/
theorem W7_of (c : Dev nD) (b : Ref sig .tc) (h : b ∉ Gen.hostOps3_W) : W7 m c b = W6 m c b :=
  StableHlo.after_of_writes_sub hostOps3 _ Gen.hostOps3_writes h
/-- Host stretch 4 writes only its own intermediate buffers, the next layer's scale and shift among them. -/
theorem W9_of (c : Dev nD) (b : Ref sig .tc) (h : b ∉ Gen.hostOps4_W) : W9 m c b = W8 m c b :=
  StableHlo.after_of_writes_sub hostOps4 _ Gen.hostOps4_writes h

end Cert.KernelIdeal.Hand

end
-- ==== Proof.Val.Tile.lean ====
/-
  One tile of the network over the real numbers.

  A tile pairs a block of 128 rows with a block of 128 columns of the input, channels first: `x0 c p` is channel `c`
  of the block's row `p`, `x1 c q` channel `c` of its column `q`. At the pair (p, q) the features are the absolute
  differences of the channels; each layer is a linear map with bias (`Cert.Spec.lin`) of the previous layer's
  values after a per-channel scale and shift and the leaky rectifier. `raw1` … `raw5` are the five linear maps'
  values at one pair, the quantities the kernels sum, square and store.
-/
import Mathlib.Tactic
import proofs.«135850_j19774029431551_2_alg».proof.Proof.Spec

noncomputable section

namespace Cert.KernelIdeal.Val

open scoped BigOperators

/-- The features of the pair (p, q): the absolute difference of each channel. -/
def tfeat (x0 x1 : Fin 64 → Fin 128 → ℝ) (p q : Fin 128) (c : Fin 64) : ℝ := |x0 c p - x1 c q|

/-- A per-channel scale and shift followed by the leaky rectifier. -/
def act {C : ℕ} (sc bi : Fin C → ℝ) (z : Fin C → ℝ) (o : Fin C) : ℝ := Cert.Spec.leaky (z o * sc o + bi o)

/-- The rectifier with the slope written on the right, as the kernels multiply: `h * 0.01`. -/
theorem leaky_mul_comm (y : ℝ) : Cert.Spec.leaky y = if 0 ≤ y then y else y * Cert.Spec.slope := by
  unfold Cert.Spec.leaky
  split
  · rfl
  · exact mul_comm _ _

section Chain

variable (x0 x1 : Fin 64 → Fin 128 → ℝ)
  (W1 : Fin 16 → Fin 64 → ℝ) (b1 sc1 bi1 : Fin 16 → ℝ) (W2 : Fin 16 → Fin 16 → ℝ) (b2 sc2 bi2 : Fin 16 → ℝ)
  (W3 : Fin 8 → Fin 16 → ℝ) (b3 sc3 bi3 : Fin 8 → ℝ) (W4 : Fin 8 → Fin 8 → ℝ) (b4 sc4 bi4 : Fin 8 → ℝ)
  (W5 : Fin 1 → Fin 8 → ℝ) (b5 : Fin 1 → ℝ) (p q : Fin 128)

/-- The first linear map at the pair (p, q). -/
def raw1 : Fin 16 → ℝ := Cert.Spec.lin W1 b1 (tfeat x0 x1 p q)

/-- The second linear map at the pair (p, q). -/
def raw2 : Fin 16 → ℝ := Cert.Spec.lin W2 b2 (act sc1 bi1 (raw1 x0 x1 W1 b1 p q))

/-- The third linear map at the pair (p, q). -/
def raw3 : Fin 8 → ℝ := Cert.Spec.lin W3 b3 (act sc2 bi2 (raw2 x0 x1 W1 b1 sc1 bi1 W2 b2 p q))

/-- The fourth linear map at the pair (p, q). -/
def raw4 : Fin 8 → ℝ := Cert.Spec.lin W4 b4 (act sc3 bi3 (raw3 x0 x1 W1 b1 sc1 bi1 W2 b2 sc2 bi2 W3 b3 p q))

/-- The last linear map at the pair (p, q): one channel. -/
def raw5 : Fin 1 → ℝ :=
  Cert.Spec.lin W5 b5 (act sc4 bi4 (raw4 x0 x1 W1 b1 sc1 bi1 W2 b2 sc2 bi2 W3 b3 sc3 bi3 W4 b4 p q))

end Chain

end Cert.KernelIdeal.Val

end
-- ==== Proof.Val.Ops.lean ====
/-
  The vector operations of one layer, read at an index, at the exact instance.

  Every layer of the network acts on a block of shape [C, N]: C channels by N lanes. Four patterns of vector
  operations make up the kernels' arithmetic: a per-channel vector spread along the lanes; a matrix product with the
  weights followed by the bias; the scale, shift and leaky rectifier; and the sum over the lanes added to an
  accumulator of shape [1, 1, C]. Each is named here as a function of its operands and read at an index as the
  corresponding expression over the real numbers, whenever the operands are coercions of reals. The flattening of a
  128 x 128 tile into 16384 lanes, lane 128 p + q for the pair (p, q), turns a sum over the lanes into the double sum
  over the pairs.
-/
import Idealize.ShloMosaic.Lib.ValueIdx
import Idealize.ShloMosaic.Lib.ValueLayout
import Idealize.ShloMosaic.Lib.Pipeline.Value
import Idealize.ShloMosaic.PureOps.Ideal.Laws
import proofs.«135850_j19774029431551_2_alg».proof.Proof.LibBatchVariance
import proofs.«135850_j19774029431551_2_alg».proof.Proof.Val.Tile

noncomputable section

namespace Cert.KernelIdeal.Val

open Idealize.ShloMosaic Idealize.ShloMosaic.ValueIdx
open Idealize.ShloMosaic.BatchStats (coe_sum)
open scoped BigOperators

/-! ## Blocks of real numbers as blocks of extended reals -/

/-- A vector of reals as a rank-1 block. -/
def blk1 {a : ℕ} (x : Fin a → ℝ) : FVec Ideal ⟨1, ![a]⟩ .f32 := fun i => ((x (i 0) : ℝ) : EReal)
/-- A matrix of reals as a rank-2 block. -/
def blk2 {a b : ℕ} (x : Fin a → Fin b → ℝ) : FVec Ideal ⟨2, ![a, b]⟩ .f32 := fun i => ((x (i 0) (i 1) : ℝ) : EReal)
/-- A vector of reals as an accumulator block of shape [1, 1, a]. -/
def blkAcc {a : ℕ} (x : Fin a → ℝ) : FVec Ideal ⟨3, ![1, 1, a]⟩ .f32 := fun i => ((x (i 2) : ℝ) : EReal)

theorem blk1_apply {a : ℕ} (x : Fin a → ℝ) (o : Fin a) : blk1 x (ix1 o) = ((x o : ℝ) : EReal) := rfl
theorem blk2_apply {a b : ℕ} (x : Fin a → Fin b → ℝ) (o : Fin a) (k : Fin b) : blk2 x (ix2 o k) = ((x o k : ℝ) : EReal) := rfl
theorem blkAcc_apply {a : ℕ} (x : Fin a → ℝ) (u v : Fin 1) (o : Fin a) : blkAcc x (ix3 u v o) = ((x o : ℝ) : EReal) := rfl

/-! ## The lanes of a tile -/

/-- The lane of the pair (p, q) in the flattened tile: 128 p + q. -/
def lane (p q : Fin 128) : Fin 16384 := ⟨128 * p.val + q.val, by omega⟩

theorem lane_val (p q : Fin 128) : (lane p q).val = 128 * p.val + q.val := rfl

/-- A sum over the 16384 lanes is the double sum over the pairs. -/
theorem sum_lanes {M : Type*} [AddCommMonoid M] (f : Fin 16384 → M) :
    ∑ L : Fin 16384, f L = ∑ p : Fin 128, ∑ q : Fin 128, f (lane p q) := by
  rw [← Equiv.sum_comp ((finProdFinEquiv (m := 128) (n := 128)).trans (finCongr (by norm_num : 128 * 128 = 16384))) f,
    Fintype.sum_prod_type]
  refine Finset.sum_congr rfl fun p _ => Finset.sum_congr rfl fun q _ => congrArg f (Fin.ext ?_)
  show q.val + 128 * p.val = 128 * p.val + q.val
  omega

/-! ## A per-channel vector spread along the lanes -/

section Layout
variable {α : Type}

/-- A coordinate read through a broadcast's rule: on an axis of extent one it is zero anyway. -/
theorem val_eq_ite {n : ℕ} (v : Fin n) : v.val = if n = 1 then 0 else v.val := by
  split
  · have := v.isLt; omega
  · rfl

/-- A [C] vector cast to [C, 1] and broadcast to [C, N] reads, at (o, L), the vector at o. -/
theorem colB_apply {C N : ℕ} (v : (⟨1, ![C]⟩ : Shape).Idx → α) (h1 : (⟨1, ![C]⟩ : Shape).ShapeCasts ⟨2, ![C, 1]⟩)
    (h2 : (⟨2, ![C, 1]⟩ : Shape).Broadcasts ⟨2, ![C, N]⟩) (o : Fin C) (L : Fin N) :
    broadcastTo ⟨2, ![C, N]⟩ (shapeCast ⟨2, ![C, 1]⟩ v h1) h2 (ix2 o L) = v (ix1 o) := by
  refine (broadcastTo_apply _ h2 (ix2 o L) (ix2 o (0 : Fin 1)) fun ax => ?_).trans ?_
  · match ax with
    | ⟨0, _⟩ => exact val_eq_ite o
    | ⟨1, _⟩ => rfl
  · exact shapeCast_apply v h1 _ (ix1 o) (by
      rw [Shape.rowMajor_val_one, Shape.rowMajor_val_two]
      show o.val = o.val * 1 + 0
      omega)

/-- A [C] vector cast to an accumulator's shape [1, 1, C] reads, at (0, 0, o), the vector at o. -/
theorem castAcc_apply {C : ℕ} (v : (⟨1, ![C]⟩ : Shape).Idx → α) (h : (⟨1, ![C]⟩ : Shape).ShapeCasts ⟨3, ![1, 1, C]⟩)
    (u w : Fin 1) (o : Fin C) : shapeCast ⟨3, ![1, 1, C]⟩ v h (ix3 u w o) = v (ix1 o) :=
  shapeCast_apply v h _ (ix1 o) (by
    have hu : u.val = 0 := by omega
    have hw : w.val = 0 := by omega
    rw [Shape.rowMajor_val_one, Shape.rowMajor_val_three]
    show o.val = (u.val * 1 + w.val) * C + o.val
    rw [hu, hw]; simp)

/-- The [64, 128, 128] block of pairs flattened to [64, 16384] reads, at (c, lane p q), the block at (c, p, q). -/
theorem flatten_apply (v : (⟨3, ![64, 128, 128]⟩ : Shape).Idx → α)
    (h : (⟨3, ![64, 128, 128]⟩ : Shape).ShapeCasts ⟨2, ![64, 16384]⟩) (c : Fin 64) (p q : Fin 128) :
    shapeCast ⟨2, ![64, 16384]⟩ v h (ix2 c (lane p q)) = v (ix3 c p q) :=
  shapeCast_apply v h _ (ix3 c p q) (by
    rw [Shape.rowMajor_val_three, Shape.rowMajor_val_two]
    show (c.val * 128 + p.val) * 128 + q.val = c.val * 16384 + (128 * p.val + q.val)
    omega)

/-- The [1, 16384] row of lanes cast to the [128, 128] tile reads, at (p, q), the row at lane p q. -/
theorem unflatten_apply (v : (⟨2, ![1, 16384]⟩ : Shape).Idx → α)
    (h : (⟨2, ![1, 16384]⟩ : Shape).ShapeCasts ⟨2, ![128, 128]⟩) (p q : Fin 128) :
    shapeCast ⟨2, ![128, 128]⟩ v h (ix2 p q) = v (ix2 (0 : Fin 1) (lane p q)) :=
  shapeCast_apply v h _ (ix2 (0 : Fin 1) (lane p q)) (by
    rw [Shape.rowMajor_val_two, Shape.rowMajor_val_two]
    show 0 * 16384 + (128 * p.val + q.val) = p.val * 128 + q.val
    omega)

/-- The row block [64, 128] spread over the columns reads, at (c, p, q), the block at (c, p). -/
theorem rowsB_apply (v : (⟨2, ![64, 128]⟩ : Shape).Idx → α) (h0 : (⟨2, ![64, 128]⟩ : Shape).ShapeCasts ⟨2, ![64, 128]⟩)
    (h1 : (⟨2, ![64, 128]⟩ : Shape).ShapeCasts ⟨3, ![64, 128, 1]⟩)
    (h2 : (⟨3, ![64, 128, 1]⟩ : Shape).Broadcasts ⟨3, ![64, 128, 128]⟩) (c : Fin 64) (p q : Fin 128) :
    broadcastTo ⟨3, ![64, 128, 128]⟩ (shapeCast ⟨3, ![64, 128, 1]⟩ (shapeCast ⟨2, ![64, 128]⟩ v h0) h1) h2 (ix3 c p q)
      = v (ix2 c p) := by
  rw [shapeCast_self]
  refine (broadcastTo_apply _ h2 (ix3 c p q) (ix3 c p (0 : Fin 1)) fun ax => ?_).trans ?_
  · match ax with
    | ⟨0, _⟩ => rfl
    | ⟨1, _⟩ => rfl
    | ⟨2, _⟩ => rfl
  · exact shapeCast_apply v h1 _ (ix2 c p) (by
      rw [Shape.rowMajor_val_two, Shape.rowMajor_val_three]
      show c.val * 128 + p.val = (c.val * 128 + p.val) * 1 + 0
      omega)

/-- The column block [64, 128] spread over the rows reads, at (c, p, q), the block at (c, q). -/
theorem colsB_apply (v : (⟨2, ![64, 128]⟩ : Shape).Idx → α) (h0 : (⟨2, ![64, 128]⟩ : Shape).ShapeCasts ⟨2, ![64, 128]⟩)
    (h1 : (⟨2, ![64, 128]⟩ : Shape).ShapeCasts ⟨3, ![64, 1, 128]⟩)
    (h2 : (⟨3, ![64, 1, 128]⟩ : Shape).Broadcasts ⟨3, ![64, 128, 128]⟩) (c : Fin 64) (p q : Fin 128) :
    broadcastTo ⟨3, ![64, 128, 128]⟩ (shapeCast ⟨3, ![64, 1, 128]⟩ (shapeCast ⟨2, ![64, 128]⟩ v h0) h1) h2 (ix3 c p q)
      = v (ix2 c q) := by
  rw [shapeCast_self]
  refine (broadcastTo_apply _ h2 (ix3 c p q) (ix3 c (0 : Fin 1) q) fun ax => ?_).trans ?_
  · match ax with
    | ⟨0, _⟩ => rfl
    | ⟨1, _⟩ => rfl
    | ⟨2, _⟩ => rfl
  · exact shapeCast_apply v h1 _ (ix2 c q) (by
      rw [Shape.rowMajor_val_two, Shape.rowMajor_val_three]
      show c.val * 128 + q.val = (c.val * 1 + 0) * 128 + q.val
      omega)

end Layout

/-! ## The operations of a layer as functions of their operands -/

section Defs
variable {C K O N : ℕ}

/-- The pairwise absolute differences of a row block and a column block, flattened to lanes. -/
def adjV (x0 x1 : FVec Ideal ⟨2, ![64, 128]⟩ .f32) (h0 : (⟨2, ![64, 128]⟩ : Shape).ShapeCasts ⟨2, ![64, 128]⟩)
    (hr : (⟨2, ![64, 128]⟩ : Shape).ShapeCasts ⟨3, ![64, 128, 1]⟩) (hc : (⟨2, ![64, 128]⟩ : Shape).ShapeCasts ⟨3, ![64, 1, 128]⟩)
    (hbr : (⟨3, ![64, 128, 1]⟩ : Shape).Broadcasts ⟨3, ![64, 128, 128]⟩)
    (hbc : (⟨3, ![64, 1, 128]⟩ : Shape).Broadcasts ⟨3, ![64, 128, 128]⟩)
    (hf : (⟨3, ![64, 128, 128]⟩ : Shape).ShapeCasts ⟨2, ![64, 16384]⟩) (hb : FTy.bits .bf16 < FTy.bits .f32) :
    FVec Ideal ⟨2, ![64, 16384]⟩ .bf16 :=
  truncf .bf16 (shapeCast ⟨2, ![64, 16384]⟩ (absf (subf
    (broadcastTo ⟨3, ![64, 128, 128]⟩ (shapeCast ⟨3, ![64, 128, 1]⟩ (shapeCast ⟨2, ![64, 128]⟩ x0 h0) hr) hbr)
    (broadcastTo ⟨3, ![64, 128, 128]⟩ (shapeCast ⟨3, ![64, 1, 128]⟩ (shapeCast ⟨2, ![64, 128]⟩ x1 h0) hc) hbc))) hf) hb

/-- The matrix product of the weights with a block, into zeros, plus the bias along the lanes. -/
def linV (D : DotDims ⟨2, ![O, K]⟩ ⟨2, ![K, N]⟩ ⟨2, ![O, N]⟩) (W : FVec Ideal ⟨2, ![O, K]⟩ .f32)
    (A : FVec Ideal ⟨2, ![K, N]⟩ .bf16) (b : FVec Ideal ⟨1, ![O]⟩ .f32) (hb : FTy.bits .bf16 < FTy.bits .f32)
    (h1 : (⟨1, ![O]⟩ : Shape).ShapeCasts ⟨2, ![O, 1]⟩) (h2 : (⟨2, ![O, 1]⟩ : Shape).Broadcasts ⟨2, ![O, N]⟩) :
    FVec Ideal ⟨2, ![O, N]⟩ .f32 :=
  addf (matmul D none (truncf .bf16 W hb) A (constant (F := Ideal) ⟨2, ![O, N]⟩ .f32 0x00000000#32))
    (broadcastTo ⟨2, ![O, N]⟩ (shapeCast ⟨2, ![O, 1]⟩ b h1) h2)

/-- The leaky rectifier of a block: the block where it is at least zero, the block times the slope elsewhere. -/
def leakyV {s : Shape} (h : FVec Ideal s .f32) : FVec Ideal s .f32 :=
  select (cmpf .oge h (broadcast s (Scalar.ofBits (F := Ideal) .f32 0x00000000#32))) h
    (mulf h (broadcast s (Scalar.ofBits (F := Ideal) .f32 0x3C23D70A#32)))

/-- The per-channel scale and shift of a block, then the leaky rectifier. -/
def actV (Z : FVec Ideal ⟨2, ![C, N]⟩ .f32) (sc bi : FVec Ideal ⟨1, ![C]⟩ .f32)
    (hs : (⟨1, ![C]⟩ : Shape).ShapeCasts ⟨1, ![C]⟩) (h1 : (⟨1, ![C]⟩ : Shape).ShapeCasts ⟨2, ![C, 1]⟩)
    (h2 : (⟨2, ![C, 1]⟩ : Shape).Broadcasts ⟨2, ![C, N]⟩) (hb : FTy.bits .bf16 < FTy.bits .f32) :
    FVec Ideal ⟨2, ![C, N]⟩ .bf16 :=
  truncf .bf16 (leakyV (addf
    (mulf Z (broadcastTo ⟨2, ![C, N]⟩ (shapeCast ⟨2, ![C, 1]⟩ (shapeCast ⟨1, ![C]⟩ sc hs) h1) h2))
    (broadcastTo ⟨2, ![C, N]⟩ (shapeCast ⟨2, ![C, 1]⟩ (shapeCast ⟨1, ![C]⟩ bi hs) h1) h2))) hb

/-- The sum of a block over its lanes, added to an accumulator of shape [1, 1, C]: the accumulator first. -/
def sumV (Z : FVec Ideal ⟨2, ![C, N]⟩ .f32) (acc : FVec Ideal ⟨3, ![1, 1, C]⟩ .f32)
    (hr : (⟨2, ![C, N]⟩ : Shape).Reduces [1] ⟨1, ![C]⟩) (ha : (⟨3, ![1, 1, C]⟩ : Shape).ShapeCasts ⟨3, ![1, 1, C]⟩)
    (hc : (⟨1, ![C]⟩ : Shape).ShapeCasts ⟨3, ![1, 1, C]⟩) : FVec Ideal ⟨3, ![1, 1, C]⟩ .f32 :=
  addf (shapeCast ⟨3, ![1, 1, C]⟩ acc ha)
    (shapeCast ⟨3, ![1, 1, C]⟩ (multiReduction .add [1] ⟨1, ![C]⟩ Z 0x00000000#32 hr (.inl rfl) rfl) hc)

end Defs

/-! ## The same operations read at an index over the reals -/

section Values
variable {C K O N : ℕ}

/-- The coercion of a maximum of reals is the maximum of the coercions. -/
theorem coe_max' (a b : ℝ) : ((max a b : ℝ) : EReal) = max ((a : ℝ) : EReal) ((b : ℝ) : EReal) :=
  EReal.coe_strictMono.monotone.map_max

/-- The absolute differences at (c, lane p q). -/
theorem adjV_apply (x0 x1 : FVec Ideal ⟨2, ![64, 128]⟩ .f32) (r0 r1 : Fin 64 → Fin 128 → ℝ)
    (e0 : ∀ c p, x0 (ix2 c p) = ((r0 c p : ℝ) : EReal)) (e1 : ∀ c q, x1 (ix2 c q) = ((r1 c q : ℝ) : EReal))
    (h0 : (⟨2, ![64, 128]⟩ : Shape).ShapeCasts ⟨2, ![64, 128]⟩)
    (hr : (⟨2, ![64, 128]⟩ : Shape).ShapeCasts ⟨3, ![64, 128, 1]⟩) (hc : (⟨2, ![64, 128]⟩ : Shape).ShapeCasts ⟨3, ![64, 1, 128]⟩)
    (hbr : (⟨3, ![64, 128, 1]⟩ : Shape).Broadcasts ⟨3, ![64, 128, 128]⟩)
    (hbc : (⟨3, ![64, 1, 128]⟩ : Shape).Broadcasts ⟨3, ![64, 128, 128]⟩)
    (hf : (⟨3, ![64, 128, 128]⟩ : Shape).ShapeCasts ⟨2, ![64, 16384]⟩) (hb : FTy.bits .bf16 < FTy.bits .f32)
    (c : Fin 64) (p q : Fin 128) :
    adjV x0 x1 h0 hr hc hbr hbc hf hb (ix2 c (lane p q)) = ((tfeat r0 r1 p q c : ℝ) : EReal) := by
  unfold adjV
  rw [truncf_apply, flatten_apply]
  show max (broadcastTo ⟨3, ![64, 128, 128]⟩ _ hbr (ix3 c p q) - broadcastTo ⟨3, ![64, 128, 128]⟩ _ hbc (ix3 c p q))
      (-(broadcastTo ⟨3, ![64, 128, 128]⟩ _ hbr (ix3 c p q) - broadcastTo ⟨3, ![64, 128, 128]⟩ _ hbc (ix3 c p q))) = _
  rw [rowsB_apply, colsB_apply, e0, e1, ← EReal.coe_sub, ← EReal.coe_neg, ← coe_max']
  unfold tfeat
  rw [abs_eq_max_neg]

/-- A one-axis matrix product into zeros at (o, L): the sum over the contraction coordinate. -/
theorem mm_apply (D : DotDims ⟨2, ![O, K]⟩ ⟨2, ![K, N]⟩ ⟨2, ![O, N]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    {φ₁ φ₂ : FTy} (lhs : FVec Ideal ⟨2, ![O, K]⟩ φ₁) (rhs : FVec Ideal ⟨2, ![K, N]⟩ φ₂) (o : Fin O) (L : Fin N) :
    matmul D prec lhs rhs (constant (F := Ideal) ⟨2, ![O, N]⟩ .f32 0x00000000#32) (ix2 o L)
      = ∑ k : Fin K, lhs (ix2 o k) * rhs (ix2 k L) := by
  simp only [matmul]
  rw [Ideal.matmul_constant_zero_apply, ← Equiv.sum_comp (contrEquiv1 D K hr hs).symm]
  refine Finset.sum_congr rfl fun t _ => ?_
  have hk := contrEquiv1_symm_val D K hr hs t
  have el : D.lhsIdx (ix2 o L) ((contrEquiv1 D K hr hs).symm t) = ix2 o t := funext fun ax => Fin.ext (by
    match ax with
    | ⟨0, _⟩ => exact hl0 _ _
    | ⟨1, _⟩ => exact (hl1 _ _).trans hk)
  have er : D.rhsIdx (ix2 o L) ((contrEquiv1 D K hr hs).symm t) = ix2 t L := funext fun ax => Fin.ext (by
    match ax with
    | ⟨0, _⟩ => exact (hr0 _ _).trans hk
    | ⟨1, _⟩ => exact hr1 _ _)
  rw [el, er]

/-- The linear layer at (o, L) over a real block: `Cert.Spec.lin` of the block's column. -/
theorem linV_apply (D : DotDims ⟨2, ![O, K]⟩ ⟨2, ![K, N]⟩ ⟨2, ![O, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (W : FVec Ideal ⟨2, ![O, K]⟩ .f32) (A : FVec Ideal ⟨2, ![K, N]⟩ .bf16) (b : FVec Ideal ⟨1, ![O]⟩ .f32)
    (hb : FTy.bits .bf16 < FTy.bits .f32) (h1 : (⟨1, ![O]⟩ : Shape).ShapeCasts ⟨2, ![O, 1]⟩)
    (h2 : (⟨2, ![O, 1]⟩ : Shape).Broadcasts ⟨2, ![O, N]⟩)
    (w : Fin O → Fin K → ℝ) (β : Fin O → ℝ) (a : Fin K → ℝ) (o : Fin O) (L : Fin N)
    (eW : ∀ k, W (ix2 o k) = ((w o k : ℝ) : EReal)) (eb : b (ix1 o) = ((β o : ℝ) : EReal))
    (eA : ∀ k, A (ix2 k L) = ((a k : ℝ) : EReal)) :
    linV D W A b hb h1 h2 (ix2 o L) = ((Cert.Spec.lin w β a o : ℝ) : EReal) := by
  unfold linV
  rw [addf_apply, mm_apply D none hr hs hl0 hl1 hr0 hr1, colB_apply, eb]
  unfold Cert.Spec.lin
  rw [EReal.coe_add, coe_sum]
  congr 1
  refine Finset.sum_congr rfl fun k _ => ?_
  rw [truncf_apply, eW, eA, ← EReal.coe_mul, mul_comm]

/-- The rectifier of a real, as the kernels compute it. -/
theorem leaky_coe (y : ℝ) :
    Scalar.select (FloatOps.cmpf (F := Ideal) (φ := .f32) .oge ((y : ℝ) : EReal) (Scalar.ofBits (F := Ideal) .f32 0x00000000#32))
        (((y : ℝ) : EReal) : Ideal .f32) ((((y : ℝ) : EReal) : Ideal .f32) * Scalar.ofBits (F := Ideal) .f32 0x3C23D70A#32)
      = ((Cert.Spec.leaky y : ℝ) : EReal) := by
  have hs : ∀ b : BitVec 32, Scalar.ofBits (F := Ideal) .f32 b = Ideal.ofBits .f32 b := fun _ => rfl
  rw [hs, hs, Ideal.ofBits_zero_f32, ← Cert.Spec.slope_coe, Ideal.cmpf_def, leaky_mul_comm]
  unfold Ideal.cmp Scalar.select
  by_cases h : 0 ≤ y
  · have h' : (0 : EReal) ≤ ((y : ℝ) : EReal) := EReal.coe_nonneg.mpr h
    simp [h, h']
  · have h' : ¬ (0 : EReal) ≤ ((y : ℝ) : EReal) := fun hh => h (EReal.coe_nonneg.mp hh)
    rw [if_neg h, EReal.coe_mul]
    simp [h']

/-- The rectifier of a block at an index where the block is a real. -/
theorem leakyV_apply {s : Shape} (h : FVec Ideal s .f32) (i : s.Idx) (y : ℝ) (e : h i = ((y : ℝ) : EReal)) :
    leakyV h i = ((Cert.Spec.leaky y : ℝ) : EReal) := by
  unfold leakyV
  rw [select_apply, cmpf_apply, mulf_apply, broadcast_apply, broadcast_apply, e]
  exact leaky_coe y

/-- The activation at (o, L) over a real block. -/
theorem actV_apply (Z : FVec Ideal ⟨2, ![C, N]⟩ .f32) (sc bi : FVec Ideal ⟨1, ![C]⟩ .f32)
    (hs : (⟨1, ![C]⟩ : Shape).ShapeCasts ⟨1, ![C]⟩) (h1 : (⟨1, ![C]⟩ : Shape).ShapeCasts ⟨2, ![C, 1]⟩)
    (h2 : (⟨2, ![C, 1]⟩ : Shape).Broadcasts ⟨2, ![C, N]⟩) (hb : FTy.bits .bf16 < FTy.bits .f32)
    (z : Fin C → ℝ) (σ τ : Fin C → ℝ) (o : Fin C) (L : Fin N)
    (eZ : Z (ix2 o L) = ((z o : ℝ) : EReal)) (es : sc (ix1 o) = ((σ o : ℝ) : EReal)) (et : bi (ix1 o) = ((τ o : ℝ) : EReal)) :
    actV Z sc bi hs h1 h2 hb (ix2 o L) = ((act σ τ z o : ℝ) : EReal) := by
  unfold actV
  rw [truncf_apply]
  refine leakyV_apply _ _ (z o * σ o + τ o) ?_
  rw [addf_apply, mulf_apply, colB_apply, colB_apply, shapeCast_self, shapeCast_self, eZ, es, et, ← EReal.coe_mul, ← EReal.coe_add]

/-- The lane sum added to an accumulator, at (0, 0, o): the accumulator there plus the sum over the lanes. -/
theorem sumV_apply (Z : FVec Ideal ⟨2, ![C, N]⟩ .f32) (acc : FVec Ideal ⟨3, ![1, 1, C]⟩ .f32)
    (hr : (⟨2, ![C, N]⟩ : Shape).Reduces [1] ⟨1, ![C]⟩) (ha : (⟨3, ![1, 1, C]⟩ : Shape).ShapeCasts ⟨3, ![1, 1, C]⟩)
    (hc : (⟨1, ![C]⟩ : Shape).ShapeCasts ⟨3, ![1, 1, C]⟩) (u v : Fin 1) (o : Fin C) :
    sumV Z acc hr ha hc (ix3 u v o) = acc (ix3 u v o) + ∑ L : Fin N, Z (ix2 o L) := by
  unfold sumV
  rw [addf_apply, shapeCast_self, castAcc_apply]
  congr 1
  refine (Ideal.multiReduction_add_single Z 0x00000000#32 hr _ _ (ix1 o)).trans ?_
  refine Finset.sum_congr rfl fun L _ => ?_
  have e : hr.lift (ix1 o) L = ix2 o L := funext fun ax => Fin.ext (by
    match ax with
    | ⟨0, _⟩ => rfl
    | ⟨1, _⟩ => rfl)
  exact congrArg Z e

/-- Over a tile's 16384 lanes and a real block: the accumulator plus the double sum over the pairs. -/
theorem sumV_tile_apply (Z : FVec Ideal ⟨2, ![C, 16384]⟩ .f32) (acc : FVec Ideal ⟨3, ![1, 1, C]⟩ .f32)
    (hr : (⟨2, ![C, 16384]⟩ : Shape).Reduces [1] ⟨1, ![C]⟩) (ha : (⟨3, ![1, 1, C]⟩ : Shape).ShapeCasts ⟨3, ![1, 1, C]⟩)
    (hc : (⟨1, ![C]⟩ : Shape).ShapeCasts ⟨3, ![1, 1, C]⟩) (z : Fin 128 → Fin 128 → ℝ) (s : ℝ) (u v : Fin 1) (o : Fin C)
    (eZ : ∀ p q, Z (ix2 o (lane p q)) = ((z p q : ℝ) : EReal)) (ea : acc (ix3 u v o) = ((s : ℝ) : EReal)) :
    sumV Z acc hr ha hc (ix3 u v o) = ((s + ∑ p : Fin 128, ∑ q : Fin 128, z p q : ℝ) : EReal) := by
  rw [sumV_apply, ea, sum_lanes, EReal.coe_add, coe_sum]
  congr 1
  refine Finset.sum_congr rfl fun p _ => ?_
  rw [coe_sum]
  exact Finset.sum_congr rfl fun q _ => eZ p q

/-- The product of a real block with itself at an index: the square. -/
theorem sq_apply {s : Shape} (Z : FVec Ideal s .f32) (i : s.Idx) (y : ℝ) (e : Z i = ((y : ℝ) : EReal)) :
    mulf Z Z i = ((y ^ 2 : ℝ) : EReal) := by
  rw [mulf_apply, e, ← EReal.coe_mul, sq]

end Values

end Cert.KernelIdeal.Val

end
-- ==== Proof.Val.Chain.lean ====
/-
  The five layers of a tile as blocks of extended reals, and their values over the reals.

  The kernels compute each layer on a block of shape [channels, 16384]: the absolute differences of a row block and a
  column block, then alternately a linear layer and an activation. Here the chain is written once, over the coercions of
  real blocks, from the operations of a layer; at channel o and lane 128 p + q each block is the coercion of the
  corresponding real quantity of the tile at the pair (p, q).
-/
import proofs.«135850_j19774029431551_2_alg».proof.Proof.Gen.KernelIdeal.Skeleton
import proofs.«135850_j19774029431551_2_alg».proof.Proof.Val.Ops

noncomputable section

namespace Cert.KernelIdeal.Val

open Cert.KernelIdeal Cert.KernelIdeal.Gen
open Idealize.ShloMosaic Idealize.ShloMosaic.ValueIdx
open scoped BigOperators

variable (x0 x1 : Fin 64 → Fin 128 → ℝ)
  (W1 : Fin 16 → Fin 64 → ℝ) (b1 sc1 bi1 : Fin 16 → ℝ) (W2 : Fin 16 → Fin 16 → ℝ) (b2 sc2 bi2 : Fin 16 → ℝ)
  (W3 : Fin 8 → Fin 16 → ℝ) (b3 sc3 bi3 : Fin 8 → ℝ) (W4 : Fin 8 → Fin 8 → ℝ) (b4 sc4 bi4 : Fin 8 → ℝ)
  (W5 : Fin 1 → Fin 8 → ℝ) (b5 : Fin 1 → ℝ)

/-! ## The blocks -/

/-- The absolute differences, [64, 16384]. -/
def adj0V : FVec Ideal S64x16384 .bf16 :=
  adjV (blk2 x0) (blk2 x1) shapeCasts_S64x128_S64x128 shapeCasts_S64x128_S64x128x1 shapeCasts_S64x128_S64x1x128
    broadcasts_S64x128x1_S64x128x128 broadcasts_S64x1x128_S64x128x128 shapeCasts_S64x128x128_S64x16384 bitsLt_bf16_f32

/-- The first linear layer, [16, 16384]. -/
def raw1V : FVec Ideal S16x16384 .f32 :=
  linV dot_S16x64_S64x16384_S16x16384_1_0_0_1_n_n (blk2 W1) (adj0V x0 x1) (blk1 b1) bitsLt_bf16_f32
    shapeCasts_S16_S16x1 broadcasts_S16x1_S16x16384

/-- The first activation, [16, 16384]. -/
def act1V : FVec Ideal S16x16384 .bf16 :=
  actV (raw1V x0 x1 W1 b1) (blk1 sc1) (blk1 bi1) shapeCasts_S16_S16 shapeCasts_S16_S16x1 broadcasts_S16x1_S16x16384
    bitsLt_bf16_f32

/-- The second linear layer, [16, 16384]. -/
def raw2V : FVec Ideal S16x16384 .f32 :=
  linV dot_S16x16_S16x16384_S16x16384_1_0_0_1_n_n (blk2 W2) (act1V x0 x1 W1 b1 sc1 bi1) (blk1 b2) bitsLt_bf16_f32
    shapeCasts_S16_S16x1 broadcasts_S16x1_S16x16384

/-- The second activation, [16, 16384]. -/
def act2V : FVec Ideal S16x16384 .bf16 :=
  actV (raw2V x0 x1 W1 b1 sc1 bi1 W2 b2) (blk1 sc2) (blk1 bi2) shapeCasts_S16_S16 shapeCasts_S16_S16x1 broadcasts_S16x1_S16x16384
    bitsLt_bf16_f32

/-- The third linear layer, [8, 16384]. -/
def raw3V : FVec Ideal S8x16384 .f32 :=
  linV dot_S8x16_S16x16384_S8x16384_1_0_0_1_n_n (blk2 W3) (act2V x0 x1 W1 b1 sc1 bi1 W2 b2 sc2 bi2) (blk1 b3) bitsLt_bf16_f32
    shapeCasts_S8_S8x1 broadcasts_S8x1_S8x16384

/-- The third activation, [8, 16384]. -/
def act3V : FVec Ideal S8x16384 .bf16 :=
  actV (raw3V x0 x1 W1 b1 sc1 bi1 W2 b2 sc2 bi2 W3 b3) (blk1 sc3) (blk1 bi3) shapeCasts_S8_S8 shapeCasts_S8_S8x1 broadcasts_S8x1_S8x16384
    bitsLt_bf16_f32

/-- The fourth linear layer, [8, 16384]. -/
def raw4V : FVec Ideal S8x16384 .f32 :=
  linV dot_S8x8_S8x16384_S8x16384_1_0_0_1_n_n (blk2 W4) (act3V x0 x1 W1 b1 sc1 bi1 W2 b2 sc2 bi2 W3 b3 sc3 bi3) (blk1 b4) bitsLt_bf16_f32
    shapeCasts_S8_S8x1 broadcasts_S8x1_S8x16384

/-- The fourth activation, [8, 16384]. -/
def act4V : FVec Ideal S8x16384 .bf16 :=
  actV (raw4V x0 x1 W1 b1 sc1 bi1 W2 b2 sc2 bi2 W3 b3 sc3 bi3 W4 b4) (blk1 sc4) (blk1 bi4) shapeCasts_S8_S8 shapeCasts_S8_S8x1 broadcasts_S8x1_S8x16384
    bitsLt_bf16_f32

/-- The last linear layer, [1, 16384]. -/
def raw5V : FVec Ideal S1x16384 .f32 :=
  linV dot_S1x8_S8x16384_S1x16384_1_0_0_1_n_n (blk2 W5) (act4V x0 x1 W1 b1 sc1 bi1 W2 b2 sc2 bi2 W3 b3 sc3 bi3 W4 b4 sc4 bi4) (blk1 b5) bitsLt_bf16_f32
    shapeCasts_S1_S1x1 broadcasts_S1x1_S1x16384

/-! ## Their values at channel o and lane 128 p + q -/

variable (p q : Fin 128)

theorem adj0V_apply (c : Fin 64) :
    adj0V x0 x1 (ix2 c (lane p q)) = ((tfeat x0 x1 p q c : ℝ) : EReal) :=
  adjV_apply _ _ x0 x1 (fun _ _ => rfl) (fun _ _ => rfl) _ _ _ _ _ _ _ c p q

theorem raw1V_apply (o : Fin 16) :
    raw1V x0 x1 W1 b1 (ix2 o (lane p q)) = ((raw1 x0 x1 W1 b1 p q o : ℝ) : EReal) :=
  linV_apply _ rfl rfl (fun _ _ => rfl) (fun _ _ => rfl) (fun _ _ => rfl) (fun _ _ => rfl) _ _ _ _ _ _ W1 b1 (tfeat x0 x1 p q) o (lane p q)
    (fun _ => rfl) rfl (fun k => adj0V_apply x0 x1 p q k)

theorem act1V_apply (o : Fin 16) :
    act1V x0 x1 W1 b1 sc1 bi1 (ix2 o (lane p q)) = ((act sc1 bi1 (raw1 x0 x1 W1 b1 p q) o : ℝ) : EReal) :=
  actV_apply _ _ _ _ _ _ _ (raw1 x0 x1 W1 b1 p q) sc1 bi1 o (lane p q) (raw1V_apply x0 x1 W1 b1 p q o) rfl rfl

theorem raw2V_apply (o : Fin 16) :
    raw2V x0 x1 W1 b1 sc1 bi1 W2 b2 (ix2 o (lane p q)) = ((raw2 x0 x1 W1 b1 sc1 bi1 W2 b2 p q o : ℝ) : EReal) :=
  linV_apply _ rfl rfl (fun _ _ => rfl) (fun _ _ => rfl) (fun _ _ => rfl) (fun _ _ => rfl) _ _ _ _ _ _ W2 b2 (act sc1 bi1 (raw1 x0 x1 W1 b1 p q)) o (lane p q)
    (fun _ => rfl) rfl (fun k => act1V_apply x0 x1 W1 b1 sc1 bi1 p q k)

theorem act2V_apply (o : Fin 16) :
    act2V x0 x1 W1 b1 sc1 bi1 W2 b2 sc2 bi2 (ix2 o (lane p q)) = ((act sc2 bi2 (raw2 x0 x1 W1 b1 sc1 bi1 W2 b2 p q) o : ℝ) : EReal) :=
  actV_apply _ _ _ _ _ _ _ (raw2 x0 x1 W1 b1 sc1 bi1 W2 b2 p q) sc2 bi2 o (lane p q) (raw2V_apply x0 x1 W1 b1 sc1 bi1 W2 b2 p q o) rfl rfl

theorem raw3V_apply (o : Fin 8) :
    raw3V x0 x1 W1 b1 sc1 bi1 W2 b2 sc2 bi2 W3 b3 (ix2 o (lane p q)) = ((raw3 x0 x1 W1 b1 sc1 bi1 W2 b2 sc2 bi2 W3 b3 p q o : ℝ) : EReal) :=
  linV_apply _ rfl rfl (fun _ _ => rfl) (fun _ _ => rfl) (fun _ _ => rfl) (fun _ _ => rfl) _ _ _ _ _ _ W3 b3 (act sc2 bi2 (raw2 x0 x1 W1 b1 sc1 bi1 W2 b2 p q)) o (lane p q)
    (fun _ => rfl) rfl (fun k => act2V_apply x0 x1 W1 b1 sc1 bi1 W2 b2 sc2 bi2 p q k)

theorem act3V_apply (o : Fin 8) :
    act3V x0 x1 W1 b1 sc1 bi1 W2 b2 sc2 bi2 W3 b3 sc3 bi3 (ix2 o (lane p q)) = ((act sc3 bi3 (raw3 x0 x1 W1 b1 sc1 bi1 W2 b2 sc2 bi2 W3 b3 p q) o : ℝ) : EReal) :=
  actV_apply _ _ _ _ _ _ _ (raw3 x0 x1 W1 b1 sc1 bi1 W2 b2 sc2 bi2 W3 b3 p q) sc3 bi3 o (lane p q) (raw3V_apply x0 x1 W1 b1 sc1 bi1 W2 b2 sc2 bi2 W3 b3 p q o) rfl rfl

theorem raw4V_apply (o : Fin 8) :
    raw4V x0 x1 W1 b1 sc1 bi1 W2 b2 sc2 bi2 W3 b3 sc3 bi3 W4 b4 (ix2 o (lane p q)) = ((raw4 x0 x1 W1 b1 sc1 bi1 W2 b2 sc2 bi2 W3 b3 sc3 bi3 W4 b4 p q o : ℝ) : EReal) :=
  linV_apply _ rfl rfl (fun _ _ => rfl) (fun _ _ => rfl) (fun _ _ => rfl) (fun _ _ => rfl) _ _ _ _ _ _ W4 b4 (act sc3 bi3 (raw3 x0 x1 W1 b1 sc1 bi1 W2 b2 sc2 bi2 W3 b3 p q)) o (lane p q)
    (fun _ => rfl) rfl (fun k => act3V_apply x0 x1 W1 b1 sc1 bi1 W2 b2 sc2 bi2 W3 b3 sc3 bi3 p q k)

theorem act4V_apply (o : Fin 8) :
    act4V x0 x1 W1 b1 sc1 bi1 W2 b2 sc2 bi2 W3 b3 sc3 bi3 W4 b4 sc4 bi4 (ix2 o (lane p q)) = ((act sc4 bi4 (raw4 x0 x1 W1 b1 sc1 bi1 W2 b2 sc2 bi2 W3 b3 sc3 bi3 W4 b4 p q) o : ℝ) : EReal) :=
  actV_apply _ _ _ _ _ _ _ (raw4 x0 x1 W1 b1 sc1 bi1 W2 b2 sc2 bi2 W3 b3 sc3 bi3 W4 b4 p q) sc4 bi4 o (lane p q) (raw4V_apply x0 x1 W1 b1 sc1 bi1 W2 b2 sc2 bi2 W3 b3 sc3 bi3 W4 b4 p q o) rfl rfl

theorem raw5V_apply (o : Fin 1) :
    raw5V x0 x1 W1 b1 sc1 bi1 W2 b2 sc2 bi2 W3 b3 sc3 bi3 W4 b4 sc4 bi4 W5 b5 (ix2 o (lane p q)) = ((raw5 x0 x1 W1 b1 sc1 bi1 W2 b2 sc2 bi2 W3 b3 sc3 bi3 W4 b4 sc4 bi4 W5 b5 p q o : ℝ) : EReal) :=
  linV_apply _ rfl rfl (fun _ _ => rfl) (fun _ _ => rfl) (fun _ _ => rfl) (fun _ _ => rfl) _ _ _ _ _ _ W5 b5 (act sc4 bi4 (raw4 x0 x1 W1 b1 sc1 bi1 W2 b2 sc2 bi2 W3 b3 sc3 bi3 W4 b4 p q)) o (lane p q)
    (fun _ => rfl) rfl (fun k => act4V_apply x0 x1 W1 b1 sc1 bi1 W2 b2 sc2 bi2 W3 b3 sc3 bi3 W4 b4 sc4 bi4 p q k)

end Cert.KernelIdeal.Val

end
-- ==== Proof.Val.K0.lean ====
/-
  The first statistics kernel's stored values on a tile.

  On a tile the kernel adds to its two accumulators, per channel, the sum over the 128 x 128 pairs of the first linear
  layer and the sum of its squares; each sum is added to the accumulator's loaded value, the accumulator on the left.
-/
import proofs.«135850_j19774029431551_2_alg».proof.Proof.Val.Chain

noncomputable section

namespace Cert.KernelIdeal.Val

open Cert.KernelIdeal Cert.KernelIdeal.Gen
open Idealize.ShloMosaic Idealize.ShloMosaic.ValueIdx
open scoped BigOperators

variable (x0 x1 : Fin 64 → Fin 128 → ℝ) (W1 : Fin 16 → Fin 64 → ℝ) (b1 : Fin 16 → ℝ)

/-- The block the kernel sums is the first linear layer. -/
theorem k0_pay3_eq : Gen.k0_pay3 (F := Ideal) (blk2 x0) (blk2 x1) (blk2 W1) (blk1 b1) = raw1V x0 x1 W1 b1 := rfl

/-- The stored sum: the accumulator plus the sum over the pairs of the first linear layer. -/
theorem k0_pay4_apply (s : Fin 16 → ℝ) (u v : Fin 1) (o : Fin 16) :
    Gen.k0_pay4 (F := Ideal) (blk2 x0) (blk2 x1) (blk2 W1) (blk1 b1) (blkAcc s) (ix3 u v o)
      = ((s o + ∑ p : Fin 128, ∑ q : Fin 128, raw1 x0 x1 W1 b1 p q o : ℝ) : EReal) := by
  have e : Gen.k0_pay4 (F := Ideal) (blk2 x0) (blk2 x1) (blk2 W1) (blk1 b1) (blkAcc s)
      = sumV (raw1V x0 x1 W1 b1) (blkAcc s) reduces_S16x16384_S16 shapeCasts_S1x1x16_S1x1x16 shapeCasts_S16_S1x1x16 := rfl
  rw [e]
  exact sumV_tile_apply _ _ _ _ _ (fun p q => raw1 x0 x1 W1 b1 p q o) (s o) u v o
    (fun p q => raw1V_apply x0 x1 W1 b1 p q o) rfl

/-- The stored sum of squares: the accumulator plus the sum over the pairs of the squares. -/
theorem k0_pay5_apply (s : Fin 16 → ℝ) (u v : Fin 1) (o : Fin 16) :
    Gen.k0_pay5 (F := Ideal) (blk2 x0) (blk2 x1) (blk2 W1) (blk1 b1) (blkAcc s) (ix3 u v o)
      = ((s o + ∑ p : Fin 128, ∑ q : Fin 128, (raw1 x0 x1 W1 b1 p q o) ^ 2 : ℝ) : EReal) := by
  have e : Gen.k0_pay5 (F := Ideal) (blk2 x0) (blk2 x1) (blk2 W1) (blk1 b1) (blkAcc s)
      = sumV (mulf (raw1V x0 x1 W1 b1) (raw1V x0 x1 W1 b1)) (blkAcc s) reduces_S16x16384_S16 shapeCasts_S1x1x16_S1x1x16 shapeCasts_S16_S1x1x16 := rfl
  rw [e]
  exact sumV_tile_apply _ _ _ _ _ (fun p q => (raw1 x0 x1 W1 b1 p q o) ^ 2) (s o) u v o
    (fun p q => sq_apply _ _ _ (raw1V_apply x0 x1 W1 b1 p q o)) rfl

/-- The value the first step of a column of tiles stores: zero everywhere. -/
theorem k0_pay1_eq : Gen.k0_pay1 (F := Ideal) = fun _ => (0 : EReal) :=
  funext fun _ => Ideal.ofBits_zero_f32

/-- The value the first step of a column of tiles stores: zero everywhere. -/
theorem k0_pay2_eq : Gen.k0_pay2 (F := Ideal) = fun _ => (0 : EReal) :=
  funext fun _ => Ideal.ofBits_zero_f32

end Cert.KernelIdeal.Val

end
-- ==== Proof.Val.Affine.lean ====
/- The kernel's way of normalising, over the real numbers: per-channel totals and totals of squares accumulated
   row block by row block (twelve blocks of 128 rows, all columns), the mean and the variance formed from them as
   second moment minus squared mean, and batch normalisation applied as one multiply-add per element. It is the
   same function as the centred form of the specification. -/
import Mathlib.Tactic
import proofs.«135850_j19774029431551_2_alg».proof.Proof.Spec
import proofs.«135850_j19774029431551_2_alg».proof.Proof.LibBatchVariance

noncomputable section

namespace Cert.Val

open Idealize.ShloMosaic.BatchStats (centred_eq_moments)
open scoped BigOperators

variable {C : ℕ}

/-- Row p of row block i. -/
def rowIdx (i : Fin 12) (p : Fin 128) : Fin 1536 := ⟨128 * i.val + p.val, by have := i.isLt; have := p.isLt; omega⟩

/-- The total of channel o over row block i: 128 rows, all columns. -/
def rowTot (z : Fin 1536 → Fin 1536 → Fin C → ℝ) (i : Fin 12) (o : Fin C) : ℝ :=
  ∑ p : Fin 128, ∑ m : Fin 1536, z (rowIdx i p) m o

/-- The total of squares of channel o over row block i. -/
def rowSq (z : Fin 1536 → Fin 1536 → Fin C → ℝ) (i : Fin 12) (o : Fin C) : ℝ :=
  ∑ p : Fin 128, ∑ m : Fin 1536, z (rowIdx i p) m o ^ 2

/-- The mean from the block totals. -/
def kmean (z : Fin 1536 → Fin 1536 → Fin C → ℝ) (o : Fin C) : ℝ := (∑ i : Fin 12, rowTot z i o) / Spec.T

/-- The variance from the block totals: second moment minus squared mean. -/
def kvar (z : Fin 1536 → Fin 1536 → Fin C → ℝ) (o : Fin C) : ℝ :=
  (∑ i : Fin 12, rowSq z i o) / Spec.T - kmean z o * kmean z o

/-- The per-channel multiplier. -/
def kscale (z : Fin 1536 → Fin 1536 → Fin C → ℝ) (g : Fin C → ℝ) (o : Fin C) : ℝ :=
  g o * (1 / Real.sqrt (kvar z o + Spec.eps))

/-- The per-channel offset. -/
def kbias (z : Fin 1536 → Fin 1536 → Fin C → ℝ) (g be : Fin C → ℝ) (o : Fin C) : ℝ :=
  be o - kmean z o * kscale z g o

/-- The 1536 rows are twelve blocks of 128. -/
def rowEquiv : Fin 12 × Fin 128 ≃ Fin 1536 := finProdFinEquiv.trans (finCongr (by norm_num))

theorem rowEquiv_apply (i : Fin 12) (p : Fin 128) : rowEquiv (i, p) = rowIdx i p := by
  apply Fin.ext
  simp [rowEquiv, rowIdx, finProdFinEquiv]
  omega

/-- A sum over all rows is the sum over the blocks of the sums over each block's rows. -/
theorem sum_rows (f : Fin 1536 → ℝ) : ∑ i : Fin 12, ∑ p : Fin 128, f (rowIdx i p) = ∑ n : Fin 1536, f n := by
  rw [← Equiv.sum_comp rowEquiv f, Fintype.sum_prod_type]
  exact Finset.sum_congr rfl fun i _ => Finset.sum_congr rfl fun p _ => by rw [rowEquiv_apply]

theorem kmean_eq (z : Fin 1536 → Fin 1536 → Fin C → ℝ) (o : Fin C) : kmean z o = Spec.mean z o := by
  unfold kmean Spec.mean rowTot
  rw [sum_rows fun n => ∑ m : Fin 1536, z n m o]

/-- The number of positions is the number of index pairs. -/
theorem card_positions : (Fintype.card (Fin 1536 × Fin 1536) : ℝ) = Spec.T := by
  rw [Fintype.card_prod, Fintype.card_fin]
  unfold Spec.T
  norm_num

/-- The specification's centred variance is the second moment minus the squared mean. -/
theorem var_eq_moments (z : Fin 1536 → Fin 1536 → Fin C → ℝ) (o : Fin C) :
    Spec.var z o = (∑ n, ∑ m, z n m o ^ 2) / Spec.T - Spec.mean z o * Spec.mean z o := by
  have h := centred_eq_moments (fun p : Fin 1536 × Fin 1536 => z p.1 p.2 o) Spec.T card_positions Spec.T_pos.ne'
  simp only [Fintype.sum_prod_type] at h
  unfold Spec.var Spec.mean
  simp only [pow_two]
  exact h

theorem kvar_eq (z : Fin 1536 → Fin 1536 → Fin C → ℝ) (o : Fin C) : kvar z o = Spec.var z o := by
  rw [var_eq_moments, kvar, kmean_eq]
  unfold rowSq
  rw [sum_rows fun n => ∑ m : Fin 1536, z n m o ^ 2]

theorem kvar_nonneg (z : Fin 1536 → Fin 1536 → Fin C → ℝ) (o : Fin C) : 0 ≤ kvar z o := by
  rw [kvar_eq]; exact Spec.var_nonneg z o

/-- The same non-negativity spelt over the block totals, as the host operations form it. -/
theorem moments_nonneg (z : Fin 1536 → Fin 1536 → Fin C → ℝ) (o : Fin C) :
    0 ≤ (∑ i : Fin 12, rowSq z i o) / Spec.T
        - (∑ i : Fin 12, rowTot z i o) / Spec.T * ((∑ i : Fin 12, rowTot z i o) / Spec.T) :=
  kvar_nonneg z o

/-- One multiply-add per element is batch normalisation. -/
theorem affine_eq_bn (z : Fin 1536 → Fin 1536 → Fin C → ℝ) (g be : Fin C → ℝ) (n m : Fin 1536) (o : Fin C) :
    z n m o * kscale z g o + kbias z g be o = Spec.bn z g be n m o := by
  unfold kbias kscale Spec.bn
  rw [kmean_eq, kvar_eq]
  ring

/-- … and so the rectified multiply-add is the specification's rectified normalisation. -/
theorem leaky_affine (z : Fin 1536 → Fin 1536 → Fin C → ℝ) (g be : Fin C → ℝ) (n m : Fin 1536) (o : Fin C) :
    Spec.leaky (z n m o * kscale z g o + kbias z g be o) = Spec.leaky (Spec.bn z g be n m o) := by
  rw [affine_eq_bn]

/-- A block of the specification in the kernel's form: the linear map, then one multiply-add, then the rectifier. -/
theorem block_eq_affine {K O : ℕ} (W : Fin O → Fin K → ℝ) (b g be : Fin O → ℝ) (h : Fin 1536 → Fin 1536 → Fin K → ℝ)
    (n m : Fin 1536) (o : Fin O) :
    Spec.block W b g be h n m o
      = Spec.leaky (Spec.conv W b h n m o * kscale (Spec.conv W b h) g o + kbias (Spec.conv W b h) g be o) := by
  rw [leaky_affine]
  rfl

/-- The multiplier spelt over the block totals, as the host operations form it. -/
theorem kscale_eq_moments (z : Fin 1536 → Fin 1536 → Fin C → ℝ) (g : Fin C → ℝ) (o : Fin C) :
    kscale z g o
      = g o * (1 / Real.sqrt ((∑ i : Fin 12, rowSq z i o) / Spec.T
          - (∑ i : Fin 12, rowTot z i o) / Spec.T * ((∑ i : Fin 12, rowTot z i o) / Spec.T) + Spec.eps)) := rfl

/-- The offset spelt over the block totals, as the host operations form it. -/
theorem kbias_eq_moments (z : Fin 1536 → Fin 1536 → Fin C → ℝ) (g be : Fin C → ℝ) (o : Fin C) :
    kbias z g be o
      = be o - (∑ i : Fin 12, rowTot z i o) / Spec.T
          * (g o * (1 / Real.sqrt ((∑ i : Fin 12, rowSq z i o) / Spec.T
              - (∑ i : Fin 12, rowTot z i o) / Spec.T * ((∑ i : Fin 12, rowTot z i o) / Spec.T) + Spec.eps))) := rfl

end Cert.Val

end
-- ==== Proof.Val.Rows.lean ====
/-
  From tiles to rows of tiles, over the real numbers.

  The kernels visit the 12 x 12 tiles row by row and keep, per row of tiles, a running total that starts afresh at the
  first tile of the row. Here: the running total after the tile at position 12 i + j is the sum of the first j + 1 tiles
  of row i; a tile's quantities are the network's quantities at the rows and columns the tile covers; and the total of
  a row block over all columns is the sum over the twelve tiles of the row of the tiles' totals.
-/
import proofs.«135850_j19774029431551_2_alg».proof.Proof.Val.Tile
import proofs.«135850_j19774029431551_2_alg».proof.Proof.Val.Affine

noncomputable section

namespace Cert.KernelIdeal.Val

open Cert.Val (rowIdx rowTot rowSq sum_rows)
open scoped BigOperators

/-! ## Rows of a block, and the blocks of the input -/

/-- Row p of row block i, for any natural i (read modulo the number of rows). -/
def rowN (i : ℕ) (p : Fin 128) : Fin 1536 := ⟨(128 * i + p.val) % 1536, Nat.mod_lt _ (by norm_num)⟩

theorem rowN_eq (i : Fin 12) (p : Fin 128) : rowN i.val p = rowIdx i p :=
  Fin.ext (by
    show (128 * i.val + p.val) % 1536 = 128 * i.val + p.val
    have := i.isLt; have := p.isLt; omega)

/-- Block i of the input, channels first. -/
def xblk (x : Fin 1536 → Fin 64 → ℝ) (i : ℕ) : Fin 64 → Fin 128 → ℝ := fun c p => x (rowN i p) c

/-! ## The running total along a row of tiles -/

/-- The running total after position n: afresh at the first tile of a row, added to elsewhere. -/
def run (T : ℕ → ℝ) : ℕ → ℝ
  | 0 => T 0
  | n + 1 => if (n + 1) % 12 = 0 then T (n + 1) else run T n + T (n + 1)

theorem run_zero (T : ℕ → ℝ) : run T 0 = T 0 := rfl
theorem run_succ (T : ℕ → ℝ) (n : ℕ) :
    run T (n + 1) = if (n + 1) % 12 = 0 then T (n + 1) else run T n + T (n + 1) := rfl

/-- After the tile at position 12 i + j it is the sum of the first j + 1 tiles of row i. -/
theorem run_row (T : ℕ → ℝ) (i : ℕ) : ∀ j : ℕ, j < 12 → run T (12 * i + j) = ∑ j' ∈ Finset.range (j + 1), T (12 * i + j')
  | 0, _ => by
    rw [Finset.sum_range_one, Nat.add_zero]
    cases i with
    | zero => rfl
    | succ i =>
      rw [show 12 * (i + 1) = (12 * i + 11) + 1 from by ring, run_succ, if_pos (by omega)]
  | j + 1, hj => by
    rw [show 12 * i + (j + 1) = (12 * i + j) + 1 from by ring, run_succ, if_neg (by omega), run_row T i j (by omega),
      Finset.sum_range_succ _ (j + 1)]
    rfl

/-- After the last tile of row i it is the sum over the row's twelve tiles. -/
theorem run_last (T : ℕ → ℝ) (i : ℕ) : run T (12 * i + 11) = ∑ j ∈ Finset.range 12, T (12 * i + j) :=
  run_row T i 11 (by norm_num)

/-! ## The network's quantities, and a tile's -/

section Spec
variable {C : ℕ}

/-- A layer's values after the per-channel scale and shift and the leaky rectifier. -/
def actS (z : Fin 1536 → Fin 1536 → Fin C → ℝ) (sc bi : Fin C → ℝ) : Fin 1536 → Fin 1536 → Fin C → ℝ :=
  fun n m o => Cert.Spec.leaky (z n m o * sc o + bi o)

variable (x : Fin 1536 → Fin 64 → ℝ)
  (W1 : Fin 16 → Fin 64 → ℝ) (b1 sc1 bi1 : Fin 16 → ℝ) (W2 : Fin 16 → Fin 16 → ℝ) (b2 sc2 bi2 : Fin 16 → ℝ)
  (W3 : Fin 8 → Fin 16 → ℝ) (b3 sc3 bi3 : Fin 8 → ℝ) (W4 : Fin 8 → Fin 8 → ℝ) (b4 sc4 bi4 : Fin 8 → ℝ)
  (W5 : Fin 1 → Fin 8 → ℝ) (b5 : Fin 1 → ℝ)

/-- The first linear layer at every pair of rows. -/
def z1S : Fin 1536 → Fin 1536 → Fin 16 → ℝ := Cert.Spec.conv W1 b1 (Cert.Spec.feat x)
/-- The second linear layer at every pair of rows. -/
def z2S : Fin 1536 → Fin 1536 → Fin 16 → ℝ := Cert.Spec.conv W2 b2 (actS (z1S x W1 b1) sc1 bi1)
/-- The third linear layer at every pair of rows. -/
def z3S : Fin 1536 → Fin 1536 → Fin 8 → ℝ := Cert.Spec.conv W3 b3 (actS (z2S x W1 b1 sc1 bi1 W2 b2) sc2 bi2)
/-- The fourth linear layer at every pair of rows. -/
def z4S : Fin 1536 → Fin 1536 → Fin 8 → ℝ :=
  Cert.Spec.conv W4 b4 (actS (z3S x W1 b1 sc1 bi1 W2 b2 sc2 bi2 W3 b3) sc3 bi3)
/-- The last linear layer at every pair of rows. -/
def z5S : Fin 1536 → Fin 1536 → Fin 1 → ℝ :=
  Cert.Spec.conv W5 b5 (actS (z4S x W1 b1 sc1 bi1 W2 b2 sc2 bi2 W3 b3 sc3 bi3 W4 b4) sc4 bi4)

variable (i j : ℕ) (p q : Fin 128)

/-- On the tile of row block i and column block j, each layer at the pair (p, q) is the network's at the rows. -/
theorem raw1_eq : raw1 (xblk x i) (xblk x j) W1 b1 p q = z1S x W1 b1 (rowN i p) (rowN j q) := rfl

theorem raw2_eq : raw2 (xblk x i) (xblk x j) W1 b1 sc1 bi1 W2 b2 p q = z2S x W1 b1 sc1 bi1 W2 b2 (rowN i p) (rowN j q) := rfl

theorem raw3_eq : raw3 (xblk x i) (xblk x j) W1 b1 sc1 bi1 W2 b2 sc2 bi2 W3 b3 p q
    = z3S x W1 b1 sc1 bi1 W2 b2 sc2 bi2 W3 b3 (rowN i p) (rowN j q) := rfl

theorem raw4_eq : raw4 (xblk x i) (xblk x j) W1 b1 sc1 bi1 W2 b2 sc2 bi2 W3 b3 sc3 bi3 W4 b4 p q
    = z4S x W1 b1 sc1 bi1 W2 b2 sc2 bi2 W3 b3 sc3 bi3 W4 b4 (rowN i p) (rowN j q) := rfl

theorem raw5_eq : raw5 (xblk x i) (xblk x j) W1 b1 sc1 bi1 W2 b2 sc2 bi2 W3 b3 sc3 bi3 W4 b4 sc4 bi4 W5 b5 p q
    = z5S x W1 b1 sc1 bi1 W2 b2 sc2 bi2 W3 b3 sc3 bi3 W4 b4 sc4 bi4 W5 b5 (rowN i p) (rowN j q) := rfl

end Spec

/-! ## A row block's totals as sums over its tiles -/

section Totals
variable {C : ℕ}

/-- The sum over all columns is the sum over the column blocks of the sums over each block's columns. -/
theorem sum_cols (g : Fin 1536 → ℝ) : ∑ m : Fin 1536, g m = ∑ j ∈ Finset.range 12, ∑ q : Fin 128, g (rowN j q) := by
  rw [← sum_rows g, Finset.sum_range (fun j => ∑ q : Fin 128, g (rowN j q))]
  exact Finset.sum_congr rfl fun j _ => Finset.sum_congr rfl fun q _ => by rw [rowN_eq]

/-- The total of a row block is the sum over the row's tiles of the tiles' totals. -/
theorem rowTot_tiles (z : Fin 1536 → Fin 1536 → Fin C → ℝ) (i : Fin 12) (o : Fin C) :
    rowTot z i o = ∑ j ∈ Finset.range 12, ∑ p : Fin 128, ∑ q : Fin 128, z (rowN i.val p) (rowN j q) o := by
  unfold rowTot
  calc ∑ p : Fin 128, ∑ m : Fin 1536, z (rowIdx i p) m o
      = ∑ p : Fin 128, ∑ j ∈ Finset.range 12, ∑ q : Fin 128, z (rowN i.val p) (rowN j q) o :=
        Finset.sum_congr rfl fun p _ => by rw [sum_cols (fun m => z (rowIdx i p) m o), rowN_eq]
    _ = _ := Finset.sum_comm

/-- The total of squares of a row block likewise. -/
theorem rowSq_tiles (z : Fin 1536 → Fin 1536 → Fin C → ℝ) (i : Fin 12) (o : Fin C) :
    rowSq z i o = ∑ j ∈ Finset.range 12, ∑ p : Fin 128, ∑ q : Fin 128, z (rowN i.val p) (rowN j q) o ^ 2 := by
  unfold rowSq
  calc ∑ p : Fin 128, ∑ m : Fin 1536, z (rowIdx i p) m o ^ 2
      = ∑ p : Fin 128, ∑ j ∈ Finset.range 12, ∑ q : Fin 128, z (rowN i.val p) (rowN j q) o ^ 2 :=
        Finset.sum_congr rfl fun p _ => by rw [sum_cols (fun m => z (rowIdx i p) m o ^ 2), rowN_eq]
    _ = _ := Finset.sum_comm

/-- A running total whose tile terms are the tiles' totals ends a row at the row block's total. -/
theorem run_rowTot (z : Fin 1536 → Fin 1536 → Fin C → ℝ) (i : Fin 12) (o : Fin C) (T : ℕ → ℝ)
    (hT : ∀ j, j < 12 → T (12 * i.val + j) = ∑ p : Fin 128, ∑ q : Fin 128, z (rowN i.val p) (rowN j q) o) :
    run T (12 * i.val + 11) = rowTot z i o := by
  rw [run_last, rowTot_tiles]
  exact Finset.sum_congr rfl fun j hj => hT j (Finset.mem_range.mp hj)

/-- The same for the totals of squares. -/
theorem run_rowSq (z : Fin 1536 → Fin 1536 → Fin C → ℝ) (i : Fin 12) (o : Fin C) (T : ℕ → ℝ)
    (hT : ∀ j, j < 12 → T (12 * i.val + j) = ∑ p : Fin 128, ∑ q : Fin 128, z (rowN i.val p) (rowN j q) o ^ 2) :
    run T (12 * i.val + 11) = rowSq z i o := by
  rw [run_last, rowSq_tiles]
  exact Finset.sum_congr rfl fun j hj => hT j (Finset.mem_range.mp hj)

end Totals

end Cert.KernelIdeal.Val

end
-- ==== Proof.Val.Acc.lean ====
/-
  An accumulator along a row of tiles, as the coercion of the running total over the reals.

  An accumulator block of shape [1, 1, C] that is started afresh at the first tile of each row of tiles, with the tile's
  term added to zero, and has the tile's term added elsewhere, holds after every position the coercion of the real
  running total of the terms.
-/
import proofs.«135850_j19774029431551_2_alg».proof.Proof.Val.Ops
import proofs.«135850_j19774029431551_2_alg».proof.Proof.Val.Rows

noncomputable section

namespace Cert.KernelIdeal.Val

open Idealize.ShloMosaic Idealize.ShloMosaic.ValueIdx
open scoped BigOperators

/-- The zero block of an accumulator is the coercion of the zero vector. -/
theorem zero_eq_blkAcc {C : ℕ} : (fun _ => (0 : EReal) : FVec Ideal ⟨3, ![1, 1, C]⟩ .f32) = blkAcc (fun _ => (0 : ℝ)) :=
  funext fun _ => EReal.coe_zero.symm

/-- Two accumulator blocks that agree at every (u, v, o) are equal. -/
theorem acc_ext {C : ℕ} (A B : FVec Ideal ⟨3, ![1, 1, C]⟩ .f32)
    (h : ∀ (u v : Fin 1) (o : Fin C), A (ix3 u v o) = B (ix3 u v o)) : A = B :=
  funext fun j => by
    obtain ⟨u, v, o, rfl⟩ : ∃ (u v : Fin 1) (o : Fin C), j = ix3 u v o := ⟨j 0, j 1, j 2, eq_ix3 j⟩
    exact h u v o

/-- The accumulator after every position is the coercion of the running total. -/
theorem acc_run {C N : ℕ} (acc : (n : ℕ) → n < N → FVec Ideal ⟨3, ![1, 1, C]⟩ .f32) (T : ℕ → Fin C → ℝ)
    (h0 : ∀ n hn, n % 12 = 0 → acc n hn = blkAcc (fun o => 0 + T n o))
    (h1 : ∀ n hn, ¬ (n + 1) % 12 = 0 → ∀ s : Fin C → ℝ, acc n (Nat.lt_of_succ_lt hn) = blkAcc s →
      acc (n + 1) hn = blkAcc (fun o => s o + T (n + 1) o)) :
    ∀ n hn, acc n hn = blkAcc (fun o => run (fun k => T k o) n)
  | 0, hn => by
    rw [h0 0 hn rfl]
    simp only [zero_add, run_zero]
  | n + 1, hn => by
    by_cases h : (n + 1) % 12 = 0
    · rw [h0 (n + 1) hn h]
      simp only [zero_add, run_succ, if_pos h]
    · rw [h1 n hn h _ (acc_run acc T h0 h1 n _)]
      simp only [run_succ, if_neg h]

end Cert.KernelIdeal.Val

end
-- ==== Proof.Val.Glue0.lean ====
/-
  The first statistics region: from tiles to the arrays of totals.

  On a core whose buffers hold coercions of real arrays when the region is entered, every staged block is the coercion of
  a real block: the row and column blocks of the transposed input at the tile's row and column block, the weights and the
  bias whole. The accumulators therefore hold, after every position, the coercions of the real running totals along the
  row of tiles; at the last tile of row i that is the row block's total over all columns, which the one write-back of the
  row stores at block i. The twelve write-backs cover the two arrays of totals.
-/
import proofs.«135850_j19774029431551_2_alg».proof.Proof.KernelIdeal.Dat0
import proofs.«135850_j19774029431551_2_alg».proof.Proof.Val.K0
import proofs.«135850_j19774029431551_2_alg».proof.Proof.Val.Acc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Val (rowIdx rowTot rowSq)
open scoped BigOperators

/-- The printed index maps, decided over the grid: at position t the row block is t / 12 and the column block t % 12, the
    weights and the bias are fetched whole, and an accumulator's block is the row's. -/
theorem idx0 : ∀ t : Fin cfg0.N,
    win0_0.index t (0 : Fin 2) = 0 ∧ win0_0.index t (1 : Fin 2) = t.val / 12
    ∧ win0_1.index t (0 : Fin 2) = 0 ∧ win0_1.index t (1 : Fin 2) = t.val % 12
    ∧ win0_2.index t (0 : Fin 2) = 0 ∧ win0_2.index t (1 : Fin 2) = 0
    ∧ win0_3.index t (0 : Fin 1) = 0
    ∧ win0_4.index t (0 : Fin 3) = t.val / 12 ∧ win0_4.index t (1 : Fin 3) = 0 ∧ win0_4.index t (2 : Fin 3) = 0
    ∧ win0_5.index t (0 : Fin 3) = t.val / 12 ∧ win0_5.index t (1 : Fin 3) = 0 ∧ win0_5.index t (2 : Fin 3) = 0 :=
  (by decide +kernel : ∀ t : Fin grid0.N, _)

section Region0

variable (V : (c : Dev nD) → (b : Ref sig .tc) → Buf (Elt Ideal) ((c : Thread nD τ).loc b)) (c : Dev nD)
  (x : Fin 1536 → Fin 64 → ℝ) (w1 : Fin 16 → Fin 64 → ℝ) (β1 : Fin 16 → ℝ)
  (hx : ∀ k n, V c main_v0 (ix2 k n) = ((x n k : ℝ) : EReal))
  (hW1 : ∀ o k, V c main_arg1 (ix2 o k) = ((w1 o k : ℝ) : EReal))
  (hb1 : ∀ o, V c main_arg2 (ix1 o) = ((β1 o : ℝ) : EReal))

/-! ## The staged blocks -/

include hx in
/-- The row block at position t: block t / 12 of the input, channels first. -/
theorem iblk0_0_eq (t : Fin cfg0.N) : (iblk0 V c 0 t : Vec Ideal S64x128 .f32) = blk2 (xblk x (t.val / 12)) := by
  have hN : t.val < 144 := lt_of_lt_of_eq t.isLt (show cfg0.N = 144 from N_0)
  obtain ⟨e00, e01, -⟩ := idx0 t
  funext j
  obtain ⟨k, p, rfl⟩ : ∃ (k : Fin 64) (p : Fin 128), j = ix2 k p := ⟨j 0, j 1, eq_ix2 j⟩
  show V c main_v0 (((cfg0.win 0).blk t).view.emb (ix2 k p)) = _
  have he : ((cfg0.win 0).blk t).view.emb (ix2 k p) = ix2 k (rowN (t.val / 12) p) := by
    funext a; apply Fin.ext
    match a with
    | ⟨0, _⟩ => show win0_0.index t (0 : Fin 2) * 64 + 1 * k.val = k.val; rw [e00]; omega
    | ⟨1, _⟩ =>
      show win0_0.index t (1 : Fin 2) * 128 + 1 * p.val = (128 * (t.val / 12) + p.val) % 1536
      have := p.isLt; rw [e01]; omega
  rw [he, hx]; rfl

include hx in
/-- The column block at position t: block t % 12 of the input, channels first. -/
theorem iblk0_1_eq (t : Fin cfg0.N) : (iblk0 V c 1 t : Vec Ideal S64x128 .f32) = blk2 (xblk x (t.val % 12)) := by
  have hN : t.val < 144 := lt_of_lt_of_eq t.isLt (show cfg0.N = 144 from N_0)
  obtain ⟨-, -, e10, e11, -⟩ := idx0 t
  funext j
  obtain ⟨k, p, rfl⟩ : ∃ (k : Fin 64) (p : Fin 128), j = ix2 k p := ⟨j 0, j 1, eq_ix2 j⟩
  show V c main_v0 (((cfg0.win 1).blk t).view.emb (ix2 k p)) = _
  have he : ((cfg0.win 1).blk t).view.emb (ix2 k p) = ix2 k (rowN (t.val % 12) p) := by
    funext a; apply Fin.ext
    match a with
    | ⟨0, _⟩ => show win0_1.index t (0 : Fin 2) * 64 + 1 * k.val = k.val; rw [e10]; omega
    | ⟨1, _⟩ =>
      show win0_1.index t (1 : Fin 2) * 128 + 1 * p.val = (128 * (t.val % 12) + p.val) % 1536
      have := p.isLt; rw [e11]; omega
  rw [he, hx]; rfl

include hW1 in
/-- The weights, whole, at every position. -/
theorem iblk0_2_eq (t : Fin cfg0.N) : (iblk0 V c 2 t : Vec Ideal S16x64 .f32) = blk2 w1 := by
  obtain ⟨-, -, -, -, e20, e21, -⟩ := idx0 t
  funext j
  obtain ⟨o, k, rfl⟩ : ∃ (o : Fin 16) (k : Fin 64), j = ix2 o k := ⟨j 0, j 1, eq_ix2 j⟩
  show V c main_arg1 (((cfg0.win 2).blk t).view.emb (ix2 o k)) = _
  have he : ((cfg0.win 2).blk t).view.emb (ix2 o k) = ix2 o k := by
    funext a; apply Fin.ext
    match a with
    | ⟨0, _⟩ => show win0_2.index t (0 : Fin 2) * 16 + 1 * o.val = o.val; rw [e20]; omega
    | ⟨1, _⟩ => show win0_2.index t (1 : Fin 2) * 64 + 1 * k.val = k.val; rw [e21]; omega
  rw [he, hW1]; rfl

include hb1 in
/-- The bias, whole, at every position. -/
theorem iblk0_3_eq (t : Fin cfg0.N) : (iblk0 V c 3 t : Vec Ideal S16 .f32) = blk1 β1 := by
  obtain ⟨-, -, -, -, -, -, e30, -⟩ := idx0 t
  funext j
  obtain ⟨o, rfl⟩ : ∃ (o : Fin 16), j = ix1 o := ⟨j 0, eq_ix1 j⟩
  show V c main_arg2 (((cfg0.win 3).blk t).view.emb (ix1 o)) = _
  have he : ((cfg0.win 3).blk t).view.emb (ix1 o) = ix1 o := by
    funext a; apply Fin.ext
    match a with
    | ⟨0, _⟩ => show win0_3.index t (0 : Fin 1) * 16 + 1 * o.val = o.val; rw [e30]; omega
  rw [he, hb1]; rfl

/-! ## The accumulators along a row of tiles -/

/-- The tile at position n's total of the first linear layer, per channel. -/
def tot0 (n : ℕ) (o : Fin 16) : ℝ :=
  ∑ p : Fin 128, ∑ q : Fin 128, raw1 (xblk x (n / 12)) (xblk x (n % 12)) w1 β1 p q o

/-- The tile at position n's total of squares of the first linear layer, per channel. -/
def sq0 (n : ℕ) (o : Fin 16) : ℝ :=
  ∑ p : Fin 128, ∑ q : Fin 128, (raw1 (xblk x (n / 12)) (xblk x (n % 12)) w1 β1 p q o) ^ 2

include hx hW1 hb1 in
/-- The sums' accumulator after every position: the coercion of the running total. -/
theorem acc0_4_eq : ∀ n hn, acc0_4 V c n hn = blkAcc (fun o => run (fun k => tot0 x w1 β1 k o) n) :=
  acc_run (acc0_4 V c) (tot0 x w1 β1)
    (fun n hn h => by
      rw [acc0_4_reset V c ⟨n, hn⟩ h, iblk0_0_eq V c x hx, iblk0_1_eq V c x hx, iblk0_2_eq V c w1 hW1,
        iblk0_3_eq V c β1 hb1, k0_pay1_eq, zero_eq_blkAcc]
      exact acc_ext _ _ fun u v o => k0_pay4_apply _ _ _ _ _ u v o)
    (fun n hn h s hs => by
      rw [acc0_4_acc V c ⟨n + 1, hn⟩ h, iblk0_0_eq V c x hx, iblk0_1_eq V c x hx, iblk0_2_eq V c w1 hW1,
        iblk0_3_eq V c β1 hb1]
      show Gen.k0_pay4 _ _ _ _ (acc0_4 V c n _) = _
      rw [hs]
      exact acc_ext _ _ fun u v o => k0_pay4_apply _ _ _ _ _ u v o)

include hx hW1 hb1 in
/-- The squares' accumulator after every position: the coercion of the running total. -/
theorem acc0_5_eq : ∀ n hn, acc0_5 V c n hn = blkAcc (fun o => run (fun k => sq0 x w1 β1 k o) n) :=
  acc_run (acc0_5 V c) (sq0 x w1 β1)
    (fun n hn h => by
      rw [acc0_5_reset V c ⟨n, hn⟩ h, iblk0_0_eq V c x hx, iblk0_1_eq V c x hx, iblk0_2_eq V c w1 hW1,
        iblk0_3_eq V c β1 hb1, k0_pay2_eq, zero_eq_blkAcc]
      exact acc_ext _ _ fun u v o => k0_pay5_apply _ _ _ _ _ u v o)
    (fun n hn h s hs => by
      rw [acc0_5_acc V c ⟨n + 1, hn⟩ h, iblk0_0_eq V c x hx, iblk0_1_eq V c x hx, iblk0_2_eq V c w1 hW1,
        iblk0_3_eq V c β1 hb1]
      show Gen.k0_pay5 _ _ _ _ (acc0_5 V c n _) = _
      rw [hs]
      exact acc_ext _ _ fun u v o => k0_pay5_apply _ _ _ _ _ u v o)

/-! ## The arrays of totals -/

/-- The array of row-block totals of the first linear layer. -/
def G0_4 : S12x1x16.Idx → EReal := fun a => ((rowTot (z1S x w1 β1) (a 0) (a 2) : ℝ) : EReal)
/-- The array of row-block totals of squares of the first linear layer. -/
def G0_5 : S12x1x16.Idx → EReal := fun a => ((rowSq (z1S x w1 β1) (a 0) (a 2) : ℝ) : EReal)

include hx hW1 hb1 in
/-- What the write-back after the last tile of a row writes: the row block's totals. -/
theorem flushed0_4 (t : Fin cfg0.N) (hf : (cfg0.win 4).flush t = true) :
    (dat0 V c).flushed 4 t = ((cfg0.win 4).blk t).view.read (Elt Ideal) (G0_4 x w1 β1) := by
  have hN : t.val < 144 := lt_of_lt_of_eq t.isLt (show cfg0.N = 144 from N_0)
  have h11 : t.val % 12 = 11 := (flush0_4 t).mp hf
  obtain ⟨-, -, -, -, -, -, -, e40, e41, e42, -⟩ := idx0 t
  show (cfg0.win 4).cut (grid0.coords t) ((dat0 V c).after 4 t) = _
  rw [after0_4, acc0_4_eq V c x w1 β1 hx hW1 hb1]
  funext j
  obtain ⟨u, v, o, rfl⟩ : ∃ (u v : Fin 1) (o : Fin 16), j = ix3 u v o := ⟨j 0, j 1, j 2, eq_ix3 j⟩
  show ((run (fun k => tot0 x w1 β1 k o) t.val : ℝ) : EReal) = G0_4 x w1 β1 (((cfg0.win 4).blk t).view.emb (ix3 u v o))
  have he : ((cfg0.win 4).blk t).view.emb (ix3 u v o) = ix3 (⟨t.val / 12, by omega⟩ : Fin 12) (0 : Fin 1) o := by
    funext a; apply Fin.ext
    match a with
    | ⟨0, _⟩ => show win0_4.index t (0 : Fin 3) * 1 + 1 * u.val = t.val / 12; rw [e40]; omega
    | ⟨1, _⟩ => show win0_4.index t (1 : Fin 3) * 1 + 1 * v.val = 0; rw [e41]; omega
    | ⟨2, _⟩ => show win0_4.index t (2 : Fin 3) * 16 + 1 * o.val = o.val; rw [e42]; omega
  rw [he]
  show _ = ((rowTot (z1S x w1 β1) (⟨t.val / 12, by omega⟩ : Fin 12) o : ℝ) : EReal)
  congr 1
  have ht : t.val = 12 * (t.val / 12) + 11 := by omega
  refine (congrArg (run fun k => tot0 x w1 β1 k o) ht).trans ?_
  refine run_rowTot (z1S x w1 β1) (⟨t.val / 12, by omega⟩ : Fin 12) o _ fun j hj => ?_
  show tot0 x w1 β1 (12 * (t.val / 12) + j) o = _
  unfold tot0
  rw [show (12 * (t.val / 12) + j) / 12 = t.val / 12 from by omega, show (12 * (t.val / 12) + j) % 12 = j from by omega]
  rfl

include hx hW1 hb1 in
/-- What the write-back after the last tile of a row writes: the row block's totals of squares. -/
theorem flushed0_5 (t : Fin cfg0.N) (hf : (cfg0.win 5).flush t = true) :
    (dat0 V c).flushed 5 t = ((cfg0.win 5).blk t).view.read (Elt Ideal) (G0_5 x w1 β1) := by
  have hN : t.val < 144 := lt_of_lt_of_eq t.isLt (show cfg0.N = 144 from N_0)
  have h11 : t.val % 12 = 11 := (flush0_5 t).mp hf
  obtain ⟨-, -, -, -, -, -, -, -, -, -, e50, e51, e52⟩ := idx0 t
  show (cfg0.win 5).cut (grid0.coords t) ((dat0 V c).after 5 t) = _
  rw [after0_5, acc0_5_eq V c x w1 β1 hx hW1 hb1]
  funext j
  obtain ⟨u, v, o, rfl⟩ : ∃ (u v : Fin 1) (o : Fin 16), j = ix3 u v o := ⟨j 0, j 1, j 2, eq_ix3 j⟩
  show ((run (fun k => sq0 x w1 β1 k o) t.val : ℝ) : EReal) = G0_5 x w1 β1 (((cfg0.win 5).blk t).view.emb (ix3 u v o))
  have he : ((cfg0.win 5).blk t).view.emb (ix3 u v o) = ix3 (⟨t.val / 12, by omega⟩ : Fin 12) (0 : Fin 1) o := by
    funext a; apply Fin.ext
    match a with
    | ⟨0, _⟩ => show win0_5.index t (0 : Fin 3) * 1 + 1 * u.val = t.val / 12; rw [e50]; omega
    | ⟨1, _⟩ => show win0_5.index t (1 : Fin 3) * 1 + 1 * v.val = 0; rw [e51]; omega
    | ⟨2, _⟩ => show win0_5.index t (2 : Fin 3) * 16 + 1 * o.val = o.val; rw [e52]; omega
  rw [he]
  show _ = ((rowSq (z1S x w1 β1) (⟨t.val / 12, by omega⟩ : Fin 12) o : ℝ) : EReal)
  congr 1
  have ht : t.val = 12 * (t.val / 12) + 11 := by omega
  refine (congrArg (run fun k => sq0 x w1 β1 k o) ht).trans ?_
  refine run_rowSq (z1S x w1 β1) (⟨t.val / 12, by omega⟩ : Fin 12) o _ fun j hj => ?_
  show sq0 x w1 β1 (12 * (t.val / 12) + j) o = _
  unfold sq0
  rw [show (12 * (t.val / 12) + j) / 12 = t.val / 12 from by omega, show (12 * (t.val / 12) + j) % 12 = j from by omega]
  rfl

/-- Every index of the sums' array is in the block the last tile of its row writes back. -/
theorem cover0_4 (a : S12x1x16.Idx) :
    ∃ t : Fin cfg0.N, (cfg0.win 4).flush t = true ∧ a ∈ ((cfg0.win 4).blk t).view.set := by
  have h0 : (a 0).val < 12 := (a 0).isLt
  have h1 : (a 1).val < 1 := (a 1).isLt
  have h2 : (a 2).val < 16 := (a 2).isLt
  have hN : cfg0.N = 144 := N_0
  have ht : 12 * (a 0).val + 11 < cfg0.N := by rw [hN]; omega
  refine ⟨⟨12 * (a 0).val + 11, ht⟩, (flush0_4 _).mpr (by show (12 * (a 0).val + 11) % 12 = 11; omega), ?_⟩
  obtain ⟨-, -, -, -, -, -, -, e40, e41, e42, -⟩ := idx0 ⟨12 * (a 0).val + 11, ht⟩
  have e40' : win0_4.index ⟨12 * (a 0).val + 11, ht⟩ (0 : Fin 3) = (a 0).val := by rw [e40]; show (12 * (a 0).val + 11) / 12 = _; omega
  show a ∈ ((View.whole main_v1_0).slice (win0_4.rect ⟨12 * (a 0).val + 11, ht⟩)).set
  rw [View.set_slice_whole, Rect.mem_set_unit]
  intro b
  match b with
  | ⟨0, _⟩ =>
    show win0_4.index ⟨12 * (a 0).val + 11, ht⟩ (0 : Fin 3) * 1 ≤ (a 0).val ∧ (a 0).val < win0_4.index ⟨12 * (a 0).val + 11, ht⟩ (0 : Fin 3) * 1 + 1
    rw [e40']; omega
  | ⟨1, _⟩ =>
    show win0_4.index ⟨12 * (a 0).val + 11, ht⟩ (1 : Fin 3) * 1 ≤ (a 1).val ∧ (a 1).val < win0_4.index ⟨12 * (a 0).val + 11, ht⟩ (1 : Fin 3) * 1 + 1
    rw [e41]; omega
  | ⟨2, _⟩ =>
    show win0_4.index ⟨12 * (a 0).val + 11, ht⟩ (2 : Fin 3) * 16 ≤ (a 2).val ∧ (a 2).val < win0_4.index ⟨12 * (a 0).val + 11, ht⟩ (2 : Fin 3) * 16 + 16
    rw [e42]; omega

/-- Every index of the squares' array is in the block the last tile of its row writes back. -/
theorem cover0_5 (a : S12x1x16.Idx) :
    ∃ t : Fin cfg0.N, (cfg0.win 5).flush t = true ∧ a ∈ ((cfg0.win 5).blk t).view.set := by
  have h0 : (a 0).val < 12 := (a 0).isLt
  have h1 : (a 1).val < 1 := (a 1).isLt
  have h2 : (a 2).val < 16 := (a 2).isLt
  have hN : cfg0.N = 144 := N_0
  have ht : 12 * (a 0).val + 11 < cfg0.N := by rw [hN]; omega
  refine ⟨⟨12 * (a 0).val + 11, ht⟩, (flush0_5 _).mpr (by show (12 * (a 0).val + 11) % 12 = 11; omega), ?_⟩
  obtain ⟨-, -, -, -, -, -, -, -, -, -, e50, e51, e52⟩ := idx0 ⟨12 * (a 0).val + 11, ht⟩
  have e50' : win0_5.index ⟨12 * (a 0).val + 11, ht⟩ (0 : Fin 3) = (a 0).val := by rw [e50]; show (12 * (a 0).val + 11) / 12 = _; omega
  show a ∈ ((View.whole main_v1_1).slice (win0_5.rect ⟨12 * (a 0).val + 11, ht⟩)).set
  rw [View.set_slice_whole, Rect.mem_set_unit]
  intro b
  match b with
  | ⟨0, _⟩ =>
    show win0_5.index ⟨12 * (a 0).val + 11, ht⟩ (0 : Fin 3) * 1 ≤ (a 0).val ∧ (a 0).val < win0_5.index ⟨12 * (a 0).val + 11, ht⟩ (0 : Fin 3) * 1 + 1
    rw [e50']; omega
  | ⟨1, _⟩ =>
    show win0_5.index ⟨12 * (a 0).val + 11, ht⟩ (1 : Fin 3) * 1 ≤ (a 1).val ∧ (a 1).val < win0_5.index ⟨12 * (a 0).val + 11, ht⟩ (1 : Fin 3) * 1 + 1
    rw [e51]; omega
  | ⟨2, _⟩ =>
    show win0_5.index ⟨12 * (a 0).val + 11, ht⟩ (2 : Fin 3) * 16 ≤ (a 2).val ∧ (a 2).val < win0_5.index ⟨12 * (a 0).val + 11, ht⟩ (2 : Fin 3) * 16 + 16
    rw [e52]; omega

include hx hW1 hb1 in
/-- The sums' array after the region: at (i, 0, o) the total of channel o over row block i. -/
theorem arr0_4 (i : Fin 12) (o : Fin 16) :
    (dat0 V c).arrAt 4 cfg0.N (ix3 i (0 : Fin 1) o) = ((rowTot (Cert.Spec.conv w1 β1 (Cert.Spec.feat x)) i o : ℝ) : EReal) :=
  congrFun ((dat0 V c).arrAt_eq_of_cover 4 (G0_4 x w1 β1) (flushed0_4 V c x w1 β1 hx hW1 hb1) cover0_4) (ix3 i (0 : Fin 1) o)

include hx hW1 hb1 in
/-- The squares' array after the region: at (i, 0, o) the total of squares of channel o over row block i. -/
theorem arr0_5 (i : Fin 12) (o : Fin 16) :
    (dat0 V c).arrAt 5 cfg0.N (ix3 i (0 : Fin 1) o) = ((rowSq (Cert.Spec.conv w1 β1 (Cert.Spec.feat x)) i o : ℝ) : EReal) :=
  congrFun ((dat0 V c).arrAt_eq_of_cover 5 (G0_5 x w1 β1) (flushed0_5 V c x w1 β1 hx hW1 hb1) cover0_5) (ix3 i (0 : Fin 1) o)

end Region0

end Cert.KernelIdeal.Val

end
-- ==== Proof.Val.K1.lean ====
/-
  The second statistics kernel's stored values on a tile.

  The kernel recomputes the first layer and its activation, applies the second linear layer, and adds to its two
  accumulators, per channel, the sum over the pairs of that layer and of its squares, the accumulator on the left.
-/
import proofs.«135850_j19774029431551_2_alg».proof.Proof.Val.Chain

noncomputable section

namespace Cert.KernelIdeal.Val

open Cert.KernelIdeal Cert.KernelIdeal.Gen
open Idealize.ShloMosaic Idealize.ShloMosaic.ValueIdx
open scoped BigOperators

variable (x0 x1 : Fin 64 → Fin 128 → ℝ) (W1 : Fin 16 → Fin 64 → ℝ) (b1 sc1 bi1 : Fin 16 → ℝ)
  (W2 : Fin 16 → Fin 16 → ℝ) (b2 : Fin 16 → ℝ)

/-- The recomputed first activation. -/
theorem k1_pay6_eq : Gen.k1_pay6 (F := Ideal) (blk2 x0) (blk2 x1) (blk2 W1) (blk1 b1) (blk1 sc1) (blk1 bi1) = act1V x0 x1 W1 b1 sc1 bi1 := rfl

/-- The block the kernel sums is the second linear layer. -/
theorem k1_pay1_eq : Gen.k1_pay1 (F := Ideal) (Gen.k1_pay6 (blk2 x0) (blk2 x1) (blk2 W1) (blk1 b1) (blk1 sc1) (blk1 bi1)) (Gen.k1_pay7 (blk2 W2)) (constant (F := Ideal) S16x16384 .f32 0x00000000#32) (blk1 b2) = raw2V x0 x1 W1 b1 sc1 bi1 W2 b2 := rfl

/-- The stored sum: the accumulator plus the sum over the pairs of the second linear layer. -/
theorem k1_pay2_apply (s : Fin 16 → ℝ) (u v : Fin 1) (o : Fin 16) :
    Gen.k1_pay2 (F := Ideal) (Gen.k1_pay6 (blk2 x0) (blk2 x1) (blk2 W1) (blk1 b1) (blk1 sc1) (blk1 bi1)) (Gen.k1_pay7 (blk2 W2)) (constant (F := Ideal) S16x16384 .f32 0x00000000#32) (blk1 b2) (blkAcc s) (ix3 u v o)
      = ((s o + ∑ p : Fin 128, ∑ q : Fin 128, raw2 x0 x1 W1 b1 sc1 bi1 W2 b2 p q o : ℝ) : EReal) := by
  have e : Gen.k1_pay2 (F := Ideal) (Gen.k1_pay6 (blk2 x0) (blk2 x1) (blk2 W1) (blk1 b1) (blk1 sc1) (blk1 bi1)) (Gen.k1_pay7 (blk2 W2)) (constant (F := Ideal) S16x16384 .f32 0x00000000#32) (blk1 b2) (blkAcc s)
      = sumV (raw2V x0 x1 W1 b1 sc1 bi1 W2 b2) (blkAcc s) reduces_S16x16384_S16 shapeCasts_S1x1x16_S1x1x16 shapeCasts_S16_S1x1x16 := rfl
  rw [e]
  exact sumV_tile_apply _ _ _ _ _ (fun p q => raw2 x0 x1 W1 b1 sc1 bi1 W2 b2 p q o) (s o) u v o
    (fun p q => raw2V_apply x0 x1 W1 b1 sc1 bi1 W2 b2 p q o) rfl

/-- The stored sum of squares: the accumulator plus the sum over the pairs of the squares. -/
theorem k1_pay3_apply (s : Fin 16 → ℝ) (u v : Fin 1) (o : Fin 16) :
    Gen.k1_pay3 (F := Ideal) (Gen.k1_pay6 (blk2 x0) (blk2 x1) (blk2 W1) (blk1 b1) (blk1 sc1) (blk1 bi1)) (Gen.k1_pay7 (blk2 W2)) (constant (F := Ideal) S16x16384 .f32 0x00000000#32) (blk1 b2) (blkAcc s) (ix3 u v o)
      = ((s o + ∑ p : Fin 128, ∑ q : Fin 128, (raw2 x0 x1 W1 b1 sc1 bi1 W2 b2 p q o) ^ 2 : ℝ) : EReal) := by
  have e : Gen.k1_pay3 (F := Ideal) (Gen.k1_pay6 (blk2 x0) (blk2 x1) (blk2 W1) (blk1 b1) (blk1 sc1) (blk1 bi1)) (Gen.k1_pay7 (blk2 W2)) (constant (F := Ideal) S16x16384 .f32 0x00000000#32) (blk1 b2) (blkAcc s)
      = sumV (mulf (raw2V x0 x1 W1 b1 sc1 bi1 W2 b2) (raw2V x0 x1 W1 b1 sc1 bi1 W2 b2)) (blkAcc s) reduces_S16x16384_S16 shapeCasts_S1x1x16_S1x1x16 shapeCasts_S16_S1x1x16 := rfl
  rw [e]
  exact sumV_tile_apply _ _ _ _ _ (fun p q => (raw2 x0 x1 W1 b1 sc1 bi1 W2 b2 p q o) ^ 2) (s o) u v o
    (fun p q => sq_apply _ _ _ (raw2V_apply x0 x1 W1 b1 sc1 bi1 W2 b2 p q o)) rfl

/-- The value the first step of a column of tiles stores: zero everywhere. -/
theorem k1_pay4_eq : Gen.k1_pay4 (F := Ideal) = fun _ => (0 : EReal) :=
  funext fun _ => Ideal.ofBits_zero_f32

/-- The value the first step of a column of tiles stores: zero everywhere. -/
theorem k1_pay5_eq : Gen.k1_pay5 (F := Ideal) = fun _ => (0 : EReal) :=
  funext fun _ => Ideal.ofBits_zero_f32

end Cert.KernelIdeal.Val

end
-- ==== Proof.Val.Glue1.lean ====
/-
  The second statistics region: from tiles to the arrays of totals.

  On a core whose buffers hold coercions of real arrays when the region is entered, every staged block is the coercion of
  a real block: the row and column blocks of the transposed input at the tile's row and column block, every weight, bias,
  scale and shift whole. The accumulators therefore hold, after every position, the coercions of the real running totals
  along the row of tiles; at the last tile of row i that is the row block's total over all columns, which the one
  write-back of the row stores at block i. The twelve write-backs cover the two arrays of totals.
-/
import proofs.«135850_j19774029431551_2_alg».proof.Proof.KernelIdeal.Dat1
import proofs.«135850_j19774029431551_2_alg».proof.Proof.Val.K1
import proofs.«135850_j19774029431551_2_alg».proof.Proof.Val.Acc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Val (rowIdx rowTot rowSq)
open scoped BigOperators

/-- The printed index maps, decided over the grid: at position t the row block is t / 12 and the column block t % 12, every
    other input is fetched whole, and an accumulator's block is the row's. -/
theorem idx1 : ∀ t : Fin cfg1.N,
    win1_0.index t (0 : Fin 2) = 0
    ∧ win1_0.index t (1 : Fin 2) = t.val / 12
    ∧ win1_1.index t (0 : Fin 2) = 0
    ∧ win1_1.index t (1 : Fin 2) = t.val % 12
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 1) = 0
    ∧ win1_7.index t (0 : Fin 1) = 0
    ∧ win1_8.index t (0 : Fin 3) = t.val / 12
    ∧ win1_8.index t (1 : Fin 3) = 0
    ∧ win1_8.index t (2 : Fin 3) = 0
    ∧ win1_9.index t (0 : Fin 3) = t.val / 12
    ∧ win1_9.index t (1 : Fin 3) = 0
    ∧ win1_9.index t (2 : Fin 3) = 0 :=
  (by decide +kernel : ∀ t : Fin grid1.N, _)

section Region1

variable (V : (c : Dev nD) → (b : Ref sig .tc) → Buf (Elt Ideal) ((c : Thread nD τ).loc b)) (c : Dev nD)
  (x : Fin 1536 → Fin 64 → ℝ) (w1 : Fin 16 → Fin 64 → ℝ) (β1 : Fin 16 → ℝ) (sc1 : Fin 16 → ℝ) (bi1 : Fin 16 → ℝ) (w2 : Fin 16 → Fin 16 → ℝ) (β2 : Fin 16 → ℝ)
  (hx : ∀ k n, V c main_v0 (ix2 k n) = ((x n k : ℝ) : EReal))
  (hW1 : ∀ o k, V c main_arg1 (ix2 o k) = ((w1 o k : ℝ) : EReal))
  (hb1 : ∀ o, V c main_arg2 (ix1 o) = ((β1 o : ℝ) : EReal))
  (hW2 : ∀ o k, V c main_arg5 (ix2 o k) = ((w2 o k : ℝ) : EReal))
  (hb2 : ∀ o, V c main_arg6 (ix1 o) = ((β2 o : ℝ) : EReal))
  (hsc1 : ∀ o, V c main_v15 (ix1 o) = ((sc1 o : ℝ) : EReal))
  (hbi1 : ∀ o, V c main_v17 (ix1 o) = ((bi1 o : ℝ) : EReal))

/-! ## The staged blocks -/

include hx in
/-- The row block at position t: block t / 12 of the input, channels first. -/
theorem iblk1_0_eq (t : Fin cfg1.N) : (iblk1 V c 0 t : Vec Ideal S64x128 .f32) = blk2 (xblk x (t.val / 12)) := by
  have hN : t.val < 144 := lt_of_lt_of_eq t.isLt (show cfg1.N = 144 from N_1)
  obtain ⟨e0_0, e0_1, e1_0, e1_1, e2_0, e2_1, e3_0, e4_0, e4_1, e5_0, e6_0, e7_0, e8_0, e8_1, e8_2, e9_0, e9_1, e9_2⟩ := idx1 t
  funext j
  obtain ⟨k, p, rfl⟩ : ∃ (k : Fin 64) (p : Fin 128), j = ix2 k p := ⟨j 0, j 1, eq_ix2 j⟩
  show V c main_v0 (((cfg1.win 0).blk t).view.emb (ix2 k p)) = _
  have he : ((cfg1.win 0).blk t).view.emb (ix2 k p) = ix2 k (rowN (t.val / 12) p) := by
    funext a; apply Fin.ext
    match a with
    | ⟨0, _⟩ => show win1_0.index t (0 : Fin 2) * 64 + 1 * k.val = k.val; rw [e0_0]; omega
    | ⟨1, _⟩ =>
      show win1_0.index t (1 : Fin 2) * 128 + 1 * p.val = (128 * (t.val / 12) + p.val) % 1536
      have := p.isLt; rw [e0_1]; omega
  rw [he, hx]; rfl

include hx in
/-- The column block at position t: block t % 12 of the input, channels first. -/
theorem iblk1_1_eq (t : Fin cfg1.N) : (iblk1 V c 1 t : Vec Ideal S64x128 .f32) = blk2 (xblk x (t.val % 12)) := by
  have hN : t.val < 144 := lt_of_lt_of_eq t.isLt (show cfg1.N = 144 from N_1)
  obtain ⟨e0_0, e0_1, e1_0, e1_1, e2_0, e2_1, e3_0, e4_0, e4_1, e5_0, e6_0, e7_0, e8_0, e8_1, e8_2, e9_0, e9_1, e9_2⟩ := idx1 t
  funext j
  obtain ⟨k, p, rfl⟩ : ∃ (k : Fin 64) (p : Fin 128), j = ix2 k p := ⟨j 0, j 1, eq_ix2 j⟩
  show V c main_v0 (((cfg1.win 1).blk t).view.emb (ix2 k p)) = _
  have he : ((cfg1.win 1).blk t).view.emb (ix2 k p) = ix2 k (rowN (t.val % 12) p) := by
    funext a; apply Fin.ext
    match a with
    | ⟨0, _⟩ => show win1_1.index t (0 : Fin 2) * 64 + 1 * k.val = k.val; rw [e1_0]; omega
    | ⟨1, _⟩ =>
      show win1_1.index t (1 : Fin 2) * 128 + 1 * p.val = (128 * (t.val % 12) + p.val) % 1536
      have := p.isLt; rw [e1_1]; omega
  rw [he, hx]; rfl

include hW1 in
/-- Window 2's block, fetched whole, at every position. -/
theorem iblk1_2_eq (t : Fin cfg1.N) : (iblk1 V c 2 t : Vec Ideal S16x64 .f32) = blk2 w1 := by
  obtain ⟨e0_0, e0_1, e1_0, e1_1, e2_0, e2_1, e3_0, e4_0, e4_1, e5_0, e6_0, e7_0, e8_0, e8_1, e8_2, e9_0, e9_1, e9_2⟩ := idx1 t
  funext j
  obtain ⟨o, k, rfl⟩ : ∃ (o : Fin 16) (k : Fin 64), j = ix2 o k := ⟨j 0, j 1, eq_ix2 j⟩
  show V c main_arg1 (((cfg1.win 2).blk t).view.emb (ix2 o k)) = _
  have he : ((cfg1.win 2).blk t).view.emb (ix2 o k) = ix2 o k := by
    funext a; apply Fin.ext
    match a with
    | ⟨0, _⟩ => show win1_2.index t (0 : Fin 2) * 16 + 1 * o.val = o.val; rw [e2_0]; omega
    | ⟨1, _⟩ => show win1_2.index t (1 : Fin 2) * 64 + 1 * k.val = k.val; rw [e2_1]; omega
  rw [he, hW1]; rfl

include hb1 in
/-- Window 3's block, fetched whole, at every position. -/
theorem iblk1_3_eq (t : Fin cfg1.N) : (iblk1 V c 3 t : Vec Ideal S16 .f32) = blk1 β1 := by
  obtain ⟨e0_0, e0_1, e1_0, e1_1, e2_0, e2_1, e3_0, e4_0, e4_1, e5_0, e6_0, e7_0, e8_0, e8_1, e8_2, e9_0, e9_1, e9_2⟩ := idx1 t
  funext j
  obtain ⟨o, rfl⟩ : ∃ (o : Fin 16), j = ix1 o := ⟨j 0, eq_ix1 j⟩
  show V c main_arg2 (((cfg1.win 3).blk t).view.emb (ix1 o)) = _
  have he : ((cfg1.win 3).blk t).view.emb (ix1 o) = ix1 o := by
    funext a; apply Fin.ext
    match a with
    | ⟨0, _⟩ => show win1_3.index t (0 : Fin 1) * 16 + 1 * o.val = o.val; rw [e3_0]; omega
  rw [he, hb1]; rfl

include hW2 in
/-- Window 4's block, fetched whole, at every position. -/
theorem iblk1_4_eq (t : Fin cfg1.N) : (iblk1 V c 4 t : Vec Ideal S16x16 .f32) = blk2 w2 := by
  obtain ⟨e0_0, e0_1, e1_0, e1_1, e2_0, e2_1, e3_0, e4_0, e4_1, e5_0, e6_0, e7_0, e8_0, e8_1, e8_2, e9_0, e9_1, e9_2⟩ := idx1 t
  funext j
  obtain ⟨o, k, rfl⟩ : ∃ (o : Fin 16) (k : Fin 16), j = ix2 o k := ⟨j 0, j 1, eq_ix2 j⟩
  show V c main_arg5 (((cfg1.win 4).blk t).view.emb (ix2 o k)) = _
  have he : ((cfg1.win 4).blk t).view.emb (ix2 o k) = ix2 o k := by
    funext a; apply Fin.ext
    match a with
    | ⟨0, _⟩ => show win1_4.index t (0 : Fin 2) * 16 + 1 * o.val = o.val; rw [e4_0]; omega
    | ⟨1, _⟩ => show win1_4.index t (1 : Fin 2) * 16 + 1 * k.val = k.val; rw [e4_1]; omega
  rw [he, hW2]; rfl

include hb2 in
/-- Window 5's block, fetched whole, at every position. -/
theorem iblk1_5_eq (t : Fin cfg1.N) : (iblk1 V c 5 t : Vec Ideal S16 .f32) = blk1 β2 := by
  obtain ⟨e0_0, e0_1, e1_0, e1_1, e2_0, e2_1, e3_0, e4_0, e4_1, e5_0, e6_0, e7_0, e8_0, e8_1, e8_2, e9_0, e9_1, e9_2⟩ := idx1 t
  funext j
  obtain ⟨o, rfl⟩ : ∃ (o : Fin 16), j = ix1 o := ⟨j 0, eq_ix1 j⟩
  show V c main_arg6 (((cfg1.win 5).blk t).view.emb (ix1 o)) = _
  have he : ((cfg1.win 5).blk t).view.emb (ix1 o) = ix1 o := by
    funext a; apply Fin.ext
    match a with
    | ⟨0, _⟩ => show win1_5.index t (0 : Fin 1) * 16 + 1 * o.val = o.val; rw [e5_0]; omega
  rw [he, hb2]; rfl

include hsc1 in
/-- Window 6's block, fetched whole, at every position. -/
theorem iblk1_6_eq (t : Fin cfg1.N) : (iblk1 V c 6 t : Vec Ideal S16 .f32) = blk1 sc1 := by
  obtain ⟨e0_0, e0_1, e1_0, e1_1, e2_0, e2_1, e3_0, e4_0, e4_1, e5_0, e6_0, e7_0, e8_0, e8_1, e8_2, e9_0, e9_1, e9_2⟩ := idx1 t
  funext j
  obtain ⟨o, rfl⟩ : ∃ (o : Fin 16), j = ix1 o := ⟨j 0, eq_ix1 j⟩
  show V c main_v15 (((cfg1.win 6).blk t).view.emb (ix1 o)) = _
  have he : ((cfg1.win 6).blk t).view.emb (ix1 o) = ix1 o := by
    funext a; apply Fin.ext
    match a with
    | ⟨0, _⟩ => show win1_6.index t (0 : Fin 1) * 16 + 1 * o.val = o.val; rw [e6_0]; omega
  rw [he, hsc1]; rfl

include hbi1 in
/-- Window 7's block, fetched whole, at every position. -/
theorem iblk1_7_eq (t : Fin cfg1.N) : (iblk1 V c 7 t : Vec Ideal S16 .f32) = blk1 bi1 := by
  obtain ⟨e0_0, e0_1, e1_0, e1_1, e2_0, e2_1, e3_0, e4_0, e4_1, e5_0, e6_0, e7_0, e8_0, e8_1, e8_2, e9_0, e9_1, e9_2⟩ := idx1 t
  funext j
  obtain ⟨o, rfl⟩ : ∃ (o : Fin 16), j = ix1 o := ⟨j 0, eq_ix1 j⟩
  show V c main_v17 (((cfg1.win 7).blk t).view.emb (ix1 o)) = _
  have he : ((cfg1.win 7).blk t).view.emb (ix1 o) = ix1 o := by
    funext a; apply Fin.ext
    match a with
    | ⟨0, _⟩ => show win1_7.index t (0 : Fin 1) * 16 + 1 * o.val = o.val; rw [e7_0]; omega
  rw [he, hbi1]; rfl

/-! ## The accumulators along a row of tiles -/

/-- The tile at position n's total of the region's linear layer, per channel. -/
def tot1 (n : ℕ) (o : Fin 16) : ℝ :=
  ∑ p : Fin 128, ∑ q : Fin 128, raw2 (xblk x (n / 12)) (xblk x (n % 12)) w1 β1 sc1 bi1 w2 β2 p q o

/-- The tile at position n's total of squares of the region's linear layer, per channel. -/
def sq1 (n : ℕ) (o : Fin 16) : ℝ :=
  ∑ p : Fin 128, ∑ q : Fin 128, (raw2 (xblk x (n / 12)) (xblk x (n % 12)) w1 β1 sc1 bi1 w2 β2 p q o) ^ 2

include hx hW1 hb1 hW2 hb2 hsc1 hbi1 in
/-- Window 8's accumulator after every position: the coercion of the running total. -/
theorem acc1_8_eq : ∀ n hn, acc1_8 V c n hn = blkAcc (fun o => run (fun k => tot1 x w1 β1 sc1 bi1 w2 β2 k o) n) :=
  acc_run (acc1_8 V c) (tot1 x w1 β1 sc1 bi1 w2 β2)
    (fun n hn h => by
      rw [acc1_8_reset V c ⟨n, hn⟩ h, iblk1_0_eq V c x hx, iblk1_1_eq V c x hx, iblk1_2_eq V c w1 hW1, iblk1_3_eq V c β1 hb1, iblk1_4_eq V c w2 hW2, iblk1_5_eq V c β2 hb2, iblk1_6_eq V c sc1 hsc1, iblk1_7_eq V c bi1 hbi1, k1_pay4_eq, zero_eq_blkAcc]
      unfold val1_8
      exact acc_ext _ _ fun u v o => k1_pay2_apply _ _ _ _ _ _ _ _ _ u v o)
    (fun n hn h s hs => by
      rw [acc1_8_acc V c ⟨n + 1, hn⟩ h, iblk1_0_eq V c x hx, iblk1_1_eq V c x hx, iblk1_2_eq V c w1 hW1, iblk1_3_eq V c β1 hb1, iblk1_4_eq V c w2 hW2, iblk1_5_eq V c β2 hb2, iblk1_6_eq V c sc1 hsc1, iblk1_7_eq V c bi1 hbi1]
      show val1_8 _ _ _ _ _ _ _ _ (acc1_8 V c n _) = _
      rw [hs]
      unfold val1_8
      exact acc_ext _ _ fun u v o => k1_pay2_apply _ _ _ _ _ _ _ _ _ u v o)

include hx hW1 hb1 hW2 hb2 hsc1 hbi1 in
/-- Window 9's accumulator after every position: the coercion of the running total. -/
theorem acc1_9_eq : ∀ n hn, acc1_9 V c n hn = blkAcc (fun o => run (fun k => sq1 x w1 β1 sc1 bi1 w2 β2 k o) n) :=
  acc_run (acc1_9 V c) (sq1 x w1 β1 sc1 bi1 w2 β2)
    (fun n hn h => by
      rw [acc1_9_reset V c ⟨n, hn⟩ h, iblk1_0_eq V c x hx, iblk1_1_eq V c x hx, iblk1_2_eq V c w1 hW1, iblk1_3_eq V c β1 hb1, iblk1_4_eq V c w2 hW2, iblk1_5_eq V c β2 hb2, iblk1_6_eq V c sc1 hsc1, iblk1_7_eq V c bi1 hbi1, k1_pay5_eq, zero_eq_blkAcc]
      unfold val1_9
      exact acc_ext _ _ fun u v o => k1_pay3_apply _ _ _ _ _ _ _ _ _ u v o)
    (fun n hn h s hs => by
      rw [acc1_9_acc V c ⟨n + 1, hn⟩ h, iblk1_0_eq V c x hx, iblk1_1_eq V c x hx, iblk1_2_eq V c w1 hW1, iblk1_3_eq V c β1 hb1, iblk1_4_eq V c w2 hW2, iblk1_5_eq V c β2 hb2, iblk1_6_eq V c sc1 hsc1, iblk1_7_eq V c bi1 hbi1]
      show val1_9 _ _ _ _ _ _ _ _ (acc1_9 V c n _) = _
      rw [hs]
      unfold val1_9
      exact acc_ext _ _ fun u v o => k1_pay3_apply _ _ _ _ _ _ _ _ _ u v o)

/-! ## The arrays of totals -/

/-- The array of row-block totals of the region's linear layer. -/
def G1_8 : S12x1x16.Idx → EReal := fun a => ((rowTot (z2S x w1 β1 sc1 bi1 w2 β2) (a 0) (a 2) : ℝ) : EReal)
/-- The array of row-block totals of squares of the region's linear layer. -/
def G1_9 : S12x1x16.Idx → EReal := fun a => ((rowSq (z2S x w1 β1 sc1 bi1 w2 β2) (a 0) (a 2) : ℝ) : EReal)

include hx hW1 hb1 hW2 hb2 hsc1 hbi1 in
/-- What window 8's write-back after the last tile of a row writes: the row block's totals. -/
theorem flushed1_8 (t : Fin cfg1.N) (hf : (cfg1.win 8).flush t = true) :
    (dat1 V c).flushed 8 t = ((cfg1.win 8).blk t).view.read (Elt Ideal) (G1_8 x w1 β1 sc1 bi1 w2 β2) := by
  have hN : t.val < 144 := lt_of_lt_of_eq t.isLt (show cfg1.N = 144 from N_1)
  have h11 : t.val % 12 = 11 := (flush1_8 t).mp hf
  obtain ⟨e0_0, e0_1, e1_0, e1_1, e2_0, e2_1, e3_0, e4_0, e4_1, e5_0, e6_0, e7_0, e8_0, e8_1, e8_2, e9_0, e9_1, e9_2⟩ := idx1 t
  show (cfg1.win 8).cut (grid1.coords t) ((dat1 V c).after 8 t) = _
  rw [after1_8, acc1_8_eq V c x w1 β1 sc1 bi1 w2 β2 hx hW1 hb1 hW2 hb2 hsc1 hbi1]
  funext j
  obtain ⟨u, v, o, rfl⟩ : ∃ (u v : Fin 1) (o : Fin 16), j = ix3 u v o := ⟨j 0, j 1, j 2, eq_ix3 j⟩
  show ((run (fun k => tot1 x w1 β1 sc1 bi1 w2 β2 k o) t.val : ℝ) : EReal) = G1_8 x w1 β1 sc1 bi1 w2 β2 (((cfg1.win 8).blk t).view.emb (ix3 u v o))
  have he : ((cfg1.win 8).blk t).view.emb (ix3 u v o) = ix3 (⟨t.val / 12, by omega⟩ : Fin 12) (0 : Fin 1) o := by
    funext a; apply Fin.ext
    match a with
    | ⟨0, _⟩ => show win1_8.index t (0 : Fin 3) * 1 + 1 * u.val = t.val / 12; rw [e8_0]; omega
    | ⟨1, _⟩ => show win1_8.index t (1 : Fin 3) * 1 + 1 * v.val = 0; rw [e8_1]; omega
    | ⟨2, _⟩ => show win1_8.index t (2 : Fin 3) * 16 + 1 * o.val = o.val; rw [e8_2]; omega
  rw [he]
  show _ = ((rowTot (z2S x w1 β1 sc1 bi1 w2 β2) (⟨t.val / 12, by omega⟩ : Fin 12) o : ℝ) : EReal)
  congr 1
  have ht : t.val = 12 * (t.val / 12) + 11 := by omega
  refine (congrArg (run fun k => tot1 x w1 β1 sc1 bi1 w2 β2 k o) ht).trans ?_
  refine run_rowTot (z2S x w1 β1 sc1 bi1 w2 β2) (⟨t.val / 12, by omega⟩ : Fin 12) o _ fun j hj => ?_
  show tot1 x w1 β1 sc1 bi1 w2 β2 (12 * (t.val / 12) + j) o = _
  unfold tot1
  rw [show (12 * (t.val / 12) + j) / 12 = t.val / 12 from by omega, show (12 * (t.val / 12) + j) % 12 = j from by omega]
  rfl

include hx hW1 hb1 hW2 hb2 hsc1 hbi1 in
/-- What window 9's write-back after the last tile of a row writes: the row block's totals of squares. -/
theorem flushed1_9 (t : Fin cfg1.N) (hf : (cfg1.win 9).flush t = true) :
    (dat1 V c).flushed 9 t = ((cfg1.win 9).blk t).view.read (Elt Ideal) (G1_9 x w1 β1 sc1 bi1 w2 β2) := by
  have hN : t.val < 144 := lt_of_lt_of_eq t.isLt (show cfg1.N = 144 from N_1)
  have h11 : t.val % 12 = 11 := (flush1_9 t).mp hf
  obtain ⟨e0_0, e0_1, e1_0, e1_1, e2_0, e2_1, e3_0, e4_0, e4_1, e5_0, e6_0, e7_0, e8_0, e8_1, e8_2, e9_0, e9_1, e9_2⟩ := idx1 t
  show (cfg1.win 9).cut (grid1.coords t) ((dat1 V c).after 9 t) = _
  rw [after1_9, acc1_9_eq V c x w1 β1 sc1 bi1 w2 β2 hx hW1 hb1 hW2 hb2 hsc1 hbi1]
  funext j
  obtain ⟨u, v, o, rfl⟩ : ∃ (u v : Fin 1) (o : Fin 16), j = ix3 u v o := ⟨j 0, j 1, j 2, eq_ix3 j⟩
  show ((run (fun k => sq1 x w1 β1 sc1 bi1 w2 β2 k o) t.val : ℝ) : EReal) = G1_9 x w1 β1 sc1 bi1 w2 β2 (((cfg1.win 9).blk t).view.emb (ix3 u v o))
  have he : ((cfg1.win 9).blk t).view.emb (ix3 u v o) = ix3 (⟨t.val / 12, by omega⟩ : Fin 12) (0 : Fin 1) o := by
    funext a; apply Fin.ext
    match a with
    | ⟨0, _⟩ => show win1_9.index t (0 : Fin 3) * 1 + 1 * u.val = t.val / 12; rw [e9_0]; omega
    | ⟨1, _⟩ => show win1_9.index t (1 : Fin 3) * 1 + 1 * v.val = 0; rw [e9_1]; omega
    | ⟨2, _⟩ => show win1_9.index t (2 : Fin 3) * 16 + 1 * o.val = o.val; rw [e9_2]; omega
  rw [he]
  show _ = ((rowSq (z2S x w1 β1 sc1 bi1 w2 β2) (⟨t.val / 12, by omega⟩ : Fin 12) o : ℝ) : EReal)
  congr 1
  have ht : t.val = 12 * (t.val / 12) + 11 := by omega
  refine (congrArg (run fun k => sq1 x w1 β1 sc1 bi1 w2 β2 k o) ht).trans ?_
  refine run_rowSq (z2S x w1 β1 sc1 bi1 w2 β2) (⟨t.val / 12, by omega⟩ : Fin 12) o _ fun j hj => ?_
  show sq1 x w1 β1 sc1 bi1 w2 β2 (12 * (t.val / 12) + j) o = _
  unfold sq1
  rw [show (12 * (t.val / 12) + j) / 12 = t.val / 12 from by omega, show (12 * (t.val / 12) + j) % 12 = j from by omega]
  rfl

/-- Every index of window 8's array is in the block the last tile of its row writes back. -/
theorem cover1_8 (a : S12x1x16.Idx) :
    ∃ t : Fin cfg1.N, (cfg1.win 8).flush t = true ∧ a ∈ ((cfg1.win 8).blk t).view.set := by
  have h0 : (a 0).val < 12 := (a 0).isLt
  have h1 : (a 1).val < 1 := (a 1).isLt
  have h2 : (a 2).val < 16 := (a 2).isLt
  have hN : cfg1.N = 144 := N_1
  have ht : 12 * (a 0).val + 11 < cfg1.N := by rw [hN]; omega
  refine ⟨⟨12 * (a 0).val + 11, ht⟩, (flush1_8 _).mpr (by show (12 * (a 0).val + 11) % 12 = 11; omega), ?_⟩
  obtain ⟨e0_0, e0_1, e1_0, e1_1, e2_0, e2_1, e3_0, e4_0, e4_1, e5_0, e6_0, e7_0, e8_0, e8_1, e8_2, e9_0, e9_1, e9_2⟩ := idx1 ⟨12 * (a 0).val + 11, ht⟩
  have e0' : win1_8.index ⟨12 * (a 0).val + 11, ht⟩ (0 : Fin 3) = (a 0).val := by rw [e8_0]; show (12 * (a 0).val + 11) / 12 = _; omega
  show a ∈ ((View.whole main_v18_0).slice (win1_8.rect ⟨12 * (a 0).val + 11, ht⟩)).set
  rw [View.set_slice_whole, Rect.mem_set_unit]
  intro b
  match b with
  | ⟨0, _⟩ =>
    show win1_8.index ⟨12 * (a 0).val + 11, ht⟩ (0 : Fin 3) * 1 ≤ (a 0).val ∧ (a 0).val < win1_8.index ⟨12 * (a 0).val + 11, ht⟩ (0 : Fin 3) * 1 + 1
    rw [e0']; omega
  | ⟨1, _⟩ =>
    show win1_8.index ⟨12 * (a 0).val + 11, ht⟩ (1 : Fin 3) * 1 ≤ (a 1).val ∧ (a 1).val < win1_8.index ⟨12 * (a 0).val + 11, ht⟩ (1 : Fin 3) * 1 + 1
    rw [e8_1]; omega
  | ⟨2, _⟩ =>
    show win1_8.index ⟨12 * (a 0).val + 11, ht⟩ (2 : Fin 3) * 16 ≤ (a 2).val ∧ (a 2).val < win1_8.index ⟨12 * (a 0).val + 11, ht⟩ (2 : Fin 3) * 16 + 16
    rw [e8_2]; omega

/-- Every index of window 9's array is in the block the last tile of its row writes back. -/
theorem cover1_9 (a : S12x1x16.Idx) :
    ∃ t : Fin cfg1.N, (cfg1.win 9).flush t = true ∧ a ∈ ((cfg1.win 9).blk t).view.set := by
  have h0 : (a 0).val < 12 := (a 0).isLt
  have h1 : (a 1).val < 1 := (a 1).isLt
  have h2 : (a 2).val < 16 := (a 2).isLt
  have hN : cfg1.N = 144 := N_1
  have ht : 12 * (a 0).val + 11 < cfg1.N := by rw [hN]; omega
  refine ⟨⟨12 * (a 0).val + 11, ht⟩, (flush1_9 _).mpr (by show (12 * (a 0).val + 11) % 12 = 11; omega), ?_⟩
  obtain ⟨e0_0, e0_1, e1_0, e1_1, e2_0, e2_1, e3_0, e4_0, e4_1, e5_0, e6_0, e7_0, e8_0, e8_1, e8_2, e9_0, e9_1, e9_2⟩ := idx1 ⟨12 * (a 0).val + 11, ht⟩
  have e0' : win1_9.index ⟨12 * (a 0).val + 11, ht⟩ (0 : Fin 3) = (a 0).val := by rw [e9_0]; show (12 * (a 0).val + 11) / 12 = _; omega
  show a ∈ ((View.whole main_v18_1).slice (win1_9.rect ⟨12 * (a 0).val + 11, ht⟩)).set
  rw [View.set_slice_whole, Rect.mem_set_unit]
  intro b
  match b with
  | ⟨0, _⟩ =>
    show win1_9.index ⟨12 * (a 0).val + 11, ht⟩ (0 : Fin 3) * 1 ≤ (a 0).val ∧ (a 0).val < win1_9.index ⟨12 * (a 0).val + 11, ht⟩ (0 : Fin 3) * 1 + 1
    rw [e0']; omega
  | ⟨1, _⟩ =>
    show win1_9.index ⟨12 * (a 0).val + 11, ht⟩ (1 : Fin 3) * 1 ≤ (a 1).val ∧ (a 1).val < win1_9.index ⟨12 * (a 0).val + 11, ht⟩ (1 : Fin 3) * 1 + 1
    rw [e9_1]; omega
  | ⟨2, _⟩ =>
    show win1_9.index ⟨12 * (a 0).val + 11, ht⟩ (2 : Fin 3) * 16 ≤ (a 2).val ∧ (a 2).val < win1_9.index ⟨12 * (a 0).val + 11, ht⟩ (2 : Fin 3) * 16 + 16
    rw [e9_2]; omega

include hx hW1 hb1 hW2 hb2 hsc1 hbi1 in
/-- The sums' array after the region: at (i, 0, o) the total of channel o over row block i. -/
theorem arr1_8 (i : Fin 12) (o : Fin 16) :
    (dat1 V c).arrAt 8 cfg1.N (ix3 i (0 : Fin 1) o) = ((rowTot (z2S x w1 β1 sc1 bi1 w2 β2) i o : ℝ) : EReal) :=
  congrFun ((dat1 V c).arrAt_eq_of_cover 8 (G1_8 x w1 β1 sc1 bi1 w2 β2) (flushed1_8 V c x w1 β1 sc1 bi1 w2 β2 hx hW1 hb1 hW2 hb2 hsc1 hbi1) cover1_8) (ix3 i (0 : Fin 1) o)

include hx hW1 hb1 hW2 hb2 hsc1 hbi1 in
/-- The squares' array after the region: at (i, 0, o) the total of squares of channel o over row block i. -/
theorem arr1_9 (i : Fin 12) (o : Fin 16) :
    (dat1 V c).arrAt 9 cfg1.N (ix3 i (0 : Fin 1) o) = ((rowSq (z2S x w1 β1 sc1 bi1 w2 β2) i o : ℝ) : EReal) :=
  congrFun ((dat1 V c).arrAt_eq_of_cover 9 (G1_9 x w1 β1 sc1 bi1 w2 β2) (flushed1_9 V c x w1 β1 sc1 bi1 w2 β2 hx hW1 hb1 hW2 hb2 hsc1 hbi1) cover1_9) (ix3 i (0 : Fin 1) o)

end Region1

end Cert.KernelIdeal.Val

end
-- ==== Proof.Val.K2.lean ====
/-
  The third statistics kernel's stored values on a tile.

  The kernel recomputes two layers with their activations, applies the third linear layer, and adds to its two
  accumulators, per channel, the sum over the pairs of that layer and of its squares, the accumulator on the left.
-/
import proofs.«135850_j19774029431551_2_alg».proof.Proof.Val.Chain

noncomputable section

namespace Cert.KernelIdeal.Val

open Cert.KernelIdeal Cert.KernelIdeal.Gen
open Idealize.ShloMosaic Idealize.ShloMosaic.ValueIdx
open scoped BigOperators

variable (x0 x1 : Fin 64 → Fin 128 → ℝ) (W1 : Fin 16 → Fin 64 → ℝ) (b1 sc1 bi1 : Fin 16 → ℝ)
  (W2 : Fin 16 → Fin 16 → ℝ) (b2 sc2 bi2 : Fin 16 → ℝ) (W3 : Fin 8 → Fin 16 → ℝ) (b3 : Fin 8 → ℝ)

/-- The recomputed first activation. -/
theorem k2_pay4_eq : Gen.k2_pay4 (F := Ideal) (blk2 x0) (blk2 x1) (blk2 W1) (blk1 b1) (blk1 sc1) (blk1 bi1) = act1V x0 x1 W1 b1 sc1 bi1 := rfl

/-- The block the kernel sums is the third linear layer. -/
theorem k2_pay6_eq : Gen.k2_pay6 (F := Ideal) (Gen.k2_pay4 (blk2 x0) (blk2 x1) (blk2 W1) (blk1 b1) (blk1 sc1) (blk1 bi1)) (Gen.k2_pay5 (blk2 W2)) (constant (F := Ideal) S16x16384 .f32 0x00000000#32) (blk1 b2) (blk1 sc2) (blk1 bi2) (blk2 W3) (blk1 b3) = raw3V x0 x1 W1 b1 sc1 bi1 W2 b2 sc2 bi2 W3 b3 := rfl

/-- The stored sum: the accumulator plus the sum over the pairs of the third linear layer. -/
theorem k2_pay7_apply (s : Fin 8 → ℝ) (u v : Fin 1) (o : Fin 8) :
    Gen.k2_pay7 (F := Ideal) (Gen.k2_pay4 (blk2 x0) (blk2 x1) (blk2 W1) (blk1 b1) (blk1 sc1) (blk1 bi1)) (Gen.k2_pay5 (blk2 W2)) (constant (F := Ideal) S16x16384 .f32 0x00000000#32) (blk1 b2) (blk1 sc2) (blk1 bi2) (blk2 W3) (blk1 b3) (blkAcc s) (ix3 u v o)
      = ((s o + ∑ p : Fin 128, ∑ q : Fin 128, raw3 x0 x1 W1 b1 sc1 bi1 W2 b2 sc2 bi2 W3 b3 p q o : ℝ) : EReal) := by
  have e : Gen.k2_pay7 (F := Ideal) (Gen.k2_pay4 (blk2 x0) (blk2 x1) (blk2 W1) (blk1 b1) (blk1 sc1) (blk1 bi1)) (Gen.k2_pay5 (blk2 W2)) (constant (F := Ideal) S16x16384 .f32 0x00000000#32) (blk1 b2) (blk1 sc2) (blk1 bi2) (blk2 W3) (blk1 b3) (blkAcc s)
      = sumV (raw3V x0 x1 W1 b1 sc1 bi1 W2 b2 sc2 bi2 W3 b3) (blkAcc s) reduces_S8x16384_S8 shapeCasts_S1x1x8_S1x1x8 shapeCasts_S8_S1x1x8 := rfl
  rw [e]
  exact sumV_tile_apply _ _ _ _ _ (fun p q => raw3 x0 x1 W1 b1 sc1 bi1 W2 b2 sc2 bi2 W3 b3 p q o) (s o) u v o
    (fun p q => raw3V_apply x0 x1 W1 b1 sc1 bi1 W2 b2 sc2 bi2 W3 b3 p q o) rfl

/-- The stored sum of squares: the accumulator plus the sum over the pairs of the squares. -/
theorem k2_pay1_apply (s : Fin 8 → ℝ) (u v : Fin 1) (o : Fin 8) :
    Gen.k2_pay1 (F := Ideal) (Gen.k2_pay8 (blkAcc s)) (Gen.k2_pay9 (Gen.k2_pay4 (blk2 x0) (blk2 x1) (blk2 W1) (blk1 b1) (blk1 sc1) (blk1 bi1)) (Gen.k2_pay5 (blk2 W2)) (constant (F := Ideal) S16x16384 .f32 0x00000000#32) (blk1 b2) (blk1 sc2) (blk1 bi2) (blk2 W3) (blk1 b3)) (ix3 u v o)
      = ((s o + ∑ p : Fin 128, ∑ q : Fin 128, (raw3 x0 x1 W1 b1 sc1 bi1 W2 b2 sc2 bi2 W3 b3 p q o) ^ 2 : ℝ) : EReal) := by
  have e : Gen.k2_pay1 (F := Ideal) (Gen.k2_pay8 (blkAcc s)) (Gen.k2_pay9 (Gen.k2_pay4 (blk2 x0) (blk2 x1) (blk2 W1) (blk1 b1) (blk1 sc1) (blk1 bi1)) (Gen.k2_pay5 (blk2 W2)) (constant (F := Ideal) S16x16384 .f32 0x00000000#32) (blk1 b2) (blk1 sc2) (blk1 bi2) (blk2 W3) (blk1 b3))
      = sumV (mulf (raw3V x0 x1 W1 b1 sc1 bi1 W2 b2 sc2 bi2 W3 b3) (raw3V x0 x1 W1 b1 sc1 bi1 W2 b2 sc2 bi2 W3 b3)) (blkAcc s) reduces_S8x16384_S8 shapeCasts_S1x1x8_S1x1x8 shapeCasts_S8_S1x1x8 := rfl
  rw [e]
  exact sumV_tile_apply _ _ _ _ _ (fun p q => (raw3 x0 x1 W1 b1 sc1 bi1 W2 b2 sc2 bi2 W3 b3 p q o) ^ 2) (s o) u v o
    (fun p q => sq_apply _ _ _ (raw3V_apply x0 x1 W1 b1 sc1 bi1 W2 b2 sc2 bi2 W3 b3 p q o)) rfl

/-- The value the first step of a column of tiles stores: zero everywhere. -/
theorem k2_pay2_eq : Gen.k2_pay2 (F := Ideal) = fun _ => (0 : EReal) :=
  funext fun _ => Ideal.ofBits_zero_f32

/-- The value the first step of a column of tiles stores: zero everywhere. -/
theorem k2_pay3_eq : Gen.k2_pay3 (F := Ideal) = fun _ => (0 : EReal) :=
  funext fun _ => Ideal.ofBits_zero_f32

end Cert.KernelIdeal.Val

end
-- ==== Proof.Val.Glue2.lean ====
/-
  The third statistics region: from tiles to the arrays of totals.

  On a core whose buffers hold coercions of real arrays when the region is entered, every staged block is the coercion of
  a real block: the row and column blocks of the transposed input at the tile's row and column block, every weight, bias,
  scale and shift whole. The accumulators therefore hold, after every position, the coercions of the real running totals
  along the row of tiles; at the last tile of row i that is the row block's total over all columns, which the one
  write-back of the row stores at block i. The twelve write-backs cover the two arrays of totals.
-/
import proofs.«135850_j19774029431551_2_alg».proof.Proof.KernelIdeal.Dat2
import proofs.«135850_j19774029431551_2_alg».proof.Proof.Val.K2
import proofs.«135850_j19774029431551_2_alg».proof.Proof.Val.Acc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Val (rowIdx rowTot rowSq)
open scoped BigOperators

/-- The printed index maps, decided over the grid: at position t the row block is t / 12 and the column block t % 12, every
    other input is fetched whole, and an accumulator's block is the row's. -/
theorem idx2 : ∀ t : Fin cfg2.N,
    win2_0.index t (0 : Fin 2) = 0
    ∧ win2_0.index t (1 : Fin 2) = t.val / 12
    ∧ win2_1.index t (0 : Fin 2) = 0
    ∧ win2_1.index t (1 : Fin 2) = t.val % 12
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 1) = 0
    ∧ win2_6.index t (0 : Fin 2) = 0
    ∧ win2_6.index t (1 : Fin 2) = 0
    ∧ win2_7.index t (0 : Fin 1) = 0
    ∧ win2_8.index t (0 : Fin 1) = 0
    ∧ win2_9.index t (0 : Fin 1) = 0
    ∧ win2_10.index t (0 : Fin 1) = 0
    ∧ win2_11.index t (0 : Fin 1) = 0
    ∧ win2_12.index t (0 : Fin 3) = t.val / 12
    ∧ win2_12.index t (1 : Fin 3) = 0
    ∧ win2_12.index t (2 : Fin 3) = 0
    ∧ win2_13.index t (0 : Fin 3) = t.val / 12
    ∧ win2_13.index t (1 : Fin 3) = 0
    ∧ win2_13.index t (2 : Fin 3) = 0 :=
  (by decide +kernel : ∀ t : Fin grid2.N, _)

section Region2

variable (V : (c : Dev nD) → (b : Ref sig .tc) → Buf (Elt Ideal) ((c : Thread nD τ).loc b)) (c : Dev nD)
  (x : Fin 1536 → Fin 64 → ℝ) (w1 : Fin 16 → Fin 64 → ℝ) (β1 : Fin 16 → ℝ) (sc1 : Fin 16 → ℝ) (bi1 : Fin 16 → ℝ) (w2 : Fin 16 → Fin 16 → ℝ) (β2 : Fin 16 → ℝ) (sc2 : Fin 16 → ℝ) (bi2 : Fin 16 → ℝ) (w3 : Fin 8 → Fin 16 → ℝ) (β3 : Fin 8 → ℝ)
  (hx : ∀ k n, V c main_v0 (ix2 k n) = ((x n k : ℝ) : EReal))
  (hW1 : ∀ o k, V c main_arg1 (ix2 o k) = ((w1 o k : ℝ) : EReal))
  (hb1 : ∀ o, V c main_arg2 (ix1 o) = ((β1 o : ℝ) : EReal))
  (hW2 : ∀ o k, V c main_arg5 (ix2 o k) = ((w2 o k : ℝ) : EReal))
  (hb2 : ∀ o, V c main_arg6 (ix1 o) = ((β2 o : ℝ) : EReal))
  (hW3 : ∀ o k, V c main_arg9 (ix2 o k) = ((w3 o k : ℝ) : EReal))
  (hb3 : ∀ o, V c main_arg10 (ix1 o) = ((β3 o : ℝ) : EReal))
  (hsc1 : ∀ o, V c main_v15 (ix1 o) = ((sc1 o : ℝ) : EReal))
  (hbi1 : ∀ o, V c main_v17 (ix1 o) = ((bi1 o : ℝ) : EReal))
  (hsc2 : ∀ o, V c main_v32 (ix1 o) = ((sc2 o : ℝ) : EReal))
  (hbi2 : ∀ o, V c main_v34 (ix1 o) = ((bi2 o : ℝ) : EReal))

/-! ## The staged blocks -/

include hx in
/-- The row block at position t: block t / 12 of the input, channels first. -/
theorem iblk2_0_eq (t : Fin cfg2.N) : (iblk2 V c 0 t : Vec Ideal S64x128 .f32) = blk2 (xblk x (t.val / 12)) := by
  have hN : t.val < 144 := lt_of_lt_of_eq t.isLt (show cfg2.N = 144 from N_2)
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨k, p, rfl⟩ : ∃ (k : Fin 64) (p : Fin 128), j = ix2 k p := ⟨j 0, j 1, eq_ix2 j⟩
  show V c main_v0 (((cfg2.win 0).blk t).view.emb (ix2 k p)) = _
  have he : ((cfg2.win 0).blk t).view.emb (ix2 k p) = ix2 k (rowN (t.val / 12) p) := by
    funext a; apply Fin.ext
    match a with
    | ⟨0, _⟩ => show win2_0.index t (0 : Fin 2) * 64 + 1 * k.val = k.val; rw [e0_0]; omega
    | ⟨1, _⟩ =>
      show win2_0.index t (1 : Fin 2) * 128 + 1 * p.val = (128 * (t.val / 12) + p.val) % 1536
      have := p.isLt; rw [e0_1]; omega
  rw [he, hx]; rfl

include hx in
/-- The column block at position t: block t % 12 of the input, channels first. -/
theorem iblk2_1_eq (t : Fin cfg2.N) : (iblk2 V c 1 t : Vec Ideal S64x128 .f32) = blk2 (xblk x (t.val % 12)) := by
  have hN : t.val < 144 := lt_of_lt_of_eq t.isLt (show cfg2.N = 144 from N_2)
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨k, p, rfl⟩ : ∃ (k : Fin 64) (p : Fin 128), j = ix2 k p := ⟨j 0, j 1, eq_ix2 j⟩
  show V c main_v0 (((cfg2.win 1).blk t).view.emb (ix2 k p)) = _
  have he : ((cfg2.win 1).blk t).view.emb (ix2 k p) = ix2 k (rowN (t.val % 12) p) := by
    funext a; apply Fin.ext
    match a with
    | ⟨0, _⟩ => show win2_1.index t (0 : Fin 2) * 64 + 1 * k.val = k.val; rw [e1_0]; omega
    | ⟨1, _⟩ =>
      show win2_1.index t (1 : Fin 2) * 128 + 1 * p.val = (128 * (t.val % 12) + p.val) % 1536
      have := p.isLt; rw [e1_1]; omega
  rw [he, hx]; rfl

include hW1 in
/-- Window 2's block, fetched whole, at every position. -/
theorem iblk2_2_eq (t : Fin cfg2.N) : (iblk2 V c 2 t : Vec Ideal S16x64 .f32) = blk2 w1 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, k, rfl⟩ : ∃ (o : Fin 16) (k : Fin 64), j = ix2 o k := ⟨j 0, j 1, eq_ix2 j⟩
  show V c main_arg1 (((cfg2.win 2).blk t).view.emb (ix2 o k)) = _
  have he : ((cfg2.win 2).blk t).view.emb (ix2 o k) = ix2 o k := by
    funext a; apply Fin.ext
    match a with
    | ⟨0, _⟩ => show win2_2.index t (0 : Fin 2) * 16 + 1 * o.val = o.val; rw [e2_0]; omega
    | ⟨1, _⟩ => show win2_2.index t (1 : Fin 2) * 64 + 1 * k.val = k.val; rw [e2_1]; omega
  rw [he, hW1]; rfl

include hb1 in
/-- Window 3's block, fetched whole, at every position. -/
theorem iblk2_3_eq (t : Fin cfg2.N) : (iblk2 V c 3 t : Vec Ideal S16 .f32) = blk1 β1 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, rfl⟩ : ∃ (o : Fin 16), j = ix1 o := ⟨j 0, eq_ix1 j⟩
  show V c main_arg2 (((cfg2.win 3).blk t).view.emb (ix1 o)) = _
  have he : ((cfg2.win 3).blk t).view.emb (ix1 o) = ix1 o := by
    funext a; apply Fin.ext
    match a with
    | ⟨0, _⟩ => show win2_3.index t (0 : Fin 1) * 16 + 1 * o.val = o.val; rw [e3_0]; omega
  rw [he, hb1]; rfl

include hW2 in
/-- Window 4's block, fetched whole, at every position. -/
theorem iblk2_4_eq (t : Fin cfg2.N) : (iblk2 V c 4 t : Vec Ideal S16x16 .f32) = blk2 w2 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, k, rfl⟩ : ∃ (o : Fin 16) (k : Fin 16), j = ix2 o k := ⟨j 0, j 1, eq_ix2 j⟩
  show V c main_arg5 (((cfg2.win 4).blk t).view.emb (ix2 o k)) = _
  have he : ((cfg2.win 4).blk t).view.emb (ix2 o k) = ix2 o k := by
    funext a; apply Fin.ext
    match a with
    | ⟨0, _⟩ => show win2_4.index t (0 : Fin 2) * 16 + 1 * o.val = o.val; rw [e4_0]; omega
    | ⟨1, _⟩ => show win2_4.index t (1 : Fin 2) * 16 + 1 * k.val = k.val; rw [e4_1]; omega
  rw [he, hW2]; rfl

include hb2 in
/-- Window 5's block, fetched whole, at every position. -/
theorem iblk2_5_eq (t : Fin cfg2.N) : (iblk2 V c 5 t : Vec Ideal S16 .f32) = blk1 β2 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, rfl⟩ : ∃ (o : Fin 16), j = ix1 o := ⟨j 0, eq_ix1 j⟩
  show V c main_arg6 (((cfg2.win 5).blk t).view.emb (ix1 o)) = _
  have he : ((cfg2.win 5).blk t).view.emb (ix1 o) = ix1 o := by
    funext a; apply Fin.ext
    match a with
    | ⟨0, _⟩ => show win2_5.index t (0 : Fin 1) * 16 + 1 * o.val = o.val; rw [e5_0]; omega
  rw [he, hb2]; rfl

include hW3 in
/-- Window 6's block, fetched whole, at every position. -/
theorem iblk2_6_eq (t : Fin cfg2.N) : (iblk2 V c 6 t : Vec Ideal S8x16 .f32) = blk2 w3 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, k, rfl⟩ : ∃ (o : Fin 8) (k : Fin 16), j = ix2 o k := ⟨j 0, j 1, eq_ix2 j⟩
  show V c main_arg9 (((cfg2.win 6).blk t).view.emb (ix2 o k)) = _
  have he : ((cfg2.win 6).blk t).view.emb (ix2 o k) = ix2 o k := by
    funext a; apply Fin.ext
    match a with
    | ⟨0, _⟩ => show win2_6.index t (0 : Fin 2) * 8 + 1 * o.val = o.val; rw [e6_0]; omega
    | ⟨1, _⟩ => show win2_6.index t (1 : Fin 2) * 16 + 1 * k.val = k.val; rw [e6_1]; omega
  rw [he, hW3]; rfl

include hb3 in
/-- Window 7's block, fetched whole, at every position. -/
theorem iblk2_7_eq (t : Fin cfg2.N) : (iblk2 V c 7 t : Vec Ideal S8 .f32) = blk1 β3 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, rfl⟩ : ∃ (o : Fin 8), j = ix1 o := ⟨j 0, eq_ix1 j⟩
  show V c main_arg10 (((cfg2.win 7).blk t).view.emb (ix1 o)) = _
  have he : ((cfg2.win 7).blk t).view.emb (ix1 o) = ix1 o := by
    funext a; apply Fin.ext
    match a with
    | ⟨0, _⟩ => show win2_7.index t (0 : Fin 1) * 8 + 1 * o.val = o.val; rw [e7_0]; omega
  rw [he, hb3]; rfl

include hsc1 in
/-- Window 8's block, fetched whole, at every position. -/
theorem iblk2_8_eq (t : Fin cfg2.N) : (iblk2 V c 8 t : Vec Ideal S16 .f32) = blk1 sc1 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, rfl⟩ : ∃ (o : Fin 16), j = ix1 o := ⟨j 0, eq_ix1 j⟩
  show V c main_v15 (((cfg2.win 8).blk t).view.emb (ix1 o)) = _
  have he : ((cfg2.win 8).blk t).view.emb (ix1 o) = ix1 o := by
    funext a; apply Fin.ext
    match a with
    | ⟨0, _⟩ => show win2_8.index t (0 : Fin 1) * 16 + 1 * o.val = o.val; rw [e8_0]; omega
  rw [he, hsc1]; rfl

include hbi1 in
/-- Window 9's block, fetched whole, at every position. -/
theorem iblk2_9_eq (t : Fin cfg2.N) : (iblk2 V c 9 t : Vec Ideal S16 .f32) = blk1 bi1 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, rfl⟩ : ∃ (o : Fin 16), j = ix1 o := ⟨j 0, eq_ix1 j⟩
  show V c main_v17 (((cfg2.win 9).blk t).view.emb (ix1 o)) = _
  have he : ((cfg2.win 9).blk t).view.emb (ix1 o) = ix1 o := by
    funext a; apply Fin.ext
    match a with
    | ⟨0, _⟩ => show win2_9.index t (0 : Fin 1) * 16 + 1 * o.val = o.val; rw [e9_0]; omega
  rw [he, hbi1]; rfl

include hsc2 in
/-- Window 10's block, fetched whole, at every position. -/
theorem iblk2_10_eq (t : Fin cfg2.N) : (iblk2 V c 10 t : Vec Ideal S16 .f32) = blk1 sc2 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, rfl⟩ : ∃ (o : Fin 16), j = ix1 o := ⟨j 0, eq_ix1 j⟩
  show V c main_v32 (((cfg2.win 10).blk t).view.emb (ix1 o)) = _
  have he : ((cfg2.win 10).blk t).view.emb (ix1 o) = ix1 o := by
    funext a; apply Fin.ext
    match a with
    | ⟨0, _⟩ => show win2_10.index t (0 : Fin 1) * 16 + 1 * o.val = o.val; rw [e10_0]; omega
  rw [he, hsc2]; rfl

include hbi2 in
/-- Window 11's block, fetched whole, at every position. -/
theorem iblk2_11_eq (t : Fin cfg2.N) : (iblk2 V c 11 t : Vec Ideal S16 .f32) = blk1 bi2 := by
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  funext j
  obtain ⟨o, rfl⟩ : ∃ (o : Fin 16), j = ix1 o := ⟨j 0, eq_ix1 j⟩
  show V c main_v34 (((cfg2.win 11).blk t).view.emb (ix1 o)) = _
  have he : ((cfg2.win 11).blk t).view.emb (ix1 o) = ix1 o := by
    funext a; apply Fin.ext
    match a with
    | ⟨0, _⟩ => show win2_11.index t (0 : Fin 1) * 16 + 1 * o.val = o.val; rw [e11_0]; omega
  rw [he, hbi2]; rfl

/-! ## The accumulators along a row of tiles -/

/-- The tile at position n's total of the region's linear layer, per channel. -/
def tot2 (n : ℕ) (o : Fin 8) : ℝ :=
  ∑ p : Fin 128, ∑ q : Fin 128, raw3 (xblk x (n / 12)) (xblk x (n % 12)) w1 β1 sc1 bi1 w2 β2 sc2 bi2 w3 β3 p q o

/-- The tile at position n's total of squares of the region's linear layer, per channel. -/
def sq2 (n : ℕ) (o : Fin 8) : ℝ :=
  ∑ p : Fin 128, ∑ q : Fin 128, (raw3 (xblk x (n / 12)) (xblk x (n % 12)) w1 β1 sc1 bi1 w2 β2 sc2 bi2 w3 β3 p q o) ^ 2

include hx hW1 hb1 hW2 hb2 hW3 hb3 hsc1 hbi1 hsc2 hbi2 in
/-- Window 12's accumulator after every position: the coercion of the running total. -/
theorem acc2_12_eq : ∀ n hn, acc2_12 V c n hn = blkAcc (fun o => run (fun k => tot2 x w1 β1 sc1 bi1 w2 β2 sc2 bi2 w3 β3 k o) n) :=
  acc_run (acc2_12 V c) (tot2 x w1 β1 sc1 bi1 w2 β2 sc2 bi2 w3 β3)
    (fun n hn h => by
      rw [acc2_12_reset V c ⟨n, hn⟩ h, iblk2_0_eq V c x hx, iblk2_1_eq V c x hx, iblk2_2_eq V c w1 hW1, iblk2_3_eq V c β1 hb1, iblk2_4_eq V c w2 hW2, iblk2_5_eq V c β2 hb2, iblk2_6_eq V c w3 hW3, iblk2_7_eq V c β3 hb3, iblk2_8_eq V c sc1 hsc1, iblk2_9_eq V c bi1 hbi1, iblk2_10_eq V c sc2 hsc2, iblk2_11_eq V c bi2 hbi2, k2_pay2_eq, zero_eq_blkAcc]
      unfold val2_12
      exact acc_ext _ _ fun u v o => k2_pay7_apply _ _ _ _ _ _ _ _ _ _ _ _ _ u v o)
    (fun n hn h s hs => by
      rw [acc2_12_acc V c ⟨n + 1, hn⟩ h, iblk2_0_eq V c x hx, iblk2_1_eq V c x hx, iblk2_2_eq V c w1 hW1, iblk2_3_eq V c β1 hb1, iblk2_4_eq V c w2 hW2, iblk2_5_eq V c β2 hb2, iblk2_6_eq V c w3 hW3, iblk2_7_eq V c β3 hb3, iblk2_8_eq V c sc1 hsc1, iblk2_9_eq V c bi1 hbi1, iblk2_10_eq V c sc2 hsc2, iblk2_11_eq V c bi2 hbi2]
      show val2_12 _ _ _ _ _ _ _ _ _ _ _ _ (acc2_12 V c n _) = _
      rw [hs]
      unfold val2_12
      exact acc_ext _ _ fun u v o => k2_pay7_apply _ _ _ _ _ _ _ _ _ _ _ _ _ u v o)

include hx hW1 hb1 hW2 hb2 hW3 hb3 hsc1 hbi1 hsc2 hbi2 in
/-- Window 13's accumulator after every position: the coercion of the running total. -/
theorem acc2_13_eq : ∀ n hn, acc2_13 V c n hn = blkAcc (fun o => run (fun k => sq2 x w1 β1 sc1 bi1 w2 β2 sc2 bi2 w3 β3 k o) n) :=
  acc_run (acc2_13 V c) (sq2 x w1 β1 sc1 bi1 w2 β2 sc2 bi2 w3 β3)
    (fun n hn h => by
      rw [acc2_13_reset V c ⟨n, hn⟩ h, iblk2_0_eq V c x hx, iblk2_1_eq V c x hx, iblk2_2_eq V c w1 hW1, iblk2_3_eq V c β1 hb1, iblk2_4_eq V c w2 hW2, iblk2_5_eq V c β2 hb2, iblk2_6_eq V c w3 hW3, iblk2_7_eq V c β3 hb3, iblk2_8_eq V c sc1 hsc1, iblk2_9_eq V c bi1 hbi1, iblk2_10_eq V c sc2 hsc2, iblk2_11_eq V c bi2 hbi2, k2_pay3_eq, zero_eq_blkAcc]
      unfold val2_13
      exact acc_ext _ _ fun u v o => k2_pay1_apply _ _ _ _ _ _ _ _ _ _ _ _ _ u v o)
    (fun n hn h s hs => by
      rw [acc2_13_acc V c ⟨n + 1, hn⟩ h, iblk2_0_eq V c x hx, iblk2_1_eq V c x hx, iblk2_2_eq V c w1 hW1, iblk2_3_eq V c β1 hb1, iblk2_4_eq V c w2 hW2, iblk2_5_eq V c β2 hb2, iblk2_6_eq V c w3 hW3, iblk2_7_eq V c β3 hb3, iblk2_8_eq V c sc1 hsc1, iblk2_9_eq V c bi1 hbi1, iblk2_10_eq V c sc2 hsc2, iblk2_11_eq V c bi2 hbi2]
      show val2_13 _ _ _ _ _ _ _ _ _ _ _ _ (acc2_13 V c n _) = _
      rw [hs]
      unfold val2_13
      exact acc_ext _ _ fun u v o => k2_pay1_apply _ _ _ _ _ _ _ _ _ _ _ _ _ u v o)

/-! ## The arrays of totals -/

/-- The array of row-block totals of the region's linear layer. -/
def G2_12 : S12x1x8.Idx → EReal := fun a => ((rowTot (z3S x w1 β1 sc1 bi1 w2 β2 sc2 bi2 w3 β3) (a 0) (a 2) : ℝ) : EReal)
/-- The array of row-block totals of squares of the region's linear layer. -/
def G2_13 : S12x1x8.Idx → EReal := fun a => ((rowSq (z3S x w1 β1 sc1 bi1 w2 β2 sc2 bi2 w3 β3) (a 0) (a 2) : ℝ) : EReal)

include hx hW1 hb1 hW2 hb2 hW3 hb3 hsc1 hbi1 hsc2 hbi2 in
/-- What window 12's write-back after the last tile of a row writes: the row block's totals. -/
theorem flushed2_12 (t : Fin cfg2.N) (hf : (cfg2.win 12).flush t = true) :
    (dat2 V c).flushed 12 t = ((cfg2.win 12).blk t).view.read (Elt Ideal) (G2_12 x w1 β1 sc1 bi1 w2 β2 sc2 bi2 w3 β3) := by
  have hN : t.val < 144 := lt_of_lt_of_eq t.isLt (show cfg2.N = 144 from N_2)
  have h11 : t.val % 12 = 11 := (flush2_12 t).mp hf
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  show (cfg2.win 12).cut (grid2.coords t) ((dat2 V c).after 12 t) = _
  rw [after2_12, acc2_12_eq V c x w1 β1 sc1 bi1 w2 β2 sc2 bi2 w3 β3 hx hW1 hb1 hW2 hb2 hW3 hb3 hsc1 hbi1 hsc2 hbi2]
  funext j
  obtain ⟨u, v, o, rfl⟩ : ∃ (u v : Fin 1) (o : Fin 8), j = ix3 u v o := ⟨j 0, j 1, j 2, eq_ix3 j⟩
  show ((run (fun k => tot2 x w1 β1 sc1 bi1 w2 β2 sc2 bi2 w3 β3 k o) t.val : ℝ) : EReal) = G2_12 x w1 β1 sc1 bi1 w2 β2 sc2 bi2 w3 β3 (((cfg2.win 12).blk t).view.emb (ix3 u v o))
  have he : ((cfg2.win 12).blk t).view.emb (ix3 u v o) = ix3 (⟨t.val / 12, by omega⟩ : Fin 12) (0 : Fin 1) o := by
    funext a; apply Fin.ext
    match a with
    | ⟨0, _⟩ => show win2_12.index t (0 : Fin 3) * 1 + 1 * u.val = t.val / 12; rw [e12_0]; omega
    | ⟨1, _⟩ => show win2_12.index t (1 : Fin 3) * 1 + 1 * v.val = 0; rw [e12_1]; omega
    | ⟨2, _⟩ => show win2_12.index t (2 : Fin 3) * 8 + 1 * o.val = o.val; rw [e12_2]; omega
  rw [he]
  show _ = ((rowTot (z3S x w1 β1 sc1 bi1 w2 β2 sc2 bi2 w3 β3) (⟨t.val / 12, by omega⟩ : Fin 12) o : ℝ) : EReal)
  congr 1
  have ht : t.val = 12 * (t.val / 12) + 11 := by omega
  refine (congrArg (run fun k => tot2 x w1 β1 sc1 bi1 w2 β2 sc2 bi2 w3 β3 k o) ht).trans ?_
  refine run_rowTot (z3S x w1 β1 sc1 bi1 w2 β2 sc2 bi2 w3 β3) (⟨t.val / 12, by omega⟩ : Fin 12) o _ fun j hj => ?_
  show tot2 x w1 β1 sc1 bi1 w2 β2 sc2 bi2 w3 β3 (12 * (t.val / 12) + j) o = _
  unfold tot2
  rw [show (12 * (t.val / 12) + j) / 12 = t.val / 12 from by omega, show (12 * (t.val / 12) + j) % 12 = j from by omega]
  rfl

include hx hW1 hb1 hW2 hb2 hW3 hb3 hsc1 hbi1 hsc2 hbi2 in
/-- What window 13's write-back after the last tile of a row writes: the row block's totals of squares. -/
theorem flushed2_13 (t : Fin cfg2.N) (hf : (cfg2.win 13).flush t = true) :
    (dat2 V c).flushed 13 t = ((cfg2.win 13).blk t).view.read (Elt Ideal) (G2_13 x w1 β1 sc1 bi1 w2 β2 sc2 bi2 w3 β3) := by
  have hN : t.val < 144 := lt_of_lt_of_eq t.isLt (show cfg2.N = 144 from N_2)
  have h11 : t.val % 12 = 11 := (flush2_13 t).mp hf
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 t
  show (cfg2.win 13).cut (grid2.coords t) ((dat2 V c).after 13 t) = _
  rw [after2_13, acc2_13_eq V c x w1 β1 sc1 bi1 w2 β2 sc2 bi2 w3 β3 hx hW1 hb1 hW2 hb2 hW3 hb3 hsc1 hbi1 hsc2 hbi2]
  funext j
  obtain ⟨u, v, o, rfl⟩ : ∃ (u v : Fin 1) (o : Fin 8), j = ix3 u v o := ⟨j 0, j 1, j 2, eq_ix3 j⟩
  show ((run (fun k => sq2 x w1 β1 sc1 bi1 w2 β2 sc2 bi2 w3 β3 k o) t.val : ℝ) : EReal) = G2_13 x w1 β1 sc1 bi1 w2 β2 sc2 bi2 w3 β3 (((cfg2.win 13).blk t).view.emb (ix3 u v o))
  have he : ((cfg2.win 13).blk t).view.emb (ix3 u v o) = ix3 (⟨t.val / 12, by omega⟩ : Fin 12) (0 : Fin 1) o := by
    funext a; apply Fin.ext
    match a with
    | ⟨0, _⟩ => show win2_13.index t (0 : Fin 3) * 1 + 1 * u.val = t.val / 12; rw [e13_0]; omega
    | ⟨1, _⟩ => show win2_13.index t (1 : Fin 3) * 1 + 1 * v.val = 0; rw [e13_1]; omega
    | ⟨2, _⟩ => show win2_13.index t (2 : Fin 3) * 8 + 1 * o.val = o.val; rw [e13_2]; omega
  rw [he]
  show _ = ((rowSq (z3S x w1 β1 sc1 bi1 w2 β2 sc2 bi2 w3 β3) (⟨t.val / 12, by omega⟩ : Fin 12) o : ℝ) : EReal)
  congr 1
  have ht : t.val = 12 * (t.val / 12) + 11 := by omega
  refine (congrArg (run fun k => sq2 x w1 β1 sc1 bi1 w2 β2 sc2 bi2 w3 β3 k o) ht).trans ?_
  refine run_rowSq (z3S x w1 β1 sc1 bi1 w2 β2 sc2 bi2 w3 β3) (⟨t.val / 12, by omega⟩ : Fin 12) o _ fun j hj => ?_
  show sq2 x w1 β1 sc1 bi1 w2 β2 sc2 bi2 w3 β3 (12 * (t.val / 12) + j) o = _
  unfold sq2
  rw [show (12 * (t.val / 12) + j) / 12 = t.val / 12 from by omega, show (12 * (t.val / 12) + j) % 12 = j from by omega]
  rfl

/-- Every index of window 12's array is in the block the last tile of its row writes back. -/
theorem cover2_12 (a : S12x1x8.Idx) :
    ∃ t : Fin cfg2.N, (cfg2.win 12).flush t = true ∧ a ∈ ((cfg2.win 12).blk t).view.set := by
  have h0 : (a 0).val < 12 := (a 0).isLt
  have h1 : (a 1).val < 1 := (a 1).isLt
  have h2 : (a 2).val < 8 := (a 2).isLt
  have hN : cfg2.N = 144 := N_2
  have ht : 12 * (a 0).val + 11 < cfg2.N := by rw [hN]; omega
  refine ⟨⟨12 * (a 0).val + 11, ht⟩, (flush2_12 _).mpr (by show (12 * (a 0).val + 11) % 12 = 11; omega), ?_⟩
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 ⟨12 * (a 0).val + 11, ht⟩
  have e0' : win2_12.index ⟨12 * (a 0).val + 11, ht⟩ (0 : Fin 3) = (a 0).val := by rw [e12_0]; show (12 * (a 0).val + 11) / 12 = _; omega
  show a ∈ ((View.whole main_v35_0).slice (win2_12.rect ⟨12 * (a 0).val + 11, ht⟩)).set
  rw [View.set_slice_whole, Rect.mem_set_unit]
  intro b
  match b with
  | ⟨0, _⟩ =>
    show win2_12.index ⟨12 * (a 0).val + 11, ht⟩ (0 : Fin 3) * 1 ≤ (a 0).val ∧ (a 0).val < win2_12.index ⟨12 * (a 0).val + 11, ht⟩ (0 : Fin 3) * 1 + 1
    rw [e0']; omega
  | ⟨1, _⟩ =>
    show win2_12.index ⟨12 * (a 0).val + 11, ht⟩ (1 : Fin 3) * 1 ≤ (a 1).val ∧ (a 1).val < win2_12.index ⟨12 * (a 0).val + 11, ht⟩ (1 : Fin 3) * 1 + 1
    rw [e12_1]; omega
  | ⟨2, _⟩ =>
    show win2_12.index ⟨12 * (a 0).val + 11, ht⟩ (2 : Fin 3) * 8 ≤ (a 2).val ∧ (a 2).val < win2_12.index ⟨12 * (a 0).val + 11, ht⟩ (2 : Fin 3) * 8 + 8
    rw [e12_2]; omega

/-- Every index of window 13's array is in the block the last tile of its row writes back. -/
theorem cover2_13 (a : S12x1x8.Idx) :
    ∃ t : Fin cfg2.N, (cfg2.win 13).flush t = true ∧ a ∈ ((cfg2.win 13).blk t).view.set := by
  have h0 : (a 0).val < 12 := (a 0).isLt
  have h1 : (a 1).val < 1 := (a 1).isLt
  have h2 : (a 2).val < 8 := (a 2).isLt
  have hN : cfg2.N = 144 := N_2
  have ht : 12 * (a 0).val + 11 < cfg2.N := by rw [hN]; omega
  refine ⟨⟨12 * (a 0).val + 11, ht⟩, (flush2_13 _).mpr (by show (12 * (a 0).val + 11) % 12 = 11; omega), ?_⟩
  obtain ⟨e0_0, e0_1, e1_0, e1_1, e2_0, e2_1, e3_0, e4_0, e4_1, e5_0, e6_0, e6_1, e7_0, e8_0, e9_0, e10_0, e11_0, e12_0, e12_1, e12_2, e13_0, e13_1, e13_2⟩ := idx2 ⟨12 * (a 0).val + 11, ht⟩
  have e0' : win2_13.index ⟨12 * (a 0).val + 11, ht⟩ (0 : Fin 3) = (a 0).val := by rw [e13_0]; show (12 * (a 0).val + 11) / 12 = _; omega
  show a ∈ ((View.whole main_v35_1).slice (win2_13.rect ⟨12 * (a 0).val + 11, ht⟩)).set
  rw [View.set_slice_whole, Rect.mem_set_unit]
  intro b
  match b with
  | ⟨0, _⟩ =>
    show win2_13.index ⟨12 * (a 0).val + 11, ht⟩ (0 : Fin 3) * 1 ≤ (a 0).val ∧ (a 0).val < win2_13.index ⟨12 * (a 0).val + 11, ht⟩ (0 : Fin 3) * 1 + 1
    rw [e0']; omega
  | ⟨1, _⟩ =>
    show win2_13.index ⟨12 * (a 0).val + 11, ht⟩ (1 : Fin 3) * 1 ≤ (a 1).val ∧ (a 1).val < win2_13.index ⟨12 * (a 0).val + 11, ht⟩ (1 : Fin 3) * 1 + 1
    rw [e13_1]; omega
  | ⟨2, _⟩ =>
    show win2_13.index ⟨12 * (a 0).val + 11, ht⟩ (2 : Fin 3) * 8 ≤ (a 2).val ∧ (a 2).val < win2_13.index ⟨12 * (a 0).val + 11, ht⟩ (2 : Fin 3) * 8 + 8
    rw [e13_2]; omega

include hx hW1 hb1 hW2 hb2 hW3 hb3 hsc1 hbi1 hsc2 hbi2 in
/-- The sums' array after the region: at (i, 0, o) the total of channel o over row block i. -/
theorem arr2_12 (i : Fin 12) (o : Fin 8) :
    (dat2 V c).arrAt 12 cfg2.N (ix3 i (0 : Fin 1) o) = ((rowTot (z3S x w1 β1 sc1 bi1 w2 β2 sc2 bi2 w3 β3) i o : ℝ) : EReal) :=
  congrFun ((dat2 V c).arrAt_eq_of_cover 12 (G2_12 x w1 β1 sc1 bi1 w2 β2 sc2 bi2 w3 β3) (flushed2_12 V c x w1 β1 sc1 bi1 w2 β2 sc2 bi2 w3 β3 hx hW1 hb1 hW2 hb2 hW3 hb3 hsc1 hbi1 hsc2 hbi2) cover2_12) (ix3 i (0 : Fin 1) o)

include hx hW1 hb1 hW2 hb2 hW3 hb3 hsc1 hbi1 hsc2 hbi2 in
/-- The squares' array after the region: at (i, 0, o) the total of squares of channel o over row block i. -/
theorem arr2_13 (i : Fin 12) (o : Fin 8) :
    (dat2 V c).arrAt 13 cfg2.N (ix3 i (0 : Fin 1) o) = ((rowSq (z3S x w1 β1 sc1 bi1 w2 β2 sc2 bi2 w3 β3) i o : ℝ) : EReal) :=
  congrFun ((dat2 V c).arrAt_eq_of_cover 13 (G2_13 x w1 β1 sc1 bi1 w2 β2 sc2 bi2 w3 β3) (flushed2_13 V c x w1 β1 sc1 bi1 w2 β2 sc2 bi2 w3 β3 hx hW1 hb1 hW2 hb2 hW3 hb3 hsc1 hbi1 hsc2 hbi2) cover2_13) (ix3 i (0 : Fin 1) o)

end Region2

end Cert.KernelIdeal.Val

end
-- ==== Proof.Val.K3.lean ====
/-
  The fourth statistics kernel's stored values on a tile.

  The kernel recomputes three layers with their activations, applies the fourth linear layer, and adds to its two
  accumulators, per channel, the sum over the pairs of that layer and of its squares, the accumulator on the left.
-/
import proofs.«135850_j19774029431551_2_alg».proof.Proof.Val.Chain

noncomputable section

namespace Cert.KernelIdeal.Val

open Cert.KernelIdeal Cert.KernelIdeal.Gen
open Idealize.ShloMosaic Idealize.ShloMosaic.ValueIdx
open scoped BigOperators

variable (x0 x1 : Fin 64 → Fin 128 → ℝ) (W1 : Fin 16 → Fin 64 → ℝ) (b1 sc1 bi1 : Fin 16 → ℝ)
  (W2 : Fin 16 → Fin 16 → ℝ) (b2 sc2 bi2 : Fin 16 → ℝ) (W3 : Fin 8 → Fin 16 → ℝ) (b3 sc3 bi3 : Fin 8 → ℝ)
  (W4 : Fin 8 → Fin 8 → ℝ) (b4 : Fin 8 → ℝ)

/-- The recomputed first activation. -/
theorem k3_pay6_eq : Gen.k3_pay6 (F := Ideal) (blk2 x0) (blk2 x1) (blk2 W1) (blk1 b1) (blk1 sc1) (blk1 bi1) = act1V x0 x1 W1 b1 sc1 bi1 := rfl

/-- The recomputed third activation. -/
theorem k3_pay8_eq : Gen.k3_pay8 (F := Ideal) (Gen.k3_pay6 (blk2 x0) (blk2 x1) (blk2 W1) (blk1 b1) (blk1 sc1) (blk1 bi1)) (Gen.k3_pay7 (blk2 W2)) (constant (F := Ideal) S16x16384 .f32 0x00000000#32) (blk1 b2) (blk1 sc2) (blk1 bi2) (blk2 W3) (blk1 b3) (blk1 sc3) (blk1 bi3) = act3V x0 x1 W1 b1 sc1 bi1 W2 b2 sc2 bi2 W3 b3 sc3 bi3 := rfl

/-- The block the kernel sums is the fourth linear layer. -/
theorem k3_pay1_eq : Gen.k3_pay1 (F := Ideal) (Gen.k3_pay8 (Gen.k3_pay6 (blk2 x0) (blk2 x1) (blk2 W1) (blk1 b1) (blk1 sc1) (blk1 bi1)) (Gen.k3_pay7 (blk2 W2)) (constant (F := Ideal) S16x16384 .f32 0x00000000#32) (blk1 b2) (blk1 sc2) (blk1 bi2) (blk2 W3) (blk1 b3) (blk1 sc3) (blk1 bi3)) (blk2 W4) (blk1 b4) = raw4V x0 x1 W1 b1 sc1 bi1 W2 b2 sc2 bi2 W3 b3 sc3 bi3 W4 b4 := rfl

/-- The stored sum: the accumulator plus the sum over the pairs of the fourth linear layer. -/
theorem k3_pay2_apply (s : Fin 8 → ℝ) (u v : Fin 1) (o : Fin 8) :
    Gen.k3_pay2 (F := Ideal) (Gen.k3_pay8 (Gen.k3_pay6 (blk2 x0) (blk2 x1) (blk2 W1) (blk1 b1) (blk1 sc1) (blk1 bi1)) (Gen.k3_pay7 (blk2 W2)) (constant (F := Ideal) S16x16384 .f32 0x00000000#32) (blk1 b2) (blk1 sc2) (blk1 bi2) (blk2 W3) (blk1 b3) (blk1 sc3) (blk1 bi3)) (blk2 W4) (blk1 b4) (blkAcc s) (ix3 u v o)
      = ((s o + ∑ p : Fin 128, ∑ q : Fin 128, raw4 x0 x1 W1 b1 sc1 bi1 W2 b2 sc2 bi2 W3 b3 sc3 bi3 W4 b4 p q o : ℝ) : EReal) := by
  have e : Gen.k3_pay2 (F := Ideal) (Gen.k3_pay8 (Gen.k3_pay6 (blk2 x0) (blk2 x1) (blk2 W1) (blk1 b1) (blk1 sc1) (blk1 bi1)) (Gen.k3_pay7 (blk2 W2)) (constant (F := Ideal) S16x16384 .f32 0x00000000#32) (blk1 b2) (blk1 sc2) (blk1 bi2) (blk2 W3) (blk1 b3) (blk1 sc3) (blk1 bi3)) (blk2 W4) (blk1 b4) (blkAcc s)
      = sumV (raw4V x0 x1 W1 b1 sc1 bi1 W2 b2 sc2 bi2 W3 b3 sc3 bi3 W4 b4) (blkAcc s) reduces_S8x16384_S8 shapeCasts_S1x1x8_S1x1x8 shapeCasts_S8_S1x1x8 := rfl
  rw [e]
  exact sumV_tile_apply _ _ _ _ _ (fun p q => raw4 x0 x1 W1 b1 sc1 bi1 W2 b2 sc2 bi2 W3 b3 sc3 bi3 W4 b4 p q o) (s o) u v o
    (fun p q => raw4V_apply x0 x1 W1 b1 sc1 bi1 W2 b2 sc2 bi2 W3 b3 sc3 bi3 W4 b4 p q o) rfl

/-- The stored sum of squares: the accumulator plus the sum over the pairs of the squares. -/
theorem k3_pay3_apply (s : Fin 8 → ℝ) (u v : Fin 1) (o : Fin 8) :
    Gen.k3_pay3 (F := Ideal) (Gen.k3_pay8 (Gen.k3_pay6 (blk2 x0) (blk2 x1) (blk2 W1) (blk1 b1) (blk1 sc1) (blk1 bi1)) (Gen.k3_pay7 (blk2 W2)) (constant (F := Ideal) S16x16384 .f32 0x00000000#32) (blk1 b2) (blk1 sc2) (blk1 bi2) (blk2 W3) (blk1 b3) (blk1 sc3) (blk1 bi3)) (blk2 W4) (blk1 b4) (blkAcc s) (ix3 u v o)
      = ((s o + ∑ p : Fin 128, ∑ q : Fin 128, (raw4 x0 x1 W1 b1 sc1 bi1 W2 b2 sc2 bi2 W3 b3 sc3 bi3 W4 b4 p q o) ^ 2 : ℝ) : EReal) := by
  have e : Gen.k3_pay3 (F := Ideal) (Gen.k3_pay8 (Gen.k3_pay6 (blk2 x0) (blk2 x1) (blk2 W1) (blk1 b1) (blk1 sc1) (blk1 bi1)) (Gen.k3_pay7 (blk2 W2)) (constant (F := Ideal) S16x16384 .f32 0x00000000#32) (blk1 b2) (blk1 sc2) (blk1 bi2) (blk2 W3) (blk1 b3) (blk1 sc3) (blk1 bi3)) (blk2 W4) (blk1 b4) (blkAcc s)
      = sumV (mulf (raw4V x0 x1 W1 b1 sc1 bi1 W2 b2 sc2 bi2 W3 b3 sc3 bi3 W4 b4) (raw4V x0 x1 W1 b1 sc1 bi1 W2 b2 sc2 bi2 W3 b3 sc3 bi3 W4 b4)) (blkAcc s) reduces_S8x16384_S8 shapeCasts_S1x1x8_S1x1x8 shapeCasts_S8_S1x1x8 := rfl
  rw [e]
  exact sumV_tile_apply _ _ _ _ _ (fun p q => (raw4 x0 x1 W1 b1 sc1 bi1 W2 b2 sc2 bi2 W3 b3 sc3 bi3 W4 b4 p q o) ^ 2) (s o) u v o
    (fun p q => sq_apply _ _ _ (raw4V_apply x0 x1 W1 b1 sc1 bi1 W2 b2 sc2 bi2 W3 b3 sc3 bi3 W4 b4 p q o)) rfl

/-- The value the first step of a column of tiles stores: zero everywhere. -/
theorem k3_pay4_eq : Gen.k3_pay4 (F := Ideal) = fun _ => (0 : EReal) :=
  funext fun _ => Ideal.ofBits_zero_f32

/-- The value the first step of a column of tiles stores: zero everywhere. -/
theorem k3_pay5_eq : Gen.k3_pay5 (F := Ideal) = fun _ => (0 : EReal) :=
  funext fun _ => Ideal.ofBits_zero_f32

end Cert.KernelIdeal.Val

end
-- ==== Proof.Val.Glue3.lean ====
/-
  The fourth statistics region: from tiles to the arrays of totals.

  On a core whose buffers hold coercions of real arrays when the region is entered, every staged block is the coercion of
  a real block: the row and column blocks of the transposed input at the tile's row and column block, every weight, bias,
  scale and shift whole. The accumulators therefore hold, after every position, the coercions of the real running totals
  along the row of tiles; at the last tile of row i that is the row block's total over all columns, which the one
  write-back of the row stores at block i. The twelve write-backs cover the two arrays of totals.
-/
import proofs.«135850_j19774029431551_2_alg».proof.Proof.KernelIdeal.Dat3
import proofs.«135850_j19774029431551_2_alg».proof.Proof.Val.K3
import proofs.«135850_j19774029431551_2_alg».proof.Proof.Val.Acc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.Val (rowIdx rowTot rowSq)
open scoped BigOperators

/-- The printed index maps, decided over the grid: at position t the row block is t / 12 and the column block t % 12, every
    other input is fetched whole, and an accumulator's block is the row's. -/
theorem idx3 : ∀ t : Fin cfg3.N,
    win3_0.index t (0 : Fin 2) = 0
    ∧ win3_0.index t (1 : Fin 2) = t.val / 12
    ∧ win3_1.index t (0 : Fin 2) = 0
    ∧ win3_1.index t (1 : Fin 2) = t.val % 12
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 1) = 0
    ∧ win3_6.index t (0 : Fin 2) = 0
    ∧ win3_6.index t (1 : Fin 2) = 0
    ∧ win3_7.index t (0 : Fin 1) = 0
    ∧ win3_8.index t (0 : Fin 2) = 0
    ∧ win3_8.index t (1 : Fin 2) = 0
    ∧ win3_9.index t (0 : Fin 1) = 0
    ∧ win3_10.index t (0 : Fin 1) = 0
    ∧ win3_11.index t (0 : Fin 1) = 0
    ∧ win3_12.index t (0 : Fin 1) = 0
    ∧ win3_13.index t (0 : Fin 1) = 0
    ∧ win3_14.index t (0 : Fin 1) = 0
    ∧ win3_15.index t (0 : Fin 1) = 0
    ∧ win3_16.index t (0 : Fin 3) = t.val / 12
    ∧ win3_16.index t (1 : Fin 3) = 0
    ∧ win3_16.index t (2 : Fin 3) = 0
    ∧ win3_17.index t (0 : Fin 3) = t.val / 12
    ∧ win3_17.index t (1 : Fin 3) = 0
    ∧ win3_17.index t (2 : Fin 3) = 0 :=
  (by decide +kernel : ∀ t : Fin grid3.N, _)

section Region3

variable (V : (c : Dev nD) → (b : Ref sig .tc) → Buf (Elt Ideal) ((c : Thread nD τ).loc b)) (c : Dev nD)
  (x : Fin 1536 → Fin 64 → ℝ) (w1 : Fin 16 → Fin 64 → ℝ) (β1 : Fin 16 → ℝ) (sc1 : Fin 16 → ℝ) (bi1 : Fin 16 → ℝ) (w2 : Fin 16 → Fin 16 → ℝ) (β2 : Fin 16 → ℝ) (sc2 : Fin 16 → ℝ) (bi2 : Fin 16 → ℝ) (w3 : Fin 8 → Fin 16 → ℝ) (β3 : Fin 8 → ℝ) (sc3 : Fin 8 → ℝ) (bi3 : Fin 8 → ℝ) (w4 : Fin 8 → Fin 8 → ℝ) (β4 : Fin 8 → ℝ)
  (hx : ∀ k n, V c main_v0 (ix2 k n) = ((x n k : ℝ) : EReal))
  (hW1 : ∀ o k, V c main_arg1 (ix2 o k) = ((w1 o k : ℝ) : EReal))
  (hb1 : ∀ o, V c main_arg2 (ix1 o) = ((β1 o : ℝ) : EReal))
  (hW2 : ∀ o k, V c main_arg5 (ix2 o k) = ((w2 o k : ℝ) : EReal))
  (hb2 : ∀ o, V c main_arg6 (ix1 o) = ((β2 o : ℝ) : EReal))
  (hW3 : ∀ o k, V c main_arg9 (ix2 o k) = ((w3 o k : ℝ) : EReal))
  (hb3 : ∀ o, V c main_arg10 (ix1 o) = ((β3 o : ℝ) : EReal))
  (hW4 : ∀ o k, V c main_arg13 (ix2 o k) = ((w4 o k : ℝ) : EReal))
  (hb4 : ∀ o, V c main_arg14 (ix1 o) = ((β4 o : ℝ) : EReal))
  (hsc1 : ∀ o, V c main_v15 (ix1 o) = ((sc1 o : ℝ) : EReal))
  (hbi1 : ∀ o, V c main_v17 (ix1 o) = ((bi1 o : ℝ) : EReal))
  (hsc2 : ∀ o, V c main_v32 (ix1 o) = ((sc2 o : ℝ) : EReal))
  (hbi2 : ∀ o, V c main_v34 (ix1 o) = ((bi2 o : ℝ) : EReal))
  (hsc3 : ∀ o, V c main_v49 (ix1 o) = ((sc3 o : ℝ) : EReal))
  (hbi3 : ∀ o, V c main_v51 (ix1 o) = ((bi3 o : ℝ) : EReal))

/-! ## The staged blocks -/

include hx in
/-- The row block at position t: block t / 12 of the input, channels first. -/
theorem iblk3_0_eq (t : Fin cfg3.N) : (iblk3 V c 0 t : Vec Ideal S64x128 .f32) = blk2 (xblk x (t.val / 12)) := by
  have hN : t.val < 144 := lt_of_lt_of_eq t.isLt (show cfg3.N = 144 from N_3)
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨k, p, rfl⟩ : ∃ (k : Fin 64) (p : Fin 128), j = ix2 k p := ⟨j 0, j 1, eq_ix2 j⟩
  show V c main_v0 (((cfg3.win 0).blk t).view.emb (ix2 k p)) = _
  have he : ((cfg3.win 0).blk t).view.emb (ix2 k p) = ix2 k (rowN (t.val / 12) p) := by
    funext a; apply Fin.ext
    match a with
    | ⟨0, _⟩ => show win3_0.index t (0 : Fin 2) * 64 + 1 * k.val = k.val; rw [e0_0]; omega
    | ⟨1, _⟩ =>
      show win3_0.index t (1 : Fin 2) * 128 + 1 * p.val = (128 * (t.val / 12) + p.val) % 1536
      have := p.isLt; rw [e0_1]; omega
  rw [he, hx]; rfl

include hx in
/-- The column block at position t: block t % 12 of the input, channels first. -/
theorem iblk3_1_eq (t : Fin cfg3.N) : (iblk3 V c 1 t : Vec Ideal S64x128 .f32) = blk2 (xblk x (t.val % 12)) := by
  have hN : t.val < 144 := lt_of_lt_of_eq t.isLt (show cfg3.N = 144 from N_3)
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨k, p, rfl⟩ : ∃ (k : Fin 64) (p : Fin 128), j = ix2 k p := ⟨j 0, j 1, eq_ix2 j⟩
  show V c main_v0 (((cfg3.win 1).blk t).view.emb (ix2 k p)) = _
  have he : ((cfg3.win 1).blk t).view.emb (ix2 k p) = ix2 k (rowN (t.val % 12) p) := by
    funext a; apply Fin.ext
    match a with
    | ⟨0, _⟩ => show win3_1.index t (0 : Fin 2) * 64 + 1 * k.val = k.val; rw [e1_0]; omega
    | ⟨1, _⟩ =>
      show win3_1.index t (1 : Fin 2) * 128 + 1 * p.val = (128 * (t.val % 12) + p.val) % 1536
      have := p.isLt; rw [e1_1]; omega
  rw [he, hx]; rfl

include hW1 in
/-- Window 2's block, fetched whole, at every position. -/
theorem iblk3_2_eq (t : Fin cfg3.N) : (iblk3 V c 2 t : Vec Ideal S16x64 .f32) = blk2 w1 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, k, rfl⟩ : ∃ (o : Fin 16) (k : Fin 64), j = ix2 o k := ⟨j 0, j 1, eq_ix2 j⟩
  show V c main_arg1 (((cfg3.win 2).blk t).view.emb (ix2 o k)) = _
  have he : ((cfg3.win 2).blk t).view.emb (ix2 o k) = ix2 o k := by
    funext a; apply Fin.ext
    match a with
    | ⟨0, _⟩ => show win3_2.index t (0 : Fin 2) * 16 + 1 * o.val = o.val; rw [e2_0]; omega
    | ⟨1, _⟩ => show win3_2.index t (1 : Fin 2) * 64 + 1 * k.val = k.val; rw [e2_1]; omega
  rw [he, hW1]; rfl

include hb1 in
/-- Window 3's block, fetched whole, at every position. -/
theorem iblk3_3_eq (t : Fin cfg3.N) : (iblk3 V c 3 t : Vec Ideal S16 .f32) = blk1 β1 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 16), j = ix1 o := ⟨j 0, eq_ix1 j⟩
  show V c main_arg2 (((cfg3.win 3).blk t).view.emb (ix1 o)) = _
  have he : ((cfg3.win 3).blk t).view.emb (ix1 o) = ix1 o := by
    funext a; apply Fin.ext
    match a with
    | ⟨0, _⟩ => show win3_3.index t (0 : Fin 1) * 16 + 1 * o.val = o.val; rw [e3_0]; omega
  rw [he, hb1]; rfl

include hW2 in
/-- Window 4's block, fetched whole, at every position. -/
theorem iblk3_4_eq (t : Fin cfg3.N) : (iblk3 V c 4 t : Vec Ideal S16x16 .f32) = blk2 w2 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, k, rfl⟩ : ∃ (o : Fin 16) (k : Fin 16), j = ix2 o k := ⟨j 0, j 1, eq_ix2 j⟩
  show V c main_arg5 (((cfg3.win 4).blk t).view.emb (ix2 o k)) = _
  have he : ((cfg3.win 4).blk t).view.emb (ix2 o k) = ix2 o k := by
    funext a; apply Fin.ext
    match a with
    | ⟨0, _⟩ => show win3_4.index t (0 : Fin 2) * 16 + 1 * o.val = o.val; rw [e4_0]; omega
    | ⟨1, _⟩ => show win3_4.index t (1 : Fin 2) * 16 + 1 * k.val = k.val; rw [e4_1]; omega
  rw [he, hW2]; rfl

include hb2 in
/-- Window 5's block, fetched whole, at every position. -/
theorem iblk3_5_eq (t : Fin cfg3.N) : (iblk3 V c 5 t : Vec Ideal S16 .f32) = blk1 β2 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 16), j = ix1 o := ⟨j 0, eq_ix1 j⟩
  show V c main_arg6 (((cfg3.win 5).blk t).view.emb (ix1 o)) = _
  have he : ((cfg3.win 5).blk t).view.emb (ix1 o) = ix1 o := by
    funext a; apply Fin.ext
    match a with
    | ⟨0, _⟩ => show win3_5.index t (0 : Fin 1) * 16 + 1 * o.val = o.val; rw [e5_0]; omega
  rw [he, hb2]; rfl

include hW3 in
/-- Window 6's block, fetched whole, at every position. -/
theorem iblk3_6_eq (t : Fin cfg3.N) : (iblk3 V c 6 t : Vec Ideal S8x16 .f32) = blk2 w3 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, k, rfl⟩ : ∃ (o : Fin 8) (k : Fin 16), j = ix2 o k := ⟨j 0, j 1, eq_ix2 j⟩
  show V c main_arg9 (((cfg3.win 6).blk t).view.emb (ix2 o k)) = _
  have he : ((cfg3.win 6).blk t).view.emb (ix2 o k) = ix2 o k := by
    funext a; apply Fin.ext
    match a with
    | ⟨0, _⟩ => show win3_6.index t (0 : Fin 2) * 8 + 1 * o.val = o.val; rw [e6_0]; omega
    | ⟨1, _⟩ => show win3_6.index t (1 : Fin 2) * 16 + 1 * k.val = k.val; rw [e6_1]; omega
  rw [he, hW3]; rfl

include hb3 in
/-- Window 7's block, fetched whole, at every position. -/
theorem iblk3_7_eq (t : Fin cfg3.N) : (iblk3 V c 7 t : Vec Ideal S8 .f32) = blk1 β3 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 8), j = ix1 o := ⟨j 0, eq_ix1 j⟩
  show V c main_arg10 (((cfg3.win 7).blk t).view.emb (ix1 o)) = _
  have he : ((cfg3.win 7).blk t).view.emb (ix1 o) = ix1 o := by
    funext a; apply Fin.ext
    match a with
    | ⟨0, _⟩ => show win3_7.index t (0 : Fin 1) * 8 + 1 * o.val = o.val; rw [e7_0]; omega
  rw [he, hb3]; rfl

include hW4 in
/-- Window 8's block, fetched whole, at every position. -/
theorem iblk3_8_eq (t : Fin cfg3.N) : (iblk3 V c 8 t : Vec Ideal S8x8 .f32) = blk2 w4 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, k, rfl⟩ : ∃ (o : Fin 8) (k : Fin 8), j = ix2 o k := ⟨j 0, j 1, eq_ix2 j⟩
  show V c main_arg13 (((cfg3.win 8).blk t).view.emb (ix2 o k)) = _
  have he : ((cfg3.win 8).blk t).view.emb (ix2 o k) = ix2 o k := by
    funext a; apply Fin.ext
    match a with
    | ⟨0, _⟩ => show win3_8.index t (0 : Fin 2) * 8 + 1 * o.val = o.val; rw [e8_0]; omega
    | ⟨1, _⟩ => show win3_8.index t (1 : Fin 2) * 8 + 1 * k.val = k.val; rw [e8_1]; omega
  rw [he, hW4]; rfl

include hb4 in
/-- Window 9's block, fetched whole, at every position. -/
theorem iblk3_9_eq (t : Fin cfg3.N) : (iblk3 V c 9 t : Vec Ideal S8 .f32) = blk1 β4 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 8), j = ix1 o := ⟨j 0, eq_ix1 j⟩
  show V c main_arg14 (((cfg3.win 9).blk t).view.emb (ix1 o)) = _
  have he : ((cfg3.win 9).blk t).view.emb (ix1 o) = ix1 o := by
    funext a; apply Fin.ext
    match a with
    | ⟨0, _⟩ => show win3_9.index t (0 : Fin 1) * 8 + 1 * o.val = o.val; rw [e9_0]; omega
  rw [he, hb4]; rfl

include hsc1 in
/-- Window 10's block, fetched whole, at every position. -/
theorem iblk3_10_eq (t : Fin cfg3.N) : (iblk3 V c 10 t : Vec Ideal S16 .f32) = blk1 sc1 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 16), j = ix1 o := ⟨j 0, eq_ix1 j⟩
  show V c main_v15 (((cfg3.win 10).blk t).view.emb (ix1 o)) = _
  have he : ((cfg3.win 10).blk t).view.emb (ix1 o) = ix1 o := by
    funext a; apply Fin.ext
    match a with
    | ⟨0, _⟩ => show win3_10.index t (0 : Fin 1) * 16 + 1 * o.val = o.val; rw [e10_0]; omega
  rw [he, hsc1]; rfl

include hbi1 in
/-- Window 11's block, fetched whole, at every position. -/
theorem iblk3_11_eq (t : Fin cfg3.N) : (iblk3 V c 11 t : Vec Ideal S16 .f32) = blk1 bi1 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 16), j = ix1 o := ⟨j 0, eq_ix1 j⟩
  show V c main_v17 (((cfg3.win 11).blk t).view.emb (ix1 o)) = _
  have he : ((cfg3.win 11).blk t).view.emb (ix1 o) = ix1 o := by
    funext a; apply Fin.ext
    match a with
    | ⟨0, _⟩ => show win3_11.index t (0 : Fin 1) * 16 + 1 * o.val = o.val; rw [e11_0]; omega
  rw [he, hbi1]; rfl

include hsc2 in
/-- Window 12's block, fetched whole, at every position. -/
theorem iblk3_12_eq (t : Fin cfg3.N) : (iblk3 V c 12 t : Vec Ideal S16 .f32) = blk1 sc2 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 16), j = ix1 o := ⟨j 0, eq_ix1 j⟩
  show V c main_v32 (((cfg3.win 12).blk t).view.emb (ix1 o)) = _
  have he : ((cfg3.win 12).blk t).view.emb (ix1 o) = ix1 o := by
    funext a; apply Fin.ext
    match a with
    | ⟨0, _⟩ => show win3_12.index t (0 : Fin 1) * 16 + 1 * o.val = o.val; rw [e12_0]; omega
  rw [he, hsc2]; rfl

include hbi2 in
/-- Window 13's block, fetched whole, at every position. -/
theorem iblk3_13_eq (t : Fin cfg3.N) : (iblk3 V c 13 t : Vec Ideal S16 .f32) = blk1 bi2 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 16), j = ix1 o := ⟨j 0, eq_ix1 j⟩
  show V c main_v34 (((cfg3.win 13).blk t).view.emb (ix1 o)) = _
  have he : ((cfg3.win 13).blk t).view.emb (ix1 o) = ix1 o := by
    funext a; apply Fin.ext
    match a with
    | ⟨0, _⟩ => show win3_13.index t (0 : Fin 1) * 16 + 1 * o.val = o.val; rw [e13_0]; omega
  rw [he, hbi2]; rfl

include hsc3 in
/-- Window 14's block, fetched whole, at every position. -/
theorem iblk3_14_eq (t : Fin cfg3.N) : (iblk3 V c 14 t : Vec Ideal S8 .f32) = blk1 sc3 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 8), j = ix1 o := ⟨j 0, eq_ix1 j⟩
  show V c main_v49 (((cfg3.win 14).blk t).view.emb (ix1 o)) = _
  have he : ((cfg3.win 14).blk t).view.emb (ix1 o) = ix1 o := by
    funext a; apply Fin.ext
    match a with
    | ⟨0, _⟩ => show win3_14.index t (0 : Fin 1) * 8 + 1 * o.val = o.val; rw [e14_0]; omega
  rw [he, hsc3]; rfl

include hbi3 in
/-- Window 15's block, fetched whole, at every position. -/
theorem iblk3_15_eq (t : Fin cfg3.N) : (iblk3 V c 15 t : Vec Ideal S8 .f32) = blk1 bi3 := by
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  funext j
  obtain ⟨o, rfl⟩ : ∃ (o : Fin 8), j = ix1 o := ⟨j 0, eq_ix1 j⟩
  show V c main_v51 (((cfg3.win 15).blk t).view.emb (ix1 o)) = _
  have he : ((cfg3.win 15).blk t).view.emb (ix1 o) = ix1 o := by
    funext a; apply Fin.ext
    match a with
    | ⟨0, _⟩ => show win3_15.index t (0 : Fin 1) * 8 + 1 * o.val = o.val; rw [e15_0]; omega
  rw [he, hbi3]; rfl

/-! ## The accumulators along a row of tiles -/

/-- The tile at position n's total of the region's linear layer, per channel. -/
def tot3 (n : ℕ) (o : Fin 8) : ℝ :=
  ∑ p : Fin 128, ∑ q : Fin 128, raw4 (xblk x (n / 12)) (xblk x (n % 12)) w1 β1 sc1 bi1 w2 β2 sc2 bi2 w3 β3 sc3 bi3 w4 β4 p q o

/-- The tile at position n's total of squares of the region's linear layer, per channel. -/
def sq3 (n : ℕ) (o : Fin 8) : ℝ :=
  ∑ p : Fin 128, ∑ q : Fin 128, (raw4 (xblk x (n / 12)) (xblk x (n % 12)) w1 β1 sc1 bi1 w2 β2 sc2 bi2 w3 β3 sc3 bi3 w4 β4 p q o) ^ 2

include hx hW1 hb1 hW2 hb2 hW3 hb3 hW4 hb4 hsc1 hbi1 hsc2 hbi2 hsc3 hbi3 in
/-- Window 16's accumulator after every position: the coercion of the running total. -/
theorem acc3_16_eq : ∀ n hn, acc3_16 V c n hn = blkAcc (fun o => run (fun k => tot3 x w1 β1 sc1 bi1 w2 β2 sc2 bi2 w3 β3 sc3 bi3 w4 β4 k o) n) :=
  acc_run (acc3_16 V c) (tot3 x w1 β1 sc1 bi1 w2 β2 sc2 bi2 w3 β3 sc3 bi3 w4 β4)
    (fun n hn h => by
      rw [acc3_16_reset V c ⟨n, hn⟩ h, iblk3_0_eq V c x hx, iblk3_1_eq V c x hx, iblk3_2_eq V c w1 hW1, iblk3_3_eq V c β1 hb1, iblk3_4_eq V c w2 hW2, iblk3_5_eq V c β2 hb2, iblk3_6_eq V c w3 hW3, iblk3_7_eq V c β3 hb3, iblk3_8_eq V c w4 hW4, iblk3_9_eq V c β4 hb4, iblk3_10_eq V c sc1 hsc1, iblk3_11_eq V c bi1 hbi1, iblk3_12_eq V c sc2 hsc2, iblk3_13_eq V c bi2 hbi2, iblk3_14_eq V c sc3 hsc3, iblk3_15_eq V c bi3 hbi3, k3_pay4_eq, zero_eq_blkAcc]
      unfold val3_16
      exact acc_ext _ _ fun u v o => k3_pay2_apply _ _ _ _ _ _ _ _ _ _ _ _ _ _ _ _ _ u v o)
    (fun n hn h s hs => by
      rw [acc3_16_acc V c ⟨n + 1, hn⟩ h, iblk3_0_eq V c x hx, iblk3_1_eq V c x hx, iblk3_2_eq V c w1 hW1, iblk3_3_eq V c β1 hb1, iblk3_4_eq V c w2 hW2, iblk3_5_eq V c β2 hb2, iblk3_6_eq V c w3 hW3, iblk3_7_eq V c β3 hb3, iblk3_8_eq V c w4 hW4, iblk3_9_eq V c β4 hb4, iblk3_10_eq V c sc1 hsc1, iblk3_11_eq V c bi1 hbi1, iblk3_12_eq V c sc2 hsc2, iblk3_13_eq V c bi2 hbi2, iblk3_14_eq V c sc3 hsc3, iblk3_15_eq V c bi3 hbi3]
      show val3_16 _ _ _ _ _ _ _ _ _ _ _ _ _ _ _ _ (acc3_16 V c n _) = _
      rw [hs]
      unfold val3_16
      exact acc_ext _ _ fun u v o => k3_pay2_apply _ _ _ _ _ _ _ _ _ _ _ _ _ _ _ _ _ u v o)

include hx hW1 hb1 hW2 hb2 hW3 hb3 hW4 hb4 hsc1 hbi1 hsc2 hbi2 hsc3 hbi3 in
/-- Window 17's accumulator after every position: the coercion of the running total. -/
theorem acc3_17_eq : ∀ n hn, acc3_17 V c n hn = blkAcc (fun o => run (fun k => sq3 x w1 β1 sc1 bi1 w2 β2 sc2 bi2 w3 β3 sc3 bi3 w4 β4 k o) n) :=
  acc_run (acc3_17 V c) (sq3 x w1 β1 sc1 bi1 w2 β2 sc2 bi2 w3 β3 sc3 bi3 w4 β4)
    (fun n hn h => by
      rw [acc3_17_reset V c ⟨n, hn⟩ h, iblk3_0_eq V c x hx, iblk3_1_eq V c x hx, iblk3_2_eq V c w1 hW1, iblk3_3_eq V c β1 hb1, iblk3_4_eq V c w2 hW2, iblk3_5_eq V c β2 hb2, iblk3_6_eq V c w3 hW3, iblk3_7_eq V c β3 hb3, iblk3_8_eq V c w4 hW4, iblk3_9_eq V c β4 hb4, iblk3_10_eq V c sc1 hsc1, iblk3_11_eq V c bi1 hbi1, iblk3_12_eq V c sc2 hsc2, iblk3_13_eq V c bi2 hbi2, iblk3_14_eq V c sc3 hsc3, iblk3_15_eq V c bi3 hbi3, k3_pay5_eq, zero_eq_blkAcc]
      unfold val3_17
      exact acc_ext _ _ fun u v o => k3_pay3_apply _ _ _ _ _ _ _ _ _ _ _ _ _ _ _ _ _ u v o)
    (fun n hn h s hs => by
      rw [acc3_17_acc V c ⟨n + 1, hn⟩ h, iblk3_0_eq V c x hx, iblk3_1_eq V c x hx, iblk3_2_eq V c w1 hW1, iblk3_3_eq V c β1 hb1, iblk3_4_eq V c w2 hW2, iblk3_5_eq V c β2 hb2, iblk3_6_eq V c w3 hW3, iblk3_7_eq V c β3 hb3, iblk3_8_eq V c w4 hW4, iblk3_9_eq V c β4 hb4, iblk3_10_eq V c sc1 hsc1, iblk3_11_eq V c bi1 hbi1, iblk3_12_eq V c sc2 hsc2, iblk3_13_eq V c bi2 hbi2, iblk3_14_eq V c sc3 hsc3, iblk3_15_eq V c bi3 hbi3]
      show val3_17 _ _ _ _ _ _ _ _ _ _ _ _ _ _ _ _ (acc3_17 V c n _) = _
      rw [hs]
      unfold val3_17
      exact acc_ext _ _ fun u v o => k3_pay3_apply _ _ _ _ _ _ _ _ _ _ _ _ _ _ _ _ _ u v o)

/-! ## The arrays of totals -/

/-- The array of row-block totals of the region's linear layer. -/
def G3_16 : S12x1x8.Idx → EReal := fun a => ((rowTot (z4S x w1 β1 sc1 bi1 w2 β2 sc2 bi2 w3 β3 sc3 bi3 w4 β4) (a 0) (a 2) : ℝ) : EReal)
/-- The array of row-block totals of squares of the region's linear layer. -/
def G3_17 : S12x1x8.Idx → EReal := fun a => ((rowSq (z4S x w1 β1 sc1 bi1 w2 β2 sc2 bi2 w3 β3 sc3 bi3 w4 β4) (a 0) (a 2) : ℝ) : EReal)

include hx hW1 hb1 hW2 hb2 hW3 hb3 hW4 hb4 hsc1 hbi1 hsc2 hbi2 hsc3 hbi3 in
/-- What window 16's write-back after the last tile of a row writes: the row block's totals. -/
theorem flushed3_16 (t : Fin cfg3.N) (hf : (cfg3.win 16).flush t = true) :
    (dat3 V c).flushed 16 t = ((cfg3.win 16).blk t).view.read (Elt Ideal) (G3_16 x w1 β1 sc1 bi1 w2 β2 sc2 bi2 w3 β3 sc3 bi3 w4 β4) := by
  have hN : t.val < 144 := lt_of_lt_of_eq t.isLt (show cfg3.N = 144 from N_3)
  have h11 : t.val % 12 = 11 := (flush3_16 t).mp hf
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  show (cfg3.win 16).cut (grid3.coords t) ((dat3 V c).after 16 t) = _
  rw [after3_16, acc3_16_eq V c x w1 β1 sc1 bi1 w2 β2 sc2 bi2 w3 β3 sc3 bi3 w4 β4 hx hW1 hb1 hW2 hb2 hW3 hb3 hW4 hb4 hsc1 hbi1 hsc2 hbi2 hsc3 hbi3]
  funext j
  obtain ⟨u, v, o, rfl⟩ : ∃ (u v : Fin 1) (o : Fin 8), j = ix3 u v o := ⟨j 0, j 1, j 2, eq_ix3 j⟩
  show ((run (fun k => tot3 x w1 β1 sc1 bi1 w2 β2 sc2 bi2 w3 β3 sc3 bi3 w4 β4 k o) t.val : ℝ) : EReal) = G3_16 x w1 β1 sc1 bi1 w2 β2 sc2 bi2 w3 β3 sc3 bi3 w4 β4 (((cfg3.win 16).blk t).view.emb (ix3 u v o))
  have he : ((cfg3.win 16).blk t).view.emb (ix3 u v o) = ix3 (⟨t.val / 12, by omega⟩ : Fin 12) (0 : Fin 1) o := by
    funext a; apply Fin.ext
    match a with
    | ⟨0, _⟩ => show win3_16.index t (0 : Fin 3) * 1 + 1 * u.val = t.val / 12; rw [e16_0]; omega
    | ⟨1, _⟩ => show win3_16.index t (1 : Fin 3) * 1 + 1 * v.val = 0; rw [e16_1]; omega
    | ⟨2, _⟩ => show win3_16.index t (2 : Fin 3) * 8 + 1 * o.val = o.val; rw [e16_2]; omega
  rw [he]
  show _ = ((rowTot (z4S x w1 β1 sc1 bi1 w2 β2 sc2 bi2 w3 β3 sc3 bi3 w4 β4) (⟨t.val / 12, by omega⟩ : Fin 12) o : ℝ) : EReal)
  congr 1
  have ht : t.val = 12 * (t.val / 12) + 11 := by omega
  refine (congrArg (run fun k => tot3 x w1 β1 sc1 bi1 w2 β2 sc2 bi2 w3 β3 sc3 bi3 w4 β4 k o) ht).trans ?_
  refine run_rowTot (z4S x w1 β1 sc1 bi1 w2 β2 sc2 bi2 w3 β3 sc3 bi3 w4 β4) (⟨t.val / 12, by omega⟩ : Fin 12) o _ fun j hj => ?_
  show tot3 x w1 β1 sc1 bi1 w2 β2 sc2 bi2 w3 β3 sc3 bi3 w4 β4 (12 * (t.val / 12) + j) o = _
  unfold tot3
  rw [show (12 * (t.val / 12) + j) / 12 = t.val / 12 from by omega, show (12 * (t.val / 12) + j) % 12 = j from by omega]
  rfl

include hx hW1 hb1 hW2 hb2 hW3 hb3 hW4 hb4 hsc1 hbi1 hsc2 hbi2 hsc3 hbi3 in
/-- What window 17's write-back after the last tile of a row writes: the row block's totals of squares. -/
theorem flushed3_17 (t : Fin cfg3.N) (hf : (cfg3.win 17).flush t = true) :
    (dat3 V c).flushed 17 t = ((cfg3.win 17).blk t).view.read (Elt Ideal) (G3_17 x w1 β1 sc1 bi1 w2 β2 sc2 bi2 w3 β3 sc3 bi3 w4 β4) := by
  have hN : t.val < 144 := lt_of_lt_of_eq t.isLt (show cfg3.N = 144 from N_3)
  have h11 : t.val % 12 = 11 := (flush3_17 t).mp hf
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 t
  show (cfg3.win 17).cut (grid3.coords t) ((dat3 V c).after 17 t) = _
  rw [after3_17, acc3_17_eq V c x w1 β1 sc1 bi1 w2 β2 sc2 bi2 w3 β3 sc3 bi3 w4 β4 hx hW1 hb1 hW2 hb2 hW3 hb3 hW4 hb4 hsc1 hbi1 hsc2 hbi2 hsc3 hbi3]
  funext j
  obtain ⟨u, v, o, rfl⟩ : ∃ (u v : Fin 1) (o : Fin 8), j = ix3 u v o := ⟨j 0, j 1, j 2, eq_ix3 j⟩
  show ((run (fun k => sq3 x w1 β1 sc1 bi1 w2 β2 sc2 bi2 w3 β3 sc3 bi3 w4 β4 k o) t.val : ℝ) : EReal) = G3_17 x w1 β1 sc1 bi1 w2 β2 sc2 bi2 w3 β3 sc3 bi3 w4 β4 (((cfg3.win 17).blk t).view.emb (ix3 u v o))
  have he : ((cfg3.win 17).blk t).view.emb (ix3 u v o) = ix3 (⟨t.val / 12, by omega⟩ : Fin 12) (0 : Fin 1) o := by
    funext a; apply Fin.ext
    match a with
    | ⟨0, _⟩ => show win3_17.index t (0 : Fin 3) * 1 + 1 * u.val = t.val / 12; rw [e17_0]; omega
    | ⟨1, _⟩ => show win3_17.index t (1 : Fin 3) * 1 + 1 * v.val = 0; rw [e17_1]; omega
    | ⟨2, _⟩ => show win3_17.index t (2 : Fin 3) * 8 + 1 * o.val = o.val; rw [e17_2]; omega
  rw [he]
  show _ = ((rowSq (z4S x w1 β1 sc1 bi1 w2 β2 sc2 bi2 w3 β3 sc3 bi3 w4 β4) (⟨t.val / 12, by omega⟩ : Fin 12) o : ℝ) : EReal)
  congr 1
  have ht : t.val = 12 * (t.val / 12) + 11 := by omega
  refine (congrArg (run fun k => sq3 x w1 β1 sc1 bi1 w2 β2 sc2 bi2 w3 β3 sc3 bi3 w4 β4 k o) ht).trans ?_
  refine run_rowSq (z4S x w1 β1 sc1 bi1 w2 β2 sc2 bi2 w3 β3 sc3 bi3 w4 β4) (⟨t.val / 12, by omega⟩ : Fin 12) o _ fun j hj => ?_
  show sq3 x w1 β1 sc1 bi1 w2 β2 sc2 bi2 w3 β3 sc3 bi3 w4 β4 (12 * (t.val / 12) + j) o = _
  unfold sq3
  rw [show (12 * (t.val / 12) + j) / 12 = t.val / 12 from by omega, show (12 * (t.val / 12) + j) % 12 = j from by omega]
  rfl

/-- Every index of window 16's array is in the block the last tile of its row writes back. -/
theorem cover3_16 (a : S12x1x8.Idx) :
    ∃ t : Fin cfg3.N, (cfg3.win 16).flush t = true ∧ a ∈ ((cfg3.win 16).blk t).view.set := by
  have h0 : (a 0).val < 12 := (a 0).isLt
  have h1 : (a 1).val < 1 := (a 1).isLt
  have h2 : (a 2).val < 8 := (a 2).isLt
  have hN : cfg3.N = 144 := N_3
  have ht : 12 * (a 0).val + 11 < cfg3.N := by rw [hN]; omega
  refine ⟨⟨12 * (a 0).val + 11, ht⟩, (flush3_16 _).mpr (by show (12 * (a 0).val + 11) % 12 = 11; omega), ?_⟩
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 ⟨12 * (a 0).val + 11, ht⟩
  have e0' : win3_16.index ⟨12 * (a 0).val + 11, ht⟩ (0 : Fin 3) = (a 0).val := by rw [e16_0]; show (12 * (a 0).val + 11) / 12 = _; omega
  show a ∈ ((View.whole main_v52_0).slice (win3_16.rect ⟨12 * (a 0).val + 11, ht⟩)).set
  rw [View.set_slice_whole, Rect.mem_set_unit]
  intro b
  match b with
  | ⟨0, _⟩ =>
    show win3_16.index ⟨12 * (a 0).val + 11, ht⟩ (0 : Fin 3) * 1 ≤ (a 0).val ∧ (a 0).val < win3_16.index ⟨12 * (a 0).val + 11, ht⟩ (0 : Fin 3) * 1 + 1
    rw [e0']; omega
  | ⟨1, _⟩ =>
    show win3_16.index ⟨12 * (a 0).val + 11, ht⟩ (1 : Fin 3) * 1 ≤ (a 1).val ∧ (a 1).val < win3_16.index ⟨12 * (a 0).val + 11, ht⟩ (1 : Fin 3) * 1 + 1
    rw [e16_1]; omega
  | ⟨2, _⟩ =>
    show win3_16.index ⟨12 * (a 0).val + 11, ht⟩ (2 : Fin 3) * 8 ≤ (a 2).val ∧ (a 2).val < win3_16.index ⟨12 * (a 0).val + 11, ht⟩ (2 : Fin 3) * 8 + 8
    rw [e16_2]; omega

/-- Every index of window 17's array is in the block the last tile of its row writes back. -/
theorem cover3_17 (a : S12x1x8.Idx) :
    ∃ t : Fin cfg3.N, (cfg3.win 17).flush t = true ∧ a ∈ ((cfg3.win 17).blk t).view.set := by
  have h0 : (a 0).val < 12 := (a 0).isLt
  have h1 : (a 1).val < 1 := (a 1).isLt
  have h2 : (a 2).val < 8 := (a 2).isLt
  have hN : cfg3.N = 144 := N_3
  have ht : 12 * (a 0).val + 11 < cfg3.N := by rw [hN]; omega
  refine ⟨⟨12 * (a 0).val + 11, ht⟩, (flush3_17 _).mpr (by show (12 * (a 0).val + 11) % 12 = 11; omega), ?_⟩
  obtain ⟨e0_0, e0_1, e1_0, e1_1, e2_0, e2_1, e3_0, e4_0, e4_1, e5_0, e6_0, e6_1, e7_0, e8_0, e8_1, e9_0, e10_0, e11_0, e12_0, e13_0, e14_0, e15_0, e16_0, e16_1, e16_2, e17_0, e17_1, e17_2⟩ := idx3 ⟨12 * (a 0).val + 11, ht⟩
  have e0' : win3_17.index ⟨12 * (a 0).val + 11, ht⟩ (0 : Fin 3) = (a 0).val := by rw [e17_0]; show (12 * (a 0).val + 11) / 12 = _; omega
  show a ∈ ((View.whole main_v52_1).slice (win3_17.rect ⟨12 * (a 0).val + 11, ht⟩)).set
  rw [View.set_slice_whole, Rect.mem_set_unit]
  intro b
  match b with
  | ⟨0, _⟩ =>
    show win3_17.index ⟨12 * (a 0).val + 11, ht⟩ (0 : Fin 3) * 1 ≤ (a 0).val ∧ (a 0).val < win3_17.index ⟨12 * (a 0).val + 11, ht⟩ (0 : Fin 3) * 1 + 1
    rw [e0']; omega
  | ⟨1, _⟩ =>
    show win3_17.index ⟨12 * (a 0).val + 11, ht⟩ (1 : Fin 3) * 1 ≤ (a 1).val ∧ (a 1).val < win3_17.index ⟨12 * (a 0).val + 11, ht⟩ (1 : Fin 3) * 1 + 1
    rw [e17_1]; omega
  | ⟨2, _⟩ =>
    show win3_17.index ⟨12 * (a 0).val + 11, ht⟩ (2 : Fin 3) * 8 ≤ (a 2).val ∧ (a 2).val < win3_17.index ⟨12 * (a 0).val + 11, ht⟩ (2 : Fin 3) * 8 + 8
    rw [e17_2]; omega

include hx hW1 hb1 hW2 hb2 hW3 hb3 hW4 hb4 hsc1 hbi1 hsc2 hbi2 hsc3 hbi3 in
/-- The sums' array after the region: at (i, 0, o) the total of channel o over row block i. -/
theorem arr3_16 (i : Fin 12) (o : Fin 8) :
    (dat3 V c).arrAt 16 cfg3.N (ix3 i (0 : Fin 1) o) = ((rowTot (z4S x w1 β1 sc1 bi1 w2 β2 sc2 bi2 w3 β3 sc3 bi3 w4 β4) i o : ℝ) : EReal) :=
  congrFun ((dat3 V c).arrAt_eq_of_cover 16 (G3_16 x w1 β1 sc1 bi1 w2 β2 sc2 bi2 w3 β3 sc3 bi3 w4 β4) (flushed3_16 V c x w1 β1 sc1 bi1 w2 β2 sc2 bi2 w3 β3 sc3 bi3 w4 β4 hx hW1 hb1 hW2 hb2 hW3 hb3 hW4 hb4 hsc1 hbi1 hsc2 hbi2 hsc3 hbi3) cover3_16) (ix3 i (0 : Fin 1) o)

include hx hW1 hb1 hW2 hb2 hW3 hb3 hW4 hb4 hsc1 hbi1 hsc2 hbi2 hsc3 hbi3 in
/-- The squares' array after the region: at (i, 0, o) the total of squares of channel o over row block i. -/
theorem arr3_17 (i : Fin 12) (o : Fin 8) :
    (dat3 V c).arrAt 17 cfg3.N (ix3 i (0 : Fin 1) o) = ((rowSq (z4S x w1 β1 sc1 bi1 w2 β2 sc2 bi2 w3 β3 sc3 bi3 w4 β4) i o : ℝ) : EReal) :=
  congrFun ((dat3 V c).arrAt_eq_of_cover 17 (G3_17 x w1 β1 sc1 bi1 w2 β2 sc2 bi2 w3 β3 sc3 bi3 w4 β4) (flushed3_17 V c x w1 β1 sc1 bi1 w2 β2 sc2 bi2 w3 β3 sc3 bi3 w4 β4 hx hW1 hb1 hW2 hb2 hW3 hb3 hW4 hb4 hsc1 hbi1 hsc2 hbi2 hsc3 hbi3) cover3_17) (ix3 i (0 : Fin 1) o)

end Region3

end Cert.KernelIdeal.Val

end
-- ==== Proof.Val.K4.lean ====
/-
  The final kernel's stored value on a tile.

  The kernel recomputes the four layers with their activations, applies the last linear layer, whose one channel is a
  row of 16384 lanes, and stores that row as the 128 x 128 tile: the entry (p, q) is the network's value at the pair.
-/
import proofs.«135850_j19774029431551_2_alg».proof.Proof.Val.Chain

noncomputable section

namespace Cert.KernelIdeal.Val

open Cert.KernelIdeal Cert.KernelIdeal.Gen
open Idealize.ShloMosaic Idealize.ShloMosaic.ValueIdx
open scoped BigOperators

variable (x0 x1 : Fin 64 → Fin 128 → ℝ) (W1 : Fin 16 → Fin 64 → ℝ) (b1 sc1 bi1 : Fin 16 → ℝ)
  (W2 : Fin 16 → Fin 16 → ℝ) (b2 sc2 bi2 : Fin 16 → ℝ) (W3 : Fin 8 → Fin 16 → ℝ) (b3 sc3 bi3 : Fin 8 → ℝ)
  (W4 : Fin 8 → Fin 8 → ℝ) (b4 sc4 bi4 : Fin 8 → ℝ) (W5 : Fin 1 → Fin 8 → ℝ) (b5 : Fin 1 → ℝ)

/-- The recomputed second linear layer. -/
theorem k4_pay2_eq : Gen.k4_pay2 (F := Ideal) (blk2 x0) (blk2 x1) (blk2 W1) (blk1 b1) (blk1 sc1) (blk1 bi1) (blk2 W2) (blk1 b2) = raw2V x0 x1 W1 b1 sc1 bi1 W2 b2 := rfl

/-- The stored tile is the last linear layer's row of lanes, reshaped. -/
theorem k4_pay1_eq : Gen.k4_pay1 (F := Ideal) (Gen.k4_pay3 (Gen.k4_pay2 (blk2 x0) (blk2 x1) (blk2 W1) (blk1 b1) (blk1 sc1) (blk1 bi1) (blk2 W2) (blk1 b2)) (blk1 sc2) (blk1 bi2) (blk2 W3) (blk1 b3) (blk1 sc3) (blk1 bi3) (blk2 W4)) (Gen.k4_pay4 (blk1 b4)) (blk1 sc4) (blk1 bi4) (blk2 W5) (blk1 b5)
    = shapeCast S128x128 (raw5V x0 x1 W1 b1 sc1 bi1 W2 b2 sc2 bi2 W3 b3 sc3 bi3 W4 b4 sc4 bi4 W5 b5) shapeCasts_S1x16384_S128x128 := rfl

/-- The stored tile at (p, q): the last linear layer at the pair. -/
theorem k4_pay1_apply (p q : Fin 128) :
    Gen.k4_pay1 (F := Ideal) (Gen.k4_pay3 (Gen.k4_pay2 (blk2 x0) (blk2 x1) (blk2 W1) (blk1 b1) (blk1 sc1) (blk1 bi1) (blk2 W2) (blk1 b2)) (blk1 sc2) (blk1 bi2) (blk2 W3) (blk1 b3) (blk1 sc3) (blk1 bi3) (blk2 W4)) (Gen.k4_pay4 (blk1 b4)) (blk1 sc4) (blk1 bi4) (blk2 W5) (blk1 b5) (ix2 p q)
      = ((raw5 x0 x1 W1 b1 sc1 bi1 W2 b2 sc2 bi2 W3 b3 sc3 bi3 W4 b4 sc4 bi4 W5 b5 p q 0 : ℝ) : EReal) := by
  rw [k4_pay1_eq, unflatten_apply]
  exact raw5V_apply x0 x1 W1 b1 sc1 bi1 W2 b2 sc2 bi2 W3 b3 sc3 bi3 W4 b4 sc4 bi4 W5 b5 p q 0

end Cert.KernelIdeal.Val

end
-- ==== Proof.Val.Glue4.lean ====
/-
  The final region: from tiles to the output array.

  On a core whose buffers hold coercions of real arrays when the region is entered, every staged block is the coercion of
  a real block, and the tile the body stores at position t is, at (p, q), the network's value at row p of row block t / 12
  and row q of column block t % 12. Every position writes its tile back at block (t / 12, t % 12); the 144 tiles cover
  the output array.
-/
import proofs.«135850_j19774029431551_2_alg».proof.Proof.KernelIdeal.Dat4
import proofs.«135850_j19774029431551_2_alg».proof.Proof.Val.K4
import proofs.«135850_j19774029431551_2_alg».proof.Proof.Val.Acc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-- The printed index maps, decided over the grid: at position t the row block is t / 12 and the column block t % 12, every
    other input is fetched whole, and the output's block is (t / 12, t % 12). -/
theorem idx4 : ∀ t : Fin cfg4.N,
    win4_0.index t (0 : Fin 2) = 0
    ∧ win4_0.index t (1 : Fin 2) = t.val / 12
    ∧ win4_1.index t (0 : Fin 2) = 0
    ∧ win4_1.index t (1 : Fin 2) = t.val % 12
    ∧ win4_2.index t (0 : Fin 2) = 0
    ∧ win4_2.index t (1 : Fin 2) = 0
    ∧ win4_3.index t (0 : Fin 1) = 0
    ∧ win4_4.index t (0 : Fin 2) = 0
    ∧ win4_4.index t (1 : Fin 2) = 0
    ∧ win4_5.index t (0 : Fin 1) = 0
    ∧ win4_6.index t (0 : Fin 2) = 0
    ∧ win4_6.index t (1 : Fin 2) = 0
    ∧ win4_7.index t (0 : Fin 1) = 0
    ∧ win4_8.index t (0 : Fin 2) = 0
    ∧ win4_8.index t (1 : Fin 2) = 0
    ∧ win4_9.index t (0 : Fin 1) = 0
    ∧ win4_10.index t (0 : Fin 2) = 0
    ∧ win4_10.index t (1 : Fin 2) = 0
    ∧ win4_11.index t (0 : Fin 1) = 0
    ∧ win4_12.index t (0 : Fin 1) = 0
    ∧ win4_13.index t (0 : Fin 1) = 0
    ∧ win4_14.index t (0 : Fin 1) = 0
    ∧ win4_15.index t (0 : Fin 1) = 0
    ∧ win4_16.index t (0 : Fin 1) = 0
    ∧ win4_17.index t (0 : Fin 1) = 0
    ∧ win4_18.index t (0 : Fin 1) = 0
    ∧ win4_19.index t (0 : Fin 1) = 0
    ∧ win4_20.index t (0 : Fin 2) = t.val / 12
    ∧ win4_20.index t (1 : Fin 2) = t.val % 12 :=
  (by decide +kernel : ∀ t : Fin grid4.N, _)

section Region4

variable (V : (c : Dev nD) → (b : Ref sig .tc) → Buf (Elt Ideal) ((c : Thread nD τ).loc b)) (c : Dev nD)
  (x : Fin 1536 → Fin 64 → ℝ) (w1 : Fin 16 → Fin 64 → ℝ) (β1 : Fin 16 → ℝ) (sc1 : Fin 16 → ℝ) (bi1 : Fin 16 → ℝ) (w2 : Fin 16 → Fin 16 → ℝ) (β2 : Fin 16 → ℝ) (sc2 : Fin 16 → ℝ) (bi2 : Fin 16 → ℝ) (w3 : Fin 8 → Fin 16 → ℝ) (β3 : Fin 8 → ℝ) (sc3 : Fin 8 → ℝ) (bi3 : Fin 8 → ℝ) (w4 : Fin 8 → Fin 8 → ℝ) (β4 : Fin 8 → ℝ) (sc4 : Fin 8 → ℝ) (bi4 : Fin 8 → ℝ) (w5 : Fin 1 → Fin 8 → ℝ) (β5 : Fin 1 → ℝ)
  (hx : ∀ k n, V c main_v0 (ix2 k n) = ((x n k : ℝ) : EReal))
  (hW1 : ∀ o k, V c main_arg1 (ix2 o k) = ((w1 o k : ℝ) : EReal))
  (hb1 : ∀ o, V c main_arg2 (ix1 o) = ((β1 o : ℝ) : EReal))
  (hW2 : ∀ o k, V c main_arg5 (ix2 o k) = ((w2 o k : ℝ) : EReal))
  (hb2 : ∀ o, V c main_arg6 (ix1 o) = ((β2 o : ℝ) : EReal))
  (hW3 : ∀ o k, V c main_arg9 (ix2 o k) = ((w3 o k : ℝ) : EReal))
  (hb3 : ∀ o, V c main_arg10 (ix1 o) = ((β3 o : ℝ) : EReal))
  (hW4 : ∀ o k, V c main_arg13 (ix2 o k) = ((w4 o k : ℝ) : EReal))
  (hb4 : ∀ o, V c main_arg14 (ix1 o) = ((β4 o : ℝ) : EReal))
  (hW5 : ∀ o k, V c main_arg17 (ix2 o k) = ((w5 o k : ℝ) : EReal))
  (hb5 : ∀ o, V c main_arg18 (ix1 o) = ((β5 o : ℝ) : EReal))
  (hsc1 : ∀ o, V c main_v15 (ix1 o) = ((sc1 o : ℝ) : EReal))
  (hbi1 : ∀ o, V c main_v17 (ix1 o) = ((bi1 o : ℝ) : EReal))
  (hsc2 : ∀ o, V c main_v32 (ix1 o) = ((sc2 o : ℝ) : EReal))
  (hbi2 : ∀ o, V c main_v34 (ix1 o) = ((bi2 o : ℝ) : EReal))
  (hsc3 : ∀ o, V c main_v49 (ix1 o) = ((sc3 o : ℝ) : EReal))
  (hbi3 : ∀ o, V c main_v51 (ix1 o) = ((bi3 o : ℝ) : EReal))
  (hsc4 : ∀ o, V c main_v66 (ix1 o) = ((sc4 o : ℝ) : EReal))
  (hbi4 : ∀ o, V c main_v68 (ix1 o) = ((bi4 o : ℝ) : EReal))

/-! ## The staged blocks -/

include hx in
/-- The row block at position t: block t / 12 of the input, channels first. -/
theorem iblk4_0_eq (t : Fin cfg4.N) : (iblk4 V c 0 t : Vec Ideal S64x128 .f32) = blk2 (xblk x (t.val / 12)) := by
  have hN : t.val < 144 := lt_of_lt_of_eq t.isLt (show cfg4.N = 144 from N_4)
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨k, p, rfl⟩ : ∃ (k : Fin 64) (p : Fin 128), j = ix2 k p := ⟨j 0, j 1, eq_ix2 j⟩
  show V c main_v0 (((cfg4.win 0).blk t).view.emb (ix2 k p)) = _
  have he : ((cfg4.win 0).blk t).view.emb (ix2 k p) = ix2 k (rowN (t.val / 12) p) := by
    funext a; apply Fin.ext
    match a with
    | ⟨0, _⟩ => show win4_0.index t (0 : Fin 2) * 64 + 1 * k.val = k.val; rw [e0_0]; omega
    | ⟨1, _⟩ =>
      show win4_0.index t (1 : Fin 2) * 128 + 1 * p.val = (128 * (t.val / 12) + p.val) % 1536
      have := p.isLt; rw [e0_1]; omega
  rw [he, hx]; rfl

include hx in
/-- The column block at position t: block t % 12 of the input, channels first. -/
theorem iblk4_1_eq (t : Fin cfg4.N) : (iblk4 V c 1 t : Vec Ideal S64x128 .f32) = blk2 (xblk x (t.val % 12)) := by
  have hN : t.val < 144 := lt_of_lt_of_eq t.isLt (show cfg4.N = 144 from N_4)
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨k, p, rfl⟩ : ∃ (k : Fin 64) (p : Fin 128), j = ix2 k p := ⟨j 0, j 1, eq_ix2 j⟩
  show V c main_v0 (((cfg4.win 1).blk t).view.emb (ix2 k p)) = _
  have he : ((cfg4.win 1).blk t).view.emb (ix2 k p) = ix2 k (rowN (t.val % 12) p) := by
    funext a; apply Fin.ext
    match a with
    | ⟨0, _⟩ => show win4_1.index t (0 : Fin 2) * 64 + 1 * k.val = k.val; rw [e1_0]; omega
    | ⟨1, _⟩ =>
      show win4_1.index t (1 : Fin 2) * 128 + 1 * p.val = (128 * (t.val % 12) + p.val) % 1536
      have := p.isLt; rw [e1_1]; omega
  rw [he, hx]; rfl

include hW1 in
/-- Window 2's block, fetched whole, at every position. -/
theorem iblk4_2_eq (t : Fin cfg4.N) : (iblk4 V c 2 t : Vec Ideal S16x64 .f32) = blk2 w1 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, k, rfl⟩ : ∃ (o : Fin 16) (k : Fin 64), j = ix2 o k := ⟨j 0, j 1, eq_ix2 j⟩
  show V c main_arg1 (((cfg4.win 2).blk t).view.emb (ix2 o k)) = _
  have he : ((cfg4.win 2).blk t).view.emb (ix2 o k) = ix2 o k := by
    funext a; apply Fin.ext
    match a with
    | ⟨0, _⟩ => show win4_2.index t (0 : Fin 2) * 16 + 1 * o.val = o.val; rw [e2_0]; omega
    | ⟨1, _⟩ => show win4_2.index t (1 : Fin 2) * 64 + 1 * k.val = k.val; rw [e2_1]; omega
  rw [he, hW1]; rfl

include hb1 in
/-- Window 3's block, fetched whole, at every position. -/
theorem iblk4_3_eq (t : Fin cfg4.N) : (iblk4 V c 3 t : Vec Ideal S16 .f32) = blk1 β1 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 16), j = ix1 o := ⟨j 0, eq_ix1 j⟩
  show V c main_arg2 (((cfg4.win 3).blk t).view.emb (ix1 o)) = _
  have he : ((cfg4.win 3).blk t).view.emb (ix1 o) = ix1 o := by
    funext a; apply Fin.ext
    match a with
    | ⟨0, _⟩ => show win4_3.index t (0 : Fin 1) * 16 + 1 * o.val = o.val; rw [e3_0]; omega
  rw [he, hb1]; rfl

include hW2 in
/-- Window 4's block, fetched whole, at every position. -/
theorem iblk4_4_eq (t : Fin cfg4.N) : (iblk4 V c 4 t : Vec Ideal S16x16 .f32) = blk2 w2 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, k, rfl⟩ : ∃ (o : Fin 16) (k : Fin 16), j = ix2 o k := ⟨j 0, j 1, eq_ix2 j⟩
  show V c main_arg5 (((cfg4.win 4).blk t).view.emb (ix2 o k)) = _
  have he : ((cfg4.win 4).blk t).view.emb (ix2 o k) = ix2 o k := by
    funext a; apply Fin.ext
    match a with
    | ⟨0, _⟩ => show win4_4.index t (0 : Fin 2) * 16 + 1 * o.val = o.val; rw [e4_0]; omega
    | ⟨1, _⟩ => show win4_4.index t (1 : Fin 2) * 16 + 1 * k.val = k.val; rw [e4_1]; omega
  rw [he, hW2]; rfl

include hb2 in
/-- Window 5's block, fetched whole, at every position. -/
theorem iblk4_5_eq (t : Fin cfg4.N) : (iblk4 V c 5 t : Vec Ideal S16 .f32) = blk1 β2 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 16), j = ix1 o := ⟨j 0, eq_ix1 j⟩
  show V c main_arg6 (((cfg4.win 5).blk t).view.emb (ix1 o)) = _
  have he : ((cfg4.win 5).blk t).view.emb (ix1 o) = ix1 o := by
    funext a; apply Fin.ext
    match a with
    | ⟨0, _⟩ => show win4_5.index t (0 : Fin 1) * 16 + 1 * o.val = o.val; rw [e5_0]; omega
  rw [he, hb2]; rfl

include hW3 in
/-- Window 6's block, fetched whole, at every position. -/
theorem iblk4_6_eq (t : Fin cfg4.N) : (iblk4 V c 6 t : Vec Ideal S8x16 .f32) = blk2 w3 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, k, rfl⟩ : ∃ (o : Fin 8) (k : Fin 16), j = ix2 o k := ⟨j 0, j 1, eq_ix2 j⟩
  show V c main_arg9 (((cfg4.win 6).blk t).view.emb (ix2 o k)) = _
  have he : ((cfg4.win 6).blk t).view.emb (ix2 o k) = ix2 o k := by
    funext a; apply Fin.ext
    match a with
    | ⟨0, _⟩ => show win4_6.index t (0 : Fin 2) * 8 + 1 * o.val = o.val; rw [e6_0]; omega
    | ⟨1, _⟩ => show win4_6.index t (1 : Fin 2) * 16 + 1 * k.val = k.val; rw [e6_1]; omega
  rw [he, hW3]; rfl

include hb3 in
/-- Window 7's block, fetched whole, at every position. -/
theorem iblk4_7_eq (t : Fin cfg4.N) : (iblk4 V c 7 t : Vec Ideal S8 .f32) = blk1 β3 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 8), j = ix1 o := ⟨j 0, eq_ix1 j⟩
  show V c main_arg10 (((cfg4.win 7).blk t).view.emb (ix1 o)) = _
  have he : ((cfg4.win 7).blk t).view.emb (ix1 o) = ix1 o := by
    funext a; apply Fin.ext
    match a with
    | ⟨0, _⟩ => show win4_7.index t (0 : Fin 1) * 8 + 1 * o.val = o.val; rw [e7_0]; omega
  rw [he, hb3]; rfl

include hW4 in
/-- Window 8's block, fetched whole, at every position. -/
theorem iblk4_8_eq (t : Fin cfg4.N) : (iblk4 V c 8 t : Vec Ideal S8x8 .f32) = blk2 w4 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, k, rfl⟩ : ∃ (o : Fin 8) (k : Fin 8), j = ix2 o k := ⟨j 0, j 1, eq_ix2 j⟩
  show V c main_arg13 (((cfg4.win 8).blk t).view.emb (ix2 o k)) = _
  have he : ((cfg4.win 8).blk t).view.emb (ix2 o k) = ix2 o k := by
    funext a; apply Fin.ext
    match a with
    | ⟨0, _⟩ => show win4_8.index t (0 : Fin 2) * 8 + 1 * o.val = o.val; rw [e8_0]; omega
    | ⟨1, _⟩ => show win4_8.index t (1 : Fin 2) * 8 + 1 * k.val = k.val; rw [e8_1]; omega
  rw [he, hW4]; rfl

include hb4 in
/-- Window 9's block, fetched whole, at every position. -/
theorem iblk4_9_eq (t : Fin cfg4.N) : (iblk4 V c 9 t : Vec Ideal S8 .f32) = blk1 β4 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 8), j = ix1 o := ⟨j 0, eq_ix1 j⟩
  show V c main_arg14 (((cfg4.win 9).blk t).view.emb (ix1 o)) = _
  have he : ((cfg4.win 9).blk t).view.emb (ix1 o) = ix1 o := by
    funext a; apply Fin.ext
    match a with
    | ⟨0, _⟩ => show win4_9.index t (0 : Fin 1) * 8 + 1 * o.val = o.val; rw [e9_0]; omega
  rw [he, hb4]; rfl

include hW5 in
/-- Window 10's block, fetched whole, at every position. -/
theorem iblk4_10_eq (t : Fin cfg4.N) : (iblk4 V c 10 t : Vec Ideal S1x8 .f32) = blk2 w5 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, k, rfl⟩ : ∃ (o : Fin 1) (k : Fin 8), j = ix2 o k := ⟨j 0, j 1, eq_ix2 j⟩
  show V c main_arg17 (((cfg4.win 10).blk t).view.emb (ix2 o k)) = _
  have he : ((cfg4.win 10).blk t).view.emb (ix2 o k) = ix2 o k := by
    funext a; apply Fin.ext
    match a with
    | ⟨0, _⟩ => show win4_10.index t (0 : Fin 2) * 1 + 1 * o.val = o.val; rw [e10_0]; omega
    | ⟨1, _⟩ => show win4_10.index t (1 : Fin 2) * 8 + 1 * k.val = k.val; rw [e10_1]; omega
  rw [he, hW5]; rfl

include hb5 in
/-- Window 11's block, fetched whole, at every position. -/
theorem iblk4_11_eq (t : Fin cfg4.N) : (iblk4 V c 11 t : Vec Ideal S1 .f32) = blk1 β5 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 1), j = ix1 o := ⟨j 0, eq_ix1 j⟩
  show V c main_arg18 (((cfg4.win 11).blk t).view.emb (ix1 o)) = _
  have he : ((cfg4.win 11).blk t).view.emb (ix1 o) = ix1 o := by
    funext a; apply Fin.ext
    match a with
    | ⟨0, _⟩ => show win4_11.index t (0 : Fin 1) * 1 + 1 * o.val = o.val; rw [e11_0]; omega
  rw [he, hb5]; rfl

include hsc1 in
/-- Window 12's block, fetched whole, at every position. -/
theorem iblk4_12_eq (t : Fin cfg4.N) : (iblk4 V c 12 t : Vec Ideal S16 .f32) = blk1 sc1 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 16), j = ix1 o := ⟨j 0, eq_ix1 j⟩
  show V c main_v15 (((cfg4.win 12).blk t).view.emb (ix1 o)) = _
  have he : ((cfg4.win 12).blk t).view.emb (ix1 o) = ix1 o := by
    funext a; apply Fin.ext
    match a with
    | ⟨0, _⟩ => show win4_12.index t (0 : Fin 1) * 16 + 1 * o.val = o.val; rw [e12_0]; omega
  rw [he, hsc1]; rfl

include hbi1 in
/-- Window 13's block, fetched whole, at every position. -/
theorem iblk4_13_eq (t : Fin cfg4.N) : (iblk4 V c 13 t : Vec Ideal S16 .f32) = blk1 bi1 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 16), j = ix1 o := ⟨j 0, eq_ix1 j⟩
  show V c main_v17 (((cfg4.win 13).blk t).view.emb (ix1 o)) = _
  have he : ((cfg4.win 13).blk t).view.emb (ix1 o) = ix1 o := by
    funext a; apply Fin.ext
    match a with
    | ⟨0, _⟩ => show win4_13.index t (0 : Fin 1) * 16 + 1 * o.val = o.val; rw [e13_0]; omega
  rw [he, hbi1]; rfl

include hsc2 in
/-- Window 14's block, fetched whole, at every position. -/
theorem iblk4_14_eq (t : Fin cfg4.N) : (iblk4 V c 14 t : Vec Ideal S16 .f32) = blk1 sc2 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 16), j = ix1 o := ⟨j 0, eq_ix1 j⟩
  show V c main_v32 (((cfg4.win 14).blk t).view.emb (ix1 o)) = _
  have he : ((cfg4.win 14).blk t).view.emb (ix1 o) = ix1 o := by
    funext a; apply Fin.ext
    match a with
    | ⟨0, _⟩ => show win4_14.index t (0 : Fin 1) * 16 + 1 * o.val = o.val; rw [e14_0]; omega
  rw [he, hsc2]; rfl

include hbi2 in
/-- Window 15's block, fetched whole, at every position. -/
theorem iblk4_15_eq (t : Fin cfg4.N) : (iblk4 V c 15 t : Vec Ideal S16 .f32) = blk1 bi2 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 16), j = ix1 o := ⟨j 0, eq_ix1 j⟩
  show V c main_v34 (((cfg4.win 15).blk t).view.emb (ix1 o)) = _
  have he : ((cfg4.win 15).blk t).view.emb (ix1 o) = ix1 o := by
    funext a; apply Fin.ext
    match a with
    | ⟨0, _⟩ => show win4_15.index t (0 : Fin 1) * 16 + 1 * o.val = o.val; rw [e15_0]; omega
  rw [he, hbi2]; rfl

include hsc3 in
/-- Window 16's block, fetched whole, at every position. -/
theorem iblk4_16_eq (t : Fin cfg4.N) : (iblk4 V c 16 t : Vec Ideal S8 .f32) = blk1 sc3 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 8), j = ix1 o := ⟨j 0, eq_ix1 j⟩
  show V c main_v49 (((cfg4.win 16).blk t).view.emb (ix1 o)) = _
  have he : ((cfg4.win 16).blk t).view.emb (ix1 o) = ix1 o := by
    funext a; apply Fin.ext
    match a with
    | ⟨0, _⟩ => show win4_16.index t (0 : Fin 1) * 8 + 1 * o.val = o.val; rw [e16_0]; omega
  rw [he, hsc3]; rfl

include hbi3 in
/-- Window 17's block, fetched whole, at every position. -/
theorem iblk4_17_eq (t : Fin cfg4.N) : (iblk4 V c 17 t : Vec Ideal S8 .f32) = blk1 bi3 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 8), j = ix1 o := ⟨j 0, eq_ix1 j⟩
  show V c main_v51 (((cfg4.win 17).blk t).view.emb (ix1 o)) = _
  have he : ((cfg4.win 17).blk t).view.emb (ix1 o) = ix1 o := by
    funext a; apply Fin.ext
    match a with
    | ⟨0, _⟩ => show win4_17.index t (0 : Fin 1) * 8 + 1 * o.val = o.val; rw [e17_0]; omega
  rw [he, hbi3]; rfl

include hsc4 in
/-- Window 18's block, fetched whole, at every position. -/
theorem iblk4_18_eq (t : Fin cfg4.N) : (iblk4 V c 18 t : Vec Ideal S8 .f32) = blk1 sc4 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 8), j = ix1 o := ⟨j 0, eq_ix1 j⟩
  show V c main_v66 (((cfg4.win 18).blk t).view.emb (ix1 o)) = _
  have he : ((cfg4.win 18).blk t).view.emb (ix1 o) = ix1 o := by
    funext a; apply Fin.ext
    match a with
    | ⟨0, _⟩ => show win4_18.index t (0 : Fin 1) * 8 + 1 * o.val = o.val; rw [e18_0]; omega
  rw [he, hsc4]; rfl

include hbi4 in
/-- Window 19's block, fetched whole, at every position. -/
theorem iblk4_19_eq (t : Fin cfg4.N) : (iblk4 V c 19 t : Vec Ideal S8 .f32) = blk1 bi4 := by
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  funext j
  obtain ⟨o, rfl⟩ : ∃ (o : Fin 8), j = ix1 o := ⟨j 0, eq_ix1 j⟩
  show V c main_v68 (((cfg4.win 19).blk t).view.emb (ix1 o)) = _
  have he : ((cfg4.win 19).blk t).view.emb (ix1 o) = ix1 o := by
    funext a; apply Fin.ext
    match a with
    | ⟨0, _⟩ => show win4_19.index t (0 : Fin 1) * 8 + 1 * o.val = o.val; rw [e19_0]; omega
  rw [he, hbi4]; rfl

/-! ## The output array -/

/-- The network's value at every pair of rows, as an array. -/
def G4_20 : S1536x1536.Idx → EReal := fun a => ((z5S x w1 β1 sc1 bi1 w2 β2 sc2 bi2 w3 β3 sc3 bi3 w4 β4 sc4 bi4 w5 β5 (a 0) (a 1) 0 : ℝ) : EReal)

include hx hW1 hb1 hW2 hb2 hW3 hb3 hW4 hb4 hW5 hb5 hsc1 hbi1 hsc2 hbi2 hsc3 hbi3 hsc4 hbi4 in
/-- What position t writes back: its tile of the network's values. -/
theorem flushed4_20 (t : Fin cfg4.N) (hf : (cfg4.win 20).flush t = true) :
    (dat4 V c).flushed 20 t = ((cfg4.win 20).blk t).view.read (Elt Ideal) (G4_20 x w1 β1 sc1 bi1 w2 β2 sc2 bi2 w3 β3 sc3 bi3 w4 β4 sc4 bi4 w5 β5) := by
  have hN : t.val < 144 := lt_of_lt_of_eq t.isLt (show cfg4.N = 144 from N_4)
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 t
  show (cfg4.win 20).cut (grid4.coords t) ((dat4 V c).after 20 t) = _
  rw [after4_20, iblk4_0_eq V c x hx, iblk4_1_eq V c x hx, iblk4_2_eq V c w1 hW1, iblk4_3_eq V c β1 hb1, iblk4_4_eq V c w2 hW2, iblk4_5_eq V c β2 hb2, iblk4_6_eq V c w3 hW3, iblk4_7_eq V c β3 hb3, iblk4_8_eq V c w4 hW4, iblk4_9_eq V c β4 hb4, iblk4_10_eq V c w5 hW5, iblk4_11_eq V c β5 hb5, iblk4_12_eq V c sc1 hsc1, iblk4_13_eq V c bi1 hbi1, iblk4_14_eq V c sc2 hsc2, iblk4_15_eq V c bi2 hbi2, iblk4_16_eq V c sc3 hsc3, iblk4_17_eq V c bi3 hbi3, iblk4_18_eq V c sc4 hsc4, iblk4_19_eq V c bi4 hbi4]
  unfold val4_20
  funext j
  obtain ⟨p, q, rfl⟩ : ∃ (p q : Fin 128), j = ix2 p q := ⟨j 0, j 1, eq_ix2 j⟩
  refine (k4_pay1_apply (xblk x (t.val / 12)) (xblk x (t.val % 12)) w1 β1 sc1 bi1 w2 β2 sc2 bi2 w3 β3 sc3 bi3 w4 β4 sc4 bi4 w5 β5 p q).trans ?_
  show _ = G4_20 x w1 β1 sc1 bi1 w2 β2 sc2 bi2 w3 β3 sc3 bi3 w4 β4 sc4 bi4 w5 β5 (((cfg4.win 20).blk t).view.emb (ix2 p q))
  have he : ((cfg4.win 20).blk t).view.emb (ix2 p q) = ix2 (rowN (t.val / 12) p) (rowN (t.val % 12) q) := by
    funext a; apply Fin.ext
    match a with
    | ⟨0, _⟩ =>
      show win4_20.index t (0 : Fin 2) * 128 + 1 * p.val = (128 * (t.val / 12) + p.val) % 1536
      have := p.isLt; rw [e20_0]; omega
    | ⟨1, _⟩ =>
      show win4_20.index t (1 : Fin 2) * 128 + 1 * q.val = (128 * (t.val % 12) + q.val) % 1536
      have := q.isLt; rw [e20_1]; omega
  rw [he]
  rfl

/-- Every index of the output array is in the tile of its row block and column block. -/
theorem cover4_20 (a : S1536x1536.Idx) :
    ∃ t : Fin cfg4.N, (cfg4.win 20).flush t = true ∧ a ∈ ((cfg4.win 20).blk t).view.set := by
  have h0 : (a 0).val < 1536 := (a 0).isLt
  have h1 : (a 1).val < 1536 := (a 1).isLt
  have hN : cfg4.N = 144 := N_4
  have ht : 12 * ((a 0).val / 128) + (a 1).val / 128 < cfg4.N := by rw [hN]; omega
  refine ⟨⟨12 * ((a 0).val / 128) + (a 1).val / 128, ht⟩, flush4_20 _, ?_⟩
  obtain ⟨e0_0, e0_1, e1_0, e1_1, e2_0, e2_1, e3_0, e4_0, e4_1, e5_0, e6_0, e6_1, e7_0, e8_0, e8_1, e9_0, e10_0, e10_1, e11_0, e12_0, e13_0, e14_0, e15_0, e16_0, e17_0, e18_0, e19_0, e20_0, e20_1⟩ := idx4 ⟨12 * ((a 0).val / 128) + (a 1).val / 128, ht⟩
  have e0' : win4_20.index ⟨12 * ((a 0).val / 128) + (a 1).val / 128, ht⟩ (0 : Fin 2) = (a 0).val / 128 := by
    rw [e20_0]; show (12 * ((a 0).val / 128) + (a 1).val / 128) / 12 = _; omega
  have e1' : win4_20.index ⟨12 * ((a 0).val / 128) + (a 1).val / 128, ht⟩ (1 : Fin 2) = (a 1).val / 128 := by
    rw [e20_1]; show (12 * ((a 0).val / 128) + (a 1).val / 128) % 12 = _; omega
  show a ∈ ((View.whole main_v69).slice (win4_20.rect ⟨12 * ((a 0).val / 128) + (a 1).val / 128, ht⟩)).set
  rw [View.set_slice_whole, Rect.mem_set_unit]
  intro b
  match b with
  | ⟨0, _⟩ =>
    show win4_20.index ⟨12 * ((a 0).val / 128) + (a 1).val / 128, ht⟩ (0 : Fin 2) * 128 ≤ (a 0).val ∧ (a 0).val < win4_20.index ⟨12 * ((a 0).val / 128) + (a 1).val / 128, ht⟩ (0 : Fin 2) * 128 + 128
    rw [e0']; omega
  | ⟨1, _⟩ =>
    show win4_20.index ⟨12 * ((a 0).val / 128) + (a 1).val / 128, ht⟩ (1 : Fin 2) * 128 ≤ (a 1).val ∧ (a 1).val < win4_20.index ⟨12 * ((a 0).val / 128) + (a 1).val / 128, ht⟩ (1 : Fin 2) * 128 + 128
    rw [e1']; omega

include hx hW1 hb1 hW2 hb2 hW3 hb3 hW4 hb4 hW5 hb5 hsc1 hbi1 hsc2 hbi2 hsc3 hbi3 hsc4 hbi4 in
/-- The output array after the region: at (n, m) the network's value at the pair of rows. -/
theorem arr4_20 (n m : Fin 1536) :
    (dat4 V c).arrAt 20 cfg4.N (ix2 n m)
      = ((Cert.Spec.lin w5 β5 (actS (z4S x w1 β1 sc1 bi1 w2 β2 sc2 bi2 w3 β3 sc3 bi3 w4 β4) sc4 bi4 n m) 0 : ℝ) : EReal) :=
  congrFun ((dat4 V c).arrAt_eq_of_cover 20 (G4_20 x w1 β1 sc1 bi1 w2 β2 sc2 bi2 w3 β3 sc3 bi3 w4 β4 sc4 bi4 w5 β5) (flushed4_20 V c x w1 β1 sc1 bi1 w2 β2 sc2 bi2 w3 β3 sc3 bi3 w4 β4 sc4 bi4 w5 β5 hx hW1 hb1 hW2 hb2 hW3 hb3 hW4 hb4 hW5 hb5 hsc1 hbi1 hsc2 hbi2 hsc3 hbi3 hsc4 hbi4) cover4_20) (ix2 n m)

end Region4

end Cert.KernelIdeal.Val

end
-- ==== Proof.LibRead.lean ====
/- General lemmas for reading host operations at an index over the exact values: sums over a rank-3 index set, the
   host's sum over the leading axis, scalar words spread to a shape, and the per-channel statistics a host program
   forms from per-row-block totals (total over the blocks, divided by the number of positions; second moment minus
   squared mean; gamma times the reciprocal square root; beta minus mean times that). Independent of any program. -/
import proofs.«135850_j19774029431551_2_alg».proof.Proof.Spec
import proofs.«135850_j19774029431551_2_alg».proof.Proof.LibBatchVariance
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.LibRead

open Idealize.ShloMosaic Idealize.ShloMosaic.ValueIdx
open Idealize.ShloMosaic.BatchStats (coe_sum div_coe_coe rsqrt_add_eps_coe)
open scoped BigOperators

/-! ## Index sets -/

/-- A rank-3 index set is the product of its three coordinate ranges. -/
def idxEquiv3 {A B C : ℕ} : (⟨3, ![A, B, C]⟩ : Shape).Idx ≃ Fin A × Fin B × Fin C where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {A B C : ℕ} (f : (⟨3, ![A, B, C]⟩ : Shape).Idx → M) :
    ∑ i, f i = ∑ a : Fin A, ∑ b : Fin B, ∑ c : Fin C, f (ix3 a b c) := by
  rw [← Equiv.sum_comp (idxEquiv3 (A := A) (B := B) (C := C)).symm f, Fintype.sum_prod_type]
  refine Finset.sum_congr rfl fun a _ => ?_
  rw [Fintype.sum_prod_type]
  rfl

/-- Summing over the leading axis of an R x 1 x C array: the indices that drop to (0, o) are those whose last
    coordinate is o. -/
theorem sum_drop0 {M : Type*} [AddCommMonoid M] {R C : ℕ}
    (h : (⟨3, ![R, 1, C]⟩ : Shape).ReducesTo [0] ⟨2, ![1, C]⟩) (x : (⟨3, ![R, 1, C]⟩ : Shape).Idx → M) (o : Fin C) :
    ∑ i ∈ Finset.univ.filter (fun i => h.drop i = ix2 (0 : Fin 1) o), x i = ∑ k : Fin R, x (ix3 k (0 : Fin 1) o) := by
  have hd : ∀ i : (⟨3, ![R, 1, C]⟩ : Shape).Idx, h.drop i = ix2 (0 : Fin 1) o ↔ (i 2 : Fin C) = o := fun i => by
    have hk : (⟨3, ![R, 1, C]⟩ : Shape).kept [0] = [1, 2] := rfl
    have hv : ((h.drop i) 1 : ℕ) = (i 2 : Fin C).val :=
      Shape.ReducesTo.drop_apply_val_of_eq h i 1 2 (by simp [hk]) (by simp [hk])
    constructor
    · intro e
      apply Fin.ext
      rw [← hv, e]
      rfl
    · intro e
      funext a
      match a with
      | ⟨0, _⟩ => exact Fin.ext (Nat.lt_one_iff.mp ((h.drop i) 0).isLt)
      | ⟨1, _⟩ => exact Fin.ext (hv.trans (congrArg Fin.val e))
  rw [Finset.sum_filter, sum_idx3]
  refine Finset.sum_congr rfl fun k _ => ?_
  rw [Fin.sum_univ_one, Finset.sum_eq_single o]
  · rw [if_pos ((hd _).mpr rfl)]
  · intro b _ hb
    rw [if_neg (fun e => hb ((hd _).mp e))]
  · intro hc; exact absurd (Finset.mem_univ o) hc

/-! ## Words and sums at the exact values -/

/-- The zero word's constant reads zero anywhere. -/
theorem const0_apply {S : Shape} (i : S.Idx) : constant (F := Ideal) S .f32 0x00000000#32 i = 0 := by
  rw [constant_apply, Ideal.ofBits_zero_f32]

/-- The position count's word, spread from a scalar to any shape, reads the real number T. -/
theorem bcastT_apply {S : Shape} (h : (⟨0, ![]⟩ : Shape).BroadcastsInDim S ![]) (j : S.Idx) :
    broadcastInDim (s := ⟨0, ![]⟩) S ![] h (constant (F := Ideal) ⟨0, ![]⟩ .f32 0x4A100000#32) j
      = ((Spec.T : ℝ) : EReal) := by
  rw [broadcastInDim_scalar_apply, constant_apply, Spec.ofBits_T]

/-- The regulariser's word, spread from a scalar to any shape, reads the real number eps. -/
theorem bcastEps_apply {S : Shape} (h : (⟨0, ![]⟩ : Shape).BroadcastsInDim S ![]) (j : S.Idx) :
    broadcastInDim (s := ⟨0, ![]⟩) S ![] h (constant (F := Ideal) ⟨0, ![]⟩ .f32 0x3727C5AC#32) j
      = ((Spec.eps : ℝ) : EReal) := by
  rw [broadcastInDim_scalar_apply, constant_apply, Spec.eps_coe]

/-- The host's reciprocal square root at an index. -/
theorem hostRsqrt_apply {s : Shape} (x : FVec Ideal s .f32) (i : s.Idx) :
    Host.rsqrt (F := Ideal) x i = Ideal.rsqrt (x i) := rfl

/-- The host's sum over the leading axis from the zero word, read at a channel. -/
theorem reduce0_apply {R C : ℕ} (X : FVec Ideal ⟨3, ![R, 1, C]⟩ .f32)
    (h : (⟨3, ![R, 1, C]⟩ : Shape).ReducesTo [0] ⟨2, ![1, C]⟩) (hu : 0 < (⟨0, ![]⟩ : Shape).numel) (o : Fin C) :
    Host.reduceAdd (F := Ideal) X (constant (F := Ideal) ⟨0, ![]⟩ .f32 0x00000000#32) h hu (ix2 (0 : Fin 1) o)
      = ∑ k : Fin R, X (ix3 k (0 : Fin 1) o) := by
  rw [hostReduceAdd_apply]
  unfold Ideal.hostReduceAdd
  show constant (F := Ideal) ⟨0, ![]⟩ .f32 0x00000000#32 _
      + ∑ i ∈ Finset.univ.filter (fun i => h.drop i = ix2 (0 : Fin 1) o), X i = _
  rw [const0_apply, zero_add, sum_drop0]

/-! ## Per-channel statistics from per-row-block totals -/

section Stats

variable {C : ℕ} (hred : (⟨3, ![12, 1, C]⟩ : Shape).ReducesTo [0] ⟨2, ![1, C]⟩)
  (hu : 0 < (⟨0, ![]⟩ : Shape).numel) (hcast : (⟨2, ![1, C]⟩ : Shape).ShapeCasts ⟨1, ![C]⟩)
  (hb : (⟨0, ![]⟩ : Shape).BroadcastsInDim ⟨1, ![C]⟩ ![])

/-- The total over the twelve row blocks: the sum over the leading axis, reshaped to a vector. -/
def hTot (S : FVec Ideal ⟨3, ![12, 1, C]⟩ .f32) : FVec Ideal ⟨1, ![C]⟩ .f32 :=
  shapeCast (s := ⟨2, ![1, C]⟩) ⟨1, ![C]⟩
    (Host.reduceAdd (F := Ideal) S (constant (F := Ideal) ⟨0, ![]⟩ .f32 0x00000000#32) hred hu) hcast

/-- The total divided by the number of positions. -/
def hMom (S : FVec Ideal ⟨3, ![12, 1, C]⟩ .f32) : FVec Ideal ⟨1, ![C]⟩ .f32 :=
  Host.divf (F := Ideal) (hTot hred hu hcast S)
    (broadcastInDim (s := ⟨0, ![]⟩) ⟨1, ![C]⟩ ![] hb (constant (F := Ideal) ⟨0, ![]⟩ .f32 0x4A100000#32))

/-- Second moment minus squared mean. -/
def hVar (S Q : FVec Ideal ⟨3, ![12, 1, C]⟩ .f32) : FVec Ideal ⟨1, ![C]⟩ .f32 :=
  subf (F := Ideal) (hMom hred hu hcast hb Q)
    (mulf (F := Ideal) (hMom hred hu hcast hb S) (hMom hred hu hcast hb S))

/-- The multiplier: gamma times the reciprocal square root of variance plus eps. -/
def hScale (S Q : FVec Ideal ⟨3, ![12, 1, C]⟩ .f32) (G : FVec Ideal ⟨1, ![C]⟩ .f32) : FVec Ideal ⟨1, ![C]⟩ .f32 :=
  mulf (F := Ideal) G
    (Host.rsqrt (F := Ideal)
      (addf (F := Ideal) (hVar hred hu hcast hb S Q)
        (broadcastInDim (s := ⟨0, ![]⟩) ⟨1, ![C]⟩ ![] hb (constant (F := Ideal) ⟨0, ![]⟩ .f32 0x3727C5AC#32))))

/-- The offset: beta minus mean times the multiplier. -/
def hBias (S Q : FVec Ideal ⟨3, ![12, 1, C]⟩ .f32) (G BE : FVec Ideal ⟨1, ![C]⟩ .f32) : FVec Ideal ⟨1, ![C]⟩ .f32 :=
  subf (F := Ideal) BE (mulf (F := Ideal) (hMom hred hu hcast hb S) (hScale hred hu hcast hb S Q G))

variable (S Q : FVec Ideal ⟨3, ![12, 1, C]⟩ .f32) (G BE : FVec Ideal ⟨1, ![C]⟩ .f32)
  (s q : Fin 12 → Fin C → ℝ) (g be : Fin C → ℝ)

theorem hTot_real (hS : ∀ i o, S (ix3 i (0 : Fin 1) o) = ((s i o : ℝ) : EReal)) (o : Fin C) :
    hTot hred hu hcast S (ix1 o) = ((∑ i, s i o : ℝ) : EReal) := by
  unfold hTot
  rw [shapeCast_1a_a_apply, reduce0_apply, coe_sum]
  exact Finset.sum_congr rfl fun i _ => hS i o

theorem hMom_real (hS : ∀ i o, S (ix3 i (0 : Fin 1) o) = ((s i o : ℝ) : EReal)) (o : Fin C) :
    hMom hred hu hcast hb S (ix1 o) = (((∑ i, s i o) / Spec.T : ℝ) : EReal) := by
  unfold hMom
  rw [hostDivf_apply, hTot_real hred hu hcast S s hS, bcastT_apply, div_coe_coe _ _ Spec.T_pos.ne']

theorem hVar_real (hS : ∀ i o, S (ix3 i (0 : Fin 1) o) = ((s i o : ℝ) : EReal))
    (hQ : ∀ i o, Q (ix3 i (0 : Fin 1) o) = ((q i o : ℝ) : EReal)) (o : Fin C) :
    hVar hred hu hcast hb S Q (ix1 o)
      = (((∑ i, q i o) / Spec.T - (∑ i, s i o) / Spec.T * ((∑ i, s i o) / Spec.T) : ℝ) : EReal) := by
  unfold hVar
  rw [subf_apply, mulf_apply, hMom_real hred hu hcast hb Q q hQ, hMom_real hred hu hcast hb S s hS,
    ← EReal.coe_mul, ← EReal.coe_sub]

theorem hScale_real (hS : ∀ i o, S (ix3 i (0 : Fin 1) o) = ((s i o : ℝ) : EReal))
    (hQ : ∀ i o, Q (ix3 i (0 : Fin 1) o) = ((q i o : ℝ) : EReal)) (hG : ∀ o, G (ix1 o) = ((g o : ℝ) : EReal))
    (o : Fin C) (hv : 0 ≤ (∑ i, q i o) / Spec.T - (∑ i, s i o) / Spec.T * ((∑ i, s i o) / Spec.T)) :
    hScale hred hu hcast hb S Q G (ix1 o)
      = ((g o * (1 / Real.sqrt ((∑ i, q i o) / Spec.T - (∑ i, s i o) / Spec.T * ((∑ i, s i o) / Spec.T) + Spec.eps))
          : ℝ) : EReal) := by
  unfold hScale
  rw [mulf_apply, hostRsqrt_apply, addf_apply, hVar_real hred hu hcast hb S Q s q hS hQ, bcastEps_apply,
    rsqrt_add_eps_coe hv Spec.eps_pos, hG, ← EReal.coe_mul, one_div]

theorem hBias_real (hS : ∀ i o, S (ix3 i (0 : Fin 1) o) = ((s i o : ℝ) : EReal))
    (hQ : ∀ i o, Q (ix3 i (0 : Fin 1) o) = ((q i o : ℝ) : EReal)) (hG : ∀ o, G (ix1 o) = ((g o : ℝ) : EReal))
    (hBE : ∀ o, BE (ix1 o) = ((be o : ℝ) : EReal))
    (o : Fin C) (hv : 0 ≤ (∑ i, q i o) / Spec.T - (∑ i, s i o) / Spec.T * ((∑ i, s i o) / Spec.T)) :
    hBias hred hu hcast hb S Q G BE (ix1 o)
      = ((be o - (∑ i, s i o) / Spec.T
          * (g o * (1 / Real.sqrt ((∑ i, q i o) / Spec.T - (∑ i, s i o) / Spec.T * ((∑ i, s i o) / Spec.T) + Spec.eps)))
          : ℝ) : EReal) := by
  unfold hBias
  rw [subf_apply, mulf_apply, hMom_real hred hu hcast hb S s hS, hScale_real hred hu hcast hb S Q G s q g hS hQ hG o hv,
    hBE, ← EReal.coe_mul, ← EReal.coe_sub]

end Stats

end Cert.LibRead

end
-- ==== Proof.Val.Host.lean ====
/- The kernel program's host operations read at the exact values, over an arbitrary valuation: the transpose before
   the first kernel, and after each of the first four kernels the per-channel multiplier and offset the host forms
   from the two accumulator arrays (totals and totals of squares per row block), gamma and beta. -/
import proofs.«135850_j19774029431551_2_alg».proof.Proof.Gen.KernelIdeal.Launch
import proofs.«135850_j19774029431551_2_alg».proof.Proof.LibRead
import Idealize.ShloMosaic.Lib.StableHlo.Run

set_option maxHeartbeats 1000000

noncomputable section

namespace Cert.KernelIdeal.HostRead

open Cert.KernelIdeal Cert.KernelIdeal.Gen Idealize.ShloMosaic Idealize.ShloMosaic.TcCoe Idealize.SL.Sem
open Idealize.ShloMosaic.StableHlo Idealize.ShloMosaic.ValueIdx
open Cert.LibRead
open scoped BigOperators

variable (W : Valuation τ sig (Elt Ideal))

/-! ## Before the first kernel: the transpose -/

theorem host0_eq :
    after hostOps0 W (main_v0 : DevRef τ sig)
      = transpose (s := S1536x64) S64x1536 [1, 0] (W (main_arg0 : DevRef τ sig)) transposes_S1536x64_S64x1536_1_0 := by
  after_results_simp <;> rfl

theorem host0_v0 (c : Fin 64) (n : Fin 1536) :
    (after hostOps0 W (main_v0 : DevRef τ sig) : FVec Ideal S64x1536 .f32) (ix2 c n)
      = (W (main_arg0 : DevRef τ sig) : FVec Ideal S1536x64 .f32) (ix2 n c) := by
  rw [host0_eq]
  exact transpose_ix2_apply _ _ c n

/-! ## After kernel 1 (sixteen channels) -/

theorem host1_scale_eq :
    after hostOps1 W (main_v15 : DevRef τ sig)
      = hScale reducesTo_S12x1x16_S1x16_d0 h_S_ shapeCasts_S1x16_S16 bcast_S_S16
          (W (main_v1_0 : DevRef τ sig)) (W (main_v1_1 : DevRef τ sig)) (W (main_arg3 : DevRef τ sig)) := by
  after_results_simp <;> rfl

theorem host1_bias_eq :
    after hostOps1 W (main_v17 : DevRef τ sig)
      = hBias reducesTo_S12x1x16_S1x16_d0 h_S_ shapeCasts_S1x16_S16 bcast_S_S16
          (W (main_v1_0 : DevRef τ sig)) (W (main_v1_1 : DevRef τ sig)) (W (main_arg3 : DevRef τ sig))
          (W (main_arg4 : DevRef τ sig)) := by
  after_results_simp <;> rfl

section K1
variable (s q : Fin 12 → Fin 16 → ℝ) (g be : Fin 16 → ℝ)
  (hS : ∀ i o, (W (main_v1_0 : DevRef τ sig) : FVec Ideal S12x1x16 .f32) (ix3 i (0 : Fin 1) o) = ((s i o : ℝ) : EReal))
  (hQ : ∀ i o, (W (main_v1_1 : DevRef τ sig) : FVec Ideal S12x1x16 .f32) (ix3 i (0 : Fin 1) o) = ((q i o : ℝ) : EReal))
  (hG : ∀ o, (W (main_arg3 : DevRef τ sig) : FVec Ideal S16 .f32) (ix1 o) = ((g o : ℝ) : EReal))
  (hBE : ∀ o, (W (main_arg4 : DevRef τ sig) : FVec Ideal S16 .f32) (ix1 o) = ((be o : ℝ) : EReal))
include hS hQ hG

theorem host1_scale (o : Fin 16)
    (hv : 0 ≤ (∑ i, q i o) / Spec.T - (∑ i, s i o) / Spec.T * ((∑ i, s i o) / Spec.T)) :
    (after hostOps1 W (main_v15 : DevRef τ sig) : FVec Ideal S16 .f32) (ix1 o)
      = ((g o * (1 / Real.sqrt ((∑ i, q i o) / Spec.T - (∑ i, s i o) / Spec.T * ((∑ i, s i o) / Spec.T) + Spec.eps))
          : ℝ) : EReal) := by
  rw [host1_scale_eq]
  exact hScale_real _ _ _ _ _ _ _ s q g hS hQ hG o hv

include hBE in
theorem host1_bias (o : Fin 16)
    (hv : 0 ≤ (∑ i, q i o) / Spec.T - (∑ i, s i o) / Spec.T * ((∑ i, s i o) / Spec.T)) :
    (after hostOps1 W (main_v17 : DevRef τ sig) : FVec Ideal S16 .f32) (ix1 o)
      = ((be o - (∑ i, s i o) / Spec.T
          * (g o * (1 / Real.sqrt ((∑ i, q i o) / Spec.T - (∑ i, s i o) / Spec.T * ((∑ i, s i o) / Spec.T) + Spec.eps)))
          : ℝ) : EReal) := by
  rw [host1_bias_eq]
  exact hBias_real _ _ _ _ _ _ _ _ s q g be hS hQ hG hBE o hv

end K1

/-! ## After kernel 2 (sixteen channels) -/

theorem host2_scale_eq :
    after hostOps2 W (main_v32 : DevRef τ sig)
      = hScale reducesTo_S12x1x16_S1x16_d0 h_S_ shapeCasts_S1x16_S16 bcast_S_S16
          (W (main_v18_0 : DevRef τ sig)) (W (main_v18_1 : DevRef τ sig)) (W (main_arg7 : DevRef τ sig)) := by
  after_results_simp <;> rfl

theorem host2_bias_eq :
    after hostOps2 W (main_v34 : DevRef τ sig)
      = hBias reducesTo_S12x1x16_S1x16_d0 h_S_ shapeCasts_S1x16_S16 bcast_S_S16
          (W (main_v18_0 : DevRef τ sig)) (W (main_v18_1 : DevRef τ sig)) (W (main_arg7 : DevRef τ sig))
          (W (main_arg8 : DevRef τ sig)) := by
  after_results_simp <;> rfl

section K2
variable (s q : Fin 12 → Fin 16 → ℝ) (g be : Fin 16 → ℝ)
  (hS : ∀ i o, (W (main_v18_0 : DevRef τ sig) : FVec Ideal S12x1x16 .f32) (ix3 i (0 : Fin 1) o) = ((s i o : ℝ) : EReal))
  (hQ : ∀ i o, (W (main_v18_1 : DevRef τ sig) : FVec Ideal S12x1x16 .f32) (ix3 i (0 : Fin 1) o) = ((q i o : ℝ) : EReal))
  (hG : ∀ o, (W (main_arg7 : DevRef τ sig) : FVec Ideal S16 .f32) (ix1 o) = ((g o : ℝ) : EReal))
  (hBE : ∀ o, (W (main_arg8 : DevRef τ sig) : FVec Ideal S16 .f32) (ix1 o) = ((be o : ℝ) : EReal))
include hS hQ hG

theorem host2_scale (o : Fin 16)
    (hv : 0 ≤ (∑ i, q i o) / Spec.T - (∑ i, s i o) / Spec.T * ((∑ i, s i o) / Spec.T)) :
    (after hostOps2 W (main_v32 : DevRef τ sig) : FVec Ideal S16 .f32) (ix1 o)
      = ((g o * (1 / Real.sqrt ((∑ i, q i o) / Spec.T - (∑ i, s i o) / Spec.T * ((∑ i, s i o) / Spec.T) + Spec.eps))
          : ℝ) : EReal) := by
  rw [host2_scale_eq]
  exact hScale_real _ _ _ _ _ _ _ s q g hS hQ hG o hv

include hBE in
theorem host2_bias (o : Fin 16)
    (hv : 0 ≤ (∑ i, q i o) / Spec.T - (∑ i, s i o) / Spec.T * ((∑ i, s i o) / Spec.T)) :
    (after hostOps2 W (main_v34 : DevRef τ sig) : FVec Ideal S16 .f32) (ix1 o)
      = ((be o - (∑ i, s i o) / Spec.T
          * (g o * (1 / Real.sqrt ((∑ i, q i o) / Spec.T - (∑ i, s i o) / Spec.T * ((∑ i, s i o) / Spec.T) + Spec.eps)))
          : ℝ) : EReal) := by
  rw [host2_bias_eq]
  exact hBias_real _ _ _ _ _ _ _ _ s q g be hS hQ hG hBE o hv

end K2

/-! ## After kernel 3 (eight channels) -/

theorem host3_scale_eq :
    after hostOps3 W (main_v49 : DevRef τ sig)
      = hScale reducesTo_S12x1x8_S1x8_d0 h_S_ shapeCasts_S1x8_S8 bcast_S_S8
          (W (main_v35_0 : DevRef τ sig)) (W (main_v35_1 : DevRef τ sig)) (W (main_arg11 : DevRef τ sig)) := by
  after_results_simp <;> rfl

theorem host3_bias_eq :
    after hostOps3 W (main_v51 : DevRef τ sig)
      = hBias reducesTo_S12x1x8_S1x8_d0 h_S_ shapeCasts_S1x8_S8 bcast_S_S8
          (W (main_v35_0 : DevRef τ sig)) (W (main_v35_1 : DevRef τ sig)) (W (main_arg11 : DevRef τ sig))
          (W (main_arg12 : DevRef τ sig)) := by
  after_results_simp <;> rfl

section K3
variable (s q : Fin 12 → Fin 8 → ℝ) (g be : Fin 8 → ℝ)
  (hS : ∀ i o, (W (main_v35_0 : DevRef τ sig) : FVec Ideal S12x1x8 .f32) (ix3 i (0 : Fin 1) o) = ((s i o : ℝ) : EReal))
  (hQ : ∀ i o, (W (main_v35_1 : DevRef τ sig) : FVec Ideal S12x1x8 .f32) (ix3 i (0 : Fin 1) o) = ((q i o : ℝ) : EReal))
  (hG : ∀ o, (W (main_arg11 : DevRef τ sig) : FVec Ideal S8 .f32) (ix1 o) = ((g o : ℝ) : EReal))
  (hBE : ∀ o, (W (main_arg12 : DevRef τ sig) : FVec Ideal S8 .f32) (ix1 o) = ((be o : ℝ) : EReal))
include hS hQ hG

theorem host3_scale (o : Fin 8)
    (hv : 0 ≤ (∑ i, q i o) / Spec.T - (∑ i, s i o) / Spec.T * ((∑ i, s i o) / Spec.T)) :
    (after hostOps3 W (main_v49 : DevRef τ sig) : FVec Ideal S8 .f32) (ix1 o)
      = ((g o * (1 / Real.sqrt ((∑ i, q i o) / Spec.T - (∑ i, s i o) / Spec.T * ((∑ i, s i o) / Spec.T) + Spec.eps))
          : ℝ) : EReal) := by
  rw [host3_scale_eq]
  exact hScale_real _ _ _ _ _ _ _ s q g hS hQ hG o hv

include hBE in
theorem host3_bias (o : Fin 8)
    (hv : 0 ≤ (∑ i, q i o) / Spec.T - (∑ i, s i o) / Spec.T * ((∑ i, s i o) / Spec.T)) :
    (after hostOps3 W (main_v51 : DevRef τ sig) : FVec Ideal S8 .f32) (ix1 o)
      = ((be o - (∑ i, s i o) / Spec.T
          * (g o * (1 / Real.sqrt ((∑ i, q i o) / Spec.T - (∑ i, s i o) / Spec.T * ((∑ i, s i o) / Spec.T) + Spec.eps)))
          : ℝ) : EReal) := by
  rw [host3_bias_eq]
  exact hBias_real _ _ _ _ _ _ _ _ s q g be hS hQ hG hBE o hv

end K3

/-! ## After kernel 4 (eight channels) -/

theorem host4_scale_eq :
    after hostOps4 W (main_v66 : DevRef τ sig)
      = hScale reducesTo_S12x1x8_S1x8_d0 h_S_ shapeCasts_S1x8_S8 bcast_S_S8
          (W (main_v52_0 : DevRef τ sig)) (W (main_v52_1 : DevRef τ sig)) (W (main_arg15 : DevRef τ sig)) := by
  after_results_simp <;> rfl

theorem host4_bias_eq :
    after hostOps4 W (main_v68 : DevRef τ sig)
      = hBias reducesTo_S12x1x8_S1x8_d0 h_S_ shapeCasts_S1x8_S8 bcast_S_S8
          (W (main_v52_0 : DevRef τ sig)) (W (main_v52_1 : DevRef τ sig)) (W (main_arg15 : DevRef τ sig))
          (W (main_arg16 : DevRef τ sig)) := by
  after_results_simp <;> rfl

section K4
variable (s q : Fin 12 → Fin 8 → ℝ) (g be : Fin 8 → ℝ)
  (hS : ∀ i o, (W (main_v52_0 : DevRef τ sig) : FVec Ideal S12x1x8 .f32) (ix3 i (0 : Fin 1) o) = ((s i o : ℝ) : EReal))
  (hQ : ∀ i o, (W (main_v52_1 : DevRef τ sig) : FVec Ideal S12x1x8 .f32) (ix3 i (0 : Fin 1) o) = ((q i o : ℝ) : EReal))
  (hG : ∀ o, (W (main_arg15 : DevRef τ sig) : FVec Ideal S8 .f32) (ix1 o) = ((g o : ℝ) : EReal))
  (hBE : ∀ o, (W (main_arg16 : DevRef τ sig) : FVec Ideal S8 .f32) (ix1 o) = ((be o : ℝ) : EReal))
include hS hQ hG

theorem host4_scale (o : Fin 8)
    (hv : 0 ≤ (∑ i, q i o) / Spec.T - (∑ i, s i o) / Spec.T * ((∑ i, s i o) / Spec.T)) :
    (after hostOps4 W (main_v66 : DevRef τ sig) : FVec Ideal S8 .f32) (ix1 o)
      = ((g o * (1 / Real.sqrt ((∑ i, q i o) / Spec.T - (∑ i, s i o) / Spec.T * ((∑ i, s i o) / Spec.T) + Spec.eps))
          : ℝ) : EReal) := by
  rw [host4_scale_eq]
  exact hScale_real _ _ _ _ _ _ _ s q g hS hQ hG o hv

include hBE in
theorem host4_bias (o : Fin 8)
    (hv : 0 ≤ (∑ i, q i o) / Spec.T - (∑ i, s i o) / Spec.T * ((∑ i, s i o) / Spec.T)) :
    (after hostOps4 W (main_v68 : DevRef τ sig) : FVec Ideal S8 .f32) (ix1 o)
      = ((be o - (∑ i, s i o) / Spec.T
          * (g o * (1 / Real.sqrt ((∑ i, q i o) / Spec.T - (∑ i, s i o) / Spec.T * ((∑ i, s i o) / Spec.T) + Spec.eps)))
          : ℝ) : EReal) := by
  rw [host4_bias_eq]
  exact hBias_real _ _ _ _ _ _ _ _ s q g be hS hQ hG hBE o hv

end K4

end Cert.KernelIdeal.HostRead

end
-- ==== Proof.Val.Final.lean ====
/- The kernel program's result over the real numbers. Along the program's chain of buffer contents: the transposed input
   and every argument read as at launch; after each of the first four kernels the two accumulator arrays hold the row
   blocks' totals and totals of squares of that layer's linear map; the host stretch after it turns them into the
   layer's multiplier and offset; so each kernel's rectified multiply-add is the specification's block; and the last
   kernel's output is the real network. -/
import proofs.«135850_j19774029431551_2_alg».proof.Proof.KernelIdeal.Chain
import proofs.«135850_j19774029431551_2_alg».proof.Proof.KernelIdeal.ChainFacts
import proofs.«135850_j19774029431551_2_alg».proof.Proof.Val.Glue0
import proofs.«135850_j19774029431551_2_alg».proof.Proof.Val.Glue1
import proofs.«135850_j19774029431551_2_alg».proof.Proof.Val.Glue2
import proofs.«135850_j19774029431551_2_alg».proof.Proof.Val.Glue3
import proofs.«135850_j19774029431551_2_alg».proof.Proof.Val.Glue4
import proofs.«135850_j19774029431551_2_alg».proof.Proof.Val.Host
import proofs.«135850_j19774029431551_2_alg».proof.Proof.Val.Affine
import proofs.«135850_j19774029431551_2_alg».proof.Proof.Val.Rows
import proofs.«135850_j19774029431551_2_alg».proof.Proof.Reals

set_option maxHeartbeats 1000000

noncomputable section

namespace Cert.KernelIdeal.Val

open Cert.KernelIdeal Cert.KernelIdeal.Gen Cert.KernelIdeal.Hand Cert.KernelIdeal.HostRead
open Idealize.ShloMosaic Idealize.ShloMosaic.TcCoe Idealize.ShloMosaic.ValueIdx Idealize.SL.Sem
open Cert.Val (rowTot rowSq kscale kbias moments_nonneg kscale_eq_moments kbias_eq_moments block_eq_affine)
open Cert.Hand (RealArgs)
open scoped BigOperators

/-! ## The real side: layers, multipliers, offsets -/

/-- A rectified multiply-add at a layer's own multiplier and offset is the specification's block. -/
theorem actS_eq_block {K O : ℕ} (W : Fin O → Fin K → ℝ) (b g be : Fin O → ℝ) (h : Fin 1536 → Fin 1536 → Fin K → ℝ) :
    actS (Cert.Spec.conv W b h) (kscale (Cert.Spec.conv W b h) g) (kbias (Cert.Spec.conv W b h) g be)
      = Cert.Spec.block W b g be h := by
  funext n m o
  exact (block_eq_affine W b g be h n m o).symm

section RealSide

variable {a0 : FVec Ideal Cert.ReferenceIdeal.S1536x64 .f32}
  {a1 : FVec Ideal Cert.ReferenceIdeal.S16x64 .f32} {a2 a3 a4 : FVec Ideal Cert.ReferenceIdeal.S16 .f32}
  {a5 : FVec Ideal Cert.ReferenceIdeal.S16x16 .f32} {a6 a7 a8 : FVec Ideal Cert.ReferenceIdeal.S16 .f32}
  {a9 : FVec Ideal Cert.ReferenceIdeal.S8x16 .f32} {a10 a11 a12 : FVec Ideal Cert.ReferenceIdeal.S8 .f32}
  {a13 : FVec Ideal Cert.ReferenceIdeal.S8x8 .f32} {a14 a15 a16 : FVec Ideal Cert.ReferenceIdeal.S8 .f32}
  {a17 : FVec Ideal Cert.ReferenceIdeal.S1x8 .f32} {a18 : FVec Ideal Cert.ReferenceIdeal.S1 .f32}
  (r : RealArgs a0 a1 a2 a3 a4 a5 a6 a7 a8 a9 a10 a11 a12 a13 a14 a15 a16 a17 a18)

/-- Layer 1's linear map, its multiplier and offset, and block 1. -/
def Z1 : Fin 1536 → Fin 1536 → Fin 16 → ℝ := Cert.Spec.conv r.w1 r.β1 (Cert.Spec.feat r.x)
def SC1 : Fin 16 → ℝ := kscale (Z1 r) r.γ1
def BI1 : Fin 16 → ℝ := kbias (Z1 r) r.γ1 r.δ1
def H1 : Fin 1536 → Fin 1536 → Fin 16 → ℝ := Cert.Spec.block r.w1 r.β1 r.γ1 r.δ1 (Cert.Spec.feat r.x)
/-- Layer 2. -/
def Z2 : Fin 1536 → Fin 1536 → Fin 16 → ℝ := Cert.Spec.conv r.w2 r.β2 (H1 r)
def SC2 : Fin 16 → ℝ := kscale (Z2 r) r.γ2
def BI2 : Fin 16 → ℝ := kbias (Z2 r) r.γ2 r.δ2
def H2 : Fin 1536 → Fin 1536 → Fin 16 → ℝ := Cert.Spec.block r.w2 r.β2 r.γ2 r.δ2 (H1 r)
/-- Layer 3. -/
def Z3 : Fin 1536 → Fin 1536 → Fin 8 → ℝ := Cert.Spec.conv r.w3 r.β3 (H2 r)
def SC3 : Fin 8 → ℝ := kscale (Z3 r) r.γ3
def BI3 : Fin 8 → ℝ := kbias (Z3 r) r.γ3 r.δ3
def H3 : Fin 1536 → Fin 1536 → Fin 8 → ℝ := Cert.Spec.block r.w3 r.β3 r.γ3 r.δ3 (H2 r)
/-- Layer 4. -/
def Z4 : Fin 1536 → Fin 1536 → Fin 8 → ℝ := Cert.Spec.conv r.w4 r.β4 (H3 r)
def SC4 : Fin 8 → ℝ := kscale (Z4 r) r.γ4
def BI4 : Fin 8 → ℝ := kbias (Z4 r) r.γ4 r.δ4
def H4 : Fin 1536 → Fin 1536 → Fin 8 → ℝ := Cert.Spec.block r.w4 r.β4 r.γ4 r.δ4 (H3 r)

theorem act1 : actS (Z1 r) (SC1 r) (BI1 r) = H1 r := actS_eq_block r.w1 r.β1 r.γ1 r.δ1 (Cert.Spec.feat r.x)
theorem act2 : actS (Z2 r) (SC2 r) (BI2 r) = H2 r := actS_eq_block r.w2 r.β2 r.γ2 r.δ2 (H1 r)
theorem act3 : actS (Z3 r) (SC3 r) (BI3 r) = H3 r := actS_eq_block r.w3 r.β3 r.γ3 r.δ3 (H2 r)
theorem act4 : actS (Z4 r) (SC4 r) (BI4 r) = H4 r := actS_eq_block r.w4 r.β4 r.γ4 r.δ4 (H3 r)

theorem z1S_eq : z1S r.x r.w1 r.β1 = Z1 r := rfl

theorem z2S_eq : z2S r.x r.w1 r.β1 (SC1 r) (BI1 r) r.w2 r.β2 = Z2 r := by
  unfold z2S
  rw [z1S_eq, act1]
  rfl

theorem z3S_eq : z3S r.x r.w1 r.β1 (SC1 r) (BI1 r) r.w2 r.β2 (SC2 r) (BI2 r) r.w3 r.β3 = Z3 r := by
  unfold z3S
  rw [z2S_eq, act2]
  rfl

theorem z4S_eq :
    z4S r.x r.w1 r.β1 (SC1 r) (BI1 r) r.w2 r.β2 (SC2 r) (BI2 r) r.w3 r.β3 (SC3 r) (BI3 r) r.w4 r.β4 = Z4 r := by
  unfold z4S
  rw [z3S_eq, act3]
  rfl

theorem net_eq (n m : Fin 1536) : r.net n m = Cert.Spec.lin r.w5 r.β5 (H4 r n m) 0 := rfl

end RealSide

/-! ## Reading an array through an equation of arrays -/

theorem rd1 {A : ℕ} {X Y : FVec Ideal ⟨1, ![A]⟩ .f32} (e : X = Y) {y : Fin A → ℝ}
    (hy : ∀ a, Y (ix1 a) = ((y a : ℝ) : EReal)) : ∀ a, X (ix1 a) = ((y a : ℝ) : EReal) := e ▸ hy

theorem rd2 {A B : ℕ} {X Y : FVec Ideal ⟨2, ![A, B]⟩ .f32} (e : X = Y) {y : Fin A → Fin B → ℝ}
    (hy : ∀ a b, Y (ix2 a b) = ((y a b : ℝ) : EReal)) : ∀ a b, X (ix2 a b) = ((y a b : ℝ) : EReal) := e ▸ hy

/-! ## What no step writes, and what only one host stretch writes -/

section Chain

variable (m : (ℓ : Loc nD τ sig) → Buf (Elt Ideal) ℓ) (c : Dev nD)

theorem W3_W1 (b : Ref sig .tc) (h1 : b ∉ Gen.hostOps1_W) (hA : b ∉ ([main_v1_0, main_v1_1] : List (Ref sig .tc))) :
    W3 m c b = W1 m c b := (W3_of m c b h1).trans (W2_of m c b hA)
theorem W5_W3 (b : Ref sig .tc) (h2 : b ∉ Gen.hostOps2_W) (hB : b ∉ ([main_v18_0, main_v18_1] : List (Ref sig .tc))) :
    W5 m c b = W3 m c b := (W5_of m c b h2).trans (W4_of m c b hB)
theorem W7_W5 (b : Ref sig .tc) (h3 : b ∉ Gen.hostOps3_W) (hC : b ∉ ([main_v35_0, main_v35_1] : List (Ref sig .tc))) :
    W7 m c b = W5 m c b := (W7_of m c b h3).trans (W6_of m c b hC)
theorem W9_W7 (b : Ref sig .tc) (h4 : b ∉ Gen.hostOps4_W) (hD : b ∉ ([main_v52_0, main_v52_1] : List (Ref sig .tc))) :
    W9 m c b = W7 m c b := (W9_of m c b h4).trans (W8_of m c b hD)

/-- A buffer no host stretch and no kernel writes reads as at launch, at every stage. -/
structure Untouched (b : Ref sig .tc) : Prop where
  h0 : b ∉ Gen.hostOps0_W
  h1 : b ∉ Gen.hostOps1_W
  h2 : b ∉ Gen.hostOps2_W
  h3 : b ∉ Gen.hostOps3_W
  h4 : b ∉ Gen.hostOps4_W
  hA : b ∉ ([main_v1_0, main_v1_1] : List (Ref sig .tc))
  hB : b ∉ ([main_v18_0, main_v18_1] : List (Ref sig .tc))
  hC : b ∉ ([main_v35_0, main_v35_1] : List (Ref sig .tc))
  hD : b ∉ ([main_v52_0, main_v52_1] : List (Ref sig .tc))

variable {b : Ref sig .tc} (u : Untouched b)
include u

theorem W1_arg : W1 m c b = m ((c : Thread nD τ).loc b) := W1_of m c b u.h0
theorem W2_arg : W2 m c b = m ((c : Thread nD τ).loc b) := (W2_of m c b u.hA).trans (W1_arg m c u)
theorem W3_arg : W3 m c b = m ((c : Thread nD τ).loc b) := (W3_of m c b u.h1).trans (W2_arg m c u)
theorem W4_arg : W4 m c b = m ((c : Thread nD τ).loc b) := (W4_of m c b u.hB).trans (W3_arg m c u)
theorem W5_arg : W5 m c b = m ((c : Thread nD τ).loc b) := (W5_of m c b u.h2).trans (W4_arg m c u)
theorem W6_arg : W6 m c b = m ((c : Thread nD τ).loc b) := (W6_of m c b u.hC).trans (W5_arg m c u)
theorem W7_arg : W7 m c b = m ((c : Thread nD τ).loc b) := (W7_of m c b u.h3).trans (W6_arg m c u)
theorem W8_arg : W8 m c b = m ((c : Thread nD τ).loc b) := (W8_of m c b u.hD).trans (W7_arg m c u)
theorem W9_arg : W9 m c b = m ((c : Thread nD τ).loc b) := (W9_of m c b u.h4).trans (W8_arg m c u)

end Chain

/-- The nineteen arguments are never written. -/
local macro "untouched" : term => `(⟨by decide, by decide, by decide, by decide, by decide, by decide, by decide, by decide, by decide⟩)

/-! ## The induction along the chain -/

section Induction

variable (m : (ℓ : Loc nD τ sig) → Buf (Elt Ideal) ℓ) (c : Dev nD)
  (r : RealArgs
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18)))

/-! ### Stage 1: the transposed input -/

theorem v0_W1 (k : Fin 64) (n : Fin 1536) : W1 m c main_v0 (ix2 k n) = ((r.x n k : ℝ) : EReal) := by
  unfold W1
  exact (host0_v0 (Gen.V0 m c) k n).trans (r.hx n k)

theorem v0_W3 (k : Fin 64) (n : Fin 1536) : W3 m c main_v0 (ix2 k n) = ((r.x n k : ℝ) : EReal) := by
  rw [W3_W1 m c main_v0 (by decide) (by decide)]; exact v0_W1 m c r k n
theorem v0_W5 (k : Fin 64) (n : Fin 1536) : W5 m c main_v0 (ix2 k n) = ((r.x n k : ℝ) : EReal) := by
  rw [W5_W3 m c main_v0 (by decide) (by decide)]; exact v0_W3 m c r k n
theorem v0_W7 (k : Fin 64) (n : Fin 1536) : W7 m c main_v0 (ix2 k n) = ((r.x n k : ℝ) : EReal) := by
  rw [W7_W5 m c main_v0 (by decide) (by decide)]; exact v0_W5 m c r k n
theorem v0_W9 (k : Fin 64) (n : Fin 1536) : W9 m c main_v0 (ix2 k n) = ((r.x n k : ℝ) : EReal) := by
  rw [W9_W7 m c main_v0 (by decide) (by decide)]; exact v0_W7 m c r k n

/-! ### Kernel 1 and the host stretch after it -/

theorem S1_tot (i : Fin 12) (o : Fin 16) :
    W2 m c main_v1_0 (ix3 i (0 : Fin 1) o) = ((rowTot (Z1 r) i o : ℝ) : EReal) := by
  rw [W2_at_main_v1_0]
  exact arr0_4 (V := atRef (W1 m)) (c := c) (x := r.x) (w1 := r.w1) (β1 := r.β1) (hx := v0_W1 m c r)
    (hW1 := rd2 (W1_arg m c (b := main_arg1) untouched) r.hw1)
    (hb1 := rd1 (W1_arg m c (b := main_arg2) untouched) r.hβ1) i o

theorem S1_sq (i : Fin 12) (o : Fin 16) :
    W2 m c main_v1_1 (ix3 i (0 : Fin 1) o) = ((rowSq (Z1 r) i o : ℝ) : EReal) := by
  rw [W2_at_main_v1_1]
  exact arr0_5 (V := atRef (W1 m)) (c := c) (x := r.x) (w1 := r.w1) (β1 := r.β1) (hx := v0_W1 m c r)
    (hW1 := rd2 (W1_arg m c (b := main_arg1) untouched) r.hw1)
    (hb1 := rd1 (W1_arg m c (b := main_arg2) untouched) r.hβ1) i o

theorem sc1_W3 (o : Fin 16) : W3 m c main_v15 (ix1 o) = ((SC1 r o : ℝ) : EReal) := by
  have h := host1_scale (W2 m c) (rowTot (Z1 r)) (rowSq (Z1 r)) r.γ1 (S1_tot m c r) (S1_sq m c r)
    (rd1 (W2_arg m c (b := main_arg3) untouched) r.hγ1) o (moments_nonneg (Z1 r) o)
  rw [← kscale_eq_moments] at h
  unfold W3
  exact h

theorem bi1_W3 (o : Fin 16) : W3 m c main_v17 (ix1 o) = ((BI1 r o : ℝ) : EReal) := by
  have h := host1_bias (W2 m c) (rowTot (Z1 r)) (rowSq (Z1 r)) r.γ1 r.δ1 (S1_tot m c r) (S1_sq m c r)
    (rd1 (W2_arg m c (b := main_arg3) untouched) r.hγ1) (rd1 (W2_arg m c (b := main_arg4) untouched) r.hδ1) o
    (moments_nonneg (Z1 r) o)
  rw [← kbias_eq_moments] at h
  unfold W3
  exact h

theorem sc1_W5 (o : Fin 16) : W5 m c main_v15 (ix1 o) = ((SC1 r o : ℝ) : EReal) := by
  rw [W5_W3 m c main_v15 (by decide) (by decide)]; exact sc1_W3 m c r o
theorem bi1_W5 (o : Fin 16) : W5 m c main_v17 (ix1 o) = ((BI1 r o : ℝ) : EReal) := by
  rw [W5_W3 m c main_v17 (by decide) (by decide)]; exact bi1_W3 m c r o
theorem sc1_W7 (o : Fin 16) : W7 m c main_v15 (ix1 o) = ((SC1 r o : ℝ) : EReal) := by
  rw [W7_W5 m c main_v15 (by decide) (by decide)]; exact sc1_W5 m c r o
theorem bi1_W7 (o : Fin 16) : W7 m c main_v17 (ix1 o) = ((BI1 r o : ℝ) : EReal) := by
  rw [W7_W5 m c main_v17 (by decide) (by decide)]; exact bi1_W5 m c r o
theorem sc1_W9 (o : Fin 16) : W9 m c main_v15 (ix1 o) = ((SC1 r o : ℝ) : EReal) := by
  rw [W9_W7 m c main_v15 (by decide) (by decide)]; exact sc1_W7 m c r o
theorem bi1_W9 (o : Fin 16) : W9 m c main_v17 (ix1 o) = ((BI1 r o : ℝ) : EReal) := by
  rw [W9_W7 m c main_v17 (by decide) (by decide)]; exact bi1_W7 m c r o

/-! ### Kernel 2 and the host stretch after it -/

theorem S2_tot (i : Fin 12) (o : Fin 16) :
    W4 m c main_v18_0 (ix3 i (0 : Fin 1) o) = ((rowTot (Z2 r) i o : ℝ) : EReal) := by
  rw [W4_at_main_v18_0]
  have h := arr1_8 (V := atRef (W3 m)) (c := c) (x := r.x) (w1 := r.w1) (β1 := r.β1) (sc1 := SC1 r) (bi1 := BI1 r)
    (w2 := r.w2) (β2 := r.β2) (hx := v0_W3 m c r)
    (hW1 := rd2 (W3_arg m c (b := main_arg1) untouched) r.hw1) (hb1 := rd1 (W3_arg m c (b := main_arg2) untouched) r.hβ1)
    (hW2 := rd2 (W3_arg m c (b := main_arg5) untouched) r.hw2) (hb2 := rd1 (W3_arg m c (b := main_arg6) untouched) r.hβ2)
    (hsc1 := sc1_W3 m c r) (hbi1 := bi1_W3 m c r) i o
  rw [z2S_eq] at h
  exact h

theorem S2_sq (i : Fin 12) (o : Fin 16) :
    W4 m c main_v18_1 (ix3 i (0 : Fin 1) o) = ((rowSq (Z2 r) i o : ℝ) : EReal) := by
  rw [W4_at_main_v18_1]
  have h := arr1_9 (V := atRef (W3 m)) (c := c) (x := r.x) (w1 := r.w1) (β1 := r.β1) (sc1 := SC1 r) (bi1 := BI1 r)
    (w2 := r.w2) (β2 := r.β2) (hx := v0_W3 m c r)
    (hW1 := rd2 (W3_arg m c (b := main_arg1) untouched) r.hw1) (hb1 := rd1 (W3_arg m c (b := main_arg2) untouched) r.hβ1)
    (hW2 := rd2 (W3_arg m c (b := main_arg5) untouched) r.hw2) (hb2 := rd1 (W3_arg m c (b := main_arg6) untouched) r.hβ2)
    (hsc1 := sc1_W3 m c r) (hbi1 := bi1_W3 m c r) i o
  rw [z2S_eq] at h
  exact h

theorem sc2_W5 (o : Fin 16) : W5 m c main_v32 (ix1 o) = ((SC2 r o : ℝ) : EReal) := by
  have h := host2_scale (W4 m c) (rowTot (Z2 r)) (rowSq (Z2 r)) r.γ2 (S2_tot m c r) (S2_sq m c r)
    (rd1 (W4_arg m c (b := main_arg7) untouched) r.hγ2) o (moments_nonneg (Z2 r) o)
  rw [← kscale_eq_moments] at h
  unfold W5
  exact h

theorem bi2_W5 (o : Fin 16) : W5 m c main_v34 (ix1 o) = ((BI2 r o : ℝ) : EReal) := by
  have h := host2_bias (W4 m c) (rowTot (Z2 r)) (rowSq (Z2 r)) r.γ2 r.δ2 (S2_tot m c r) (S2_sq m c r)
    (rd1 (W4_arg m c (b := main_arg7) untouched) r.hγ2) (rd1 (W4_arg m c (b := main_arg8) untouched) r.hδ2) o
    (moments_nonneg (Z2 r) o)
  rw [← kbias_eq_moments] at h
  unfold W5
  exact h

theorem sc2_W7 (o : Fin 16) : W7 m c main_v32 (ix1 o) = ((SC2 r o : ℝ) : EReal) := by
  rw [W7_W5 m c main_v32 (by decide) (by decide)]; exact sc2_W5 m c r o
theorem bi2_W7 (o : Fin 16) : W7 m c main_v34 (ix1 o) = ((BI2 r o : ℝ) : EReal) := by
  rw [W7_W5 m c main_v34 (by decide) (by decide)]; exact bi2_W5 m c r o
theorem sc2_W9 (o : Fin 16) : W9 m c main_v32 (ix1 o) = ((SC2 r o : ℝ) : EReal) := by
  rw [W9_W7 m c main_v32 (by decide) (by decide)]; exact sc2_W7 m c r o
theorem bi2_W9 (o : Fin 16) : W9 m c main_v34 (ix1 o) = ((BI2 r o : ℝ) : EReal) := by
  rw [W9_W7 m c main_v34 (by decide) (by decide)]; exact bi2_W7 m c r o

/-! ### Kernel 3 and the host stretch after it -/

theorem S3_tot (i : Fin 12) (o : Fin 8) :
    W6 m c main_v35_0 (ix3 i (0 : Fin 1) o) = ((rowTot (Z3 r) i o : ℝ) : EReal) := by
  rw [W6_at_main_v35_0]
  have h := arr2_12 (V := atRef (W5 m)) (c := c) (x := r.x) (w1 := r.w1) (β1 := r.β1) (sc1 := SC1 r) (bi1 := BI1 r)
    (w2 := r.w2) (β2 := r.β2) (sc2 := SC2 r) (bi2 := BI2 r) (w3 := r.w3) (β3 := r.β3) (hx := v0_W5 m c r)
    (hW1 := rd2 (W5_arg m c (b := main_arg1) untouched) r.hw1) (hb1 := rd1 (W5_arg m c (b := main_arg2) untouched) r.hβ1)
    (hW2 := rd2 (W5_arg m c (b := main_arg5) untouched) r.hw2) (hb2 := rd1 (W5_arg m c (b := main_arg6) untouched) r.hβ2)
    (hW3 := rd2 (W5_arg m c (b := main_arg9) untouched) r.hw3) (hb3 := rd1 (W5_arg m c (b := main_arg10) untouched) r.hβ3)
    (hsc1 := sc1_W5 m c r) (hbi1 := bi1_W5 m c r) (hsc2 := sc2_W5 m c r) (hbi2 := bi2_W5 m c r) i o
  rw [z3S_eq] at h
  exact h

theorem S3_sq (i : Fin 12) (o : Fin 8) :
    W6 m c main_v35_1 (ix3 i (0 : Fin 1) o) = ((rowSq (Z3 r) i o : ℝ) : EReal) := by
  rw [W6_at_main_v35_1]
  have h := arr2_13 (V := atRef (W5 m)) (c := c) (x := r.x) (w1 := r.w1) (β1 := r.β1) (sc1 := SC1 r) (bi1 := BI1 r)
    (w2 := r.w2) (β2 := r.β2) (sc2 := SC2 r) (bi2 := BI2 r) (w3 := r.w3) (β3 := r.β3) (hx := v0_W5 m c r)
    (hW1 := rd2 (W5_arg m c (b := main_arg1) untouched) r.hw1) (hb1 := rd1 (W5_arg m c (b := main_arg2) untouched) r.hβ1)
    (hW2 := rd2 (W5_arg m c (b := main_arg5) untouched) r.hw2) (hb2 := rd1 (W5_arg m c (b := main_arg6) untouched) r.hβ2)
    (hW3 := rd2 (W5_arg m c (b := main_arg9) untouched) r.hw3) (hb3 := rd1 (W5_arg m c (b := main_arg10) untouched) r.hβ3)
    (hsc1 := sc1_W5 m c r) (hbi1 := bi1_W5 m c r) (hsc2 := sc2_W5 m c r) (hbi2 := bi2_W5 m c r) i o
  rw [z3S_eq] at h
  exact h

theorem sc3_W7 (o : Fin 8) : W7 m c main_v49 (ix1 o) = ((SC3 r o : ℝ) : EReal) := by
  have h := host3_scale (W6 m c) (rowTot (Z3 r)) (rowSq (Z3 r)) r.γ3 (S3_tot m c r) (S3_sq m c r)
    (rd1 (W6_arg m c (b := main_arg11) untouched) r.hγ3) o (moments_nonneg (Z3 r) o)
  rw [← kscale_eq_moments] at h
  unfold W7
  exact h

theorem bi3_W7 (o : Fin 8) : W7 m c main_v51 (ix1 o) = ((BI3 r o : ℝ) : EReal) := by
  have h := host3_bias (W6 m c) (rowTot (Z3 r)) (rowSq (Z3 r)) r.γ3 r.δ3 (S3_tot m c r) (S3_sq m c r)
    (rd1 (W6_arg m c (b := main_arg11) untouched) r.hγ3) (rd1 (W6_arg m c (b := main_arg12) untouched) r.hδ3) o
    (moments_nonneg (Z3 r) o)
  rw [← kbias_eq_moments] at h
  unfold W7
  exact h

theorem sc3_W9 (o : Fin 8) : W9 m c main_v49 (ix1 o) = ((SC3 r o : ℝ) : EReal) := by
  rw [W9_W7 m c main_v49 (by decide) (by decide)]; exact sc3_W7 m c r o
theorem bi3_W9 (o : Fin 8) : W9 m c main_v51 (ix1 o) = ((BI3 r o : ℝ) : EReal) := by
  rw [W9_W7 m c main_v51 (by decide) (by decide)]; exact bi3_W7 m c r o

/-! ### Kernel 4 and the host stretch after it -/

theorem S4_tot (i : Fin 12) (o : Fin 8) :
    W8 m c main_v52_0 (ix3 i (0 : Fin 1) o) = ((rowTot (Z4 r) i o : ℝ) : EReal) := by
  rw [W8_at_main_v52_0]
  have h := arr3_16 (V := atRef (W7 m)) (c := c) (x := r.x) (w1 := r.w1) (β1 := r.β1) (sc1 := SC1 r) (bi1 := BI1 r)
    (w2 := r.w2) (β2 := r.β2) (sc2 := SC2 r) (bi2 := BI2 r) (w3 := r.w3) (β3 := r.β3) (sc3 := SC3 r) (bi3 := BI3 r)
    (w4 := r.w4) (β4 := r.β4) (hx := v0_W7 m c r)
    (hW1 := rd2 (W7_arg m c (b := main_arg1) untouched) r.hw1) (hb1 := rd1 (W7_arg m c (b := main_arg2) untouched) r.hβ1)
    (hW2 := rd2 (W7_arg m c (b := main_arg5) untouched) r.hw2) (hb2 := rd1 (W7_arg m c (b := main_arg6) untouched) r.hβ2)
    (hW3 := rd2 (W7_arg m c (b := main_arg9) untouched) r.hw3) (hb3 := rd1 (W7_arg m c (b := main_arg10) untouched) r.hβ3)
    (hW4 := rd2 (W7_arg m c (b := main_arg13) untouched) r.hw4) (hb4 := rd1 (W7_arg m c (b := main_arg14) untouched) r.hβ4)
    (hsc1 := sc1_W7 m c r) (hbi1 := bi1_W7 m c r) (hsc2 := sc2_W7 m c r) (hbi2 := bi2_W7 m c r)
    (hsc3 := sc3_W7 m c r) (hbi3 := bi3_W7 m c r) i o
  rw [z4S_eq] at h
  exact h

theorem S4_sq (i : Fin 12) (o : Fin 8) :
    W8 m c main_v52_1 (ix3 i (0 : Fin 1) o) = ((rowSq (Z4 r) i o : ℝ) : EReal) := by
  rw [W8_at_main_v52_1]
  have h := arr3_17 (V := atRef (W7 m)) (c := c) (x := r.x) (w1 := r.w1) (β1 := r.β1) (sc1 := SC1 r) (bi1 := BI1 r)
    (w2 := r.w2) (β2 := r.β2) (sc2 := SC2 r) (bi2 := BI2 r) (w3 := r.w3) (β3 := r.β3) (sc3 := SC3 r) (bi3 := BI3 r)
    (w4 := r.w4) (β4 := r.β4) (hx := v0_W7 m c r)
    (hW1 := rd2 (W7_arg m c (b := main_arg1) untouched) r.hw1) (hb1 := rd1 (W7_arg m c (b := main_arg2) untouched) r.hβ1)
    (hW2 := rd2 (W7_arg m c (b := main_arg5) untouched) r.hw2) (hb2 := rd1 (W7_arg m c (b := main_arg6) untouched) r.hβ2)
    (hW3 := rd2 (W7_arg m c (b := main_arg9) untouched) r.hw3) (hb3 := rd1 (W7_arg m c (b := main_arg10) untouched) r.hβ3)
    (hW4 := rd2 (W7_arg m c (b := main_arg13) untouched) r.hw4) (hb4 := rd1 (W7_arg m c (b := main_arg14) untouched) r.hβ4)
    (hsc1 := sc1_W7 m c r) (hbi1 := bi1_W7 m c r) (hsc2 := sc2_W7 m c r) (hbi2 := bi2_W7 m c r)
    (hsc3 := sc3_W7 m c r) (hbi3 := bi3_W7 m c r) i o
  rw [z4S_eq] at h
  exact h

theorem sc4_W9 (o : Fin 8) : W9 m c main_v66 (ix1 o) = ((SC4 r o : ℝ) : EReal) := by
  have h := host4_scale (W8 m c) (rowTot (Z4 r)) (rowSq (Z4 r)) r.γ4 (S4_tot m c r) (S4_sq m c r)
    (rd1 (W8_arg m c (b := main_arg15) untouched) r.hγ4) o (moments_nonneg (Z4 r) o)
  rw [← kscale_eq_moments] at h
  unfold W9
  exact h

theorem bi4_W9 (o : Fin 8) : W9 m c main_v68 (ix1 o) = ((BI4 r o : ℝ) : EReal) := by
  have h := host4_bias (W8 m c) (rowTot (Z4 r)) (rowSq (Z4 r)) r.γ4 r.δ4 (S4_tot m c r) (S4_sq m c r)
    (rd1 (W8_arg m c (b := main_arg15) untouched) r.hγ4) (rd1 (W8_arg m c (b := main_arg16) untouched) r.hδ4) o
    (moments_nonneg (Z4 r) o)
  rw [← kbias_eq_moments] at h
  unfold W9
  exact h

/-! ### Kernel 5: the result -/

theorem out_at (n p : Fin 1536) : W10 m c main_v69 (ix2 n p) = ((r.net n p : ℝ) : EReal) := by
  rw [W10_at_main_v69]
  have h := arr4_20 (V := atRef (W9 m)) (c := c) (x := r.x) (w1 := r.w1) (β1 := r.β1) (sc1 := SC1 r) (bi1 := BI1 r)
    (w2 := r.w2) (β2 := r.β2) (sc2 := SC2 r) (bi2 := BI2 r) (w3 := r.w3) (β3 := r.β3) (sc3 := SC3 r) (bi3 := BI3 r)
    (w4 := r.w4) (β4 := r.β4) (sc4 := SC4 r) (bi4 := BI4 r) (w5 := r.w5) (β5 := r.β5) (hx := v0_W9 m c r)
    (hW1 := rd2 (W9_arg m c (b := main_arg1) untouched) r.hw1) (hb1 := rd1 (W9_arg m c (b := main_arg2) untouched) r.hβ1)
    (hW2 := rd2 (W9_arg m c (b := main_arg5) untouched) r.hw2) (hb2 := rd1 (W9_arg m c (b := main_arg6) untouched) r.hβ2)
    (hW3 := rd2 (W9_arg m c (b := main_arg9) untouched) r.hw3) (hb3 := rd1 (W9_arg m c (b := main_arg10) untouched) r.hβ3)
    (hW4 := rd2 (W9_arg m c (b := main_arg13) untouched) r.hw4) (hb4 := rd1 (W9_arg m c (b := main_arg14) untouched) r.hβ4)
    (hW5 := rd2 (W9_arg m c (b := main_arg17) untouched) r.hw5) (hb5 := rd1 (W9_arg m c (b := main_arg18) untouched) r.hβ5)
    (hsc1 := sc1_W9 m c r) (hbi1 := bi1_W9 m c r) (hsc2 := sc2_W9 m c r) (hbi2 := bi2_W9 m c r)
    (hsc3 := sc3_W9 m c r) (hbi3 := bi3_W9 m c r) (hsc4 := sc4_W9 m c r) (hbi4 := bi4_W9 m c r) n p
  rw [z4S_eq, act4] at h
  exact h

/-- The kernel program's result buffer, at the end of the chain, is the coercion of the real network's output. -/
theorem kernel_out :
    (W10 m c main_v69 : FVec Ideal S1536x1536 .f32) = fun i => ((r.net (i 0) (i 1) : ℝ) : EReal) := by
  funext i
  rw [eq_ix2 i]
  exact out_at m c r (i 0) (i 1)

end Induction

end Cert.KernelIdeal.Val

end
-- ==== Proof.lean ====
/-
  The certificate of the five-kernel network against its reference.

  Both programs compute, for every pair (n, m) of the 1536 rows of x, the features |x[n,·] − x[m,·]| pushed through four
  blocks "1×1 convolution, batch normalisation over all pairs, leaky rectifier" and a last convolution to one channel. The
  reference does it in one pass per block over the whole 1536 × 1536 × C array, with jnp.mean and jnp.var. The kernel works
  on 128 × 128 tiles of pairs, channels first, in five passes: pass K (K = 1..4) recomputes the chain up to block K's
  convolution on every tile and adds, per row of tiles, the sum and the sum of squares of the pre-activation; between passes
  the host sums the twelve rows, forms mean and variance through the second moment, and folds the normalisation into one
  scale and one shift per channel; the fifth pass recomputes the whole chain and stores the output tile.

  Over the extended reals the two agree where every input is a real number, which the precondition says: then every
  pre-activation is real, the variance through the second moment is the variance through centred squares, it is nonnegative
  so the reciprocal square root of variance plus epsilon is real, and (z − mean) · rsqrt · gamma + beta = z · scale + shift
  with scale = gamma · rsqrt and shift = beta − mean · scale. Sums over tiles and rows of tiles are the sum over all pairs in
  another order; rounding to bf16 on the way into a product is the identity at this instance.

  The three frames: each program terminates from any memory and leaves its arguments unchanged. For the two kernel programs
  this is the launch theorem of several regions over five hand-written region records (two windows of every call stage the
  same array, the transposed features, each at one half of its full share); for the reference it is its run with the result
  dropped. The idealisation rewrote nothing, so that claim is trivial.
-/
import proofs.«135850_j19774029431551_2_alg».proof.Defs
import proofs.«135850_j19774029431551_2_alg».proof.Proof.Gen.Kernel
import proofs.«135850_j19774029431551_2_alg».proof.Proof.Gen.KernelIdeal
import proofs.«135850_j19774029431551_2_alg».proof.Proof.Gen.ReferenceIdeal
import proofs.«135850_j19774029431551_2_alg».proof.Proof.Gen.Pre_finite_inputs
import proofs.«135850_j19774029431551_2_alg».proof.Proof.Kernel.Frame
import proofs.«135850_j19774029431551_2_alg».proof.Proof.KernelIdeal.RunNamed
import proofs.«135850_j19774029431551_2_alg».proof.Proof.Ref.Run
import proofs.«135850_j19774029431551_2_alg».proof.Proof.Reals
import proofs.«135850_j19774029431551_2_alg».proof.Proof.Val.Final
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Hand.frame m ρ

/-- So does the kernel program read at the exact instance. -/
theorem frame_kernelIdeal : Cert.frame_KernelIdeal := fun m ρ _ => Cert.KernelIdeal.Hand.frame m ρ

/-- The reference runs and leaves its arguments unchanged: its run, the result dropped. -/
theorem frame_reference : Cert.frame_ReferenceIdeal := fun m ρ _ =>
  (θ_run (Cert.ReferenceIdeal.defs (F := Ideal)) _ _).mono (fun _ h c => (h c).2) (Cert.ReferenceIdeal.Hand.run (F := Ideal) m ρ)

/-- At the end of the kernel program's run an argument array holds its launch contents: no item writes it. -/
theorem last_arg (m : (ℓ : Loc Cert.KernelIdeal.nD Cert.KernelIdeal.τ Cert.KernelIdeal.sig) → Buf (Elt Ideal) ℓ) (c : Dev Cert.KernelIdeal.nD) (b : DevRef Cert.KernelIdeal.τ Cert.KernelIdeal.sig)
    (v : Buf (Elt Ideal) ((c : Thread Cert.KernelIdeal.nD Cert.KernelIdeal.τ).1, b)) (h : Cert.KernelIdeal.Gen.V10 m (Cert.KernelIdeal.Hand.outs m) c b = v) :
    Cert.KernelIdeal.Hand.W10 m c b = v :=
  (congrFun (Cert.KernelIdeal.Hand.V10_eq m c) b).symm.trans h

set_option maxHeartbeats 3200000 in
/-- From memories agreeing on the arguments, both programs end with the network's values: the kernel's result array is read
    off the last valuation of its chain of buffer contents, the reference's is its run's term; on real inputs both are the
    coercion of the real-valued network. -/
theorem algebraic : Cert.algebraic_KernelIdeal_ReferenceIdeal := by
  intro m ρ m' ρ' hpre hagree
  have hr : ∀ c : Dev Cert.KernelIdeal.nD, Nonempty (Cert.Hand.RealArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) :=
    fun c => Cert.Hand.RealArgs.of_and (Cert.Hand.real_of_pre _ _ _ _ _ _ _ _ _ _ _ _ _ _ _ _ _ _ _ (hpre c))
  refine ⟨fun c i => ((((hr c).some).net (i 0) (i 1) : ℝ) : EReal), ?_, ?_⟩
  · refine (θ_run (Cert.KernelIdeal.defs (F := Ideal)) _ _).mono (fun s h c => ?_) (Cert.KernelIdeal.Hand.run_chain m ρ)
    refine ⟨(h c _ (Cert.KernelIdeal.Hand.mem_uc Cert.KernelIdeal.main_v69 (by decide))).trans (Cert.KernelIdeal.Val.kernel_out m c (hr c).some), ?_⟩
    exact ⟨(h c _ (Cert.KernelIdeal.Hand.mem_uc Cert.KernelIdeal.main_arg0 (by decide))).trans (last_arg m c _ _ (Cert.KernelIdeal.Gen.V10_main_arg0 m (Cert.KernelIdeal.Hand.outs m) c)),
      (h c _ (Cert.KernelIdeal.Hand.mem_uc Cert.KernelIdeal.main_arg1 (by decide))).trans (last_arg m c _ _ (Cert.KernelIdeal.Gen.V10_main_arg1 m (Cert.KernelIdeal.Hand.outs m) c)),
      (h c _ (Cert.KernelIdeal.Hand.mem_uc Cert.KernelIdeal.main_arg2 (by decide))).trans (last_arg m c _ _ (Cert.KernelIdeal.Gen.V10_main_arg2 m (Cert.KernelIdeal.Hand.outs m) c)),
      (h c _ (Cert.KernelIdeal.Hand.mem_uc Cert.KernelIdeal.main_arg3 (by decide))).trans (last_arg m c _ _ (Cert.KernelIdeal.Gen.V10_main_arg3 m (Cert.KernelIdeal.Hand.outs m) c)),
      (h c _ (Cert.KernelIdeal.Hand.mem_uc Cert.KernelIdeal.main_arg4 (by decide))).trans (last_arg m c _ _ (Cert.KernelIdeal.Gen.V10_main_arg4 m (Cert.KernelIdeal.Hand.outs m) c)),
      (h c _ (Cert.KernelIdeal.Hand.mem_uc Cert.KernelIdeal.main_arg5 (by decide))).trans (last_arg m c _ _ (Cert.KernelIdeal.Gen.V10_main_arg5 m (Cert.KernelIdeal.Hand.outs m) c)),
      (h c _ (Cert.KernelIdeal.Hand.mem_uc Cert.KernelIdeal.main_arg6 (by decide))).trans (last_arg m c _ _ (Cert.KernelIdeal.Gen.V10_main_arg6 m (Cert.KernelIdeal.Hand.outs m) c)),
      (h c _ (Cert.KernelIdeal.Hand.mem_uc Cert.KernelIdeal.main_arg7 (by decide))).trans (last_arg m c _ _ (Cert.KernelIdeal.Gen.V10_main_arg7 m (Cert.KernelIdeal.Hand.outs m) c)),
      (h c _ (Cert.KernelIdeal.Hand.mem_uc Cert.KernelIdeal.main_arg8 (by decide))).trans (last_arg m c _ _ (Cert.KernelIdeal.Gen.V10_main_arg8 m (Cert.KernelIdeal.Hand.outs m) c)),
      (h c _ (Cert.KernelIdeal.Hand.mem_uc Cert.KernelIdeal.main_arg9 (by decide))).trans (last_arg m c _ _ (Cert.KernelIdeal.Gen.V10_main_arg9 m (Cert.KernelIdeal.Hand.outs m) c)),
      (h c _ (Cert.KernelIdeal.Hand.mem_uc Cert.KernelIdeal.main_arg10 (by decide))).trans (last_arg m c _ _ (Cert.KernelIdeal.Gen.V10_main_arg10 m (Cert.KernelIdeal.Hand.outs m) c)),
      (h c _ (Cert.KernelIdeal.Hand.mem_uc Cert.KernelIdeal.main_arg11 (by decide))).trans (last_arg m c _ _ (Cert.KernelIdeal.Gen.V10_main_arg11 m (Cert.KernelIdeal.Hand.outs m) c)),
      (h c _ (Cert.KernelIdeal.Hand.mem_uc Cert.KernelIdeal.main_arg12 (by decide))).trans (last_arg m c _ _ (Cert.KernelIdeal.Gen.V10_main_arg12 m (Cert.KernelIdeal.Hand.outs m) c)),
      (h c _ (Cert.KernelIdeal.Hand.mem_uc Cert.KernelIdeal.main_arg13 (by decide))).trans (last_arg m c _ _ (Cert.KernelIdeal.Gen.V10_main_arg13 m (Cert.KernelIdeal.Hand.outs m) c)),
      (h c _ (Cert.KernelIdeal.Hand.mem_uc Cert.KernelIdeal.main_arg14 (by decide))).trans (last_arg m c _ _ (Cert.KernelIdeal.Gen.V10_main_arg14 m (Cert.KernelIdeal.Hand.outs m) c)),
      (h c _ (Cert.KernelIdeal.Hand.mem_uc Cert.KernelIdeal.main_arg15 (by decide))).trans (last_arg m c _ _ (Cert.KernelIdeal.Gen.V10_main_arg15 m (Cert.KernelIdeal.Hand.outs m) c)),
      (h c _ (Cert.KernelIdeal.Hand.mem_uc Cert.KernelIdeal.main_arg16 (by decide))).trans (last_arg m c _ _ (Cert.KernelIdeal.Gen.V10_main_arg16 m (Cert.KernelIdeal.Hand.outs m) c)),
      (h c _ (Cert.KernelIdeal.Hand.mem_uc Cert.KernelIdeal.main_arg17 (by decide))).trans (last_arg m c _ _ (Cert.KernelIdeal.Gen.V10_main_arg17 m (Cert.KernelIdeal.Hand.outs m) c)),
      (h c _ (Cert.KernelIdeal.Hand.mem_uc Cert.KernelIdeal.main_arg18 (by decide))).trans (last_arg m c _ _ (Cert.KernelIdeal.Gen.V10_main_arg18 m (Cert.KernelIdeal.Hand.outs m) c))⟩
  · refine (θ_run (Cert.ReferenceIdeal.defs (F := Ideal)) _ _).mono (fun s h c => ⟨(h c).1.trans ?_, (h c).2⟩) (Cert.ReferenceIdeal.Hand.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    exact ((hr c).some).out_eq

/-- Everything the certificate claims. -/
theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
